-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x3 : Shape := ⟨2, ![16384, 3]⟩
abbrev S1000000x64 : Shape := ⟨2, ![1000000, 64]⟩
abbrev S100000x64 : Shape := ⟨2, ![100000, 64]⟩
abbrev S64 : Shape := ⟨1, ![64]⟩
abbrev S64x192 : Shape := ⟨2, ![64, 192]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64 : S_.BroadcastsInDim S64 (![] : Fin 0 → Fin S64.rank)
  reducesTo_S64_S_d0 : S64.ReducesTo [0] S_
  bcast_S_S64x192 : S_.BroadcastsInDim S64x192 (![] : Fin 0 → Fin S64x192.rank)
  reducesTo_S64x192_S_d0_1 : S64x192.ReducesTo [0, 1] S_
  bcast_S_S16384x3 : S_.BroadcastsInDim S16384x3 (![] : Fin 0 → Fin S16384x3.rank)
  reducesTo_S16384x3_S_d0_1 : S16384x3.ReducesTo [0, 1] S_

variable [Facts]

def fn_part2 {F : FTy → Type} [FloatOps F] (main_arg1 : IVec S16384x3 32) (main_v30 : IVec S_ 1) (main_v32 : IVec S16384x3 1) (main_c_12 : IVec S_ 32) : IVec S_ 1 :=
  let main_v33 : IVec S16384x3 32 := broadcastInDim S16384x3 ![] bcast_S_S16384x3 main_c_12
  let main_v34 : IVec S16384x3 1 := cmpi .sle main_arg1 main_v33
  let main_v35 : IVec S16384x3 1 := andi main_v32 main_v34
  let main_c_13 : IVec S_ 1 := constantI S_ 1 1#1
  let main_v36 : IVec S_ 1 := (fun x v => Host.reduce IntOp.andi x v reducesTo_S16384x3_S_d0_1 h_S_) main_v35 main_c_13
  let main_v37 : IVec S_ 1 := andi main_v30 main_v36
  main_v37

def fn_part1 {F : FTy → Type} [FloatOps F] (main_arg0 : IVec S16384x3 32) (main_arg1 : IVec S16384x3 32) (main_arg6 : FVec F S64 .f32) (main_v13 : IVec S_ 1) (main_v16 : IVec S64x192 1) : IVec S_ 1 :=
  let main_c_5 : IVec S_ 1 := constantI S_ 1 1#1
  let main_v17 : IVec S_ 1 := (fun x v => Host.reduce IntOp.andi x v reducesTo_S64x192_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S16384x3 32 := broadcastInDim S16384x3 ![] bcast_S_S16384x3 main_c_8
  let main_v25 : IVec S16384x3 1 := cmpi .sge main_arg0 main_v24
  let main_c_9 : IVec S_ 32 := constantI S_ 32 99999#32
  let main_v26 : IVec S16384x3 32 := broadcastInDim S16384x3 ![] bcast_S_S16384x3 main_c_9
  let main_v27 : IVec S16384x3 1 := cmpi .sle main_arg0 main_v26
  let main_v28 : IVec S16384x3 1 := andi main_v25 main_v27
  let main_c_10 : IVec S_ 1 := constantI S_ 1 1#1
  let main_v29 : IVec S_ 1 := (fun x v => Host.reduce IntOp.andi x v reducesTo_S16384x3_S_d0_1 h_S_) main_v28 main_c_10
  let main_v30 : IVec S_ 1 := andi main_v23 main_v29
  let main_c_11 : IVec S_ 32 := constantI S_ 32 0#32
  let main_v31 : IVec S16384x3 32 := broadcastInDim S16384x3 ![] bcast_S_S16384x3 main_c_11
  let main_v32 : IVec S16384x3 1 := cmpi .sge main_arg1 main_v31
  let main_c_12 : IVec S_ 32 := constantI S_ 32 99999#32
  fn_part2 (F := F) main_arg1 main_v30 main_v32 main_c_12

def fn {F : FTy → Type} [FloatOps F] (main_arg0 : IVec S16384x3 32) (main_arg1 : IVec S16384x3 32) (main_arg2 : FVec F S1000000x64 .f32) (main_arg3 : FVec F S100000x64 .f32) (main_arg4 : FVec F S64 .f32) (main_arg5 : FVec F S64x192 .f32) (main_arg6 : FVec F S64 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x192 .f32 := Host.absf main_arg5
  let main_cst_4 : FVec F S_ .f32 := constant S_ .f32 0x7F800000#32
  let main_v15 : FVec F S64x192 .f32 := broadcastInDim S64x192 ![] bcast_S_S64x192 main_cst_4
  let main_v16 : IVec S64x192 1 := cmpf .olt main_v14 main_v15
  fn_part1 (F := F) main_arg0 main_arg1 main_arg6 main_v13 main_v16
-- ==== Kernel.lean ====
abbrev S16384x3 : Shape := ⟨2, ![16384, 3]⟩
abbrev S1000000x64 : Shape := ⟨2, ![1000000, 64]⟩
abbrev S100000x64 : Shape := ⟨2, ![100000, 64]⟩
abbrev S64 : Shape := ⟨1, ![64]⟩
abbrev S64x192 : Shape := ⟨2, ![64, 192]⟩
abbrev S16384x1 : Shape := ⟨2, ![16384, 1]⟩
abbrev S16384 : Shape := ⟨1, ![16384]⟩
abbrev S64x1000000 : Shape := ⟨2, ![64, 1000000]⟩
abbrev S64x100000 : Shape := ⟨2, ![64, 100000]⟩
abbrev S100352x128 : Shape := ⟨2, ![100352, 128]⟩
abbrev S64x2048 : Shape := ⟨2, ![64, 2048]⟩
abbrev S2048x128 : Shape := ⟨2, ![2048, 128]⟩
abbrev S2048x64 : Shape := ⟨2, ![2048, 64]⟩
abbrev S16384x128 : Shape := ⟨2, ![16384, 128]⟩
abbrev S3072 : Shape := ⟨1, ![3072]⟩
abbrev S4x128x128 : Shape := ⟨3, ![4, 128, 128]⟩
abbrev S_ : Shape := ⟨0, ![]⟩
abbrev S512 : Shape := ⟨1, ![512]⟩
abbrev S1x128x128 : Shape := ⟨3, ![1, 128, 128]⟩
abbrev S128x128 : Shape := ⟨2, ![128, 128]⟩
abbrev S128 : Shape := ⟨1, ![128]⟩
abbrev S64x64 : Shape := ⟨2, ![64, 64]⟩
abbrev S1x64 : Shape := ⟨2, ![1, 64]⟩
abbrev S1x1 : Shape := ⟨2, ![1, 1]⟩
abbrev S4096x128 : Shape := ⟨2, ![4096, 128]⟩
abbrev S4096x64 : Shape := ⟨2, ![4096, 64]⟩
abbrev S4096 : Shape := ⟨1, ![4096]⟩
abbrev S4096x1 : Shape := ⟨2, ![4096, 1]⟩
abbrev S1 : Shape := ⟨1, ![1]⟩

abbrev nBuf : Table → Nat
  | .hbm => 39
  | .local .tc .vmem => 22
  | .local .scVector .vmem => 2
  | _ => 0

abbrev bufTy : (tb : Table) → Fin (nBuf tb) → BufTy
  | .hbm, ⟨0, _⟩ => ⟨S16384x3, .i32⟩
  | .hbm, ⟨1, _⟩ => ⟨S16384x3, .i32⟩
  | .hbm, ⟨2, _⟩ => ⟨S1000000x64, .f32⟩
  | .hbm, ⟨3, _⟩ => ⟨S100000x64, .f32⟩
  | .hbm, ⟨4, _⟩ => ⟨S64, .f32⟩
  | .hbm, ⟨5, _⟩ => ⟨S64x192, .f32⟩
  | .hbm, ⟨6, _⟩ => ⟨S64, .f32⟩
  | .hbm, ⟨7, _⟩ => ⟨S16384x1, .i32⟩
  | .hbm, ⟨8, _⟩ => ⟨S16384, .i32⟩
  | .hbm, ⟨9, _⟩ => ⟨S16384x1, .i32⟩
  | .hbm, ⟨10, _⟩ => ⟨S16384, .i32⟩
  | .hbm, ⟨11, _⟩ => ⟨S16384x1, .i32⟩
  | .hbm, ⟨12, _⟩ => ⟨S16384, .i32⟩
  | .hbm, ⟨13, _⟩ => ⟨S16384x1, .i32⟩
  | .hbm, ⟨14, _⟩ => ⟨S16384, .i32⟩
  | .hbm, ⟨15, _⟩ => ⟨S16384x1, .i32⟩
  | .hbm, ⟨16, _⟩ => ⟨S16384, .i32⟩
  | .hbm, ⟨17, _⟩ => ⟨S16384x1, .i32⟩
  | .hbm, ⟨18, _⟩ => ⟨S16384, .i32⟩
  | .hbm, ⟨19, _⟩ => ⟨S64x1000000, .f32⟩
  | .hbm, ⟨20, _⟩ => ⟨S64x100000, .f32⟩
  | .hbm, ⟨21, _⟩ => ⟨S100352x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64, .f32⟩
  | .hbm, ⟨35, _⟩ => ⟨S64, .f32⟩
  | .hbm, ⟨36, _⟩ => ⟨S1x64, .f32⟩
  | .hbm, ⟨37, _⟩ => ⟨S1x1, .f32⟩
  | .hbm, ⟨38, _⟩ => ⟨S_, .f32⟩
  | .local .tc .vmem, ⟨0, _⟩ => ⟨S64x2048, .f32⟩
  | .local .tc .vmem, ⟨1, _⟩ => ⟨S64x2048, .f32⟩
  | .local .tc .vmem, ⟨2, _⟩ => ⟨S64x2048, .f32⟩
  | .local .tc .vmem, ⟨3, _⟩ => ⟨S64x2048, .f32⟩
  | .local .tc .vmem, ⟨4, _⟩ => ⟨S2048x128, .f32⟩
  | .local .tc .vmem, ⟨5, _⟩ => ⟨S2048x128, .f32⟩
  | .local .tc .vmem, ⟨6, _⟩ => ⟨S4096x128, .f32⟩
  | .local .tc .vmem, ⟨7, _⟩ => ⟨S4096x128, .f32⟩
  | .local .tc .vmem, ⟨8, _⟩ => ⟨S4096x128, .f32⟩
  | .local .tc .vmem, ⟨9, _⟩ => ⟨S4096x128, .f32⟩
  | .local .tc .vmem, ⟨10, _⟩ => ⟨S4096x128, .f32⟩
  | .local .tc .vmem, ⟨11, _⟩ => ⟨S4096x128, .f32⟩
  | .local .tc .vmem, ⟨12, _⟩ => ⟨S4096x128, .f32⟩
  | .local .tc .vmem, ⟨13, _⟩ => ⟨S4096x128, .f32⟩
  | .local .tc .vmem, ⟨14, _⟩ => ⟨S4096x128, .f32⟩
  | .local .tc .vmem, ⟨15, _⟩ => ⟨S4096x128, .f32⟩
  | .local .tc .vmem, ⟨16, _⟩ => ⟨S4096x128, .f32⟩
  | .local .tc .vmem, ⟨17, _⟩ => ⟨S4096x128, .f32⟩
  | .local .tc .vmem, ⟨18, _⟩ => ⟨S64x64, .f32⟩
  | .local .tc .vmem, ⟨19, _⟩ => ⟨S64x64, .f32⟩
  | .local .tc .vmem, ⟨20, _⟩ => ⟨S1x64, .f32⟩
  | .local .tc .vmem, ⟨21, _⟩ => ⟨S1x1, .f32⟩
  | .local .scVector .vmem, ⟨0, _⟩ => ⟨S3072, .i32⟩
  | .local .scVector .vmem, ⟨1, _⟩ => ⟨S4x128x128, .f32⟩
  | _, _ => ⟨S16384x3, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTables nBuf rfl bufTy 4 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v14_scv : Ref sig .scVector := ⟨.hbm, 21, rfl⟩
abbrev main_v1_scv : Ref sig .scVector := ⟨.hbm, 8, rfl⟩
abbrev main_v3_scv : Ref sig .scVector := ⟨.hbm, 10, rfl⟩
abbrev main_v5_scv : Ref sig .scVector := ⟨.hbm, 12, rfl⟩
abbrev main_v7_scv : Ref sig .scVector := ⟨.hbm, 14, rfl⟩
abbrev main_v9_scv : Ref sig .scVector := ⟨.hbm, 16, rfl⟩
abbrev main_v11_scv : Ref sig .scVector := ⟨.hbm, 18, rfl⟩
abbrev main_v15_0_scv : Ref sig .scVector := ⟨.hbm, 22, rfl⟩
abbrev main_v15_1_scv : Ref sig .scVector := ⟨.hbm, 23, rfl⟩
abbrev main_v15_2_scv : Ref sig .scVector := ⟨.hbm, 24, rfl⟩
abbrev main_v15_3_scv : Ref sig .scVector := ⟨.hbm, 25, rfl⟩
abbrev main_v15_4_scv : Ref sig .scVector := ⟨.hbm, 26, rfl⟩
abbrev main_v15_5_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem2_1 : DmaSem sig := 45
abbrev cc2_sem3_0 : DmaSem sig := 46
abbrev cc2_sem3_1 : DmaSem sig := 47
abbrev cc2_sem4_0 : DmaSem sig := 48
abbrev cc2_sem4_1 : DmaSem sig := 49
abbrev cc2_sem5_0 : DmaSem sig := 50
abbrev cc2_sem5_1 : DmaSem sig := 51
abbrev cc2_sem6_0 : DmaSem sig := 52
abbrev cc2_sem7_0 : DmaSem sig := 53
abbrev cc2_sem8_0 : DmaSem sig := 54
abbrev cc2_sem9_0 : DmaSem sig := 55
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v23 : BitVec 32 := Scalar.addi v2 c0_i32_24
  let c0_i32_313_r6 : BitVec 32 := 0#32
  ![v23.toNat, 0]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  transposes_S1000000x64_S64x1000000_1_0 : S1000000x64.Transposes [1, 0] S64x1000000
  transposes_S100000x64_S64x100000_1_0 : S100000x64.Transposes [1, 0] S64x100000
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  transposes_S64x2048_p1_0_S2048x64 : S64x2048.Transposes [1, 0] S2048x64
  inb_S2048x128_S2048x64_0_0 : ∀ a, (![0, 0] : Fin 2 → Nat) a + S2048x64.size a ≤ S2048x128.size a
  h_S2048x64 : 0 < S2048x64.numel
  inb_S2048x128_S2048x64_0_64 : ∀ a, (![0, 64] : Fin 2 → Nat) a + S2048x64.size a ≤ S2048x128.size a
  inb_S3072_S512_0 : ∀ a, (![0] : Fin 1 → Nat) a + S512.size a ≤ S3072.size a
  inb_S3072_S512_512 : ∀ a, (![512] : Fin 1 → Nat) a + S512.size a ≤ S3072.size a
  inb_S3072_S512_1024 : ∀ a, (![1024] : Fin 1 → Nat) a + S512.size a ≤ S3072.size a
  inb_S3072_S512_1536 : ∀ a, (![1536] : Fin 1 → Nat) a + S512.size a ≤ S3072.size a
  inb_S3072_S512_2048 : ∀ a, (![2048] : Fin 1 → Nat) a + S512.size a ≤ S3072.size a
  inb_S3072_S512_2560 : ∀ a, (![2560] : Fin 1 → Nat) a + S512.size a ≤ S3072.size a
  inb_S4x128x128_S1x128x128_0_0_0 : ∀ a, (![0, 0, 0] : Fin 3 → Nat) a + S1x128x128.size a ≤ S4x128x128.size a
  squeezes_S1x128x128_S128x128 : S1x128x128.Squeezes S128x128
  inb_S3072_S128_0 : ∀ a, (![0] : Fin 1 → Nat) a + S128.size a ≤ S3072.size a
  inb_S100352x128_S100352x128_0_0 : ∀ a, (![0, 0] : Fin 2 → Nat) a + S100352x128.size a ≤ S100352x128.size a
  gathers_S100352x128_S128x128 : S100352x128.Gathers 0 S128x128
  inb_S4x128x128_S1x128x128_1_0_0 : ∀ a, (![1, 0, 0] : Fin 3 → Nat) a + S1x128x128.size a ≤ S4x128x128.size a
  inb_S3072_S128_128 : ∀ a, (![128] : Fin 1 → Nat) a + S128.size a ≤ S3072.size a
  inb_S4x128x128_S1x128x128_2_0_0 : ∀ a, (![2, 0, 0] : Fin 3 → Nat) a + S1x128x128.size a ≤ S4x128x128.size a
  inb_S3072_S128_256 : ∀ a, (![256] : Fin 1 → Nat) a + S128.size a ≤ S3072.size a
  inb_S4x128x128_S1x128x128_3_0_0 : ∀ a, (![3, 0, 0] : Fin 3 → Nat) a + S1x128x128.size a ≤ S4x128x128.size a
  inb_S3072_S128_384 : ∀ a, (![384] : Fin 1 → Nat) a + S128.size a ≤ S3072.size a
  inb_S3072_S128_512 : ∀ a, (![512] : Fin 1 → Nat) a + S128.size a ≤ S3072.size a
  inb_S3072_S128_640 : ∀ a, (![640] : Fin 1 → Nat) a + S128.size a ≤ S3072.size a
  inb_S3072_S128_768 : ∀ a, (![768] : Fin 1 → Nat) a + S128.size a ≤ S3072.size a
  inb_S3072_S128_896 : ∀ a, (![896] : Fin 1 → Nat) a + S128.size a ≤ S3072.size a
  inb_S3072_S128_1024 : ∀ a, (![1024] : Fin 1 → Nat) a + S128.size a ≤ S3072.size a
  inb_S3072_S128_1152 : ∀ a, (![1152] : Fin 1 → Nat) a + S128.size a ≤ S3072.size a
  inb_S3072_S128_1280 : ∀ a, (![1280] : Fin 1 → Nat) a + S128.size a ≤ S3072.size a
  inb_S3072_S128_1408 : ∀ a, (![1408] : Fin 1 → Nat) a + S128.size a ≤ S3072.size a
  inb_S3072_S128_1536 : ∀ a, (![1536] : Fin 1 → Nat) a + S128.size a ≤ S3072.size a
  inb_S3072_S128_1664 : ∀ a, (![1664] : Fin 1 → Nat) a + S128.size a ≤ S3072.size a
  inb_S3072_S128_1792 : ∀ a, (![1792] : Fin 1 → Nat) a + S128.size a ≤ S3072.size a
  inb_S3072_S128_1920 : ∀ a, (![1920] : Fin 1 → Nat) a + S128.size a ≤ S3072.size a
  inb_S3072_S128_2048 : ∀ a, (![2048] : Fin 1 → Nat) a + S128.size a ≤ S3072.size a
  inb_S3072_S128_2176 : ∀ a, (![2176] : Fin 1 → Nat) a + S128.size a ≤ S3072.size a
  inb_S3072_S128_2304 : ∀ a, (![2304] : Fin 1 → Nat) a + S128.size a ≤ S3072.size a
  inb_S3072_S128_2432 : ∀ a, (![2432] : Fin 1 → Nat) a + S128.size a ≤ S3072.size a
  inb_S3072_S128_2560 : ∀ a, (![2560] : Fin 1 → Nat) a + S128.size a ≤ S3072.size a
  inb_S3072_S128_2688 : ∀ a, (![2688] : Fin 1 → Nat) a + S128.size a ≤ S3072.size a
  inb_S3072_S128_2816 : ∀ a, (![2816] : Fin 1 → Nat) a + S128.size a ≤ S3072.size a
  inb_S3072_S128_2944 : ∀ a, (![2944] : Fin 1 → Nat) a + S128.size a ≤ S3072.size a
  slices_S64x192_S64x64_0_0 : S64x192.Slices ![0, 0] S64x64
  transposes_S64x64_S64x64_1_0 : S64x64.Transposes [1, 0] S64x64
  slices_S64x192_S64x64_0_64 : S64x192.Slices ![0, 64] S64x64
  slices_S64x192_S64x64_0_128 : S64x192.Slices ![0, 128] S64x64
  shapeCasts_S64_S1x64 : S64.ShapeCasts S1x64
  inb_S4096x128_S4096x64_0_0 : ∀ a, (![0, 0] : Fin 2 → Nat) a + S4096x64.size a ≤ S4096x128.size a
  h_S4096x64 : 0 < S4096x64.numel
  shapeCasts_S4096x64_S4096x64 : S4096x64.ShapeCasts S4096x64
  inb_S4096x128_S4096x64_0_64 : ∀ a, (![0, 64] : Fin 2 → Nat) a + S4096x64.size a ≤ S4096x128.size a
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  reduces_S4096x1_S1 : S4096x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S64_S64x64_S64_0_0_n_1_n_n_wf : DotDims.WF S64 S64x64 S64 [0] [0] [] [1] [] []
  dot_S4096x64_S64x64_S4096x64_1_0_0_1_n_n_wf : DotDims.WF S4096x64 S64x64 S4096x64 [1] [0] [0] [1] [] []
  hcc1_scratch2 : 6 + S_.numel ≤ 56
  hcc1_scratch3 : 7 + S_.numel ≤ 56
  hcc1_scratch4 : 8 + S_.numel ≤ 56
  hcc1_scratch5 : 9 + S_.numel ≤ 56
  hcc1_scoped0 : 10 + S_.numel ≤ 56
  hcc1_scoped1 : 11 + S_.numel ≤ 56
  hcc1_scoped2 : 12 + S_.numel ≤ 56
  hcc1_scoped3 : 13 + S_.numel ≤ 56
  hcc1_scoped4 : 14 + S_.numel ≤ 56
  hcc1_scoped5 : 15 + S_.numel ≤ 56
  hcc1_scoped6 : 16 + S_.numel ≤ 56
  hcc1_scoped7 : 17 + S_.numel ≤ 56
  hcc1_scoped8 : 18 + S_.numel ≤ 56
  hcc1_scoped9 : 19 + S_.numel ≤ 56
  hcc1_scoped10 : 20 + S_.numel ≤ 56
  hcc1_scoped11 : 21 + S_.numel ≤ 56
  hcc1_scoped12 : 22 + S_.numel ≤ 56
  hcc1_scoped13 : 23 + S_.numel ≤ 56
  hcc1_scoped14 : 24 + S_.numel ≤ 56
  hcc1_scoped15 : 25 + S_.numel ≤ 56
  hcc1_scoped16 : 26 + S_.numel ≤ 56
  hcc1_scoped17 : 27 + S_.numel ≤ 56
  hcc1_scoped18 : 28 + S_.numel ≤ 56
  hcc1_scoped19 : 29 + S_.numel ≤ 56
  hcc1_scoped20 : 30 + S_.numel ≤ 56
  hcc1_scoped21 : 31 + S_.numel ≤ 56
  hcc1_scoped22 : 32 + S_.numel ≤ 56
  hcc1_scoped23 : 33 + S_.numel ≤ 56
  hcc1_scoped24 : 34 + S_.numel ≤ 56
  hcc1_scoped25 : 35 + S_.numel ≤ 56
  hcc1_scoped26 : 36 + S_.numel ≤ 56
  hcc1_scoped27 : 37 + S_.numel ≤ 56
  hcc1_scoped28 : 38 + S_.numel ≤ 56
  hcc1_scoped29 : 39 + S_.numel ≤ 56
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x2048.size a < S64x1000000.size a
  hwx0_0 : ∀ i : grid0.Coords, EltTy.bits .f32 = 32 ∨ (Rect.unit (s := S64x1000000) (fun a => cc0_transform_0 i a * S64x2048.size a) (fun a => (Pipeline.Clip.of (cc0_transform_0 i a) (S64x2048.size a) (S64x1000000.size a)).extent (S64x2048.size a)) fun a => Pipeline.Clip.inb (Pipeline.Clip.ok_of (hstart0_0 i a))).WholeWords (EltTy.packing .f32)
  hwxs0_0 : ∀ i : grid0.Coords, EltTy.bits .f32 = 32 ∨ (Rect.unit (s := S64x2048) (fun _ => 0) (fun a => (Pipeline.Clip.of (cc0_transform_0 i a) (S64x2048.size a) (S64x1000000.size a)).extent (S64x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x2048.size a < S64x100000.size a
  hwx0_1 : ∀ i : grid0.Coords, EltTy.bits .f32 = 32 ∨ (Rect.unit (s := S64x100000) (fun a => cc0_transform_1 i a * S64x2048.size a) (fun a => (Pipeline.Clip.of (cc0_transform_1 i a) (S64x2048.size a) (S64x100000.size a)).extent (S64x2048.size a)) fun a => Pipeline.Clip.inb (Pipeline.Clip.ok_of (hstart0_1 i a))).WholeWords (EltTy.packing .f32)
  hwxs0_1 : ∀ i : grid0.Coords, EltTy.bits .f32 = 32 ∨ (Rect.unit (s := S64x2048) (fun _ => 0) (fun a => (Pipeline.Clip.of (cc0_transform_1 i a) (S64x2048.size a) (S64x100000.size a)).extent (S64x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S100352x128.size a
  hwx0_2 : ∀ i : grid0.Coords, EltTy.bits .f32 = 32 ∨ (Rect.block (s := S100352x128) S2048x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_off2_inb : ∀ i : grid1.Coords, ∀ (r : Fin 4), ∀ a, (k1_off2 i (BitVec.ofNat 32 (128 * r.val))) a + S128x128.size a ≤ S16384x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S16384x128.size a
  hwx2_0 : ∀ i : grid2.Coords, EltTy.bits .f32 = 32 ∨ (Rect.block (s := S16384x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S16384x128.size a
  hwx2_1 : ∀ i : grid2.Coords, EltTy.bits .f32 = 32 ∨ (Rect.block (s := S16384x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S16384x128.size a
  hwx2_2 : ∀ i : grid2.Coords, EltTy.bits .f32 = 32 ∨ (Rect.block (s := S16384x128) S4096x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S16384x128.size a
  hwx2_3 : ∀ i : grid2.Coords, EltTy.bits .f32 = 32 ∨ (Rect.block (s := S16384x128) S4096x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x128.size a ≤ S16384x128.size a
  hwx2_4 : ∀ i : grid2.Coords, EltTy.bits .f32 = 32 ∨ (Rect.block (s := S16384x128) S4096x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x128.size a ≤ S16384x128.size a
  hwx2_5 : ∀ i : grid2.Coords, EltTy.bits .f32 = 32 ∨ (Rect.block (s := S16384x128) S4096x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)

variable [Facts₀]

abbrev cc1_scratch2 : DmaSems sig S_ := SemArray.consecutive 6 S_ hcc1_scratch2
abbrev cc1_scratch3 : DmaSems sig S_ := SemArray.consecutive 7 S_ hcc1_scratch3
abbrev cc1_scratch4 : DmaSems sig S_ := SemArray.consecutive 8 S_ hcc1_scratch4
abbrev cc1_scratch5 : DmaSems sig S_ := SemArray.consecutive 9 S_ hcc1_scratch5
abbrev cc1_scoped0 : DmaSems sig S_ := SemArray.consecutive 10 S_ hcc1_scoped0
abbrev cc1_scoped1 : DmaSems sig S_ := SemArray.consecutive 11 S_ hcc1_scoped1
abbrev cc1_scoped2 : DmaSems sig S_ := SemArray.consecutive 12 S_ hcc1_scoped2
abbrev cc1_scoped3 : DmaSems sig S_ := SemArray.consecutive 13 S_ hcc1_scoped3
abbrev cc1_scoped4 : DmaSems sig S_ := SemArray.consecutive 14 S_ hcc1_scoped4
abbrev cc1_scoped5 : DmaSems sig S_ := SemArray.consecutive 15 S_ hcc1_scoped5
abbrev cc1_scoped6 : DmaSems sig S_ := SemArray.consecutive 16 S_ hcc1_scoped6
abbrev cc1_scoped7 : DmaSems sig S_ := SemArray.consecutive 17 S_ hcc1_scoped7
abbrev cc1_scoped8 : DmaSems sig S_ := SemArray.consecutive 18 S_ hcc1_scoped8
abbrev cc1_scoped9 : DmaSems sig S_ := SemArray.consecutive 19 S_ hcc1_scoped9
abbrev cc1_scoped10 : DmaSems sig S_ := SemArray.consecutive 20 S_ hcc1_scoped10
abbrev cc1_scoped11 : DmaSems sig S_ := SemArray.consecutive 21 S_ hcc1_scoped11
abbrev cc1_scoped12 : DmaSems sig S_ := SemArray.consecutive 22 S_ hcc1_scoped12
abbrev cc1_scoped13 : DmaSems sig S_ := SemArray.consecutive 23 S_ hcc1_scoped13
abbrev cc1_scoped14 : DmaSems sig S_ := SemArray.consecutive 24 S_ hcc1_scoped14
abbrev cc1_scoped15 : DmaSems sig S_ := SemArray.consecutive 25 S_ hcc1_scoped15
abbrev cc1_scoped16 : DmaSems sig S_ := SemArray.consecutive 26 S_ hcc1_scoped16
abbrev cc1_scoped17 : DmaSems sig S_ := SemArray.consecutive 27 S_ hcc1_scoped17
abbrev cc1_scoped18 : DmaSems sig S_ := SemArray.consecutive 28 S_ hcc1_scoped18
abbrev cc1_scoped19 : DmaSems sig S_ := SemArray.consecutive 29 S_ hcc1_scoped19
abbrev cc1_scoped20 : DmaSems sig S_ := SemArray.consecutive 30 S_ hcc1_scoped20
abbrev cc1_scoped21 : DmaSems sig S_ := SemArray.consecutive 31 S_ hcc1_scoped21
abbrev cc1_scoped22 : DmaSems sig S_ := SemArray.consecutive 32 S_ hcc1_scoped22
abbrev cc1_scoped23 : DmaSems sig S_ := SemArray.consecutive 33 S_ hcc1_scoped23
abbrev cc1_scoped24 : DmaSems sig S_ := SemArray.consecutive 34 S_ hcc1_scoped24
abbrev cc1_scoped25 : DmaSems sig S_ := SemArray.consecutive 35 S_ hcc1_scoped25
abbrev cc1_scoped26 : DmaSems sig S_ := SemArray.consecutive 36 S_ hcc1_scoped26
abbrev cc1_scoped27 : DmaSems sig S_ := SemArray.consecutive 37 S_ hcc1_scoped27
abbrev cc1_scoped28 : DmaSems sig S_ := SemArray.consecutive 38 S_ hcc1_scoped28
abbrev cc1_scoped29 : DmaSems sig S_ := SemArray.consecutive 39 S_ hcc1_scoped29
def dot_S64_S64x64_S64_0_0_n_1_n_n : DotDims S64 S64x64 S64 where
  lhsContracting := [0]
  rhsContracting := [0]
  lhsNonContracting := []
  rhsNonContracting := [1]
  lhsBatch := []
  rhsBatch := []
  wf := dot_S64_S64x64_S64_0_0_n_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpecClip (Memref.whole main_v12) S64x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v13) S64x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v14) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v15_0) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15_1) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15_2) S4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15_3) S4096x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15_4) S4096x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15_5) S4096x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v17) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v19) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v24) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v25) S1x1.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S16384x3 : Shape := ⟨2, ![16384, 3]⟩
abbrev S1000000x64 : Shape := ⟨2, ![1000000, 64]⟩
abbrev S100000x64 : Shape := ⟨2, ![100000, 64]⟩
abbrev S64 : Shape := ⟨1, ![64]⟩
abbrev S64x192 : Shape := ⟨2, ![64, 192]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x64 : Shape := ⟨2, ![16384, 64]⟩
abbrev S16384x192 : Shape := ⟨2, ![16384, 192]⟩
abbrev S192x64 : Shape := ⟨2, ![192, 64]⟩
abbrev S1x64 : Shape := ⟨2, ![1, 64]⟩

abbrev nBuf : Space → Nat
  | .hbm => 226
  | .vmem => 0
  | .smem => 0
  | _ => 0

abbrev hbmTy0_0 (i : Nat) : BufTy := match i % 128 with
  | 0 => ⟨S16384x3, .i32⟩
  | 1 => ⟨S16384x3, .i32⟩
  | 2 => ⟨S1000000x64, .f32⟩
  | 3 => ⟨S100000x64, .f32⟩
  | 4 => ⟨S64, .f32⟩
  | 5 => ⟨S64x192, .f32⟩
  | 6 => ⟨S64, .f32⟩
  | 7 => ⟨S16384x1, .i32⟩
  | 8 => ⟨S16384, .i32⟩
  | 9 => ⟨S16384x1, .i32⟩
  | 10 => ⟨S16384, .i32⟩
  | 11 => ⟨S16384x1, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S1, .i32⟩
  | 22 => ⟨S_, .i32⟩
  | 23 => ⟨S16384x1, .i32⟩
  | 24 => ⟨S16384x1, .i1⟩
  | 25 => ⟨S1x1, .i32⟩
  | 26 => ⟨S16384x1, .i32⟩
  | 27 => ⟨S16384x1, .i1⟩
  | 28 => ⟨S16384x1, .i1⟩
  | 29 => ⟨S_, .i1⟩
  | 30 => ⟨S16384, .i1⟩
  | 31 => ⟨S16384x64, .f32⟩
  | 32 => ⟨S16384x64, .i1⟩
  | 33 => ⟨S_, .f32⟩
  | 34 => ⟨S16384x64, .f32⟩
  | 35 => ⟨S16384x64, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S1, .i32⟩
  | 45 => ⟨S_, .i32⟩
  | 46 => ⟨S16384x1, .i32⟩
  | 47 => ⟨S16384x1, .i1⟩
  | 48 => ⟨S1x1, .i32⟩
  | 49 => ⟨S16384x1, .i32⟩
  | 50 => ⟨S16384x1, .i1⟩
  | 51 => ⟨S16384x1, .i1⟩
  | 52 => ⟨S_, .i1⟩
  | 53 => ⟨S16384, .i1⟩
  | 54 => ⟨S16384x64, .f32⟩
  | 55 => ⟨S16384x64, .i1⟩
  | 56 => ⟨S_, .f32⟩
  | 57 => ⟨S16384x64, .f32⟩
  | 58 => ⟨S16384x64, .f32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S1, .i32⟩
  | 68 => ⟨S_, .i32⟩
  | 69 => ⟨S16384x1, .i32⟩
  | 70 => ⟨S16384x1, .i1⟩
  | 71 => ⟨S1x1, .i32⟩
  | 72 => ⟨S16384x1, .i32⟩
  | 73 => ⟨S16384x1, .i1⟩
  | 74 => ⟨S16384x1, .i1⟩
  | 75 => ⟨S_, .i1⟩
  | 76 => ⟨S16384, .i1⟩
  | 77 => ⟨S16384x64, .f32⟩
  | 78 => ⟨S16384x64, .i1⟩
  | 79 => ⟨S_, .f32⟩
  | 80 => ⟨S16384x64, .f32⟩
  | 81 => ⟨S16384x64, .f32⟩
  | 82 => ⟨S16384x64, .f32⟩
  | 83 => ⟨S16384x192, .f32⟩
  | 84 => ⟨S192x64, .f32⟩
  | 85 => ⟨S16384x64, .f32⟩
  | 86 => ⟨S1x64, .f32⟩
  | 87 => ⟨S16384x64, .f32⟩
  | 88 => ⟨S16384x64, .f32⟩
  | 89 => ⟨S_, .f32⟩
  | 90 => ⟨S16384, .f32⟩
  | 91 => ⟨S_, .f32⟩
  | 92 => ⟨S16384, .f32⟩
  | 93 => ⟨S16384, .f32⟩
  | 94 => ⟨S16384x1, .f32⟩
  | 95 => ⟨S16384x64, .f32⟩
  | 96 => ⟨S16384x64, .f32⟩
  | 97 => ⟨S16384x64, .f32⟩
  | 98 => ⟨S_, .f32⟩
  | 99 => ⟨S16384, .f32⟩
  | 100 => ⟨S16384x1, .f32⟩
  | 101 => ⟨S16384x64, .f32⟩
  | 102 => ⟨S16384x64, .f32⟩
  | 103 => ⟨S16384x64, .f32⟩
  | 104 => ⟨S16384x64, .f32⟩
  | 105 => ⟨S16384x64, .f32⟩
  | 106 => ⟨S16384x64, .f32⟩
  | 107 => ⟨S_, .f32⟩
  | 108 => ⟨S16384, .f32⟩
  | 109 => ⟨S16384, .f32⟩
  | 110 => ⟨S16384, .f32⟩
  | 111 => ⟨S16384x1, .i32⟩
  | 112 => ⟨S16384, .i32⟩
  | 113 => ⟨S16384x1, .i32⟩
  | 114 => ⟨S16384, .i32⟩
  | 115 => ⟨S16384x1, .i32⟩
  | 116 => ⟨S16384, .i32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S1, .i32⟩
  | 126 => ⟨S_, .i32⟩
  | 127 => ⟨S16384x1, .i32⟩
  | _ => ⟨S16384x3, .i32⟩

abbrev hbmTy0_1 (i : Nat) : BufTy := match i % 128 with
  | 0 => ⟨S16384x1, .i1⟩
  | 1 => ⟨S1x1, .i32⟩
  | 2 => ⟨S16384x1, .i32⟩
  | 3 => ⟨S16384x1, .i1⟩
  | 4 => ⟨S16384x1, .i1⟩
  | 5 => ⟨S_, .i1⟩
  | 6 => ⟨S16384, .i1⟩
  | 7 => ⟨S16384x64, .f32⟩
  | 8 => ⟨S16384x64, .i1⟩
  | 9 => ⟨S_, .f32⟩
  | 10 => ⟨S16384x64, .f32⟩
  | 11 => ⟨S16384x64, .f32⟩
  | 12 => ⟨S_, .i32⟩
  | 13 => ⟨S16384, .i32⟩
  | 14 => ⟨S16384, .i1⟩
  | 15 => ⟨S_, .i32⟩
  | 16 => ⟨S16384, .i32⟩
  | 17 => ⟨S16384, .i32⟩
  | 18 => ⟨S16384, .i32⟩
  | 19 => ⟨S16384x1, .i32⟩
  | 20 => ⟨S1, .i32⟩
  | 21 => ⟨S_, .i32⟩
  | 22 => ⟨S16384x1, .i32⟩
  | 23 => ⟨S16384x1, .i1⟩
  | 24 => ⟨S1x1, .i32⟩
  | 25 => ⟨S16384x1, .i32⟩
  | 26 => ⟨S16384x1, .i1⟩
  | 27 => ⟨S16384x1, .i1⟩
  | 28 => ⟨S_, .i1⟩
  | 29 => ⟨S16384, .i1⟩
  | 30 => ⟨S16384x64, .f32⟩
  | 31 => ⟨S16384x64, .i1⟩
  | 32 => ⟨S_, .f32⟩
  | 33 => ⟨S16384x64, .f32⟩
  | 34 => ⟨S16384x64, .f32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S1, .i32⟩
  | 44 => ⟨S_, .i32⟩
  | 45 => ⟨S16384x1, .i32⟩
  | 46 => ⟨S16384x1, .i1⟩
  | 47 => ⟨S1x1, .i32⟩
  | 48 => ⟨S16384x1, .i32⟩
  | 49 => ⟨S16384x1, .i1⟩
  | 50 => ⟨S16384x1, .i1⟩
  | 51 => ⟨S_, .i1⟩
  | 52 => ⟨S16384, .i1⟩
  | 53 => ⟨S16384x64, .f32⟩
  | 54 => ⟨S16384x64, .i1⟩
  | 55 => ⟨S_, .f32⟩
  | 56 => ⟨S16384x64, .f32⟩
  | 57 => ⟨S16384x64, .f32⟩
  | 58 => ⟨S16384x64, .f32⟩
  | 59 => ⟨S16384x192, .f32⟩
  | 60 => ⟨S192x64, .f32⟩
  | 61 => ⟨S16384x64, .f32⟩
  | 62 => ⟨S1x64, .f32⟩
  | 63 => ⟨S16384x64, .f32⟩
  | 64 => ⟨S16384x64, .f32⟩
  | 65 => ⟨S_, .f32⟩
  | 66 => ⟨S16384, .f32⟩
  | 67 => ⟨S_, .f32⟩
  | 68 => ⟨S16384, .f32⟩
  | 69 => ⟨S16384, .f32⟩
  | 70 => ⟨S16384x1, .f32⟩
  | 71 => ⟨S16384x64, .f32⟩
  | 72 => ⟨S16384x64, .f32⟩
  | 73 => ⟨S16384x64, .f32⟩
  | 74 => ⟨S_, .f32⟩
  | 75 => ⟨S16384, .f32⟩
  | 76 => ⟨S16384x1, .f32⟩
  | 77 => ⟨S16384x64, .f32⟩
  | 78 => ⟨S16384x64, .f32⟩
  | 79 => ⟨S16384x64, .f32⟩
  | 80 => ⟨S16384x64, .f32⟩
  | 81 => ⟨S16384x64, .f32⟩
  | 82 => ⟨S16384x64, .f32⟩
  | 83 => ⟨S_, .f32⟩
  | 84 => ⟨S16384, .f32⟩
  | 85 => ⟨S16384, .f32⟩
  | 86 => ⟨S16384, .f32⟩
  | 87 => ⟨S16384, .f32⟩
  | 88 => ⟨S_, .f32⟩
  | 89 => ⟨S16384, .f32⟩
  | 90 => ⟨S16384, .f32⟩
  | 91 => ⟨S_, .f32⟩
  | 92 => ⟨S16384, .f32⟩
  | 93 => ⟨S16384, .f32⟩
  | 94 => ⟨S_, .f32⟩
  | 95 => ⟨S_, .f32⟩
  | 96 => ⟨S_, .f32⟩
  | 97 => ⟨S_, .f32⟩
  | _ => ⟨S16384x3, .i32⟩

abbrev hbmTy (i : Nat) : BufTy := match i / 128 with
  | 0 => hbmTy0_0 i
  | 1 => hbmTy0_1 i
  | _ => ⟨S16384x3, .i32⟩

abbrev bufTy : (tb : Table) → Fin (tcTables nBuf tb) → BufTy
  | .hbm, ⟨i, _⟩ => hbmTy i
  | _, _ => ⟨S16384x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩
abbrev main_cst : Ref sig .tc := ⟨.hbm, 89, rfl⟩
abbrev main_v16 : Ref sig .tc := ⟨.hbm, 90, rfl⟩
abbrev main_cst_0 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_cst_1 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_call3_v0 : Ref sig .tc := ⟨.hbm, 106, rfl⟩
abbrev main_call3_cst : Ref sig .tc := ⟨.hbm, 107, rfl⟩
abbrev main_call3_v1 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v38 : Ref sig .tc := ⟨.hbm, 139, rfl⟩
abbrev main_call5_c : Ref sig .tc := ⟨.hbm, 140, rfl⟩
abbrev main_call5_v0 : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_c_1 : Ref sig .tc := ⟨.hbm, 148, rfl⟩
abbrev main_call5_c_2 : Ref sig .tc := ⟨.hbm, 149, rfl⟩
abbrev main_call5_v6 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_call5_v11 : Ref sig .tc := ⟨.hbm, 155, rfl⟩
abbrev main_call5_c_3 : Ref sig .tc := ⟨.hbm, 156, rfl⟩
abbrev main_call5_v12 : Ref sig .tc := ⟨.hbm, 157, rfl⟩
abbrev main_call5_v13 : Ref sig .tc := ⟨.hbm, 158, rfl⟩
abbrev main_call5_v14 : Ref sig .tc := ⟨.hbm, 159, rfl⟩
abbrev main_call5_cst : Ref sig .tc := ⟨.hbm, 160, rfl⟩
abbrev main_call5_v15 : Ref sig .tc := ⟨.hbm, 161, rfl⟩
abbrev main_v39 : Ref sig .tc := ⟨.hbm, 162, rfl⟩
abbrev main_call6_c : Ref sig .tc := ⟨.hbm, 163, rfl⟩
abbrev main_call6_v0 : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_c_1 : Ref sig .tc := ⟨.hbm, 171, rfl⟩
abbrev main_call6_c_2 : Ref sig .tc := ⟨.hbm, 172, rfl⟩
abbrev main_call6_v6 : Ref sig .tc := ⟨.hbm, 173, rfl⟩
abbrev main_call6_v7 : Ref sig .tc := ⟨.hbm, 174, rfl⟩
abbrev main_call6_v8 : Ref sig .tc := ⟨.hbm, 175, rfl⟩
abbrev main_call6_v9 : Ref sig .tc := ⟨.hbm, 176, rfl⟩
abbrev main_call6_v10 : Ref sig .tc := ⟨.hbm, 177, rfl⟩
abbrev main_call6_v11 : Ref sig .tc := ⟨.hbm, 178, rfl⟩
abbrev main_call6_c_3 : Ref sig .tc := ⟨.hbm, 179, rfl⟩
abbrev main_call6_v12 : Ref sig .tc := ⟨.hbm, 180, rfl⟩
abbrev main_call6_v13 : Ref sig .tc := ⟨.hbm, 181, rfl⟩
abbrev main_call6_v14 : Ref sig .tc := ⟨.hbm, 182, rfl⟩
abbrev main_call6_cst : Ref sig .tc := ⟨.hbm, 183, rfl⟩
abbrev main_call6_v15 : Ref sig .tc := ⟨.hbm, 184, rfl⟩
abbrev main_v40 : Ref sig .tc := ⟨.hbm, 185, rfl⟩
abbrev main_v41 : Ref sig .tc := ⟨.hbm, 186, rfl⟩
abbrev main_v42 : Ref sig .tc := ⟨.hbm, 187, rfl⟩
abbrev main_v43 : Ref sig .tc := ⟨.hbm, 188, rfl⟩
abbrev main_v44 : Ref sig .tc := ⟨.hbm, 189, rfl⟩
abbrev main_v45 : Ref sig .tc := ⟨.hbm, 190, rfl⟩
abbrev main_v46 : Ref sig .tc := ⟨.hbm, 191, rfl⟩
abbrev main_v47 : Ref sig .tc := ⟨.hbm, 192, rfl⟩
abbrev main_cst_2 : Ref sig .tc := ⟨.hbm, 193, rfl⟩
abbrev main_v48 : Ref sig .tc := ⟨.hbm, 194, rfl⟩
abbrev main_cst_3 : Ref sig .tc := ⟨.hbm, 195, rfl⟩
abbrev main_v49 : Ref sig .tc := ⟨.hbm, 196, rfl⟩
abbrev main_v50 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_v54 : Ref sig .tc := ⟨.hbm, 201, rfl⟩
abbrev main_cst_4 : Ref sig .tc := ⟨.hbm, 202, rfl⟩
abbrev main_v55 : Ref sig .tc := ⟨.hbm, 203, rfl⟩
abbrev main_v56 : Ref sig .tc := ⟨.hbm, 204, rfl⟩
abbrev main_v57 : Ref sig .tc := ⟨.hbm, 205, rfl⟩
abbrev main_v58 : Ref sig .tc := ⟨.hbm, 206, rfl⟩
abbrev main_v59 : Ref sig .tc := ⟨.hbm, 207, rfl⟩
abbrev main_v60 : Ref sig .tc := ⟨.hbm, 208, rfl⟩
abbrev main_v61 : Ref sig .tc := ⟨.hbm, 209, rfl⟩
abbrev main_call7_v0 : Ref sig .tc := ⟨.hbm, 210, rfl⟩
abbrev main_call7_cst : Ref sig .tc := ⟨.hbm, 211, rfl⟩
abbrev main_call7_v1 : Ref sig .tc := ⟨.hbm, 212, rfl⟩
abbrev main_v62 : Ref sig .tc := ⟨.hbm, 213, rfl⟩
abbrev main_v63 : Ref sig .tc := ⟨.hbm, 214, rfl⟩
abbrev main_v64 : Ref sig .tc := ⟨.hbm, 215, rfl⟩
abbrev main_cst_5 : Ref sig .tc := ⟨.hbm, 216, rfl⟩
abbrev main_v65 : Ref sig .tc := ⟨.hbm, 217, rfl⟩
abbrev main_v66 : Ref sig .tc := ⟨.hbm, 218, rfl⟩
abbrev main_cst_6 : Ref sig .tc := ⟨.hbm, 219, rfl⟩
abbrev main_v67 : Ref sig .tc := ⟨.hbm, 220, rfl⟩
abbrev main_v68 : Ref sig .tc := ⟨.hbm, 221, rfl⟩
abbrev main_cst_7 : Ref sig .tc := ⟨.hbm, 222, rfl⟩
abbrev main_v69 : Ref sig .tc := ⟨.hbm, 223, rfl⟩
abbrev main_cst_8 : Ref sig .tc := ⟨.hbm, 224, rfl⟩
abbrev main_v70 : Ref sig .tc := ⟨.hbm, 225, rfl⟩

abbrev nD : Nat := 1
abbrev τ : Topo := Topo.v7x

variable {F : FTy → Type} [FloatOps F]

class Facts₀ : Prop where
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  bcast_S64_S16384x64_1 : S64.BroadcastsInDim S16384x64 (![1] : Fin 1 → Fin S16384x64.rank)
  concatenates_S16384x64_S16384x64_S16384x64_S16384x192_d1 : Shape.Concatenates [S16384x64, S16384x64, S16384x64] S16384x192 1
  transposes_S64x192_S192x64_1_0 : S64x192.Transposes [1, 0] S192x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  bcast_S16384x1_S16384x64_0_1 : S16384x1.BroadcastsInDim S16384x64 (![0, 1] : Fin 2 → Fin S16384x64.rank)
  reducesTo_S16384_S_d0 : S16384.ReducesTo [0] S_
  gather_S1000000x64_S16384x1_S16384x64_1_0_n_n_0_1_164_wf : GatherDims.WF S1000000x64 S16384x1 S16384x64 [1] [0] [] [0] [] 1 ![1, 64]
  gather_S100000x64_S16384x1_S16384x64_1_0_n_n_0_1_164_wf : GatherDims.WF S100000x64 S16384x1 S16384x64 [1] [0] [] [0] [] 1 ![1, 64]
  dot_S16384x192_S192x64_S16384x64_1_0_0_1_n_n_wf : DotDims.WF S16384x192 S192x64 S16384x64 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S16384x192_S192x64_S16384x64_1_0_0_1_n_n : DotDims S16384x192 S192x64 S16384x64 where
  lhsContracting := [1]
  rhsContracting := [0]
  lhsNonContracting := [0]
  rhsNonContracting := [1]
  lhsBatch := []
  rhsBatch := []
  wf := dot_S16384x192_S192x64_S16384x64_1_0_0_1_n_n_wf

class Facts : Prop extends Facts₀ where

variable [Facts]
-- ==== Proof.Alg.lean ====
/-
  The vocabulary shared by the frame proof of the idealized kernel program: the program as the SparseCore launch
  theorem sees it (its label signature, its configuration, the body table), the variants, and the resource algebra —
  three components side by side: the rounds of the launch handshakes, the rounds of the TensorCore pipelines'
  staging cells, and the counters of the tiles' local transfers.
-/
import proofs.«203064_g33122787786777_cont_8to1_b_416_18_alg».proof.KernelIdeal
import proofs.«203064_g33122787786777_cont_8to1_b_416_18_alg».proof.Proof.Gen.KernelIdeal
import Idealize.ShloMosaic.Lib.SparseCore.Launch
import Idealize.ShloMosaic.Lib.Pipeline.Kit
import Idealize.ShloMosaic.Lib.Transfers

noncomputable section

namespace Cert.KernelIdeal.Alg

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, staging cells, and the local transfers' counters. -/
abbrev UU : Type := UH × (UP × Counters)

/-- The machine's algebra at the certificate's choices. -/
abbrev MM (F : FTy → Type) : Type := MT nD τ sig (HIx 1) (Elt F) ℕ UU ℕ

/-- The handshakes' component: the left of the user algebra. -/
def EH : Emb UH (MM F) := embL
/-- The staging cells' component: the left of the right. -/
def EP : Emb UP (MM F) := (Emb.inl : Emb UP (UP × Counters)).trans (embR : Emb (UP × Counters) (MM F))

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

example : CountersIn UU := inferInstance

end Cert.KernelIdeal.Alg

end
-- ==== Proof.Host.lean ====
/-
  @main of the idealized kernel program cut at its two TensorCore regions and its SparseCore call: the three stretches
  of host operations as lists, and @main as the first stretch and region, the SparseCore call, and the second stretch,
  region and closing reshape — the first and last written in the pipelines' own label signature and lifted.
-/
import proofs.«203064_g33122787786777_cont_8to1_b_416_18_alg».proof.Proof.Alg
import Idealize.ShloMosaic.Lib.StableHlo.Run
import Idealize.ShloMosaic.Lib.Pipeline.Regions

noncomputable section

namespace Cert.KernelIdeal.Host

open Cert.KernelIdeal Cert.KernelIdeal.Gen Cert.KernelIdeal.Alg
open Idealize.ShloMosaic Idealize.SL.Sem

variable {F : FTy → Type} [FloatOps F]

/-- The host operations before the first region: the six index columns as vectors, the two tables transposed. -/
abbrev hostOps0 : List (HloOp τ sig (Elt F)) := [
    StableHlo.unary main_arg0 main_v0 ((extractStridedSlice S16384x1 ![0, 0] · slices_S16384x3_S16384x1_0_0) : (⟨S16384x3, .i32⟩ : BufTy).Contents (Elt F) → (⟨S16384x1, .i32⟩ : BufTy).Contents (Elt F)),
    StableHlo.reshape main_v0 main_v1 rfl shapeCasts_S16384x1_S16384,
    StableHlo.unary main_arg0 main_v2 ((extractStridedSlice S16384x1 ![0, 1] · slices_S16384x3_S16384x1_0_1) : (⟨S16384x3, .i32⟩ : BufTy).Contents (Elt F) → (⟨S16384x1, .i32⟩ : BufTy).Contents (Elt F)),
    StableHlo.reshape main_v2 main_v3 rfl shapeCasts_S16384x1_S16384,
    StableHlo.unary main_arg0 main_v4 ((extractStridedSlice S16384x1 ![0, 2] · slices_S16384x3_S16384x1_0_2) : (⟨S16384x3, .i32⟩ : BufTy).Contents (Elt F) → (⟨S16384x1, .i32⟩ : BufTy).Contents (Elt F)),
    StableHlo.reshape main_v4 main_v5 rfl shapeCasts_S16384x1_S16384,
    StableHlo.unary main_arg1 main_v6 ((extractStridedSlice S16384x1 ![0, 0] · slices_S16384x3_S16384x1_0_0) : (⟨S16384x3, .i32⟩ : BufTy).Contents (Elt F) → (⟨S16384x1, .i32⟩ : BufTy).Contents (Elt F)),
    StableHlo.reshape main_v6 main_v7 rfl shapeCasts_S16384x1_S16384,
    StableHlo.unary main_arg1 main_v8 ((extractStridedSlice S16384x1 ![0, 1] · slices_S16384x3_S16384x1_0_1) : (⟨S16384x3, .i32⟩ : BufTy).Contents (Elt F) → (⟨S16384x1, .i32⟩ : BufTy).Contents (Elt F)),
    StableHlo.reshape main_v8 main_v9 rfl shapeCasts_S16384x1_S16384,
    StableHlo.unary main_arg1 main_v10 ((extractStridedSlice S16384x1 ![0, 2] · slices_S16384x3_S16384x1_0_2) : (⟨S16384x3, .i32⟩ : BufTy).Contents (Elt F) → (⟨S16384x1, .i32⟩ : BufTy).Contents (Elt F)),
    StableHlo.reshape main_v10 main_v11 rfl shapeCasts_S16384x1_S16384,
    StableHlo.unary main_arg2 main_v12 ((transpose S64x1000000 [1, 0] · transposes_S1000000x64_S64x1000000_1_0) : (⟨S1000000x64, .f32⟩ : BufTy).Contents (Elt F) → (⟨S64x1000000, .f32⟩ : BufTy).Contents (Elt F)),
    StableHlo.unary main_arg3 main_v13 ((transpose S64x100000 [1, 0] · transposes_S100000x64_S64x100000_1_0) : (⟨S100000x64, .f32⟩ : BufTy).Contents (Elt F) → (⟨S64x100000, .f32⟩ : BufTy).Contents (Elt F))]

/-- The host operations between the SparseCore call and the second region: the attention weights' three column
    blocks transposed, the hyperplane's product with the third added to the bias, as one row. -/
abbrev hostOps1 : List (HloOp τ sig (Elt F)) := [
    StableHlo.unary main_arg5 main_v16 ((extractStridedSlice S64x64 ![0, 0] · slices_S64x192_S64x64_0_0) : (⟨S64x192, .f32⟩ : BufTy).Contents (Elt F) → (⟨S64x64, .f32⟩ : BufTy).Contents (Elt F)),
    StableHlo.unary main_v16 main_v17 ((transpose S64x64 [1, 0] · transposes_S64x64_S64x64_1_0) : (⟨S64x64, .f32⟩ : BufTy).Contents (Elt F) → (⟨S64x64, .f32⟩ : BufTy).Contents (Elt F)),
    StableHlo.unary main_arg5 main_v18 ((extractStridedSlice S64x64 ![0, 64] · slices_S64x192_S64x64_0_64) : (⟨S64x192, .f32⟩ : BufTy).Contents (Elt F) → (⟨S64x64, .f32⟩ : BufTy).Contents (Elt F)),
    StableHlo.unary main_v18 main_v19 ((transpose S64x64 [1, 0] · transposes_S64x64_S64x64_1_0) : (⟨S64x64, .f32⟩ : BufTy).Contents (Elt F) → (⟨S64x64, .f32⟩ : BufTy).Contents (Elt F)),
    StableHlo.unary main_arg5 main_v20 ((extractStridedSlice S64x64 ![0, 128] · slices_S64x192_S64x64_0_128) : (⟨S64x192, .f32⟩ : BufTy).Contents (Elt F) → (⟨S64x64, .f32⟩ : BufTy).Contents (Elt F)),
    StableHlo.unary main_v20 main_v21 ((transpose S64x64 [1, 0] · transposes_S64x64_S64x64_1_0) : (⟨S64x64, .f32⟩ : BufTy).Contents (Elt F) → (⟨S64x64, .f32⟩ : BufTy).Contents (Elt F)),
    StableHlo.binary main_arg4 main_v21 main_v22 ((fun l r => Host.dotGeneral dot_S64_S64x64_S64_0_0_n_1_n_n none l r) : (⟨S64, .f32⟩ : BufTy).Contents (Elt F) → (⟨S64x64, .f32⟩ : BufTy).Contents (Elt F) → (⟨S64, .f32⟩ : BufTy).Contents (Elt F)),
    StableHlo.binary main_arg6 main_v22 main_v23 (addf : (⟨S64, .f32⟩ : BufTy).Contents (Elt F) → (⟨S64, .f32⟩ : BufTy).Contents (Elt F) → (⟨S64, .f32⟩ : BufTy).Contents (Elt F)),
    StableHlo.reshape main_v23 main_v24 rfl shapeCasts_S64_S1x64]

/-- The closing reshape of the 1×1 result to a scalar. -/
abbrev hostOps2 : List (HloOp τ sig (Elt F)) := [
    StableHlo.reshape main_v25 main_v26 rfl shapeCasts_S1x1_S_]

/-- Each operation of stretch 0 touches TensorCore references only, -/
theorem hostOps0_sub : (hostOps0 : List (HloOp τ sig (Elt F))).Forall fun op => op.bufs ⊆ StableHlo.tcRefs τ sig := by
  simp only [List.Forall]
  repeat' apply And.intro
  all_goals first | exact StableHlo.unary_bufs_sub .. | exact StableHlo.reshape_bufs_sub .. | exact StableHlo.binary_bufs_sub ..
/-- and none allocates a buffer. -/
theorem hostOps0_fresh : (hostOps0 : List (HloOp τ sig (Elt F))).Forall fun op => op.fresh = ∅ := by
  simp only [List.Forall]; repeat' constructor

/-- Each operation of stretch 1 touches TensorCore references only, -/
theorem hostOps1_sub : (hostOps1 : List (HloOp τ sig (Elt F))).Forall fun op => op.bufs ⊆ StableHlo.tcRefs τ sig := by
  simp only [List.Forall]
  repeat' apply And.intro
  all_goals first | exact StableHlo.unary_bufs_sub .. | exact StableHlo.reshape_bufs_sub .. | exact StableHlo.binary_bufs_sub ..
/-- and none allocates a buffer. -/
theorem hostOps1_fresh : (hostOps1 : List (HloOp τ sig (Elt F))).Forall fun op => op.fresh = ∅ := by
  simp only [List.Forall]; repeat' constructor

/-- Each operation of stretch 2 touches TensorCore references only, -/
theorem hostOps2_sub : (hostOps2 : List (HloOp τ sig (Elt F))).Forall fun op => op.bufs ⊆ StableHlo.tcRefs τ sig := by
  simp only [List.Forall]
  repeat' apply And.intro
  all_goals first | exact StableHlo.unary_bufs_sub .. | exact StableHlo.reshape_bufs_sub .. | exact StableHlo.binary_bufs_sub ..
/-- and none allocates a buffer. -/
theorem hostOps2_fresh : (hostOps2 : List (HloOp τ sig (Elt F))).Forall fun op => op.fresh = ∅ := by
  simp only [List.Forall]; repeat' constructor

/-- The part of @main before the SparseCore call, in the pipelines' signature. -/
abbrev progA : Prog (TpuEff nD τ sig (Elt F) (ΛP (F := F)) .tc) PUnit :=
  StableHlo.seq hostOps0 >>= fun _ => Prog.lift (.customCall (Pipeline.entry 0) ())

/-- The part of @main after the SparseCore call, in the pipelines' signature. -/
abbrev progB : Prog (TpuEff nD τ sig (Elt F) (ΛP (F := F)) .tc) PUnit :=
  StableHlo.seq hostOps1 >>= fun _ => (Prog.lift (.customCall (Pipeline.entry 1) ()) >>= fun _ => StableHlo.seq hostOps2)

/-- @main is the first part lifted, the SparseCore call, the second part lifted. -/
theorem main_split (d : Dev nD) :
    main (F := F) d = (SparseCore.liftProg (progA (F := F)) >>= fun _ => (sc (F := F)).run d 0 >>= fun _ => SparseCore.liftProg (progB (F := F))) := by
  rfl

end Cert.KernelIdeal.Host

end
-- ==== Proof.TileDefs.lean ====
/-
  The vocabulary of one vector subcore's task in the gather kernel.

  The kernel runs on 2 x 16 vector subcores. The subcore at grid point L (task number 2 * L 1 + L 0,
  base = 512 * task) copies rows [base, base + 512) of six index vectors into its own index scratch, and for
  each index vector t < 6 and each chunk r < 4 gathers the 128 table rows named by entries
  [base + 128 r, base + 128 r + 128) of index vector t into a slot of its row scratch and copies the slot out to
  rows [base + 128 r, base + 128 r + 128) of output t.  So row x of output t ends as row (ix t x) of the table.

  What the subcore is handed: a read share of the whole table, the full share of its own 512 entries of each index
  vector (the slice the program itself addresses), and the full share of its own 4 x 128 rows of each output.
-/
import proofs.«203064_g33122787786777_cont_8to1_b_416_18_alg».proof.Proof.Alg
import proofs.«203064_g33122787786777_cont_8to1_b_416_18_alg».proof.Proof.Gen.KernelIdeal.Skeleton
import Idealize.ShloMosaic.Lib.SparseCore.Stream
import Idealize.ShloMosaic.Lib.ValueIdx

noncomputable section

namespace Cert.KernelIdeal.Tile

open Cert.KernelIdeal Cert.KernelIdeal.Gen Cert.KernelIdeal.Alg

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.Rounds

variable {F : FTy → Type}

local notation "𝕄" => MM F

/-! ## The thread and the arrays, as the body table passes them -/

/-- The vector subcore at grid point `L` of device `d`. -/
abbrev thrL (d : Dev nD) (L : grid1.Coords) : Thread nD τ := V d ((L 0).castLE hcore1) ((L 1).castLE hsub1)

/-- The packed table. -/
abbrev tabW : Memref sig .scVector .hbm S100352x128 .f32 := Memref.whole main_v14_scv
/-- The six index vectors. -/
abbrev ixW0 : Memref sig .scVector .hbm S16384 .i32 := Memref.whole main_v1_scv
abbrev ixW1 : Memref sig .scVector .hbm S16384 .i32 := Memref.whole main_v3_scv
abbrev ixW2 : Memref sig .scVector .hbm S16384 .i32 := Memref.whole main_v5_scv
abbrev ixW3 : Memref sig .scVector .hbm S16384 .i32 := Memref.whole main_v7_scv
abbrev ixW4 : Memref sig .scVector .hbm S16384 .i32 := Memref.whole main_v9_scv
abbrev ixW5 : Memref sig .scVector .hbm S16384 .i32 := Memref.whole main_v11_scv
/-- The six outputs. -/
abbrev outW0 : Memref sig .scVector .hbm S16384x128 .f32 := Memref.whole main_v15_0_scv
abbrev outW1 : Memref sig .scVector .hbm S16384x128 .f32 := Memref.whole main_v15_1_scv
abbrev outW2 : Memref sig .scVector .hbm S16384x128 .f32 := Memref.whole main_v15_2_scv
abbrev outW3 : Memref sig .scVector .hbm S16384x128 .f32 := Memref.whole main_v15_3_scv
abbrev outW4 : Memref sig .scVector .hbm S16384x128 .f32 := Memref.whole main_v15_4_scv
abbrev outW5 : Memref sig .scVector .hbm S16384x128 .f32 := Memref.whole main_v15_5_scv
/-- The subcore's index scratch (6 x 512 words) and row scratch (4 slots of 128 rows). -/
abbrev ixScr : Memref sig .scVector .vmem S3072 .i32 := Memref.whole cc1_scratch0
abbrev rowScr : Memref sig .scVector .vmem S4x128x128 .f32 := Memref.whole cc1_scratch1

/-- Contents of the table, of an index vector, of an output. -/
abbrev TabC (F : FTy → Type) : Type := S100352x128.Idx → Elt F .f32
abbrev IxC (F : FTy → Type) : Type := S16384.Idx → Elt F .i32
abbrev OutC (F : FTy → Type) : Type := S16384x128.Idx → Elt F .f32

/-- Entries [base, base + 512) of an index vector, as the program slices it. -/
abbrev ixSlice (L : grid1.Coords) (b : Memref sig .scVector .hbm S16384 .i32) : Memref sig .scVector .hbm S512 .i32 :=
  b.slice (Rect.unit (s := S16384) (k1_off1 L) S512.size (k1_off1_inb L)) (fun _ => rfl)

/-- Rows [base + 128 r, base + 128 r + 128) of an output, as the program slices it. -/
abbrev outSlice (L : grid1.Coords) (b : Memref sig .scVector .hbm S16384x128 .f32) (r : Fin 4) : Memref sig .scVector .hbm S128x128 .f32 :=
  b.slice (Rect.unit (s := S16384x128) (k1_off2 L (BitVec.ofNat 32 (128 * r.val))) S128x128.size (k1_off2_inb L r)) (fun _ => rfl)

/-! ## What the task is handed and what it hands back -/

/-- The subcore's 512 entries of index vector `b`, outright, at contents `f`. -/
abbrev ixPts (d : Dev nD) (L : grid1.Coords) (b : Memref sig .scVector .hbm S16384 .i32) (f : Buf (Elt F) ((ixSlice L b).view.loc (thrL d L))) : sProp 𝕄 :=
  (ixSlice L b).view.loc (thrL d L) ↦[(ixSlice L b).view.set]{fullShare} f

/-- Chunk `r` of the subcore's rows of output `b`, outright, at contents `f`. -/
abbrev outPts (d : Dev nD) (L : grid1.Coords) (b : Memref sig .scVector .hbm S16384x128 .f32) (r : Fin 4) (f : Buf (Elt F) (b.view.loc (thrL d L))) : sProp 𝕄 :=
  (outSlice L b r).view.loc (thrL d L) ↦[(outSlice L b r).view.set]{fullShare} f

/-- The subcore's four chunks of output `b`. -/
abbrev outPts4 (d : Dev nD) (L : grid1.Coords) (b : Memref sig .scVector .hbm S16384x128 .f32) (f : Buf (Elt F) (b.view.loc (thrL d L))) : sProp 𝕄 :=
  iprop(outPts d L b 0 f ∗ outPts d L b 1 f ∗ outPts d L b 2 f ∗ outPts d L b 3 f)

/-- The table row an index word names (the word's value; reduced into range so that the function is total). -/
def rowOf (w : BitVec 32) : Fin 100352 := ⟨w.toNat % 100352, Nat.mod_lt _ (by decide)⟩

/-- What an output ends as: row `x` is row `ixv x` of the table. -/
def gathered (tab : TabC F) (ixv : IxC F) : OutC F := fun x =>
  tab (ValueIdx.ix2 (n0 := 100352) (n1 := 128) (rowOf (ixv (ValueIdx.ix1 (n := 16384) (x 0)))) (x 1))

/-- Every index word names a row of the (padded) table. -/
def IxOK (ix : Fin 6 → IxC F) : Prop := ∀ t j, (ix t j).toNat < 100352

/-- What the task starts from: a read share `q` of the whole table at `tab`, its entries of the six index vectors
    at `ix`, its rows of the six outputs at `o`. -/
def tileGo (d : Dev nD) (L : grid1.Coords) (q : PosShare TreeShare) (tab : TabC F) (ix : Fin 6 → IxC F) (o : Fin 6 → OutC F) : sProp 𝕄 :=
  iprop((tabW.view.loc (thrL d L) ↦{q} tab)
    ∗ (ixPts d L ixW0 (ix 0) ∗ ixPts d L ixW1 (ix 1) ∗ ixPts d L ixW2 (ix 2) ∗ ixPts d L ixW3 (ix 3) ∗ ixPts d L ixW4 (ix 4) ∗ ixPts d L ixW5 (ix 5))
    ∗ (outPts4 d L outW0 (o 0) ∗ outPts4 d L outW1 (o 1) ∗ outPts4 d L outW2 (o 2) ∗ outPts4 d L outW3 (o 3) ∗ outPts4 d L outW4 (o 4) ∗ outPts4 d L outW5 (o 5)))

/-- What the task ends with: the table's share and the index entries back, its rows of output `t` at the gathered
    rows. -/
def tileTd (d : Dev nD) (L : grid1.Coords) (q : PosShare TreeShare) (tab : TabC F) (ix : Fin 6 → IxC F) : sProp 𝕄 :=
  iprop((tabW.view.loc (thrL d L) ↦{q} tab)
    ∗ (ixPts d L ixW0 (ix 0) ∗ ixPts d L ixW1 (ix 1) ∗ ixPts d L ixW2 (ix 2) ∗ ixPts d L ixW3 (ix 3) ∗ ixPts d L ixW4 (ix 4) ∗ ixPts d L ixW5 (ix 5))
    ∗ (outPts4 d L outW0 (gathered tab (ix 0)) ∗ outPts4 d L outW1 (gathered tab (ix 1)) ∗ outPts4 d L outW2 (gathered tab (ix 2))
      ∗ outPts4 d L outW3 (gathered tab (ix 3)) ∗ outPts4 d L outW4 (gathered tab (ix 4)) ∗ outPts4 d L outW5 (gathered tab (ix 5))))

end Cert.KernelIdeal.Tile

end
-- ==== Proof.Vals.lean ====
/-
  What the TensorCore's HBM buffers hold at each boundary of @main, as functions of the launch memory: after the
  first host stretch (the index columns as vectors, the two tables transposed); the packed table as the two embedding
  tables determine it on every row an index can name; the six gathered arrays the SparseCore call leaves; after the
  second host stretch (the attention weights' blocks transposed, the folded bias row).
-/
import proofs.«203064_g33122787786777_cont_8to1_b_416_18_alg».proof.Proof.Host
import proofs.«203064_g33122787786777_cont_8to1_b_416_18_alg».proof.Proof.TileDefs
import Idealize.ShloMosaic.Lib.ValueIdx

noncomputable section

namespace Cert.KernelIdeal.Vals

open Cert.KernelIdeal Cert.KernelIdeal.Gen Cert.KernelIdeal.Alg Cert.KernelIdeal.Host Cert.KernelIdeal.Tile
open Idealize.ShloMosaic Idealize.ShloMosaic.TcCoe Idealize.SL.Sem

variable {F : FTy → Type} [FloatOps F]
variable (m : (ℓ : Loc nD τ sig) → Buf (Elt F) ℓ)

/-- Device c's buffers at launch. -/
abbrev W0 (c : Dev nD) : Valuation τ sig (Elt F) := fun b => m (c, b)
/-- After the first host stretch: the first region's entry. -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b

/-- The six index vectors: heads, relations, tails of the positive and of the negative triplets. -/
def ixOf (c : Dev nD) : Fin 6 → IxC F := fun t => match t with
  | 0 => V1 m c main_v1 | 1 => V1 m c main_v3 | 2 => V1 m c main_v5
  | 3 => V1 m c main_v7 | 4 => V1 m c main_v9 | 5 => V1 m c main_v11

/-- The six output arrays as the SparseCore call finds them. -/
def outOf (c : Dev nD) : Fin 6 → OutC F := fun t => match t with
  | 0 => V1 m c main_v15_0 | 1 => V1 m c main_v15_1 | 2 => V1 m c main_v15_2
  | 3 => V1 m c main_v15_3 | 4 => V1 m c main_v15_4 | 5 => V1 m c main_v15_5

/-- The packed table on the rows below 100000: entity row r in columns 0..63, relation row r in columns 64..127. (On
    the rows from 100000 on, which no index names, the relation half is read modulo 100000: a value is needed, none is used.) -/
def tabOf (c : Dev nD) : TabC F := fun y =>
  if h : (y 1).val < 64 then
    (V1 m c main_arg2 : S1000000x64.Idx → Elt F .f32)
      (ValueIdx.ix2 (n0 := 1000000) (n1 := 64) ⟨(y 0).val, lt_of_lt_of_le (y 0).isLt (by decide)⟩ ⟨(y 1).val, h⟩)
  else
    (V1 m c main_arg3 : S100000x64.Idx → Elt F .f32)
      (ValueIdx.ix2 (n0 := 100000) (n1 := 64) ⟨(y 0).val % 100000, Nat.mod_lt _ (by decide)⟩
        ⟨(y 1).val - 64, by have := (y 1).isLt; change (y 1).val < 128 at this; omega⟩)

/-- A table's contents agree with the packed table on every row below 100000. -/
def TabOK (c : Dev nD) (tab : TabC F) : Prop := ∀ y : S100352x128.Idx, (y 0).val < 100000 → tab y = tabOf m c y

/-- Every index of the six vectors is below 100000. -/
def IxLt (c : Dev nD) : Prop := ∀ t j, (ixOf m c t j).toNat < 100000

/-- Rows gathered at indices below 100000 read a table only where the packed table pins it. -/
theorem gathered_of_tabOK (c : Dev nD) (tab : TabC F) (h : TabOK m c tab) (hix : IxLt m c) (t : Fin 6) :
    gathered tab (ixOf m c t) = gathered (tabOf m c) (ixOf m c t) := by
  funext x
  unfold gathered
  refine h _ ?_
  show (rowOf (ixOf m c t (ValueIdx.ix1 (x 0)))).val < 100000
  unfold rowOf
  have := hix t (ValueIdx.ix1 (x 0))
  show (ixOf m c t (ValueIdx.ix1 (x 0))).toNat % 100352 < 100000
  rw [Nat.mod_eq_of_lt (by omega)]; exact this

/-- The gathered arrays as the arguments determine them. -/
def gOf (c : Dev nD) (t : Fin 6) : OutC F := gathered (tabOf m c) (ixOf m c t)

/-- After the SparseCore call: the six output arrays at the gathered rows, every other buffer as the first region's
    entry found it (the packed table is tracked apart). -/
def W3 (c : Dev nD) : Valuation τ sig (Elt F) :=
  Function.update (Function.update (Function.update (Function.update (Function.update (Function.update (W1 m c)
    (Proc.devRef .tc main_v15_0) (gOf m c 0)) (Proc.devRef .tc main_v15_1) (gOf m c 1)) (Proc.devRef .tc main_v15_2) (gOf m c 2))
    (Proc.devRef .tc main_v15_3) (gOf m c 3)) (Proc.devRef .tc main_v15_4) (gOf m c 4)) (Proc.devRef .tc main_v15_5) (gOf m c 5)

/-- After the second host stretch: the second region's entry. -/
abbrev W4 (c : Dev nD) : Valuation τ sig (Elt F) := StableHlo.after hostOps1 (W3 m c)
abbrev V4 : (c : Dev nD) → (b : Ref sig .tc) → Buf (Elt F) ((c : Thread nD τ).loc b) := fun c b => W4 m c b

end Cert.KernelIdeal.Vals

end
-- ==== Proof.TcState.lean ====
/-
  The TensorCore's thread state between the segments of @main inside the SparseCore launch: beside its unscoped
  buffers, the generator register and what it owes the launch handshakes before call n — a unit of start to every
  SparseCore of every later call —, with the pairs its waits recorded kept at or below level 8n. A pipeline region is
  entered owing those units: its staging cells' waits, at index none, sit at level 0, below all of them.
-/
import proofs.«203064_g33122787786777_cont_8to1_b_416_18_alg».proof.Proof.Alg
import proofs.«203064_g33122787786777_cont_8to1_b_416_18_alg».proof.Proof.Gen.KernelIdeal.Launch
import Idealize.ShloMosaic.Lib.Pipeline.Regions

noncomputable section

namespace Cert.KernelIdeal.TcState

open Cert.KernelIdeal Cert.KernelIdeal.Gen Cert.KernelIdeal.Alg
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- What the TensorCore of c owes before call n. -/
abbrev On (n : ℕ) (c : Dev nD) : CellTallies nD τ sig (HIx 1) := (K (F := F)).Otc c n

/-- The pairs at or below level 8n on the TensorCore of c. -/
def Bn (n : ℕ) (c : Dev nD) : Set (SemLoc sig × HIx 1) := {p | (K (F := F)).lev (T c, p.1) p.2 ≤ 8 * n}

/-- Nothing is owed at index none: every unit owed sits at a call's level. -/
theorem On_none (n : ℕ) (c : Dev nD) (g : GSem nD τ sig) : On (F := F) n c g none = 0 := by
  by_contra h
  have := SparseCore.Cfg.lev_of_Otc_pos (K := K (F := F)) (Nat.pos_of_ne_zero h)
  rw [SparseCore.Cfg.lev_none] at this; omega

/-- The owing part of the TensorCore's handshake state before call n. -/
abbrev owesN (n : ℕ) (c : Dev nD) : sProp 𝕄 :=
  iprop(∃ W, ⌜(K (F := F)).WBelow (T c) W (8 * n)⌝ ∗ owes (T c) (On (F := F) n c) W)

/-- Entering a pipeline: the recorded pairs lie within the bound the proof data state. -/
theorem owes_enter (n : ℕ) (c : Dev nD) (cfg : Pipeline.Cfg sig Λ₀) :
    owesN (F := F) n c ⊢ (Pipeline.owesWithin c (On (F := F) n c) (Bn (F := F) n c ∪ cfg.waitPairs none) : sProp 𝕄) := by
  iintro ⟨%W, %hW, HO⟩
  iexists W; isplitr
  · ipureintro; intro p hp; exact Or.inl (hW p (Finset.mem_coe.mp hp))
  · iexact HO

/-- Leaving it: the pipeline's own waits recorded pairs at index none, which sit at level 0. -/
theorem owes_leave (n : ℕ) (c : Dev nD) (cfg : Pipeline.Cfg sig Λ₀) :
    (Pipeline.owesWithin c (On (F := F) n c) (Bn (F := F) n c ∪ cfg.waitPairs none) : sProp 𝕄) ⊢ owesN (F := F) n c := by
  iintro ⟨%W, %hW, HO⟩
  iexists W; isplitr
  · ipureintro; intro p hp
    rcases hW (Finset.mem_coe.mpr hp) with h | ⟨w, s, rfl⟩
    · exact h
    · show (K (F := F)).lev _ none ≤ _
      rw [SparseCore.Cfg.lev_none]; exact Nat.zero_le _
  · iexact HO

/-- A pipeline's staging-cell waits are admissible under what the TensorCore owes the handshakes. -/
theorem mayWait_stage (n : ℕ) (c : Dev nD) (sm : SemLoc sig) :
    (levAts (K (F := F)).L (K (F := F)).lev : sProp 𝕄) ⊢ MayWait (T c) sm none (On (F := F) n c) :=
  (K (F := F)).mayWait_none sm (On_none n c)

end Cert.KernelIdeal.TcState

end
-- ==== Proof.Ghost.lean ====
/-
  The launch element of the frame proof's ghost state: the launch handshakes' rounds, the two TensorCore pipelines'
  staging cells' rounds funded per device, and the transfers' counters (dropped: the tiles' local copies need no
  schedule). Nothing of the kernels' own is dealt at the launch.
-/
import proofs.«203064_g33122787786777_cont_8to1_b_416_18_alg».proof.Proof.Alg
import proofs.«203064_g33122787786777_cont_8to1_b_416_18_alg».proof.Proof.Gen.KernelIdeal.Launch
import Idealize.ShloMosaic.Lib.Pipeline.Regions

noncomputable section

namespace Cert.KernelIdeal.Ghost

open Cert.KernelIdeal Cert.KernelIdeal.Gen Cert.KernelIdeal.Alg
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- No pipeline has a prefetched table. -/
abbrev adm : (p : Fin 2) → (pcfgs (F := F) p).Adm := fun p => (cfgs p).toPCfg_adm

/-- The launch element: the handshakes' cells and tokens, the staging cells' and theirs, the counters at their unit. -/
def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj), 1))

/-- What @main's proof on device d starts from beside the handshakes: both pipelines' staging-cell ghost state. -/
abbrev G (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

/-- The staging cells' component, spelt as the injections compose, is the certificate's embedding of it. -/
theorem own_EP (x : UP) :
    (BI.own (((Emb.inl : Emb UP (UP × Counters)).trans (embR : Emb (UP × Counters) (MM F))) x) : sProp 𝕄) ⊢ BI.own (EP x) :=
  Entails.of_eq rfl

/-- The element splits into the handshakes' rounds and the pipelines'; the latter fund every device's staging cells. -/
theorem hu₀ (x : Fin 1 → Thread nD τ → sProp 𝕄) (hx : ∀ q thr, x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => x q thr) := by
  have h1 : (ownU (u₀ (F := F)) : sProp 𝕄)
      ⊢ iprop(BI.own (EH (initOf (K (F := F)).hsCells (K (F := F)).hsToks))
          ∗ BI.own (EP (initOf (Pipeline.cells (nD := nD) (τ := τ) (Pipeline.pin (pcfgs (F := F)) adm) cellOf_inj) (Pipeline.launchToks (nD := nD) (τ := τ) (Pipeline.pin (pcfgs (F := F)) adm) cellOf_inj)))) := by
    unfold u₀
    refine (ownU_pair _ _).trans (sep_mono (Entails.of_eq rfl) ?_)
    exact (own_pair_emb (embR : Emb (UP × Counters) (MM F)) _ _).trans (sep_elim_left.trans (own_EP _))
  iintro Hu
  ihave H := h1 $$ Hu
  icases H with ⟨HH, HP2⟩
  imod (Pipeline.fund_ghost (Pipeline.pin (pcfgs (F := F)) adm) EP cellOf_inj) $$ HP2 with ⟨Hg, Ht⟩
  imodintro
  isplitl [HH]; · iexact HH
  isplitl [Hg Ht]
  · unfold G Pipeline.ghostOn Pipeline.PerCore.ghostOn
    simp only [bigSep_sep']
    isplitl [Hg] <;> iassumption
  rw [show (bigSep Finset.univ fun thr : Thread nD τ => bigSep Finset.univ fun q : Fin 1 => x q thr) = (iprop(emp) : sProp 𝕄) from by
    rw [bigSep_congr fun thr _ => (bigSep_congr fun q _ => hx q thr).trans (bigSep_emp' _), bigSep_emp']]
  iempintro

end Cert.KernelIdeal.Ghost

end
-- ==== Proof.Region0.lean ====
/-
  The first TensorCore region: the kernel call that packs the two transposed tables into one array of 100352 rows
  of 128 columns. Its grid has 49 points; at point `t` the body reads the block of columns 2048·t ‥ 2048·t + 2047 of
  each transposed table (64 rows) and writes rows 2048·t ‥ 2048·t + 2047 of the result: the transpose of the first
  block in columns 0‥63, the transpose of the second in columns 64‥127.

  The second table has 100000 columns, so its last block overhangs it by 352 columns: the fetch there fills only
  the 1696 columns inside the array, and the rest of the staging buffer holds contents nothing names. The body
  transposes the whole buffer, so rows 100000‥100351 of the result's right half are not a function of the
  arguments. The proof data are therefore relational: what the body leaves in the result's staging buffer is the
  transposes of SOME two fetched buffers. Everything is stated at any float instance, at a parameter `V` for the
  TensorCore's buffer contents when the region is entered, a parameter `O` for what the TensorCore owes through
  the region, and a parameter `B` bounding the pairs its waits recorded before it.
-/
import proofs.«203064_g33122787786777_cont_8to1_b_416_18_alg».proof.Proof.Alg
import proofs.«203064_g33122787786777_cont_8to1_b_416_18_alg».proof.Proof.Gen.KernelIdeal.Launch
import proofs.«203064_g33122787786777_cont_8to1_b_416_18_alg».proof.Proof.Gen.KernelIdeal.Skeleton
import proofs.«203064_g33122787786777_cont_8to1_b_416_18_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Region0

open Cert.KernelIdeal Cert.KernelIdeal.Gen Cert.KernelIdeal.Alg
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.ValueIdx (ix2 eq_ix2)

variable {F : FTy → Type} [FloatOps F]

local notation "𝕄" => MM F

/-- The invariant a TensorCore region keeps through its grid: the core's scoped buffers that are no staging buffer
    of the region's windows, each at some contents, and the generator register at some state. -/
def Φreg {gr W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

section Region
variable (V : (c : Dev nD) → (b : Ref sig .tc) → Buf (Elt F) ((c : Thread nD τ).loc b))
variable (O : Dev nD → CellTallies nD τ sig (HIx 1))
variable (B : Dev nD → Set (SemLoc sig × HIx 1))

/-! ## The windows' blocks -/

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What an input's staging buffer holds once the fetch at point `t` has landed, if it held `d`: the block on the
    part inside the array, `d` past the array's end (only the second input's last block has such a part). -/
def fblk0 (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk0 V c w t)

/-! ## The body's accesses -/

abbrev rIn : Rect S64x2048 := Rect.unit (s := S64x2048) ![0, 0] S64x2048.size inb_S64x2048_S64x2048_0_0
abbrev rLeft : Rect S2048x128 := Rect.unit (s := S2048x128) ![0, 0] S2048x64.size inb_S2048x128_S2048x64_0_0
abbrev rRight : Rect S2048x128 := Rect.unit (s := S2048x128) ![0, 64] S2048x64.size inb_S2048x128_S2048x64_0_64

/-! ## What the body leaves in the output's buffer -/

/-- What the body leaves in the output's staging buffer, from the contents of the two inputs' staging buffers:
    the transpose of the first in columns 0‥63, the transpose of the second in columns 64‥127 (the two stores
    as pieces, the later first). -/
def out0_2 (x0 x1 : Vec F S64x2048 .f32) : Vec F S2048x128 .f32 :=
  View.canon [⟨rRight, k0_pay2 (View.ld x1 rIn)⟩, ⟨rLeft, k0_pay1 (View.ld x0 rIn)⟩]

/-- The two stores tile the buffer, so they cover it. -/
theorem cover0_2 (p0 p1 : Vec F S2048x64 .f32) (y : S2048x128.Idx) :
    ∃ pc ∈ ([⟨rRight, p1⟩, ⟨rLeft, p0⟩] : List (View.Piece (Elt F) S2048x128 .f32)), y ∈ pc.1.set :=
  View.cover_of_tiled [⟨rRight, p1⟩, ⟨rLeft, p0⟩] S2048x64.size (by rfl) y

/-! ## The body's triple -/

set_option maxHeartbeats 1000000 in
/-- The body on whole staging memrefs, the inputs' at read contents `x0`, `x1` and the output's at anything, runs
    to the continuation holding the inputs' as they were and the output's at `out0_2 x0 x1`. -/
theorem sound_kernel0 (c : Dev nD) (E : Set ℕ) (i : grid0.Coords) (arg1 : Memref sig .tc .vmem S64x2048 .f32) (harg1 : arg1.IsWhole)
    (arg2 : Memref sig .tc .vmem S64x2048 .f32) (harg2 : arg2.IsWhole) (arg3 : Memref sig .tc .vmem S2048x128 .f32) (harg3 : arg3.IsWhole)
    (x0 x1 : Vec F S64x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__pack_body i arg1 harg1 arg2 harg2 arg3 harg3) K := by
  simp only [cc0__pack_body_eq_skeleton]; unfold cc0__pack_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The proof data of the packing pipeline on core `c`, relational: the arrays as the region finds them; the body
    leaves each input's buffer as it found it, and the output's at `out0_2` of two fetched input buffers — the
    blocks on their parts inside the arrays, contents nothing names past the arrays' ends —; the invariant the
    scoped rest and the generator register; full shares; the core owes `O c` throughout, its recorded pairs within
    `B c` and the loop's own. -/
def rdat0 (c : Dev nD) : RDat τ (Elt F) (HIx 1) ℕ UU ℕ cfg0 c where
  A w := V c (Pipeline.arrRef spec0 w)
  after w t := match w with
    | ⟨0, _⟩ => fun Y X => X = Y
    | ⟨1, _⟩ => fun Y X => X = Y
    | ⟨2, _⟩ => fun _ X => ∃ d0 d1, X = out0_2 (fblk0 V c 0 t d0) (fblk0 V c 1 t d1)
  Φ _ := Φreg spec0 c
  q _ := fullShare
  owed _ := O c
  recorded _ := B c

/-- The proof data's arrays are the region-entry contents. -/
theorem A_eq0 (c : Dev nD) (w : Fin cfg0.W) : (rdat0 V O B c).A w = V c (Pipeline.arrRef spec0 w) := by
  dsimp only [rdat0]

/-- The relations, window by window. -/
theorem after0_0 (c : Dev nD) (t : Fin cfg0.N) (Y X) : (rdat0 V O B c).after 0 t Y X = (X = Y) := by dsimp only [rdat0]
theorem after0_1 (c : Dev nD) (t : Fin cfg0.N) (Y X) : (rdat0 V O B c).after 1 t Y X = (X = Y) := by dsimp only [rdat0]
theorem after0_2 (c : Dev nD) (t : Fin cfg0.N) (Y X) :
    (rdat0 V O B c).after 2 t Y X = ∃ d0 d1, X = out0_2 (fblk0 V c 0 t d0) (fblk0 V c 1 t d1) := by dsimp only [rdat0]

/-- What a fetch leaves in an input's buffer, in the proof data's words, is `fblk0`. -/
theorem fetched0 (c : Dev nD) (w : Fin cfg0.W) (t : Fin cfg0.N) (d) : (rdat0 V O B c).fetched w t d = fblk0 V c w t d := by
  unfold RDat.fetched RDat.blockOf fblk0 iblk0; rw [A_eq0]

/-- Both inputs are fetched at every point: whatever the body finds in their buffers is a fetched block. -/
theorem finds0_0 (c : Dev nD) (t : Fin cfg0.N) (Y) (h : (rdat0 V O B c).Finds 0 t Y) : ∃ d, Y = fblk0 V c 0 t d := by
  obtain ⟨d, hd⟩ := ((rdat0 V O B c).finds_of_fetch (fetch0_0 t) Y).mp h
  exact ⟨d, hd.trans (fetched0 V O B c 0 t d)⟩
theorem finds0_1 (c : Dev nD) (t : Fin cfg0.N) (Y) (h : (rdat0 V O B c).Finds 1 t Y) : ∃ d, Y = fblk0 V c 1 t d := by
  obtain ⟨d, hd⟩ := ((rdat0 V O B c).finds_of_fetch (fetch0_1 t) Y).mp h
  exact ⟨d, hd.trans (fetched0 V O B c 1 t d)⟩

/-! ## The body obligation, at a generic point -/

/-- What the body is called with at point `t`, the windows one by one, -/
def bodyPre0 (c : Dev nD) (t : Fin cfg0.N) (Y : (w : Fin cfg0.W) → (cfg0.win w).block.Idx → Elt F (cfg0.win w).elt) : sProp 𝕄 :=
  iprop((rdat0 V O B c).Φ t.castSucc ∗ (rdat0 V O B c).owesAt none t.castSucc
    ∗ owns (c : Thread nD τ) (st0_0 t) fullShare (Y 0)
    ∗ owns (c : Thread nD τ) (st0_1 t) fullShare (Y 1)
    ∗ owns (c : Thread nD τ) (st0_2 t) fullShare (Y 2))

/-- and what it returns. -/
def bodyPost0 (c : Dev nD) (t : Fin cfg0.N) (Y : (w : Fin cfg0.W) → (cfg0.win w).block.Idx → Elt F (cfg0.win w).elt) : sProp 𝕄 :=
  iprop((rdat0 V O B c).Φ t.succ ∗ (rdat0 V O B c).owesAt none t.succ
    ∗ (∃ X, ⌜(rdat0 V O B c).after 0 t (Y 0) X⌝ ∗ owns (c : Thread nD τ) (st0_0 t) fullShare X)
    ∗ (∃ X, ⌜(rdat0 V O B c).after 1 t (Y 1) X⌝ ∗ owns (c : Thread nD τ) (st0_1 t) fullShare X)
    ∗ (∃ X, ⌜(rdat0 V O B c).after 2 t (Y 2) X⌝ ∗ owns (c : Thread nD τ) (st0_2 t) fullShare X))

/-- The body at any point: the inputs' buffers hold fetched blocks, so `sound_kernel0` applies; the invariant and
    what the core owes pass through unread. -/
theorem sound_body0 (c : Dev nD) (t : Fin cfg0.N) (Y : (w : Fin cfg0.W) → (cfg0.win w).block.Idx → Elt F (cfg0.win w).elt)
    (d0) (h0 : Y 0 = fblk0 V c 0 t d0) (d1) (h1 : Y 1 = fblk0 V c 1 t d1) :
    bodyPre0 V O B c t Y ⊢ wp frame (wpE (defs₀ (F := F)) Variants.none c none) Set.univ (bodyAt0 t) (fun _ => bodyPost0 V O B c t Y) := by
  unfold bodyPre0 bodyPost0 bodyAt0
  rw [show (rdat0 V O B c).Φ t.succ = (rdat0 V O B c).Φ t.castSucc from rfl,
    show (rdat0 V O B c).owesAt none t.succ = (rdat0 V O B c).owesAt none t.castSucc from rfl]
  simp only [after0_0, after0_1, after0_2]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  iexists (out0_2 (Y 0) (Y 1)); isplitr
  · ipureintro; exact ⟨d0, d1, by rw [h0, h1]⟩
  iexact H2

/-- The library's relational body obligation, at every point. -/
theorem body_obligation0 (c : Dev nD) :
    (rdat0 V O B c).BodyObligation (defs₀ (F := F)) Variants.none (none : HIx 1) Set.univ := fun t Y hY => by
  obtain ⟨d0, h0⟩ := finds0_0 V O B c t (Y 0) (hY 0)
  obtain ⟨d1, h1⟩ := finds0_1 V O B c t (Y 1) (hY 1)
  rw [bigSep_W0, bigSep_W0]
  exact sound_body0 V O B c t Y d0 h0 d1 h1

end Region

/-! ## The result array, index by index -/

section Value

/-- The index maps, decided over the grid: the result's block at point `t` is rows 2048·t ‥, all columns; each
    input's is all 64 rows, columns 2048·t ‥. -/
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx0_0 : ∀ t : Fin cfg0.N, win0_0.index t 0 = 0 ∧ win0_0.index t 1 = t.val :=
  (by decide +kernel : ∀ t : Fin grid0.N, win0_0.index t 0 = 0 ∧ win0_0.index t 1 = t.val)
theorem idx0_1 : ∀ t : Fin cfg0.N, win0_1.index t 0 = 0 ∧ win0_1.index t 1 = t.val :=
  (by decide +kernel : ∀ t : Fin grid0.N, win0_1.index t 0 = 0 ∧ win0_1.index t 1 = t.val)
/-- How much of each input block lies inside its array: all of the first table's, and of the second's the columns
    below 100000. -/
theorem xs0_0 : ∀ t : Fin cfg0.N, win0_0.xsize (grid0.coords t) 0 = 64 ∧ win0_0.xsize (grid0.coords t) 1 = 2048 :=
  (by decide +kernel : ∀ t : Fin grid0.N, win0_0.xsize (grid0.coords t) 0 = 64 ∧ win0_0.xsize (grid0.coords t) 1 = 2048)
theorem xs0_1 : ∀ t : Fin cfg0.N, win0_1.xsize (grid0.coords t) 0 = 64 ∧ win0_1.xsize (grid0.coords t) 1 = min 2048 (100000 - 2048 * t.val) :=
  (by decide +kernel : ∀ t : Fin grid0.N, win0_1.xsize (grid0.coords t) 0 = 64 ∧ win0_1.xsize (grid0.coords t) 1 = min 2048 (100000 - 2048 * t.val))

/-- A transposed block at an index. -/
theorem pay1_apply (x : Vec F S64x2048 .f32) (p : Fin 2048) (q : Fin 64) : k0_pay1 x (ix2 p q) = x (ix2 q p) := by
  unfold k0_pay1
  refine (transpose_apply _ _ _ (ix2 p q) (ix2 q p) ?_).trans ?_
  · intro b; match b with | ⟨0, _⟩ => rfl | ⟨1, _⟩ => rfl
  · rw [shapeCast_self]
theorem pay2_apply (x : Vec F S64x2048 .f32) (p : Fin 2048) (q : Fin 64) : k0_pay2 x (ix2 p q) = x (ix2 q p) := by
  unfold k0_pay2
  refine (transpose_apply _ _ _ (ix2 p q) (ix2 q p) ?_).trans ?_
  · intro b; match b with | ⟨0, _⟩ => rfl | ⟨1, _⟩ => rfl
  · rw [shapeCast_self]

theorem hz0 : (![0, 0] : Fin 2 → Nat) = fun _ => 0 := funext fun a => by fin_cases a <;> rfl

/-- The two transposes side by side, as one function of the output block's index: column `b` below 64 of row `a` is
    the first buffer at (b, a), column `b` from 64 up is the second buffer at (b − 64, a). -/
def packed (x0 x1 : Vec F S64x2048 .f32) : Vec F S2048x128 .f32 := fun y =>
  if h : (y 1).val < 64 then x0 (ix2 ⟨(y 1).val, h⟩ (y 0))
  else x1 (ix2 ⟨(y 1).val - 64, by have := ValueIdx.idx2_lt1 y; omega⟩ (y 0))

/-- What the body leaves in the output's buffer is that function: each store's payload is its part of it. -/
theorem out0_2_eq (x0 x1 : Vec F S64x2048 .f32) : out0_2 x0 x1 = packed x0 x1 := by
  funext y
  unfold out0_2
  refine View.canon_apply_of_pieces (packed x0 x1) _ (fun pc hp x => ?_) y (cover0_2 _ _ y)
  rcases List.mem_cons.mp hp with rfl | hp
  · obtain ⟨a, b, rfl⟩ : ∃ (a : Fin 2048) (b : Fin 64), x = ix2 a b := ⟨x 0, x 1, eq_ix2 x⟩
    show k0_pay2 (View.ld x1 rIn) (ix2 a b) = packed x0 x1 ((rRight).emb (ix2 a b))
    rw [pay2_apply, View.ld_unit_zero (S := S64x2048) hz0]
    have h1 : (((rRight).emb (ix2 a b)) 1).val = 64 + b.val := by show 64 + 1 * b.val = _; omega
    unfold packed
    rw [dif_neg (by rw [h1]; omega)]
    refine congrArg x1 (funext fun i => Fin.ext ?_)
    match i with
    | ⟨0, _⟩ => show b.val = (((rRight).emb (ix2 a b)) 1).val - 64; rw [h1]; omega
    | ⟨1, _⟩ => show a.val = 0 + 1 * a.val; omega
  · obtain rfl := List.mem_singleton.mp hp
    obtain ⟨a, b, rfl⟩ : ∃ (a : Fin 2048) (b : Fin 64), x = ix2 a b := ⟨x 0, x 1, eq_ix2 x⟩
    show k0_pay1 (View.ld x0 rIn) (ix2 a b) = packed x0 x1 ((rLeft).emb (ix2 a b))
    rw [pay1_apply, View.ld_unit_zero (S := S64x2048) hz0]
    have h1 : (((rLeft).emb (ix2 a b)) 1).val = b.val := by show 0 + 1 * b.val = _; omega
    unfold packed
    rw [dif_pos (by rw [h1]; exact b.isLt)]
    refine congrArg x0 (funext fun i => Fin.ext ?_)
    match i with
    | ⟨0, _⟩ => show b.val = (((rLeft).emb (ix2 a b)) 1).val; rw [h1]
    | ⟨1, _⟩ => show a.val = 0 + 1 * a.val; omega

theorem out0_2_left (x0 x1 : Vec F S64x2048 .f32) (p : Fin 2048) (q : Fin 128) (h : q.val < 64) :
    out0_2 x0 x1 (ix2 p q) = x0 (ix2 ⟨q.val, h⟩ p) := by
  rw [out0_2_eq]; unfold packed; exact dif_pos h
theorem out0_2_right (x0 x1 : Vec F S64x2048 .f32) (p : Fin 2048) (q : Fin 128) (h : 64 ≤ q.val) :
    out0_2 x0 x1 (ix2 p q) = x1 (ix2 ⟨q.val - 64, by have := q.isLt; omega⟩ p) := by
  rw [out0_2_eq]; unfold packed; exact dif_neg (by show ¬q.val < 64; omega)

section Arrays
variable (V : (c : Dev nD) → (b : Ref sig .tc) → Buf (Elt F) ((c : Thread nD τ).loc b))
variable (O : Dev nD → CellTallies nD τ sig (HIx 1))
variable (B : Dev nD → Set (SemLoc sig × HIx 1))

theorem N0_eq : cfg0.N = 49 := N_0

/-- The first input's fetched buffer at an index: the transposed first table at the block's column (every block of
    the grid lies inside that table). -/
theorem fblk0_0_apply (c : Dev nD) (t : Fin cfg0.N) (d) (q : Fin 64) (p : Fin 2048) :
    fblk0 V c 0 t d (ix2 q p) = V c main_v12 (ix2 q ⟨2048 * t.val + p.val, by have := lt_of_lt_of_eq t.isLt N0_eq; have := p.isLt; omega⟩) := by
  have hm : (cfg0.win 0).moved (cfg0.grid.coords t) (ix2 q p) = true := ((cfg0.win 0).moved_iff _ _).mpr fun a => by
    match a with
    | ⟨0, _⟩ => show q.val < win0_0.xsize (grid0.coords t) 0; rw [(xs0_0 t).1]; exact q.isLt
    | ⟨1, _⟩ => show p.val < win0_0.xsize (grid0.coords t) 1; rw [(xs0_0 t).2]; exact p.isLt
  unfold fblk0 Window.fill
  rw [dif_pos hm]
  unfold iblk0
  show V c main_v12 (((cfg0.win 0).blk t).view.emb _) = _
  refine congrArg (V c main_v12) (funext fun a => Fin.ext ?_)
  match a with
  | ⟨0, _⟩ => show win0_0.index t 0 * 64 + 1 * q.val = q.val; rw [(idx0_0 t).1]; omega
  | ⟨1, _⟩ => show win0_0.index t 1 * 2048 + 1 * p.val = 2048 * t.val + p.val; rw [(idx0_0 t).2]; omega

/-- The second input's fetched buffer at an index whose column is inside the second table: the transposed second
    table there. -/
theorem fblk0_1_apply (c : Dev nD) (t : Fin cfg0.N) (d) (q : Fin 64) (p : Fin 2048) (h : 2048 * t.val + p.val < 100000) :
    fblk0 V c 1 t d (ix2 q p) = V c main_v13 (ix2 q ⟨2048 * t.val + p.val, h⟩) := by
  have hm : (cfg0.win 1).moved (cfg0.grid.coords t) (ix2 q p) = true := ((cfg0.win 1).moved_iff _ _).mpr fun a => by
    match a with
    | ⟨0, _⟩ => show q.val < win0_1.xsize (grid0.coords t) 0; rw [(xs0_1 t).1]; exact q.isLt
    | ⟨1, _⟩ => show p.val < win0_1.xsize (grid0.coords t) 1; rw [(xs0_1 t).2]; have := p.isLt; omega
  unfold fblk0 Window.fill
  rw [dif_pos hm]
  unfold iblk0
  show V c main_v13 (((cfg0.win 1).blk t).view.emb _) = _
  refine congrArg (V c main_v13) (funext fun a => Fin.ext ?_)
  match a with
  | ⟨0, _⟩ => show win0_1.index t 0 * 64 + 1 * q.val = q.val; rw [(idx0_1 t).1]; omega
  | ⟨1, _⟩ => show win0_1.index t 1 * 2048 + 1 * p.val = 2048 * t.val + p.val; rw [(idx0_1 t).2]; omega

/-- An index of the result array is in point `t`'s block iff its row is among the block's 2048 rows (every column is). -/
theorem mem_blk0_2 (t : Fin cfg0.N) (i : S100352x128.Idx) :
    i ∈ ((cfg0.win 2).blk t).view.setOn Finset.univ ↔ 2048 * t.val ≤ (i 0).val ∧ (i 0).val < 2048 * t.val + 2048 := by
  rw [View.setOn_univ]
  show i ∈ ((View.whole main_v14).slice (win0_2.rect t)).set ↔ _
  rw [View.set_slice_whole, Rect.mem_set_unit]
  have h1 : (i 1).val < 128 := (i 1).isLt
  refine ⟨fun h => ?_, fun h a => ?_⟩
  · have h0 := h 0
    change win0_2.index t 0 * 2048 ≤ (i 0).val ∧ (i 0).val < win0_2.index t 0 * 2048 + 2048 at h0
    rw [(idx0_2 t).1] at h0; omega
  · match a with
    | ⟨0, _⟩ =>
      change win0_2.index t 0 * 2048 ≤ (i 0).val ∧ (i 0).val < win0_2.index t 0 * 2048 + 2048
      rw [(idx0_2 t).1]; omega
    | ⟨1, _⟩ =>
      change win0_2.index t 1 * 128 ≤ (i 1).val ∧ (i 1).val < win0_2.index t 1 * 128 + 128
      rw [(idx0_2 t).2]; omega

/-- The write-back at point `t`, read at an index inside its block: what the staging buffer held there. -/
theorem write_blk0_2_in (c : Dev nD) (t : Fin cfg0.N) (G₀ : Buf (Elt F) ((cfg0.win 2).arr.view.loc (c.tc : Thread nD τ)))
    (X : (cfg0.win 2).block.Idx → Elt F (cfg0.win 2).elt) (r : Fin 100352) (j : Fin 128) (p : Fin 2048)
    (hr : r.val = 2048 * t.val + p.val) :
    ((cfg0.win 2).blk t).view.write (Elt F) G₀ ((cfg0.win 2).cut (cfg0.grid.coords t) X) Finset.univ (ix2 r j) = X (ix2 p j) := by
  have e : (ix2 r j : S100352x128.Idx) = ((cfg0.win 2).blk t).view.emb (ix2 p j) := funext fun a => Fin.ext (by
    match a with
    | ⟨0, _⟩ => show r.val = win0_2.index t 0 * 2048 + 1 * p.val; rw [(idx0_2 t).1]; omega
    | ⟨1, _⟩ => show j.val = win0_2.index t 1 * 128 + 1 * j.val; rw [(idx0_2 t).2]; omega)
  rw [e, View.write_emb_of_mem _ _ (Finset.mem_univ _)]
  rfl

/-- What is claimed of contents `G` of the result array at row `r`, column `j`: in the left half the first table's
    row `r`; in the right half, for a row below 100000, the second table's row `r`. -/
def Good (c : Dev nD) (G : Buf (Elt F) ((cfg0.win 2).arr.view.loc (c.tc : Thread nD τ))) (r : Fin 100352) (j : Fin 128) : Prop :=
  (∀ h : j.val < 64, G (ix2 r j) = V c main_v12 (ix2 ⟨j.val, h⟩ ⟨r.val, by have := r.isLt; omega⟩)) ∧
  (∀ (h : 64 ≤ j.val) (hr : r.val < 100000), G (ix2 r j) = V c main_v13 (ix2 ⟨j.val - 64, by have := j.isLt; omega⟩ ⟨r.val, hr⟩))

/-- After the write-backs of the points below `n`, whatever the result array holds is as claimed on the rows those
    points wrote: by induction on `n`, a row either in the last block written or left as the induction found it. -/
theorem arrAt0_2_good (c : Dev nD) : ∀ (n : ℕ) (hn : n ≤ cfg0.N) (G), (rdat0 V O B c).ArrAt 2 n G →
    ∀ (r : Fin 100352) (j : Fin 128), r.val < 2048 * n → Good V c G r j
  | 0, _, G, _, r, j, h => absurd h (by omega)
  | n + 1, hn, G, hG, r, j, h => by
    have hN : n < cfg0.N := hn
    have hS : (rdat0 V O B c).ArrStep 2 ⟨n, hN⟩ ((rdat0 V O B c).ArrAt 2 n) G := by
      have e := (rdat0 V O B c).ArrAt_succ 2 ⟨n, hN⟩
      rw [if_pos (flush0_2 ⟨n, hN⟩)] at e
      exact Eq.mp (congrFun e G) hG
    obtain ⟨G₀, X, hG₀, ⟨Y, _, hYX⟩, rfl⟩ := hS
    rw [after0_2] at hYX
    obtain ⟨d0, d1, rfl⟩ := hYX
    by_cases hr : r.val < 2048 * n
    · have ih := arrAt0_2_good c n (Nat.le_of_succ_le hn) G₀ hG₀ r j hr
      have hout : ((cfg0.win 2).blk ⟨n, hN⟩).view.write (Elt F) G₀ ((cfg0.win 2).cut (cfg0.grid.coords ⟨n, hN⟩)
          (out0_2 (fblk0 V c 0 ⟨n, hN⟩ d0) (fblk0 V c 1 ⟨n, hN⟩ d1))) Finset.univ (ix2 r j) = G₀ (ix2 r j) :=
        View.write_of_not_mem _ _ _ (by rw [mem_blk0_2]; show ¬(2048 * n ≤ r.val ∧ r.val < 2048 * n + 2048); omega)
      unfold Good; rw [hout]; exact ih
    · have hp : r.val - 2048 * n < 2048 := by omega
      have hin := write_blk0_2_in c ⟨n, hN⟩ G₀ (out0_2 (fblk0 V c 0 ⟨n, hN⟩ d0) (fblk0 V c 1 ⟨n, hN⟩ d1)) r j ⟨r.val - 2048 * n, hp⟩
        (by show r.val = 2048 * n + (r.val - 2048 * n); omega)
      refine ⟨fun hj => ?_, fun hj hr' => ?_⟩
      · rw [hin, out0_2_left _ _ _ _ hj, fblk0_0_apply]
        exact congrArg (V c main_v12) (congrArg (ix2 _) (Fin.ext (by show 2048 * n + (r.val - 2048 * n) = r.val; omega)))
      · rw [hin, out0_2_right _ _ _ _ hj, fblk0_1_apply V c ⟨n, hN⟩ d1 _ _ (by show 2048 * n + (r.val - 2048 * n) < 100000; omega)]
        exact congrArg (V c main_v13) (congrArg (ix2 _) (Fin.ext (by show 2048 * n + (r.val - 2048 * n) = r.val; omega)))

/-- THE VALUE of the packing region: whatever the result array may hold after the region, its row `r` is the first
    table's row `r` in columns 0‥63 and, for `r` below 100000, the second table's row `r` in columns 64‥127 (the
    tables as the region finds them transposed, `main_v12` and `main_v13`). Rows 100000‥100351 of the right half are
    not determined. -/
theorem value0 (c : Dev nD) (G) (hG : (rdat0 V O B c).ArrAt 2 cfg0.N G) (r : Fin 100352) (j : Fin 128) :
    (∀ h : j.val < 64, G (ix2 r j) = V c main_v12 (ix2 ⟨j.val, h⟩ ⟨r.val, by have := r.isLt; omega⟩)) ∧
    (∀ (h : 64 ≤ j.val) (hr : r.val < 100000), G (ix2 r j) = V c main_v13 (ix2 ⟨j.val - 64, by have := j.isLt; omega⟩ ⟨r.val, hr⟩)) :=
  arrAt0_2_good V O B c cfg0.N le_rfl G hG r j (by have := r.isLt; have : cfg0.N = 49 := N0_eq; omega)

end Arrays
end Value
end Cert.KernelIdeal.Region0
end
-- ==== Proof.Region2.lean ====
/-
  The second TensorCore region: the kernel call that reduces the six gathered row arrays (16384 rows of 128 columns
  each), two 64 × 64 weight blocks and a bias row to one number. Its grid has 4 points; at point `t` the body reads
  rows 4096·t ‥ 4096·t + 4095 of the six arrays (the left or the right 64 columns of each), forms the two row norms
  of the positive and of the negative triples, and adds the sum over the 4096 rows of max(0, pos − neg + 1) to a
  1 × 1 accumulator: the result's staging buffer, whose block index never moves, which the body zeroes at the
  first point, scales by 1/16384 at the last, and which is written back after the last point only. So the body has
  three control cases (first point; middle points; last point) and the accumulator is carried across the grid.
  Everything is stated at any float instance, at a parameter `V` for the TensorCore's buffer contents when the
  region is entered, a parameter `O` for what the TensorCore owes through the region, and a parameter `B` bounding
  the pairs its waits recorded before it.
-/
import proofs.«203064_g33122787786777_cont_8to1_b_416_18_alg».proof.Proof.Region0
import proofs.«203064_g33122787786777_cont_8to1_b_416_18_alg».proof.Proof.Gen.KernelIdeal.Launch
import proofs.«203064_g33122787786777_cont_8to1_b_416_18_alg».proof.Proof.Gen.KernelIdeal.Skeleton
import proofs.«203064_g33122787786777_cont_8to1_b_416_18_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Region2

open Cert.KernelIdeal Cert.KernelIdeal.Gen Cert.KernelIdeal.Alg Cert.KernelIdeal.Region0
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MM F

section Region
variable (V : (c : Dev nD) → (b : Ref sig .tc) → Buf (Elt F) ((c : Thread nD τ).loc b))
variable (O : Dev nD → CellTallies nD τ sig (HIx 1))
variable (B : Dev nD → Set (SemLoc sig × HIx 1))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the region-entry contents and whose body leaves the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the region-entry contents and whose body leaves the block in place. -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the region-entry contents and whose body leaves the block in place. -/
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the region-entry contents and whose body leaves the block in place. -/
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the region-entry contents and whose body leaves the block in place. -/
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is the region-entry contents and whose body leaves the block in place. -/
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is the region-entry contents and whose body leaves the block in place. -/
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof data
    whose array is the region-entry contents and whose body leaves the block in place. -/
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof data
    whose array is the region-entry contents and whose body leaves the block in place. -/
theorem before2_8_of {c : Dev nD} (dat : Dat τ (Elt F) (HIx 1) ℕ UU ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses and its branch conditions -/

abbrev rL : Rect S4096x128 := Rect.unit (s := S4096x128) ![0, 0] S4096x64.size inb_S4096x128_S4096x64_0_0
abbrev rR : Rect S4096x128 := Rect.unit (s := S4096x128) ![0, 64] S4096x64.size inb_S4096x128_S4096x64_0_64
abbrev rW : Rect S64x64 := Rect.unit (s := S64x64) ![0, 0] S64x64.size inb_S64x64_S64x64_0_0
abbrev rC : Rect S1x64 := Rect.unit (s := S1x64) ![0, 0] S1x64.size inb_S1x64_S1x64_0_0
abbrev rO : Rect S1x1 := Rect.unit (s := S1x1) ![0, 0] S1x1.size inb_S1x1_S1x1_0_0

theorem hz2 : (![0, 0] : Fin 2 → Nat) = fun _ => 0 := funext fun a => by fin_cases a <;> rfl

/-- "The point is the first": the condition under which the body zeroes the accumulator. -/
abbrev cond2_0 (i : grid2.Coords) : Prop := (Scalar.cmpi .ne (Scalar.extui (Scalar.cmpi .eq (BitVec.ofNat 32 (i 0).val) 0#32)) 0#32) = 1#1
/-- "The point is the last": the condition under which the body scales the accumulator. -/
abbrev cond2_1 (i : grid2.Coords) : Prop := (Scalar.cmpi .ne (Scalar.extui (Scalar.cmpi .eq (BitVec.ofNat 32 (i 0).val) 3#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 = 3 :=
  (by decide +kernel : ∀ t : Fin grid2.N, cond2_1 (grid2.coords t) ↔ t.val % 4 = 3)

/-! ## What the body leaves in the accumulator -/

/-- A point's contribution, from the contents of the nine inputs' staging buffers: the sum over the block's 4096 rows
    of max(0, pos − neg + 1), pos and neg the row norms of the positive and the negative triples (the six row blocks'
    left or right halves, the two weight blocks, the bias row). -/
def contrib2 (x0 x1 x2 x3 x4 x5 : Vec F S4096x128 .f32) (x6 x7 : Vec F S64x64 .f32) (x8 : Vec F S1x64 .f32) : FVec F S1x1 .f32 :=
  k2_pay6 (k2_pay3 (View.ld x0 rL) (View.ld x1 rR) (View.ld x2 rL) (View.ld x6 rW) (View.ld x7 rW) (View.ld x8 rC))
    (k2_pay4 (View.ld x3 rL)) (k2_pay5 (View.ld x4 rR)) (View.ld x5 rL) (View.ld x6 rW) (View.ld x7 rW) (View.ld x8 rC)

/-- The accumulator after the first point: the contribution added to the zero the body has just stored; -/
def accA (x0 x1 x2 x3 x4 x5 : Vec F S4096x128 .f32) (x6 x7 : Vec F S64x64 .f32) (x8 : Vec F S1x64 .f32) : Vec F S1x1 .f32 := k2_pay1 (contrib2 x0 x1 x2 x3 x4 x5 x6 x7 x8) (k2_pay7 (F := F))
/-- after a middle point: the contribution added to what the accumulator held; -/
def accB (x0 x1 x2 x3 x4 x5 : Vec F S4096x128 .f32) (x6 x7 : Vec F S64x64 .f32) (x8 : Vec F S1x64 .f32) (xo : Vec F S1x1 .f32) : Vec F S1x1 .f32 := k2_pay1 (contrib2 x0 x1 x2 x3 x4 x5 x6 x7 x8) xo
/-- after the last point: that sum, scaled. -/
def accC (x0 x1 x2 x3 x4 x5 : Vec F S4096x128 .f32) (x6 x7 : Vec F S64x64 .f32) (x8 : Vec F S1x64 .f32) (xo : Vec F S1x1 .f32) : Vec F S1x1 .f32 := k2_pay2 (accB x0 x1 x2 x3 x4 x5 x6 x7 x8 xo)

/-- What a view reads after writes the last of which is through the whole-shape rectangle: that write's payload. -/
theorem read_writes_last_whole {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons.mpr (Or.inl rfl), View.mem_set_unit_zero h inb y⟩),
    View.canon_cons_unit_zero h inb]

/-! ## The body's triple, case by case -/

set_option maxHeartbeats 2000000 in
/-- At the first point: on whole staging memrefs, the inputs' at read contents and the accumulator's at anything, the body runs to the continuation holding the inputs' as they were and the accumulator's at `accA`. -/
theorem sound_kernel2_A (c : Dev nD) (E : Set ℕ) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1 .f32) (harg10 : arg10.IsWhole) (hc0 : cond2_0 i) (hc1 : ¬cond2_1 i)
    (x0 x1 x2 x3 x4 x5 : Vec F S4096x128 .f32) (x6 x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (accA x0 x1 x2 x3 x4 x5 x6 x7 x8)) -∗ K ⟨⟩))
      ⊢ wp frame (wpE (defs₀ (F := F)) Variants.none c none) E (cc2__tc_body i arg1 harg1 arg2 harg2 arg3 harg3 arg4 harg4 arg5 harg5 arg6 harg6 arg7 harg7 arg8 harg8 arg9 harg9 arg10 harg10) K := by
  simp only [cc2__tc_body_eq_skeleton]; unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [read_writes_last_whole _ _ hz2]
  sl_unfold_run_names
  rw [View.readCov_unit_zero _ hz2]
  rfl

set_option maxHeartbeats 2000000 in
/-- At a middle point: the accumulator's memref at read contents `xo`, the body leaves it at `accB`. -/
theorem sound_kernel2_B (c : Dev nD) (E : Set ℕ) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1 .f32) (harg10 : arg10.IsWhole) (hc0 : ¬cond2_0 i) (hc1 : ¬cond2_1 i)
    (x0 x1 x2 x3 x4 x5 : Vec F S4096x128 .f32) (x6 x7 : Vec F S64x64 .f32) (x8 : Vec F S1x64 .f32) (xo : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (accB x0 x1 x2 x3 x4 x5 x6 x7 x8 xo)) -∗ K ⟨⟩))
      ⊢ wp frame (wpE (defs₀ (F := F)) Variants.none c none) E (cc2__tc_body i arg1 harg1 arg2 harg2 arg3 harg3 arg4 harg4 arg5 harg5 arg6 harg6 arg7 harg7 arg8 harg8 arg9 harg9 arg10 harg10) K := by
  simp only [cc2__tc_body_eq_skeleton]; unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [read_writes_last_whole _ _ hz2]
  sl_unfold_run_names
  simp only [View.readAt_eq_ld, View.ld_unit_zero (S := S1x1) hz2]
  rfl

set_option maxHeartbeats 2000000 in
/-- At the last point: the accumulator's memref at read contents `xo`, the body leaves it at `accC`. -/
theorem sound_kernel2_C (c : Dev nD) (E : Set ℕ) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1 .f32) (harg10 : arg10.IsWhole) (hc0 : ¬cond2_0 i) (hc1 : cond2_1 i)
    (x0 x1 x2 x3 x4 x5 : Vec F S4096x128 .f32) (x6 x7 : Vec F S64x64 .f32) (x8 : Vec F S1x64 .f32) (xo : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (accC x0 x1 x2 x3 x4 x5 x6 x7 x8 xo)) -∗ K ⟨⟩))
      ⊢ wp frame (wpE (defs₀ (F := F)) Variants.none c none) E (cc2__tc_body i arg1 harg1 arg2 harg2 arg3 harg3 arg4 harg4 arg5 harg5 arg6 harg6 arg7 harg7 arg8 harg8 arg9 harg9 arg10 harg10) K := by
  simp only [cc2__tc_body_eq_skeleton]; unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [read_writes_last_whole _ _ hz2]
  sl_unfold_run_names
  rw [View.readCov_unit_zero _ hz2]
  simp only [View.readAt_eq_ld, View.ld_unit_zero (S := S1x1) hz2]
  rfl

/-! ## What the accumulator holds after each point -/

/-- The accumulator's staging buffer after the body at position `n`: the first point's case over the blocks there;
    at a later point the last point's case, or the middle points', over the blocks there and what the point before
    left (the buffer is not written back between). -/
def outsAt2 (c : Dev nD) : (n : ℕ) → n < cfg2.N → Vec F S1x1 .f32
  | 0, hn => accA (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩)
  | n + 1, hn =>
    if (n + 1) % 4 = 3 then
      accC (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn))
    else
      accB (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn))

theorem outsAt2_A (c : Dev nD) (t : Fin cfg2.N) (h0 : t.val % 4 = 0) :
    outsAt2 V c t.val t.isLt = accA (iblk2 V c 0 t) (iblk2 V c 1 t) (iblk2 V c 2 t) (iblk2 V c 3 t) (iblk2 V c 4 t) (iblk2 V c 5 t) (iblk2 V c 6 t) (iblk2 V c 7 t) (iblk2 V c 8 t) := by
  have hN : t.val < 4 := lt_of_lt_of_eq t.isLt (show cfg2.N = 4 from N_2)
  obtain ⟨n, hn⟩ := t
  cases n with
  | zero => exact rfl
  | succ n => exact (by exfalso; (try dsimp only at h0 hN); omega)

theorem outsAt2_B (c : Dev nD) (t : Fin cfg2.N) (h0 : ¬t.val % 4 = 0) (h3 : ¬t.val % 4 = 3) :
    outsAt2 V c t.val t.isLt = accB (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h3).trans rfl

theorem outsAt2_C (c : Dev nD) (t : Fin cfg2.N) (h3 : t.val % 4 = 3) :
    outsAt2 V c t.val t.isLt = accC (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)) := by
  obtain ⟨n, hn⟩ := t
  cases n with
  | zero => exact (by exfalso; (try dsimp only at h3); omega)
  | succ n => exact (if_pos h3).trans rfl

/-! ## The pipeline's proof data -/

/-- The proof data of the dense pipeline on core `c`: the arrays as the region finds them; after the body at point
    `t` each input's buffer at its block and the accumulator's at `outsAt2`; the invariant the scoped rest and the
    generator register; full shares; the core owes `O c` throughout, its recorded pairs within `B c` and the loop's own. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => outsAt2 V c t.val t.isLt
  Φ _ := Φreg spec2 c
  q _ := fullShare
  owed _ := O c
  recorded _ := B c

/-- The proof data's arrays are the region-entry contents. -/
theorem A_eq2 (c : Dev nD) (w : Fin cfg2.W) : (dat2 V O B c).A w = V c (Pipeline.arrRef spec2 w) := by
  dsimp only [dat2]

/-- What the body leaves, window by window. -/
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t = iblk2 V c 5 t := by dsimp only [dat2]
theorem after2_6 (c : Dev nD) (t : Fin cfg2.N) : (dat2 V O B c).after 6 t = iblk2 V c 6 t := by dsimp only [dat2]
theorem after2_7 (c : Dev nD) (t : Fin cfg2.N) : (dat2 V O B c).after 7 t = iblk2 V c 7 t := by dsimp only [dat2]
theorem after2_8 (c : Dev nD) (t : Fin cfg2.N) : (dat2 V O B c).after 8 t = iblk2 V c 8 t := by dsimp only [dat2]
theorem after2_9 (c : Dev nD) (t : Fin cfg2.N) : (dat2 V O B c).after 9 t = outsAt2 V c t.val t.isLt := by dsimp only [dat2]

/-- Each input's current staging buffer holds its block at every point, fetched there or not. -/
theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d
theorem before2_4 (c : Dev nD) (t : Fin cfg2.N) (d) : (dat2 V O B c).before 4 t d = iblk2 V c 4 t :=
  before2_4_of V (dat2 V O B c) (A_eq2 V O B c 4) (after2_4 V O B c) t d
theorem before2_5 (c : Dev nD) (t : Fin cfg2.N) (d) : (dat2 V O B c).before 5 t d = iblk2 V c 5 t :=
  before2_5_of V (dat2 V O B c) (A_eq2 V O B c 5) (after2_5 V O B c) t d
theorem before2_6 (c : Dev nD) (t : Fin cfg2.N) (d) : (dat2 V O B c).before 6 t d = iblk2 V c 6 t :=
  before2_6_of V (dat2 V O B c) (A_eq2 V O B c 6) (after2_6 V O B c) t d
theorem before2_7 (c : Dev nD) (t : Fin cfg2.N) (d) : (dat2 V O B c).before 7 t d = iblk2 V c 7 t :=
  before2_7_of V (dat2 V O B c) (A_eq2 V O B c 7) (after2_7 V O B c) t d
theorem before2_8 (c : Dev nD) (t : Fin cfg2.N) (d) : (dat2 V O B c).before 8 t d = iblk2 V c 8 t :=
  before2_8_of V (dat2 V O B c) (A_eq2 V O B c 8) (after2_8 V O B c) t d

/-- After the first point the accumulator's staging buffer holds what the body left at the point before: the buffer
    is written back after the last point only, the window is live and uncut. -/
theorem before2_9_pos (c : Dev nD) (t : Fin cfg2.N) (h0 : ¬t.val % 4 = 0) (d) :
    (dat2 V O B c).before 9 t d = outsAt2 V c (t.val - 1) (Nat.lt_of_le_of_lt (Nat.sub_le _ _) t.isLt) := by
  have hN : t.val < 4 := lt_of_lt_of_eq t.isLt (show cfg2.N = 4 from N_2)
  rw [Dat.before_out_kept _ 9 rfl t (by omega) (Bool.eq_false_iff.mpr fun h => by have := (flush2_9 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d))
    ∗ (∃ d, owns (c : Thread nD τ) (st2_6 t) fullShare ((dat2 V O B c).before 6 t d))
    ∗ (∃ d, owns (c : Thread nD τ) (st2_7 t) fullShare ((dat2 V O B c).before 7 t d))
    ∗ (∃ d, owns (c : Thread nD τ) (st2_8 t) fullShare ((dat2 V O B c).before 8 t d))
    ∗ (∃ d, owns (c : Thread nD τ) (st2_9 t) fullShare ((dat2 V O B c).before 9 t d)))

/-- and what it returns. -/
def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t)
    ∗ owns (c : Thread nD τ) (st2_6 t) fullShare ((dat2 V O B c).after 6 t)
    ∗ owns (c : Thread nD τ) (st2_7 t) fullShare ((dat2 V O B c).after 7 t)
    ∗ owns (c : Thread nD τ) (st2_8 t) fullShare ((dat2 V O B c).after 8 t)
    ∗ owns (c : Thread nD τ) (st2_9 t) fullShare ((dat2 V O B c).after 9 t))

set_option maxHeartbeats 1600000 in
/-- The body at any point: the inputs' memrefs hold their blocks; the closed forms of the two conditions say which
    case the point is in; after the first point the accumulator holds what the point before left; so the case's
    triple applies; the invariant and what the core owes pass through unread. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4, before2_5, before2_6, before2_7, before2_8]
  rw [show (dat2 V O B c).Φ t.succ = (dat2 V O B c).Φ t.castSucc from rfl,
    show (dat2 V O B c).owesAt none t.succ = (dat2 V O B c).owesAt none t.castSucc from rfl,
    after2_0, after2_1, after2_2, after2_3, after2_4, after2_5, after2_6, after2_7, after2_8, after2_9]
  have hN : t.val < 4 := lt_of_lt_of_eq t.isLt (show cfg2.N = 4 from N_2)
  by_cases h0 : t.val % 4 = 0
  · rw [outsAt2_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_A c Set.univ (grid2.coords t) _ _ _ _ _ _ _ _ _ _ _ _ _ _ _ _ _ _ _ _ ((hcond2_0 t).mpr h0) (fun h => by have := (hcond2_1 t).mp h; omega)
      (iblk2 V c 0 t) (iblk2 V c 1 t) (iblk2 V c 2 t) (iblk2 V c 3 t) (iblk2 V c 4 t) (iblk2 V c 5 t) (iblk2 V c 6 t) (iblk2 V c 7 t) (iblk2 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h3 : t.val % 4 = 3
    · rw [outsAt2_C V c t h3]
      simp only [before2_9_pos V O B c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_C c Set.univ (grid2.coords t) _ _ _ _ _ _ _ _ _ _ _ _ _ _ _ _ _ _ _ _ (fun h => h0 ((hcond2_0 t).mp h)) ((hcond2_1 t).mpr h3)
        (iblk2 V c 0 t) (iblk2 V c 1 t) (iblk2 V c 2 t) (iblk2 V c 3 t) (iblk2 V c 4 t) (iblk2 V c 5 t) (iblk2 V c 6 t) (iblk2 V c 7 t) (iblk2 V c 8 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [outsAt2_B V c t h0 h3]
      simp only [before2_9_pos V O B c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_B c Set.univ (grid2.coords t) _ _ _ _ _ _ _ _ _ _ _ _ _ _ _ _ _ _ _ _ (fun h => h0 ((hcond2_0 t).mp h)) (fun h => h3 ((hcond2_1 t).mp h))
        (iblk2 V c 0 t) (iblk2 V c 1 t) (iblk2 V c 2 t) (iblk2 V c 3 t) (iblk2 V c 4 t) (iblk2 V c 5 t) (iblk2 V c 6 t) (iblk2 V c 7 t) (iblk2 V c 8 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation2 (c : Dev nD) :
    BodyObligation (dat2 (F := F) V O B c) (defs₀ (F := F)) Variants.none (none : HIx 1) Set.univ := fun t => by
  rw [bigSep_W2, bigSep_W2]
  exact sound_body2 V O B c t

end Region

/-! ## The result, after the region -/

section Value
variable (V : (c : Dev nD) → (b : Ref sig .tc) → Buf (Elt F) ((c : Thread nD τ).loc b))
variable (O : Dev nD → CellTallies nD τ sig (HIx 1))
variable (B : Dev nD → Set (SemLoc sig × HIx 1))

theorem N2_eq : cfg2.N = 4 := N_2

/-- The accumulator after the last point, as contents of the 1 × 1 result array (its one block is the array). -/
abbrev result2 (c : Dev nD) : Buf (Elt F) ((c : Thread nD τ).loc main_v25) := outsAt2 V c 3 (by rw [N2_eq]; decide)

/-- It is the ordered fold over the four points: the first point's contribution added to zero, the two middle
    points' added in turn, the last point's added and the sum scaled. -/
theorem result2_eq (c : Dev nD) :
    result2 V c = accC (iblk2 V c 0 t2_3) (iblk2 V c 1 t2_3) (iblk2 V c 2 t2_3) (iblk2 V c 3 t2_3) (iblk2 V c 4 t2_3) (iblk2 V c 5 t2_3) (iblk2 V c 6 t2_3) (iblk2 V c 7 t2_3) (iblk2 V c 8 t2_3)
      (accB (iblk2 V c 0 t2_2) (iblk2 V c 1 t2_2) (iblk2 V c 2 t2_2) (iblk2 V c 3 t2_2) (iblk2 V c 4 t2_2) (iblk2 V c 5 t2_2) (iblk2 V c 6 t2_2) (iblk2 V c 7 t2_2) (iblk2 V c 8 t2_2)
        (accB (iblk2 V c 0 t2_1) (iblk2 V c 1 t2_1) (iblk2 V c 2 t2_1) (iblk2 V c 3 t2_1) (iblk2 V c 4 t2_1) (iblk2 V c 5 t2_1) (iblk2 V c 6 t2_1) (iblk2 V c 7 t2_1) (iblk2 V c 8 t2_1)
          (accA (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0) (iblk2 V c 8 t2_0)))) := rfl

/-- The one write-back, after the last point, writes it: block (0, 0) of the 1 × 1 array read through zero offsets is
    the array. -/
theorem flushed2_9_eq (c : Dev nD) (t : Fin cfg2.N) (hf : (cfg2.win 9).flush t = true) :
    (dat2 V O B c).flushed 9 t = ((cfg2.win 9).blk t).view.read (Elt F) (result2 V c) := by
  have hN : cfg2.N = 4 := N_2
  have h3 : t.val = 3 := by have := (flush2_9 t).mp hf; have := t.isLt; omega
  obtain rfl : t = t2_3 := Fin.ext h3
  show (cfg2.win 9).cut (grid2.coords t2_3) ((dat2 V O B c).after 9 t2_3) = _
  rw [after2_9]
  have hz' : (fun a => win2_9.index t2_3 a * main_v25.ty.shape.size a) = fun _ => 0 := funext fun a => by fin_cases a <;> decide
  exact (Memref.read_access_unit_zero (Elt F) main_v25 hz' (fun a => by rw [congrFun hz' a]; simp) (result2 V c)).symm

/-- THE VALUE of the dense region: the result array ends holding the accumulator after the last point. -/
theorem value2 (c : Dev nD) : (dat2 V O B c).arrAt 9 cfg2.N = result2 V c :=
  (dat2 V O B c).arrAt_eq_of_cover 9 (result2 V c) (flushed2_9_eq V O B c) fun i =>
    ⟨t2_3, (flush2_9 t2_3).mpr rfl, by
      show i ∈ ((View.whole main_v25).slice (win2_9.rect t2_3)).set
      rw [View.set_slice_whole, Rect.mem_set_unit]
      intro a
      have h0 : (i 0 : Nat) < 1 := (i 0).isLt
      have h1 : (i 1 : Nat) < 1 := (i 1).isLt
      match a with
      | ⟨0, _⟩ =>
        show win2_9.index t2_3 0 * win2_9.size 0 ≤ (i 0 : Nat) ∧ (i 0 : Nat) < win2_9.index t2_3 0 * win2_9.size 0 + win2_9.xsize (grid2.coords t2_3) 0
        rw [show win2_9.index t2_3 0 * win2_9.size 0 = 0 from by decide +kernel, show win2_9.xsize (grid2.coords t2_3) 0 = 1 from by decide +kernel]; omega
      | ⟨1, _⟩ =>
        show win2_9.index t2_3 1 * win2_9.size 1 ≤ (i 1 : Nat) ∧ (i 1 : Nat) < win2_9.index t2_3 1 * win2_9.size 1 + win2_9.xsize (grid2.coords t2_3) 1
        rw [show win2_9.index t2_3 1 * win2_9.size 1 = 0 from by decide +kernel, show win2_9.xsize (grid2.coords t2_3) 1 = 1 from by decide +kernel]; omega⟩

/-- The inputs' arrays are as the region found them. -/
theorem kept2 (c : Dev nD) (w : Fin cfg2.W) (hw : (cfg2.win w).isOut = false) (n : ℕ) :
    (dat2 V O B c).arrAt w n = V c (Pipeline.arrRef spec2 w) :=
  ((dat2 V O B c).arrAt_in w hw n).trans (A_eq2 V O B c w)

end Value

end Cert.KernelIdeal.Region2
end
-- ==== Proof.Segs.lean ====
/-
  The first part of @main on the TensorCore — the first host stretch and the packing region — as segments over a
  thread state: every unscoped buffer whole at a valuation, the generator register, and what the TensorCore owes the
  launch handshakes before call n.
-/
import proofs.«203064_g33122787786777_cont_8to1_b_416_18_alg».proof.Proof.Vals
import proofs.«203064_g33122787786777_cont_8to1_b_416_18_alg».proof.Proof.TcState
import proofs.«203064_g33122787786777_cont_8to1_b_416_18_alg».proof.Proof.Ghost
import proofs.«203064_g33122787786777_cont_8to1_b_416_18_alg».proof.Proof.Region0
import proofs.«203064_g33122787786777_cont_8to1_b_416_18_alg».proof.Proof.Region2
import Idealize.ShloMosaic.Lib.Pipeline.RegionsLoop
import Idealize.ShloMosaic.Lib.Pipeline.FrameSuffix

set_option maxRecDepth 16384

noncomputable section

namespace Cert.KernelIdeal.Segs

open Cert.KernelIdeal Cert.KernelIdeal.Gen Cert.KernelIdeal.Alg Cert.KernelIdeal.Host Cert.KernelIdeal.Vals
open Cert.KernelIdeal.TcState Cert.KernelIdeal.Ghost
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MM F

variable (m : (ℓ : Loc nD τ sig) → Buf (Elt F) ℓ)

/-- Both pipelines' proof data: the packing region's from the first host stretch's contents, the dense region's (exact, read as relational) from the second's. -/
def rdats : (p : Fin 2) → (c : Dev nD) → RDat τ (Elt F) (HIx 1) ℕ UU ℕ (Pipeline.pin (pcfgs (F := F)) adm p) c
  | ⟨0, _⟩ => fun c => Region0.rdat0 (V1 m) (On (F := F) 0) (Bn (F := F) 0) c
  | ⟨1, _⟩ => fun c => (Region2.dat2 (V4 m) (On (F := F) 1) (Bn (F := F) 1) c).toR

abbrev KL : GSem nD τ sig → Finset (HIx 1) := (K (F := F)).L
abbrev Klv : GSem nD τ sig → HIx 1 → ℕ := (K (F := F)).lev

/-- What rides beside the buffers before call n: the generator register and the handshake debts. -/
abbrev RR (n : ℕ) (c : Dev nD) : sProp 𝕄 := iprop((∃ r, prngReg c r) ∗ owesN (F := F) n c)

/-- After the packing region: every buffer but the table as the region found it, the table at contents the
    write-backs may have left. -/
def P2 (c : Dev nD) (W : Valuation τ sig (Elt F)) : Prop :=
  (∀ b : Ref sig .tc, b ≠ main_v14 → W b = W1 m c b)
    ∧ (Region0.rdat0 (V1 m) (On (F := F) 0) (Bn (F := F) 0) c).ArrAt 2 cfg0.N (W main_v14)

/-- A reference other than the table's is another buffer. -/
theorem devRef_ne_v14 (b : Ref sig .tc) (hb : b ≠ main_v14) : (Proc.devRef .tc b : DevRef τ sig) ≠ Proc.devRef .tc main_v14 :=
  StableHlo.devRef_ne_of_ne hb

set_option backward.isDefEq.respectTransparency.types false in
/-- An input array of the packing region, held as the pipeline holds it, is its buffer whole at the entry contents —
    which the valuation updated at the table still gives it. -/
theorem arr_pts (c : Dev nD) (w : Fin 3) (hw : Pipeline.arrRef spec0 w ≠ main_v14) (F2 : (Proc.devRef (τ := τ) .tc main_v14).ty.Contents (Elt F)) :
    (((cfg0.win w).arr.view.loc (c : Thread nD τ)) ↦[(cfg0.win w).arr.view.set]{(rdats m 0 c).share w} (rdats m 0 c).A w : sProp 𝕄)
      = (((c : Thread nD τ).loc (Pipeline.arrRef spec0 w)) ↦{fullShare}
          (Function.update (W1 m c) (Proc.devRef .tc main_v14) F2 (Proc.devRef .tc (Pipeline.arrRef spec0 w)))) := by
  rw [show (cfg0.win w).arr.view.set = Finset.univ from (launch0.arr_whole w).set_eq_univ, (rdats m 0 c).share_full (fun _ => rfl) w,
    Function.update_of_ne (devRef_ne_v14 _ hw)]
  rfl

set_option backward.isDefEq.respectTransparency.types false in
/-- The packed table, held as the pipeline holds it at contents F2, is its buffer whole at the updated valuation. -/
theorem arr_pts2 (c : Dev nD) (F2 : (Proc.devRef (τ := τ) .tc main_v14).ty.Contents (Elt F)) :
    (((cfg0.win 2).arr.view.loc (c : Thread nD τ)) ↦[(cfg0.win 2).arr.view.set]{(rdats m 0 c).share 2} F2 : sProp 𝕄)
      = (((c : Thread nD τ).loc (Pipeline.arrRef spec0 2)) ↦{fullShare}
          (Function.update (W1 m c) (Proc.devRef .tc main_v14) F2 (Proc.devRef .tc (Pipeline.arrRef spec0 2)))) := by
  rw [show (cfg0.win 2).arr.view.set = Finset.univ from (launch0.arr_whole 2).set_eq_univ, (rdats m 0 c).share_full (fun _ => rfl) 2]
  show _ = (((c : Thread nD τ).loc main_v14) ↦{fullShare} (Function.update (W1 m c) (Proc.devRef .tc main_v14) F2 (Proc.devRef .tc main_v14)))
  rw [Function.update_self]

/-- The buffers the packing region stages nothing of are untouched by the update at the table. -/
theorem rest_eq (c : Dev nD) (F2 : (Proc.devRef (τ := τ) .tc main_v14).ty.Contents (Elt F)) :
    (Pipeline.unscopedRest (Ix := HIx 1) (Name := ℕ) (U := UU) (Lvl := ℕ) spec0 c (V1 m c) : sProp 𝕄)
      = Pipeline.unscopedRest spec0 c (fun b => Function.update (W1 m c) (Proc.devRef .tc main_v14) F2 (Proc.devRef .tc b)) := by
  unfold Pipeline.unscopedRest
  refine bigSep_congr fun b hb => ?_
  have hb' : b ≠ main_v14 := fun e => (Finset.mem_sdiff.mp hb).2 (Finset.mem_image.mpr ⟨2, Finset.mem_univ _, e ▸ rfl⟩)
  beta_reduce
  rw [Function.update_of_ne (devRef_ne_v14 b hb')]

set_option backward.isDefEq.respectTransparency.types false in
/-- Leaving the packing region: the two transposed tables as found, the packed table at what the write-backs left,
    and the rest, are every unscoped buffer at a valuation that differs from the entry's at the table only. -/
theorem exit0 (c : Dev nD) :
    iprop((rdats m 0 c).arraysAt cfg0.N ∗ Pipeline.unscopedRest (Ix := HIx 1) (Name := ℕ) (U := UU) (Lvl := ℕ) spec0 c (V1 m c))
      ⊢ iprop(∃ W, ⌜P2 m c W⌝ ∗ StableHlo.held (c : Thread nD τ) (Pipeline.ucRefs τ sig) W) := by
  unfold RDat.arraysAt
  rw [bigSep_W0]
  iintro ⟨⟨⟨%F0, %h0, H0⟩, ⟨%F1, %h1, H1⟩, ⟨%F2, %h2, H2⟩⟩, Hrest⟩
  rw [RDat.ArrAt_in _ 0 rfl] at h0
  rw [RDat.ArrAt_in _ 1 rfl] at h1
  iexists (Function.update (W1 m c) (Proc.devRef .tc main_v14) F2)
  isplitr
  · ipureintro
    refine ⟨fun b hb => Function.update_of_ne (devRef_ne_v14 b hb) _ _, ?_⟩
    rw [Function.update_self]; exact h2
  · have hW1 : ∀ b : Ref sig .tc, b ≠ main_v14 →
        Function.update (W1 m c) (Proc.devRef .tc main_v14) F2 (Proc.devRef .tc b) = W1 m c (Proc.devRef .tc b) :=
      fun b hb => Function.update_of_ne (devRef_ne_v14 b hb) _ _
    rw [← Pipeline.unscopedBufs_held,
      Pipeline.unscopedBufs_split (Pipeline.pin (pcfgs (F := F)) adm) 0 launch0.win.arr_unscoped launch0.win.arr_inj c _, bigSep_W0]
    subst h0 h1
    isplitl [H0 H1 H2]
    · isplitl [H0]
      · iapply (Entails.of_eq (arr_pts m c 0 (by decide) F2)) ; iexact H0
      isplitl [H1]
      · iapply (Entails.of_eq (arr_pts m c 1 (by decide) F2)) ; iexact H1
      · iapply (Entails.of_eq (arr_pts2 m c F2)); iexact H2
    · iapply (Entails.of_eq (rest_eq m c F2)); iexact Hrest

set_option backward.isDefEq.respectTransparency.types false in
/-- The packing region over the thread state. -/
def reg0 : Pipeline.RDat.RegionSeg (pcfgs (F := F)) adm (rdats m) (none : HIx 1) defs₀ 𝒱₀ (KL (F := F)) (Klv (F := F)) 0 where
  win := launch0.win.to₀
  block_pos := launch0.block_pos
  stage_whole := launch0.stage_whole
  K := PEmpty
  osem k := k.elim
  ho := Pipeline.OwnSemFacts.none _
  hbody c := Region0.body_obligation0 (V1 m) (On (F := F) 0) (Bn (F := F) 0) c
  hwaits c := Pipeline.RDat.cellsWaits_intro (Pipeline.pin (pcfgs (F := F)) adm) (rdats m) (none : HIx 1) 0 c
    (fun w s t => mayWait_stage (F := F) 0 c _)
  pre c := iprop(StableHlo.held (c : Thread nD τ) (Pipeline.ucRefs τ sig) (W1 m c) ∗ RR (F := F) 0 c)
  post c := iprop((∃ W, ⌜P2 m c W⌝ ∗ StableHlo.held (c : Thread nD τ) (Pipeline.ucRefs τ sig) W) ∗ RR (F := F) 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_enter (F := F) 0 c cfg0); iexact HO
    isplitl [Hp]; · iexact Hp
    iexact Hrest
  hin c := by
    rw [show (rdats m 0 c).Φ 0 = Region0.Φreg spec0 c from rfl]; unfold Region0.Φreg
    iintro ⟨Hp, -, Hr⟩
    isplitl [Hr]; · iexact Hr
    iexact Hp
  hout c := by
    rw [Pipeline.ownSems0_none, show (rdats m 0 c).Φ (Fin.last _) = Region0.Φreg spec0 c from rfl]; unfold Region0.Φreg
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c); isplitl [Ha] <;> iassumption
    isplitl [HY]; · iexact HY
    iapply (owes_leave (F := F) 0 c cfg0); iexact HO

/-! ## After the packing region the table is tracked apart -/

/-- The packed table's buffer. -/
abbrev v14' : DevRef τ sig := Proc.devRef .tc main_v14
/-- Every unscoped buffer but the table. -/
abbrev U' : Finset (DevRef τ sig) := Pipeline.ucRefs τ sig \ {v14'}
/-- The table whole at contents not named. -/
abbrev tabPart (c : Dev nD) : sProp 𝕄 := iprop(∃ f : v14'.ty.Contents (Elt F), ((c : Thread nD τ).1, v14') ↦{fullShare} f)
/-- What rides beside the other buffers from the SparseCore call on. -/
abbrev RT (n : ℕ) (c : Dev nD) : sProp 𝕄 :=
  iprop((∃ f : v14'.ty.Contents (Elt F), ((c : Thread nD τ).1, v14') ↦{fullShare} f) ∗ RR (F := F) n c)

theorem v14_mem : v14' ∈ Pipeline.ucRefs τ sig := by decide

/-- Every unscoped buffer at a valuation updated at the table is the table's buffer and the others. -/
theorem held_tab (c : Dev nD) (W : Valuation τ sig (Elt F)) (f : v14'.ty.Contents (Elt F)) :
    (StableHlo.held (c : Thread nD τ) (Pipeline.ucRefs τ sig) (Function.update W v14' f) : sProp 𝕄)
      = iprop((((c : Thread nD τ).1, v14') ↦{fullShare} f) ∗ StableHlo.held (c : Thread nD τ) U' W) := by
  have h1 : (StableHlo.held (c : Thread nD τ) {v14'} (Function.update W v14' f) : sProp 𝕄) = (((c : Thread nD τ).1, v14') ↦{fullShare} f) := by
    unfold StableHlo.held; rw [bigSep_singleton, Function.update_self]
  have h2 : (StableHlo.held (c : Thread nD τ) (Pipeline.ucRefs τ sig \ {v14'}) (Function.update W v14' f) : sProp 𝕄) = StableHlo.held (c : Thread nD τ) U' W :=
    StableHlo.held_congr (c : Thread nD τ) fun b hb =>
      Function.update_of_ne (fun e => (Finset.mem_sdiff.mp hb).2 (Finset.mem_singleton.mpr e)) _ _
  rw [StableHlo.held_sub_split (c : Thread nD τ) (T := {v14'}) (Finset.singleton_subset_iff.mpr v14_mem), h1, h2]

/-- The dense region's proof data. -/
abbrev dat2m (c : Dev nD) : Dat τ (Elt F) (HIx 1) ℕ UU ℕ cfg2 c := Region2.dat2 (V4 m) (On (F := F) 1) (Bn (F := F) 1) c

/-- At the dense region's exit: its arrays at what the pipeline leaves, every other buffer as entered. -/
def W5 (c : Dev nD) : Valuation τ sig (Elt F) :=
  Pipeline.withArrays spec2 c (W4 m c) fun w => (dat2m m c).arrAt w cfg2.N
theorem W5_arr (c : Dev nD) (w : Fin cfg2.W) :
    W5 m c (Proc.devRef .tc (Pipeline.arrRef spec2 w)) = (dat2m m c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- After the closing reshape. -/
abbrev W6 (c : Dev nD) : Valuation τ sig (Elt F) := StableHlo.after hostOps2 (W5 m c)

theorem arr2_ne_v14 : ∀ w : Fin 10, Pipeline.arrRef spec2 w ≠ main_v14 := by decide

set_option backward.isDefEq.respectTransparency.types false in
/-- Leaving the dense region: its arrays at what the pipeline leaves and the rest (the table among it) are every
    unscoped buffer at the exit valuation, updated at the table. -/
theorem join1 (c : Dev nD) (f : v14'.ty.Contents (Elt F)) :
    iprop(((dat2m m c).arrays ((dat2m m c).arrAt · cfg2.N) : sProp 𝕄)
        ∗ Pipeline.unscopedRest (Ix := HIx 1) (Name := ℕ) (U := UU) (Lvl := ℕ) spec2 c (fun b => Function.update (W4 m c) v14' f (Proc.devRef .tc b)))
      ⊢ StableHlo.held (c : Thread nD τ) (Pipeline.ucRefs τ sig) (Function.update (W5 m c) v14' f) := by
  rw [← Pipeline.unscopedBufs_held,
    Pipeline.unscopedBufs_split (Pipeline.pin (pcfgs (F := F)) adm) 1 launch2.win.arr_unscoped launch2.win.arr_inj c _]
  refine sep_mono (Entails.of_eq ?_) (Entails.of_eq ?_)
  · unfold Dat.arrays
    refine bigSep_congr fun w _ => ?_
    rw [show (cfg2.win w).arr.view.set = Finset.univ from (launch2.arr_whole w).set_eq_univ, (dat2m m c).share_full (fun _ => rfl) w]
    beta_reduce
    have hc : Function.update (W5 m c) v14' f (Proc.devRef .tc (Pipeline.arrRef (Pipeline.pin (pcfgs (F := F)) adm 1).spec w)) = (dat2m m c).arrAt w cfg2.N :=
      (Function.update_of_ne (devRef_ne_v14 _ (arr2_ne_v14 w)) f (W5 m c)).trans (W5_arr m c w)
    rw [hc]
    rfl
  · unfold Pipeline.unscopedRest
    refine bigSep_congr fun b hb => ?_
    beta_reduce
    by_cases e : b = main_v14
    · subst e; rw [Function.update_self, Function.update_self]
    · rw [Function.update_of_ne (devRef_ne_v14 b e), Function.update_of_ne (devRef_ne_v14 b e),
        W5_of_ne m c b fun w hw => (Finset.mem_sdiff.mp hb).2 (Finset.mem_image.mpr ⟨w, Finset.mem_univ _, hw⟩)]

set_option backward.isDefEq.respectTransparency.types false in
/-- The dense region over the thread state. -/
def reg1 : Pipeline.RDat.RegionSeg (pcfgs (F := F)) adm (rdats m) (none : HIx 1) defs₀ 𝒱₀ (KL (F := F)) (Klv (F := F)) 1 where
  win := launch2.win.to₀
  block_pos := launch2.block_pos
  stage_whole := launch2.stage_whole
  K := PEmpty
  osem k := k.elim
  ho := Pipeline.OwnSemFacts.none _
  hbody c := (Region2.body_obligation2 (V4 m) (On (F := F) 1) (Bn (F := F) 1) c).loose.toR
  hwaits c := Pipeline.RDat.cellsWaits_intro (Pipeline.pin (pcfgs (F := F)) adm) (rdats m) (none : HIx 1) 1 c
    (fun w s t => mayWait_stage (F := F) 1 c _)
  pre c := iprop(StableHlo.held (c : Thread nD τ) U' (W4 m c) ∗ RT (F := F) 1 c)
  post c := iprop(StableHlo.held (c : Thread nD τ) U' (W5 m c) ∗ RT (F := F) 1 c)
  X c := iprop(∃ r, prngReg c r)
  Y c := iprop(∃ r, prngReg c r)
  Z c := iprop(∃ f : v14'.ty.Contents (Elt F),
    Pipeline.unscopedRest (Ix := HIx 1) (Name := ℕ) (U := UU) (Lvl := ℕ) spec2 c (fun b => Function.update (W4 m c) v14' f (Proc.devRef .tc b)))
  hentry c := by
    rw [Pipeline.ownSems0_none]
    iintro ⟨⟨Hh, ⟨%f, Ht⟩, Hp, HO⟩, -, -⟩
    have hsplit := Pipeline.RDat.arrays_of_unscopedBufs (p := 1) (pcfgs (F := F)) adm (rdats m) launch2.win launch2.arr_whole c
      ((rdats m 1 c).share_full fun _ => rfl) (fun b => Function.update (W4 m c) v14' f (Proc.devRef .tc b))
      (fun w => (Region2.A_eq2 (V4 m) (On (F := F) 1) (Bn (F := F) 1) c w).trans
        (Function.update_of_ne (devRef_ne_v14 _ (arr2_ne_v14 w)) f (W4 m c)).symm)
    rw [Pipeline.unscopedBufs_held, held_tab] at hsplit
    ihave H := hsplit $$ [Ht Hh]
    · isplitl [Ht] <;> iassumption
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_enter (F := F) 1 c cfg2); iexact HO
    isplitl [Hp]; · iexact Hp
    iexists f; iexact Hrest
  hin c := by
    rw [show (rdats m 1 c).Φ 0 = Region0.Φreg spec2 c from rfl]; unfold Region0.Φreg
    iintro ⟨Hp, -, Hr⟩
    isplitl [Hr]; · iexact Hr
    iexact Hp
  hout c := by
    rw [Pipeline.ownSems0_none, show (rdats m 1 c).Φ (Fin.last _) = Region0.Φreg spec2 c from rfl]; unfold Region0.Φreg
    iintro ⟨Hr, Hp⟩
    isplitl [Hp]; · iexact Hp
    isplitr; · iempintro
    iexact Hr
  hexit c := by
    rw [show (rdats m 1 c).arraysAt (Pipeline.pin (pcfgs (F := F)) adm 1).N = ((dat2m m c).arrays ((dat2m m c).arrAt · cfg2.N) : sProp 𝕄)
      from (dat2m m c).toR_arraysAt_eq cfg2.N]
    iintro ⟨Ha, HO, HY, ⟨%f, Hrest⟩⟩
    imodintro
    ihave Hall := (join1 m c f) $$ [Ha Hrest]
    · isplitl [Ha] <;> iassumption
    ihave H2 := (Entails.of_eq (held_tab c (W5 m c) f)) $$ Hall
    icases H2 with ⟨Ht, Hh⟩
    isplitl [Hh]; · iexact Hh
    isplitl [Ht]; · iexists f; iexact Ht
    isplitl [HY]; · iexact HY
    iapply (owes_leave (F := F) 1 c cfg2); iexact HO

end Cert.KernelIdeal.Segs

end
-- ==== Proof.Deal.lean ====
/-
  Dealing the whole arrays to the 32 vector subcores and collecting them back.

  The TensorCore holds the packed table, six index vectors of 16384 entries and six outputs of 16384 x 128 whole.
  The subcore at grid point (c, i) works on entries [1024 i + 512 c, 1024 i + 512 c + 512) of each index vector and,
  in four chunks of 128 rows, on the same rows of each output.  These 32 ranges of entries partition [0, 16384), and
  the 128 chunks of rows partition the rows of an output; so a whole index vector is the separating conjunction of
  its 32 slices, a whole output that of its 128 chunks, and the table, which every subcore only reads, goes out as
  32 read shares beside a remainder that stays behind.  Nothing here depends on the float instance.
-/
import proofs.«203064_g33122787786777_cont_8to1_b_416_18_alg».proof.Proof.TileDefs

noncomputable section

namespace Cert.KernelIdeal.Deal

open Cert.KernelIdeal Cert.KernelIdeal.Gen Cert.KernelIdeal.Alg Cert.KernelIdeal.Tile

open Idealize.ShloMosaic
open Idealize.ShloMosaic.SparseCore (S V)
open Idealize.SL Idealize.SL.RA Idealize.SL.BI
open scoped Idealize.SL.BI
open Idealize.SL.BI.BIBase Idealize.SL.BI.Laws Idealize.SL.Sem Idealize.SL.ProofMode
open Idealize.ShloMosaic.Transfers

variable {F : FTy → Type}

local notation "𝕄" => MM F

/-! ## The grid point of a subcore, and the shares of the table -/

/-- The grid point of vector subcore `i` of SparseCore `c`. -/
def coordsOf (c : Fin 2) (i : Fin 16) : grid1.Coords :=
  fun | 0 => c | 1 => i | ⟨_ + 2, h⟩ => absurd h (Nat.not_lt.2 (Nat.le_add_left _ _))

theorem coordsOf_zero (c : Fin 2) (i : Fin 16) : coordsOf c i 0 = c := rfl
theorem coordsOf_one (c : Fin 2) (i : Fin 16) : coordsOf c i 1 = i := rfl

/-- The read share of the table that goes to subcore `(c, i)`: the token numbered `16 c + i` of the full share. -/
def tok (c : Fin 2) (i : Fin 16) : PosShare TreeShare := shareTokN fullShare (i.val + 16 * c.val)

/-- What is left of the full share once the 32 tokens are taken. -/
def rest : PosShare TreeShare := shareDrop fullShare 32

/-! ## The arrays as the TensorCore sees them -/

abbrev tabLoc (d : Dev nD) : Loc nD τ sig := (SparseCore.T d).loc main_v14
abbrev ixLoc0 (d : Dev nD) : Loc nD τ sig := (SparseCore.T d).loc main_v1
abbrev ixLoc1 (d : Dev nD) : Loc nD τ sig := (SparseCore.T d).loc main_v3
abbrev ixLoc2 (d : Dev nD) : Loc nD τ sig := (SparseCore.T d).loc main_v5
abbrev ixLoc3 (d : Dev nD) : Loc nD τ sig := (SparseCore.T d).loc main_v7
abbrev ixLoc4 (d : Dev nD) : Loc nD τ sig := (SparseCore.T d).loc main_v9
abbrev ixLoc5 (d : Dev nD) : Loc nD τ sig := (SparseCore.T d).loc main_v11
abbrev outLoc0 (d : Dev nD) : Loc nD τ sig := (SparseCore.T d).loc main_v15_0
abbrev outLoc1 (d : Dev nD) : Loc nD τ sig := (SparseCore.T d).loc main_v15_1
abbrev outLoc2 (d : Dev nD) : Loc nD τ sig := (SparseCore.T d).loc main_v15_2
abbrev outLoc3 (d : Dev nD) : Loc nD τ sig := (SparseCore.T d).loc main_v15_3
abbrev outLoc4 (d : Dev nD) : Loc nD τ sig := (SparseCore.T d).loc main_v15_4
abbrev outLoc5 (d : Dev nD) : Loc nD τ sig := (SparseCore.T d).loc main_v15_5

/-! ## The slices as sets of indices -/

/-- Entries [1024 i + 512 c, + 512) of an index vector: the rectangle the program slices. -/
abbrev ixRect (L : grid1.Coords) : Rect S16384 := Rect.unit (s := S16384) (k1_off1 L) S512.size (k1_off1_inb L)
/-- Rows [1024 i + 512 c + 128 r, + 128) of an output, all 128 columns. -/
abbrev outRect (L : grid1.Coords) (r : Fin 4) : Rect S16384x128 :=
  Rect.unit (s := S16384x128) (k1_off2 L (BitVec.ofNat 32 (128 * r.val))) S128x128.size (k1_off2_inb L r)

def ixSet (p : Fin 2 × Fin 16) : Finset S16384.Idx := (ixRect (coordsOf p.1 p.2)).set
def outSet (p : (Fin 2 × Fin 16) × Fin 4) : Finset S16384x128.Idx := (outRect (coordsOf p.1.1 p.1.2) p.2).set

/-- An entry lies in a subcore's slice exactly when its position lies in the subcore's range. -/
theorem mem_ixSet (p : Fin 2 × Fin 16) (x : S16384.Idx) :
    x ∈ ixSet p ↔ 1024 * p.2.val + 512 * p.1.val ≤ (x 0).val ∧ (x 0).val < 1024 * p.2.val + 512 * p.1.val + 512 := by
  unfold ixSet
  rw [Rect.mem_set_unit, k1_off1_eq, Fin.forall_fin_one]
  exact Iff.rfl

/-- An element of an output lies in a chunk exactly when its row lies in the chunk's range (every column does). -/
theorem mem_outSet (p : (Fin 2 × Fin 16) × Fin 4) (x : S16384x128.Idx) :
    x ∈ outSet p ↔ 1024 * p.1.2.val + 512 * p.1.1.val + 128 * p.2.val ≤ (x 0).val
      ∧ (x 0).val < 1024 * p.1.2.val + 512 * p.1.1.val + 128 * p.2.val + 128 := by
  unfold outSet
  rw [Rect.mem_set_unit, k1_off2_eq, Fin.forall_fin_two]
  constructor
  · intro h; exact h.1
  · intro h; exact ⟨h, Nat.zero_le _, by have := (x 1).isLt; exact this⟩

/-- Two different subcores' ranges of entries do not meet. -/
theorem ixSet_disjoint : ∀ p ∈ (Finset.univ : Finset (Fin 2 × Fin 16)), ∀ p' ∈ (Finset.univ : Finset (Fin 2 × Fin 16)),
    p ≠ p' → Disjoint (ixSet p) (ixSet p') := by
  intro p _ p' _ hne
  rw [Finset.disjoint_left]
  intro x hx hx'
  rw [mem_ixSet] at hx hx'
  apply hne
  have h1 := p.1.isLt; have h2 := p'.1.isLt
  refine Prod.ext (Fin.ext ?_) (Fin.ext ?_) <;> omega

/-- Every entry lies in some subcore's range: position x in that of subcore (x / 512 mod 2, x / 1024). -/
theorem ixSet_cover : (Finset.univ : Finset (Fin 2 × Fin 16)).biUnion ixSet = Finset.univ := by
  ext x
  simp only [Finset.mem_biUnion, Finset.mem_univ, true_and, iff_true]
  have hx : (x 0).val < 16384 := (x 0).isLt
  refine ⟨(⟨(x 0).val / 512 % 2, Nat.mod_lt _ (by decide)⟩, ⟨(x 0).val / 1024, by omega⟩), ?_⟩
  rw [mem_ixSet]
  show 1024 * ((x 0).val / 1024) + 512 * ((x 0).val / 512 % 2) ≤ (x 0).val ∧ (x 0).val < 1024 * ((x 0).val / 1024) + 512 * ((x 0).val / 512 % 2) + 512
  omega

/-- Two different chunks of rows do not meet. -/
theorem outSet_disjoint : ∀ p ∈ (Finset.univ : Finset ((Fin 2 × Fin 16) × Fin 4)), ∀ p' ∈ (Finset.univ : Finset ((Fin 2 × Fin 16) × Fin 4)),
    p ≠ p' → Disjoint (outSet p) (outSet p') := by
  intro p _ p' _ hne
  rw [Finset.disjoint_left]
  intro x hx hx'
  rw [mem_outSet] at hx hx'
  apply hne
  have h1 := p.1.1.isLt; have h2 := p'.1.1.isLt
  have h3 := p.2.isLt; have h4 := p'.2.isLt
  refine Prod.ext (Prod.ext (Fin.ext ?_) (Fin.ext ?_)) (Fin.ext ?_) <;> omega

/-- Every row lies in some chunk: row x in chunk x / 128 mod 4 of subcore (x / 512 mod 2, x / 1024). -/
theorem outSet_cover : (Finset.univ : Finset ((Fin 2 × Fin 16) × Fin 4)).biUnion outSet = Finset.univ := by
  ext x
  simp only [Finset.mem_biUnion, Finset.mem_univ, true_and, iff_true]
  have hx : (x 0).val < 16384 := (x 0).isLt
  refine ⟨((⟨(x 0).val / 512 % 2, Nat.mod_lt _ (by decide)⟩, ⟨(x 0).val / 1024, by omega⟩), ⟨(x 0).val / 128 % 4, Nat.mod_lt _ (by decide)⟩), ?_⟩
  rw [mem_outSet]
  show 1024 * ((x 0).val / 1024) + 512 * ((x 0).val / 512 % 2) + 128 * ((x 0).val / 128 % 4) ≤ (x 0).val
    ∧ (x 0).val < 1024 * ((x 0).val / 1024) + 512 * ((x 0).val / 512 % 2) + 128 * ((x 0).val / 128 % 4) + 128
  omega

/-! ## A whole array as the pieces of a pairwise disjoint cover -/

theorem whole_pieces {P : Type} [Fintype P] [DecidableEq P] (ℓ : Loc nD τ sig) (K : P → Finset (Idx ℓ))
    (hd : ∀ p ∈ (Finset.univ : Finset P), ∀ p' ∈ (Finset.univ : Finset P), p ≠ p' → Disjoint (K p) (K p'))
    (hc : (Finset.univ : Finset P).biUnion K = Finset.univ) (q : PosShare TreeShare) (f : Buf (Elt F) ℓ) :
    (ℓ ↦{q} f : sProp 𝕄) = bigSep Finset.univ fun p => ℓ ↦[K p]{q} f := by
  rw [← pointsTo_biUnion Finset.univ K hd, hc]

/-- Over the 2 x 16 subcores. -/
theorem whole_ix (ℓ : Loc nD τ sig) (K : Fin 2 × Fin 16 → Finset (Idx ℓ))
    (hd : ∀ p ∈ (Finset.univ : Finset (Fin 2 × Fin 16)), ∀ p' ∈ (Finset.univ : Finset (Fin 2 × Fin 16)), p ≠ p' → Disjoint (K p) (K p'))
    (hc : (Finset.univ : Finset (Fin 2 × Fin 16)).biUnion K = Finset.univ) (f : Buf (Elt F) ℓ)
    (Φ : Fin 2 → Fin 16 → sProp 𝕄) (hΦ : ∀ c i, Φ c i = ℓ ↦[K (c, i)]{fullShare} f) :
    (ℓ ↦{fullShare} f : sProp 𝕄) = bigSep Finset.univ fun c => bigSep Finset.univ fun i => Φ c i := by
  rw [whole_pieces ℓ K hd hc, bigSep_univ_prod]
  exact bigSep_congr fun c _ => bigSep_congr fun i _ => (hΦ c i).symm

theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- Over the 2 x 16 subcores and the four chunks of each. -/
theorem whole_out (ℓ : Loc nD τ sig) (K : (Fin 2 × Fin 16) × Fin 4 → Finset (Idx ℓ))
    (hd : ∀ p ∈ (Finset.univ : Finset ((Fin 2 × Fin 16) × Fin 4)), ∀ p' ∈ (Finset.univ : Finset ((Fin 2 × Fin 16) × Fin 4)), p ≠ p' → Disjoint (K p) (K p'))
    (hc : (Finset.univ : Finset ((Fin 2 × Fin 16) × Fin 4)).biUnion K = Finset.univ) (f : Buf (Elt F) ℓ)
    (Φ : Fin 2 → Fin 16 → Fin 4 → sProp 𝕄) (hΦ : ∀ c i r, Φ c i r = ℓ ↦[K ((c, i), r)]{fullShare} f) :
    (ℓ ↦{fullShare} f : sProp 𝕄)
      = bigSep Finset.univ fun c => bigSep Finset.univ fun i => iprop(Φ c i 0 ∗ Φ c i 1 ∗ Φ c i 2 ∗ Φ c i 3) := by
  rw [whole_pieces ℓ K hd hc, bigSep_univ_prod, bigSep_univ_prod]
  refine bigSep_congr fun c _ => bigSep_congr fun i _ => ?_
  rw [bigSep_fin_four, hΦ, hΦ, hΦ, hΦ]

/-! ## Each array, dealt -/

theorem ixPts0_eq (d : Dev nD) (c : Fin 2) (i : Fin 16) (f : IxC F) :
    (ixPts d (coordsOf c i) ixW0 f : sProp 𝕄) = (ixLoc0 d ↦[ixSet (c, i)]{fullShare} f) :=
  congrArg (fun I => (pointsTo (ixLoc0 d) I fullShare f : sProp 𝕄)) (View.set_slice_whole main_v1_scv (ixRect (coordsOf c i)))
theorem ix0_deal (d : Dev nD) (f : IxC F) :
    (ixLoc0 d ↦{fullShare} f : sProp 𝕄) = bigSep Finset.univ fun c => bigSep Finset.univ fun i => ixPts d (coordsOf c i) ixW0 f :=
  whole_ix (ixLoc0 d) ixSet ixSet_disjoint ixSet_cover f (fun c i => ixPts d (coordsOf c i) ixW0 f) (ixPts0_eq d · · f)

theorem ixPts1_eq (d : Dev nD) (c : Fin 2) (i : Fin 16) (f : IxC F) :
    (ixPts d (coordsOf c i) ixW1 f : sProp 𝕄) = (ixLoc1 d ↦[ixSet (c, i)]{fullShare} f) :=
  congrArg (fun I => (pointsTo (ixLoc1 d) I fullShare f : sProp 𝕄)) (View.set_slice_whole main_v3_scv (ixRect (coordsOf c i)))
theorem ix1_deal (d : Dev nD) (f : IxC F) :
    (ixLoc1 d ↦{fullShare} f : sProp 𝕄) = bigSep Finset.univ fun c => bigSep Finset.univ fun i => ixPts d (coordsOf c i) ixW1 f :=
  whole_ix (ixLoc1 d) ixSet ixSet_disjoint ixSet_cover f (fun c i => ixPts d (coordsOf c i) ixW1 f) (ixPts1_eq d · · f)

theorem ixPts2_eq (d : Dev nD) (c : Fin 2) (i : Fin 16) (f : IxC F) :
    (ixPts d (coordsOf c i) ixW2 f : sProp 𝕄) = (ixLoc2 d ↦[ixSet (c, i)]{fullShare} f) :=
  congrArg (fun I => (pointsTo (ixLoc2 d) I fullShare f : sProp 𝕄)) (View.set_slice_whole main_v5_scv (ixRect (coordsOf c i)))
theorem ix2_deal (d : Dev nD) (f : IxC F) :
    (ixLoc2 d ↦{fullShare} f : sProp 𝕄) = bigSep Finset.univ fun c => bigSep Finset.univ fun i => ixPts d (coordsOf c i) ixW2 f :=
  whole_ix (ixLoc2 d) ixSet ixSet_disjoint ixSet_cover f (fun c i => ixPts d (coordsOf c i) ixW2 f) (ixPts2_eq d · · f)

theorem ixPts3_eq (d : Dev nD) (c : Fin 2) (i : Fin 16) (f : IxC F) :
    (ixPts d (coordsOf c i) ixW3 f : sProp 𝕄) = (ixLoc3 d ↦[ixSet (c, i)]{fullShare} f) :=
  congrArg (fun I => (pointsTo (ixLoc3 d) I fullShare f : sProp 𝕄)) (View.set_slice_whole main_v7_scv (ixRect (coordsOf c i)))
theorem ix3_deal (d : Dev nD) (f : IxC F) :
    (ixLoc3 d ↦{fullShare} f : sProp 𝕄) = bigSep Finset.univ fun c => bigSep Finset.univ fun i => ixPts d (coordsOf c i) ixW3 f :=
  whole_ix (ixLoc3 d) ixSet ixSet_disjoint ixSet_cover f (fun c i => ixPts d (coordsOf c i) ixW3 f) (ixPts3_eq d · · f)

theorem ixPts4_eq (d : Dev nD) (c : Fin 2) (i : Fin 16) (f : IxC F) :
    (ixPts d (coordsOf c i) ixW4 f : sProp 𝕄) = (ixLoc4 d ↦[ixSet (c, i)]{fullShare} f) :=
  congrArg (fun I => (pointsTo (ixLoc4 d) I fullShare f : sProp 𝕄)) (View.set_slice_whole main_v9_scv (ixRect (coordsOf c i)))
theorem ix4_deal (d : Dev nD) (f : IxC F) :
    (ixLoc4 d ↦{fullShare} f : sProp 𝕄) = bigSep Finset.univ fun c => bigSep Finset.univ fun i => ixPts d (coordsOf c i) ixW4 f :=
  whole_ix (ixLoc4 d) ixSet ixSet_disjoint ixSet_cover f (fun c i => ixPts d (coordsOf c i) ixW4 f) (ixPts4_eq d · · f)

theorem ixPts5_eq (d : Dev nD) (c : Fin 2) (i : Fin 16) (f : IxC F) :
    (ixPts d (coordsOf c i) ixW5 f : sProp 𝕄) = (ixLoc5 d ↦[ixSet (c, i)]{fullShare} f) :=
  congrArg (fun I => (pointsTo (ixLoc5 d) I fullShare f : sProp 𝕄)) (View.set_slice_whole main_v11_scv (ixRect (coordsOf c i)))
theorem ix5_deal (d : Dev nD) (f : IxC F) :
    (ixLoc5 d ↦{fullShare} f : sProp 𝕄) = bigSep Finset.univ fun c => bigSep Finset.univ fun i => ixPts d (coordsOf c i) ixW5 f :=
  whole_ix (ixLoc5 d) ixSet ixSet_disjoint ixSet_cover f (fun c i => ixPts d (coordsOf c i) ixW5 f) (ixPts5_eq d · · f)

theorem outPts0_eq (d : Dev nD) (c : Fin 2) (i : Fin 16) (r : Fin 4) (f : OutC F) :
    (outPts d (coordsOf c i) outW0 r f : sProp 𝕄) = (outLoc0 d ↦[outSet ((c, i), r)]{fullShare} f) :=
  congrArg (fun I => (pointsTo (outLoc0 d) I fullShare f : sProp 𝕄)) (View.set_slice_whole main_v15_0_scv (outRect (coordsOf c i) r))
theorem out0_deal (d : Dev nD) (f : OutC F) :
    (outLoc0 d ↦{fullShare} f : sProp 𝕄) = bigSep Finset.univ fun c => bigSep Finset.univ fun i => outPts4 d (coordsOf c i) outW0 f :=
  whole_out (outLoc0 d) outSet outSet_disjoint outSet_cover f (fun c i r => outPts d (coordsOf c i) outW0 r f) (outPts0_eq d · · · f)

theorem outPts1_eq (d : Dev nD) (c : Fin 2) (i : Fin 16) (r : Fin 4) (f : OutC F) :
    (outPts d (coordsOf c i) outW1 r f : sProp 𝕄) = (outLoc1 d ↦[outSet ((c, i), r)]{fullShare} f) :=
  congrArg (fun I => (pointsTo (outLoc1 d) I fullShare f : sProp 𝕄)) (View.set_slice_whole main_v15_1_scv (outRect (coordsOf c i) r))
theorem out1_deal (d : Dev nD) (f : OutC F) :
    (outLoc1 d ↦{fullShare} f : sProp 𝕄) = bigSep Finset.univ fun c => bigSep Finset.univ fun i => outPts4 d (coordsOf c i) outW1 f :=
  whole_out (outLoc1 d) outSet outSet_disjoint outSet_cover f (fun c i r => outPts d (coordsOf c i) outW1 r f) (outPts1_eq d · · · f)

theorem outPts2_eq (d : Dev nD) (c : Fin 2) (i : Fin 16) (r : Fin 4) (f : OutC F) :
    (outPts d (coordsOf c i) outW2 r f : sProp 𝕄) = (outLoc2 d ↦[outSet ((c, i), r)]{fullShare} f) :=
  congrArg (fun I => (pointsTo (outLoc2 d) I fullShare f : sProp 𝕄)) (View.set_slice_whole main_v15_2_scv (outRect (coordsOf c i) r))
theorem out2_deal (d : Dev nD) (f : OutC F) :
    (outLoc2 d ↦{fullShare} f : sProp 𝕄) = bigSep Finset.univ fun c => bigSep Finset.univ fun i => outPts4 d (coordsOf c i) outW2 f :=
  whole_out (outLoc2 d) outSet outSet_disjoint outSet_cover f (fun c i r => outPts d (coordsOf c i) outW2 r f) (outPts2_eq d · · · f)

theorem outPts3_eq (d : Dev nD) (c : Fin 2) (i : Fin 16) (r : Fin 4) (f : OutC F) :
    (outPts d (coordsOf c i) outW3 r f : sProp 𝕄) = (outLoc3 d ↦[outSet ((c, i), r)]{fullShare} f) :=
  congrArg (fun I => (pointsTo (outLoc3 d) I fullShare f : sProp 𝕄)) (View.set_slice_whole main_v15_3_scv (outRect (coordsOf c i) r))
theorem out3_deal (d : Dev nD) (f : OutC F) :
    (outLoc3 d ↦{fullShare} f : sProp 𝕄) = bigSep Finset.univ fun c => bigSep Finset.univ fun i => outPts4 d (coordsOf c i) outW3 f :=
  whole_out (outLoc3 d) outSet outSet_disjoint outSet_cover f (fun c i r => outPts d (coordsOf c i) outW3 r f) (outPts3_eq d · · · f)

theorem outPts4_eq (d : Dev nD) (c : Fin 2) (i : Fin 16) (r : Fin 4) (f : OutC F) :
    (outPts d (coordsOf c i) outW4 r f : sProp 𝕄) = (outLoc4 d ↦[outSet ((c, i), r)]{fullShare} f) :=
  congrArg (fun I => (pointsTo (outLoc4 d) I fullShare f : sProp 𝕄)) (View.set_slice_whole main_v15_4_scv (outRect (coordsOf c i) r))
theorem out4_deal (d : Dev nD) (f : OutC F) :
    (outLoc4 d ↦{fullShare} f : sProp 𝕄) = bigSep Finset.univ fun c => bigSep Finset.univ fun i => outPts4 d (coordsOf c i) outW4 f :=
  whole_out (outLoc4 d) outSet outSet_disjoint outSet_cover f (fun c i r => outPts d (coordsOf c i) outW4 r f) (outPts4_eq d · · · f)

theorem outPts5_eq (d : Dev nD) (c : Fin 2) (i : Fin 16) (r : Fin 4) (f : OutC F) :
    (outPts d (coordsOf c i) outW5 r f : sProp 𝕄) = (outLoc5 d ↦[outSet ((c, i), r)]{fullShare} f) :=
  congrArg (fun I => (pointsTo (outLoc5 d) I fullShare f : sProp 𝕄)) (View.set_slice_whole main_v15_5_scv (outRect (coordsOf c i) r))
theorem out5_deal (d : Dev nD) (f : OutC F) :
    (outLoc5 d ↦{fullShare} f : sProp 𝕄) = bigSep Finset.univ fun c => bigSep Finset.univ fun i => outPts4 d (coordsOf c i) outW5 f :=
  whole_out (outLoc5 d) outSet outSet_disjoint outSet_cover f (fun c i r => outPts d (coordsOf c i) outW5 r f) (outPts5_eq d · · · f)

/-! ## The table's read shares -/

/-- The full share of the table is the remainder and the 32 tokens, one per subcore. -/
theorem tab_toks (d : Dev nD) (tab : TabC F) :
    (tabLoc d ↦{fullShare} tab : sProp 𝕄)
      ⊣⊢ iprop((tabLoc d ↦{rest} tab) ∗ bigSep Finset.univ fun c : Fin 2 => bigSep Finset.univ fun i : Fin 16 => tabLoc d ↦{tok c i} tab) := by
  have h : (tabLoc d ↦{fullShare} tab : sProp 𝕄)
      ⊣⊢ iprop((tabLoc d ↦{shareDrop fullShare 32} tab) ∗ bigSep Finset.univ (fun j : Fin 32 => tabLoc d ↦{shareTok fullShare 32 j} tab)) :=
    pointsTo_toks fullShare 32
  have e : (bigSep Finset.univ (fun j : Fin 32 => (tabLoc d ↦{shareTok fullShare 32 j} tab : sProp 𝕄)))
      = bigSep Finset.univ fun c : Fin 2 => bigSep Finset.univ fun i : Fin 16 => tabLoc d ↦{tok c i} tab := by
    rw [bigSep_univ_equiv (finProdFinEquiv.trans (finCongr (show 2 * 16 = 32 from rfl))), bigSep_univ_prod]
    rfl
  rw [e] at h
  exact h

/-! ## All the subcores' hand-outs together -/

theorem tiles_eq (d : Dev nD) (q : Fin 2 → Fin 16 → PosShare TreeShare) (tab : TabC F) (ix : Fin 6 → IxC F) (o : Fin 6 → OutC F) :
    (bigSep Finset.univ fun c : Fin 2 => bigSep Finset.univ fun i : Fin 16 => tileGo d (coordsOf c i) (q c i) tab ix o : sProp 𝕄)
      = iprop((bigSep Finset.univ fun c : Fin 2 => bigSep Finset.univ fun i : Fin 16 => tabLoc d ↦{q c i} tab)
          ∗ ((ixLoc0 d ↦{fullShare} ix 0) ∗ (ixLoc1 d ↦{fullShare} ix 1) ∗ (ixLoc2 d ↦{fullShare} ix 2) ∗ (ixLoc3 d ↦{fullShare} ix 3) ∗ (ixLoc4 d ↦{fullShare} ix 4) ∗ (ixLoc5 d ↦{fullShare} ix 5))
          ∗ ((outLoc0 d ↦{fullShare} o 0) ∗ (outLoc1 d ↦{fullShare} o 1) ∗ (outLoc2 d ↦{fullShare} o 2) ∗ (outLoc3 d ↦{fullShare} o 3) ∗ (outLoc4 d ↦{fullShare} o 4) ∗ (outLoc5 d ↦{fullShare} o 5))) := by
  rw [ix0_deal, ix1_deal, ix2_deal, ix3_deal, ix4_deal, ix5_deal, out0_deal, out1_deal, out2_deal, out3_deal, out4_deal, out5_deal]
  unfold tileGo
  simp only [bigSep_sep']

theorem tileTd_eq (d : Dev nD) (L : grid1.Coords) (q : PosShare TreeShare) (tab : TabC F) (ix : Fin 6 → IxC F) :
    (tileTd d L q tab ix : sProp 𝕄) = tileGo d L q tab ix (fun t => gathered tab (ix t)) := by
  unfold tileTd tileGo; rfl

/-! ## Dealing and collecting -/

theorem deal (d : Dev nD) (tab : TabC F) (ix : Fin 6 → IxC F) (o : Fin 6 → OutC F) :
    iprop(((SparseCore.T d).loc main_v14 ↦{fullShare} tab)
        ∗ (((SparseCore.T d).loc main_v1 ↦{fullShare} ix 0) ∗ ((SparseCore.T d).loc main_v3 ↦{fullShare} ix 1) ∗ ((SparseCore.T d).loc main_v5 ↦{fullShare} ix 2) ∗ ((SparseCore.T d).loc main_v7 ↦{fullShare} ix 3) ∗ ((SparseCore.T d).loc main_v9 ↦{fullShare} ix 4) ∗ ((SparseCore.T d).loc main_v11 ↦{fullShare} ix 5))
        ∗ (((SparseCore.T d).loc main_v15_0 ↦{fullShare} o 0) ∗ ((SparseCore.T d).loc main_v15_1 ↦{fullShare} o 1) ∗ ((SparseCore.T d).loc main_v15_2 ↦{fullShare} o 2) ∗ ((SparseCore.T d).loc main_v15_3 ↦{fullShare} o 3) ∗ ((SparseCore.T d).loc main_v15_4 ↦{fullShare} o 4) ∗ ((SparseCore.T d).loc main_v15_5 ↦{fullShare} o 5)))
      ⊢ (iprop(((SparseCore.T d).loc main_v14 ↦{rest} tab)
          ∗ bigSep Finset.univ fun c : Fin 2 => bigSep Finset.univ fun i : Fin 16 => tileGo d (coordsOf c i) (tok c i) tab ix o) : sProp 𝕄) := by
  rw [tiles_eq d tok tab ix o]
  iintro ⟨Htab, Hrest⟩
  ihave H := (tab_toks d tab).1 $$ Htab
  icases H with ⟨Hr, Ht⟩
  isplitl [Hr]; · iexact Hr
  isplitl [Ht]; · iexact Ht
  iexact Hrest

theorem collect (d : Dev nD) (tab : TabC F) (ix : Fin 6 → IxC F) :
    iprop(((SparseCore.T d).loc main_v14 ↦{rest} tab)
        ∗ bigSep Finset.univ fun c : Fin 2 => bigSep Finset.univ fun i : Fin 16 => tileTd d (coordsOf c i) (tok c i) tab ix)
      ⊢ (iprop(((SparseCore.T d).loc main_v14 ↦{fullShare} tab)
        ∗ (((SparseCore.T d).loc main_v1 ↦{fullShare} ix 0) ∗ ((SparseCore.T d).loc main_v3 ↦{fullShare} ix 1) ∗ ((SparseCore.T d).loc main_v5 ↦{fullShare} ix 2) ∗ ((SparseCore.T d).loc main_v7 ↦{fullShare} ix 3) ∗ ((SparseCore.T d).loc main_v9 ↦{fullShare} ix 4) ∗ ((SparseCore.T d).loc main_v11 ↦{fullShare} ix 5))
        ∗ (((SparseCore.T d).loc main_v15_0 ↦{fullShare} gathered tab (ix 0)) ∗ ((SparseCore.T d).loc main_v15_1 ↦{fullShare} gathered tab (ix 1)) ∗ ((SparseCore.T d).loc main_v15_2 ↦{fullShare} gathered tab (ix 2)) ∗ ((SparseCore.T d).loc main_v15_3 ↦{fullShare} gathered tab (ix 3)) ∗ ((SparseCore.T d).loc main_v15_4 ↦{fullShare} gathered tab (ix 4)) ∗ ((SparseCore.T d).loc main_v15_5 ↦{fullShare} gathered tab (ix 5)))) : sProp 𝕄) := by
  simp only [tileTd_eq]
  rw [tiles_eq d tok tab ix (fun t => gathered tab (ix t))]
  iintro ⟨Hr, Ht, Hrest⟩
  isplitl [Hr Ht]
  · iapply (tab_toks d tab).2
    isplitl [Hr]; · iexact Hr
    iexact Ht
  · iexact Hrest

/-- A subcore's share of the table and the remainder hold the same table. -/
theorem tab_agree (d : Dev nD) (L : grid1.Coords) (q : PosShare TreeShare) (tab tab' : TabC F) (ix : Fin 6 → IxC F) :
    iprop(((SparseCore.T d).loc main_v14 ↦{rest} tab) ∗ tileTd d L q tab' ix)
      ⊢ (iprop(⌜tab' = tab⌝ ∗ ((SparseCore.T d).loc main_v14 ↦{rest} tab) ∗ tileTd d L q tab ix) : sProp 𝕄) := by
  have hag : iprop(((SparseCore.T d).loc main_v14 ↦{rest} tab) ∗ tileTd d L q tab' ix) ⊢ (⌜tab' = tab⌝ : sProp 𝕄) := by
    unfold tileTd
    iintro ⟨Ha, Hb, -⟩
    ihave %h := (pointsTo_agree (ℓ := tabLoc d) (I := Finset.univ) (J := Finset.univ) (q₁ := rest) (q₂ := q) (f := tab) (g := tab')) $$ [Ha Hb]
    · isplitl [Ha]; · iexact Ha
      iexact Hb
    ipureintro
    funext x
    exact ((h x (Finset.mem_inter.mpr ⟨Finset.mem_univ _, Finset.mem_univ _⟩)).1).symm
  refine pure_elim _ hag fun h => ?_
  subst h
  iintro H
  isplitr; · ipureintro; rfl
  iexact H

/-! ## The same with each subcore's table held under an existential -/

theorem deal_ex (d : Dev nD) (tab : TabC F) (ix : Fin 6 → IxC F) (o : Fin 6 → OutC F) :
    iprop(((SparseCore.T d).loc main_v14 ↦{fullShare} tab)
        ∗ (((SparseCore.T d).loc main_v1 ↦{fullShare} ix 0) ∗ ((SparseCore.T d).loc main_v3 ↦{fullShare} ix 1) ∗ ((SparseCore.T d).loc main_v5 ↦{fullShare} ix 2) ∗ ((SparseCore.T d).loc main_v7 ↦{fullShare} ix 3) ∗ ((SparseCore.T d).loc main_v9 ↦{fullShare} ix 4) ∗ ((SparseCore.T d).loc main_v11 ↦{fullShare} ix 5))
        ∗ (((SparseCore.T d).loc main_v15_0 ↦{fullShare} o 0) ∗ ((SparseCore.T d).loc main_v15_1 ↦{fullShare} o 1) ∗ ((SparseCore.T d).loc main_v15_2 ↦{fullShare} o 2) ∗ ((SparseCore.T d).loc main_v15_3 ↦{fullShare} o 3) ∗ ((SparseCore.T d).loc main_v15_4 ↦{fullShare} o 4) ∗ ((SparseCore.T d).loc main_v15_5 ↦{fullShare} o 5)))
      ⊢ (iprop(((SparseCore.T d).loc main_v14 ↦{rest} tab)
          ∗ bigSep Finset.univ fun c : Fin 2 => bigSep Finset.univ fun i : Fin 16 =>
              iprop(∃ tab' : TabC F, tileGo d (coordsOf c i) (tok c i) tab' ix o)) : sProp 𝕄) :=
  (deal d tab ix o).trans (sep_mono_right (bigSep_mono fun c _ => bigSep_mono fun i _ =>
    exists_intro (Φ := fun tab' : TabC F => tileGo d (coordsOf c i) (tok c i) tab' ix o) tab))

/-- Agreement with what stays behind, threaded through a family: if each member, beside `R`, is forced to hold the
    table `tab`, so is the whole family. -/
theorem thread_agree {P : Type} [DecidableEq P] (s : Finset P) (R : sProp 𝕄) (Φ : P → TabC F → sProp 𝕄) (tab : TabC F)
    (h : ∀ p tab', iprop(R ∗ Φ p tab') ⊢ iprop(⌜tab' = tab⌝ ∗ R ∗ Φ p tab)) :
    iprop(R ∗ bigSep s fun p => iprop(∃ tab', Φ p tab')) ⊢ iprop(R ∗ bigSep s fun p => Φ p tab) := by
  induction s using Finset.induction_on with
  | empty => rw [bigSep_empty, bigSep_empty]
  | insert a s ha ih =>
    rw [bigSep_insert ha, bigSep_insert ha]
    refine (show iprop(R ∗ (iprop(∃ tab', Φ a tab') ∗ bigSep s fun p => iprop(∃ tab', Φ p tab')))
      ⊢ iprop(R ∗ (Φ a tab ∗ bigSep s fun p => Φ p tab)) from ?_)
    iintro ⟨HR, ⟨%tab', Ha⟩, Hs⟩
    ihave H := (h a tab') $$ [HR Ha]
    · isplitl [HR]; · iexact HR
      iexact Ha
    icases H with ⟨-, HR, Ha⟩
    ihave H2 := ih $$ [HR Hs]
    · isplitl [HR]; · iexact HR
      iexact Hs
    icases H2 with ⟨HR, Hs⟩
    isplitl [HR]; · iexact HR
    isplitl [Ha]; · iexact Ha
    iexact Hs

theorem collect_ex (d : Dev nD) (tab : TabC F) (ix : Fin 6 → IxC F) :
    iprop(((SparseCore.T d).loc main_v14 ↦{rest} tab)
        ∗ bigSep Finset.univ fun c : Fin 2 => bigSep Finset.univ fun i : Fin 16 =>
            iprop(∃ tab' : TabC F, tileTd d (coordsOf c i) (tok c i) tab' ix))
      ⊢ (iprop(((SparseCore.T d).loc main_v14 ↦{fullShare} tab)
        ∗ (((SparseCore.T d).loc main_v1 ↦{fullShare} ix 0) ∗ ((SparseCore.T d).loc main_v3 ↦{fullShare} ix 1) ∗ ((SparseCore.T d).loc main_v5 ↦{fullShare} ix 2) ∗ ((SparseCore.T d).loc main_v7 ↦{fullShare} ix 3) ∗ ((SparseCore.T d).loc main_v9 ↦{fullShare} ix 4) ∗ ((SparseCore.T d).loc main_v11 ↦{fullShare} ix 5))
        ∗ (((SparseCore.T d).loc main_v15_0 ↦{fullShare} gathered tab (ix 0)) ∗ ((SparseCore.T d).loc main_v15_1 ↦{fullShare} gathered tab (ix 1)) ∗ ((SparseCore.T d).loc main_v15_2 ↦{fullShare} gathered tab (ix 2)) ∗ ((SparseCore.T d).loc main_v15_3 ↦{fullShare} gathered tab (ix 3)) ∗ ((SparseCore.T d).loc main_v15_4 ↦{fullShare} gathered tab (ix 4)) ∗ ((SparseCore.T d).loc main_v15_5 ↦{fullShare} gathered tab (ix 5)))) : sProp 𝕄) := by
  refine BIBase.Entails.trans ?_ (collect d tab ix)
  have e1 : (bigSep Finset.univ fun c : Fin 2 => bigSep Finset.univ fun i : Fin 16 =>
        (iprop(∃ tab' : TabC F, tileTd d (coordsOf c i) (tok c i) tab' ix) : sProp 𝕄))
      = bigSep Finset.univ fun p : Fin 2 × Fin 16 => iprop(∃ tab' : TabC F, tileTd d (coordsOf p.1 p.2) (tok p.1 p.2) tab' ix) :=
    (bigSep_univ_prod (fun p : Fin 2 × Fin 16 => (iprop(∃ tab' : TabC F, tileTd d (coordsOf p.1 p.2) (tok p.1 p.2) tab' ix) : sProp 𝕄))).symm
  have e2 : (bigSep Finset.univ fun c : Fin 2 => bigSep Finset.univ fun i : Fin 16 =>
        (tileTd d (coordsOf c i) (tok c i) tab ix : sProp 𝕄))
      = bigSep Finset.univ fun p : Fin 2 × Fin 16 => tileTd d (coordsOf p.1 p.2) (tok p.1 p.2) tab ix :=
    (bigSep_univ_prod (fun p : Fin 2 × Fin 16 => (tileTd d (coordsOf p.1 p.2) (tok p.1 p.2) tab ix : sProp 𝕄))).symm
  rw [e1, e2]
  exact thread_agree (F := F) (Finset.univ : Finset (Fin 2 × Fin 16)) (((SparseCore.T d).loc main_v14 ↦{rest} tab : sProp 𝕄))
    (fun p tab' => tileTd d (coordsOf p.1 p.2) (tok p.1 p.2) tab' ix) tab
    (fun p tab' => tab_agree d (coordsOf p.1 p.2) (tok p.1 p.2) tab tab' ix)

end Cert.KernelIdeal.Deal

end
-- ==== Proof.Pay.lean ====
/-
  What the launch handshakes carry at the SparseCore call: a tile is handed a read share of the packed table (at
  whatever contents the packing region left), its rows of the six index vectors and its rows of the six output
  arrays, and hands them back with the outputs at the gathered rows; a SparseCore's share is its sixteen tiles'.
-/
import proofs.«203064_g33122787786777_cont_8to1_b_416_18_alg».proof.Proof.Vals
import proofs.«203064_g33122787786777_cont_8to1_b_416_18_alg».proof.Proof.Deal
import Idealize.ShloMosaic.Lib.SparseCore.Launch

set_option synthInstance.maxSize 4096

noncomputable section

namespace Cert.KernelIdeal.PayM

open Cert.KernelIdeal Cert.KernelIdeal.Gen Cert.KernelIdeal.Alg Cert.KernelIdeal.Vals Cert.KernelIdeal.Tile Cert.KernelIdeal.Deal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ)

/-- Tile (c, i)'s operands, the table at some contents. -/
def goAt (d : Dev nD) (c : Fin 2) (i : Fin 16) : sProp 𝕄 :=
  iprop(∃ tab : TabC F, tileGo d (coordsOf c i) (tok c i) tab (ixOf m d) (outOf m d))
/-- Its results: the outputs' rows at the rows of that table its indices name. -/
def tdAt (d : Dev nD) (c : Fin 2) (i : Fin 16) : sProp 𝕄 :=
  iprop(∃ tab : TabC F, tileTd d (coordsOf c i) (tok c i) tab (ixOf m d))

set_option synthInstance.maxHeartbeats 1000000 in
set_option maxHeartbeats 1000000 in
instance goAt_storable (d : Dev nD) (c : Fin 2) (i : Fin 16) : BI.Storable (upEmb : UEmb _ 𝕄) (goAt m d c i) := by
  unfold goAt tileGo; infer_instance
set_option synthInstance.maxHeartbeats 1000000 in
set_option maxHeartbeats 1000000 in
instance tdAt_storable (d : Dev nD) (c : Fin 2) (i : Fin 16) : BI.Storable (upEmb : UEmb _ 𝕄) (tdAt m d c i) := by
  unfold tdAt tileTd; infer_instance

/-- The one call's payloads. -/
def P : (K (F := F)).Pay (nD := nD) (Val := Elt F) (Name := ℕ) (U := UU) where
  st := fun q d c => match q with | 0 => bigSep Finset.univ fun i : Fin 16 => goAt m d (Fin.cast nCore_zero c) i
  dn := fun q d c => match q with | 0 => bigSep Finset.univ fun i : Fin 16 => tdAt m d (Fin.cast nCore_zero c) i
  go := fun q d c i => match q with | 0 => goAt m d (Fin.cast nCore_zero c) (Fin.cast nSub_zero i)
  td := fun q d c i => match q with | 0 => tdAt m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goAt m d (Fin.cast nCore_zero c) i))
  dn q d c := match q with
    | 0 => (inferInstance : BI.Storable (upEmb : UEmb _ 𝕄) (bigSep Finset.univ fun i : Fin 16 => tdAt m d (Fin.cast nCore_zero c) i))
  go q d c i := match q with
    | 0 => (inferInstance : BI.Storable (upEmb : UEmb _ 𝕄) (goAt m d (Fin.cast nCore_zero c) (Fin.cast nSub_zero i)))
  td q d c i := match q with
    | 0 => (inferInstance : BI.Storable (upEmb : UEmb _ 𝕄) (tdAt m d (Fin.cast nCore_zero c) (Fin.cast nSub_zero i)))

/-- A SparseCore's operands ARE its tiles' and its results theirs. -/
theorem vecSplit : (K (F := F)).VecSplit (P m) 0 := by
  refine SparseCore.Cfg.VecSplit.of_plain ?_
  intro d c
  show (bigSep (Finset.univ : Finset (Fin 16)) fun i => goAt m d (Fin.cast nCore_zero c) i)
    ⊢ |={Set.univ}=> iprop((bigSep (Finset.univ : Finset (Fin 16)) fun i => goAt m d (Fin.cast nCore_zero c) i)
        ∗ ((bigSep (Finset.univ : Finset (Fin 16)) fun i => tdAt m d (Fin.cast nCore_zero c) i) -∗ (bigSep (Finset.univ : Finset (Fin 16)) fun i => tdAt m d (Fin.cast nCore_zero c) i)))
  iintro H
  imodintro
  isplitl [H]; · iexact H
  iintro H; iexact H

end Cert.KernelIdeal.PayM

end
-- ==== Proof.Main.lean ====
/-
  @main on the TensorCore inside the SparseCore launch: the first host stretch and the packing region, the SparseCore
  call, the second host stretch, the dense region and the closing reshape.
-/
import proofs.«203064_g33122787786777_cont_8to1_b_416_18_alg».proof.Proof.Segs
import proofs.«203064_g33122787786777_cont_8to1_b_416_18_alg».proof.Proof.Pay

set_option maxRecDepth 16384

noncomputable section

namespace Cert.KernelIdeal.Main

open Cert.KernelIdeal Cert.KernelIdeal.Gen Cert.KernelIdeal.Alg Cert.KernelIdeal.Host Cert.KernelIdeal.Vals
open Cert.KernelIdeal.TcState Cert.KernelIdeal.Ghost Cert.KernelIdeal.Segs Cert.KernelIdeal.PayM
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MM F

variable (m : (ℓ : Loc nD τ sig) → Buf (Elt F) ℓ)

/-- A host stretch over a set of whole buffers, the rest of the thread state riding along. -/
abbrev hseg (Sb : Finset (DevRef τ sig)) (ops : List (HloOp τ sig (Elt F))) (hS : ∀ op ∈ ops, op.bufs ⊆ Sb)
    (hfresh : ops.Forall fun op => op.fresh = ∅) (W : Dev nD → Valuation τ sig (Elt F)) (R : Dev nD → sProp 𝕄) :
    Pipeline.HostSeg (Name := ℕ) (U := UU) (pcfgs (F := F)) defs₀ 𝒱₀ (KL (F := F)) (Klv (F := F)) :=
  Pipeline.HostSeg.ofOps _ _ _ _ _ Sb ops hS (fun op h => (List.forall_iff_forall_mem.mp hfresh) op h) W R

theorem hS0 : ∀ op ∈ (hostOps0 : List (HloOp τ sig (Elt F))), op.bufs ⊆ Pipeline.ucRefs τ sig :=
  fun op h => Pipeline.sub_ucRefs op ((List.forall_iff_forall_mem.mp hostOps0_sub) op h)

/-- No operation of the later stretches touches the packed table. -/
theorem hS1 : ∀ op ∈ (hostOps1 : List (HloOp τ sig (Elt F))), op.bufs ⊆ U' := fun op h => by
  refine Finset.subset_sdiff.mpr ⟨Pipeline.sub_ucRefs op ((List.forall_iff_forall_mem.mp hostOps1_sub) op h), ?_⟩
  simp only [hostOps1, List.mem_cons, List.mem_nil_iff, or_false] at h
  rcases h with rfl | rfl | rfl | rfl | rfl | rfl | rfl | rfl | rfl <;>
    (first | rw [StableHlo.unary_bufs] | rw [StableHlo.binary_bufs] | rw [StableHlo.reshape_bufs]) <;> decide
theorem hS2 : ∀ op ∈ (hostOps2 : List (HloOp τ sig (Elt F))), op.bufs ⊆ U' := fun op h => by
  refine Finset.subset_sdiff.mpr ⟨Pipeline.sub_ucRefs op ((List.forall_iff_forall_mem.mp hostOps2_sub) op h), ?_⟩
  simp only [hostOps2, List.mem_cons, List.mem_nil_iff, or_false] at h
  rcases h with rfl
  rw [StableHlo.reshape_bufs]; decide

abbrev host0 := hseg (F := F) (Pipeline.ucRefs τ sig) hostOps0 hS0 hostOps0_fresh (W0 m) (RR (F := F) 0)
abbrev host1 := hseg (F := F) U' hostOps1 hS1 hostOps1_fresh (W3 m) (RT (F := F) 1)
abbrev host2 := hseg (F := F) U' hostOps2 hS2 hostOps2_fresh (W5 m) (RT (F := F) 1)

abbrev SegT := Pipeline.RDat.Seg (pcfgs (F := F)) adm (rdats m) (none : HIx 1) defs₀ 𝒱₀ (KL (F := F)) (Klv (F := F))

/-- The segments before the SparseCore call, and after it. -/
abbrev segsA : List (SegT m) := [.host (host0 m), .region (reg0 m)]
abbrev segsB : List (SegT m) := [.host (host1 m), .region (reg1 m), .host (host2 m)]

theorem progA_run : progA (F := F) = Pipeline.RDat.Seg.run (segsA m) := rfl
theorem progB_run : progB (F := F) = Pipeline.RDat.Seg.run (segsB m) := rfl

variable [∀ e, Nonempty (Elt F e)]

/-- The first part: from every unscoped buffer as launched to the packing region's exit. -/
theorem partA (d : Dev nD) :
    iprop(boundary (d : Thread nD τ) ∗ (StableHlo.held (d : Thread nD τ) (Pipeline.ucRefs τ sig) (W0 m d) ∗ RR (F := F) 0 d)
        ∗ levAts (KL (F := F)) (Klv (F := F)) ∗ Pipeline.ghostOn (pcfgs (F := F)) adm EP {0} d)
      ⊢ wp frame (wpE ((K (F := F)).defs (D (F := F))) 𝒱 (d : Thread nD τ) none) Set.univ (SparseCore.liftProg (progA (F := F)))
          fun _ => iprop(boundary (d : Thread nD τ) ∗ (reg0 m).post d) := by
  refine BIBase.Entails.trans ?_ ((K (F := F)).wp_liftProg (D (F := F)) 𝒱 (d : Thread nD τ) Set.univ none _ _)
  rw [progA_run m]
  refine BIBase.Entails.trans ?_ (Pipeline.RDat.wp_segs (pcfgs (F := F)) adm (rdats m) (none : HIx 1) cellOf_inj EP defs₀ 𝒱₀ (KL (F := F)) (Klv (F := F)) d
    (segsA m) {0} (fun c => iprop(StableHlo.held (c : Thread nD τ) (Pipeline.ucRefs τ sig) (W0 m c) ∗ RR (F := F) 0 c)) (reg0 m).post
    (by simp only [segsA, Pipeline.RDat.Seg.pipes_host, Pipeline.RDat.Seg.pipes_region, Pipeline.RDat.Seg.pipes_nil]; decide)
    (by simp only [segsA, Pipeline.RDat.Seg.pipes_host, Pipeline.RDat.Seg.pipes_region, Pipeline.RDat.Seg.pipes_nil]; decide)
    ⟨.rfl, .rfl, .rfl⟩)
  iintro ⟨Hb, HT, Hl, Hg⟩
  isplitr [Hb HT Hl Hg]
  · iintro H; iexact H
  isplitl [Hb]; · iexact Hb
  isplitl [HT]; · iexact HT
  isplitl [Hl]; · iexact Hl
  iexact Hg

/-- The last part: from the second host stretch's entry to the closing reshape. -/
theorem partB (d : Dev nD) :
    iprop(boundary (d : Thread nD τ) ∗ (StableHlo.held (d : Thread nD τ) U' (W3 m d) ∗ RT (F := F) 1 d)
        ∗ levAts (KL (F := F)) (Klv (F := F)) ∗ Pipeline.ghostOn (pcfgs (F := F)) adm EP {1} d)
      ⊢ wp frame (wpE ((K (F := F)).defs (D (F := F))) 𝒱 (d : Thread nD τ) none) Set.univ (SparseCore.liftProg (progB (F := F)))
          fun _ => iprop(boundary (d : Thread nD τ) ∗ (StableHlo.held (d : Thread nD τ) U' (W6 m d) ∗ RT (F := F) 1 d)) := by
  refine BIBase.Entails.trans ?_ ((K (F := F)).wp_liftProg (D (F := F)) 𝒱 (d : Thread nD τ) Set.univ none _ _)
  rw [progB_run m]
  refine BIBase.Entails.trans ?_ (Pipeline.RDat.wp_segs (pcfgs (F := F)) adm (rdats m) (none : HIx 1) cellOf_inj EP defs₀ 𝒱₀ (KL (F := F)) (Klv (F := F)) d
    (segsB m) {1} (fun c => iprop(StableHlo.held (c : Thread nD τ) U' (W3 m c) ∗ RT (F := F) 1 c))
    (fun c => iprop(StableHlo.held (c : Thread nD τ) U' (W6 m c) ∗ RT (F := F) 1 c))
    (by simp only [segsB, Pipeline.RDat.Seg.pipes_host, Pipeline.RDat.Seg.pipes_region, Pipeline.RDat.Seg.pipes_nil]; decide)
    (by simp only [segsB, Pipeline.RDat.Seg.pipes_host, Pipeline.RDat.Seg.pipes_region, Pipeline.RDat.Seg.pipes_nil]; decide)
    ⟨.rfl, .rfl, .rfl, .rfl⟩)
  iintro ⟨Hb, HT, Hl, Hg⟩
  isplitr [Hb HT Hl Hg]
  · iintro H; iexact H
  isplitl [Hb]; · iexact Hb
  isplitl [HT]; · iexact HT
  isplitl [Hl]; · iexact Hl
  iexact Hg

end Cert.KernelIdeal.Main

end
-- ==== Proof.Call.lean ====
/-
  The SparseCore call as the TensorCore meets it: the thirteen buffers the call reads or writes leave the thread
  state, are dealt to the thirty-two tiles, and come back with the six outputs at the gathered rows.
-/
import proofs.«203064_g33122787786777_cont_8to1_b_416_18_alg».proof.Proof.Segs
import proofs.«203064_g33122787786777_cont_8to1_b_416_18_alg».proof.Proof.Pay

set_option maxRecDepth 16384

noncomputable section

namespace Cert.KernelIdeal.Call

open Cert.KernelIdeal Cert.KernelIdeal.Gen Cert.KernelIdeal.Alg Cert.KernelIdeal.Host Cert.KernelIdeal.Vals
open Cert.KernelIdeal.TcState Cert.KernelIdeal.Ghost Cert.KernelIdeal.Segs Cert.KernelIdeal.PayM Cert.KernelIdeal.Tile Cert.KernelIdeal.Deal
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ)

/-! ## The buffers' contents after the call -/

theorem W3_out0 (c : Dev nD) : W3 m c (Proc.devRef .tc main_v15_0 : DevRef τ sig) = gOf m c 0 := by
  unfold W3; rw [Function.update_of_ne (by decide), Function.update_of_ne (by decide), Function.update_of_ne (by decide), Function.update_of_ne (by decide), Function.update_of_ne (by decide), Function.update_self]
theorem W3_out1 (c : Dev nD) : W3 m c (Proc.devRef .tc main_v15_1 : DevRef τ sig) = gOf m c 1 := by
  unfold W3; rw [Function.update_of_ne (by decide), Function.update_of_ne (by decide), Function.update_of_ne (by decide), Function.update_of_ne (by decide), Function.update_self]
theorem W3_out2 (c : Dev nD) : W3 m c (Proc.devRef .tc main_v15_2 : DevRef τ sig) = gOf m c 2 := by
  unfold W3; rw [Function.update_of_ne (by decide), Function.update_of_ne (by decide), Function.update_of_ne (by decide), Function.update_self]
theorem W3_out3 (c : Dev nD) : W3 m c (Proc.devRef .tc main_v15_3 : DevRef τ sig) = gOf m c 3 := by
  unfold W3; rw [Function.update_of_ne (by decide), Function.update_of_ne (by decide), Function.update_self]
theorem W3_out4 (c : Dev nD) : W3 m c (Proc.devRef .tc main_v15_4 : DevRef τ sig) = gOf m c 4 := by
  unfold W3; rw [Function.update_of_ne (by decide), Function.update_self]
theorem W3_out5 (c : Dev nD) : W3 m c (Proc.devRef .tc main_v15_5 : DevRef τ sig) = gOf m c 5 := by
  unfold W3; rw [Function.update_self]
theorem W3_ix0 (c : Dev nD) : W3 m c (Proc.devRef .tc main_v1 : DevRef τ sig) = ixOf m c 0 := by
  unfold W3; rw [Function.update_of_ne (by decide), Function.update_of_ne (by decide), Function.update_of_ne (by decide), Function.update_of_ne (by decide), Function.update_of_ne (by decide), Function.update_of_ne (by decide)]; rfl
theorem W3_ix1 (c : Dev nD) : W3 m c (Proc.devRef .tc main_v3 : DevRef τ sig) = ixOf m c 1 := by
  unfold W3; rw [Function.update_of_ne (by decide), Function.update_of_ne (by decide), Function.update_of_ne (by decide), Function.update_of_ne (by decide), Function.update_of_ne (by decide), Function.update_of_ne (by decide)]; rfl
theorem W3_ix2 (c : Dev nD) : W3 m c (Proc.devRef .tc main_v5 : DevRef τ sig) = ixOf m c 2 := by
  unfold W3; rw [Function.update_of_ne (by decide), Function.update_of_ne (by decide), Function.update_of_ne (by decide), Function.update_of_ne (by decide), Function.update_of_ne (by decide), Function.update_of_ne (by decide)]; rfl
theorem W3_ix3 (c : Dev nD) : W3 m c (Proc.devRef .tc main_v7 : DevRef τ sig) = ixOf m c 3 := by
  unfold W3; rw [Function.update_of_ne (by decide), Function.update_of_ne (by decide), Function.update_of_ne (by decide), Function.update_of_ne (by decide), Function.update_of_ne (by decide), Function.update_of_ne (by decide)]; rfl
theorem W3_ix4 (c : Dev nD) : W3 m c (Proc.devRef .tc main_v9 : DevRef τ sig) = ixOf m c 4 := by
  unfold W3; rw [Function.update_of_ne (by decide), Function.update_of_ne (by decide), Function.update_of_ne (by decide), Function.update_of_ne (by decide), Function.update_of_ne (by decide), Function.update_of_ne (by decide)]; rfl
theorem W3_ix5 (c : Dev nD) : W3 m c (Proc.devRef .tc main_v11 : DevRef τ sig) = ixOf m c 5 := by
  unfold W3; rw [Function.update_of_ne (by decide), Function.update_of_ne (by decide), Function.update_of_ne (by decide), Function.update_of_ne (by decide), Function.update_of_ne (by decide), Function.update_of_ne (by decide)]; rfl

/-- The six index vectors and the six outputs. -/
abbrev T12 : Finset (DevRef τ sig) := {(Proc.devRef .tc main_v1 : DevRef τ sig), (Proc.devRef .tc main_v3 : DevRef τ sig), (Proc.devRef .tc main_v5 : DevRef τ sig), (Proc.devRef .tc main_v7 : DevRef τ sig), (Proc.devRef .tc main_v9 : DevRef τ sig), (Proc.devRef .tc main_v11 : DevRef τ sig), (Proc.devRef .tc main_v15_0 : DevRef τ sig), (Proc.devRef .tc main_v15_1 : DevRef τ sig), (Proc.devRef .tc main_v15_2 : DevRef τ sig), (Proc.devRef .tc main_v15_3 : DevRef τ sig), (Proc.devRef .tc main_v15_4 : DevRef τ sig), (Proc.devRef .tc main_v15_5 : DevRef τ sig)}
/-- With the packed table. -/
abbrev T13 : Finset (DevRef τ sig) := insert v14' T12

theorem T12_sub : T12 ⊆ U' := by decide
theorem T13_sub : T13 ⊆ Pipeline.ucRefs τ sig := by decide
theorem rest_eq : U' \ T12 = Pipeline.ucRefs τ sig \ T13 := by decide

/-- The twelve buffers, one by one. -/
theorem held_T12 (d : Dev nD) (W : Valuation τ sig (Elt F)) :
    (StableHlo.held (d : Thread nD τ) T12 W : sProp 𝕄)
      = iprop((((SparseCore.T d).loc main_v1) ↦{fullShare} W (Proc.devRef .tc main_v1 : DevRef τ sig))
        ∗ (((SparseCore.T d).loc main_v3) ↦{fullShare} W (Proc.devRef .tc main_v3 : DevRef τ sig))
        ∗ (((SparseCore.T d).loc main_v5) ↦{fullShare} W (Proc.devRef .tc main_v5 : DevRef τ sig))
        ∗ (((SparseCore.T d).loc main_v7) ↦{fullShare} W (Proc.devRef .tc main_v7 : DevRef τ sig))
        ∗ (((SparseCore.T d).loc main_v9) ↦{fullShare} W (Proc.devRef .tc main_v9 : DevRef τ sig))
        ∗ (((SparseCore.T d).loc main_v11) ↦{fullShare} W (Proc.devRef .tc main_v11 : DevRef τ sig))
        ∗ (((SparseCore.T d).loc main_v15_0) ↦{fullShare} W (Proc.devRef .tc main_v15_0 : DevRef τ sig))
        ∗ (((SparseCore.T d).loc main_v15_1) ↦{fullShare} W (Proc.devRef .tc main_v15_1 : DevRef τ sig))
        ∗ (((SparseCore.T d).loc main_v15_2) ↦{fullShare} W (Proc.devRef .tc main_v15_2 : DevRef τ sig))
        ∗ (((SparseCore.T d).loc main_v15_3) ↦{fullShare} W (Proc.devRef .tc main_v15_3 : DevRef τ sig))
        ∗ (((SparseCore.T d).loc main_v15_4) ↦{fullShare} W (Proc.devRef .tc main_v15_4 : DevRef τ sig))
        ∗ (((SparseCore.T d).loc main_v15_5) ↦{fullShare} W (Proc.devRef .tc main_v15_5 : DevRef τ sig))) := by
  unfold StableHlo.held T12
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The thirteen. -/
theorem held_T13 (d : Dev nD) (W : Valuation τ sig (Elt F)) :
    (StableHlo.held (d : Thread nD τ) T13 W : sProp 𝕄)
      = iprop((((SparseCore.T d).loc main_v14) ↦{fullShare} W v14') ∗ StableHlo.held (d : Thread nD τ) T12 W) := by
  unfold StableHlo.held T13
  rw [SparseCore.bigSep_insert' (by decide)]

/-! ## The TensorCore's handshake state, its owing part apart -/

/-- The TensorCore's handshake state before call n but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(owesN (F := F) n d ∗ tcRest (F := F) d n) := rfl

/-- The twelve buffers at a valuation that agrees with the first stretch's off the table. -/
theorem held_T12_congr (d : Dev nD) (W : Valuation τ sig (Elt F)) (hW : ∀ b : Ref sig .tc, b ≠ main_v14 → W b = W1 m d b) :
    (StableHlo.held (d : Thread nD τ) T12 W : sProp 𝕄) = StableHlo.held (d : Thread nD τ) T12 (W1 m d) :=
  StableHlo.held_congr (d : Thread nD τ) fun b hb => by
    simp only [T12, Finset.mem_insert, Finset.mem_singleton] at hb
    rcases hb with rfl | rfl | rfl | rfl | rfl | rfl | rfl | rfl | rfl | rfl | rfl | rfl
    · exact hW main_v1 (by decide)
    · exact hW main_v3 (by decide)
    · exact hW main_v5 (by decide)
    · exact hW main_v7 (by decide)
    · exact hW main_v9 (by decide)
    · exact hW main_v11 (by decide)
    · exact hW main_v15_0 (by decide)
    · exact hW main_v15_1 (by decide)
    · exact hW main_v15_2 (by decide)
    · exact hW main_v15_3 (by decide)
    · exact hW main_v15_4 (by decide)
    · exact hW main_v15_5 (by decide)

/-- The other buffers are untouched by the call. -/
theorem held_rest_congr (d : Dev nD) (W : Valuation τ sig (Elt F)) (hW : ∀ b : Ref sig .tc, b ≠ main_v14 → W b = W1 m d b) :
    (StableHlo.held (d : Thread nD τ) (Pipeline.ucRefs τ sig \ T13) W : sProp 𝕄) = StableHlo.held (d : Thread nD τ) (U' \ T12) (W3 m d) := by
  rw [rest_eq]
  refine StableHlo.held_congr (d : Thread nD τ) fun b hb => ?_
  obtain ⟨hb1, hb2⟩ := Finset.mem_sdiff.mp hb
  have hb1' := (Finset.mem_filter.mp hb1).1
  unfold StableHlo.tcRefs at hb1'
  obtain ⟨b0, -, rfl⟩ := Finset.mem_map.mp hb1'
  have hb2' : (Proc.devRef .tc b0 : DevRef τ sig) ∉ T13 := hb2
  have hne : ∀ r ∈ T13, (Proc.devRef .tc b0 : DevRef τ sig) ≠ r := fun r hr e => hb2' (e ▸ hr)
  have h14 : b0 ≠ main_v14 := fun e => hne v14' (by decide) (e ▸ rfl)
  refine (hW b0 h14).trans ?_
  show W1 m d (Proc.devRef .tc b0) = W3 m d (Proc.devRef .tc b0)
  unfold W3
  rw [Function.update_of_ne (hne _ (by decide)), Function.update_of_ne (hne _ (by decide)), Function.update_of_ne (hne _ (by decide)),
    Function.update_of_ne (hne _ (by decide)), Function.update_of_ne (hne _ (by decide)), Function.update_of_ne (hne _ (by decide))]

/-- The tiles' operands, SparseCore by SparseCore, are the call's; -/
theorem st_of_go (d : Dev nD) :
    (bigSep Finset.univ fun c : Fin 2 => bigSep Finset.univ fun i : Fin 16 =>
        iprop(∃ tab' : TabC F, tileGo d (coordsOf c i) (tok c i) tab' (ixOf m d) (outOf m d)) : sProp 𝕄)
      ⊢ bigSep Finset.univ fun c : Fin ((K (F := F)).nCore 0) => (P m).st 0 d c :=
  Entails.of_eq rfl
/-- and its results the tiles'. -/
theorem td_of_dn (d : Dev nD) :
    (bigSep Finset.univ fun c : Fin ((K (F := F)).nCore 0) => (P m).dn 0 d c : sProp 𝕄)
      ⊢ bigSep Finset.univ fun c : Fin 2 => bigSep Finset.univ fun i : Fin 16 =>
        iprop(∃ tab' : TabC F, tileTd d (coordsOf c i) (tok c i) tab' (ixOf m d)) :=
  Entails.of_eq rfl

variable [∀ e, Nonempty (Elt F e)]

set_option maxHeartbeats 1000000 in
/-- The call on the TensorCore: the thirteen buffers dealt to the tiles and collected, the outputs at the gathered rows. -/
theorem partSC (κ : GSem nD τ sig → ℕ) (d : Dev nD) (hix : IxLt m d)
    (htab : ∀ G, (Region0.rdat0 (V1 m) (On (F := F) 0) (Bn (F := F) 0) d).ArrAt 2 cfg0.N G → TabOK m d G) (Φ : PUnit → sProp 𝕄) :
    iprop((K (F := F)).ctx EH (P m) κ ∗ tcRest (F := F) d 0
        ∗ iprop((∃ W, ⌜P2 m d W⌝ ∗ StableHlo.held (d : Thread nD τ) (Pipeline.ucRefs τ sig) W) ∗ RR (F := F) 0 d)
        ∗ (iprop(tcRest (F := F) d 1 ∗ StableHlo.held (d : Thread nD τ) U' (W3 m d) ∗ RT (F := F) 1 d) -∗ Φ ⟨⟩))
      ⊢ wp frame (wpE ((K (F := F)).defs (D (F := F))) 𝒱 (SparseCore.T d) none) Set.univ ((K (F := F)).run d 0) Φ := by
  iintro ⟨#Hctx, Hrest, ⟨⟨%W, %hW, Hheld⟩, Hp, HO⟩, Hk⟩
  obtain ⟨hWne, hWtab⟩ := hW
  have htabOK := htab _ hWtab
  ihave Hs := (Entails.of_eq (StableHlo.held_sub_split (d : Thread nD τ) T13_sub W)) $$ Hheld
  icases Hs with ⟨H13, Hoth⟩
  ihave H13' := (Entails.of_eq (held_T13 d W)) $$ H13
  icases H13' with ⟨Htab, H12⟩
  ihave H12a := (Entails.of_eq ((held_T12_congr m d W hWne).trans (held_T12 d (W1 m d)))) $$ H12
  icases H12a with ⟨I0, I1, I2, I3, I4, I5, O0, O1, O2, O3, O4, O5⟩
  ihave Hd := (Deal.deal_ex d (W v14') (ixOf m d) (outOf m d)) $$ [Htab I0 I1 I2 I3 I4 I5 O0 O1 O2 O3 O4 O5]
  · isplitl [Htab]; · iexact Htab
    isplitl [I0 I1 I2 I3 I4 I5]
    · isplitl [I0]; · iexact I0
      isplitl [I1]; · iexact I1
      isplitl [I2]; · iexact I2
      isplitl [I3]; · iexact I3
      isplitl [I4]; · iexact I4
      iexact I5
    isplitl [O0]; · iexact O0
    isplitl [O1]; · iexact O1
    isplitl [O2]; · iexact O2
    isplitl [O3]; · iexact O3
    isplitl [O4]; · iexact O4
    iexact O5
  icases Hd with ⟨Hrst, Hgo⟩
  iapply ((K (F := F)).wp_run (D (F := F)) 𝒱 (EH := EH) (P := P m) κ d 0) $$ [HO Hrest Hgo Hk Hrst Hoth Hp]
  isplitr; · iexact Hctx
  isplitl [HO Hrest]
  · iapply (Entails.of_eq (tcSt_eq (F := F) d 0).symm)
    isplitl [HO]; · iexact HO
    iexact Hrest
  isplitl [Hgo]
  · iapply (st_of_go m d); iexact Hgo
  iintro ⟨Hst, Hdn⟩
  ihave Hdn' := (td_of_dn m d) $$ Hdn
  ihave Hc := (Deal.collect_ex d (W v14') (ixOf m d)) $$ [Hrst Hdn']
  · isplitl [Hrst] <;> iassumption
  icases Hc with ⟨Htab, ⟨I0, I1, I2, I3, I4, I5⟩, ⟨O0, O1, O2, O3, O4, O5⟩⟩
  ihave Hst' := (Entails.of_eq (tcSt_eq (F := F) d ((0 : Fin 1).val + 1))) $$ Hst
  icases Hst' with ⟨HO, Hrest⟩
  iapply Hk
  isplitl [Hrest]; · iexact Hrest
  isplitl [I0 I1 I2 I3 I4 I5 O0 O1 O2 O3 O4 O5 Hoth]
  · rw [StableHlo.held_sub_split (d : Thread nD τ) T12_sub (W3 m d), held_T12, ← held_rest_congr m d W hWne,
      W3_ix0, W3_ix1, W3_ix2, W3_ix3, W3_ix4, W3_ix5, W3_out0, W3_out1, W3_out2, W3_out3, W3_out4, W3_out5]
    unfold gOf
    rw [← gathered_of_tabOK m d (W v14') htabOK hix 0, ← gathered_of_tabOK m d (W v14') htabOK hix 1, ← gathered_of_tabOK m d (W v14') htabOK hix 2, ← gathered_of_tabOK m d (W v14') htabOK hix 3, ← gathered_of_tabOK m d (W v14') htabOK hix 4, ← gathered_of_tabOK m d (W v14') htabOK hix 5]
    isplitl [I0 I1 I2 I3 I4 I5 O0 O1 O2 O3 O4 O5]
    · isplitl [I0]; · iexact I0
      isplitl [I1]; · iexact I1
      isplitl [I2]; · iexact I2
      isplitl [I3]; · iexact I3
      isplitl [I4]; · iexact I4
      isplitl [I5]; · iexact I5
      isplitl [O0]; · iexact O0
      isplitl [O1]; · iexact O1
      isplitl [O2]; · iexact O2
      isplitl [O3]; · iexact O3
      isplitl [O4]; · iexact O4
      iexact O5
    iexact Hoth
  isplitl [Htab]; · iexists _; iexact Htab
  isplitl [Hp]; · iexact Hp
  iexact HO

end Cert.KernelIdeal.Call

end
-- ==== Proof.TileBodyA.lean ====
/-
  Lemmas for one vector subcore's task of the gather kernel.

  Resources: the task's thirty-four DMA semaphores (the four slot semaphores and the thirty scoped ones are the
  kernel's DMA semaphores 6 to 39) and its two scratch buffers taken out of the subcore's scoped families; the
  table's read share split into one read token per slot semaphore, because up to three gathers read the table at
  once.

  Values: after the six index copies, word 512 t + j of the index scratch is entry base + j of index vector t; a
  gather over words [512 t + 128 r, 512 t + 128 r + 128) of the scratch therefore brings, as its row y, the table
  row named by entry base + 128 r + y of index vector t, which is row base + 128 r + y of the gathered output t:
  exactly the rows the copy-out of chunk r writes.
-/
import proofs.«203064_g33122787786777_cont_8to1_b_416_18_alg».proof.Proof.TileDefs
import Idealize.ShloMosaic.Lib.SparseCore.Launch
import Idealize.ShloMosaic.Lib.Writes

noncomputable section

namespace Cert.KernelIdeal.Tile

open Cert.KernelIdeal Cert.KernelIdeal.Gen Cert.KernelIdeal.Alg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The task's own semaphores and scratch, out of the subcore's scoped families -/

/-- The 34 DMA semaphores the task uses — four slot semaphores and thirty scoped ones — are the kernel's DMA
    semaphores number 6 to 39. -/
abbrev taskSem (k : Fin 34) : DmaSem sig := ⟨6 + k.val, by have := k.isLt; show 6 + k.val < 56; omega⟩

abbrev taskCell (d : Dev nD) (L : grid1.Coords) (k : Fin 34) : GSem nD τ sig := (thrL d L, SemLoc.dma (taskSem k))

theorem taskCell_inj (d : Dev nD) (L : grid1.Coords) :
    Set.InjOn (taskCell d L) ((Finset.univ : Finset (Fin 34)) : Set (Fin 34)) := by
  intro a _ b _ e
  have h := SemLoc.dma.inj (Prod.mk.inj e).2
  have h' := Fin.mk.inj h
  exact Fin.ext (by omega)

theorem taskCells_sub (d : Dev nD) (L : grid1.Coords) : Finset.univ.image (taskCell d L) ⊆ ownCells (thrL d L) := by
  intro g hg
  obtain ⟨k, -, rfl⟩ := Finset.mem_image.mp hg
  refine mem_ownCells.mpr ⟨rfl, ?_⟩
  have h : ∀ k : Fin 34, (SemLoc.dma (taskSem k) : SemLoc sig).isScoped .scVector = true := by decide +kernel
  exact h k

theorem ownSems0_task (d : Dev nD) (L : grid1.Coords) :
    (ownSems0 (thrL d L) : sProp 𝕄)
      = iprop((semVal (thrL d L, SemLoc.dma cc1_scratch2.sem) 0
          ∗ semVal (thrL d L, SemLoc.dma cc1_scratch3.sem) 0
          ∗ semVal (thrL d L, SemLoc.dma cc1_scratch4.sem) 0
          ∗ semVal (thrL d L, SemLoc.dma cc1_scratch5.sem) 0
          ∗ semVal (thrL d L, SemLoc.dma cc1_scoped0.sem) 0
          ∗ semVal (thrL d L, SemLoc.dma cc1_scoped1.sem) 0
          ∗ semVal (thrL d L, SemLoc.dma cc1_scoped2.sem) 0
          ∗ semVal (thrL d L, SemLoc.dma cc1_scoped3.sem) 0
          ∗ semVal (thrL d L, SemLoc.dma cc1_scoped4.sem) 0
          ∗ semVal (thrL d L, SemLoc.dma cc1_scoped5.sem) 0
          ∗ semVal (thrL d L, SemLoc.dma cc1_scoped6.sem) 0
          ∗ semVal (thrL d L, SemLoc.dma cc1_scoped7.sem) 0
          ∗ semVal (thrL d L, SemLoc.dma cc1_scoped8.sem) 0
          ∗ semVal (thrL d L, SemLoc.dma cc1_scoped9.sem) 0
          ∗ semVal (thrL d L, SemLoc.dma cc1_scoped10.sem) 0
          ∗ semVal (thrL d L, SemLoc.dma cc1_scoped11.sem) 0
          ∗ semVal (thrL d L, SemLoc.dma cc1_scoped12.sem) 0
          ∗ semVal (thrL d L, SemLoc.dma cc1_scoped13.sem) 0
          ∗ semVal (thrL d L, SemLoc.dma cc1_scoped14.sem) 0
          ∗ semVal (thrL d L, SemLoc.dma cc1_scoped15.sem) 0
          ∗ semVal (thrL d L, SemLoc.dma cc1_scoped16.sem) 0
          ∗ semVal (thrL d L, SemLoc.dma cc1_scoped17.sem) 0
          ∗ semVal (thrL d L, SemLoc.dma cc1_scoped18.sem) 0
          ∗ semVal (thrL d L, SemLoc.dma cc1_scoped19.sem) 0
          ∗ semVal (thrL d L, SemLoc.dma cc1_scoped20.sem) 0
          ∗ semVal (thrL d L, SemLoc.dma cc1_scoped21.sem) 0
          ∗ semVal (thrL d L, SemLoc.dma cc1_scoped22.sem) 0
          ∗ semVal (thrL d L, SemLoc.dma cc1_scoped23.sem) 0
          ∗ semVal (thrL d L, SemLoc.dma cc1_scoped24.sem) 0
          ∗ semVal (thrL d L, SemLoc.dma cc1_scoped25.sem) 0
          ∗ semVal (thrL d L, SemLoc.dma cc1_scoped26.sem) 0
          ∗ semVal (thrL d L, SemLoc.dma cc1_scoped27.sem) 0
          ∗ semVal (thrL d L, SemLoc.dma cc1_scoped28.sem) 0
          ∗ semVal (thrL d L, SemLoc.dma cc1_scoped29.sem) 0
          ∗ emp)
          ∗ bigSep (ownCells (thrL d L) \ Finset.univ.image (taskCell d L)) fun g => semVal g 0) := by
  unfold SparseCore.Cfg.ownSems0
  rw [SparseCore.bigSep_sdiff_split' (taskCells_sub d L), SparseCore.bigSep_image_of_injOn (taskCell_inj d L)]
  congr 1

/-- The two scratch buffers are among the subcore's own: they are them, at some contents, and the rest. -/
theorem ownBufs_task (d : Dev nD) (L : grid1.Coords) :
    (ownBufs (thrL d L) : sProp 𝕄)
      = iprop((∃ f, (thrL d L).loc cc1_scratch0 ↦{fullShare} f) ∗ (∃ f, (thrL d L).loc cc1_scratch1 ↦{fullShare} f)
          ∗ bigSep (((ownRefs (τ := τ) (.scVector ((L 0).castLE hcore1) ((L 1).castLE hsub1))).erase
              ((Proc.scVector ((L 0).castLE hcore1) ((L 1).castLE hsub1)).devRef cc1_scratch0)).erase
              ((Proc.scVector ((L 0).castLE hcore1) ((L 1).castLE hsub1)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore1) ((L 1).castLE hsub1))
    (b := (Proc.scVector ((L 0).castLE hcore1) ((L 1).castLE hsub1)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector ((L 0).castLE hcore1) ((L 1).castLE hsub1))
      (b := (Proc.scVector ((L 0).castLE hcore1) ((L 1).castLE hsub1)).devRef cc1_scratch1) rfl⟩)]

/-! ## The table's share as one read token per slot semaphore -/

/-- The table's share split into what stays aside and one read token for each of the four slot semaphores (the
    kernel's DMA semaphores 6 to 9), since up to three gathers read the table at once. -/
theorem tab_toks (d : Dev nD) (L : grid1.Coords) (q : PosShare TreeShare) (tab : TabC F) :
    (tabW.view.loc (thrL d L) ↦{q} tab : sProp 𝕄)
      ⊣⊢ iprop((tabW.view.loc (thrL d L) ↦{Transfers.shareDrop q 10} tab)
          ∗ (tabW.view.loc (thrL d L) ↦{Transfers.shareTokN q 6} tab) ∗ (tabW.view.loc (thrL d L) ↦{Transfers.shareTokN q 7} tab)
          ∗ (tabW.view.loc (thrL d L) ↦{Transfers.shareTokN q 8} tab) ∗ (tabW.view.loc (thrL d L) ↦{Transfers.shareTokN q 9} tab)
          ∗ bigSep (Finset.range 6) (fun i => tabW.view.loc (thrL d L) ↦{Transfers.shareTokN q i} tab)) := by
  have e : Finset.range 10 = insert 6 (insert 7 (insert 8 (insert 9 (Finset.range 6)))) := by decide
  have h := Transfers.pointsTo_toks_range (ℓ := tabW.view.loc (thrL d L)) (S := Finset.univ) (f := (tab : Buf (Elt F) (tabW.view.loc (thrL d L))))
    (nD := nD) (τ := τ) (sig := sig) (Ix := HIx 1) (Val := Elt F) (Name := ℕ) (U := UU) (Lvl := ℕ) q 10
  rw [e, SparseCore.bigSep_insert' (by decide), SparseCore.bigSep_insert' (by decide), SparseCore.bigSep_insert' (by decide),
    SparseCore.bigSep_insert' (by decide)] at h
  exact h

/-- One more wait at index `none` recorded. -/
theorem waits_ins {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

theorem pts_ixScr (d : Dev nD) (L : grid1.Coords) (f : Buf (Elt F) ((thrL d L).loc cc1_scratch0)) :
    (ixScr.view.loc (thrL d L) ↦{fullShare} f : sProp 𝕄) = (thrL d L).loc cc1_scratch0 ↦{fullShare} f := rfl
theorem pts_rowScr (d : Dev nD) (L : grid1.Coords) (f : Buf (Elt F) ((thrL d L).loc cc1_scratch1)) :
    (rowScr.view.loc (thrL d L) ↦{fullShare} f : sProp 𝕄) = (thrL d L).loc cc1_scratch1 ↦{fullShare} f := rfl

/-! ## The index scratch after the six copies, and what a task's gather and copy-out leave -/

/-- The index scratch after the six copies: word `512 t + j` is entry `base + j` of index vector `t`. -/
def ixs (L : grid1.Coords) (ix : Fin 6 → IxC F) : S3072.Idx → Elt F .i32 := fun j =>
  ix ⟨(j 0).val / 512, by have h : (j 0).val < 3072 := (j 0).isLt; show (j 0).val / 512 < 6; omega⟩
    (ValueIdx.ix1 (n := 16384) ⟨k1_off1 L 0 + (j 0).val % 512, by
      have h := k1_off1_inb L 0; show k1_off1 L 0 + (j 0).val % 512 < 16384
      have h' : k1_off1 L 0 + 512 ≤ 16384 := h
      omega⟩)

/-- A buffer written whole through a view with payload `w` agrees, on the view's elements, with any contents that read
    `w` through the view. -/
theorem whole_piece_congr {κ : Kind} {sp : Space} {s : Shape} {e : EltTy} (v : View sig κ sp s e)
    (f g : v.ty.Contents (Elt F)) (w : s.Idx → Elt F e) (hw : ∀ y, w y = v.read (Elt F) g y) :
    ∀ i ∈ v.set, v.writes (Elt F) f [⟨Rect.whole s, w⟩] i = g i := by
  intro i hi
  obtain ⟨y, -, rfl⟩ := Finset.mem_map.mp hi
  have h1 := View.read_writes_cons_emb v f (Rect.whole s) w [] y
  rw [Rect.emb_whole_apply] at h1
  have h2 := h1.trans (hw y)
  rw [View.read_apply, View.read_apply] at h2
  exact (cast_inj _).mp h2

theorem emb1d (off sz : Fin 1 → Nat) (h : ∀ a, off a + sz a ≤ S3072.size a) (x : (Rect.unit (s := S3072) off sz h).shape.Idx) :
    (((Rect.unit (s := S3072) off sz h).emb x) 0).val = off 0 + (x 0).val := by
  rw [Rect.emb_apply]; simp

/-- A window of the index scratch, after the six copies, reads the entries the copies brought. -/
theorem ixScr_read_eq (d : Dev nD) (L : grid1.Coords) (ix : Fin 6 → IxC F) (g : Buf (Elt F) (ixScr.view.loc (thrL d L)))
    (P0 : S512.Idx → Elt F .i32) (hP0 : P0 = ReadAs.same.apply (View.read (Elt F) (ixSlice L ixW0).view (ix 0)))
    (P1 : S512.Idx → Elt F .i32) (hP1 : P1 = ReadAs.same.apply (View.read (Elt F) (ixSlice L ixW1).view (ix 1)))
    (P2 : S512.Idx → Elt F .i32) (hP2 : P2 = ReadAs.same.apply (View.read (Elt F) (ixSlice L ixW2).view (ix 2)))
    (P3 : S512.Idx → Elt F .i32) (hP3 : P3 = ReadAs.same.apply (View.read (Elt F) (ixSlice L ixW3).view (ix 3)))
    (P4 : S512.Idx → Elt F .i32) (hP4 : P4 = ReadAs.same.apply (View.read (Elt F) (ixSlice L ixW4).view (ix 4)))
    (P5 : S512.Idx → Elt F .i32) (hP5 : P5 = ReadAs.same.apply (View.read (Elt F) (ixSlice L ixW5).view (ix 5)))
    (off : Fin 1 → Nat) (h : ∀ a, off a + S128.size a ≤ S3072.size a) (x : S128.Idx) :
    View.read (Elt F) (ixScr.slice (Rect.unit (s := S3072) off S128.size h) (fun _ => rfl)).view
        (ixScr.view.writes (Elt F) g ([⟨Rect.unit (s := S3072) ![2560] S512.size inb_S3072_S512_2560, P5⟩,
          ⟨Rect.unit (s := S3072) ![2048] S512.size inb_S3072_S512_2048, P4⟩,
          ⟨Rect.unit (s := S3072) ![1536] S512.size inb_S3072_S512_1536, P3⟩,
          ⟨Rect.unit (s := S3072) ![1024] S512.size inb_S3072_S512_1024, P2⟩,
          ⟨Rect.unit (s := S3072) ![512] S512.size inb_S3072_S512_512, P1⟩,
          ⟨Rect.unit (s := S3072) ![0] S512.size inb_S3072_S512_0, P0⟩] : List (View.Piece (Elt F) S3072 .i32))) x
      = ixs L ix ((Rect.unit (s := S3072) off S128.size h).emb x) := by
  subst hP0 hP1 hP2 hP3 hP4 hP5
  refine View.read_writes_apply_of_pieces ixScr.view g (ixs L ix) _ ?_ ((Rect.unit (s := S3072) off S128.size h).emb x)
    (View.cover_of_tiled _ ![512] rfl _)
  intro p hp x'
  simp only [List.mem_cons, List.not_mem_nil, or_false] at hp
  rcases hp with rfl | rfl | rfl | rfl | rfl | rfl
  all_goals
    dsimp only
    show ix _ _ = ix _ _
    have hx : (x' 0).val < 512 := (x' 0).isLt
    congr 1
    · apply Fin.ext
      simp only [emb1d, Matrix.cons_val_zero]
      omega
    · funext a
      match a with
      | ⟨0, _⟩ =>
        apply Fin.ext
        show k1_off1 L 0 + 1 * (x' 0).val = k1_off1 L 0 + _ % 512
        simp only [emb1d, Matrix.cons_val_zero]
        omega

/-- Every word a gather's offset list holds names a row of the table. -/
theorem hin_of {ix : Fin 6 → IxC F} (hix : IxOK ix) (d : Dev nD) (L : grid1.Coords) (g : Buf (Elt F) (ixScr.view.loc (thrL d L)))
    (P0 : S512.Idx → Elt F .i32) (hP0 : P0 = ReadAs.same.apply (View.read (Elt F) (ixSlice L ixW0).view (ix 0)))
    (P1 : S512.Idx → Elt F .i32) (hP1 : P1 = ReadAs.same.apply (View.read (Elt F) (ixSlice L ixW1).view (ix 1)))
    (P2 : S512.Idx → Elt F .i32) (hP2 : P2 = ReadAs.same.apply (View.read (Elt F) (ixSlice L ixW2).view (ix 2)))
    (P3 : S512.Idx → Elt F .i32) (hP3 : P3 = ReadAs.same.apply (View.read (Elt F) (ixSlice L ixW3).view (ix 3)))
    (P4 : S512.Idx → Elt F .i32) (hP4 : P4 = ReadAs.same.apply (View.read (Elt F) (ixSlice L ixW4).view (ix 4)))
    (P5 : S512.Idx → Elt F .i32) (hP5 : P5 = ReadAs.same.apply (View.read (Elt F) (ixSlice L ixW5).view (ix 5)))
    (off : Fin 1 → Nat) (h : ∀ a, off a + S128.size a ≤ S3072.size a) (x : S128.Idx) :
    (View.read (Elt F) (ixScr.slice (Rect.unit (s := S3072) off S128.size h) (fun _ => rfl)).view
        (ixScr.view.writes (Elt F) g ([⟨Rect.unit (s := S3072) ![2560] S512.size inb_S3072_S512_2560, P5⟩,
          ⟨Rect.unit (s := S3072) ![2048] S512.size inb_S3072_S512_2048, P4⟩,
          ⟨Rect.unit (s := S3072) ![1536] S512.size inb_S3072_S512_1536, P3⟩,
          ⟨Rect.unit (s := S3072) ![1024] S512.size inb_S3072_S512_1024, P2⟩,
          ⟨Rect.unit (s := S3072) ![512] S512.size inb_S3072_S512_512, P1⟩,
          ⟨Rect.unit (s := S3072) ![0] S512.size inb_S3072_S512_0, P0⟩] : List (View.Piece (Elt F) S3072 .i32))) x).toNat < 100352 := by
  rw [ixScr_read_eq d L ix g P0 hP0 P1 hP1 P2 hP2 P3 hP3 P4 hP4 P5 hP5 off h x]
  exact hix _ _

theorem embOut (offv szv : Fin 2 → Nat) (h : ∀ a, offv a + szv a ≤ S16384x128.size a) (y : (Rect.unit (s := S16384x128) offv szv h).shape.Idx) (a : Fin 2) :
    (((Rect.unit (s := S16384x128) offv szv h).emb y) a).val = offv a + (y a).val := by
  rw [Rect.emb_apply]; simp

theorem tabSl_emb (z : S100352x128.Idx) :
    (Rect.unit (s := S100352x128) ![0, 0] S100352x128.size inb_S100352x128_S100352x128_0_0).emb z = z := by
  funext a; apply Fin.ext; rw [Rect.emb_apply]
  match a with
  | ⟨0, _⟩ => simp
  | ⟨1, _⟩ => simp

/-- What a gather over entries `[512 t + 128 r, 512 t + 128 r + 128)` of the index scratch delivers: row `y 0` is the
    table row named by entry `base + 128 r + y 0` of index vector `t` — the gathered output at the row the copy-out
    of chunk `r` writes. -/
theorem gather_value {ix : Fin 6 → IxC F} (hix : IxOK ix) (L : grid1.Coords) (tab : TabC F) (lr : S128.Idx → Elt F .i32)
    (off : Fin 1 → Nat) (h : ∀ a, off a + S128.size a ≤ S3072.size a)
    (hlr : ∀ x, lr x = ixs L ix ((Rect.unit (s := S3072) off S128.size h).emb x))
    (hn : S128.numel = S128x128.size gathers_S100352x128_S128x128.axis')
    (hin' : ∀ x, (lr x).toNat < S100352x128.size gathers_S100352x128_S128x128.axis)
    (t : Fin 6) (r : Fin 4) (hoff : off 0 = 512 * t.val + 128 * r.val) (y : S128x128.Idx) :
    SparseCore.gatherPayload gathers_S100352x128_S128x128
        (View.read (Elt F) (tabW.slice (Rect.unit (s := S100352x128) ![0, 0] S100352x128.size inb_S100352x128_S100352x128_0_0) (fun _ => rfl)).view tab)
        (SparseCore.rows lr hn hin') y
      = gathered tab (ix t) ((Rect.unit (s := S16384x128) (k1_off2 L (BitVec.ofNat 32 (128 * r.val))) S128x128.size (k1_off2_inb L r)).emb y) := by
  have hk1 : k1_off1 L 0 = 1024 * (L 1).val + 512 * (L 0).val := by rw [k1_off1_eq]; rfl
  have hk20 : k1_off2 L (BitVec.ofNat 32 (128 * r.val)) 0 = 1024 * (L 1).val + 512 * (L 0).val + 128 * r.val := by rw [k1_off2_eq]; rfl
  have hk21 : k1_off2 L (BitVec.ofNat 32 (128 * r.val)) 1 = 0 := by rw [k1_off2_eq]; rfl
  have hy0 : (y 0).val < 128 := (y 0).isLt
  unfold SparseCore.gatherPayload gathered
  show tab ((Rect.unit (s := S100352x128) ![0, 0] S100352x128.size inb_S100352x128_S100352x128_0_0).emb _) = tab _
  rw [tabSl_emb]
  congr 1
  funext a
  match a with
  | ⟨0, h0⟩ =>
    apply Fin.ext
    refine (congrArg Fin.val (Shape.Gathers.idx_axis gathers_S100352x128_S128x128 (SparseCore.rows lr hn hin') y)).trans ?_
    show (lr (S128.rowMajor.symm ((y 0).cast hn.symm))).toNat = (rowOf _).val
    have hx0 : ((S128.rowMajor.symm ((y 0).cast hn.symm)) 0).val = (y 0).val := by
      have e1 := Shape.rowMajor_val_one (d := ![128]) (S128.rowMajor.symm ((y 0).cast hn.symm))
      rw [show (⟨1, ![128]⟩ : Shape).rowMajor (S128.rowMajor.symm ((y 0).cast hn.symm)) = (y 0).cast hn.symm from Equiv.apply_symm_apply _ _] at e1
      exact e1.symm
    rw [hlr]
    have hw : ixs L ix ((Rect.unit (s := S3072) off S128.size h).emb (S128.rowMajor.symm ((y 0).cast hn.symm)))
        = ix t (ValueIdx.ix1 (n := 16384) (((Rect.unit (s := S16384x128) (k1_off2 L (BitVec.ofNat 32 (128 * r.val))) S128x128.size (k1_off2_inb L r)).emb y) 0)) := by
      unfold ixs
      have ht : t.val < 6 := t.isLt
      have hr : r.val < 4 := r.isLt
      congr 1
      · apply Fin.ext
        simp only [emb1d]
        omega
      · funext b
        match b with
        | ⟨0, _⟩ =>
          apply Fin.ext
          show k1_off1 L 0 + _ % 512 = (((Rect.unit (s := S16384x128) (k1_off2 L (BitVec.ofNat 32 (128 * r.val))) S128x128.size (k1_off2_inb L r)).emb y) 0).val
          simp only [emb1d, embOut]
          omega
    rw [hw]
    unfold rowOf
    exact (Nat.mod_eq_of_lt (hix t _)).symm
  | ⟨1, h1⟩ =>
    apply Fin.ext
    refine (Shape.Gathers.idx_of_ne gathers_S100352x128_S128x128 (SparseCore.rows lr hn hin') y ⟨1, h1⟩ (show (1 : ℕ) ≠ 0 from Nat.one_ne_zero)).trans ?_
    show (y 1).val = (((Rect.unit (s := S16384x128) (k1_off2 L (BitVec.ofNat 32 (128 * r.val))) S128x128.size (k1_off2_inb L r)).emb y) 1).val
    simp only [embOut]
    omega

/-! ## The four slots of the row scratch are apart -/

/-- Coordinate 0 of any element of slot `k` is `k`. -/
theorem slot_emb0 (k : Nat) (h : ∀ a, (![k, 0, 0] : Fin 3 → Nat) a + S1x128x128.size a ≤ S4x128x128.size a)
    (z : (Rect.unit (s := S4x128x128) ![k, 0, 0] S1x128x128.size h).shape.Idx) :
    (((Rect.unit (s := S4x128x128) ![k, 0, 0] S1x128x128.size h).emb z) 0).val = k := by
  rw [Rect.emb_apply]
  have hz : (z 0).val < 1 := (z 0).isLt
  simp
  omega

/-- Reading slot `k` is not changed by a write of another slot `k'`. -/
theorem slot_read_other (k k' : Nat) (hne : k ≠ k')
    (h : ∀ a, (![k, 0, 0] : Fin 3 → Nat) a + S1x128x128.size a ≤ S4x128x128.size a)
    (h' : ∀ a, (![k', 0, 0] : Fin 3 → Nat) a + S1x128x128.size a ≤ S4x128x128.size a)
    (hs : ∀ a, (Rect.unit (s := S4x128x128) ![k, 0, 0] S1x128x128.size h).stride a = 1)
    (hs' : ∀ a, (Rect.unit (s := S4x128x128) ![k', 0, 0] S1x128x128.size h').stride a = 1)
    (hq : (Rect.unit (s := S4x128x128) ![k, 0, 0] S1x128x128.size h).shape.Squeezes S128x128)
    (hq' : (Rect.unit (s := S4x128x128) ![k', 0, 0] S1x128x128.size h').shape.Squeezes S128x128)
    (f : rowScr.view.ty.Contents (Elt F)) (w : S128x128.Idx → Elt F .f32) (y : S128x128.Idx) :
    View.read (Elt F) ((rowScr.slice (Rect.unit (s := S4x128x128) ![k, 0, 0] S1x128x128.size h) hs).squeeze S128x128 hq).view
        (View.write (Elt F) ((rowScr.slice (Rect.unit (s := S4x128x128) ![k', 0, 0] S1x128x128.size h') hs').squeeze S128x128 hq').view f w Finset.univ) y
      = View.read (Elt F) ((rowScr.slice (Rect.unit (s := S4x128x128) ![k, 0, 0] S1x128x128.size h) hs).squeeze S128x128 hq).view f y := by
  rw [View.read_apply, View.read_apply, View.write_of_not_mem]
  rw [View.setOn_univ]
  show _ ∉ ((rowScr.view.slice (Rect.unit (s := S4x128x128) ![k', 0, 0] S1x128x128.size h')).reshape S128x128 hq'.numel_eq).set
  rw [View.set_reshape, View.set_slice]
  intro hm
  obtain ⟨i, hi, e⟩ := Finset.mem_map.mp hm
  have e0 : i = (Rect.unit (s := S4x128x128) ![k, 0, 0] S1x128x128.size h).emb ((Shape.reshapeEquiv hq.numel_eq) y) := e
  have hi0 := (Rect.mem_set_unit.mp hi) 0
  rw [e0, slot_emb0] at hi0
  have : (![k', 0, 0] : Fin 3 → Nat) 0 = k' := rfl
  have h1 : S1x128x128.size 0 = 1 := rfl
  omega

/-- Reading a view right after writing it whole gives the payload. -/
theorem read_write_self {κ : Kind} {sp : Space} {s : Shape} {e : EltTy} (v : View sig κ sp s e)
    (f : v.ty.Contents (Elt F)) (w : s.Idx → Elt F e) (y : s.Idx) :
    View.read (Elt F) v (View.write (Elt F) v f w Finset.univ) y = w y :=
  View.read_write_of_mem f w (Finset.mem_univ y)

/-- What the gather over words `[512 t + 128 r, 512 t + 128 r + 128)` of the index scratch brings, after the six
    copies: the rows of chunk `r` of the gathered output `t`. -/
theorem gatherN_value {ix : Fin 6 → IxC F} (hix : IxOK ix) (d : Dev nD) (L : grid1.Coords) (tab : TabC F) (g : Buf (Elt F) (ixScr.view.loc (thrL d L)))
    (P0 : S512.Idx → Elt F .i32) (hP0 : P0 = ReadAs.same.apply (View.read (Elt F) (ixSlice L ixW0).view (ix 0)))
    (P1 : S512.Idx → Elt F .i32) (hP1 : P1 = ReadAs.same.apply (View.read (Elt F) (ixSlice L ixW1).view (ix 1)))
    (P2 : S512.Idx → Elt F .i32) (hP2 : P2 = ReadAs.same.apply (View.read (Elt F) (ixSlice L ixW2).view (ix 2)))
    (P3 : S512.Idx → Elt F .i32) (hP3 : P3 = ReadAs.same.apply (View.read (Elt F) (ixSlice L ixW3).view (ix 3)))
    (P4 : S512.Idx → Elt F .i32) (hP4 : P4 = ReadAs.same.apply (View.read (Elt F) (ixSlice L ixW4).view (ix 4)))
    (P5 : S512.Idx → Elt F .i32) (hP5 : P5 = ReadAs.same.apply (View.read (Elt F) (ixSlice L ixW5).view (ix 5)))
    (off : Fin 1 → Nat) (h : ∀ a, off a + S128.size a ≤ S3072.size a)
    (hn : S128.numel = S128x128.size gathers_S100352x128_S128x128.axis')
    (hin' : ∀ x, (View.read (Elt F) (ixScr.slice (Rect.unit (s := S3072) off S128.size h) (fun _ => rfl)).view
        (ixScr.view.writes (Elt F) g ([⟨Rect.unit (s := S3072) ![2560] S512.size inb_S3072_S512_2560, P5⟩,
          ⟨Rect.unit (s := S3072) ![2048] S512.size inb_S3072_S512_2048, P4⟩,
          ⟨Rect.unit (s := S3072) ![1536] S512.size inb_S3072_S512_1536, P3⟩,
          ⟨Rect.unit (s := S3072) ![1024] S512.size inb_S3072_S512_1024, P2⟩,
          ⟨Rect.unit (s := S3072) ![512] S512.size inb_S3072_S512_512, P1⟩,
          ⟨Rect.unit (s := S3072) ![0] S512.size inb_S3072_S512_0, P0⟩] : List (View.Piece (Elt F) S3072 .i32))) x).toNat < S100352x128.size gathers_S100352x128_S128x128.axis)
    (t : Fin 6) (r : Fin 4) (hoff : off 0 = 512 * t.val + 128 * r.val) (y : S128x128.Idx) :
    SparseCore.gatherPayload gathers_S100352x128_S128x128
        (View.read (Elt F) (tabW.slice (Rect.unit (s := S100352x128) ![0, 0] S100352x128.size inb_S100352x128_S100352x128_0_0) (fun _ => rfl)).view tab)
        (SparseCore.rows (View.read (Elt F) (ixScr.slice (Rect.unit (s := S3072) off S128.size h) (fun _ => rfl)).view
          (ixScr.view.writes (Elt F) g ([⟨Rect.unit (s := S3072) ![2560] S512.size inb_S3072_S512_2560, P5⟩,
          ⟨Rect.unit (s := S3072) ![2048] S512.size inb_S3072_S512_2048, P4⟩,
          ⟨Rect.unit (s := S3072) ![1536] S512.size inb_S3072_S512_1536, P3⟩,
          ⟨Rect.unit (s := S3072) ![1024] S512.size inb_S3072_S512_1024, P2⟩,
          ⟨Rect.unit (s := S3072) ![512] S512.size inb_S3072_S512_512, P1⟩,
          ⟨Rect.unit (s := S3072) ![0] S512.size inb_S3072_S512_0, P0⟩] : List (View.Piece (Elt F) S3072 .i32)))) hn hin') y
      = gathered tab (ix t) ((Rect.unit (s := S16384x128) (k1_off2 L (BitVec.ofNat 32 (128 * r.val))) S128x128.size (k1_off2_inb L r)).emb y) :=
  gather_value hix L tab _ off h (fun x => ixScr_read_eq d L ix g P0 hP0 P1 hP1 P2 hP2 P3 hP3 P4 hP4 P5 hP5 off h x) hn hin' t r hoff y

end Cert.KernelIdeal.Tile

end
-- ==== Proof.TileBody.lean ====
/-
  One vector subcore's task of the gather kernel, run once at a symbolic grid point.

  The task copies its 512 entries of each of the six index vectors into its index scratch, then for the 24 chunks
  (index vector t, chunk r) gathers 128 table rows into a slot of its row scratch and copies the slot out to its rows
  of output t, three gathers ahead of the copy-outs. Each slot has its own semaphore with at most one gather
  outstanding, and a slot is gathered into again only after its copy-out has been waited for, so no transfer's source
  or destination is touched while it is pending. The index scratch is never written after the six copies.
  At the end every chunk of every output holds the gathered rows.
-/
import proofs.«203064_g33122787786777_cont_8to1_b_416_18_alg».proof.Proof.TileBodyA
import Idealize.ShloMosaic.Lib.Tactic

noncomputable section

namespace Cert.KernelIdeal.Tile

open Cert.KernelIdeal Cert.KernelIdeal.Gen Cert.KernelIdeal.Alg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

set_option maxHeartbeats 4000000 in
/-- One vector subcore's task: from its entries of the index vectors, a read share of the table and its rows of the
    outputs, it ends with its rows of each output at the gathered table rows. -/
theorem tile_body (d : Dev nD) (L : grid1.Coords) (O : CellTallies nD τ sig (HIx 1)) (W : Waits sig (HIx 1)) (hO : ∀ g, O g none = 0)
    (q : PosShare TreeShare) (tab : TabC F) (ix : Fin 6 → IxC F) (o : Fin 6 → OutC F) (hix : IxOK ix) :
    iprop(levAts (K (F := F)).L (K (F := F)).lev ∗ emp ∗ tileGo d L q tab ix o
        ∗ scopedBufs (thrL d L) ∗ scopedSems0 (thrL d L) ∗ owes (thrL d L) O W)
      ⊢ wp frame (wpE (defs₀ (F := F)) 𝒱₀ (thrL d L) none) Set.univ
          (cc1__sc_gather_body L tabW (Memref.isWhole_whole _) ixW0 (Memref.isWhole_whole _) ixW1 (Memref.isWhole_whole _) ixW2 (Memref.isWhole_whole _) ixW3 (Memref.isWhole_whole _) ixW4 (Memref.isWhole_whole _) ixW5 (Memref.isWhole_whole _) outW0 (Memref.isWhole_whole _) outW1 (Memref.isWhole_whole _) outW2 (Memref.isWhole_whole _) outW3 (Memref.isWhole_whole _) outW4 (Memref.isWhole_whole _) outW5 (Memref.isWhole_whole _) ixScr (Memref.isWhole_whole _) rowScr (Memref.isWhole_whole _) cc1_scratch2 cc1_scratch3 cc1_scratch4 cc1_scratch5 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29)
          fun _ => iprop(tileTd d L q tab ix ∗ scopedBufs (thrL d L) ∗ scopedSems0 (thrL d L)
            ∗ ∃ W', ⌜∀ p ∈ W', p ∈ W ∨ p.2 = none⌝ ∗ owes (thrL d L) O W') := by
  rw [(K (F := F)).scopedBufs_V facts d ((L 0).castLE hcore1) ((L 1).castLE hsub1),
    SparseCore.Cfg.scopedSems0_V (Val := Elt F) d ((L 0).castLE hcore1) ((L 1).castLE hsub1), ownSems0_task, ownBufs_task]
  unfold tileGo tileTd
  iintro ⟨#Hlv, -, ⟨Htab, ⟨Hi0, Hi1, Hi2, Hi3, Hi4, Hi5⟩, ⟨Ho0_0, Ho0_1, Ho0_2, Ho0_3⟩, ⟨Ho1_0, Ho1_1, Ho1_2, Ho1_3⟩, ⟨Ho2_0, Ho2_1, Ho2_2, Ho2_3⟩, ⟨Ho3_0, Ho3_1, Ho3_2, Ho3_3⟩, ⟨Ho4_0, Ho4_1, Ho4_2, Ho4_3⟩, ⟨Ho5_0, Ho5_1, Ho5_2, Ho5_3⟩⟩,
    ⟨⟨%fs, Hs⟩, ⟨%fr, Hr⟩, Hbufs⟩, ⟨⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, -⟩, Hsems⟩, HO⟩
  ihave Hmw := ((K (F := F)).mayWaits_none (thr := thrL d L) hO) $$ Hlv
  ihave Ht := (tab_toks (F := F) d L q tab).1 $$ Htab
  icases Ht with ⟨Htrest, Ht6, Ht7, Ht8, Ht9, Htlow⟩
  ihave Hs' := (Entails.of_eq (pts_ixScr (F := F) d L fs).symm) $$ Hs
  ihave Hr' := (Entails.of_eq (pts_rowScr (F := F) d L fr).symm) $$ Hr
  sl_unfold [cc1__sc_gather_body]
  -- the six index copies
  sl_exec
  -- every word a gather's offset list will hold names a row of the table
  have hin := fun (g : Buf (Elt F) (ixScr.view.loc (thrL d L))) => hin_of (F := F) hix d L g (tile_body.sl.dma0 L ix) rfl (tile_body.sl.dma0_1 L ix) rfl (tile_body.sl.dma0_2 L ix) rfl (tile_body.sl.dma0_3 L ix) rfl (tile_body.sl.dma0_4 L ix) rfl (tile_body.sl.dma0_5 L ix) rfl
  -- the gathers, their waits and the copy-outs
  sl_exec
  sl_step
  -- what each copy-out moved: its slot, read past the gathers already issued into the other slots, holds the rows
  -- the gather of its own chunk brought
  have hv0_0 : ∀ y, tile_body.sl.dma0_6 d L tab ix fr hin y = View.read (Elt F) (outSlice L outW0 0).view (gathered tab (ix 0)) y := fun y => by
    unfold tile_body.sl.dma0_6
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather0
    exact gatherN_value hix d L tab _ _ rfl _ rfl _ rfl _ rfl _ rfl _ rfl ![0] inb_S3072_S128_0 _ _ 0 0 (by decide) y
  have hv0_1 : ∀ y, tile_body.sl.dma0_7 d L tab ix fr hin y = View.read (Elt F) (outSlice L outW0 1).view (gathered tab (ix 0)) y := fun y => by
    unfold tile_body.sl.dma0_7
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather1
    exact gatherN_value hix d L tab _ _ rfl _ rfl _ rfl _ rfl _ rfl _ rfl ![128] inb_S3072_S128_128 _ _ 0 1 (by decide) y
  have hv0_2 : ∀ y, tile_body.sl.dma0_8 d L tab ix fr hin y = View.read (Elt F) (outSlice L outW0 2).view (gathered tab (ix 0)) y := fun y => by
    unfold tile_body.sl.dma0_8
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather2
    exact gatherN_value hix d L tab _ _ rfl _ rfl _ rfl _ rfl _ rfl _ rfl ![256] inb_S3072_S128_256 _ _ 0 2 (by decide) y
  have hv0_3 : ∀ y, tile_body.sl.dma0_9 d L tab ix fr hin y = View.read (Elt F) (outSlice L outW0 3).view (gathered tab (ix 0)) y := fun y => by
    unfold tile_body.sl.dma0_9
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather3
    exact gatherN_value hix d L tab _ _ rfl _ rfl _ rfl _ rfl _ rfl _ rfl ![384] inb_S3072_S128_384 _ _ 0 3 (by decide) y
  have hv1_0 : ∀ y, tile_body.sl.dma0_10 d L tab ix fr hin y = View.read (Elt F) (outSlice L outW1 0).view (gathered tab (ix 1)) y := fun y => by
    unfold tile_body.sl.dma0_10
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather5
    exact gatherN_value hix d L tab _ _ rfl _ rfl _ rfl _ rfl _ rfl _ rfl ![512] inb_S3072_S128_512 _ _ 1 0 (by decide) y
  have hv1_1 : ∀ y, tile_body.sl.dma0_11 d L tab ix fr hin y = View.read (Elt F) (outSlice L outW1 1).view (gathered tab (ix 1)) y := fun y => by
    unfold tile_body.sl.dma0_11
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather7
    exact gatherN_value hix d L tab _ _ rfl _ rfl _ rfl _ rfl _ rfl _ rfl ![640] inb_S3072_S128_640 _ _ 1 1 (by decide) y
  have hv1_2 : ∀ y, tile_body.sl.dma0_12 d L tab ix fr hin y = View.read (Elt F) (outSlice L outW1 2).view (gathered tab (ix 1)) y := fun y => by
    unfold tile_body.sl.dma0_12
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather9
    exact gatherN_value hix d L tab _ _ rfl _ rfl _ rfl _ rfl _ rfl _ rfl ![768] inb_S3072_S128_768 _ _ 1 2 (by decide) y
  have hv1_3 : ∀ y, tile_body.sl.dma0_13 d L tab ix fr hin y = View.read (Elt F) (outSlice L outW1 3).view (gathered tab (ix 1)) y := fun y => by
    unfold tile_body.sl.dma0_13
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather11
    exact gatherN_value hix d L tab _ _ rfl _ rfl _ rfl _ rfl _ rfl _ rfl ![896] inb_S3072_S128_896 _ _ 1 3 (by decide) y
  have hv2_0 : ∀ y, tile_body.sl.dma0_14 d L tab ix fr hin y = View.read (Elt F) (outSlice L outW2 0).view (gathered tab (ix 2)) y := fun y => by
    unfold tile_body.sl.dma0_14
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather13
    exact gatherN_value hix d L tab _ _ rfl _ rfl _ rfl _ rfl _ rfl _ rfl ![1024] inb_S3072_S128_1024 _ _ 2 0 (by decide) y
  have hv2_1 : ∀ y, tile_body.sl.dma0_15 d L tab ix fr hin y = View.read (Elt F) (outSlice L outW2 1).view (gathered tab (ix 2)) y := fun y => by
    unfold tile_body.sl.dma0_15
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather15
    exact gatherN_value hix d L tab _ _ rfl _ rfl _ rfl _ rfl _ rfl _ rfl ![1152] inb_S3072_S128_1152 _ _ 2 1 (by decide) y
  have hv2_2 : ∀ y, tile_body.sl.dma0_16 d L tab ix fr hin y = View.read (Elt F) (outSlice L outW2 2).view (gathered tab (ix 2)) y := fun y => by
    unfold tile_body.sl.dma0_16
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather17
    exact gatherN_value hix d L tab _ _ rfl _ rfl _ rfl _ rfl _ rfl _ rfl ![1280] inb_S3072_S128_1280 _ _ 2 2 (by decide) y
  have hv2_3 : ∀ y, tile_body.sl.dma0_17 d L tab ix fr hin y = View.read (Elt F) (outSlice L outW2 3).view (gathered tab (ix 2)) y := fun y => by
    unfold tile_body.sl.dma0_17
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather19
    exact gatherN_value hix d L tab _ _ rfl _ rfl _ rfl _ rfl _ rfl _ rfl ![1408] inb_S3072_S128_1408 _ _ 2 3 (by decide) y
  have hv3_0 : ∀ y, tile_body.sl.dma0_18 d L tab ix fr hin y = View.read (Elt F) (outSlice L outW3 0).view (gathered tab (ix 3)) y := fun y => by
    unfold tile_body.sl.dma0_18
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather21
    exact gatherN_value hix d L tab _ _ rfl _ rfl _ rfl _ rfl _ rfl _ rfl ![1536] inb_S3072_S128_1536 _ _ 3 0 (by decide) y
  have hv3_1 : ∀ y, tile_body.sl.dma0_19 d L tab ix fr hin y = View.read (Elt F) (outSlice L outW3 1).view (gathered tab (ix 3)) y := fun y => by
    unfold tile_body.sl.dma0_19
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather23
    exact gatherN_value hix d L tab _ _ rfl _ rfl _ rfl _ rfl _ rfl _ rfl ![1664] inb_S3072_S128_1664 _ _ 3 1 (by decide) y
  have hv3_2 : ∀ y, tile_body.sl.dma0_20 d L tab ix fr hin y = View.read (Elt F) (outSlice L outW3 2).view (gathered tab (ix 3)) y := fun y => by
    unfold tile_body.sl.dma0_20
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather25
    exact gatherN_value hix d L tab _ _ rfl _ rfl _ rfl _ rfl _ rfl _ rfl ![1792] inb_S3072_S128_1792 _ _ 3 2 (by decide) y
  have hv3_3 : ∀ y, tile_body.sl.dma0_21 d L tab ix fr hin y = View.read (Elt F) (outSlice L outW3 3).view (gathered tab (ix 3)) y := fun y => by
    unfold tile_body.sl.dma0_21
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather27
    exact gatherN_value hix d L tab _ _ rfl _ rfl _ rfl _ rfl _ rfl _ rfl ![1920] inb_S3072_S128_1920 _ _ 3 3 (by decide) y
  have hv4_0 : ∀ y, tile_body.sl.dma0_22 d L tab ix fr hin y = View.read (Elt F) (outSlice L outW4 0).view (gathered tab (ix 4)) y := fun y => by
    unfold tile_body.sl.dma0_22
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather29
    exact gatherN_value hix d L tab _ _ rfl _ rfl _ rfl _ rfl _ rfl _ rfl ![2048] inb_S3072_S128_2048 _ _ 4 0 (by decide) y
  have hv4_1 : ∀ y, tile_body.sl.dma0_23 d L tab ix fr hin y = View.read (Elt F) (outSlice L outW4 1).view (gathered tab (ix 4)) y := fun y => by
    unfold tile_body.sl.dma0_23
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather31
    exact gatherN_value hix d L tab _ _ rfl _ rfl _ rfl _ rfl _ rfl _ rfl ![2176] inb_S3072_S128_2176 _ _ 4 1 (by decide) y
  have hv4_2 : ∀ y, tile_body.sl.dma0_24 d L tab ix fr hin y = View.read (Elt F) (outSlice L outW4 2).view (gathered tab (ix 4)) y := fun y => by
    unfold tile_body.sl.dma0_24
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather33
    exact gatherN_value hix d L tab _ _ rfl _ rfl _ rfl _ rfl _ rfl _ rfl ![2304] inb_S3072_S128_2304 _ _ 4 2 (by decide) y
  have hv4_3 : ∀ y, tile_body.sl.dma0_25 d L tab ix fr hin y = View.read (Elt F) (outSlice L outW4 3).view (gathered tab (ix 4)) y := fun y => by
    unfold tile_body.sl.dma0_25
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather35
    exact gatherN_value hix d L tab _ _ rfl _ rfl _ rfl _ rfl _ rfl _ rfl ![2432] inb_S3072_S128_2432 _ _ 4 3 (by decide) y
  have hv5_0 : ∀ y, tile_body.sl.dma0_26 d L tab ix fr hin y = View.read (Elt F) (outSlice L outW5 0).view (gathered tab (ix 5)) y := fun y => by
    unfold tile_body.sl.dma0_26
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather37
    exact gatherN_value hix d L tab _ _ rfl _ rfl _ rfl _ rfl _ rfl _ rfl ![2560] inb_S3072_S128_2560 _ _ 5 0 (by decide) y
  have hv5_1 : ∀ y, tile_body.sl.dma0_27 d L tab ix fr hin y = View.read (Elt F) (outSlice L outW5 1).view (gathered tab (ix 5)) y := fun y => by
    unfold tile_body.sl.dma0_27
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather39
    exact gatherN_value hix d L tab _ _ rfl _ rfl _ rfl _ rfl _ rfl _ rfl ![2688] inb_S3072_S128_2688 _ _ 5 1 (by decide) y
  have hv5_2 : ∀ y, tile_body.sl.dma0_28 d L tab ix fr hin y = View.read (Elt F) (outSlice L outW5 2).view (gathered tab (ix 5)) y := fun y => by
    unfold tile_body.sl.dma0_28
    refine (slot_read_other 2 3 (by decide) _ _ _ _ _ _ _ _ y).trans ?_
    refine (read_write_self _ _ _ y).trans ?_
    unfold tile_body.sl.gather41
    exact gatherN_value hix d L tab _ _ rfl _ rfl _ rfl _ rfl _ rfl _ rfl ![2816] inb_S3072_S128_2816 _ _ 5 2 (by decide) y
  have hv5_3 : ∀ y, tile_body.sl.dma0_29 d L tab ix fr hin y = View.read (Elt F) (outSlice L outW5 3).view (gathered tab (ix 5)) y := fun y => by
    unfold tile_body.sl.dma0_29

    refine (read_write_self _ _ _ y).trans ?_
    unfold tile_body.sl.gather43
    exact gatherN_value hix d L tab _ _ rfl _ rfl _ rfl _ rfl _ rfl _ rfl ![2944] inb_S3072_S128_2944 _ _ 5 3 (by decide) y
  ihave Hq0_0 := (Entails.of_eq (pointsTo_congr (whole_piece_congr (outSlice L outW0 0).view (o 0) (gathered tab (ix 0))
      (tile_body.sl.dma0_6 d L tab ix fr hin) hv0_0))) $$ Ho0_0
  ihave Hq0_1 := (Entails.of_eq (pointsTo_congr (whole_piece_congr (outSlice L outW0 1).view (o 0) (gathered tab (ix 0))
      (tile_body.sl.dma0_7 d L tab ix fr hin) hv0_1))) $$ Ho0_1
  ihave Hq0_2 := (Entails.of_eq (pointsTo_congr (whole_piece_congr (outSlice L outW0 2).view (o 0) (gathered tab (ix 0))
      (tile_body.sl.dma0_8 d L tab ix fr hin) hv0_2))) $$ Ho0_2
  ihave Hq0_3 := (Entails.of_eq (pointsTo_congr (whole_piece_congr (outSlice L outW0 3).view (o 0) (gathered tab (ix 0))
      (tile_body.sl.dma0_9 d L tab ix fr hin) hv0_3))) $$ Ho0_3
  ihave Hq1_0 := (Entails.of_eq (pointsTo_congr (whole_piece_congr (outSlice L outW1 0).view (o 1) (gathered tab (ix 1))
      (tile_body.sl.dma0_10 d L tab ix fr hin) hv1_0))) $$ Ho1_0
  ihave Hq1_1 := (Entails.of_eq (pointsTo_congr (whole_piece_congr (outSlice L outW1 1).view (o 1) (gathered tab (ix 1))
      (tile_body.sl.dma0_11 d L tab ix fr hin) hv1_1))) $$ Ho1_1
  ihave Hq1_2 := (Entails.of_eq (pointsTo_congr (whole_piece_congr (outSlice L outW1 2).view (o 1) (gathered tab (ix 1))
      (tile_body.sl.dma0_12 d L tab ix fr hin) hv1_2))) $$ Ho1_2
  ihave Hq1_3 := (Entails.of_eq (pointsTo_congr (whole_piece_congr (outSlice L outW1 3).view (o 1) (gathered tab (ix 1))
      (tile_body.sl.dma0_13 d L tab ix fr hin) hv1_3))) $$ Ho1_3
  ihave Hq2_0 := (Entails.of_eq (pointsTo_congr (whole_piece_congr (outSlice L outW2 0).view (o 2) (gathered tab (ix 2))
      (tile_body.sl.dma0_14 d L tab ix fr hin) hv2_0))) $$ Ho2_0
  ihave Hq2_1 := (Entails.of_eq (pointsTo_congr (whole_piece_congr (outSlice L outW2 1).view (o 2) (gathered tab (ix 2))
      (tile_body.sl.dma0_15 d L tab ix fr hin) hv2_1))) $$ Ho2_1
  ihave Hq2_2 := (Entails.of_eq (pointsTo_congr (whole_piece_congr (outSlice L outW2 2).view (o 2) (gathered tab (ix 2))
      (tile_body.sl.dma0_16 d L tab ix fr hin) hv2_2))) $$ Ho2_2
  ihave Hq2_3 := (Entails.of_eq (pointsTo_congr (whole_piece_congr (outSlice L outW2 3).view (o 2) (gathered tab (ix 2))
      (tile_body.sl.dma0_17 d L tab ix fr hin) hv2_3))) $$ Ho2_3
  ihave Hq3_0 := (Entails.of_eq (pointsTo_congr (whole_piece_congr (outSlice L outW3 0).view (o 3) (gathered tab (ix 3))
      (tile_body.sl.dma0_18 d L tab ix fr hin) hv3_0))) $$ Ho3_0
  ihave Hq3_1 := (Entails.of_eq (pointsTo_congr (whole_piece_congr (outSlice L outW3 1).view (o 3) (gathered tab (ix 3))
      (tile_body.sl.dma0_19 d L tab ix fr hin) hv3_1))) $$ Ho3_1
  ihave Hq3_2 := (Entails.of_eq (pointsTo_congr (whole_piece_congr (outSlice L outW3 2).view (o 3) (gathered tab (ix 3))
      (tile_body.sl.dma0_20 d L tab ix fr hin) hv3_2))) $$ Ho3_2
  ihave Hq3_3 := (Entails.of_eq (pointsTo_congr (whole_piece_congr (outSlice L outW3 3).view (o 3) (gathered tab (ix 3))
      (tile_body.sl.dma0_21 d L tab ix fr hin) hv3_3))) $$ Ho3_3
  ihave Hq4_0 := (Entails.of_eq (pointsTo_congr (whole_piece_congr (outSlice L outW4 0).view (o 4) (gathered tab (ix 4))
      (tile_body.sl.dma0_22 d L tab ix fr hin) hv4_0))) $$ Ho4_0
  ihave Hq4_1 := (Entails.of_eq (pointsTo_congr (whole_piece_congr (outSlice L outW4 1).view (o 4) (gathered tab (ix 4))
      (tile_body.sl.dma0_23 d L tab ix fr hin) hv4_1))) $$ Ho4_1
  ihave Hq4_2 := (Entails.of_eq (pointsTo_congr (whole_piece_congr (outSlice L outW4 2).view (o 4) (gathered tab (ix 4))
      (tile_body.sl.dma0_24 d L tab ix fr hin) hv4_2))) $$ Ho4_2
  ihave Hq4_3 := (Entails.of_eq (pointsTo_congr (whole_piece_congr (outSlice L outW4 3).view (o 4) (gathered tab (ix 4))
      (tile_body.sl.dma0_25 d L tab ix fr hin) hv4_3))) $$ Ho4_3
  ihave Hq5_0 := (Entails.of_eq (pointsTo_congr (whole_piece_congr (outSlice L outW5 0).view (o 5) (gathered tab (ix 5))
      (tile_body.sl.dma0_26 d L tab ix fr hin) hv5_0))) $$ Ho5_0
  ihave Hq5_1 := (Entails.of_eq (pointsTo_congr (whole_piece_congr (outSlice L outW5 1).view (o 5) (gathered tab (ix 5))
      (tile_body.sl.dma0_27 d L tab ix fr hin) hv5_1))) $$ Ho5_1
  ihave Hq5_2 := (Entails.of_eq (pointsTo_congr (whole_piece_congr (outSlice L outW5 2).view (o 5) (gathered tab (ix 5))
      (tile_body.sl.dma0_28 d L tab ix fr hin) hv5_2))) $$ Ho5_2
  ihave Hq5_3 := (Entails.of_eq (pointsTo_congr (whole_piece_congr (outSlice L outW5 3).view (o 5) (gathered tab (ix 5))
      (tile_body.sl.dma0_29 d L tab ix fr hin) hv5_3))) $$ Ho5_3
  -- the table's share whole again, the index entries, the outputs at the gathered rows
  isplitl [Htrest Ht6 Ht7 Ht8 Ht9 Htlow Hi0 Hi1 Hi2 Hi3 Hi4 Hi5 Hq0_0 Hq0_1 Hq0_2 Hq0_3 Hq1_0 Hq1_1 Hq1_2 Hq1_3 Hq2_0 Hq2_1 Hq2_2 Hq2_3 Hq3_0 Hq3_1 Hq3_2 Hq3_3 Hq4_0 Hq4_1 Hq4_2 Hq4_3 Hq5_0 Hq5_1 Hq5_2 Hq5_3]
  · isplitl [Htrest Ht6 Ht7 Ht8 Ht9 Htlow]
    · iapply (tab_toks (F := F) d L q tab).2
      isplitl [Htrest]; · iexact Htrest
      isplitl [Ht6]; · iexact Ht6
      isplitl [Ht7]; · iexact Ht7
      isplitl [Ht8]; · iexact Ht8
      isplitl [Ht9]; · iexact Ht9
      iexact Htlow
    isplitl [Hi0 Hi1 Hi2 Hi3 Hi4 Hi5]
    · isplitl [Hi0]; · iexact Hi0
      isplitl [Hi1]; · iexact Hi1
      isplitl [Hi2]; · iexact Hi2
      isplitl [Hi3]; · iexact Hi3
      isplitl [Hi4]; · iexact Hi4
      iexact Hi5
    isplitl [Hq0_0 Hq0_1 Hq0_2 Hq0_3]
    · isplitl [Hq0_0]; · iexact Hq0_0
      isplitl [Hq0_1]; · iexact Hq0_1
      isplitl [Hq0_2]; · iexact Hq0_2
      iexact Hq0_3
    isplitl [Hq1_0 Hq1_1 Hq1_2 Hq1_3]
    · isplitl [Hq1_0]; · iexact Hq1_0
      isplitl [Hq1_1]; · iexact Hq1_1
      isplitl [Hq1_2]; · iexact Hq1_2
      iexact Hq1_3
    isplitl [Hq2_0 Hq2_1 Hq2_2 Hq2_3]
    · isplitl [Hq2_0]; · iexact Hq2_0
      isplitl [Hq2_1]; · iexact Hq2_1
      isplitl [Hq2_2]; · iexact Hq2_2
      iexact Hq2_3
    isplitl [Hq3_0 Hq3_1 Hq3_2 Hq3_3]
    · isplitl [Hq3_0]; · iexact Hq3_0
      isplitl [Hq3_1]; · iexact Hq3_1
      isplitl [Hq3_2]; · iexact Hq3_2
      iexact Hq3_3
    isplitl [Hq4_0 Hq4_1 Hq4_2 Hq4_3]
    · isplitl [Hq4_0]; · iexact Hq4_0
      isplitl [Hq4_1]; · iexact Hq4_1
      isplitl [Hq4_2]; · iexact Hq4_2
      iexact Hq4_3
    isplitl [Hq5_0]; · iexact Hq5_0
    isplitl [Hq5_1]; · iexact Hq5_1
    isplitl [Hq5_2]; · iexact Hq5_2
    iexact Hq5_3
  -- the scratch buffers and the semaphores, each back at zero
  isplitl [Hs' Hr' Hbufs]
  · isplitl [Hs']; · iexists _; iexact Hs'
    isplitl [Hr']; · iexists _; iexact Hr'
    iexact Hbufs
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hsems]
  · isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      isplitl [Hc21]; · iexact Hc21
      isplitl [Hc22]; · iexact Hc22
      isplitl [Hc23]; · iexact Hc23
      isplitl [Hc24]; · iexact Hc24
      isplitl [Hc25]; · iexact Hc25
      isplitl [Hc26]; · iexact Hc26
      isplitl [Hc27]; · iexact Hc27
      isplitl [Hc28]; · iexact Hc28
      isplitl [Hc29]; · iexact Hc29
      isplitl [Hc30]; · iexact Hc30
      isplitl [Hc31]; · iexact Hc31
      isplitl [Hc32]; · iexact Hc32
      isplitl [Hc33]; · iexact Hc33
      iempintro
    iexact Hsems
  -- every wait of the task was at the index the launch does not use
  iexists _; isplitr
  rotate_left
  · iexact HO
  · ipureintro
    repeat (refine waits_ins ?_ rfl)
    exact fun p hp => .inl hp

end Cert.KernelIdeal.Tile

end
-- ==== Proof.TileObl.lean ====
/-
  The launch theorem's obligation for the tasks of the gather kernel: whatever table contents the packing region
  left, a task run from its operands ends with its results — the body obligation at that table.
-/
import proofs.«203064_g33122787786777_cont_8to1_b_416_18_alg».proof.Proof.Pay
import proofs.«203064_g33122787786777_cont_8to1_b_416_18_alg».proof.Proof.TileBody

noncomputable section

namespace Cert.KernelIdeal.Tile

open Cert.KernelIdeal Cert.KernelIdeal.Gen Cert.KernelIdeal.Alg
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

theorem defs₀_vector (c : Fin τ.nSC) (s : Fin τ.nSub) :
    defs₀ (F := F) (.scVector c s) 1 ()
      = SparseCore.onTile hcore1 hsub1 (fun c s => cc1__sc_gather_body (Deal.coordsOf c s) tabW (Memref.isWhole_whole _) ixW0 (Memref.isWhole_whole _) ixW1 (Memref.isWhole_whole _) ixW2 (Memref.isWhole_whole _) ixW3 (Memref.isWhole_whole _) ixW4 (Memref.isWhole_whole _) ixW5 (Memref.isWhole_whole _) outW0 (Memref.isWhole_whole _) outW1 (Memref.isWhole_whole _) outW2 (Memref.isWhole_whole _) outW3 (Memref.isWhole_whole _) outW4 (Memref.isWhole_whole _) outW5 (Memref.isWhole_whole _) ixScr (Memref.isWhole_whole _) rowScr (Memref.isWhole_whole _) cc1_scratch2 cc1_scratch3 cc1_scratch4 cc1_scratch5 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29) ⟨⟩ c s := rfl

omit [FloatOps F] in
/-- The task's post as the launch theorem spells it: the results at some table, and the recorded waits at an index the
    call allows. -/
theorem obl_post {thr : Thread nD τ} {A : TabC F → sProp 𝕄} {B C : sProp 𝕄} {O : CellTallies nD τ sig (HIx 1)} {W : Waits sig (HIx 1)} {q : Fin 1}
    (tab : TabC F) :
    iprop(A tab ∗ B ∗ C ∗ ∃ W', ⌜∀ p ∈ W', p ∈ W ∨ p.2 = none⌝ ∗ owes thr O W')
      ⊢ iprop((∃ tab, A tab) ∗ B ∗ C ∗ ∃ W', ⌜∀ p ∈ W', p ∈ W ∨ p.2 = none ∨ p.2 = some q⌝ ∗ owes thr O W') := by
  iintro ⟨HA, HB, HC, %W', %hW', HO⟩
  isplitl [HA]; · iexists tab; iexact HA
  isplitl [HB]; · iexact HB
  isplitl [HC]; · iexact HC
  iexists W'; isplitr
  · ipureintro; exact fun p hp => (hW' p hp).imp_right Or.inl
  · iexact HO

/-- The tasks' obligation at the one SparseCore call. -/
theorem tileObl (m : (ℓ : Loc nD τ sig) → Buf (Elt F) ℓ) (hix : ∀ d, IxOK (Vals.ixOf m d)) :
    (K (F := F)).TileObl (D (F := F)) 𝒱 (PayM.P m) v₀ 0 := by
  intro d c i O W hO _ _
  simp only [show (PayM.P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ emp ∗ PayM.goAt m d (Fin.cast nCore_zero c) (Fin.cast nSub_zero i) ∗ _)
    ⊢ wp _ _ _ _ (fun _ => iprop(PayM.tdAt m d (Fin.cast nCore_zero c) (Fin.cast nSub_zero i) ∗ _))
  unfold PayM.goAt PayM.tdAt
  iintro ⟨#Hlv, Hx, ⟨%tab, Hgo⟩, Hsb, Hss, HO⟩
  iapply ((tile_body d (Deal.coordsOf (Fin.cast nCore_zero c) (Fin.cast nSub_zero i)) O W hO
      (Deal.tok (Fin.cast nCore_zero c) (Fin.cast nSub_zero i)) tab (Vals.ixOf m d) (Vals.outOf m d) (hix d)).trans
    (wp_mono frame _ _ fun _ => obl_post (A := fun tab => tileTd d (Deal.coordsOf (Fin.cast nCore_zero c) (Fin.cast nSub_zero i))
      (Deal.tok (Fin.cast nCore_zero c) (Fin.cast nSub_zero i)) tab (Vals.ixOf m d)) tab)) $$ [Hx Hgo Hsb Hss HO]
  isplitr; · iexact Hlv
  isplitl [Hx]; · iexact Hx
  isplitl [Hgo]; · iexact Hgo
  isplitl [Hsb]; · iexact Hsb
  isplitl [Hss]; · iexact Hss
  iexact HO

end Cert.KernelIdeal.Tile

end
-- ==== Proof.Region0Val.lean ====
/-
  The packing region's result, in the form the program's value proof reads it: whatever the packed array may hold
  after the region, row `r` is the first table's row `r` in columns 0‥63 and, below row 100000, the second table's
  row `r` in columns 64‥127 (both tables as the region finds them, transposed).
-/
import proofs.«203064_g33122787786777_cont_8to1_b_416_18_alg».proof.Proof.Region0

noncomputable section

namespace Cert.KernelIdeal.Region0

open Cert.KernelIdeal Cert.KernelIdeal.Gen Cert.KernelIdeal.Alg
open Idealize.ShloMosaic Idealize.ShloMosaic.TcCoe
open Idealize.ShloMosaic.SparseCore.Cfg (HIx)
open Idealize.SL.Sem
open Idealize.ShloMosaic.Pipeline (RDat)
open Idealize.ShloMosaic.ValueIdx (ix2)

variable {F : FTy → Type} [FloatOps F]
variable (V : (c : Dev nD) → (b : Ref sig .tc) → Buf (Elt F) ((c : Thread nD τ).loc b))
variable (O : Dev nD → CellTallies nD τ sig (HIx 1))
variable (B : Dev nD → Set (SemLoc sig × HIx 1))

theorem tabOK0 (c : Dev nD) (G) (h : (rdat0 V O B c).ArrAt 2 cfg0.N G) : ∀ (r : Fin 100352) (j : Fin 128),
    (∀ hj : j.val < 64, G (ix2 r j) = V c main_v12 (ix2 ⟨j.val, hj⟩ ⟨r.val, by have := r.isLt; omega⟩)) ∧
    (∀ (hj : 64 ≤ j.val) (hr : r.val < 100000), G (ix2 r j) = V c main_v13 (ix2 ⟨j.val - 64, by have := j.isLt; omega⟩ ⟨r.val, hr⟩)) :=
  fun r j => value0 V O B c G h r j

end Cert.KernelIdeal.Region0

end
-- ==== Proof.Region2Val.lean ====
/-
  The dense region's result, in the form the program's value proof reads it: the 1 × 1 result array after the
  region is the ordered fold over the four grid points — the first point's contribution added to zero, the two
  middle points' added in turn, the last point's added and the sum scaled —, each point's contribution a function
  of its nine input blocks; and each input block read at an index is its array read at the block's place: rows
  4096·t ‥ 4096·t + 4095 of a gathered row array, or the whole of a weight block or of the bias row.
-/
import proofs.«203064_g33122787786777_cont_8to1_b_416_18_alg».proof.Proof.Region2

set_option maxRecDepth 16384

noncomputable section

namespace Cert.KernelIdeal.Region2

open Cert.KernelIdeal Cert.KernelIdeal.Gen Cert.KernelIdeal.Alg Cert.KernelIdeal.Region0
open Idealize.ShloMosaic Idealize.ShloMosaic.TcCoe
open Idealize.ShloMosaic.SparseCore.Cfg (HIx)
open Idealize.SL.Sem
open Idealize.ShloMosaic.Pipeline (Dat)
open Idealize.ShloMosaic.ValueIdx (ix2)

variable {F : FTy → Type} [FloatOps F]
variable (V : (c : Dev nD) → (b : Ref sig .tc) → Buf (Elt F) ((c : Thread nD τ).loc b))
variable (O : Dev nD → CellTallies nD τ sig (HIx 1))
variable (B : Dev nD → Set (SemLoc sig × HIx 1))

/-- The result array after the region: the fold over the four points. -/
theorem lossOK2 (c : Dev nD) :
    (dat2 V O B c).arrAt 9 cfg2.N = accC (iblk2 V c 0 t2_3) (iblk2 V c 1 t2_3) (iblk2 V c 2 t2_3) (iblk2 V c 3 t2_3) (iblk2 V c 4 t2_3) (iblk2 V c 5 t2_3) (iblk2 V c 6 t2_3) (iblk2 V c 7 t2_3) (iblk2 V c 8 t2_3)
      (accB (iblk2 V c 0 t2_2) (iblk2 V c 1 t2_2) (iblk2 V c 2 t2_2) (iblk2 V c 3 t2_2) (iblk2 V c 4 t2_2) (iblk2 V c 5 t2_2) (iblk2 V c 6 t2_2) (iblk2 V c 7 t2_2) (iblk2 V c 8 t2_2)
        (accB (iblk2 V c 0 t2_1) (iblk2 V c 1 t2_1) (iblk2 V c 2 t2_1) (iblk2 V c 3 t2_1) (iblk2 V c 4 t2_1) (iblk2 V c 5 t2_1) (iblk2 V c 6 t2_1) (iblk2 V c 7 t2_1) (iblk2 V c 8 t2_1)
          (accA (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0) (iblk2 V c 8 t2_0)))) :=
  (value2 V O B c).trans (result2_eq V c)

/-- The same at the array's one index. -/
theorem lossOK2_apply (c : Dev nD) (i : S1x1.Idx) :
    (dat2 V O B c).arrAt 9 cfg2.N i = accC (iblk2 V c 0 t2_3) (iblk2 V c 1 t2_3) (iblk2 V c 2 t2_3) (iblk2 V c 3 t2_3) (iblk2 V c 4 t2_3) (iblk2 V c 5 t2_3) (iblk2 V c 6 t2_3) (iblk2 V c 7 t2_3) (iblk2 V c 8 t2_3)
      (accB (iblk2 V c 0 t2_2) (iblk2 V c 1 t2_2) (iblk2 V c 2 t2_2) (iblk2 V c 3 t2_2) (iblk2 V c 4 t2_2) (iblk2 V c 5 t2_2) (iblk2 V c 6 t2_2) (iblk2 V c 7 t2_2) (iblk2 V c 8 t2_2)
        (accB (iblk2 V c 0 t2_1) (iblk2 V c 1 t2_1) (iblk2 V c 2 t2_1) (iblk2 V c 3 t2_1) (iblk2 V c 4 t2_1) (iblk2 V c 5 t2_1) (iblk2 V c 6 t2_1) (iblk2 V c 7 t2_1) (iblk2 V c 8 t2_1)
          (accA (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0) (iblk2 V c 8 t2_0)))) i :=
  congrFun (lossOK2 V O B c) i

section Blocks

/-- Row-block window 0's index map, decided over the grid: rows 4096·t ‥, all columns. -/
theorem idx2_0 : ∀ t : Fin cfg2.N, win2_0.index t 0 = t.val ∧ win2_0.index t 1 = 0 :=
  (by decide +kernel : ∀ t : Fin grid2.N, win2_0.index t 0 = t.val ∧ win2_0.index t 1 = 0)
/-- Its block at point `t`, at an index: the array's row 4096·t + p. -/
theorem iblk2_0_apply (c : Dev nD) (t : Fin cfg2.N) (p : Fin 4096) (q : Fin 128) :
    iblk2 V c 0 t (ix2 p q) = V c main_v15_0 (ix2 ⟨4096 * t.val + p.val, by have := lt_of_lt_of_eq t.isLt N2_eq; have := p.isLt; omega⟩ q) := by
  unfold iblk2
  show V c main_v15_0 (((cfg2.win 0).blk t).view.emb _) = _
  refine congrArg (V c main_v15_0) (funext fun a => Fin.ext ?_)
  match a with
  | ⟨0, _⟩ => show win2_0.index t 0 * 4096 + 1 * p.val = 4096 * t.val + p.val; rw [(idx2_0 t).1]; omega
  | ⟨1, _⟩ => show win2_0.index t 1 * 128 + 1 * q.val = q.val; rw [(idx2_0 t).2]; omega

/-- Row-block window 1's index map, decided over the grid: rows 4096·t ‥, all columns. -/
theorem idx2_1 : ∀ t : Fin cfg2.N, win2_1.index t 0 = t.val ∧ win2_1.index t 1 = 0 :=
  (by decide +kernel : ∀ t : Fin grid2.N, win2_1.index t 0 = t.val ∧ win2_1.index t 1 = 0)
/-- Its block at point `t`, at an index: the array's row 4096·t + p. -/
theorem iblk2_1_apply (c : Dev nD) (t : Fin cfg2.N) (p : Fin 4096) (q : Fin 128) :
    iblk2 V c 1 t (ix2 p q) = V c main_v15_1 (ix2 ⟨4096 * t.val + p.val, by have := lt_of_lt_of_eq t.isLt N2_eq; have := p.isLt; omega⟩ q) := by
  unfold iblk2
  show V c main_v15_1 (((cfg2.win 1).blk t).view.emb _) = _
  refine congrArg (V c main_v15_1) (funext fun a => Fin.ext ?_)
  match a with
  | ⟨0, _⟩ => show win2_1.index t 0 * 4096 + 1 * p.val = 4096 * t.val + p.val; rw [(idx2_1 t).1]; omega
  | ⟨1, _⟩ => show win2_1.index t 1 * 128 + 1 * q.val = q.val; rw [(idx2_1 t).2]; omega

/-- Row-block window 2's index map, decided over the grid: rows 4096·t ‥, all columns. -/
theorem idx2_2 : ∀ t : Fin cfg2.N, win2_2.index t 0 = t.val ∧ win2_2.index t 1 = 0 :=
  (by decide +kernel : ∀ t : Fin grid2.N, win2_2.index t 0 = t.val ∧ win2_2.index t 1 = 0)
/-- Its block at point `t`, at an index: the array's row 4096·t + p. -/
theorem iblk2_2_apply (c : Dev nD) (t : Fin cfg2.N) (p : Fin 4096) (q : Fin 128) :
    iblk2 V c 2 t (ix2 p q) = V c main_v15_2 (ix2 ⟨4096 * t.val + p.val, by have := lt_of_lt_of_eq t.isLt N2_eq; have := p.isLt; omega⟩ q) := by
  unfold iblk2
  show V c main_v15_2 (((cfg2.win 2).blk t).view.emb _) = _
  refine congrArg (V c main_v15_2) (funext fun a => Fin.ext ?_)
  match a with
  | ⟨0, _⟩ => show win2_2.index t 0 * 4096 + 1 * p.val = 4096 * t.val + p.val; rw [(idx2_2 t).1]; omega
  | ⟨1, _⟩ => show win2_2.index t 1 * 128 + 1 * q.val = q.val; rw [(idx2_2 t).2]; omega

/-- Row-block window 3's index map, decided over the grid: rows 4096·t ‥, all columns. -/
theorem idx2_3 : ∀ t : Fin cfg2.N, win2_3.index t 0 = t.val ∧ win2_3.index t 1 = 0 :=
  (by decide +kernel : ∀ t : Fin grid2.N, win2_3.index t 0 = t.val ∧ win2_3.index t 1 = 0)
/-- Its block at point `t`, at an index: the array's row 4096·t + p. -/
theorem iblk2_3_apply (c : Dev nD) (t : Fin cfg2.N) (p : Fin 4096) (q : Fin 128) :
    iblk2 V c 3 t (ix2 p q) = V c main_v15_3 (ix2 ⟨4096 * t.val + p.val, by have := lt_of_lt_of_eq t.isLt N2_eq; have := p.isLt; omega⟩ q) := by
  unfold iblk2
  show V c main_v15_3 (((cfg2.win 3).blk t).view.emb _) = _
  refine congrArg (V c main_v15_3) (funext fun a => Fin.ext ?_)
  match a with
  | ⟨0, _⟩ => show win2_3.index t 0 * 4096 + 1 * p.val = 4096 * t.val + p.val; rw [(idx2_3 t).1]; omega
  | ⟨1, _⟩ => show win2_3.index t 1 * 128 + 1 * q.val = q.val; rw [(idx2_3 t).2]; omega

/-- Row-block window 4's index map, decided over the grid: rows 4096·t ‥, all columns. -/
theorem idx2_4 : ∀ t : Fin cfg2.N, win2_4.index t 0 = t.val ∧ win2_4.index t 1 = 0 :=
  (by decide +kernel : ∀ t : Fin grid2.N, win2_4.index t 0 = t.val ∧ win2_4.index t 1 = 0)
/-- Its block at point `t`, at an index: the array's row 4096·t + p. -/
theorem iblk2_4_apply (c : Dev nD) (t : Fin cfg2.N) (p : Fin 4096) (q : Fin 128) :
    iblk2 V c 4 t (ix2 p q) = V c main_v15_4 (ix2 ⟨4096 * t.val + p.val, by have := lt_of_lt_of_eq t.isLt N2_eq; have := p.isLt; omega⟩ q) := by
  unfold iblk2
  show V c main_v15_4 (((cfg2.win 4).blk t).view.emb _) = _
  refine congrArg (V c main_v15_4) (funext fun a => Fin.ext ?_)
  match a with
  | ⟨0, _⟩ => show win2_4.index t 0 * 4096 + 1 * p.val = 4096 * t.val + p.val; rw [(idx2_4 t).1]; omega
  | ⟨1, _⟩ => show win2_4.index t 1 * 128 + 1 * q.val = q.val; rw [(idx2_4 t).2]; omega

/-- Row-block window 5's index map, decided over the grid: rows 4096·t ‥, all columns. -/
theorem idx2_5 : ∀ t : Fin cfg2.N, win2_5.index t 0 = t.val ∧ win2_5.index t 1 = 0 :=
  (by decide +kernel : ∀ t : Fin grid2.N, win2_5.index t 0 = t.val ∧ win2_5.index t 1 = 0)
/-- Its block at point `t`, at an index: the array's row 4096·t + p. -/
theorem iblk2_5_apply (c : Dev nD) (t : Fin cfg2.N) (p : Fin 4096) (q : Fin 128) :
    iblk2 V c 5 t (ix2 p q) = V c main_v15_5 (ix2 ⟨4096 * t.val + p.val, by have := lt_of_lt_of_eq t.isLt N2_eq; have := p.isLt; omega⟩ q) := by
  unfold iblk2
  show V c main_v15_5 (((cfg2.win 5).blk t).view.emb _) = _
  refine congrArg (V c main_v15_5) (funext fun a => Fin.ext ?_)
  match a with
  | ⟨0, _⟩ => show win2_5.index t 0 * 4096 + 1 * p.val = 4096 * t.val + p.val; rw [(idx2_5 t).1]; omega
  | ⟨1, _⟩ => show win2_5.index t 1 * 128 + 1 * q.val = q.val; rw [(idx2_5 t).2]; omega

/-- Window 6's block is its whole array at every point. -/
theorem iblk2_6_eq (c : Dev nD) (t : Fin cfg2.N) : iblk2 V c 6 t = V c main_v17 := by
  have hz' : (fun a => win2_6.index t a * main_v17.ty.shape.size a) = fun _ => 0 := funext fun a => by
    have h := (by decide +kernel : ∀ t : Fin grid2.N, ∀ a, win2_6.index t a = 0) t a
    rw [h]; exact Nat.zero_mul _
  exact Memref.read_access_unit_zero (Elt F) main_v17 hz' (fun a => by rw [congrFun hz' a]; simp) (V c main_v17)

/-- Window 7's block is its whole array at every point. -/
theorem iblk2_7_eq (c : Dev nD) (t : Fin cfg2.N) : iblk2 V c 7 t = V c main_v19 := by
  have hz' : (fun a => win2_7.index t a * main_v19.ty.shape.size a) = fun _ => 0 := funext fun a => by
    have h := (by decide +kernel : ∀ t : Fin grid2.N, ∀ a, win2_7.index t a = 0) t a
    rw [h]; exact Nat.zero_mul _
  exact Memref.read_access_unit_zero (Elt F) main_v19 hz' (fun a => by rw [congrFun hz' a]; simp) (V c main_v19)

/-- Window 8's block is its whole array at every point. -/
theorem iblk2_8_eq (c : Dev nD) (t : Fin cfg2.N) : iblk2 V c 8 t = V c main_v24 := by
  have hz' : (fun a => win2_8.index t a * main_v24.ty.shape.size a) = fun _ => 0 := funext fun a => by
    have h := (by decide +kernel : ∀ t : Fin grid2.N, ∀ a, win2_8.index t a = 0) t a
    rw [h]; exact Nat.zero_mul _
  exact Memref.read_access_unit_zero (Elt F) main_v24 hz' (fun a => by rw [congrFun hz' a]; simp) (V c main_v24)

end Blocks

end Cert.KernelIdeal.Region2

end
-- ==== Proof.Ends.lean ====
/-
  The launch's book-keeping, read off the valuations at the boundaries of @main.  The packed table the first region
  leaves agrees, on every row an index can name, with the table the two embedding tables determine: the region
  writes the transposed tables' columns side by side, and a transposed table at (j, r) is the table at (r, j).  No
  host operation and no region writes an argument's buffer, so at the end each argument holds what the launch memory
  gave it.  The result buffer holds the dense region's 1 × 1 result, recast as a scalar.
-/
import proofs.«203064_g33122787786777_cont_8to1_b_416_18_alg».proof.Proof.Segs
import proofs.«203064_g33122787786777_cont_8to1_b_416_18_alg».proof.Proof.Region0Val
import proofs.«203064_g33122787786777_cont_8to1_b_416_18_alg».proof.Proof.Region2Val
import Idealize.ShloMosaic.Lib.ValueLayout

set_option maxRecDepth 16384

noncomputable section

namespace Cert.KernelIdeal.Ends

open Cert.KernelIdeal Cert.KernelIdeal.Gen Cert.KernelIdeal.Alg Cert.KernelIdeal.Host Cert.KernelIdeal.Vals
open Cert.KernelIdeal.TcState Cert.KernelIdeal.Tile
open Idealize.ShloMosaic Idealize.ShloMosaic.TcCoe
open Idealize.ShloMosaic.SparseCore.Cfg (HIx)
open Idealize.SL.Sem
open Idealize.ShloMosaic.ValueIdx (ix0 ix2 eq_ix2)

variable {F : FTy → Type} [FloatOps F]
variable (m : (ℓ : Loc nD τ sig) → Buf (Elt F) ℓ)

/-! ## The packed table -/

/-- The first table transposed, read at (j, r), is the table at (r, j). -/
theorem v12_apply (d : Dev nD) (j : Fin 64) (r : Fin 1000000) :
    (V1 m d main_v12 : S64x1000000.Idx → Elt F .f32) (ix2 j r) = (V1 m d main_arg2 : S1000000x64.Idx → Elt F .f32) (ix2 r j) := by
  have e : (V1 m d main_v12 : S64x1000000.Idx → Elt F .f32)
      = transpose S64x1000000 [1, 0] (V1 m d main_arg2 : S1000000x64.Idx → Elt F .f32) transposes_S1000000x64_S64x1000000_1_0 := by
    dsimp only [V1, W1, W0, hostOps0]; after_results
  rw [e]
  exact ValueIdx.transpose_ix2_apply _ _ j r

/-- The second table transposed, read at (j, r), is the table at (r, j). -/
theorem v13_apply (d : Dev nD) (j : Fin 64) (r : Fin 100000) :
    (V1 m d main_v13 : S64x100000.Idx → Elt F .f32) (ix2 j r) = (V1 m d main_arg3 : S100000x64.Idx → Elt F .f32) (ix2 r j) := by
  have e : (V1 m d main_v13 : S64x100000.Idx → Elt F .f32)
      = transpose S64x100000 [1, 0] (V1 m d main_arg3 : S100000x64.Idx → Elt F .f32) transposes_S100000x64_S64x100000_1_0 := by
    dsimp only [V1, W1, W0, hostOps0]; after_results
  rw [e]
  exact ValueIdx.transpose_ix2_apply _ _ j r

/-- Whatever the packing region leaves in the packed array agrees with the packed table on every row below 100000. -/
theorem tabOK_of_arrAt (d : Dev nD) (G)
    (h : (Region0.rdat0 (V1 m) (On (F := F) 0) (Bn (F := F) 0) d).ArrAt 2 cfg0.N G) : TabOK m d G := by
  intro y hy
  obtain ⟨r, j, rfl⟩ : ∃ (r : Fin 100352) (j : Fin 128), y = ix2 r j := ⟨y 0, y 1, eq_ix2 y⟩
  have hr : r.val < 100000 := hy
  have key := Region0.tabOK0 (V1 m) (On (F := F) 0) (Bn (F := F) 0) d G h r j
  unfold tabOf
  by_cases hj : j.val < 64
  · rw [dif_pos (show ((ix2 r j : S100352x128.Idx) 1).val < 64 from hj), key.1 hj]
    exact v12_apply m d ⟨j.val, hj⟩ ⟨r.val, _⟩
  · have hj' : 64 ≤ j.val := Nat.le_of_not_lt hj
    rw [dif_neg (show ¬ ((ix2 r j : S100352x128.Idx) 1).val < 64 from hj), key.2 hj' hr, v13_apply]
    refine congrArg (V1 m d main_arg3 : S100000x64.Idx → Elt F .f32) (funext fun a => Fin.ext ?_)
    match a with
    | ⟨0, _⟩ => exact (Nat.mod_eq_of_lt hr).symm
    | ⟨1, _⟩ => rfl

/-! ## The arguments end as launched -/

/-- The six gathered arrays are the only buffers the SparseCore call rewrites. -/
theorem W3_of_ne (c : Dev nD) (b : Ref sig .tc) (h0 : b ≠ main_v15_0) (h1 : b ≠ main_v15_1) (h2 : b ≠ main_v15_2)
    (h3 : b ≠ main_v15_3) (h4 : b ≠ main_v15_4) (h5 : b ≠ main_v15_5) :
    W3 m c (Proc.devRef .tc b) = W1 m c (Proc.devRef .tc b) := by
  unfold W3
  rw [Function.update_of_ne (StableHlo.devRef_ne_of_ne h5), Function.update_of_ne (StableHlo.devRef_ne_of_ne h4),
    Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-- A buffer that no host operation writes, that is none of the dense region's arrays and none of the gathered
    arrays, holds at the end what the launch memory gave it. -/
theorem W6_of_not_written (d : Dev nD) (b : Ref sig .tc)
    (hh2 : ∀ op ∈ (hostOps2 : List (HloOp τ sig (Elt F))), Proc.devRef .tc b ∉ op.writes)
    (hr2 : ∀ w, Pipeline.arrRef spec2 w ≠ b)
    (hh1 : ∀ op ∈ (hostOps1 : List (HloOp τ sig (Elt F))), Proc.devRef .tc b ∉ op.writes)
    (h0 : b ≠ main_v15_0) (h1 : b ≠ main_v15_1) (h2 : b ≠ main_v15_2) (h3 : b ≠ main_v15_3) (h4 : b ≠ main_v15_4) (h5 : b ≠ main_v15_5)
    (hh0 : ∀ op ∈ (hostOps0 : List (HloOp τ sig (Elt F))), Proc.devRef .tc b ∉ op.writes) :
    Segs.W6 m d (Proc.devRef .tc b) = m ((d : Thread nD τ).loc b) :=
  calc Segs.W6 m d (Proc.devRef .tc b)
    _ = Segs.W5 m d (Proc.devRef .tc b) := StableHlo.after_of_forall_not_mem (b := Proc.devRef .tc b) _ _ hh2
    _ = W4 m d (Proc.devRef .tc b) := Segs.W5_of_ne m d b hr2
    _ = W3 m d (Proc.devRef .tc b) := StableHlo.after_of_forall_not_mem (b := Proc.devRef .tc b) _ _ hh1
    _ = W1 m d (Proc.devRef .tc b) := W3_of_ne m d b h0 h1 h2 h3 h4 h5
    _ = W0 m d (Proc.devRef .tc b) := StableHlo.after_of_forall_not_mem (b := Proc.devRef .tc b) _ _ hh0
    _ = m ((d : Thread nD τ).loc b) := rfl

/-- No operation of a host stretch writes the given buffer: decided reference by reference. -/
local macro "not_written" : tactic => `(tactic| (
  refine List.forall_iff_forall_mem.mp ?_
  simp only [hostOps0, hostOps1, hostOps2, List.Forall, StableHlo.unary_writes, StableHlo.binary_writes,
    StableHlo.reshape_writes, Finset.mem_singleton]
  repeat' apply And.intro
  all_goals exact StableHlo.devRef_ne_of_ne (by decide)))

theorem W6_main_arg0 (d : Dev nD) : Segs.W6 m d (Proc.devRef .tc main_arg0) = m ((d : Thread nD τ).loc main_arg0) :=
  W6_of_not_written m d main_arg0 (by not_written) (by decide) (by not_written)
    (by decide) (by decide) (by decide) (by decide) (by decide) (by decide) (by not_written)

theorem W6_main_arg1 (d : Dev nD) : Segs.W6 m d (Proc.devRef .tc main_arg1) = m ((d : Thread nD τ).loc main_arg1) :=
  W6_of_not_written m d main_arg1 (by not_written) (by decide) (by not_written)
    (by decide) (by decide) (by decide) (by decide) (by decide) (by decide) (by not_written)

theorem W6_main_arg2 (d : Dev nD) : Segs.W6 m d (Proc.devRef .tc main_arg2) = m ((d : Thread nD τ).loc main_arg2) :=
  W6_of_not_written m d main_arg2 (by not_written) (by decide) (by not_written)
    (by decide) (by decide) (by decide) (by decide) (by decide) (by decide) (by not_written)

theorem W6_main_arg3 (d : Dev nD) : Segs.W6 m d (Proc.devRef .tc main_arg3) = m ((d : Thread nD τ).loc main_arg3) :=
  W6_of_not_written m d main_arg3 (by not_written) (by decide) (by not_written)
    (by decide) (by decide) (by decide) (by decide) (by decide) (by decide) (by not_written)

theorem W6_main_arg4 (d : Dev nD) : Segs.W6 m d (Proc.devRef .tc main_arg4) = m ((d : Thread nD τ).loc main_arg4) :=
  W6_of_not_written m d main_arg4 (by not_written) (by decide) (by not_written)
    (by decide) (by decide) (by decide) (by decide) (by decide) (by decide) (by not_written)

theorem W6_main_arg5 (d : Dev nD) : Segs.W6 m d (Proc.devRef .tc main_arg5) = m ((d : Thread nD τ).loc main_arg5) :=
  W6_of_not_written m d main_arg5 (by not_written) (by decide) (by not_written)
    (by decide) (by decide) (by decide) (by decide) (by decide) (by decide) (by not_written)

theorem W6_main_arg6 (d : Dev nD) : Segs.W6 m d (Proc.devRef .tc main_arg6) = m ((d : Thread nD τ).loc main_arg6) :=
  W6_of_not_written m d main_arg6 (by not_written) (by decide) (by not_written)
    (by decide) (by decide) (by decide) (by decide) (by decide) (by decide) (by not_written)

/-! ## The result -/

/-- The dense region's result array at the end. -/
theorem W5_result (d : Dev nD) : Segs.W5 m d (Proc.devRef .tc main_v25) = Region2.result2 (V4 m) d :=
  (Segs.W5_arr m d 9).trans (Region2.value2 (V4 m) (On (F := F) 1) (Bn (F := F) 1) d)

/-- The result buffer holds the dense region's 1 × 1 result recast as a scalar. -/
theorem W6_result (d : Dev nD) :
    (Segs.W6 m d (Proc.devRef .tc main_v26) : S_.Idx → Elt F .f32)
      = shapeCast S_ (Region2.result2 (V4 m) d : S1x1.Idx → Elt F .f32) shapeCasts_S1x1_S_ := by
  show StableHlo.after hostOps2 (Segs.W5 m d) (Proc.devRef .tc main_v26) = _
  after_results
  rw [W5_result]
  rfl

/-- Read at the scalar's one index it is the 1 × 1 result's one entry. -/
theorem W6_result_apply (d : Dev nD) :
    (Segs.W6 m d (Proc.devRef .tc main_v26) : S_.Idx → Elt F .f32) ix0
      = (Region2.result2 (V4 m) d : S1x1.Idx → Elt F .f32) (ix2 0 0) := by
  rw [W6_result]
  exact shapeCast_apply _ _ _ _ rfl

end Cert.KernelIdeal.Ends

end
-- ==== Proof.Run.lean ====
/-
  The program's run: the SparseCore launch theorem applied to the tile obligation, the split of a SparseCore's operands
  among its tiles, the launch element, and @main on the TensorCore — the first host stretch and the packing region,
  the SparseCore call, the second host stretch, the dense region and the closing reshape. Every weakly fair execution
  of the device's threads terminates, and every final memory holds, at every unscoped buffer but the packed table,
  the contents the fold through @main names.
-/
import proofs.«203064_g33122787786777_cont_8to1_b_416_18_alg».proof.Proof.Main
import proofs.«203064_g33122787786777_cont_8to1_b_416_18_alg».proof.Proof.Call
import proofs.«203064_g33122787786777_cont_8to1_b_416_18_alg».proof.Proof.TileObl
import proofs.«203064_g33122787786777_cont_8to1_b_416_18_alg».proof.Proof.Ends

set_option maxRecDepth 16384

noncomputable section

namespace Cert.KernelIdeal.Run

open Cert.KernelIdeal Cert.KernelIdeal.Gen Cert.KernelIdeal.Alg Cert.KernelIdeal.Host Cert.KernelIdeal.Vals
open Cert.KernelIdeal.TcState Cert.KernelIdeal.Ghost Cert.KernelIdeal.Segs Cert.KernelIdeal.PayM Cert.KernelIdeal.Tile
open Cert.KernelIdeal.Main Cert.KernelIdeal.Call
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

variable (m : (ℓ : Loc nD τ sig) → Buf (Elt F) ℓ) (ρ : Dev nD → PrngReg)

/-- The two pipelines' ghost state, one by one. -/
theorem ghost_split (d : Dev nD) :
    (G (F := F) d : sProp 𝕄) = iprop(Pipeline.ghostOn (pcfgs (F := F)) adm EP {0} d ∗ Pipeline.ghostOn (pcfgs (F := F)) adm EP {1} d) := by
  unfold G Pipeline.ghostOn Pipeline.PerCore.ghostOn
  rw [show (Finset.univ : Finset (Fin 2)) = insert 0 {1} from by decide, SparseCore.bigSep_insert' (by decide), bigSep_singleton, bigSep_singleton]

/-- The launch contents of the TensorCore's unscoped buffers, as a valuation. -/
theorem unscoped_held (d : Dev nD) :
    (unscopedBufs d (fun b => m ((SparseCore.T d).loc b)) : sProp 𝕄) = StableHlo.held (d : Thread nD τ) (Pipeline.ucRefs τ sig) (W0 m d) :=
  Pipeline.unscopedBufs_held d (W0 m d)

/-- The packing region's exit state, written out. -/
theorem reg0_post (d : Dev nD) :
    ((reg0 m).post d : sProp 𝕄)
      = iprop((∃ W, ⌜P2 m d W⌝ ∗ StableHlo.held (d : Thread nD τ) (Pipeline.ucRefs τ sig) W) ∗ RR (F := F) 0 d) := rfl

/-- What @main leaves the claim: every unscoped buffer but the table at the last boundary's contents. -/
abbrev FIN (d : Dev nD) : sProp 𝕄 := StableHlo.held (d : Thread nD τ) U' (W6 m d)

set_option maxHeartbeats 1000000 in
/-- @main on device d's TensorCore. -/
theorem hmain (hix : ∀ d, IxLt m d) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  rw [main_split]
  unfold SparseCore.Cfg.tcRes
  iintro ⟨#Hctx, Hst, ⟨Hbd, Hub, -, Hpr⟩, Hg⟩
  ihave #Hlev := (SparseCore.Cfg.ctx_levAts (K := K (F := F)) κ) $$ Hctx
  ihave Hst' := (Entails.of_eq (tcSt_eq (F := F) d 0)) $$ Hst
  icases Hst' with ⟨HO, Hrest⟩
  ihave Hg' := (Entails.of_eq (ghost_split (F := F) d)) $$ Hg
  icases Hg' with ⟨Hg0, Hg1⟩
  ihave Hh := (Entails.of_eq (unscoped_held m d)) $$ Hub
  rw [wp_bind]
  iapply (wp_wand_r frame _ Set.univ)
  isplitl [Hbd Hh HO Hpr Hg0]
  · iapply (partA m d)
    isplitl [Hbd]; · iexact Hbd
    isplitl [Hh HO Hpr]
    · isplitl [Hh]; · iexact Hh
      isplitl [Hpr]; · iexists _; iexact Hpr
      iexact HO
    isplitr; · iexact Hlev
    iexact Hg0
  iintro %_ ⟨Hbd, Hpost⟩
  ihave Hpost := (Entails.of_eq (reg0_post m d)) $$ Hpost
  rw [wp_bind]
  iapply (partSC m κ d (hix d) (Ends.tabOK_of_arrAt m d) _) $$ [Hrest Hpost Hbd Hg1]
  isplitr; · iexact Hctx
  isplitl [Hrest]; · iexact Hrest
  isplitl [Hpost]; · iexact Hpost
  iintro ⟨Hrest, Hh, HRT⟩
  iapply (wp_wand_r frame _ Set.univ)
  isplitl [Hbd Hh HRT Hg1]
  · iapply (partB m d)
    isplitl [Hbd]; · iexact Hbd
    isplitl [Hh HRT]
    · isplitl [Hh]; · iexact Hh
      iexact HRT
    isplitr; · iexact Hlev
    iexact Hg1
  iintro %_ ⟨-, Hh, ⟨-, -, HO⟩⟩
  isplitl [HO Hrest]
  · iapply (Entails.of_eq (tcSt_eq (F := F) d 1).symm)
    isplitl [HO]; · iexact HO
    iexact Hrest
  iexact Hh

/-- What the final memory says on device d. -/
def fq (d : Dev nD) (s' : Phys nD τ sig (Elt F)) : Prop := ∀ b ∈ U', s'.mem.mem (d, b) = W6 m d b

theorem hfin (d : Dev nD) (s' : Phys nD τ sig (Elt F)) : iprop(FIN m d ∗ SI s') ⊢ (⌜fq m d s'⌝ : sProp 𝕄) := by
  unfold FIN StableHlo.held
  exact (pointsTo_read_all U' (fun b => (((d : Thread nD τ)).1, b)) (W6 m d) s').trans sep_elim_left

/-- The run's post: on every device, every unscoped buffer but the table at the fold's contents. -/
def QC : PUnit × MemSt nD τ sig (Elt F) → Prop := fun r => ∀ d : Dev nD, ∀ b ∈ U', r.2.mem (d, b) = W6 m d b

/-- The run. -/
theorem run_main (hix : ∀ d, IxLt m d) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m fun d t j => lt_trans (hix d t j) (by decide))
    (fun q _ => match q with | 0 => vecSplit m)
    m ρ main (G (F := F)) (FIN m) (u₀ (F := F)) (sep_elim_left.trans (hu₀ (P m).x fun _ _ => rfl)) (hmain m ρ hix) (fq m) (hfin m) (QC m) (fun _ h => h)

end Cert.KernelIdeal.Run

end
-- ==== Proof.KAlg.lean ====
/-
  The vocabulary shared by the frame proof of the kernel program: the program as the SparseCore launch
  theorem sees it (its label signature, its configuration, the body table), the variants, and the resource algebra —
  three components side by side: the rounds of the launch handshakes, the rounds of the TensorCore pipelines'
  staging cells, and the counters of the tiles' local transfers.
-/
import proofs.«203064_g33122787786777_cont_8to1_b_416_18_alg».proof.Kernel
import proofs.«203064_g33122787786777_cont_8to1_b_416_18_alg».proof.Proof.Gen.Kernel
import Idealize.ShloMosaic.Lib.SparseCore.Launch
import Idealize.ShloMosaic.Lib.Pipeline.Kit
import Idealize.ShloMosaic.Lib.Transfers

noncomputable section

namespace Cert.Kernel.Alg

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The pipelines' staging cells' rounds. -/
abbrev UP : Type := URounds (GSem nD τ sig) Unit
/-- Handshakes, staging cells, and the local transfers' counters. -/
abbrev UU : Type := UH × (UP × Counters)

/-- The machine's algebra at the certificate's choices. -/
abbrev MM (F : FTy → Type) : Type := MT nD τ sig (HIx 1) (Elt F) ℕ UU ℕ

/-- The handshakes' component: the left of the user algebra. -/
def EH : Emb UH (MM F) := embL
/-- The staging cells' component: the left of the right. -/
def EP : Emb UP (MM F) := (Emb.inl : Emb UP (UP × Counters)).trans (embR : Emb (UP × Counters) (MM F))

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

example : CountersIn UU := inferInstance

end Cert.Kernel.Alg

end
-- ==== Proof.KHost.lean ====
/-
  @main of the kernel program cut at its two TensorCore regions and its SparseCore call: the three stretches
  of host operations as lists, and @main as the first stretch and region, the SparseCore call, and the second stretch,
  region and closing reshape — the first and last written in the pipelines' own label signature and lifted.
-/
import proofs.«203064_g33122787786777_cont_8to1_b_416_18_alg».proof.Proof.KAlg
import Idealize.ShloMosaic.Lib.StableHlo.Run
import Idealize.ShloMosaic.Lib.Pipeline.Regions

noncomputable section

namespace Cert.Kernel.Host

open Cert.Kernel Cert.Kernel.Gen Cert.Kernel.Alg
open Idealize.ShloMosaic Idealize.SL.Sem

variable {F : FTy → Type} [FloatOps F]

/-- The host operations before the first region: the six index columns as vectors, the two tables transposed. -/
abbrev hostOps0 : List (HloOp τ sig (Elt F)) := [
    StableHlo.unary main_arg0 main_v0 ((extractStridedSlice S16384x1 ![0, 0] · slices_S16384x3_S16384x1_0_0) : (⟨S16384x3, .i32⟩ : BufTy).Contents (Elt F) → (⟨S16384x1, .i32⟩ : BufTy).Contents (Elt F)),
    StableHlo.reshape main_v0 main_v1 rfl shapeCasts_S16384x1_S16384,
    StableHlo.unary main_arg0 main_v2 ((extractStridedSlice S16384x1 ![0, 1] · slices_S16384x3_S16384x1_0_1) : (⟨S16384x3, .i32⟩ : BufTy).Contents (Elt F) → (⟨S16384x1, .i32⟩ : BufTy).Contents (Elt F)),
    StableHlo.reshape main_v2 main_v3 rfl shapeCasts_S16384x1_S16384,
    StableHlo.unary main_arg0 main_v4 ((extractStridedSlice S16384x1 ![0, 2] · slices_S16384x3_S16384x1_0_2) : (⟨S16384x3, .i32⟩ : BufTy).Contents (Elt F) → (⟨S16384x1, .i32⟩ : BufTy).Contents (Elt F)),
    StableHlo.reshape main_v4 main_v5 rfl shapeCasts_S16384x1_S16384,
    StableHlo.unary main_arg1 main_v6 ((extractStridedSlice S16384x1 ![0, 0] · slices_S16384x3_S16384x1_0_0) : (⟨S16384x3, .i32⟩ : BufTy).Contents (Elt F) → (⟨S16384x1, .i32⟩ : BufTy).Contents (Elt F)),
    StableHlo.reshape main_v6 main_v7 rfl shapeCasts_S16384x1_S16384,
    StableHlo.unary main_arg1 main_v8 ((extractStridedSlice S16384x1 ![0, 1] · slices_S16384x3_S16384x1_0_1) : (⟨S16384x3, .i32⟩ : BufTy).Contents (Elt F) → (⟨S16384x1, .i32⟩ : BufTy).Contents (Elt F)),
    StableHlo.reshape main_v8 main_v9 rfl shapeCasts_S16384x1_S16384,
    StableHlo.unary main_arg1 main_v10 ((extractStridedSlice S16384x1 ![0, 2] · slices_S16384x3_S16384x1_0_2) : (⟨S16384x3, .i32⟩ : BufTy).Contents (Elt F) → (⟨S16384x1, .i32⟩ : BufTy).Contents (Elt F)),
    StableHlo.reshape main_v10 main_v11 rfl shapeCasts_S16384x1_S16384,
    StableHlo.unary main_arg2 main_v12 ((transpose S64x1000000 [1, 0] · transposes_S1000000x64_S64x1000000_1_0) : (⟨S1000000x64, .f32⟩ : BufTy).Contents (Elt F) → (⟨S64x1000000, .f32⟩ : BufTy).Contents (Elt F)),
    StableHlo.unary main_arg3 main_v13 ((transpose S64x100000 [1, 0] · transposes_S100000x64_S64x100000_1_0) : (⟨S100000x64, .f32⟩ : BufTy).Contents (Elt F) → (⟨S64x100000, .f32⟩ : BufTy).Contents (Elt F))]

/-- The host operations between the SparseCore call and the second region: the attention weights' three column
    blocks transposed, the hyperplane's product with the third added to the bias, as one row. -/
abbrev hostOps1 : List (HloOp τ sig (Elt F)) := [
    StableHlo.unary main_arg5 main_v16 ((extractStridedSlice S64x64 ![0, 0] · slices_S64x192_S64x64_0_0) : (⟨S64x192, .f32⟩ : BufTy).Contents (Elt F) → (⟨S64x64, .f32⟩ : BufTy).Contents (Elt F)),
    StableHlo.unary main_v16 main_v17 ((transpose S64x64 [1, 0] · transposes_S64x64_S64x64_1_0) : (⟨S64x64, .f32⟩ : BufTy).Contents (Elt F) → (⟨S64x64, .f32⟩ : BufTy).Contents (Elt F)),
    StableHlo.unary main_arg5 main_v18 ((extractStridedSlice S64x64 ![0, 64] · slices_S64x192_S64x64_0_64) : (⟨S64x192, .f32⟩ : BufTy).Contents (Elt F) → (⟨S64x64, .f32⟩ : BufTy).Contents (Elt F)),
    StableHlo.unary main_v18 main_v19 ((transpose S64x64 [1, 0] · transposes_S64x64_S64x64_1_0) : (⟨S64x64, .f32⟩ : BufTy).Contents (Elt F) → (⟨S64x64, .f32⟩ : BufTy).Contents (Elt F)),
    StableHlo.unary main_arg5 main_v20 ((extractStridedSlice S64x64 ![0, 128] · slices_S64x192_S64x64_0_128) : (⟨S64x192, .f32⟩ : BufTy).Contents (Elt F) → (⟨S64x64, .f32⟩ : BufTy).Contents (Elt F)),
    StableHlo.unary main_v20 main_v21 ((transpose S64x64 [1, 0] · transposes_S64x64_S64x64_1_0) : (⟨S64x64, .f32⟩ : BufTy).Contents (Elt F) → (⟨S64x64, .f32⟩ : BufTy).Contents (Elt F)),
    StableHlo.binary main_arg4 main_v21 main_v22 ((fun l r => Host.dotGeneral dot_S64_S64x64_S64_0_0_n_1_n_n none l r) : (⟨S64, .f32⟩ : BufTy).Contents (Elt F) → (⟨S64x64, .f32⟩ : BufTy).Contents (Elt F) → (⟨S64, .f32⟩ : BufTy).Contents (Elt F)),
    StableHlo.binary main_arg6 main_v22 main_v23 (addf : (⟨S64, .f32⟩ : BufTy).Contents (Elt F) → (⟨S64, .f32⟩ : BufTy).Contents (Elt F) → (⟨S64, .f32⟩ : BufTy).Contents (Elt F)),
    StableHlo.reshape main_v23 main_v24 rfl shapeCasts_S64_S1x64]

/-- The closing reshape of the 1×1 result to a scalar. -/
abbrev hostOps2 : List (HloOp τ sig (Elt F)) := [
    StableHlo.reshape main_v25 main_v26 rfl shapeCasts_S1x1_S_]

/-- Each operation of stretch 0 touches TensorCore references only, -/
theorem hostOps0_sub : (hostOps0 : List (HloOp τ sig (Elt F))).Forall fun op => op.bufs ⊆ StableHlo.tcRefs τ sig := by
  simp only [List.Forall]
  repeat' apply And.intro
  all_goals first | exact StableHlo.unary_bufs_sub .. | exact StableHlo.reshape_bufs_sub .. | exact StableHlo.binary_bufs_sub ..
/-- and none allocates a buffer. -/
theorem hostOps0_fresh : (hostOps0 : List (HloOp τ sig (Elt F))).Forall fun op => op.fresh = ∅ := by
  simp only [List.Forall]; repeat' constructor

/-- Each operation of stretch 1 touches TensorCore references only, -/
theorem hostOps1_sub : (hostOps1 : List (HloOp τ sig (Elt F))).Forall fun op => op.bufs ⊆ StableHlo.tcRefs τ sig := by
  simp only [List.Forall]
  repeat' apply And.intro
  all_goals first | exact StableHlo.unary_bufs_sub .. | exact StableHlo.reshape_bufs_sub .. | exact StableHlo.binary_bufs_sub ..
/-- and none allocates a buffer. -/
theorem hostOps1_fresh : (hostOps1 : List (HloOp τ sig (Elt F))).Forall fun op => op.fresh = ∅ := by
  simp only [List.Forall]; repeat' constructor

/-- Each operation of stretch 2 touches TensorCore references only, -/
theorem hostOps2_sub : (hostOps2 : List (HloOp τ sig (Elt F))).Forall fun op => op.bufs ⊆ StableHlo.tcRefs τ sig := by
  simp only [List.Forall]
  repeat' apply And.intro
  all_goals first | exact StableHlo.unary_bufs_sub .. | exact StableHlo.reshape_bufs_sub .. | exact StableHlo.binary_bufs_sub ..
/-- and none allocates a buffer. -/
theorem hostOps2_fresh : (hostOps2 : List (HloOp τ sig (Elt F))).Forall fun op => op.fresh = ∅ := by
  simp only [List.Forall]; repeat' constructor

/-- The part of @main before the SparseCore call, in the pipelines' signature. -/
abbrev progA : Prog (TpuEff nD τ sig (Elt F) (ΛP (F := F)) .tc) PUnit :=
  StableHlo.seq hostOps0 >>= fun _ => Prog.lift (.customCall (Pipeline.entry 0) ())

/-- The part of @main after the SparseCore call, in the pipelines' signature. -/
abbrev progB : Prog (TpuEff nD τ sig (Elt F) (ΛP (F := F)) .tc) PUnit :=
  StableHlo.seq hostOps1 >>= fun _ => (Prog.lift (.customCall (Pipeline.entry 1) ()) >>= fun _ => StableHlo.seq hostOps2)

/-- @main is the first part lifted, the SparseCore call, the second part lifted. -/
theorem main_split (d : Dev nD) :
    main (F := F) d = (SparseCore.liftProg (progA (F := F)) >>= fun _ => (sc (F := F)).run d 0 >>= fun _ => SparseCore.liftProg (progB (F := F))) := by
  rfl

end Cert.Kernel.Host

end
-- ==== Proof.KTileDefs.lean ====
/-
  The vocabulary of one vector subcore's task in the gather kernel.

  The kernel runs on 2 x 16 vector subcores. The subcore at grid point L (task number 2 * L 1 + L 0,
  base = 512 * task) copies rows [base, base + 512) of six index vectors into its own index scratch, and for
  each index vector t < 6 and each chunk r < 4 gathers the 128 table rows named by entries
  [base + 128 r, base + 128 r + 128) of index vector t into a slot of its row scratch and copies the slot out to
  rows [base + 128 r, base + 128 r + 128) of output t.  So row x of output t ends as row (ix t x) of the table.

  What the subcore is handed: a read share of the whole table, the full share of its own 512 entries of each index
  vector (the slice the program itself addresses), and the full share of its own 4 x 128 rows of each output.
-/
import proofs.«203064_g33122787786777_cont_8to1_b_416_18_alg».proof.Proof.KAlg
import proofs.«203064_g33122787786777_cont_8to1_b_416_18_alg».proof.Proof.Gen.Kernel.Skeleton
import Idealize.ShloMosaic.Lib.SparseCore.Stream
import Idealize.ShloMosaic.Lib.ValueIdx

noncomputable section

namespace Cert.Kernel.Tile

open Cert.Kernel Cert.Kernel.Gen Cert.Kernel.Alg

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.Sem
open Idealize.ShloMosaic.Rounds

variable {F : FTy → Type}

local notation "𝕄" => MM F

/-! ## The thread and the arrays, as the body table passes them -/

/-- The vector subcore at grid point `L` of device `d`. -/
abbrev thrL (d : Dev nD) (L : grid1.Coords) : Thread nD τ := V d ((L 0).castLE hcore1) ((L 1).castLE hsub1)

/-- The packed table. -/
abbrev tabW : Memref sig .scVector .hbm S100352x128 .f32 := Memref.whole main_v14_scv
/-- The six index vectors. -/
abbrev ixW0 : Memref sig .scVector .hbm S16384 .i32 := Memref.whole main_v1_scv
abbrev ixW1 : Memref sig .scVector .hbm S16384 .i32 := Memref.whole main_v3_scv
abbrev ixW2 : Memref sig .scVector .hbm S16384 .i32 := Memref.whole main_v5_scv
abbrev ixW3 : Memref sig .scVector .hbm S16384 .i32 := Memref.whole main_v7_scv
abbrev ixW4 : Memref sig .scVector .hbm S16384 .i32 := Memref.whole main_v9_scv
abbrev ixW5 : Memref sig .scVector .hbm S16384 .i32 := Memref.whole main_v11_scv
/-- The six outputs. -/
abbrev outW0 : Memref sig .scVector .hbm S16384x128 .f32 := Memref.whole main_v15_0_scv
abbrev outW1 : Memref sig .scVector .hbm S16384x128 .f32 := Memref.whole main_v15_1_scv
abbrev outW2 : Memref sig .scVector .hbm S16384x128 .f32 := Memref.whole main_v15_2_scv
abbrev outW3 : Memref sig .scVector .hbm S16384x128 .f32 := Memref.whole main_v15_3_scv
abbrev outW4 : Memref sig .scVector .hbm S16384x128 .f32 := Memref.whole main_v15_4_scv
abbrev outW5 : Memref sig .scVector .hbm S16384x128 .f32 := Memref.whole main_v15_5_scv
/-- The subcore's index scratch (6 x 512 words) and row scratch (4 slots of 128 rows). -/
abbrev ixScr : Memref sig .scVector .vmem S3072 .i32 := Memref.whole cc1_scratch0
abbrev rowScr : Memref sig .scVector .vmem S4x128x128 .f32 := Memref.whole cc1_scratch1

/-- Contents of the table, of an index vector, of an output. -/
abbrev TabC (F : FTy → Type) : Type := S100352x128.Idx → Elt F .f32
abbrev IxC (F : FTy → Type) : Type := S16384.Idx → Elt F .i32
abbrev OutC (F : FTy → Type) : Type := S16384x128.Idx → Elt F .f32

/-- Entries [base, base + 512) of an index vector, as the program slices it. -/
abbrev ixSlice (L : grid1.Coords) (b : Memref sig .scVector .hbm S16384 .i32) : Memref sig .scVector .hbm S512 .i32 :=
  b.slice (Rect.unit (s := S16384) (k1_off1 L) S512.size (k1_off1_inb L)) (fun _ => rfl)

/-- Rows [base + 128 r, base + 128 r + 128) of an output, as the program slices it. -/
abbrev outSlice (L : grid1.Coords) (b : Memref sig .scVector .hbm S16384x128 .f32) (r : Fin 4) : Memref sig .scVector .hbm S128x128 .f32 :=
  b.slice (Rect.unit (s := S16384x128) (k1_off2 L (BitVec.ofNat 32 (128 * r.val))) S128x128.size (k1_off2_inb L r)) (fun _ => rfl)

/-! ## What the task is handed and what it hands back -/

/-- The subcore's 512 entries of index vector `b`, outright, at contents `f`. -/
abbrev ixPts (d : Dev nD) (L : grid1.Coords) (b : Memref sig .scVector .hbm S16384 .i32) (f : Buf (Elt F) ((ixSlice L b).view.loc (thrL d L))) : sProp 𝕄 :=
  (ixSlice L b).view.loc (thrL d L) ↦[(ixSlice L b).view.set]{fullShare} f

/-- Chunk `r` of the subcore's rows of output `b`, outright, at contents `f`. -/
abbrev outPts (d : Dev nD) (L : grid1.Coords) (b : Memref sig .scVector .hbm S16384x128 .f32) (r : Fin 4) (f : Buf (Elt F) (b.view.loc (thrL d L))) : sProp 𝕄 :=
  (outSlice L b r).view.loc (thrL d L) ↦[(outSlice L b r).view.set]{fullShare} f

/-- The subcore's four chunks of output `b`. -/
abbrev outPts4 (d : Dev nD) (L : grid1.Coords) (b : Memref sig .scVector .hbm S16384x128 .f32) (f : Buf (Elt F) (b.view.loc (thrL d L))) : sProp 𝕄 :=
  iprop(outPts d L b 0 f ∗ outPts d L b 1 f ∗ outPts d L b 2 f ∗ outPts d L b 3 f)

/-- The table row an index word names (the word's value; reduced into range so that the function is total). -/
def rowOf (w : BitVec 32) : Fin 100352 := ⟨w.toNat % 100352, Nat.mod_lt _ (by decide)⟩

/-- What an output ends as: row `x` is row `ixv x` of the table. -/
def gathered (tab : TabC F) (ixv : IxC F) : OutC F := fun x =>
  tab (ValueIdx.ix2 (n0 := 100352) (n1 := 128) (rowOf (ixv (ValueIdx.ix1 (n := 16384) (x 0)))) (x 1))

/-- Every index word names a row of the (padded) table. -/
def IxOK (ix : Fin 6 → IxC F) : Prop := ∀ t j, (ix t j).toNat < 100352

/-- What the task starts from: a read share `q` of the whole table at `tab`, its entries of the six index vectors
    at `ix`, its rows of the six outputs at `o`. -/
def tileGo (d : Dev nD) (L : grid1.Coords) (q : PosShare TreeShare) (tab : TabC F) (ix : Fin 6 → IxC F) (o : Fin 6 → OutC F) : sProp 𝕄 :=
  iprop((tabW.view.loc (thrL d L) ↦{q} tab)
    ∗ (ixPts d L ixW0 (ix 0) ∗ ixPts d L ixW1 (ix 1) ∗ ixPts d L ixW2 (ix 2) ∗ ixPts d L ixW3 (ix 3) ∗ ixPts d L ixW4 (ix 4) ∗ ixPts d L ixW5 (ix 5))
    ∗ (outPts4 d L outW0 (o 0) ∗ outPts4 d L outW1 (o 1) ∗ outPts4 d L outW2 (o 2) ∗ outPts4 d L outW3 (o 3) ∗ outPts4 d L outW4 (o 4) ∗ outPts4 d L outW5 (o 5)))

/-- What the task ends with: the table's share and the index entries back, its rows of output `t` at the gathered
    rows. -/
def tileTd (d : Dev nD) (L : grid1.Coords) (q : PosShare TreeShare) (tab : TabC F) (ix : Fin 6 → IxC F) : sProp 𝕄 :=
  iprop((tabW.view.loc (thrL d L) ↦{q} tab)
    ∗ (ixPts d L ixW0 (ix 0) ∗ ixPts d L ixW1 (ix 1) ∗ ixPts d L ixW2 (ix 2) ∗ ixPts d L ixW3 (ix 3) ∗ ixPts d L ixW4 (ix 4) ∗ ixPts d L ixW5 (ix 5))
    ∗ (outPts4 d L outW0 (gathered tab (ix 0)) ∗ outPts4 d L outW1 (gathered tab (ix 1)) ∗ outPts4 d L outW2 (gathered tab (ix 2))
      ∗ outPts4 d L outW3 (gathered tab (ix 3)) ∗ outPts4 d L outW4 (gathered tab (ix 4)) ∗ outPts4 d L outW5 (gathered tab (ix 5))))

end Cert.Kernel.Tile

end
-- ==== Proof.KVals.lean ====
/-
  What the TensorCore's HBM buffers hold at each boundary of @main, as functions of the launch memory: after the
  first host stretch (the index columns as vectors, the two tables transposed); the packed table as the two embedding
  tables determine it on every row an index can name; the six gathered arrays the SparseCore call leaves; after the
  second host stretch (the attention weights' blocks transposed, the folded bias row).
-/
import proofs.«203064_g33122787786777_cont_8to1_b_416_18_alg».proof.Proof.KHost
import proofs.«203064_g33122787786777_cont_8to1_b_416_18_alg».proof.Proof.KTileDefs
import Idealize.ShloMosaic.Lib.ValueIdx

noncomputable section

namespace Cert.Kernel.Vals

open Cert.Kernel Cert.Kernel.Gen Cert.Kernel.Alg Cert.Kernel.Host Cert.Kernel.Tile
open Idealize.ShloMosaic Idealize.ShloMosaic.TcCoe Idealize.SL.Sem

variable {F : FTy → Type} [FloatOps F]
variable (m : (ℓ : Loc nD τ sig) → Buf (Elt F) ℓ)

/-- Device c's buffers at launch. -/
abbrev W0 (c : Dev nD) : Valuation τ sig (Elt F) := fun b => m (c, b)
/-- After the first host stretch: the first region's entry. -/
abbrev W1 (c : Dev nD) : Valuation τ sig (Elt F) := StableHlo.after hostOps0 (W0 m c)
/-- The same read at the TensorCore's references. -/
abbrev V1 : (c : Dev nD) → (b : Ref sig .tc) → Buf (Elt F) ((c : Thread nD τ).loc b) := fun c b => W1 m c b

/-- The six index vectors: heads, relations, tails of the positive and of the negative triplets. -/
def ixOf (c : Dev nD) : Fin 6 → IxC F := fun t => match t with
  | 0 => V1 m c main_v1 | 1 => V1 m c main_v3 | 2 => V1 m c main_v5
  | 3 => V1 m c main_v7 | 4 => V1 m c main_v9 | 5 => V1 m c main_v11

/-- The six output arrays as the SparseCore call finds them. -/
def outOf (c : Dev nD) : Fin 6 → OutC F := fun t => match t with
  | 0 => V1 m c main_v15_0 | 1 => V1 m c main_v15_1 | 2 => V1 m c main_v15_2
  | 3 => V1 m c main_v15_3 | 4 => V1 m c main_v15_4 | 5 => V1 m c main_v15_5

/-- The packed table on the rows below 100000: entity row r in columns 0..63, relation row r in columns 64..127. (On
    the rows from 100000 on, which no index names, the relation half is read modulo 100000: a value is needed, none is used.) -/
def tabOf (c : Dev nD) : TabC F := fun y =>
  if h : (y 1).val < 64 then
    (V1 m c main_arg2 : S1000000x64.Idx → Elt F .f32)
      (ValueIdx.ix2 (n0 := 1000000) (n1 := 64) ⟨(y 0).val, lt_of_lt_of_le (y 0).isLt (by decide)⟩ ⟨(y 1).val, h⟩)
  else
    (V1 m c main_arg3 : S100000x64.Idx → Elt F .f32)
      (ValueIdx.ix2 (n0 := 100000) (n1 := 64) ⟨(y 0).val % 100000, Nat.mod_lt _ (by decide)⟩
        ⟨(y 1).val - 64, by have := (y 1).isLt; change (y 1).val < 128 at this; omega⟩)

/-- A table's contents agree with the packed table on every row below 100000. -/
def TabOK (c : Dev nD) (tab : TabC F) : Prop := ∀ y : S100352x128.Idx, (y 0).val < 100000 → tab y = tabOf m c y

/-- Every index of the six vectors is below 100000. -/
def IxLt (c : Dev nD) : Prop := ∀ t j, (ixOf m c t j).toNat < 100000

/-- Rows gathered at indices below 100000 read a table only where the packed table pins it. -/
theorem gathered_of_tabOK (c : Dev nD) (tab : TabC F) (h : TabOK m c tab) (hix : IxLt m c) (t : Fin 6) :
    gathered tab (ixOf m c t) = gathered (tabOf m c) (ixOf m c t) := by
  funext x
  unfold gathered
  refine h _ ?_
  show (rowOf (ixOf m c t (ValueIdx.ix1 (x 0)))).val < 100000
  unfold rowOf
  have := hix t (ValueIdx.ix1 (x 0))
  show (ixOf m c t (ValueIdx.ix1 (x 0))).toNat % 100352 < 100000
  rw [Nat.mod_eq_of_lt (by omega)]; exact this

/-- The gathered arrays as the arguments determine them. -/
def gOf (c : Dev nD) (t : Fin 6) : OutC F := gathered (tabOf m c) (ixOf m c t)

/-- After the SparseCore call: the six output arrays at the gathered rows, every other buffer as the first region's
    entry found it (the packed table is tracked apart). -/
def W3 (c : Dev nD) : Valuation τ sig (Elt F) :=
  Function.update (Function.update (Function.update (Function.update (Function.update (Function.update (W1 m c)
    (Proc.devRef .tc main_v15_0) (gOf m c 0)) (Proc.devRef .tc main_v15_1) (gOf m c 1)) (Proc.devRef .tc main_v15_2) (gOf m c 2))
    (Proc.devRef .tc main_v15_3) (gOf m c 3)) (Proc.devRef .tc main_v15_4) (gOf m c 4)) (Proc.devRef .tc main_v15_5) (gOf m c 5)

/-- After the second host stretch: the second region's entry. -/
abbrev W4 (c : Dev nD) : Valuation τ sig (Elt F) := StableHlo.after hostOps1 (W3 m c)
abbrev V4 : (c : Dev nD) → (b : Ref sig .tc) → Buf (Elt F) ((c : Thread nD τ).loc b) := fun c b => W4 m c b

end Cert.Kernel.Vals

end
-- ==== Proof.KTcState.lean ====
/-
  The TensorCore's thread state between the segments of @main inside the SparseCore launch: beside its unscoped
  buffers, the generator register and what it owes the launch handshakes before call n — a unit of start to every
  SparseCore of every later call —, with the pairs its waits recorded kept at or below level 8n. A pipeline region is
  entered owing those units: its staging cells' waits, at index none, sit at level 0, below all of them.
-/
import proofs.«203064_g33122787786777_cont_8to1_b_416_18_alg».proof.Proof.KAlg
import proofs.«203064_g33122787786777_cont_8to1_b_416_18_alg».proof.Proof.Gen.Kernel.Launch
import Idealize.ShloMosaic.Lib.Pipeline.Regions

noncomputable section

namespace Cert.Kernel.TcState

open Cert.Kernel Cert.Kernel.Gen Cert.Kernel.Alg
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- What the TensorCore of c owes before call n. -/
abbrev On (n : ℕ) (c : Dev nD) : CellTallies nD τ sig (HIx 1) := (K (F := F)).Otc c n

/-- The pairs at or below level 8n on the TensorCore of c. -/
def Bn (n : ℕ) (c : Dev nD) : Set (SemLoc sig × HIx 1) := {p | (K (F := F)).lev (T c, p.1) p.2 ≤ 8 * n}

/-- Nothing is owed at index none: every unit owed sits at a call's level. -/
theorem On_none (n : ℕ) (c : Dev nD) (g : GSem nD τ sig) : On (F := F) n c g none = 0 := by
  by_contra h
  have := SparseCore.Cfg.lev_of_Otc_pos (K := K (F := F)) (Nat.pos_of_ne_zero h)
  rw [SparseCore.Cfg.lev_none] at this; omega

/-- The owing part of the TensorCore's handshake state before call n. -/
abbrev owesN (n : ℕ) (c : Dev nD) : sProp 𝕄 :=
  iprop(∃ W, ⌜(K (F := F)).WBelow (T c) W (8 * n)⌝ ∗ owes (T c) (On (F := F) n c) W)

/-- Entering a pipeline: the recorded pairs lie within the bound the proof data state. -/
theorem owes_enter (n : ℕ) (c : Dev nD) (cfg : Pipeline.Cfg sig Λ₀) :
    owesN (F := F) n c ⊢ (Pipeline.owesWithin c (On (F := F) n c) (Bn (F := F) n c ∪ cfg.waitPairs none) : sProp 𝕄) := by
  iintro ⟨%W, %hW, HO⟩
  iexists W; isplitr
  · ipureintro; intro p hp; exact Or.inl (hW p (Finset.mem_coe.mp hp))
  · iexact HO

/-- Leaving it: the pipeline's own waits recorded pairs at index none, which sit at level 0. -/
theorem owes_leave (n : ℕ) (c : Dev nD) (cfg : Pipeline.Cfg sig Λ₀) :
    (Pipeline.owesWithin c (On (F := F) n c) (Bn (F := F) n c ∪ cfg.waitPairs none) : sProp 𝕄) ⊢ owesN (F := F) n c := by
  iintro ⟨%W, %hW, HO⟩
  iexists W; isplitr
  · ipureintro; intro p hp
    rcases hW (Finset.mem_coe.mpr hp) with h | ⟨w, s, rfl⟩
    · exact h
    · show (K (F := F)).lev _ none ≤ _
      rw [SparseCore.Cfg.lev_none]; exact Nat.zero_le _
  · iexact HO

/-- A pipeline's staging-cell waits are admissible under what the TensorCore owes the handshakes. -/
theorem mayWait_stage (n : ℕ) (c : Dev nD) (sm : SemLoc sig) :
    (levAts (K (F := F)).L (K (F := F)).lev : sProp 𝕄) ⊢ MayWait (T c) sm none (On (F := F) n c) :=
  (K (F := F)).mayWait_none sm (On_none n c)

end Cert.Kernel.TcState

end
-- ==== Proof.KGhost.lean ====
/-
  The launch element of the frame proof's ghost state: the launch handshakes' rounds, the two TensorCore pipelines'
  staging cells' rounds funded per device, and the transfers' counters (dropped: the tiles' local copies need no
  schedule). Nothing of the kernels' own is dealt at the launch.
-/
import proofs.«203064_g33122787786777_cont_8to1_b_416_18_alg».proof.Proof.KAlg
import proofs.«203064_g33122787786777_cont_8to1_b_416_18_alg».proof.Proof.Gen.Kernel.Launch
import Idealize.ShloMosaic.Lib.Pipeline.Regions

noncomputable section

namespace Cert.Kernel.Ghost

open Cert.Kernel Cert.Kernel.Gen Cert.Kernel.Alg
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-- No pipeline has a prefetched table. -/
abbrev adm : (p : Fin 2) → (pcfgs (F := F) p).Adm := fun p => (cfgs p).toPCfg_adm

/-- The launch element: the handshakes' cells and tokens, the staging cells' and theirs, the counters at their unit. -/
def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj), 1))

/-- What @main's proof on device d starts from beside the handshakes: both pipelines' staging-cell ghost state. -/
abbrev G (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

/-- The staging cells' component, spelt as the injections compose, is the certificate's embedding of it. -/
theorem own_EP (x : UP) :
    (BI.own (((Emb.inl : Emb UP (UP × Counters)).trans (embR : Emb (UP × Counters) (MM F))) x) : sProp 𝕄) ⊢ BI.own (EP x) :=
  Entails.of_eq rfl

/-- The element splits into the handshakes' rounds and the pipelines'; the latter fund every device's staging cells. -/
theorem hu₀ (x : Fin 1 → Thread nD τ → sProp 𝕄) (hx : ∀ q thr, x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => x q thr) := by
  have h1 : (ownU (u₀ (F := F)) : sProp 𝕄)
      ⊢ iprop(BI.own (EH (initOf (K (F := F)).hsCells (K (F := F)).hsToks))
          ∗ BI.own (EP (initOf (Pipeline.cells (nD := nD) (τ := τ) (Pipeline.pin (pcfgs (F := F)) adm) cellOf_inj) (Pipeline.launchToks (nD := nD) (τ := τ) (Pipeline.pin (pcfgs (F := F)) adm) cellOf_inj)))) := by
    unfold u₀
    refine (ownU_pair _ _).trans (sep_mono (Entails.of_eq rfl) ?_)
    exact (own_pair_emb (embR : Emb (UP × Counters) (MM F)) _ _).trans (sep_elim_left.trans (own_EP _))
  iintro Hu
  ihave H := h1 $$ Hu
  icases H with ⟨HH, HP2⟩
  imod (Pipeline.fund_ghost (Pipeline.pin (pcfgs (F := F)) adm) EP cellOf_inj) $$ HP2 with ⟨Hg, Ht⟩
  imodintro
  isplitl [HH]; · iexact HH
  isplitl [Hg Ht]
  · unfold G Pipeline.ghostOn Pipeline.PerCore.ghostOn
    simp only [bigSep_sep']
    isplitl [Hg] <;> iassumption
  rw [show (bigSep Finset.univ fun thr : Thread nD τ => bigSep Finset.univ fun q : Fin 1 => x q thr) = (iprop(emp) : sProp 𝕄) from by
    rw [bigSep_congr fun thr _ => (bigSep_congr fun q _ => hx q thr).trans (bigSep_emp' _), bigSep_emp']]
  iempintro

end Cert.Kernel.Ghost

end
-- ==== Proof.KRegion0.lean ====
/-
  The first TensorCore region: the kernel call that packs the two transposed tables into one array of 100352 rows
  of 128 columns. Its grid has 49 points; at point `t` the body reads the block of columns 2048·t ‥ 2048·t + 2047 of
  each transposed table (64 rows) and writes rows 2048·t ‥ 2048·t + 2047 of the result: the transpose of the first
  block in columns 0‥63, the transpose of the second in columns 64‥127.

  The second table has 100000 columns, so its last block overhangs it by 352 columns: the fetch there fills only
  the 1696 columns inside the array, and the rest of the staging buffer holds contents nothing names. The body
  transposes the whole buffer, so rows 100000‥100351 of the result's right half are not a function of the
  arguments. The proof data are therefore relational: what the body leaves in the result's staging buffer is the
  transposes of SOME two fetched buffers. Everything is stated at any float instance, at a parameter `V` for the
  TensorCore's buffer contents when the region is entered, a parameter `O` for what the TensorCore owes through
  the region, and a parameter `B` bounding the pairs its waits recorded before it.
-/
import proofs.«203064_g33122787786777_cont_8to1_b_416_18_alg».proof.Proof.KAlg
import proofs.«203064_g33122787786777_cont_8to1_b_416_18_alg».proof.Proof.Gen.Kernel.Launch
import proofs.«203064_g33122787786777_cont_8to1_b_416_18_alg».proof.Proof.Gen.Kernel.Skeleton
import proofs.«203064_g33122787786777_cont_8to1_b_416_18_alg».proof.Proof.Gen.Kernel.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Region0

open Cert.Kernel Cert.Kernel.Gen Cert.Kernel.Alg
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.ValueIdx (ix2 eq_ix2)

variable {F : FTy → Type} [FloatOps F]

local notation "𝕄" => MM F

/-- The invariant a TensorCore region keeps through its grid: the core's scoped buffers that are no staging buffer
    of the region's windows, each at some contents, and the generator register at some state. -/
def Φreg {gr W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

section Region
variable (V : (c : Dev nD) → (b : Ref sig .tc) → Buf (Elt F) ((c : Thread nD τ).loc b))
variable (O : Dev nD → CellTallies nD τ sig (HIx 1))
variable (B : Dev nD → Set (SemLoc sig × HIx 1))

/-! ## The windows' blocks -/

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What an input's staging buffer holds once the fetch at point `t` has landed, if it held `d`: the block on the
    part inside the array, `d` past the array's end (only the second input's last block has such a part). -/
def fblk0 (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk0 V c w t)

/-! ## The body's accesses -/

abbrev rIn : Rect S64x2048 := Rect.unit (s := S64x2048) ![0, 0] S64x2048.size inb_S64x2048_S64x2048_0_0
abbrev rLeft : Rect S2048x128 := Rect.unit (s := S2048x128) ![0, 0] S2048x64.size inb_S2048x128_S2048x64_0_0
abbrev rRight : Rect S2048x128 := Rect.unit (s := S2048x128) ![0, 64] S2048x64.size inb_S2048x128_S2048x64_0_64

/-! ## What the body leaves in the output's buffer -/

/-- What the body leaves in the output's staging buffer, from the contents of the two inputs' staging buffers:
    the transpose of the first in columns 0‥63, the transpose of the second in columns 64‥127 (the two stores
    as pieces, the later first). -/
def out0_2 (x0 x1 : Vec F S64x2048 .f32) : Vec F S2048x128 .f32 :=
  View.canon [⟨rRight, k0_pay2 (View.ld x1 rIn)⟩, ⟨rLeft, k0_pay1 (View.ld x0 rIn)⟩]

/-- The two stores tile the buffer, so they cover it. -/
theorem cover0_2 (p0 p1 : Vec F S2048x64 .f32) (y : S2048x128.Idx) :
    ∃ pc ∈ ([⟨rRight, p1⟩, ⟨rLeft, p0⟩] : List (View.Piece (Elt F) S2048x128 .f32)), y ∈ pc.1.set :=
  View.cover_of_tiled [⟨rRight, p1⟩, ⟨rLeft, p0⟩] S2048x64.size (by rfl) y

/-! ## The body's triple -/

set_option maxHeartbeats 1000000 in
/-- The body on whole staging memrefs, the inputs' at read contents `x0`, `x1` and the output's at anything, runs
    to the continuation holding the inputs' as they were and the output's at `out0_2 x0 x1`. -/
theorem sound_kernel0 (c : Dev nD) (E : Set ℕ) (i : grid0.Coords) (arg1 : Memref sig .tc .vmem S64x2048 .f32) (harg1 : arg1.IsWhole)
    (arg2 : Memref sig .tc .vmem S64x2048 .f32) (harg2 : arg2.IsWhole) (arg3 : Memref sig .tc .vmem S2048x128 .f32) (harg3 : arg3.IsWhole)
    (x0 x1 : Vec F S64x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__pack_body i arg1 harg1 arg2 harg2 arg3 harg3) K := by
  simp only [cc0__pack_body_eq_skeleton]; unfold cc0__pack_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The proof data of the packing pipeline on core `c`, relational: the arrays as the region finds them; the body
    leaves each input's buffer as it found it, and the output's at `out0_2` of two fetched input buffers — the
    blocks on their parts inside the arrays, contents nothing names past the arrays' ends —; the invariant the
    scoped rest and the generator register; full shares; the core owes `O c` throughout, its recorded pairs within
    `B c` and the loop's own. -/
def rdat0 (c : Dev nD) : RDat τ (Elt F) (HIx 1) ℕ UU ℕ cfg0 c where
  A w := V c (Pipeline.arrRef spec0 w)
  after w t := match w with
    | ⟨0, _⟩ => fun Y X => X = Y
    | ⟨1, _⟩ => fun Y X => X = Y
    | ⟨2, _⟩ => fun _ X => ∃ d0 d1, X = out0_2 (fblk0 V c 0 t d0) (fblk0 V c 1 t d1)
  Φ _ := Φreg spec0 c
  q _ := fullShare
  owed _ := O c
  recorded _ := B c

/-- The proof data's arrays are the region-entry contents. -/
theorem A_eq0 (c : Dev nD) (w : Fin cfg0.W) : (rdat0 V O B c).A w = V c (Pipeline.arrRef spec0 w) := by
  dsimp only [rdat0]

/-- The relations, window by window. -/
theorem after0_0 (c : Dev nD) (t : Fin cfg0.N) (Y X) : (rdat0 V O B c).after 0 t Y X = (X = Y) := by dsimp only [rdat0]
theorem after0_1 (c : Dev nD) (t : Fin cfg0.N) (Y X) : (rdat0 V O B c).after 1 t Y X = (X = Y) := by dsimp only [rdat0]
theorem after0_2 (c : Dev nD) (t : Fin cfg0.N) (Y X) :
    (rdat0 V O B c).after 2 t Y X = ∃ d0 d1, X = out0_2 (fblk0 V c 0 t d0) (fblk0 V c 1 t d1) := by dsimp only [rdat0]

/-- What a fetch leaves in an input's buffer, in the proof data's words, is `fblk0`. -/
theorem fetched0 (c : Dev nD) (w : Fin cfg0.W) (t : Fin cfg0.N) (d) : (rdat0 V O B c).fetched w t d = fblk0 V c w t d := by
  unfold RDat.fetched RDat.blockOf fblk0 iblk0; rw [A_eq0]

/-- Both inputs are fetched at every point: whatever the body finds in their buffers is a fetched block. -/
theorem finds0_0 (c : Dev nD) (t : Fin cfg0.N) (Y) (h : (rdat0 V O B c).Finds 0 t Y) : ∃ d, Y = fblk0 V c 0 t d := by
  obtain ⟨d, hd⟩ := ((rdat0 V O B c).finds_of_fetch (fetch0_0 t) Y).mp h
  exact ⟨d, hd.trans (fetched0 V O B c 0 t d)⟩
theorem finds0_1 (c : Dev nD) (t : Fin cfg0.N) (Y) (h : (rdat0 V O B c).Finds 1 t Y) : ∃ d, Y = fblk0 V c 1 t d := by
  obtain ⟨d, hd⟩ := ((rdat0 V O B c).finds_of_fetch (fetch0_1 t) Y).mp h
  exact ⟨d, hd.trans (fetched0 V O B c 1 t d)⟩

/-! ## The body obligation, at a generic point -/

/-- What the body is called with at point `t`, the windows one by one, -/
def bodyPre0 (c : Dev nD) (t : Fin cfg0.N) (Y : (w : Fin cfg0.W) → (cfg0.win w).block.Idx → Elt F (cfg0.win w).elt) : sProp 𝕄 :=
  iprop((rdat0 V O B c).Φ t.castSucc ∗ (rdat0 V O B c).owesAt none t.castSucc
    ∗ owns (c : Thread nD τ) (st0_0 t) fullShare (Y 0)
    ∗ owns (c : Thread nD τ) (st0_1 t) fullShare (Y 1)
    ∗ owns (c : Thread nD τ) (st0_2 t) fullShare (Y 2))

/-- and what it returns. -/
def bodyPost0 (c : Dev nD) (t : Fin cfg0.N) (Y : (w : Fin cfg0.W) → (cfg0.win w).block.Idx → Elt F (cfg0.win w).elt) : sProp 𝕄 :=
  iprop((rdat0 V O B c).Φ t.succ ∗ (rdat0 V O B c).owesAt none t.succ
    ∗ (∃ X, ⌜(rdat0 V O B c).after 0 t (Y 0) X⌝ ∗ owns (c : Thread nD τ) (st0_0 t) fullShare X)
    ∗ (∃ X, ⌜(rdat0 V O B c).after 1 t (Y 1) X⌝ ∗ owns (c : Thread nD τ) (st0_1 t) fullShare X)
    ∗ (∃ X, ⌜(rdat0 V O B c).after 2 t (Y 2) X⌝ ∗ owns (c : Thread nD τ) (st0_2 t) fullShare X))

/-- The body at any point: the inputs' buffers hold fetched blocks, so `sound_kernel0` applies; the invariant and
    what the core owes pass through unread. -/
theorem sound_body0 (c : Dev nD) (t : Fin cfg0.N) (Y : (w : Fin cfg0.W) → (cfg0.win w).block.Idx → Elt F (cfg0.win w).elt)
    (d0) (h0 : Y 0 = fblk0 V c 0 t d0) (d1) (h1 : Y 1 = fblk0 V c 1 t d1) :
    bodyPre0 V O B c t Y ⊢ wp frame (wpE (defs₀ (F := F)) Variants.none c none) Set.univ (bodyAt0 t) (fun _ => bodyPost0 V O B c t Y) := by
  unfold bodyPre0 bodyPost0 bodyAt0
  rw [show (rdat0 V O B c).Φ t.succ = (rdat0 V O B c).Φ t.castSucc from rfl,
    show (rdat0 V O B c).owesAt none t.succ = (rdat0 V O B c).owesAt none t.castSucc from rfl]
  simp only [after0_0, after0_1, after0_2]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  iexists (out0_2 (Y 0) (Y 1)); isplitr
  · ipureintro; exact ⟨d0, d1, by rw [h0, h1]⟩
  iexact H2

/-- The library's relational body obligation, at every point. -/
theorem body_obligation0 (c : Dev nD) :
    (rdat0 V O B c).BodyObligation (defs₀ (F := F)) Variants.none (none : HIx 1) Set.univ := fun t Y hY => by
  obtain ⟨d0, h0⟩ := finds0_0 V O B c t (Y 0) (hY 0)
  obtain ⟨d1, h1⟩ := finds0_1 V O B c t (Y 1) (hY 1)
  rw [bigSep_W0, bigSep_W0]
  exact sound_body0 V O B c t Y d0 h0 d1 h1

end Region

/-! ## The result array, index by index -/

section Value

/-- The index maps, decided over the grid: the result's block at point `t` is rows 2048·t ‥, all columns; each
    input's is all 64 rows, columns 2048·t ‥. -/
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx0_0 : ∀ t : Fin cfg0.N, win0_0.index t 0 = 0 ∧ win0_0.index t 1 = t.val :=
  (by decide +kernel : ∀ t : Fin grid0.N, win0_0.index t 0 = 0 ∧ win0_0.index t 1 = t.val)
theorem idx0_1 : ∀ t : Fin cfg0.N, win0_1.index t 0 = 0 ∧ win0_1.index t 1 = t.val :=
  (by decide +kernel : ∀ t : Fin grid0.N, win0_1.index t 0 = 0 ∧ win0_1.index t 1 = t.val)
/-- How much of each input block lies inside its array: all of the first table's, and of the second's the columns
    below 100000. -/
theorem xs0_0 : ∀ t : Fin cfg0.N, win0_0.xsize (grid0.coords t) 0 = 64 ∧ win0_0.xsize (grid0.coords t) 1 = 2048 :=
  (by decide +kernel : ∀ t : Fin grid0.N, win0_0.xsize (grid0.coords t) 0 = 64 ∧ win0_0.xsize (grid0.coords t) 1 = 2048)
theorem xs0_1 : ∀ t : Fin cfg0.N, win0_1.xsize (grid0.coords t) 0 = 64 ∧ win0_1.xsize (grid0.coords t) 1 = min 2048 (100000 - 2048 * t.val) :=
  (by decide +kernel : ∀ t : Fin grid0.N, win0_1.xsize (grid0.coords t) 0 = 64 ∧ win0_1.xsize (grid0.coords t) 1 = min 2048 (100000 - 2048 * t.val))

/-- A transposed block at an index. -/
theorem pay1_apply (x : Vec F S64x2048 .f32) (p : Fin 2048) (q : Fin 64) : k0_pay1 x (ix2 p q) = x (ix2 q p) := by
  unfold k0_pay1
  refine (transpose_apply _ _ _ (ix2 p q) (ix2 q p) ?_).trans ?_
  · intro b; match b with | ⟨0, _⟩ => rfl | ⟨1, _⟩ => rfl
  · rw [shapeCast_self]
theorem pay2_apply (x : Vec F S64x2048 .f32) (p : Fin 2048) (q : Fin 64) : k0_pay2 x (ix2 p q) = x (ix2 q p) := by
  unfold k0_pay2
  refine (transpose_apply _ _ _ (ix2 p q) (ix2 q p) ?_).trans ?_
  · intro b; match b with | ⟨0, _⟩ => rfl | ⟨1, _⟩ => rfl
  · rw [shapeCast_self]

theorem hz0 : (![0, 0] : Fin 2 → Nat) = fun _ => 0 := funext fun a => by fin_cases a <;> rfl

/-- The two transposes side by side, as one function of the output block's index: column `b` below 64 of row `a` is
    the first buffer at (b, a), column `b` from 64 up is the second buffer at (b − 64, a). -/
def packed (x0 x1 : Vec F S64x2048 .f32) : Vec F S2048x128 .f32 := fun y =>
  if h : (y 1).val < 64 then x0 (ix2 ⟨(y 1).val, h⟩ (y 0))
  else x1 (ix2 ⟨(y 1).val - 64, by have := ValueIdx.idx2_lt1 y; omega⟩ (y 0))

/-- What the body leaves in the output's buffer is that function: each store's payload is its part of it. -/
theorem out0_2_eq (x0 x1 : Vec F S64x2048 .f32) : out0_2 x0 x1 = packed x0 x1 := by
  funext y
  unfold out0_2
  refine View.canon_apply_of_pieces (packed x0 x1) _ (fun pc hp x => ?_) y (cover0_2 _ _ y)
  rcases List.mem_cons.mp hp with rfl | hp
  · obtain ⟨a, b, rfl⟩ : ∃ (a : Fin 2048) (b : Fin 64), x = ix2 a b := ⟨x 0, x 1, eq_ix2 x⟩
    show k0_pay2 (View.ld x1 rIn) (ix2 a b) = packed x0 x1 ((rRight).emb (ix2 a b))
    rw [pay2_apply, View.ld_unit_zero (S := S64x2048) hz0]
    have h1 : (((rRight).emb (ix2 a b)) 1).val = 64 + b.val := by show 64 + 1 * b.val = _; omega
    unfold packed
    rw [dif_neg (by rw [h1]; omega)]
    refine congrArg x1 (funext fun i => Fin.ext ?_)
    match i with
    | ⟨0, _⟩ => show b.val = (((rRight).emb (ix2 a b)) 1).val - 64; rw [h1]; omega
    | ⟨1, _⟩ => show a.val = 0 + 1 * a.val; omega
  · obtain rfl := List.mem_singleton.mp hp
    obtain ⟨a, b, rfl⟩ : ∃ (a : Fin 2048) (b : Fin 64), x = ix2 a b := ⟨x 0, x 1, eq_ix2 x⟩
    show k0_pay1 (View.ld x0 rIn) (ix2 a b) = packed x0 x1 ((rLeft).emb (ix2 a b))
    rw [pay1_apply, View.ld_unit_zero (S := S64x2048) hz0]
    have h1 : (((rLeft).emb (ix2 a b)) 1).val = b.val := by show 0 + 1 * b.val = _; omega
    unfold packed
    rw [dif_pos (by rw [h1]; exact b.isLt)]
    refine congrArg x0 (funext fun i => Fin.ext ?_)
    match i with
    | ⟨0, _⟩ => show b.val = (((rLeft).emb (ix2 a b)) 1).val; rw [h1]
    | ⟨1, _⟩ => show a.val = 0 + 1 * a.val; omega

theorem out0_2_left (x0 x1 : Vec F S64x2048 .f32) (p : Fin 2048) (q : Fin 128) (h : q.val < 64) :
    out0_2 x0 x1 (ix2 p q) = x0 (ix2 ⟨q.val, h⟩ p) := by
  rw [out0_2_eq]; unfold packed; exact dif_pos h
theorem out0_2_right (x0 x1 : Vec F S64x2048 .f32) (p : Fin 2048) (q : Fin 128) (h : 64 ≤ q.val) :
    out0_2 x0 x1 (ix2 p q) = x1 (ix2 ⟨q.val - 64, by have := q.isLt; omega⟩ p) := by
  rw [out0_2_eq]; unfold packed; exact dif_neg (by show ¬q.val < 64; omega)

section Arrays
variable (V : (c : Dev nD) → (b : Ref sig .tc) → Buf (Elt F) ((c : Thread nD τ).loc b))
variable (O : Dev nD → CellTallies nD τ sig (HIx 1))
variable (B : Dev nD → Set (SemLoc sig × HIx 1))

theorem N0_eq : cfg0.N = 49 := N_0

/-- The first input's fetched buffer at an index: the transposed first table at the block's column (every block of
    the grid lies inside that table). -/
theorem fblk0_0_apply (c : Dev nD) (t : Fin cfg0.N) (d) (q : Fin 64) (p : Fin 2048) :
    fblk0 V c 0 t d (ix2 q p) = V c main_v12 (ix2 q ⟨2048 * t.val + p.val, by have := lt_of_lt_of_eq t.isLt N0_eq; have := p.isLt; omega⟩) := by
  have hm : (cfg0.win 0).moved (cfg0.grid.coords t) (ix2 q p) = true := ((cfg0.win 0).moved_iff _ _).mpr fun a => by
    match a with
    | ⟨0, _⟩ => show q.val < win0_0.xsize (grid0.coords t) 0; rw [(xs0_0 t).1]; exact q.isLt
    | ⟨1, _⟩ => show p.val < win0_0.xsize (grid0.coords t) 1; rw [(xs0_0 t).2]; exact p.isLt
  unfold fblk0 Window.fill
  rw [dif_pos hm]
  unfold iblk0
  show V c main_v12 (((cfg0.win 0).blk t).view.emb _) = _
  refine congrArg (V c main_v12) (funext fun a => Fin.ext ?_)
  match a with
  | ⟨0, _⟩ => show win0_0.index t 0 * 64 + 1 * q.val = q.val; rw [(idx0_0 t).1]; omega
  | ⟨1, _⟩ => show win0_0.index t 1 * 2048 + 1 * p.val = 2048 * t.val + p.val; rw [(idx0_0 t).2]; omega

/-- The second input's fetched buffer at an index whose column is inside the second table: the transposed second
    table there. -/
theorem fblk0_1_apply (c : Dev nD) (t : Fin cfg0.N) (d) (q : Fin 64) (p : Fin 2048) (h : 2048 * t.val + p.val < 100000) :
    fblk0 V c 1 t d (ix2 q p) = V c main_v13 (ix2 q ⟨2048 * t.val + p.val, h⟩) := by
  have hm : (cfg0.win 1).moved (cfg0.grid.coords t) (ix2 q p) = true := ((cfg0.win 1).moved_iff _ _).mpr fun a => by
    match a with
    | ⟨0, _⟩ => show q.val < win0_1.xsize (grid0.coords t) 0; rw [(xs0_1 t).1]; exact q.isLt
    | ⟨1, _⟩ => show p.val < win0_1.xsize (grid0.coords t) 1; rw [(xs0_1 t).2]; have := p.isLt; omega
  unfold fblk0 Window.fill
  rw [dif_pos hm]
  unfold iblk0
  show V c main_v13 (((cfg0.win 1).blk t).view.emb _) = _
  refine congrArg (V c main_v13) (funext fun a => Fin.ext ?_)
  match a with
  | ⟨0, _⟩ => show win0_1.index t 0 * 64 + 1 * q.val = q.val; rw [(idx0_1 t).1]; omega
  | ⟨1, _⟩ => show win0_1.index t 1 * 2048 + 1 * p.val = 2048 * t.val + p.val; rw [(idx0_1 t).2]; omega

/-- An index of the result array is in point `t`'s block iff its row is among the block's 2048 rows (every column is). -/
theorem mem_blk0_2 (t : Fin cfg0.N) (i : S100352x128.Idx) :
    i ∈ ((cfg0.win 2).blk t).view.setOn Finset.univ ↔ 2048 * t.val ≤ (i 0).val ∧ (i 0).val < 2048 * t.val + 2048 := by
  rw [View.setOn_univ]
  show i ∈ ((View.whole main_v14).slice (win0_2.rect t)).set ↔ _
  rw [View.set_slice_whole, Rect.mem_set_unit]
  have h1 : (i 1).val < 128 := (i 1).isLt
  refine ⟨fun h => ?_, fun h a => ?_⟩
  · have h0 := h 0
    change win0_2.index t 0 * 2048 ≤ (i 0).val ∧ (i 0).val < win0_2.index t 0 * 2048 + 2048 at h0
    rw [(idx0_2 t).1] at h0; omega
  · match a with
    | ⟨0, _⟩ =>
      change win0_2.index t 0 * 2048 ≤ (i 0).val ∧ (i 0).val < win0_2.index t 0 * 2048 + 2048
      rw [(idx0_2 t).1]; omega
    | ⟨1, _⟩ =>
      change win0_2.index t 1 * 128 ≤ (i 1).val ∧ (i 1).val < win0_2.index t 1 * 128 + 128
      rw [(idx0_2 t).2]; omega

/-- The write-back at point `t`, read at an index inside its block: what the staging buffer held there. -/
theorem write_blk0_2_in (c : Dev nD) (t : Fin cfg0.N) (G₀ : Buf (Elt F) ((cfg0.win 2).arr.view.loc (c.tc : Thread nD τ)))
    (X : (cfg0.win 2).block.Idx → Elt F (cfg0.win 2).elt) (r : Fin 100352) (j : Fin 128) (p : Fin 2048)
    (hr : r.val = 2048 * t.val + p.val) :
    ((cfg0.win 2).blk t).view.write (Elt F) G₀ ((cfg0.win 2).cut (cfg0.grid.coords t) X) Finset.univ (ix2 r j) = X (ix2 p j) := by
  have e : (ix2 r j : S100352x128.Idx) = ((cfg0.win 2).blk t).view.emb (ix2 p j) := funext fun a => Fin.ext (by
    match a with
    | ⟨0, _⟩ => show r.val = win0_2.index t 0 * 2048 + 1 * p.val; rw [(idx0_2 t).1]; omega
    | ⟨1, _⟩ => show j.val = win0_2.index t 1 * 128 + 1 * j.val; rw [(idx0_2 t).2]; omega)
  rw [e, View.write_emb_of_mem _ _ (Finset.mem_univ _)]
  rfl

/-- What is claimed of contents `G` of the result array at row `r`, column `j`: in the left half the first table's
    row `r`; in the right half, for a row below 100000, the second table's row `r`. -/
def Good (c : Dev nD) (G : Buf (Elt F) ((cfg0.win 2).arr.view.loc (c.tc : Thread nD τ))) (r : Fin 100352) (j : Fin 128) : Prop :=
  (∀ h : j.val < 64, G (ix2 r j) = V c main_v12 (ix2 ⟨j.val, h⟩ ⟨r.val, by have := r.isLt; omega⟩)) ∧
  (∀ (h : 64 ≤ j.val) (hr : r.val < 100000), G (ix2 r j) = V c main_v13 (ix2 ⟨j.val - 64, by have := j.isLt; omega⟩ ⟨r.val, hr⟩))

/-- After the write-backs of the points below `n`, whatever the result array holds is as claimed on the rows those
    points wrote: by induction on `n`, a row either in the last block written or left as the induction found it. -/
theorem arrAt0_2_good (c : Dev nD) : ∀ (n : ℕ) (hn : n ≤ cfg0.N) (G), (rdat0 V O B c).ArrAt 2 n G →
    ∀ (r : Fin 100352) (j : Fin 128), r.val < 2048 * n → Good V c G r j
  | 0, _, G, _, r, j, h => absurd h (by omega)
  | n + 1, hn, G, hG, r, j, h => by
    have hN : n < cfg0.N := hn
    have hS : (rdat0 V O B c).ArrStep 2 ⟨n, hN⟩ ((rdat0 V O B c).ArrAt 2 n) G := by
      have e := (rdat0 V O B c).ArrAt_succ 2 ⟨n, hN⟩
      rw [if_pos (flush0_2 ⟨n, hN⟩)] at e
      exact Eq.mp (congrFun e G) hG
    obtain ⟨G₀, X, hG₀, ⟨Y, _, hYX⟩, rfl⟩ := hS
    rw [after0_2] at hYX
    obtain ⟨d0, d1, rfl⟩ := hYX
    by_cases hr : r.val < 2048 * n
    · have ih := arrAt0_2_good c n (Nat.le_of_succ_le hn) G₀ hG₀ r j hr
      have hout : ((cfg0.win 2).blk ⟨n, hN⟩).view.write (Elt F) G₀ ((cfg0.win 2).cut (cfg0.grid.coords ⟨n, hN⟩)
          (out0_2 (fblk0 V c 0 ⟨n, hN⟩ d0) (fblk0 V c 1 ⟨n, hN⟩ d1))) Finset.univ (ix2 r j) = G₀ (ix2 r j) :=
        View.write_of_not_mem _ _ _ (by rw [mem_blk0_2]; show ¬(2048 * n ≤ r.val ∧ r.val < 2048 * n + 2048); omega)
      unfold Good; rw [hout]; exact ih
    · have hp : r.val - 2048 * n < 2048 := by omega
      have hin := write_blk0_2_in c ⟨n, hN⟩ G₀ (out0_2 (fblk0 V c 0 ⟨n, hN⟩ d0) (fblk0 V c 1 ⟨n, hN⟩ d1)) r j ⟨r.val - 2048 * n, hp⟩
        (by show r.val = 2048 * n + (r.val - 2048 * n); omega)
      refine ⟨fun hj => ?_, fun hj hr' => ?_⟩
      · rw [hin, out0_2_left _ _ _ _ hj, fblk0_0_apply]
        exact congrArg (V c main_v12) (congrArg (ix2 _) (Fin.ext (by show 2048 * n + (r.val - 2048 * n) = r.val; omega)))
      · rw [hin, out0_2_right _ _ _ _ hj, fblk0_1_apply V c ⟨n, hN⟩ d1 _ _ (by show 2048 * n + (r.val - 2048 * n) < 100000; omega)]
        exact congrArg (V c main_v13) (congrArg (ix2 _) (Fin.ext (by show 2048 * n + (r.val - 2048 * n) = r.val; omega)))

/-- THE VALUE of the packing region: whatever the result array may hold after the region, its row `r` is the first
    table's row `r` in columns 0‥63 and, for `r` below 100000, the second table's row `r` in columns 64‥127 (the
    tables as the region finds them transposed, `main_v12` and `main_v13`). Rows 100000‥100351 of the right half are
    not determined. -/
theorem value0 (c : Dev nD) (G) (hG : (rdat0 V O B c).ArrAt 2 cfg0.N G) (r : Fin 100352) (j : Fin 128) :
    (∀ h : j.val < 64, G (ix2 r j) = V c main_v12 (ix2 ⟨j.val, h⟩ ⟨r.val, by have := r.isLt; omega⟩)) ∧
    (∀ (h : 64 ≤ j.val) (hr : r.val < 100000), G (ix2 r j) = V c main_v13 (ix2 ⟨j.val - 64, by have := j.isLt; omega⟩ ⟨r.val, hr⟩)) :=
  arrAt0_2_good V O B c cfg0.N le_rfl G hG r j (by have := r.isLt; have : cfg0.N = 49 := N0_eq; omega)

end Arrays
end Value
end Cert.Kernel.Region0
end
-- ==== Proof.KRegion2.lean ====
/-
  The second TensorCore region: the kernel call that reduces the six gathered row arrays (16384 rows of 128 columns
  each), two 64 × 64 weight blocks and a bias row to one number. Its grid has 4 points; at point `t` the body reads
  rows 4096·t ‥ 4096·t + 4095 of the six arrays (the left or the right 64 columns of each), forms the two row norms
  of the positive and of the negative triples, and adds the sum over the 4096 rows of max(0, pos − neg + 1) to a
  1 × 1 accumulator: the result's staging buffer, whose block index never moves, which the body zeroes at the
  first point, scales by 1/16384 at the last, and which is written back after the last point only. So the body has
  three control cases (first point; middle points; last point) and the accumulator is carried across the grid.
  Everything is stated at any float instance, at a parameter `V` for the TensorCore's buffer contents when the
  region is entered, a parameter `O` for what the TensorCore owes through the region, and a parameter `B` bounding
  the pairs its waits recorded before it.
-/
import proofs.«203064_g33122787786777_cont_8to1_b_416_18_alg».proof.Proof.KRegion0
import proofs.«203064_g33122787786777_cont_8to1_b_416_18_alg».proof.Proof.Gen.Kernel.Launch
import proofs.«203064_g33122787786777_cont_8to1_b_416_18_alg».proof.Proof.Gen.Kernel.Skeleton
import proofs.«203064_g33122787786777_cont_8to1_b_416_18_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Region2

open Cert.Kernel Cert.Kernel.Gen Cert.Kernel.Alg Cert.Kernel.Region0
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MM F

section Region
variable (V : (c : Dev nD) → (b : Ref sig .tc) → Buf (Elt F) ((c : Thread nD τ).loc b))
variable (O : Dev nD → CellTallies nD τ sig (HIx 1))
variable (B : Dev nD → Set (SemLoc sig × HIx 1))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the region-entry contents and whose body leaves the block in place. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the region-entry contents and whose body leaves the block in place. -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the region-entry contents and whose body leaves the block in place. -/
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the region-entry contents and whose body leaves the block in place. -/
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the region-entry contents and whose body leaves the block in place. -/
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is the region-entry contents and whose body leaves the block in place. -/
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is the region-entry contents and whose body leaves the block in place. -/
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof data
    whose array is the region-entry contents and whose body leaves the block in place. -/
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof data
    whose array is the region-entry contents and whose body leaves the block in place. -/
theorem before2_8_of {c : Dev nD} (dat : Dat τ (Elt F) (HIx 1) ℕ UU ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses and its branch conditions -/

abbrev rL : Rect S4096x128 := Rect.unit (s := S4096x128) ![0, 0] S4096x64.size inb_S4096x128_S4096x64_0_0
abbrev rR : Rect S4096x128 := Rect.unit (s := S4096x128) ![0, 64] S4096x64.size inb_S4096x128_S4096x64_0_64
abbrev rW : Rect S64x64 := Rect.unit (s := S64x64) ![0, 0] S64x64.size inb_S64x64_S64x64_0_0
abbrev rC : Rect S1x64 := Rect.unit (s := S1x64) ![0, 0] S1x64.size inb_S1x64_S1x64_0_0
abbrev rO : Rect S1x1 := Rect.unit (s := S1x1) ![0, 0] S1x1.size inb_S1x1_S1x1_0_0

theorem hz2 : (![0, 0] : Fin 2 → Nat) = fun _ => 0 := funext fun a => by fin_cases a <;> rfl

/-- "The point is the first": the condition under which the body zeroes the accumulator. -/
abbrev cond2_0 (i : grid2.Coords) : Prop := (Scalar.cmpi .ne (Scalar.extui (Scalar.cmpi .eq (BitVec.ofNat 32 (i 0).val) 0#32)) 0#32) = 1#1
/-- "The point is the last": the condition under which the body scales the accumulator. -/
abbrev cond2_1 (i : grid2.Coords) : Prop := (Scalar.cmpi .ne (Scalar.extui (Scalar.cmpi .eq (BitVec.ofNat 32 (i 0).val) 3#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 = 3 :=
  (by decide +kernel : ∀ t : Fin grid2.N, cond2_1 (grid2.coords t) ↔ t.val % 4 = 3)

/-! ## What the body leaves in the accumulator -/

/-- A point's contribution, from the contents of the nine inputs' staging buffers: the sum over the block's 4096 rows
    of max(0, pos − neg + 1), pos and neg the row norms of the positive and the negative triples (the six row blocks'
    left or right halves, the two weight blocks, the bias row). -/
def contrib2 (x0 x1 x2 x3 x4 x5 : Vec F S4096x128 .f32) (x6 x7 : Vec F S64x64 .f32) (x8 : Vec F S1x64 .f32) : FVec F S1x1 .f32 :=
  k2_pay6 (k2_pay3 (View.ld x0 rL) (View.ld x1 rR) (View.ld x2 rL) (View.ld x6 rW) (View.ld x7 rW) (View.ld x8 rC))
    (k2_pay4 (View.ld x3 rL)) (k2_pay5 (View.ld x4 rR)) (View.ld x5 rL) (View.ld x6 rW) (View.ld x7 rW) (View.ld x8 rC)

/-- The accumulator after the first point: the contribution added to the zero the body has just stored; -/
def accA (x0 x1 x2 x3 x4 x5 : Vec F S4096x128 .f32) (x6 x7 : Vec F S64x64 .f32) (x8 : Vec F S1x64 .f32) : Vec F S1x1 .f32 := k2_pay1 (contrib2 x0 x1 x2 x3 x4 x5 x6 x7 x8) (k2_pay7 (F := F))
/-- after a middle point: the contribution added to what the accumulator held; -/
def accB (x0 x1 x2 x3 x4 x5 : Vec F S4096x128 .f32) (x6 x7 : Vec F S64x64 .f32) (x8 : Vec F S1x64 .f32) (xo : Vec F S1x1 .f32) : Vec F S1x1 .f32 := k2_pay1 (contrib2 x0 x1 x2 x3 x4 x5 x6 x7 x8) xo
/-- after the last point: that sum, scaled. -/
def accC (x0 x1 x2 x3 x4 x5 : Vec F S4096x128 .f32) (x6 x7 : Vec F S64x64 .f32) (x8 : Vec F S1x64 .f32) (xo : Vec F S1x1 .f32) : Vec F S1x1 .f32 := k2_pay2 (accB x0 x1 x2 x3 x4 x5 x6 x7 x8 xo)

/-- What a view reads after writes the last of which is through the whole-shape rectangle: that write's payload. -/
theorem read_writes_last_whole {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons.mpr (Or.inl rfl), View.mem_set_unit_zero h inb y⟩),
    View.canon_cons_unit_zero h inb]

/-! ## The body's triple, case by case -/

set_option maxHeartbeats 2000000 in
/-- At the first point: on whole staging memrefs, the inputs' at read contents and the accumulator's at anything, the body runs to the continuation holding the inputs' as they were and the accumulator's at `accA`. -/
theorem sound_kernel2_A (c : Dev nD) (E : Set ℕ) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1 .f32) (harg10 : arg10.IsWhole) (hc0 : cond2_0 i) (hc1 : ¬cond2_1 i)
    (x0 x1 x2 x3 x4 x5 : Vec F S4096x128 .f32) (x6 x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (accA x0 x1 x2 x3 x4 x5 x6 x7 x8)) -∗ K ⟨⟩))
      ⊢ wp frame (wpE (defs₀ (F := F)) Variants.none c none) E (cc2__tc_body i arg1 harg1 arg2 harg2 arg3 harg3 arg4 harg4 arg5 harg5 arg6 harg6 arg7 harg7 arg8 harg8 arg9 harg9 arg10 harg10) K := by
  simp only [cc2__tc_body_eq_skeleton]; unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [read_writes_last_whole _ _ hz2]
  sl_unfold_run_names
  rw [View.readCov_unit_zero _ hz2]
  rfl

set_option maxHeartbeats 2000000 in
/-- At a middle point: the accumulator's memref at read contents `xo`, the body leaves it at `accB`. -/
theorem sound_kernel2_B (c : Dev nD) (E : Set ℕ) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1 .f32) (harg10 : arg10.IsWhole) (hc0 : ¬cond2_0 i) (hc1 : ¬cond2_1 i)
    (x0 x1 x2 x3 x4 x5 : Vec F S4096x128 .f32) (x6 x7 : Vec F S64x64 .f32) (x8 : Vec F S1x64 .f32) (xo : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (accB x0 x1 x2 x3 x4 x5 x6 x7 x8 xo)) -∗ K ⟨⟩))
      ⊢ wp frame (wpE (defs₀ (F := F)) Variants.none c none) E (cc2__tc_body i arg1 harg1 arg2 harg2 arg3 harg3 arg4 harg4 arg5 harg5 arg6 harg6 arg7 harg7 arg8 harg8 arg9 harg9 arg10 harg10) K := by
  simp only [cc2__tc_body_eq_skeleton]; unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [read_writes_last_whole _ _ hz2]
  sl_unfold_run_names
  simp only [View.readAt_eq_ld, View.ld_unit_zero (S := S1x1) hz2]
  rfl

set_option maxHeartbeats 2000000 in
/-- At the last point: the accumulator's memref at read contents `xo`, the body leaves it at `accC`. -/
theorem sound_kernel2_C (c : Dev nD) (E : Set ℕ) (i : grid2.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1 .f32) (harg10 : arg10.IsWhole) (hc0 : ¬cond2_0 i) (hc1 : cond2_1 i)
    (x0 x1 x2 x3 x4 x5 : Vec F S4096x128 .f32) (x6 x7 : Vec F S64x64 .f32) (x8 : Vec F S1x64 .f32) (xo : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (accC x0 x1 x2 x3 x4 x5 x6 x7 x8 xo)) -∗ K ⟨⟩))
      ⊢ wp frame (wpE (defs₀ (F := F)) Variants.none c none) E (cc2__tc_body i arg1 harg1 arg2 harg2 arg3 harg3 arg4 harg4 arg5 harg5 arg6 harg6 arg7 harg7 arg8 harg8 arg9 harg9 arg10 harg10) K := by
  simp only [cc2__tc_body_eq_skeleton]; unfold cc2__tc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [read_writes_last_whole _ _ hz2]
  sl_unfold_run_names
  rw [View.readCov_unit_zero _ hz2]
  simp only [View.readAt_eq_ld, View.ld_unit_zero (S := S1x1) hz2]
  rfl

/-! ## What the accumulator holds after each point -/

/-- The accumulator's staging buffer after the body at position `n`: the first point's case over the blocks there;
    at a later point the last point's case, or the middle points', over the blocks there and what the point before
    left (the buffer is not written back between). -/
def outsAt2 (c : Dev nD) : (n : ℕ) → n < cfg2.N → Vec F S1x1 .f32
  | 0, hn => accA (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩)
  | n + 1, hn =>
    if (n + 1) % 4 = 3 then
      accC (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn))
    else
      accB (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (outsAt2 c n (Nat.lt_of_succ_lt hn))

theorem outsAt2_A (c : Dev nD) (t : Fin cfg2.N) (h0 : t.val % 4 = 0) :
    outsAt2 V c t.val t.isLt = accA (iblk2 V c 0 t) (iblk2 V c 1 t) (iblk2 V c 2 t) (iblk2 V c 3 t) (iblk2 V c 4 t) (iblk2 V c 5 t) (iblk2 V c 6 t) (iblk2 V c 7 t) (iblk2 V c 8 t) := by
  have hN : t.val < 4 := lt_of_lt_of_eq t.isLt (show cfg2.N = 4 from N_2)
  obtain ⟨n, hn⟩ := t
  cases n with
  | zero => exact rfl
  | succ n => exact (by exfalso; (try dsimp only at h0 hN); omega)

theorem outsAt2_B (c : Dev nD) (t : Fin cfg2.N) (h0 : ¬t.val % 4 = 0) (h3 : ¬t.val % 4 = 3) :
    outsAt2 V c t.val t.isLt = accB (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h3).trans rfl

theorem outsAt2_C (c : Dev nD) (t : Fin cfg2.N) (h3 : t.val % 4 = 3) :
    outsAt2 V c t.val t.isLt = accC (iblk2 V c 0 t) (iblk2 V c 1 t) (iblk2 V c 2 t) (iblk2 V c 3 t) (iblk2 V c 4 t) (iblk2 V c 5 t) (iblk2 V c 6 t) (iblk2 V c 7 t) (iblk2 V c 8 t) (outsAt2 V c (t.val - 1) (Nat.lt_of_le_of_lt (Nat.sub_le _ _) t.isLt)) := by
  obtain ⟨n, hn⟩ := t
  cases n with
  | zero => exact (by exfalso; (try dsimp only at h3); omega)
  | succ n => exact (if_pos h3).trans rfl

/-! ## The pipeline's proof data -/

/-- The proof data of the dense pipeline on core `c`: the arrays as the region finds them; after the body at point
    `t` each input's buffer at its block and the accumulator's at `outsAt2`; the invariant the scoped rest and the
    generator register; full shares; the core owes `O c` throughout, its recorded pairs within `B c` and the loop's own. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => outsAt2 V c t.val t.isLt
  Φ _ := Φreg spec2 c
  q _ := fullShare
  owed _ := O c
  recorded _ := B c

/-- The proof data's arrays are the region-entry contents. -/
theorem A_eq2 (c : Dev nD) (w : Fin cfg2.W) : (dat2 V O B c).A w = V c (Pipeline.arrRef spec2 w) := by
  dsimp only [dat2]

/-- What the body leaves, window by window. -/
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t = iblk2 V c 5 t := by dsimp only [dat2]
theorem after2_6 (c : Dev nD) (t : Fin cfg2.N) : (dat2 V O B c).after 6 t = iblk2 V c 6 t := by dsimp only [dat2]
theorem after2_7 (c : Dev nD) (t : Fin cfg2.N) : (dat2 V O B c).after 7 t = iblk2 V c 7 t := by dsimp only [dat2]
theorem after2_8 (c : Dev nD) (t : Fin cfg2.N) : (dat2 V O B c).after 8 t = iblk2 V c 8 t := by dsimp only [dat2]
theorem after2_9 (c : Dev nD) (t : Fin cfg2.N) : (dat2 V O B c).after 9 t = outsAt2 V c t.val t.isLt := by dsimp only [dat2]

/-- Each input's current staging buffer holds its block at every point, fetched there or not. -/
theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d
theorem before2_4 (c : Dev nD) (t : Fin cfg2.N) (d) : (dat2 V O B c).before 4 t d = iblk2 V c 4 t :=
  before2_4_of V (dat2 V O B c) (A_eq2 V O B c 4) (after2_4 V O B c) t d
theorem before2_5 (c : Dev nD) (t : Fin cfg2.N) (d) : (dat2 V O B c).before 5 t d = iblk2 V c 5 t :=
  before2_5_of V (dat2 V O B c) (A_eq2 V O B c 5) (after2_5 V O B c) t d
theorem before2_6 (c : Dev nD) (t : Fin cfg2.N) (d) : (dat2 V O B c).before 6 t d = iblk2 V c 6 t :=
  before2_6_of V (dat2 V O B c) (A_eq2 V O B c 6) (after2_6 V O B c) t d
theorem before2_7 (c : Dev nD) (t : Fin cfg2.N) (d) : (dat2 V O B c).before 7 t d = iblk2 V c 7 t :=
  before2_7_of V (dat2 V O B c) (A_eq2 V O B c 7) (after2_7 V O B c) t d
theorem before2_8 (c : Dev nD) (t : Fin cfg2.N) (d) : (dat2 V O B c).before 8 t d = iblk2 V c 8 t :=
  before2_8_of V (dat2 V O B c) (A_eq2 V O B c 8) (after2_8 V O B c) t d

/-- After the first point the accumulator's staging buffer holds what the body left at the point before: the buffer
    is written back after the last point only, the window is live and uncut. -/
theorem before2_9_pos (c : Dev nD) (t : Fin cfg2.N) (h0 : ¬t.val % 4 = 0) (d) :
    (dat2 V O B c).before 9 t d = outsAt2 V c (t.val - 1) (Nat.lt_of_le_of_lt (Nat.sub_le _ _) t.isLt) := by
  have hN : t.val < 4 := lt_of_lt_of_eq t.isLt (show cfg2.N = 4 from N_2)
  rw [Dat.before_out_kept _ 9 rfl t (by omega) (Bool.eq_false_iff.mpr fun h => by have := (flush2_9 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d))
    ∗ (∃ d, owns (c : Thread nD τ) (st2_6 t) fullShare ((dat2 V O B c).before 6 t d))
    ∗ (∃ d, owns (c : Thread nD τ) (st2_7 t) fullShare ((dat2 V O B c).before 7 t d))
    ∗ (∃ d, owns (c : Thread nD τ) (st2_8 t) fullShare ((dat2 V O B c).before 8 t d))
    ∗ (∃ d, owns (c : Thread nD τ) (st2_9 t) fullShare ((dat2 V O B c).before 9 t d)))

/-- and what it returns. -/
def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t)
    ∗ owns (c : Thread nD τ) (st2_6 t) fullShare ((dat2 V O B c).after 6 t)
    ∗ owns (c : Thread nD τ) (st2_7 t) fullShare ((dat2 V O B c).after 7 t)
    ∗ owns (c : Thread nD τ) (st2_8 t) fullShare ((dat2 V O B c).after 8 t)
    ∗ owns (c : Thread nD τ) (st2_9 t) fullShare ((dat2 V O B c).after 9 t))

set_option maxHeartbeats 1600000 in
/-- The body at any point: the inputs' memrefs hold their blocks; the closed forms of the two conditions say which
    case the point is in; after the first point the accumulator holds what the point before left; so the case's
    triple applies; the invariant and what the core owes pass through unread. -/
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4, before2_5, before2_6, before2_7, before2_8]
  rw [show (dat2 V O B c).Φ t.succ = (dat2 V O B c).Φ t.castSucc from rfl,
    show (dat2 V O B c).owesAt none t.succ = (dat2 V O B c).owesAt none t.castSucc from rfl,
    after2_0, after2_1, after2_2, after2_3, after2_4, after2_5, after2_6, after2_7, after2_8, after2_9]
  have hN : t.val < 4 := lt_of_lt_of_eq t.isLt (show cfg2.N = 4 from N_2)
  by_cases h0 : t.val % 4 = 0
  · rw [outsAt2_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_A c Set.univ (grid2.coords t) _ _ _ _ _ _ _ _ _ _ _ _ _ _ _ _ _ _ _ _ ((hcond2_0 t).mpr h0) (fun h => by have := (hcond2_1 t).mp h; omega)
      (iblk2 V c 0 t) (iblk2 V c 1 t) (iblk2 V c 2 t) (iblk2 V c 3 t) (iblk2 V c 4 t) (iblk2 V c 5 t) (iblk2 V c 6 t) (iblk2 V c 7 t) (iblk2 V c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h3 : t.val % 4 = 3
    · rw [outsAt2_C V c t h3]
      simp only [before2_9_pos V O B c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_C c Set.univ (grid2.coords t) _ _ _ _ _ _ _ _ _ _ _ _ _ _ _ _ _ _ _ _ (fun h => h0 ((hcond2_0 t).mp h)) ((hcond2_1 t).mpr h3)
        (iblk2 V c 0 t) (iblk2 V c 1 t) (iblk2 V c 2 t) (iblk2 V c 3 t) (iblk2 V c 4 t) (iblk2 V c 5 t) (iblk2 V c 6 t) (iblk2 V c 7 t) (iblk2 V c 8 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [outsAt2_B V c t h0 h3]
      simp only [before2_9_pos V O B c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_B c Set.univ (grid2.coords t) _ _ _ _ _ _ _ _ _ _ _ _ _ _ _ _ _ _ _ _ (fun h => h0 ((hcond2_0 t).mp h)) (fun h => h3 ((hcond2_1 t).mp h))
        (iblk2 V c 0 t) (iblk2 V c 1 t) (iblk2 V c 2 t) (iblk2 V c 3 t) (iblk2 V c 4 t) (iblk2 V c 5 t) (iblk2 V c 6 t) (iblk2 V c 7 t) (iblk2 V c 8 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The library's body obligation, at every point. -/
theorem body_obligation2 (c : Dev nD) :
    BodyObligation (dat2 (F := F) V O B c) (defs₀ (F := F)) Variants.none (none : HIx 1) Set.univ := fun t => by
  rw [bigSep_W2, bigSep_W2]
  exact sound_body2 V O B c t

end Region

/-! ## The result, after the region -/

section Value
variable (V : (c : Dev nD) → (b : Ref sig .tc) → Buf (Elt F) ((c : Thread nD τ).loc b))
variable (O : Dev nD → CellTallies nD τ sig (HIx 1))
variable (B : Dev nD → Set (SemLoc sig × HIx 1))

theorem N2_eq : cfg2.N = 4 := N_2

/-- The accumulator after the last point, as contents of the 1 × 1 result array (its one block is the array). -/
abbrev result2 (c : Dev nD) : Buf (Elt F) ((c : Thread nD τ).loc main_v25) := outsAt2 V c 3 (by rw [N2_eq]; decide)

/-- It is the ordered fold over the four points: the first point's contribution added to zero, the two middle
    points' added in turn, the last point's added and the sum scaled. -/
theorem result2_eq (c : Dev nD) :
    result2 V c = accC (iblk2 V c 0 t2_3) (iblk2 V c 1 t2_3) (iblk2 V c 2 t2_3) (iblk2 V c 3 t2_3) (iblk2 V c 4 t2_3) (iblk2 V c 5 t2_3) (iblk2 V c 6 t2_3) (iblk2 V c 7 t2_3) (iblk2 V c 8 t2_3)
      (accB (iblk2 V c 0 t2_2) (iblk2 V c 1 t2_2) (iblk2 V c 2 t2_2) (iblk2 V c 3 t2_2) (iblk2 V c 4 t2_2) (iblk2 V c 5 t2_2) (iblk2 V c 6 t2_2) (iblk2 V c 7 t2_2) (iblk2 V c 8 t2_2)
        (accB (iblk2 V c 0 t2_1) (iblk2 V c 1 t2_1) (iblk2 V c 2 t2_1) (iblk2 V c 3 t2_1) (iblk2 V c 4 t2_1) (iblk2 V c 5 t2_1) (iblk2 V c 6 t2_1) (iblk2 V c 7 t2_1) (iblk2 V c 8 t2_1)
          (accA (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0) (iblk2 V c 8 t2_0)))) := rfl

/-- The one write-back, after the last point, writes it: block (0, 0) of the 1 × 1 array read through zero offsets is
    the array. -/
theorem flushed2_9_eq (c : Dev nD) (t : Fin cfg2.N) (hf : (cfg2.win 9).flush t = true) :
    (dat2 V O B c).flushed 9 t = ((cfg2.win 9).blk t).view.read (Elt F) (result2 V c) := by
  have hN : cfg2.N = 4 := N_2
  have h3 : t.val = 3 := by have := (flush2_9 t).mp hf; have := t.isLt; omega
  obtain rfl : t = t2_3 := Fin.ext h3
  show (cfg2.win 9).cut (grid2.coords t2_3) ((dat2 V O B c).after 9 t2_3) = _
  rw [after2_9]
  have hz' : (fun a => win2_9.index t2_3 a * main_v25.ty.shape.size a) = fun _ => 0 := funext fun a => by fin_cases a <;> decide
  exact (Memref.read_access_unit_zero (Elt F) main_v25 hz' (fun a => by rw [congrFun hz' a]; simp) (result2 V c)).symm

/-- THE VALUE of the dense region: the result array ends holding the accumulator after the last point. -/
theorem value2 (c : Dev nD) : (dat2 V O B c).arrAt 9 cfg2.N = result2 V c :=
  (dat2 V O B c).arrAt_eq_of_cover 9 (result2 V c) (flushed2_9_eq V O B c) fun i =>
    ⟨t2_3, (flush2_9 t2_3).mpr rfl, by
      show i ∈ ((View.whole main_v25).slice (win2_9.rect t2_3)).set
      rw [View.set_slice_whole, Rect.mem_set_unit]
      intro a
      have h0 : (i 0 : Nat) < 1 := (i 0).isLt
      have h1 : (i 1 : Nat) < 1 := (i 1).isLt
      match a with
      | ⟨0, _⟩ =>
        show win2_9.index t2_3 0 * win2_9.size 0 ≤ (i 0 : Nat) ∧ (i 0 : Nat) < win2_9.index t2_3 0 * win2_9.size 0 + win2_9.xsize (grid2.coords t2_3) 0
        rw [show win2_9.index t2_3 0 * win2_9.size 0 = 0 from by decide +kernel, show win2_9.xsize (grid2.coords t2_3) 0 = 1 from by decide +kernel]; omega
      | ⟨1, _⟩ =>
        show win2_9.index t2_3 1 * win2_9.size 1 ≤ (i 1 : Nat) ∧ (i 1 : Nat) < win2_9.index t2_3 1 * win2_9.size 1 + win2_9.xsize (grid2.coords t2_3) 1
        rw [show win2_9.index t2_3 1 * win2_9.size 1 = 0 from by decide +kernel, show win2_9.xsize (grid2.coords t2_3) 1 = 1 from by decide +kernel]; omega⟩

/-- The inputs' arrays are as the region found them. -/
theorem kept2 (c : Dev nD) (w : Fin cfg2.W) (hw : (cfg2.win w).isOut = false) (n : ℕ) :
    (dat2 V O B c).arrAt w n = V c (Pipeline.arrRef spec2 w) :=
  ((dat2 V O B c).arrAt_in w hw n).trans (A_eq2 V O B c w)

end Value

end Cert.Kernel.Region2
end
-- ==== Proof.KSegs.lean ====
/-
  The first part of @main on the TensorCore — the first host stretch and the packing region — as segments over a
  thread state: every unscoped buffer whole at a valuation, the generator register, and what the TensorCore owes the
  launch handshakes before call n.
-/
import proofs.«203064_g33122787786777_cont_8to1_b_416_18_alg».proof.Proof.KVals
import proofs.«203064_g33122787786777_cont_8to1_b_416_18_alg».proof.Proof.KTcState
import proofs.«203064_g33122787786777_cont_8to1_b_416_18_alg».proof.Proof.KGhost
import proofs.«203064_g33122787786777_cont_8to1_b_416_18_alg».proof.Proof.KRegion0
import proofs.«203064_g33122787786777_cont_8to1_b_416_18_alg».proof.Proof.KRegion2
import Idealize.ShloMosaic.Lib.Pipeline.RegionsLoop
import Idealize.ShloMosaic.Lib.Pipeline.FrameSuffix

set_option maxRecDepth 16384

noncomputable section

namespace Cert.Kernel.Segs

open Cert.Kernel Cert.Kernel.Gen Cert.Kernel.Alg Cert.Kernel.Host Cert.Kernel.Vals
open Cert.Kernel.TcState Cert.Kernel.Ghost
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MM F

variable (m : (ℓ : Loc nD τ sig) → Buf (Elt F) ℓ)

/-- Both pipelines' proof data: the packing region's from the first host stretch's contents, the dense region's (exact, read as relational) from the second's. -/
def rdats : (p : Fin 2) → (c : Dev nD) → RDat τ (Elt F) (HIx 1) ℕ UU ℕ (Pipeline.pin (pcfgs (F := F)) adm p) c
  | ⟨0, _⟩ => fun c => Region0.rdat0 (V1 m) (On (F := F) 0) (Bn (F := F) 0) c
  | ⟨1, _⟩ => fun c => (Region2.dat2 (V4 m) (On (F := F) 1) (Bn (F := F) 1) c).toR

abbrev KL : GSem nD τ sig → Finset (HIx 1) := (K (F := F)).L
abbrev Klv : GSem nD τ sig → HIx 1 → ℕ := (K (F := F)).lev

/-- What rides beside the buffers before call n: the generator register and the handshake debts. -/
abbrev RR (n : ℕ) (c : Dev nD) : sProp 𝕄 := iprop((∃ r, prngReg c r) ∗ owesN (F := F) n c)

/-- After the packing region: every buffer but the table as the region found it, the table at contents the
    write-backs may have left. -/
def P2 (c : Dev nD) (W : Valuation τ sig (Elt F)) : Prop :=
  (∀ b : Ref sig .tc, b ≠ main_v14 → W b = W1 m c b)
    ∧ (Region0.rdat0 (V1 m) (On (F := F) 0) (Bn (F := F) 0) c).ArrAt 2 cfg0.N (W main_v14)

/-- A reference other than the table's is another buffer. -/
theorem devRef_ne_v14 (b : Ref sig .tc) (hb : b ≠ main_v14) : (Proc.devRef .tc b : DevRef τ sig) ≠ Proc.devRef .tc main_v14 :=
  StableHlo.devRef_ne_of_ne hb

set_option backward.isDefEq.respectTransparency.types false in
/-- An input array of the packing region, held as the pipeline holds it, is its buffer whole at the entry contents —
    which the valuation updated at the table still gives it. -/
theorem arr_pts (c : Dev nD) (w : Fin 3) (hw : Pipeline.arrRef spec0 w ≠ main_v14) (F2 : (Proc.devRef (τ := τ) .tc main_v14).ty.Contents (Elt F)) :
    (((cfg0.win w).arr.view.loc (c : Thread nD τ)) ↦[(cfg0.win w).arr.view.set]{(rdats m 0 c).share w} (rdats m 0 c).A w : sProp 𝕄)
      = (((c : Thread nD τ).loc (Pipeline.arrRef spec0 w)) ↦{fullShare}
          (Function.update (W1 m c) (Proc.devRef .tc main_v14) F2 (Proc.devRef .tc (Pipeline.arrRef spec0 w)))) := by
  rw [show (cfg0.win w).arr.view.set = Finset.univ from (launch0.arr_whole w).set_eq_univ, (rdats m 0 c).share_full (fun _ => rfl) w,
    Function.update_of_ne (devRef_ne_v14 _ hw)]
  rfl

set_option backward.isDefEq.respectTransparency.types false in
/-- The packed table, held as the pipeline holds it at contents F2, is its buffer whole at the updated valuation. -/
theorem arr_pts2 (c : Dev nD) (F2 : (Proc.devRef (τ := τ) .tc main_v14).ty.Contents (Elt F)) :
    (((cfg0.win 2).arr.view.loc (c : Thread nD τ)) ↦[(cfg0.win 2).arr.view.set]{(rdats m 0 c).share 2} F2 : sProp 𝕄)
      = (((c : Thread nD τ).loc (Pipeline.arrRef spec0 2)) ↦{fullShare}
          (Function.update (W1 m c) (Proc.devRef .tc main_v14) F2 (Proc.devRef .tc (Pipeline.arrRef spec0 2)))) := by
  rw [show (cfg0.win 2).arr.view.set = Finset.univ from (launch0.arr_whole 2).set_eq_univ, (rdats m 0 c).share_full (fun _ => rfl) 2]
  show _ = (((c : Thread nD τ).loc main_v14) ↦{fullShare} (Function.update (W1 m c) (Proc.devRef .tc main_v14) F2 (Proc.devRef .tc main_v14)))
  rw [Function.update_self]

/-- The buffers the packing region stages nothing of are untouched by the update at the table. -/
theorem rest_eq (c : Dev nD) (F2 : (Proc.devRef (τ := τ) .tc main_v14).ty.Contents (Elt F)) :
    (Pipeline.unscopedRest (Ix := HIx 1) (Name := ℕ) (U := UU) (Lvl := ℕ) spec0 c (V1 m c) : sProp 𝕄)
      = Pipeline.unscopedRest spec0 c (fun b => Function.update (W1 m c) (Proc.devRef .tc main_v14) F2 (Proc.devRef .tc b)) := by
  unfold Pipeline.unscopedRest
  refine bigSep_congr fun b hb => ?_
  have hb' : b ≠ main_v14 := fun e => (Finset.mem_sdiff.mp hb).2 (Finset.mem_image.mpr ⟨2, Finset.mem_univ _, e ▸ rfl⟩)
  beta_reduce
  rw [Function.update_of_ne (devRef_ne_v14 b hb')]

set_option backward.isDefEq.respectTransparency.types false in
/-- Leaving the packing region: the two transposed tables as found, the packed table at what the write-backs left,
    and the rest, are every unscoped buffer at a valuation that differs from the entry's at the table only. -/
theorem exit0 (c : Dev nD) :
    iprop((rdats m 0 c).arraysAt cfg0.N ∗ Pipeline.unscopedRest (Ix := HIx 1) (Name := ℕ) (U := UU) (Lvl := ℕ) spec0 c (V1 m c))
      ⊢ iprop(∃ W, ⌜P2 m c W⌝ ∗ StableHlo.held (c : Thread nD τ) (Pipeline.ucRefs τ sig) W) := by
  unfold RDat.arraysAt
  rw [bigSep_W0]
  iintro ⟨⟨⟨%F0, %h0, H0⟩, ⟨%F1, %h1, H1⟩, ⟨%F2, %h2, H2⟩⟩, Hrest⟩
  rw [RDat.ArrAt_in _ 0 rfl] at h0
  rw [RDat.ArrAt_in _ 1 rfl] at h1
  iexists (Function.update (W1 m c) (Proc.devRef .tc main_v14) F2)
  isplitr
  · ipureintro
    refine ⟨fun b hb => Function.update_of_ne (devRef_ne_v14 b hb) _ _, ?_⟩
    rw [Function.update_self]; exact h2
  · have hW1 : ∀ b : Ref sig .tc, b ≠ main_v14 →
        Function.update (W1 m c) (Proc.devRef .tc main_v14) F2 (Proc.devRef .tc b) = W1 m c (Proc.devRef .tc b) :=
      fun b hb => Function.update_of_ne (devRef_ne_v14 b hb) _ _
    rw [← Pipeline.unscopedBufs_held,
      Pipeline.unscopedBufs_split (Pipeline.pin (pcfgs (F := F)) adm) 0 launch0.win.arr_unscoped launch0.win.arr_inj c _, bigSep_W0]
    subst h0 h1
    isplitl [H0 H1 H2]
    · isplitl [H0]
      · iapply (Entails.of_eq (arr_pts m c 0 (by decide) F2)) ; iexact H0
      isplitl [H1]
      · iapply (Entails.of_eq (arr_pts m c 1 (by decide) F2)) ; iexact H1
      · iapply (Entails.of_eq (arr_pts2 m c F2)); iexact H2
    · iapply (Entails.of_eq (rest_eq m c F2)); iexact Hrest

set_option backward.isDefEq.respectTransparency.types false in
/-- The packing region over the thread state. -/
def reg0 : Pipeline.RDat.RegionSeg (pcfgs (F := F)) adm (rdats m) (none : HIx 1) defs₀ 𝒱₀ (KL (F := F)) (Klv (F := F)) 0 where
  win := launch0.win.to₀
  block_pos := launch0.block_pos
  stage_whole := launch0.stage_whole
  K := PEmpty
  osem k := k.elim
  ho := Pipeline.OwnSemFacts.none _
  hbody c := Region0.body_obligation0 (V1 m) (On (F := F) 0) (Bn (F := F) 0) c
  hwaits c := Pipeline.RDat.cellsWaits_intro (Pipeline.pin (pcfgs (F := F)) adm) (rdats m) (none : HIx 1) 0 c
    (fun w s t => mayWait_stage (F := F) 0 c _)
  pre c := iprop(StableHlo.held (c : Thread nD τ) (Pipeline.ucRefs τ sig) (W1 m c) ∗ RR (F := F) 0 c)
  post c := iprop((∃ W, ⌜P2 m c W⌝ ∗ StableHlo.held (c : Thread nD τ) (Pipeline.ucRefs τ sig) W) ∗ RR (F := F) 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_enter (F := F) 0 c cfg0); iexact HO
    isplitl [Hp]; · iexact Hp
    iexact Hrest
  hin c := by
    rw [show (rdats m 0 c).Φ 0 = Region0.Φreg spec0 c from rfl]; unfold Region0.Φreg
    iintro ⟨Hp, -, Hr⟩
    isplitl [Hr]; · iexact Hr
    iexact Hp
  hout c := by
    rw [Pipeline.ownSems0_none, show (rdats m 0 c).Φ (Fin.last _) = Region0.Φreg spec0 c from rfl]; unfold Region0.Φreg
    iintro ⟨Hr, Hp⟩
    isplitl [Hp]; · iexact Hp
    isplitr; · iempintro
    iexact Hr
  hexit c := by
    iintro ⟨Ha, HO, HY, Hrest⟩
    imodintro
    isplitl [Ha Hrest]
    · iapply (exit0 m c); isplitl [Ha] <;> iassumption
    isplitl [HY]; · iexact HY
    iapply (owes_leave (F := F) 0 c cfg0); iexact HO

/-! ## After the packing region the table is tracked apart -/

/-- The packed table's buffer. -/
abbrev v14' : DevRef τ sig := Proc.devRef .tc main_v14
/-- Every unscoped buffer but the table. -/
abbrev U' : Finset (DevRef τ sig) := Pipeline.ucRefs τ sig \ {v14'}
/-- The table whole at contents not named. -/
abbrev tabPart (c : Dev nD) : sProp 𝕄 := iprop(∃ f : v14'.ty.Contents (Elt F), ((c : Thread nD τ).1, v14') ↦{fullShare} f)
/-- What rides beside the other buffers from the SparseCore call on. -/
abbrev RT (n : ℕ) (c : Dev nD) : sProp 𝕄 :=
  iprop((∃ f : v14'.ty.Contents (Elt F), ((c : Thread nD τ).1, v14') ↦{fullShare} f) ∗ RR (F := F) n c)

theorem v14_mem : v14' ∈ Pipeline.ucRefs τ sig := by decide

/-- Every unscoped buffer at a valuation updated at the table is the table's buffer and the others. -/
theorem held_tab (c : Dev nD) (W : Valuation τ sig (Elt F)) (f : v14'.ty.Contents (Elt F)) :
    (StableHlo.held (c : Thread nD τ) (Pipeline.ucRefs τ sig) (Function.update W v14' f) : sProp 𝕄)
      = iprop((((c : Thread nD τ).1, v14') ↦{fullShare} f) ∗ StableHlo.held (c : Thread nD τ) U' W) := by
  have h1 : (StableHlo.held (c : Thread nD τ) {v14'} (Function.update W v14' f) : sProp 𝕄) = (((c : Thread nD τ).1, v14') ↦{fullShare} f) := by
    unfold StableHlo.held; rw [bigSep_singleton, Function.update_self]
  have h2 : (StableHlo.held (c : Thread nD τ) (Pipeline.ucRefs τ sig \ {v14'}) (Function.update W v14' f) : sProp 𝕄) = StableHlo.held (c : Thread nD τ) U' W :=
    StableHlo.held_congr (c : Thread nD τ) fun b hb =>
      Function.update_of_ne (fun e => (Finset.mem_sdiff.mp hb).2 (Finset.mem_singleton.mpr e)) _ _
  rw [StableHlo.held_sub_split (c : Thread nD τ) (T := {v14'}) (Finset.singleton_subset_iff.mpr v14_mem), h1, h2]

/-- The dense region's proof data. -/
abbrev dat2m (c : Dev nD) : Dat τ (Elt F) (HIx 1) ℕ UU ℕ cfg2 c := Region2.dat2 (V4 m) (On (F := F) 1) (Bn (F := F) 1) c

/-- At the dense region's exit: its arrays at what the pipeline leaves, every other buffer as entered. -/
def W5 (c : Dev nD) : Valuation τ sig (Elt F) :=
  Pipeline.withArrays spec2 c (W4 m c) fun w => (dat2m m c).arrAt w cfg2.N
theorem W5_arr (c : Dev nD) (w : Fin cfg2.W) :
    W5 m c (Proc.devRef .tc (Pipeline.arrRef spec2 w)) = (dat2m m c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- After the closing reshape. -/
abbrev W6 (c : Dev nD) : Valuation τ sig (Elt F) := StableHlo.after hostOps2 (W5 m c)

theorem arr2_ne_v14 : ∀ w : Fin 10, Pipeline.arrRef spec2 w ≠ main_v14 := by decide

set_option backward.isDefEq.respectTransparency.types false in
/-- Leaving the dense region: its arrays at what the pipeline leaves and the rest (the table among it) are every
    unscoped buffer at the exit valuation, updated at the table. -/
theorem join1 (c : Dev nD) (f : v14'.ty.Contents (Elt F)) :
    iprop(((dat2m m c).arrays ((dat2m m c).arrAt · cfg2.N) : sProp 𝕄)
        ∗ Pipeline.unscopedRest (Ix := HIx 1) (Name := ℕ) (U := UU) (Lvl := ℕ) spec2 c (fun b => Function.update (W4 m c) v14' f (Proc.devRef .tc b)))
      ⊢ StableHlo.held (c : Thread nD τ) (Pipeline.ucRefs τ sig) (Function.update (W5 m c) v14' f) := by
  rw [← Pipeline.unscopedBufs_held,
    Pipeline.unscopedBufs_split (Pipeline.pin (pcfgs (F := F)) adm) 1 launch2.win.arr_unscoped launch2.win.arr_inj c _]
  refine sep_mono (Entails.of_eq ?_) (Entails.of_eq ?_)
  · unfold Dat.arrays
    refine bigSep_congr fun w _ => ?_
    rw [show (cfg2.win w).arr.view.set = Finset.univ from (launch2.arr_whole w).set_eq_univ, (dat2m m c).share_full (fun _ => rfl) w]
    beta_reduce
    have hc : Function.update (W5 m c) v14' f (Proc.devRef .tc (Pipeline.arrRef (Pipeline.pin (pcfgs (F := F)) adm 1).spec w)) = (dat2m m c).arrAt w cfg2.N :=
      (Function.update_of_ne (devRef_ne_v14 _ (arr2_ne_v14 w)) f (W5 m c)).trans (W5_arr m c w)
    rw [hc]
    rfl
  · unfold Pipeline.unscopedRest
    refine bigSep_congr fun b hb => ?_
    beta_reduce
    by_cases e : b = main_v14
    · subst e; rw [Function.update_self, Function.update_self]
    · rw [Function.update_of_ne (devRef_ne_v14 b e), Function.update_of_ne (devRef_ne_v14 b e),
        W5_of_ne m c b fun w hw => (Finset.mem_sdiff.mp hb).2 (Finset.mem_image.mpr ⟨w, Finset.mem_univ _, hw⟩)]

set_option backward.isDefEq.respectTransparency.types false in
/-- The dense region over the thread state. -/
def reg1 : Pipeline.RDat.RegionSeg (pcfgs (F := F)) adm (rdats m) (none : HIx 1) defs₀ 𝒱₀ (KL (F := F)) (Klv (F := F)) 1 where
  win := launch2.win.to₀
  block_pos := launch2.block_pos
  stage_whole := launch2.stage_whole
  K := PEmpty
  osem k := k.elim
  ho := Pipeline.OwnSemFacts.none _
  hbody c := (Region2.body_obligation2 (V4 m) (On (F := F) 1) (Bn (F := F) 1) c).loose.toR
  hwaits c := Pipeline.RDat.cellsWaits_intro (Pipeline.pin (pcfgs (F := F)) adm) (rdats m) (none : HIx 1) 1 c
    (fun w s t => mayWait_stage (F := F) 1 c _)
  pre c := iprop(StableHlo.held (c : Thread nD τ) U' (W4 m c) ∗ RT (F := F) 1 c)
  post c := iprop(StableHlo.held (c : Thread nD τ) U' (W5 m c) ∗ RT (F := F) 1 c)
  X c := iprop(∃ r, prngReg c r)
  Y c := iprop(∃ r, prngReg c r)
  Z c := iprop(∃ f : v14'.ty.Contents (Elt F),
    Pipeline.unscopedRest (Ix := HIx 1) (Name := ℕ) (U := UU) (Lvl := ℕ) spec2 c (fun b => Function.update (W4 m c) v14' f (Proc.devRef .tc b)))
  hentry c := by
    rw [Pipeline.ownSems0_none]
    iintro ⟨⟨Hh, ⟨%f, Ht⟩, Hp, HO⟩, -, -⟩
    have hsplit := Pipeline.RDat.arrays_of_unscopedBufs (p := 1) (pcfgs (F := F)) adm (rdats m) launch2.win launch2.arr_whole c
      ((rdats m 1 c).share_full fun _ => rfl) (fun b => Function.update (W4 m c) v14' f (Proc.devRef .tc b))
      (fun w => (Region2.A_eq2 (V4 m) (On (F := F) 1) (Bn (F := F) 1) c w).trans
        (Function.update_of_ne (devRef_ne_v14 _ (arr2_ne_v14 w)) f (W4 m c)).symm)
    rw [Pipeline.unscopedBufs_held, held_tab] at hsplit
    ihave H := hsplit $$ [Ht Hh]
    · isplitl [Ht] <;> iassumption
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_enter (F := F) 1 c cfg2); iexact HO
    isplitl [Hp]; · iexact Hp
    iexists f; iexact Hrest
  hin c := by
    rw [show (rdats m 1 c).Φ 0 = Region0.Φreg spec2 c from rfl]; unfold Region0.Φreg
    iintro ⟨Hp, -, Hr⟩
    isplitl [Hr]; · iexact Hr
    iexact Hp
  hout c := by
    rw [Pipeline.ownSems0_none, show (rdats m 1 c).Φ (Fin.last _) = Region0.Φreg spec2 c from rfl]; unfold Region0.Φreg
    iintro ⟨Hr, Hp⟩
    isplitl [Hp]; · iexact Hp
    isplitr; · iempintro
    iexact Hr
  hexit c := by
    rw [show (rdats m 1 c).arraysAt (Pipeline.pin (pcfgs (F := F)) adm 1).N = ((dat2m m c).arrays ((dat2m m c).arrAt · cfg2.N) : sProp 𝕄)
      from (dat2m m c).toR_arraysAt_eq cfg2.N]
    iintro ⟨Ha, HO, HY, ⟨%f, Hrest⟩⟩
    imodintro
    ihave Hall := (join1 m c f) $$ [Ha Hrest]
    · isplitl [Ha] <;> iassumption
    ihave H2 := (Entails.of_eq (held_tab c (W5 m c) f)) $$ Hall
    icases H2 with ⟨Ht, Hh⟩
    isplitl [Hh]; · iexact Hh
    isplitl [Ht]; · iexists f; iexact Ht
    isplitl [HY]; · iexact HY
    iapply (owes_leave (F := F) 1 c cfg2); iexact HO

end Cert.Kernel.Segs

end
-- ==== Proof.KDeal.lean ====
/-
  Dealing the whole arrays to the 32 vector subcores and collecting them back.

  The TensorCore holds the packed table, six index vectors of 16384 entries and six outputs of 16384 x 128 whole.
  The subcore at grid point (c, i) works on entries [1024 i + 512 c, 1024 i + 512 c + 512) of each index vector and,
  in four chunks of 128 rows, on the same rows of each output.  These 32 ranges of entries partition [0, 16384), and
  the 128 chunks of rows partition the rows of an output; so a whole index vector is the separating conjunction of
  its 32 slices, a whole output that of its 128 chunks, and the table, which every subcore only reads, goes out as
  32 read shares beside a remainder that stays behind.  Nothing here depends on the float instance.
-/
import proofs.«203064_g33122787786777_cont_8to1_b_416_18_alg».proof.Proof.KTileDefs

noncomputable section

namespace Cert.Kernel.Deal

open Cert.Kernel Cert.Kernel.Gen Cert.Kernel.Alg Cert.Kernel.Tile

open Idealize.ShloMosaic
open Idealize.ShloMosaic.SparseCore (S V)
open Idealize.SL Idealize.SL.RA Idealize.SL.BI
open scoped Idealize.SL.BI
open Idealize.SL.BI.BIBase Idealize.SL.BI.Laws Idealize.SL.Sem Idealize.SL.ProofMode
open Idealize.ShloMosaic.Transfers

variable {F : FTy → Type}

local notation "𝕄" => MM F

/-! ## The grid point of a subcore, and the shares of the table -/

/-- The grid point of vector subcore `i` of SparseCore `c`. -/
def coordsOf (c : Fin 2) (i : Fin 16) : grid1.Coords :=
  fun | 0 => c | 1 => i | ⟨_ + 2, h⟩ => absurd h (Nat.not_lt.2 (Nat.le_add_left _ _))

theorem coordsOf_zero (c : Fin 2) (i : Fin 16) : coordsOf c i 0 = c := rfl
theorem coordsOf_one (c : Fin 2) (i : Fin 16) : coordsOf c i 1 = i := rfl

/-- The read share of the table that goes to subcore `(c, i)`: the token numbered `16 c + i` of the full share. -/
def tok (c : Fin 2) (i : Fin 16) : PosShare TreeShare := shareTokN fullShare (i.val + 16 * c.val)

/-- What is left of the full share once the 32 tokens are taken. -/
def rest : PosShare TreeShare := shareDrop fullShare 32

/-! ## The arrays as the TensorCore sees them -/

abbrev tabLoc (d : Dev nD) : Loc nD τ sig := (SparseCore.T d).loc main_v14
abbrev ixLoc0 (d : Dev nD) : Loc nD τ sig := (SparseCore.T d).loc main_v1
abbrev ixLoc1 (d : Dev nD) : Loc nD τ sig := (SparseCore.T d).loc main_v3
abbrev ixLoc2 (d : Dev nD) : Loc nD τ sig := (SparseCore.T d).loc main_v5
abbrev ixLoc3 (d : Dev nD) : Loc nD τ sig := (SparseCore.T d).loc main_v7
abbrev ixLoc4 (d : Dev nD) : Loc nD τ sig := (SparseCore.T d).loc main_v9
abbrev ixLoc5 (d : Dev nD) : Loc nD τ sig := (SparseCore.T d).loc main_v11
abbrev outLoc0 (d : Dev nD) : Loc nD τ sig := (SparseCore.T d).loc main_v15_0
abbrev outLoc1 (d : Dev nD) : Loc nD τ sig := (SparseCore.T d).loc main_v15_1
abbrev outLoc2 (d : Dev nD) : Loc nD τ sig := (SparseCore.T d).loc main_v15_2
abbrev outLoc3 (d : Dev nD) : Loc nD τ sig := (SparseCore.T d).loc main_v15_3
abbrev outLoc4 (d : Dev nD) : Loc nD τ sig := (SparseCore.T d).loc main_v15_4
abbrev outLoc5 (d : Dev nD) : Loc nD τ sig := (SparseCore.T d).loc main_v15_5

/-! ## The slices as sets of indices -/

/-- Entries [1024 i + 512 c, + 512) of an index vector: the rectangle the program slices. -/
abbrev ixRect (L : grid1.Coords) : Rect S16384 := Rect.unit (s := S16384) (k1_off1 L) S512.size (k1_off1_inb L)
/-- Rows [1024 i + 512 c + 128 r, + 128) of an output, all 128 columns. -/
abbrev outRect (L : grid1.Coords) (r : Fin 4) : Rect S16384x128 :=
  Rect.unit (s := S16384x128) (k1_off2 L (BitVec.ofNat 32 (128 * r.val))) S128x128.size (k1_off2_inb L r)

def ixSet (p : Fin 2 × Fin 16) : Finset S16384.Idx := (ixRect (coordsOf p.1 p.2)).set
def outSet (p : (Fin 2 × Fin 16) × Fin 4) : Finset S16384x128.Idx := (outRect (coordsOf p.1.1 p.1.2) p.2).set

/-- An entry lies in a subcore's slice exactly when its position lies in the subcore's range. -/
theorem mem_ixSet (p : Fin 2 × Fin 16) (x : S16384.Idx) :
    x ∈ ixSet p ↔ 1024 * p.2.val + 512 * p.1.val ≤ (x 0).val ∧ (x 0).val < 1024 * p.2.val + 512 * p.1.val + 512 := by
  unfold ixSet
  rw [Rect.mem_set_unit, k1_off1_eq, Fin.forall_fin_one]
  exact Iff.rfl

/-- An element of an output lies in a chunk exactly when its row lies in the chunk's range (every column does). -/
theorem mem_outSet (p : (Fin 2 × Fin 16) × Fin 4) (x : S16384x128.Idx) :
    x ∈ outSet p ↔ 1024 * p.1.2.val + 512 * p.1.1.val + 128 * p.2.val ≤ (x 0).val
      ∧ (x 0).val < 1024 * p.1.2.val + 512 * p.1.1.val + 128 * p.2.val + 128 := by
  unfold outSet
  rw [Rect.mem_set_unit, k1_off2_eq, Fin.forall_fin_two]
  constructor
  · intro h; exact h.1
  · intro h; exact ⟨h, Nat.zero_le _, by have := (x 1).isLt; exact this⟩

/-- Two different subcores' ranges of entries do not meet. -/
theorem ixSet_disjoint : ∀ p ∈ (Finset.univ : Finset (Fin 2 × Fin 16)), ∀ p' ∈ (Finset.univ : Finset (Fin 2 × Fin 16)),
    p ≠ p' → Disjoint (ixSet p) (ixSet p') := by
  intro p _ p' _ hne
  rw [Finset.disjoint_left]
  intro x hx hx'
  rw [mem_ixSet] at hx hx'
  apply hne
  have h1 := p.1.isLt; have h2 := p'.1.isLt
  refine Prod.ext (Fin.ext ?_) (Fin.ext ?_) <;> omega

/-- Every entry lies in some subcore's range: position x in that of subcore (x / 512 mod 2, x / 1024). -/
theorem ixSet_cover : (Finset.univ : Finset (Fin 2 × Fin 16)).biUnion ixSet = Finset.univ := by
  ext x
  simp only [Finset.mem_biUnion, Finset.mem_univ, true_and, iff_true]
  have hx : (x 0).val < 16384 := (x 0).isLt
  refine ⟨(⟨(x 0).val / 512 % 2, Nat.mod_lt _ (by decide)⟩, ⟨(x 0).val / 1024, by omega⟩), ?_⟩
  rw [mem_ixSet]
  show 1024 * ((x 0).val / 1024) + 512 * ((x 0).val / 512 % 2) ≤ (x 0).val ∧ (x 0).val < 1024 * ((x 0).val / 1024) + 512 * ((x 0).val / 512 % 2) + 512
  omega

/-- Two different chunks of rows do not meet. -/
theorem outSet_disjoint : ∀ p ∈ (Finset.univ : Finset ((Fin 2 × Fin 16) × Fin 4)), ∀ p' ∈ (Finset.univ : Finset ((Fin 2 × Fin 16) × Fin 4)),
    p ≠ p' → Disjoint (outSet p) (outSet p') := by
  intro p _ p' _ hne
  rw [Finset.disjoint_left]
  intro x hx hx'
  rw [mem_outSet] at hx hx'
  apply hne
  have h1 := p.1.1.isLt; have h2 := p'.1.1.isLt
  have h3 := p.2.isLt; have h4 := p'.2.isLt
  refine Prod.ext (Prod.ext (Fin.ext ?_) (Fin.ext ?_)) (Fin.ext ?_) <;> omega

/-- Every row lies in some chunk: row x in chunk x / 128 mod 4 of subcore (x / 512 mod 2, x / 1024). -/
theorem outSet_cover : (Finset.univ : Finset ((Fin 2 × Fin 16) × Fin 4)).biUnion outSet = Finset.univ := by
  ext x
  simp only [Finset.mem_biUnion, Finset.mem_univ, true_and, iff_true]
  have hx : (x 0).val < 16384 := (x 0).isLt
  refine ⟨((⟨(x 0).val / 512 % 2, Nat.mod_lt _ (by decide)⟩, ⟨(x 0).val / 1024, by omega⟩), ⟨(x 0).val / 128 % 4, Nat.mod_lt _ (by decide)⟩), ?_⟩
  rw [mem_outSet]
  show 1024 * ((x 0).val / 1024) + 512 * ((x 0).val / 512 % 2) + 128 * ((x 0).val / 128 % 4) ≤ (x 0).val
    ∧ (x 0).val < 1024 * ((x 0).val / 1024) + 512 * ((x 0).val / 512 % 2) + 128 * ((x 0).val / 128 % 4) + 128
  omega

/-! ## A whole array as the pieces of a pairwise disjoint cover -/

theorem whole_pieces {P : Type} [Fintype P] [DecidableEq P] (ℓ : Loc nD τ sig) (K : P → Finset (Idx ℓ))
    (hd : ∀ p ∈ (Finset.univ : Finset P), ∀ p' ∈ (Finset.univ : Finset P), p ≠ p' → Disjoint (K p) (K p'))
    (hc : (Finset.univ : Finset P).biUnion K = Finset.univ) (q : PosShare TreeShare) (f : Buf (Elt F) ℓ) :
    (ℓ ↦{q} f : sProp 𝕄) = bigSep Finset.univ fun p => ℓ ↦[K p]{q} f := by
  rw [← pointsTo_biUnion Finset.univ K hd, hc]

/-- Over the 2 x 16 subcores. -/
theorem whole_ix (ℓ : Loc nD τ sig) (K : Fin 2 × Fin 16 → Finset (Idx ℓ))
    (hd : ∀ p ∈ (Finset.univ : Finset (Fin 2 × Fin 16)), ∀ p' ∈ (Finset.univ : Finset (Fin 2 × Fin 16)), p ≠ p' → Disjoint (K p) (K p'))
    (hc : (Finset.univ : Finset (Fin 2 × Fin 16)).biUnion K = Finset.univ) (f : Buf (Elt F) ℓ)
    (Φ : Fin 2 → Fin 16 → sProp 𝕄) (hΦ : ∀ c i, Φ c i = ℓ ↦[K (c, i)]{fullShare} f) :
    (ℓ ↦{fullShare} f : sProp 𝕄) = bigSep Finset.univ fun c => bigSep Finset.univ fun i => Φ c i := by
  rw [whole_pieces ℓ K hd hc, bigSep_univ_prod]
  exact bigSep_congr fun c _ => bigSep_congr fun i _ => (hΦ c i).symm

theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- Over the 2 x 16 subcores and the four chunks of each. -/
theorem whole_out (ℓ : Loc nD τ sig) (K : (Fin 2 × Fin 16) × Fin 4 → Finset (Idx ℓ))
    (hd : ∀ p ∈ (Finset.univ : Finset ((Fin 2 × Fin 16) × Fin 4)), ∀ p' ∈ (Finset.univ : Finset ((Fin 2 × Fin 16) × Fin 4)), p ≠ p' → Disjoint (K p) (K p'))
    (hc : (Finset.univ : Finset ((Fin 2 × Fin 16) × Fin 4)).biUnion K = Finset.univ) (f : Buf (Elt F) ℓ)
    (Φ : Fin 2 → Fin 16 → Fin 4 → sProp 𝕄) (hΦ : ∀ c i r, Φ c i r = ℓ ↦[K ((c, i), r)]{fullShare} f) :
    (ℓ ↦{fullShare} f : sProp 𝕄)
      = bigSep Finset.univ fun c => bigSep Finset.univ fun i => iprop(Φ c i 0 ∗ Φ c i 1 ∗ Φ c i 2 ∗ Φ c i 3) := by
  rw [whole_pieces ℓ K hd hc, bigSep_univ_prod, bigSep_univ_prod]
  refine bigSep_congr fun c _ => bigSep_congr fun i _ => ?_
  rw [bigSep_fin_four, hΦ, hΦ, hΦ, hΦ]

/-! ## Each array, dealt -/

theorem ixPts0_eq (d : Dev nD) (c : Fin 2) (i : Fin 16) (f : IxC F) :
    (ixPts d (coordsOf c i) ixW0 f : sProp 𝕄) = (ixLoc0 d ↦[ixSet (c, i)]{fullShare} f) :=
  congrArg (fun I => (pointsTo (ixLoc0 d) I fullShare f : sProp 𝕄)) (View.set_slice_whole main_v1_scv (ixRect (coordsOf c i)))
theorem ix0_deal (d : Dev nD) (f : IxC F) :
    (ixLoc0 d ↦{fullShare} f : sProp 𝕄) = bigSep Finset.univ fun c => bigSep Finset.univ fun i => ixPts d (coordsOf c i) ixW0 f :=
  whole_ix (ixLoc0 d) ixSet ixSet_disjoint ixSet_cover f (fun c i => ixPts d (coordsOf c i) ixW0 f) (ixPts0_eq d · · f)

theorem ixPts1_eq (d : Dev nD) (c : Fin 2) (i : Fin 16) (f : IxC F) :
    (ixPts d (coordsOf c i) ixW1 f : sProp 𝕄) = (ixLoc1 d ↦[ixSet (c, i)]{fullShare} f) :=
  congrArg (fun I => (pointsTo (ixLoc1 d) I fullShare f : sProp 𝕄)) (View.set_slice_whole main_v3_scv (ixRect (coordsOf c i)))
theorem ix1_deal (d : Dev nD) (f : IxC F) :
    (ixLoc1 d ↦{fullShare} f : sProp 𝕄) = bigSep Finset.univ fun c => bigSep Finset.univ fun i => ixPts d (coordsOf c i) ixW1 f :=
  whole_ix (ixLoc1 d) ixSet ixSet_disjoint ixSet_cover f (fun c i => ixPts d (coordsOf c i) ixW1 f) (ixPts1_eq d · · f)

theorem ixPts2_eq (d : Dev nD) (c : Fin 2) (i : Fin 16) (f : IxC F) :
    (ixPts d (coordsOf c i) ixW2 f : sProp 𝕄) = (ixLoc2 d ↦[ixSet (c, i)]{fullShare} f) :=
  congrArg (fun I => (pointsTo (ixLoc2 d) I fullShare f : sProp 𝕄)) (View.set_slice_whole main_v5_scv (ixRect (coordsOf c i)))
theorem ix2_deal (d : Dev nD) (f : IxC F) :
    (ixLoc2 d ↦{fullShare} f : sProp 𝕄) = bigSep Finset.univ fun c => bigSep Finset.univ fun i => ixPts d (coordsOf c i) ixW2 f :=
  whole_ix (ixLoc2 d) ixSet ixSet_disjoint ixSet_cover f (fun c i => ixPts d (coordsOf c i) ixW2 f) (ixPts2_eq d · · f)

theorem ixPts3_eq (d : Dev nD) (c : Fin 2) (i : Fin 16) (f : IxC F) :
    (ixPts d (coordsOf c i) ixW3 f : sProp 𝕄) = (ixLoc3 d ↦[ixSet (c, i)]{fullShare} f) :=
  congrArg (fun I => (pointsTo (ixLoc3 d) I fullShare f : sProp 𝕄)) (View.set_slice_whole main_v7_scv (ixRect (coordsOf c i)))
theorem ix3_deal (d : Dev nD) (f : IxC F) :
    (ixLoc3 d ↦{fullShare} f : sProp 𝕄) = bigSep Finset.univ fun c => bigSep Finset.univ fun i => ixPts d (coordsOf c i) ixW3 f :=
  whole_ix (ixLoc3 d) ixSet ixSet_disjoint ixSet_cover f (fun c i => ixPts d (coordsOf c i) ixW3 f) (ixPts3_eq d · · f)

theorem ixPts4_eq (d : Dev nD) (c : Fin 2) (i : Fin 16) (f : IxC F) :
    (ixPts d (coordsOf c i) ixW4 f : sProp 𝕄) = (ixLoc4 d ↦[ixSet (c, i)]{fullShare} f) :=
  congrArg (fun I => (pointsTo (ixLoc4 d) I fullShare f : sProp 𝕄)) (View.set_slice_whole main_v9_scv (ixRect (coordsOf c i)))
theorem ix4_deal (d : Dev nD) (f : IxC F) :
    (ixLoc4 d ↦{fullShare} f : sProp 𝕄) = bigSep Finset.univ fun c => bigSep Finset.univ fun i => ixPts d (coordsOf c i) ixW4 f :=
  whole_ix (ixLoc4 d) ixSet ixSet_disjoint ixSet_cover f (fun c i => ixPts d (coordsOf c i) ixW4 f) (ixPts4_eq d · · f)

theorem ixPts5_eq (d : Dev nD) (c : Fin 2) (i : Fin 16) (f : IxC F) :
    (ixPts d (coordsOf c i) ixW5 f : sProp 𝕄) = (ixLoc5 d ↦[ixSet (c, i)]{fullShare} f) :=
  congrArg (fun I => (pointsTo (ixLoc5 d) I fullShare f : sProp 𝕄)) (View.set_slice_whole main_v11_scv (ixRect (coordsOf c i)))
theorem ix5_deal (d : Dev nD) (f : IxC F) :
    (ixLoc5 d ↦{fullShare} f : sProp 𝕄) = bigSep Finset.univ fun c => bigSep Finset.univ fun i => ixPts d (coordsOf c i) ixW5 f :=
  whole_ix (ixLoc5 d) ixSet ixSet_disjoint ixSet_cover f (fun c i => ixPts d (coordsOf c i) ixW5 f) (ixPts5_eq d · · f)

theorem outPts0_eq (d : Dev nD) (c : Fin 2) (i : Fin 16) (r : Fin 4) (f : OutC F) :
    (outPts d (coordsOf c i) outW0 r f : sProp 𝕄) = (outLoc0 d ↦[outSet ((c, i), r)]{fullShare} f) :=
  congrArg (fun I => (pointsTo (outLoc0 d) I fullShare f : sProp 𝕄)) (View.set_slice_whole main_v15_0_scv (outRect (coordsOf c i) r))
theorem out0_deal (d : Dev nD) (f : OutC F) :
    (outLoc0 d ↦{fullShare} f : sProp 𝕄) = bigSep Finset.univ fun c => bigSep Finset.univ fun i => outPts4 d (coordsOf c i) outW0 f :=
  whole_out (outLoc0 d) outSet outSet_disjoint outSet_cover f (fun c i r => outPts d (coordsOf c i) outW0 r f) (outPts0_eq d · · · f)

theorem outPts1_eq (d : Dev nD) (c : Fin 2) (i : Fin 16) (r : Fin 4) (f : OutC F) :
    (outPts d (coordsOf c i) outW1 r f : sProp 𝕄) = (outLoc1 d ↦[outSet ((c, i), r)]{fullShare} f) :=
  congrArg (fun I => (pointsTo (outLoc1 d) I fullShare f : sProp 𝕄)) (View.set_slice_whole main_v15_1_scv (outRect (coordsOf c i) r))
theorem out1_deal (d : Dev nD) (f : OutC F) :
    (outLoc1 d ↦{fullShare} f : sProp 𝕄) = bigSep Finset.univ fun c => bigSep Finset.univ fun i => outPts4 d (coordsOf c i) outW1 f :=
  whole_out (outLoc1 d) outSet outSet_disjoint outSet_cover f (fun c i r => outPts d (coordsOf c i) outW1 r f) (outPts1_eq d · · · f)

theorem outPts2_eq (d : Dev nD) (c : Fin 2) (i : Fin 16) (r : Fin 4) (f : OutC F) :
    (outPts d (coordsOf c i) outW2 r f : sProp 𝕄) = (outLoc2 d ↦[outSet ((c, i), r)]{fullShare} f) :=
  congrArg (fun I => (pointsTo (outLoc2 d) I fullShare f : sProp 𝕄)) (View.set_slice_whole main_v15_2_scv (outRect (coordsOf c i) r))
theorem out2_deal (d : Dev nD) (f : OutC F) :
    (outLoc2 d ↦{fullShare} f : sProp 𝕄) = bigSep Finset.univ fun c => bigSep Finset.univ fun i => outPts4 d (coordsOf c i) outW2 f :=
  whole_out (outLoc2 d) outSet outSet_disjoint outSet_cover f (fun c i r => outPts d (coordsOf c i) outW2 r f) (outPts2_eq d · · · f)

theorem outPts3_eq (d : Dev nD) (c : Fin 2) (i : Fin 16) (r : Fin 4) (f : OutC F) :
    (outPts d (coordsOf c i) outW3 r f : sProp 𝕄) = (outLoc3 d ↦[outSet ((c, i), r)]{fullShare} f) :=
  congrArg (fun I => (pointsTo (outLoc3 d) I fullShare f : sProp 𝕄)) (View.set_slice_whole main_v15_3_scv (outRect (coordsOf c i) r))
theorem out3_deal (d : Dev nD) (f : OutC F) :
    (outLoc3 d ↦{fullShare} f : sProp 𝕄) = bigSep Finset.univ fun c => bigSep Finset.univ fun i => outPts4 d (coordsOf c i) outW3 f :=
  whole_out (outLoc3 d) outSet outSet_disjoint outSet_cover f (fun c i r => outPts d (coordsOf c i) outW3 r f) (outPts3_eq d · · · f)

theorem outPts4_eq (d : Dev nD) (c : Fin 2) (i : Fin 16) (r : Fin 4) (f : OutC F) :
    (outPts d (coordsOf c i) outW4 r f : sProp 𝕄) = (outLoc4 d ↦[outSet ((c, i), r)]{fullShare} f) :=
  congrArg (fun I => (pointsTo (outLoc4 d) I fullShare f : sProp 𝕄)) (View.set_slice_whole main_v15_4_scv (outRect (coordsOf c i) r))
theorem out4_deal (d : Dev nD) (f : OutC F) :
    (outLoc4 d ↦{fullShare} f : sProp 𝕄) = bigSep Finset.univ fun c => bigSep Finset.univ fun i => outPts4 d (coordsOf c i) outW4 f :=
  whole_out (outLoc4 d) outSet outSet_disjoint outSet_cover f (fun c i r => outPts d (coordsOf c i) outW4 r f) (outPts4_eq d · · · f)

theorem outPts5_eq (d : Dev nD) (c : Fin 2) (i : Fin 16) (r : Fin 4) (f : OutC F) :
    (outPts d (coordsOf c i) outW5 r f : sProp 𝕄) = (outLoc5 d ↦[outSet ((c, i), r)]{fullShare} f) :=
  congrArg (fun I => (pointsTo (outLoc5 d) I fullShare f : sProp 𝕄)) (View.set_slice_whole main_v15_5_scv (outRect (coordsOf c i) r))
theorem out5_deal (d : Dev nD) (f : OutC F) :
    (outLoc5 d ↦{fullShare} f : sProp 𝕄) = bigSep Finset.univ fun c => bigSep Finset.univ fun i => outPts4 d (coordsOf c i) outW5 f :=
  whole_out (outLoc5 d) outSet outSet_disjoint outSet_cover f (fun c i r => outPts d (coordsOf c i) outW5 r f) (outPts5_eq d · · · f)

/-! ## The table's read shares -/

/-- The full share of the table is the remainder and the 32 tokens, one per subcore. -/
theorem tab_toks (d : Dev nD) (tab : TabC F) :
    (tabLoc d ↦{fullShare} tab : sProp 𝕄)
      ⊣⊢ iprop((tabLoc d ↦{rest} tab) ∗ bigSep Finset.univ fun c : Fin 2 => bigSep Finset.univ fun i : Fin 16 => tabLoc d ↦{tok c i} tab) := by
  have h : (tabLoc d ↦{fullShare} tab : sProp 𝕄)
      ⊣⊢ iprop((tabLoc d ↦{shareDrop fullShare 32} tab) ∗ bigSep Finset.univ (fun j : Fin 32 => tabLoc d ↦{shareTok fullShare 32 j} tab)) :=
    pointsTo_toks fullShare 32
  have e : (bigSep Finset.univ (fun j : Fin 32 => (tabLoc d ↦{shareTok fullShare 32 j} tab : sProp 𝕄)))
      = bigSep Finset.univ fun c : Fin 2 => bigSep Finset.univ fun i : Fin 16 => tabLoc d ↦{tok c i} tab := by
    rw [bigSep_univ_equiv (finProdFinEquiv.trans (finCongr (show 2 * 16 = 32 from rfl))), bigSep_univ_prod]
    rfl
  rw [e] at h
  exact h

/-! ## All the subcores' hand-outs together -/

theorem tiles_eq (d : Dev nD) (q : Fin 2 → Fin 16 → PosShare TreeShare) (tab : TabC F) (ix : Fin 6 → IxC F) (o : Fin 6 → OutC F) :
    (bigSep Finset.univ fun c : Fin 2 => bigSep Finset.univ fun i : Fin 16 => tileGo d (coordsOf c i) (q c i) tab ix o : sProp 𝕄)
      = iprop((bigSep Finset.univ fun c : Fin 2 => bigSep Finset.univ fun i : Fin 16 => tabLoc d ↦{q c i} tab)
          ∗ ((ixLoc0 d ↦{fullShare} ix 0) ∗ (ixLoc1 d ↦{fullShare} ix 1) ∗ (ixLoc2 d ↦{fullShare} ix 2) ∗ (ixLoc3 d ↦{fullShare} ix 3) ∗ (ixLoc4 d ↦{fullShare} ix 4) ∗ (ixLoc5 d ↦{fullShare} ix 5))
          ∗ ((outLoc0 d ↦{fullShare} o 0) ∗ (outLoc1 d ↦{fullShare} o 1) ∗ (outLoc2 d ↦{fullShare} o 2) ∗ (outLoc3 d ↦{fullShare} o 3) ∗ (outLoc4 d ↦{fullShare} o 4) ∗ (outLoc5 d ↦{fullShare} o 5))) := by
  rw [ix0_deal, ix1_deal, ix2_deal, ix3_deal, ix4_deal, ix5_deal, out0_deal, out1_deal, out2_deal, out3_deal, out4_deal, out5_deal]
  unfold tileGo
  simp only [bigSep_sep']

theorem tileTd_eq (d : Dev nD) (L : grid1.Coords) (q : PosShare TreeShare) (tab : TabC F) (ix : Fin 6 → IxC F) :
    (tileTd d L q tab ix : sProp 𝕄) = tileGo d L q tab ix (fun t => gathered tab (ix t)) := by
  unfold tileTd tileGo; rfl

/-! ## Dealing and collecting -/

theorem deal (d : Dev nD) (tab : TabC F) (ix : Fin 6 → IxC F) (o : Fin 6 → OutC F) :
    iprop(((SparseCore.T d).loc main_v14 ↦{fullShare} tab)
        ∗ (((SparseCore.T d).loc main_v1 ↦{fullShare} ix 0) ∗ ((SparseCore.T d).loc main_v3 ↦{fullShare} ix 1) ∗ ((SparseCore.T d).loc main_v5 ↦{fullShare} ix 2) ∗ ((SparseCore.T d).loc main_v7 ↦{fullShare} ix 3) ∗ ((SparseCore.T d).loc main_v9 ↦{fullShare} ix 4) ∗ ((SparseCore.T d).loc main_v11 ↦{fullShare} ix 5))
        ∗ (((SparseCore.T d).loc main_v15_0 ↦{fullShare} o 0) ∗ ((SparseCore.T d).loc main_v15_1 ↦{fullShare} o 1) ∗ ((SparseCore.T d).loc main_v15_2 ↦{fullShare} o 2) ∗ ((SparseCore.T d).loc main_v15_3 ↦{fullShare} o 3) ∗ ((SparseCore.T d).loc main_v15_4 ↦{fullShare} o 4) ∗ ((SparseCore.T d).loc main_v15_5 ↦{fullShare} o 5)))
      ⊢ (iprop(((SparseCore.T d).loc main_v14 ↦{rest} tab)
          ∗ bigSep Finset.univ fun c : Fin 2 => bigSep Finset.univ fun i : Fin 16 => tileGo d (coordsOf c i) (tok c i) tab ix o) : sProp 𝕄) := by
  rw [tiles_eq d tok tab ix o]
  iintro ⟨Htab, Hrest⟩
  ihave H := (tab_toks d tab).1 $$ Htab
  icases H with ⟨Hr, Ht⟩
  isplitl [Hr]; · iexact Hr
  isplitl [Ht]; · iexact Ht
  iexact Hrest

theorem collect (d : Dev nD) (tab : TabC F) (ix : Fin 6 → IxC F) :
    iprop(((SparseCore.T d).loc main_v14 ↦{rest} tab)
        ∗ bigSep Finset.univ fun c : Fin 2 => bigSep Finset.univ fun i : Fin 16 => tileTd d (coordsOf c i) (tok c i) tab ix)
      ⊢ (iprop(((SparseCore.T d).loc main_v14 ↦{fullShare} tab)
        ∗ (((SparseCore.T d).loc main_v1 ↦{fullShare} ix 0) ∗ ((SparseCore.T d).loc main_v3 ↦{fullShare} ix 1) ∗ ((SparseCore.T d).loc main_v5 ↦{fullShare} ix 2) ∗ ((SparseCore.T d).loc main_v7 ↦{fullShare} ix 3) ∗ ((SparseCore.T d).loc main_v9 ↦{fullShare} ix 4) ∗ ((SparseCore.T d).loc main_v11 ↦{fullShare} ix 5))
        ∗ (((SparseCore.T d).loc main_v15_0 ↦{fullShare} gathered tab (ix 0)) ∗ ((SparseCore.T d).loc main_v15_1 ↦{fullShare} gathered tab (ix 1)) ∗ ((SparseCore.T d).loc main_v15_2 ↦{fullShare} gathered tab (ix 2)) ∗ ((SparseCore.T d).loc main_v15_3 ↦{fullShare} gathered tab (ix 3)) ∗ ((SparseCore.T d).loc main_v15_4 ↦{fullShare} gathered tab (ix 4)) ∗ ((SparseCore.T d).loc main_v15_5 ↦{fullShare} gathered tab (ix 5)))) : sProp 𝕄) := by
  simp only [tileTd_eq]
  rw [tiles_eq d tok tab ix (fun t => gathered tab (ix t))]
  iintro ⟨Hr, Ht, Hrest⟩
  isplitl [Hr Ht]
  · iapply (tab_toks d tab).2
    isplitl [Hr]; · iexact Hr
    iexact Ht
  · iexact Hrest

/-- A subcore's share of the table and the remainder hold the same table. -/
theorem tab_agree (d : Dev nD) (L : grid1.Coords) (q : PosShare TreeShare) (tab tab' : TabC F) (ix : Fin 6 → IxC F) :
    iprop(((SparseCore.T d).loc main_v14 ↦{rest} tab) ∗ tileTd d L q tab' ix)
      ⊢ (iprop(⌜tab' = tab⌝ ∗ ((SparseCore.T d).loc main_v14 ↦{rest} tab) ∗ tileTd d L q tab ix) : sProp 𝕄) := by
  have hag : iprop(((SparseCore.T d).loc main_v14 ↦{rest} tab) ∗ tileTd d L q tab' ix) ⊢ (⌜tab' = tab⌝ : sProp 𝕄) := by
    unfold tileTd
    iintro ⟨Ha, Hb, -⟩
    ihave %h := (pointsTo_agree (ℓ := tabLoc d) (I := Finset.univ) (J := Finset.univ) (q₁ := rest) (q₂ := q) (f := tab) (g := tab')) $$ [Ha Hb]
    · isplitl [Ha]; · iexact Ha
      iexact Hb
    ipureintro
    funext x
    exact ((h x (Finset.mem_inter.mpr ⟨Finset.mem_univ _, Finset.mem_univ _⟩)).1).symm
  refine pure_elim _ hag fun h => ?_
  subst h
  iintro H
  isplitr; · ipureintro; rfl
  iexact H

/-! ## The same with each subcore's table held under an existential -/

theorem deal_ex (d : Dev nD) (tab : TabC F) (ix : Fin 6 → IxC F) (o : Fin 6 → OutC F) :
    iprop(((SparseCore.T d).loc main_v14 ↦{fullShare} tab)
        ∗ (((SparseCore.T d).loc main_v1 ↦{fullShare} ix 0) ∗ ((SparseCore.T d).loc main_v3 ↦{fullShare} ix 1) ∗ ((SparseCore.T d).loc main_v5 ↦{fullShare} ix 2) ∗ ((SparseCore.T d).loc main_v7 ↦{fullShare} ix 3) ∗ ((SparseCore.T d).loc main_v9 ↦{fullShare} ix 4) ∗ ((SparseCore.T d).loc main_v11 ↦{fullShare} ix 5))
        ∗ (((SparseCore.T d).loc main_v15_0 ↦{fullShare} o 0) ∗ ((SparseCore.T d).loc main_v15_1 ↦{fullShare} o 1) ∗ ((SparseCore.T d).loc main_v15_2 ↦{fullShare} o 2) ∗ ((SparseCore.T d).loc main_v15_3 ↦{fullShare} o 3) ∗ ((SparseCore.T d).loc main_v15_4 ↦{fullShare} o 4) ∗ ((SparseCore.T d).loc main_v15_5 ↦{fullShare} o 5)))
      ⊢ (iprop(((SparseCore.T d).loc main_v14 ↦{rest} tab)
          ∗ bigSep Finset.univ fun c : Fin 2 => bigSep Finset.univ fun i : Fin 16 =>
              iprop(∃ tab' : TabC F, tileGo d (coordsOf c i) (tok c i) tab' ix o)) : sProp 𝕄) :=
  (deal d tab ix o).trans (sep_mono_right (bigSep_mono fun c _ => bigSep_mono fun i _ =>
    exists_intro (Φ := fun tab' : TabC F => tileGo d (coordsOf c i) (tok c i) tab' ix o) tab))

/-- Agreement with what stays behind, threaded through a family: if each member, beside `R`, is forced to hold the
    table `tab`, so is the whole family. -/
theorem thread_agree {P : Type} [DecidableEq P] (s : Finset P) (R : sProp 𝕄) (Φ : P → TabC F → sProp 𝕄) (tab : TabC F)
    (h : ∀ p tab', iprop(R ∗ Φ p tab') ⊢ iprop(⌜tab' = tab⌝ ∗ R ∗ Φ p tab)) :
    iprop(R ∗ bigSep s fun p => iprop(∃ tab', Φ p tab')) ⊢ iprop(R ∗ bigSep s fun p => Φ p tab) := by
  induction s using Finset.induction_on with
  | empty => rw [bigSep_empty, bigSep_empty]
  | insert a s ha ih =>
    rw [bigSep_insert ha, bigSep_insert ha]
    refine (show iprop(R ∗ (iprop(∃ tab', Φ a tab') ∗ bigSep s fun p => iprop(∃ tab', Φ p tab')))
      ⊢ iprop(R ∗ (Φ a tab ∗ bigSep s fun p => Φ p tab)) from ?_)
    iintro ⟨HR, ⟨%tab', Ha⟩, Hs⟩
    ihave H := (h a tab') $$ [HR Ha]
    · isplitl [HR]; · iexact HR
      iexact Ha
    icases H with ⟨-, HR, Ha⟩
    ihave H2 := ih $$ [HR Hs]
    · isplitl [HR]; · iexact HR
      iexact Hs
    icases H2 with ⟨HR, Hs⟩
    isplitl [HR]; · iexact HR
    isplitl [Ha]; · iexact Ha
    iexact Hs

theorem collect_ex (d : Dev nD) (tab : TabC F) (ix : Fin 6 → IxC F) :
    iprop(((SparseCore.T d).loc main_v14 ↦{rest} tab)
        ∗ bigSep Finset.univ fun c : Fin 2 => bigSep Finset.univ fun i : Fin 16 =>
            iprop(∃ tab' : TabC F, tileTd d (coordsOf c i) (tok c i) tab' ix))
      ⊢ (iprop(((SparseCore.T d).loc main_v14 ↦{fullShare} tab)
        ∗ (((SparseCore.T d).loc main_v1 ↦{fullShare} ix 0) ∗ ((SparseCore.T d).loc main_v3 ↦{fullShare} ix 1) ∗ ((SparseCore.T d).loc main_v5 ↦{fullShare} ix 2) ∗ ((SparseCore.T d).loc main_v7 ↦{fullShare} ix 3) ∗ ((SparseCore.T d).loc main_v9 ↦{fullShare} ix 4) ∗ ((SparseCore.T d).loc main_v11 ↦{fullShare} ix 5))
        ∗ (((SparseCore.T d).loc main_v15_0 ↦{fullShare} gathered tab (ix 0)) ∗ ((SparseCore.T d).loc main_v15_1 ↦{fullShare} gathered tab (ix 1)) ∗ ((SparseCore.T d).loc main_v15_2 ↦{fullShare} gathered tab (ix 2)) ∗ ((SparseCore.T d).loc main_v15_3 ↦{fullShare} gathered tab (ix 3)) ∗ ((SparseCore.T d).loc main_v15_4 ↦{fullShare} gathered tab (ix 4)) ∗ ((SparseCore.T d).loc main_v15_5 ↦{fullShare} gathered tab (ix 5)))) : sProp 𝕄) := by
  refine BIBase.Entails.trans ?_ (collect d tab ix)
  have e1 : (bigSep Finset.univ fun c : Fin 2 => bigSep Finset.univ fun i : Fin 16 =>
        (iprop(∃ tab' : TabC F, tileTd d (coordsOf c i) (tok c i) tab' ix) : sProp 𝕄))
      = bigSep Finset.univ fun p : Fin 2 × Fin 16 => iprop(∃ tab' : TabC F, tileTd d (coordsOf p.1 p.2) (tok p.1 p.2) tab' ix) :=
    (bigSep_univ_prod (fun p : Fin 2 × Fin 16 => (iprop(∃ tab' : TabC F, tileTd d (coordsOf p.1 p.2) (tok p.1 p.2) tab' ix) : sProp 𝕄))).symm
  have e2 : (bigSep Finset.univ fun c : Fin 2 => bigSep Finset.univ fun i : Fin 16 =>
        (tileTd d (coordsOf c i) (tok c i) tab ix : sProp 𝕄))
      = bigSep Finset.univ fun p : Fin 2 × Fin 16 => tileTd d (coordsOf p.1 p.2) (tok p.1 p.2) tab ix :=
    (bigSep_univ_prod (fun p : Fin 2 × Fin 16 => (tileTd d (coordsOf p.1 p.2) (tok p.1 p.2) tab ix : sProp 𝕄))).symm
  rw [e1, e2]
  exact thread_agree (F := F) (Finset.univ : Finset (Fin 2 × Fin 16)) (((SparseCore.T d).loc main_v14 ↦{rest} tab : sProp 𝕄))
    (fun p tab' => tileTd d (coordsOf p.1 p.2) (tok p.1 p.2) tab' ix) tab
    (fun p tab' => tab_agree d (coordsOf p.1 p.2) (tok p.1 p.2) tab tab' ix)

end Cert.Kernel.Deal

end
-- ==== Proof.KPay.lean ====
/-
  What the launch handshakes carry at the SparseCore call: a tile is handed a read share of the packed table (at
  whatever contents the packing region left), its rows of the six index vectors and its rows of the six output
  arrays, and hands them back with the outputs at the gathered rows; a SparseCore's share is its sixteen tiles'.
-/
import proofs.«203064_g33122787786777_cont_8to1_b_416_18_alg».proof.Proof.KVals
import proofs.«203064_g33122787786777_cont_8to1_b_416_18_alg».proof.Proof.KDeal
import Idealize.ShloMosaic.Lib.SparseCore.Launch

set_option synthInstance.maxSize 4096

noncomputable section

namespace Cert.Kernel.PayM

open Cert.Kernel Cert.Kernel.Gen Cert.Kernel.Alg Cert.Kernel.Vals Cert.Kernel.Tile Cert.Kernel.Deal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ)

/-- Tile (c, i)'s operands, the table at some contents. -/
def goAt (d : Dev nD) (c : Fin 2) (i : Fin 16) : sProp 𝕄 :=
  iprop(∃ tab : TabC F, tileGo d (coordsOf c i) (tok c i) tab (ixOf m d) (outOf m d))
/-- Its results: the outputs' rows at the rows of that table its indices name. -/
def tdAt (d : Dev nD) (c : Fin 2) (i : Fin 16) : sProp 𝕄 :=
  iprop(∃ tab : TabC F, tileTd d (coordsOf c i) (tok c i) tab (ixOf m d))

set_option synthInstance.maxHeartbeats 1000000 in
set_option maxHeartbeats 1000000 in
instance goAt_storable (d : Dev nD) (c : Fin 2) (i : Fin 16) : BI.Storable (upEmb : UEmb _ 𝕄) (goAt m d c i) := by
  unfold goAt tileGo; infer_instance
set_option synthInstance.maxHeartbeats 1000000 in
set_option maxHeartbeats 1000000 in
instance tdAt_storable (d : Dev nD) (c : Fin 2) (i : Fin 16) : BI.Storable (upEmb : UEmb _ 𝕄) (tdAt m d c i) := by
  unfold tdAt tileTd; infer_instance

/-- The one call's payloads. -/
def P : (K (F := F)).Pay (nD := nD) (Val := Elt F) (Name := ℕ) (U := UU) where
  st := fun q d c => match q with | 0 => bigSep Finset.univ fun i : Fin 16 => goAt m d (Fin.cast nCore_zero c) i
  dn := fun q d c => match q with | 0 => bigSep Finset.univ fun i : Fin 16 => tdAt m d (Fin.cast nCore_zero c) i
  go := fun q d c i => match q with | 0 => goAt m d (Fin.cast nCore_zero c) (Fin.cast nSub_zero i)
  td := fun q d c i => match q with | 0 => tdAt m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goAt m d (Fin.cast nCore_zero c) i))
  dn q d c := match q with
    | 0 => (inferInstance : BI.Storable (upEmb : UEmb _ 𝕄) (bigSep Finset.univ fun i : Fin 16 => tdAt m d (Fin.cast nCore_zero c) i))
  go q d c i := match q with
    | 0 => (inferInstance : BI.Storable (upEmb : UEmb _ 𝕄) (goAt m d (Fin.cast nCore_zero c) (Fin.cast nSub_zero i)))
  td q d c i := match q with
    | 0 => (inferInstance : BI.Storable (upEmb : UEmb _ 𝕄) (tdAt m d (Fin.cast nCore_zero c) (Fin.cast nSub_zero i)))

/-- A SparseCore's operands ARE its tiles' and its results theirs. -/
theorem vecSplit : (K (F := F)).VecSplit (P m) 0 := by
  refine SparseCore.Cfg.VecSplit.of_plain ?_
  intro d c
  show (bigSep (Finset.univ : Finset (Fin 16)) fun i => goAt m d (Fin.cast nCore_zero c) i)
    ⊢ |={Set.univ}=> iprop((bigSep (Finset.univ : Finset (Fin 16)) fun i => goAt m d (Fin.cast nCore_zero c) i)
        ∗ ((bigSep (Finset.univ : Finset (Fin 16)) fun i => tdAt m d (Fin.cast nCore_zero c) i) -∗ (bigSep (Finset.univ : Finset (Fin 16)) fun i => tdAt m d (Fin.cast nCore_zero c) i)))
  iintro H
  imodintro
  isplitl [H]; · iexact H
  iintro H; iexact H

end Cert.Kernel.PayM

end
-- ==== Proof.KMain.lean ====
/-
  @main on the TensorCore inside the SparseCore launch: the first host stretch and the packing region, the SparseCore
  call, the second host stretch, the dense region and the closing reshape.
-/
import proofs.«203064_g33122787786777_cont_8to1_b_416_18_alg».proof.Proof.KSegs
import proofs.«203064_g33122787786777_cont_8to1_b_416_18_alg».proof.Proof.KPay
set_option maxRecDepth 16384

noncomputable section

namespace Cert.Kernel.Main

open Cert.Kernel Cert.Kernel.Gen Cert.Kernel.Alg Cert.Kernel.Host Cert.Kernel.Vals
open Cert.Kernel.TcState Cert.Kernel.Ghost Cert.Kernel.Segs Cert.Kernel.PayM
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MM F

variable (m : (ℓ : Loc nD τ sig) → Buf (Elt F) ℓ)

/-- A host stretch over a set of whole buffers, the rest of the thread state riding along. -/
abbrev hseg (Sb : Finset (DevRef τ sig)) (ops : List (HloOp τ sig (Elt F))) (hS : ∀ op ∈ ops, op.bufs ⊆ Sb)
    (hfresh : ops.Forall fun op => op.fresh = ∅) (W : Dev nD → Valuation τ sig (Elt F)) (R : Dev nD → sProp 𝕄) :
    Pipeline.HostSeg (Name := ℕ) (U := UU) (pcfgs (F := F)) defs₀ 𝒱₀ (KL (F := F)) (Klv (F := F)) :=
  Pipeline.HostSeg.ofOps _ _ _ _ _ Sb ops hS (fun op h => (List.forall_iff_forall_mem.mp hfresh) op h) W R

theorem hS0 : ∀ op ∈ (hostOps0 : List (HloOp τ sig (Elt F))), op.bufs ⊆ Pipeline.ucRefs τ sig :=
  fun op h => Pipeline.sub_ucRefs op ((List.forall_iff_forall_mem.mp hostOps0_sub) op h)

/-- No operation of the later stretches touches the packed table. -/
theorem hS1 : ∀ op ∈ (hostOps1 : List (HloOp τ sig (Elt F))), op.bufs ⊆ U' := fun op h => by
  refine Finset.subset_sdiff.mpr ⟨Pipeline.sub_ucRefs op ((List.forall_iff_forall_mem.mp hostOps1_sub) op h), ?_⟩
  simp only [hostOps1, List.mem_cons, List.mem_nil_iff, or_false] at h
  rcases h with rfl | rfl | rfl | rfl | rfl | rfl | rfl | rfl | rfl <;>
    (first | rw [StableHlo.unary_bufs] | rw [StableHlo.binary_bufs] | rw [StableHlo.reshape_bufs]) <;> decide
theorem hS2 : ∀ op ∈ (hostOps2 : List (HloOp τ sig (Elt F))), op.bufs ⊆ U' := fun op h => by
  refine Finset.subset_sdiff.mpr ⟨Pipeline.sub_ucRefs op ((List.forall_iff_forall_mem.mp hostOps2_sub) op h), ?_⟩
  simp only [hostOps2, List.mem_cons, List.mem_nil_iff, or_false] at h
  rcases h with rfl
  rw [StableHlo.reshape_bufs]; decide

abbrev host0 := hseg (F := F) (Pipeline.ucRefs τ sig) hostOps0 hS0 hostOps0_fresh (W0 m) (RR (F := F) 0)
abbrev host1 := hseg (F := F) U' hostOps1 hS1 hostOps1_fresh (W3 m) (RT (F := F) 1)
abbrev host2 := hseg (F := F) U' hostOps2 hS2 hostOps2_fresh (W5 m) (RT (F := F) 1)

abbrev SegT := Pipeline.RDat.Seg (pcfgs (F := F)) adm (rdats m) (none : HIx 1) defs₀ 𝒱₀ (KL (F := F)) (Klv (F := F))

/-- The segments before the SparseCore call, and after it. -/
abbrev segsA : List (SegT m) := [.host (host0 m), .region (reg0 m)]
abbrev segsB : List (SegT m) := [.host (host1 m), .region (reg1 m), .host (host2 m)]

theorem progA_run : progA (F := F) = Pipeline.RDat.Seg.run (segsA m) := rfl
theorem progB_run : progB (F := F) = Pipeline.RDat.Seg.run (segsB m) := rfl

variable [∀ e, Nonempty (Elt F e)]

/-- The first part: from every unscoped buffer as launched to the packing region's exit. -/
theorem partA (d : Dev nD) :
    iprop(boundary (d : Thread nD τ) ∗ (StableHlo.held (d : Thread nD τ) (Pipeline.ucRefs τ sig) (W0 m d) ∗ RR (F := F) 0 d)
        ∗ levAts (KL (F := F)) (Klv (F := F)) ∗ Pipeline.ghostOn (pcfgs (F := F)) adm EP {0} d)
      ⊢ wp frame (wpE ((K (F := F)).defs (D (F := F))) 𝒱 (d : Thread nD τ) none) Set.univ (SparseCore.liftProg (progA (F := F)))
          fun _ => iprop(boundary (d : Thread nD τ) ∗ (reg0 m).post d) := by
  refine BIBase.Entails.trans ?_ ((K (F := F)).wp_liftProg (D (F := F)) 𝒱 (d : Thread nD τ) Set.univ none _ _)
  rw [progA_run m]
  refine BIBase.Entails.trans ?_ (Pipeline.RDat.wp_segs (pcfgs (F := F)) adm (rdats m) (none : HIx 1) cellOf_inj EP defs₀ 𝒱₀ (KL (F := F)) (Klv (F := F)) d
    (segsA m) {0} (fun c => iprop(StableHlo.held (c : Thread nD τ) (Pipeline.ucRefs τ sig) (W0 m c) ∗ RR (F := F) 0 c)) (reg0 m).post
    (by simp only [segsA, Pipeline.RDat.Seg.pipes_host, Pipeline.RDat.Seg.pipes_region, Pipeline.RDat.Seg.pipes_nil]; decide)
    (by simp only [segsA, Pipeline.RDat.Seg.pipes_host, Pipeline.RDat.Seg.pipes_region, Pipeline.RDat.Seg.pipes_nil]; decide)
    ⟨.rfl, .rfl, .rfl⟩)
  iintro ⟨Hb, HT, Hl, Hg⟩
  isplitr [Hb HT Hl Hg]
  · iintro H; iexact H
  isplitl [Hb]; · iexact Hb
  isplitl [HT]; · iexact HT
  isplitl [Hl]; · iexact Hl
  iexact Hg

/-- The last part: from the second host stretch's entry to the closing reshape. -/
theorem partB (d : Dev nD) :
    iprop(boundary (d : Thread nD τ) ∗ (StableHlo.held (d : Thread nD τ) U' (W3 m d) ∗ RT (F := F) 1 d)
        ∗ levAts (KL (F := F)) (Klv (F := F)) ∗ Pipeline.ghostOn (pcfgs (F := F)) adm EP {1} d)
      ⊢ wp frame (wpE ((K (F := F)).defs (D (F := F))) 𝒱 (d : Thread nD τ) none) Set.univ (SparseCore.liftProg (progB (F := F)))
          fun _ => iprop(boundary (d : Thread nD τ) ∗ (StableHlo.held (d : Thread nD τ) U' (W6 m d) ∗ RT (F := F) 1 d)) := by
  refine BIBase.Entails.trans ?_ ((K (F := F)).wp_liftProg (D (F := F)) 𝒱 (d : Thread nD τ) Set.univ none _ _)
  rw [progB_run m]
  refine BIBase.Entails.trans ?_ (Pipeline.RDat.wp_segs (pcfgs (F := F)) adm (rdats m) (none : HIx 1) cellOf_inj EP defs₀ 𝒱₀ (KL (F := F)) (Klv (F := F)) d
    (segsB m) {1} (fun c => iprop(StableHlo.held (c : Thread nD τ) U' (W3 m c) ∗ RT (F := F) 1 c))
    (fun c => iprop(StableHlo.held (c : Thread nD τ) U' (W6 m c) ∗ RT (F := F) 1 c))
    (by simp only [segsB, Pipeline.RDat.Seg.pipes_host, Pipeline.RDat.Seg.pipes_region, Pipeline.RDat.Seg.pipes_nil]; decide)
    (by simp only [segsB, Pipeline.RDat.Seg.pipes_host, Pipeline.RDat.Seg.pipes_region, Pipeline.RDat.Seg.pipes_nil]; decide)
    ⟨.rfl, .rfl, .rfl, .rfl⟩)
  iintro ⟨Hb, HT, Hl, Hg⟩
  isplitr [Hb HT Hl Hg]
  · iintro H; iexact H
  isplitl [Hb]; · iexact Hb
  isplitl [HT]; · iexact HT
  isplitl [Hl]; · iexact Hl
  iexact Hg

end Cert.Kernel.Main

end
-- ==== Proof.KCall.lean ====
/-
  The SparseCore call as the TensorCore meets it: the thirteen buffers the call reads or writes leave the thread
  state, are dealt to the thirty-two tiles, and come back with the six outputs at the gathered rows.
-/
import proofs.«203064_g33122787786777_cont_8to1_b_416_18_alg».proof.Proof.KSegs
import proofs.«203064_g33122787786777_cont_8to1_b_416_18_alg».proof.Proof.KPay
set_option maxRecDepth 16384

noncomputable section

namespace Cert.Kernel.Call

open Cert.Kernel Cert.Kernel.Gen Cert.Kernel.Alg Cert.Kernel.Host Cert.Kernel.Vals
open Cert.Kernel.TcState Cert.Kernel.Ghost Cert.Kernel.Segs Cert.Kernel.PayM Cert.Kernel.Tile Cert.Kernel.Deal
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ)

/-! ## The buffers' contents after the call -/

theorem W3_out0 (c : Dev nD) : W3 m c (Proc.devRef .tc main_v15_0 : DevRef τ sig) = gOf m c 0 := by
  unfold W3; rw [Function.update_of_ne (by decide), Function.update_of_ne (by decide), Function.update_of_ne (by decide), Function.update_of_ne (by decide), Function.update_of_ne (by decide), Function.update_self]
theorem W3_out1 (c : Dev nD) : W3 m c (Proc.devRef .tc main_v15_1 : DevRef τ sig) = gOf m c 1 := by
  unfold W3; rw [Function.update_of_ne (by decide), Function.update_of_ne (by decide), Function.update_of_ne (by decide), Function.update_of_ne (by decide), Function.update_self]
theorem W3_out2 (c : Dev nD) : W3 m c (Proc.devRef .tc main_v15_2 : DevRef τ sig) = gOf m c 2 := by
  unfold W3; rw [Function.update_of_ne (by decide), Function.update_of_ne (by decide), Function.update_of_ne (by decide), Function.update_self]
theorem W3_out3 (c : Dev nD) : W3 m c (Proc.devRef .tc main_v15_3 : DevRef τ sig) = gOf m c 3 := by
  unfold W3; rw [Function.update_of_ne (by decide), Function.update_of_ne (by decide), Function.update_self]
theorem W3_out4 (c : Dev nD) : W3 m c (Proc.devRef .tc main_v15_4 : DevRef τ sig) = gOf m c 4 := by
  unfold W3; rw [Function.update_of_ne (by decide), Function.update_self]
theorem W3_out5 (c : Dev nD) : W3 m c (Proc.devRef .tc main_v15_5 : DevRef τ sig) = gOf m c 5 := by
  unfold W3; rw [Function.update_self]
theorem W3_ix0 (c : Dev nD) : W3 m c (Proc.devRef .tc main_v1 : DevRef τ sig) = ixOf m c 0 := by
  unfold W3; rw [Function.update_of_ne (by decide), Function.update_of_ne (by decide), Function.update_of_ne (by decide), Function.update_of_ne (by decide), Function.update_of_ne (by decide), Function.update_of_ne (by decide)]; rfl
theorem W3_ix1 (c : Dev nD) : W3 m c (Proc.devRef .tc main_v3 : DevRef τ sig) = ixOf m c 1 := by
  unfold W3; rw [Function.update_of_ne (by decide), Function.update_of_ne (by decide), Function.update_of_ne (by decide), Function.update_of_ne (by decide), Function.update_of_ne (by decide), Function.update_of_ne (by decide)]; rfl
theorem W3_ix2 (c : Dev nD) : W3 m c (Proc.devRef .tc main_v5 : DevRef τ sig) = ixOf m c 2 := by
  unfold W3; rw [Function.update_of_ne (by decide), Function.update_of_ne (by decide), Function.update_of_ne (by decide), Function.update_of_ne (by decide), Function.update_of_ne (by decide), Function.update_of_ne (by decide)]; rfl
theorem W3_ix3 (c : Dev nD) : W3 m c (Proc.devRef .tc main_v7 : DevRef τ sig) = ixOf m c 3 := by
  unfold W3; rw [Function.update_of_ne (by decide), Function.update_of_ne (by decide), Function.update_of_ne (by decide), Function.update_of_ne (by decide), Function.update_of_ne (by decide), Function.update_of_ne (by decide)]; rfl
theorem W3_ix4 (c : Dev nD) : W3 m c (Proc.devRef .tc main_v9 : DevRef τ sig) = ixOf m c 4 := by
  unfold W3; rw [Function.update_of_ne (by decide), Function.update_of_ne (by decide), Function.update_of_ne (by decide), Function.update_of_ne (by decide), Function.update_of_ne (by decide), Function.update_of_ne (by decide)]; rfl
theorem W3_ix5 (c : Dev nD) : W3 m c (Proc.devRef .tc main_v11 : DevRef τ sig) = ixOf m c 5 := by
  unfold W3; rw [Function.update_of_ne (by decide), Function.update_of_ne (by decide), Function.update_of_ne (by decide), Function.update_of_ne (by decide), Function.update_of_ne (by decide), Function.update_of_ne (by decide)]; rfl

/-- The six index vectors and the six outputs. -/
abbrev T12 : Finset (DevRef τ sig) := {(Proc.devRef .tc main_v1 : DevRef τ sig), (Proc.devRef .tc main_v3 : DevRef τ sig), (Proc.devRef .tc main_v5 : DevRef τ sig), (Proc.devRef .tc main_v7 : DevRef τ sig), (Proc.devRef .tc main_v9 : DevRef τ sig), (Proc.devRef .tc main_v11 : DevRef τ sig), (Proc.devRef .tc main_v15_0 : DevRef τ sig), (Proc.devRef .tc main_v15_1 : DevRef τ sig), (Proc.devRef .tc main_v15_2 : DevRef τ sig), (Proc.devRef .tc main_v15_3 : DevRef τ sig), (Proc.devRef .tc main_v15_4 : DevRef τ sig), (Proc.devRef .tc main_v15_5 : DevRef τ sig)}
/-- With the packed table. -/
abbrev T13 : Finset (DevRef τ sig) := insert v14' T12

theorem T12_sub : T12 ⊆ U' := by decide
theorem T13_sub : T13 ⊆ Pipeline.ucRefs τ sig := by decide
theorem rest_eq : U' \ T12 = Pipeline.ucRefs τ sig \ T13 := by decide

/-- The twelve buffers, one by one. -/
theorem held_T12 (d : Dev nD) (W : Valuation τ sig (Elt F)) :
    (StableHlo.held (d : Thread nD τ) T12 W : sProp 𝕄)
      = iprop((((SparseCore.T d).loc main_v1) ↦{fullShare} W (Proc.devRef .tc main_v1 : DevRef τ sig))
        ∗ (((SparseCore.T d).loc main_v3) ↦{fullShare} W (Proc.devRef .tc main_v3 : DevRef τ sig))
        ∗ (((SparseCore.T d).loc main_v5) ↦{fullShare} W (Proc.devRef .tc main_v5 : DevRef τ sig))
        ∗ (((SparseCore.T d).loc main_v7) ↦{fullShare} W (Proc.devRef .tc main_v7 : DevRef τ sig))
        ∗ (((SparseCore.T d).loc main_v9) ↦{fullShare} W (Proc.devRef .tc main_v9 : DevRef τ sig))
        ∗ (((SparseCore.T d).loc main_v11) ↦{fullShare} W (Proc.devRef .tc main_v11 : DevRef τ sig))
        ∗ (((SparseCore.T d).loc main_v15_0) ↦{fullShare} W (Proc.devRef .tc main_v15_0 : DevRef τ sig))
        ∗ (((SparseCore.T d).loc main_v15_1) ↦{fullShare} W (Proc.devRef .tc main_v15_1 : DevRef τ sig))
        ∗ (((SparseCore.T d).loc main_v15_2) ↦{fullShare} W (Proc.devRef .tc main_v15_2 : DevRef τ sig))
        ∗ (((SparseCore.T d).loc main_v15_3) ↦{fullShare} W (Proc.devRef .tc main_v15_3 : DevRef τ sig))
        ∗ (((SparseCore.T d).loc main_v15_4) ↦{fullShare} W (Proc.devRef .tc main_v15_4 : DevRef τ sig))
        ∗ (((SparseCore.T d).loc main_v15_5) ↦{fullShare} W (Proc.devRef .tc main_v15_5 : DevRef τ sig))) := by
  unfold StableHlo.held T12
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The thirteen. -/
theorem held_T13 (d : Dev nD) (W : Valuation τ sig (Elt F)) :
    (StableHlo.held (d : Thread nD τ) T13 W : sProp 𝕄)
      = iprop((((SparseCore.T d).loc main_v14) ↦{fullShare} W v14') ∗ StableHlo.held (d : Thread nD τ) T12 W) := by
  unfold StableHlo.held T13
  rw [SparseCore.bigSep_insert' (by decide)]

/-! ## The TensorCore's handshake state, its owing part apart -/

/-- The TensorCore's handshake state before call n but what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 1) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(owesN (F := F) n d ∗ tcRest (F := F) d n) := rfl

/-- The twelve buffers at a valuation that agrees with the first stretch's off the table. -/
theorem held_T12_congr (d : Dev nD) (W : Valuation τ sig (Elt F)) (hW : ∀ b : Ref sig .tc, b ≠ main_v14 → W b = W1 m d b) :
    (StableHlo.held (d : Thread nD τ) T12 W : sProp 𝕄) = StableHlo.held (d : Thread nD τ) T12 (W1 m d) :=
  StableHlo.held_congr (d : Thread nD τ) fun b hb => by
    simp only [T12, Finset.mem_insert, Finset.mem_singleton] at hb
    rcases hb with rfl | rfl | rfl | rfl | rfl | rfl | rfl | rfl | rfl | rfl | rfl | rfl
    · exact hW main_v1 (by decide)
    · exact hW main_v3 (by decide)
    · exact hW main_v5 (by decide)
    · exact hW main_v7 (by decide)
    · exact hW main_v9 (by decide)
    · exact hW main_v11 (by decide)
    · exact hW main_v15_0 (by decide)
    · exact hW main_v15_1 (by decide)
    · exact hW main_v15_2 (by decide)
    · exact hW main_v15_3 (by decide)
    · exact hW main_v15_4 (by decide)
    · exact hW main_v15_5 (by decide)

/-- The other buffers are untouched by the call. -/
theorem held_rest_congr (d : Dev nD) (W : Valuation τ sig (Elt F)) (hW : ∀ b : Ref sig .tc, b ≠ main_v14 → W b = W1 m d b) :
    (StableHlo.held (d : Thread nD τ) (Pipeline.ucRefs τ sig \ T13) W : sProp 𝕄) = StableHlo.held (d : Thread nD τ) (U' \ T12) (W3 m d) := by
  rw [rest_eq]
  refine StableHlo.held_congr (d : Thread nD τ) fun b hb => ?_
  obtain ⟨hb1, hb2⟩ := Finset.mem_sdiff.mp hb
  have hb1' := (Finset.mem_filter.mp hb1).1
  unfold StableHlo.tcRefs at hb1'
  obtain ⟨b0, -, rfl⟩ := Finset.mem_map.mp hb1'
  have hb2' : (Proc.devRef .tc b0 : DevRef τ sig) ∉ T13 := hb2
  have hne : ∀ r ∈ T13, (Proc.devRef .tc b0 : DevRef τ sig) ≠ r := fun r hr e => hb2' (e ▸ hr)
  have h14 : b0 ≠ main_v14 := fun e => hne v14' (by decide) (e ▸ rfl)
  refine (hW b0 h14).trans ?_
  show W1 m d (Proc.devRef .tc b0) = W3 m d (Proc.devRef .tc b0)
  unfold W3
  rw [Function.update_of_ne (hne _ (by decide)), Function.update_of_ne (hne _ (by decide)), Function.update_of_ne (hne _ (by decide)),
    Function.update_of_ne (hne _ (by decide)), Function.update_of_ne (hne _ (by decide)), Function.update_of_ne (hne _ (by decide))]

/-- The tiles' operands, SparseCore by SparseCore, are the call's; -/
theorem st_of_go (d : Dev nD) :
    (bigSep Finset.univ fun c : Fin 2 => bigSep Finset.univ fun i : Fin 16 =>
        iprop(∃ tab' : TabC F, tileGo d (coordsOf c i) (tok c i) tab' (ixOf m d) (outOf m d)) : sProp 𝕄)
      ⊢ bigSep Finset.univ fun c : Fin ((K (F := F)).nCore 0) => (P m).st 0 d c :=
  Entails.of_eq rfl
/-- and its results the tiles'. -/
theorem td_of_dn (d : Dev nD) :
    (bigSep Finset.univ fun c : Fin ((K (F := F)).nCore 0) => (P m).dn 0 d c : sProp 𝕄)
      ⊢ bigSep Finset.univ fun c : Fin 2 => bigSep Finset.univ fun i : Fin 16 =>
        iprop(∃ tab' : TabC F, tileTd d (coordsOf c i) (tok c i) tab' (ixOf m d)) :=
  Entails.of_eq rfl

variable [∀ e, Nonempty (Elt F e)]

set_option maxHeartbeats 1000000 in
/-- The call on the TensorCore: the thirteen buffers dealt to the tiles and collected, the outputs at the gathered rows. -/
theorem partSC (κ : GSem nD τ sig → ℕ) (d : Dev nD) (hix : IxLt m d)
    (htab : ∀ G, (Region0.rdat0 (V1 m) (On (F := F) 0) (Bn (F := F) 0) d).ArrAt 2 cfg0.N G → TabOK m d G) (Φ : PUnit → sProp 𝕄) :
    iprop((K (F := F)).ctx EH (P m) κ ∗ tcRest (F := F) d 0
        ∗ iprop((∃ W, ⌜P2 m d W⌝ ∗ StableHlo.held (d : Thread nD τ) (Pipeline.ucRefs τ sig) W) ∗ RR (F := F) 0 d)
        ∗ (iprop(tcRest (F := F) d 1 ∗ StableHlo.held (d : Thread nD τ) U' (W3 m d) ∗ RT (F := F) 1 d) -∗ Φ ⟨⟩))
      ⊢ wp frame (wpE ((K (F := F)).defs (D (F := F))) 𝒱 (SparseCore.T d) none) Set.univ ((K (F := F)).run d 0) Φ := by
  iintro ⟨#Hctx, Hrest, ⟨⟨%W, %hW, Hheld⟩, Hp, HO⟩, Hk⟩
  obtain ⟨hWne, hWtab⟩ := hW
  have htabOK := htab _ hWtab
  ihave Hs := (Entails.of_eq (StableHlo.held_sub_split (d : Thread nD τ) T13_sub W)) $$ Hheld
  icases Hs with ⟨H13, Hoth⟩
  ihave H13' := (Entails.of_eq (held_T13 d W)) $$ H13
  icases H13' with ⟨Htab, H12⟩
  ihave H12a := (Entails.of_eq ((held_T12_congr m d W hWne).trans (held_T12 d (W1 m d)))) $$ H12
  icases H12a with ⟨I0, I1, I2, I3, I4, I5, O0, O1, O2, O3, O4, O5⟩
  ihave Hd := (Deal.deal_ex d (W v14') (ixOf m d) (outOf m d)) $$ [Htab I0 I1 I2 I3 I4 I5 O0 O1 O2 O3 O4 O5]
  · isplitl [Htab]; · iexact Htab
    isplitl [I0 I1 I2 I3 I4 I5]
    · isplitl [I0]; · iexact I0
      isplitl [I1]; · iexact I1
      isplitl [I2]; · iexact I2
      isplitl [I3]; · iexact I3
      isplitl [I4]; · iexact I4
      iexact I5
    isplitl [O0]; · iexact O0
    isplitl [O1]; · iexact O1
    isplitl [O2]; · iexact O2
    isplitl [O3]; · iexact O3
    isplitl [O4]; · iexact O4
    iexact O5
  icases Hd with ⟨Hrst, Hgo⟩
  iapply ((K (F := F)).wp_run (D (F := F)) 𝒱 (EH := EH) (P := P m) κ d 0) $$ [HO Hrest Hgo Hk Hrst Hoth Hp]
  isplitr; · iexact Hctx
  isplitl [HO Hrest]
  · iapply (Entails.of_eq (tcSt_eq (F := F) d 0).symm)
    isplitl [HO]; · iexact HO
    iexact Hrest
  isplitl [Hgo]
  · iapply (st_of_go m d); iexact Hgo
  iintro ⟨Hst, Hdn⟩
  ihave Hdn' := (td_of_dn m d) $$ Hdn
  ihave Hc := (Deal.collect_ex d (W v14') (ixOf m d)) $$ [Hrst Hdn']
  · isplitl [Hrst] <;> iassumption
  icases Hc with ⟨Htab, ⟨I0, I1, I2, I3, I4, I5⟩, ⟨O0, O1, O2, O3, O4, O5⟩⟩
  ihave Hst' := (Entails.of_eq (tcSt_eq (F := F) d ((0 : Fin 1).val + 1))) $$ Hst
  icases Hst' with ⟨HO, Hrest⟩
  iapply Hk
  isplitl [Hrest]; · iexact Hrest
  isplitl [I0 I1 I2 I3 I4 I5 O0 O1 O2 O3 O4 O5 Hoth]
  · rw [StableHlo.held_sub_split (d : Thread nD τ) T12_sub (W3 m d), held_T12, ← held_rest_congr m d W hWne,
      W3_ix0, W3_ix1, W3_ix2, W3_ix3, W3_ix4, W3_ix5, W3_out0, W3_out1, W3_out2, W3_out3, W3_out4, W3_out5]
    unfold gOf
    rw [← gathered_of_tabOK m d (W v14') htabOK hix 0, ← gathered_of_tabOK m d (W v14') htabOK hix 1, ← gathered_of_tabOK m d (W v14') htabOK hix 2, ← gathered_of_tabOK m d (W v14') htabOK hix 3, ← gathered_of_tabOK m d (W v14') htabOK hix 4, ← gathered_of_tabOK m d (W v14') htabOK hix 5]
    isplitl [I0 I1 I2 I3 I4 I5 O0 O1 O2 O3 O4 O5]
    · isplitl [I0]; · iexact I0
      isplitl [I1]; · iexact I1
      isplitl [I2]; · iexact I2
      isplitl [I3]; · iexact I3
      isplitl [I4]; · iexact I4
      isplitl [I5]; · iexact I5
      isplitl [O0]; · iexact O0
      isplitl [O1]; · iexact O1
      isplitl [O2]; · iexact O2
      isplitl [O3]; · iexact O3
      isplitl [O4]; · iexact O4
      iexact O5
    iexact Hoth
  isplitl [Htab]; · iexists _; iexact Htab
  isplitl [Hp]; · iexact Hp
  iexact HO

end Cert.Kernel.Call

end
-- ==== Proof.KTileBodyA.lean ====
/-
  Lemmas for one vector subcore's task of the gather kernel.

  Resources: the task's thirty-four DMA semaphores (the four slot semaphores and the thirty scoped ones are the
  kernel's DMA semaphores 6 to 39) and its two scratch buffers taken out of the subcore's scoped families; the
  table's read share split into one read token per slot semaphore, because up to three gathers read the table at
  once.

  Values: after the six index copies, word 512 t + j of the index scratch is entry base + j of index vector t; a
  gather over words [512 t + 128 r, 512 t + 128 r + 128) of the scratch therefore brings, as its row y, the table
  row named by entry base + 128 r + y of index vector t, which is row base + 128 r + y of the gathered output t:
  exactly the rows the copy-out of chunk r writes.
-/
import proofs.«203064_g33122787786777_cont_8to1_b_416_18_alg».proof.Proof.KTileDefs
import Idealize.ShloMosaic.Lib.SparseCore.Launch
import Idealize.ShloMosaic.Lib.Writes

noncomputable section

namespace Cert.Kernel.Tile

open Cert.Kernel Cert.Kernel.Gen Cert.Kernel.Alg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The task's own semaphores and scratch, out of the subcore's scoped families -/

/-- The 34 DMA semaphores the task uses — four slot semaphores and thirty scoped ones — are the kernel's DMA
    semaphores number 6 to 39. -/
abbrev taskSem (k : Fin 34) : DmaSem sig := ⟨6 + k.val, by have := k.isLt; show 6 + k.val < 56; omega⟩

abbrev taskCell (d : Dev nD) (L : grid1.Coords) (k : Fin 34) : GSem nD τ sig := (thrL d L, SemLoc.dma (taskSem k))

theorem taskCell_inj (d : Dev nD) (L : grid1.Coords) :
    Set.InjOn (taskCell d L) ((Finset.univ : Finset (Fin 34)) : Set (Fin 34)) := by
  intro a _ b _ e
  have h := SemLoc.dma.inj (Prod.mk.inj e).2
  have h' := Fin.mk.inj h
  exact Fin.ext (by omega)

theorem taskCells_sub (d : Dev nD) (L : grid1.Coords) : Finset.univ.image (taskCell d L) ⊆ ownCells (thrL d L) := by
  intro g hg
  obtain ⟨k, -, rfl⟩ := Finset.mem_image.mp hg
  refine mem_ownCells.mpr ⟨rfl, ?_⟩
  have h : ∀ k : Fin 34, (SemLoc.dma (taskSem k) : SemLoc sig).isScoped .scVector = true := by decide +kernel
  exact h k

theorem ownSems0_task (d : Dev nD) (L : grid1.Coords) :
    (ownSems0 (thrL d L) : sProp 𝕄)
      = iprop((semVal (thrL d L, SemLoc.dma cc1_scratch2.sem) 0
          ∗ semVal (thrL d L, SemLoc.dma cc1_scratch3.sem) 0
          ∗ semVal (thrL d L, SemLoc.dma cc1_scratch4.sem) 0
          ∗ semVal (thrL d L, SemLoc.dma cc1_scratch5.sem) 0
          ∗ semVal (thrL d L, SemLoc.dma cc1_scoped0.sem) 0
          ∗ semVal (thrL d L, SemLoc.dma cc1_scoped1.sem) 0
          ∗ semVal (thrL d L, SemLoc.dma cc1_scoped2.sem) 0
          ∗ semVal (thrL d L, SemLoc.dma cc1_scoped3.sem) 0
          ∗ semVal (thrL d L, SemLoc.dma cc1_scoped4.sem) 0
          ∗ semVal (thrL d L, SemLoc.dma cc1_scoped5.sem) 0
          ∗ semVal (thrL d L, SemLoc.dma cc1_scoped6.sem) 0
          ∗ semVal (thrL d L, SemLoc.dma cc1_scoped7.sem) 0
          ∗ semVal (thrL d L, SemLoc.dma cc1_scoped8.sem) 0
          ∗ semVal (thrL d L, SemLoc.dma cc1_scoped9.sem) 0
          ∗ semVal (thrL d L, SemLoc.dma cc1_scoped10.sem) 0
          ∗ semVal (thrL d L, SemLoc.dma cc1_scoped11.sem) 0
          ∗ semVal (thrL d L, SemLoc.dma cc1_scoped12.sem) 0
          ∗ semVal (thrL d L, SemLoc.dma cc1_scoped13.sem) 0
          ∗ semVal (thrL d L, SemLoc.dma cc1_scoped14.sem) 0
          ∗ semVal (thrL d L, SemLoc.dma cc1_scoped15.sem) 0
          ∗ semVal (thrL d L, SemLoc.dma cc1_scoped16.sem) 0
          ∗ semVal (thrL d L, SemLoc.dma cc1_scoped17.sem) 0
          ∗ semVal (thrL d L, SemLoc.dma cc1_scoped18.sem) 0
          ∗ semVal (thrL d L, SemLoc.dma cc1_scoped19.sem) 0
          ∗ semVal (thrL d L, SemLoc.dma cc1_scoped20.sem) 0
          ∗ semVal (thrL d L, SemLoc.dma cc1_scoped21.sem) 0
          ∗ semVal (thrL d L, SemLoc.dma cc1_scoped22.sem) 0
          ∗ semVal (thrL d L, SemLoc.dma cc1_scoped23.sem) 0
          ∗ semVal (thrL d L, SemLoc.dma cc1_scoped24.sem) 0
          ∗ semVal (thrL d L, SemLoc.dma cc1_scoped25.sem) 0
          ∗ semVal (thrL d L, SemLoc.dma cc1_scoped26.sem) 0
          ∗ semVal (thrL d L, SemLoc.dma cc1_scoped27.sem) 0
          ∗ semVal (thrL d L, SemLoc.dma cc1_scoped28.sem) 0
          ∗ semVal (thrL d L, SemLoc.dma cc1_scoped29.sem) 0
          ∗ emp)
          ∗ bigSep (ownCells (thrL d L) \ Finset.univ.image (taskCell d L)) fun g => semVal g 0) := by
  unfold SparseCore.Cfg.ownSems0
  rw [SparseCore.bigSep_sdiff_split' (taskCells_sub d L), SparseCore.bigSep_image_of_injOn (taskCell_inj d L)]
  congr 1

/-- The two scratch buffers are among the subcore's own: they are them, at some contents, and the rest. -/
theorem ownBufs_task (d : Dev nD) (L : grid1.Coords) :
    (ownBufs (thrL d L) : sProp 𝕄)
      = iprop((∃ f, (thrL d L).loc cc1_scratch0 ↦{fullShare} f) ∗ (∃ f, (thrL d L).loc cc1_scratch1 ↦{fullShare} f)
          ∗ bigSep (((ownRefs (τ := τ) (.scVector ((L 0).castLE hcore1) ((L 1).castLE hsub1))).erase
              ((Proc.scVector ((L 0).castLE hcore1) ((L 1).castLE hsub1)).devRef cc1_scratch0)).erase
              ((Proc.scVector ((L 0).castLE hcore1) ((L 1).castLE hsub1)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore1) ((L 1).castLE hsub1))
    (b := (Proc.scVector ((L 0).castLE hcore1) ((L 1).castLE hsub1)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector ((L 0).castLE hcore1) ((L 1).castLE hsub1))
      (b := (Proc.scVector ((L 0).castLE hcore1) ((L 1).castLE hsub1)).devRef cc1_scratch1) rfl⟩)]

/-! ## The table's share as one read token per slot semaphore -/

/-- The table's share split into what stays aside and one read token for each of the four slot semaphores (the
    kernel's DMA semaphores 6 to 9), since up to three gathers read the table at once. -/
theorem tab_toks (d : Dev nD) (L : grid1.Coords) (q : PosShare TreeShare) (tab : TabC F) :
    (tabW.view.loc (thrL d L) ↦{q} tab : sProp 𝕄)
      ⊣⊢ iprop((tabW.view.loc (thrL d L) ↦{Transfers.shareDrop q 10} tab)
          ∗ (tabW.view.loc (thrL d L) ↦{Transfers.shareTokN q 6} tab) ∗ (tabW.view.loc (thrL d L) ↦{Transfers.shareTokN q 7} tab)
          ∗ (tabW.view.loc (thrL d L) ↦{Transfers.shareTokN q 8} tab) ∗ (tabW.view.loc (thrL d L) ↦{Transfers.shareTokN q 9} tab)
          ∗ bigSep (Finset.range 6) (fun i => tabW.view.loc (thrL d L) ↦{Transfers.shareTokN q i} tab)) := by
  have e : Finset.range 10 = insert 6 (insert 7 (insert 8 (insert 9 (Finset.range 6)))) := by decide
  have h := Transfers.pointsTo_toks_range (ℓ := tabW.view.loc (thrL d L)) (S := Finset.univ) (f := (tab : Buf (Elt F) (tabW.view.loc (thrL d L))))
    (nD := nD) (τ := τ) (sig := sig) (Ix := HIx 1) (Val := Elt F) (Name := ℕ) (U := UU) (Lvl := ℕ) q 10
  rw [e, SparseCore.bigSep_insert' (by decide), SparseCore.bigSep_insert' (by decide), SparseCore.bigSep_insert' (by decide),
    SparseCore.bigSep_insert' (by decide)] at h
  exact h

/-- One more wait at index `none` recorded. -/
theorem waits_ins {W W' : Waits sig (HIx 1)} {a : SemLoc sig × HIx 1} (h : ∀ p ∈ W', p ∈ W ∨ p.2 = none) (ha : a.2 = none) :
    ∀ p ∈ insert a W', p ∈ W ∨ p.2 = none := by
  intro p hp
  rcases Finset.mem_insert.mp hp with rfl | hp
  · exact .inr ha
  · exact h p hp

theorem pts_ixScr (d : Dev nD) (L : grid1.Coords) (f : Buf (Elt F) ((thrL d L).loc cc1_scratch0)) :
    (ixScr.view.loc (thrL d L) ↦{fullShare} f : sProp 𝕄) = (thrL d L).loc cc1_scratch0 ↦{fullShare} f := rfl
theorem pts_rowScr (d : Dev nD) (L : grid1.Coords) (f : Buf (Elt F) ((thrL d L).loc cc1_scratch1)) :
    (rowScr.view.loc (thrL d L) ↦{fullShare} f : sProp 𝕄) = (thrL d L).loc cc1_scratch1 ↦{fullShare} f := rfl

/-! ## The index scratch after the six copies, and what a task's gather and copy-out leave -/

/-- The index scratch after the six copies: word `512 t + j` is entry `base + j` of index vector `t`. -/
def ixs (L : grid1.Coords) (ix : Fin 6 → IxC F) : S3072.Idx → Elt F .i32 := fun j =>
  ix ⟨(j 0).val / 512, by have h : (j 0).val < 3072 := (j 0).isLt; show (j 0).val / 512 < 6; omega⟩
    (ValueIdx.ix1 (n := 16384) ⟨k1_off1 L 0 + (j 0).val % 512, by
      have h := k1_off1_inb L 0; show k1_off1 L 0 + (j 0).val % 512 < 16384
      have h' : k1_off1 L 0 + 512 ≤ 16384 := h
      omega⟩)

/-- A buffer written whole through a view with payload `w` agrees, on the view's elements, with any contents that read
    `w` through the view. -/
theorem whole_piece_congr {κ : Kind} {sp : Space} {s : Shape} {e : EltTy} (v : View sig κ sp s e)
    (f g : v.ty.Contents (Elt F)) (w : s.Idx → Elt F e) (hw : ∀ y, w y = v.read (Elt F) g y) :
    ∀ i ∈ v.set, v.writes (Elt F) f [⟨Rect.whole s, w⟩] i = g i := by
  intro i hi
  obtain ⟨y, -, rfl⟩ := Finset.mem_map.mp hi
  have h1 := View.read_writes_cons_emb v f (Rect.whole s) w [] y
  rw [Rect.emb_whole_apply] at h1
  have h2 := h1.trans (hw y)
  rw [View.read_apply, View.read_apply] at h2
  exact (cast_inj _).mp h2

theorem emb1d (off sz : Fin 1 → Nat) (h : ∀ a, off a + sz a ≤ S3072.size a) (x : (Rect.unit (s := S3072) off sz h).shape.Idx) :
    (((Rect.unit (s := S3072) off sz h).emb x) 0).val = off 0 + (x 0).val := by
  rw [Rect.emb_apply]; simp

/-- A window of the index scratch, after the six copies, reads the entries the copies brought. -/
theorem ixScr_read_eq (d : Dev nD) (L : grid1.Coords) (ix : Fin 6 → IxC F) (g : Buf (Elt F) (ixScr.view.loc (thrL d L)))
    (P0 : S512.Idx → Elt F .i32) (hP0 : P0 = ReadAs.same.apply (View.read (Elt F) (ixSlice L ixW0).view (ix 0)))
    (P1 : S512.Idx → Elt F .i32) (hP1 : P1 = ReadAs.same.apply (View.read (Elt F) (ixSlice L ixW1).view (ix 1)))
    (P2 : S512.Idx → Elt F .i32) (hP2 : P2 = ReadAs.same.apply (View.read (Elt F) (ixSlice L ixW2).view (ix 2)))
    (P3 : S512.Idx → Elt F .i32) (hP3 : P3 = ReadAs.same.apply (View.read (Elt F) (ixSlice L ixW3).view (ix 3)))
    (P4 : S512.Idx → Elt F .i32) (hP4 : P4 = ReadAs.same.apply (View.read (Elt F) (ixSlice L ixW4).view (ix 4)))
    (P5 : S512.Idx → Elt F .i32) (hP5 : P5 = ReadAs.same.apply (View.read (Elt F) (ixSlice L ixW5).view (ix 5)))
    (off : Fin 1 → Nat) (h : ∀ a, off a + S128.size a ≤ S3072.size a) (x : S128.Idx) :
    View.read (Elt F) (ixScr.slice (Rect.unit (s := S3072) off S128.size h) (fun _ => rfl)).view
        (ixScr.view.writes (Elt F) g ([⟨Rect.unit (s := S3072) ![2560] S512.size inb_S3072_S512_2560, P5⟩,
          ⟨Rect.unit (s := S3072) ![2048] S512.size inb_S3072_S512_2048, P4⟩,
          ⟨Rect.unit (s := S3072) ![1536] S512.size inb_S3072_S512_1536, P3⟩,
          ⟨Rect.unit (s := S3072) ![1024] S512.size inb_S3072_S512_1024, P2⟩,
          ⟨Rect.unit (s := S3072) ![512] S512.size inb_S3072_S512_512, P1⟩,
          ⟨Rect.unit (s := S3072) ![0] S512.size inb_S3072_S512_0, P0⟩] : List (View.Piece (Elt F) S3072 .i32))) x
      = ixs L ix ((Rect.unit (s := S3072) off S128.size h).emb x) := by
  subst hP0 hP1 hP2 hP3 hP4 hP5
  refine View.read_writes_apply_of_pieces ixScr.view g (ixs L ix) _ ?_ ((Rect.unit (s := S3072) off S128.size h).emb x)
    (View.cover_of_tiled _ ![512] rfl _)
  intro p hp x'
  simp only [List.mem_cons, List.not_mem_nil, or_false] at hp
  rcases hp with rfl | rfl | rfl | rfl | rfl | rfl
  all_goals
    dsimp only
    show ix _ _ = ix _ _
    have hx : (x' 0).val < 512 := (x' 0).isLt
    congr 1
    · apply Fin.ext
      simp only [emb1d, Matrix.cons_val_zero]
      omega
    · funext a
      match a with
      | ⟨0, _⟩ =>
        apply Fin.ext
        show k1_off1 L 0 + 1 * (x' 0).val = k1_off1 L 0 + _ % 512
        simp only [emb1d, Matrix.cons_val_zero]
        omega

/-- Every word a gather's offset list holds names a row of the table. -/
theorem hin_of {ix : Fin 6 → IxC F} (hix : IxOK ix) (d : Dev nD) (L : grid1.Coords) (g : Buf (Elt F) (ixScr.view.loc (thrL d L)))
    (P0 : S512.Idx → Elt F .i32) (hP0 : P0 = ReadAs.same.apply (View.read (Elt F) (ixSlice L ixW0).view (ix 0)))
    (P1 : S512.Idx → Elt F .i32) (hP1 : P1 = ReadAs.same.apply (View.read (Elt F) (ixSlice L ixW1).view (ix 1)))
    (P2 : S512.Idx → Elt F .i32) (hP2 : P2 = ReadAs.same.apply (View.read (Elt F) (ixSlice L ixW2).view (ix 2)))
    (P3 : S512.Idx → Elt F .i32) (hP3 : P3 = ReadAs.same.apply (View.read (Elt F) (ixSlice L ixW3).view (ix 3)))
    (P4 : S512.Idx → Elt F .i32) (hP4 : P4 = ReadAs.same.apply (View.read (Elt F) (ixSlice L ixW4).view (ix 4)))
    (P5 : S512.Idx → Elt F .i32) (hP5 : P5 = ReadAs.same.apply (View.read (Elt F) (ixSlice L ixW5).view (ix 5)))
    (off : Fin 1 → Nat) (h : ∀ a, off a + S128.size a ≤ S3072.size a) (x : S128.Idx) :
    (View.read (Elt F) (ixScr.slice (Rect.unit (s := S3072) off S128.size h) (fun _ => rfl)).view
        (ixScr.view.writes (Elt F) g ([⟨Rect.unit (s := S3072) ![2560] S512.size inb_S3072_S512_2560, P5⟩,
          ⟨Rect.unit (s := S3072) ![2048] S512.size inb_S3072_S512_2048, P4⟩,
          ⟨Rect.unit (s := S3072) ![1536] S512.size inb_S3072_S512_1536, P3⟩,
          ⟨Rect.unit (s := S3072) ![1024] S512.size inb_S3072_S512_1024, P2⟩,
          ⟨Rect.unit (s := S3072) ![512] S512.size inb_S3072_S512_512, P1⟩,
          ⟨Rect.unit (s := S3072) ![0] S512.size inb_S3072_S512_0, P0⟩] : List (View.Piece (Elt F) S3072 .i32))) x).toNat < 100352 := by
  rw [ixScr_read_eq d L ix g P0 hP0 P1 hP1 P2 hP2 P3 hP3 P4 hP4 P5 hP5 off h x]
  exact hix _ _

theorem embOut (offv szv : Fin 2 → Nat) (h : ∀ a, offv a + szv a ≤ S16384x128.size a) (y : (Rect.unit (s := S16384x128) offv szv h).shape.Idx) (a : Fin 2) :
    (((Rect.unit (s := S16384x128) offv szv h).emb y) a).val = offv a + (y a).val := by
  rw [Rect.emb_apply]; simp

theorem tabSl_emb (z : S100352x128.Idx) :
    (Rect.unit (s := S100352x128) ![0, 0] S100352x128.size inb_S100352x128_S100352x128_0_0).emb z = z := by
  funext a; apply Fin.ext; rw [Rect.emb_apply]
  match a with
  | ⟨0, _⟩ => simp
  | ⟨1, _⟩ => simp

/-- What a gather over entries `[512 t + 128 r, 512 t + 128 r + 128)` of the index scratch delivers: row `y 0` is the
    table row named by entry `base + 128 r + y 0` of index vector `t` — the gathered output at the row the copy-out
    of chunk `r` writes. -/
theorem gather_value {ix : Fin 6 → IxC F} (hix : IxOK ix) (L : grid1.Coords) (tab : TabC F) (lr : S128.Idx → Elt F .i32)
    (off : Fin 1 → Nat) (h : ∀ a, off a + S128.size a ≤ S3072.size a)
    (hlr : ∀ x, lr x = ixs L ix ((Rect.unit (s := S3072) off S128.size h).emb x))
    (hn : S128.numel = S128x128.size gathers_S100352x128_S128x128.axis')
    (hin' : ∀ x, (lr x).toNat < S100352x128.size gathers_S100352x128_S128x128.axis)
    (t : Fin 6) (r : Fin 4) (hoff : off 0 = 512 * t.val + 128 * r.val) (y : S128x128.Idx) :
    SparseCore.gatherPayload gathers_S100352x128_S128x128
        (View.read (Elt F) (tabW.slice (Rect.unit (s := S100352x128) ![0, 0] S100352x128.size inb_S100352x128_S100352x128_0_0) (fun _ => rfl)).view tab)
        (SparseCore.rows lr hn hin') y
      = gathered tab (ix t) ((Rect.unit (s := S16384x128) (k1_off2 L (BitVec.ofNat 32 (128 * r.val))) S128x128.size (k1_off2_inb L r)).emb y) := by
  have hk1 : k1_off1 L 0 = 1024 * (L 1).val + 512 * (L 0).val := by rw [k1_off1_eq]; rfl
  have hk20 : k1_off2 L (BitVec.ofNat 32 (128 * r.val)) 0 = 1024 * (L 1).val + 512 * (L 0).val + 128 * r.val := by rw [k1_off2_eq]; rfl
  have hk21 : k1_off2 L (BitVec.ofNat 32 (128 * r.val)) 1 = 0 := by rw [k1_off2_eq]; rfl
  have hy0 : (y 0).val < 128 := (y 0).isLt
  unfold SparseCore.gatherPayload gathered
  show tab ((Rect.unit (s := S100352x128) ![0, 0] S100352x128.size inb_S100352x128_S100352x128_0_0).emb _) = tab _
  rw [tabSl_emb]
  congr 1
  funext a
  match a with
  | ⟨0, h0⟩ =>
    apply Fin.ext
    refine (congrArg Fin.val (Shape.Gathers.idx_axis gathers_S100352x128_S128x128 (SparseCore.rows lr hn hin') y)).trans ?_
    show (lr (S128.rowMajor.symm ((y 0).cast hn.symm))).toNat = (rowOf _).val
    have hx0 : ((S128.rowMajor.symm ((y 0).cast hn.symm)) 0).val = (y 0).val := by
      have e1 := Shape.rowMajor_val_one (d := ![128]) (S128.rowMajor.symm ((y 0).cast hn.symm))
      rw [show (⟨1, ![128]⟩ : Shape).rowMajor (S128.rowMajor.symm ((y 0).cast hn.symm)) = (y 0).cast hn.symm from Equiv.apply_symm_apply _ _] at e1
      exact e1.symm
    rw [hlr]
    have hw : ixs L ix ((Rect.unit (s := S3072) off S128.size h).emb (S128.rowMajor.symm ((y 0).cast hn.symm)))
        = ix t (ValueIdx.ix1 (n := 16384) (((Rect.unit (s := S16384x128) (k1_off2 L (BitVec.ofNat 32 (128 * r.val))) S128x128.size (k1_off2_inb L r)).emb y) 0)) := by
      unfold ixs
      have ht : t.val < 6 := t.isLt
      have hr : r.val < 4 := r.isLt
      congr 1
      · apply Fin.ext
        simp only [emb1d]
        omega
      · funext b
        match b with
        | ⟨0, _⟩ =>
          apply Fin.ext
          show k1_off1 L 0 + _ % 512 = (((Rect.unit (s := S16384x128) (k1_off2 L (BitVec.ofNat 32 (128 * r.val))) S128x128.size (k1_off2_inb L r)).emb y) 0).val
          simp only [emb1d, embOut]
          omega
    rw [hw]
    unfold rowOf
    exact (Nat.mod_eq_of_lt (hix t _)).symm
  | ⟨1, h1⟩ =>
    apply Fin.ext
    refine (Shape.Gathers.idx_of_ne gathers_S100352x128_S128x128 (SparseCore.rows lr hn hin') y ⟨1, h1⟩ (show (1 : ℕ) ≠ 0 from Nat.one_ne_zero)).trans ?_
    show (y 1).val = (((Rect.unit (s := S16384x128) (k1_off2 L (BitVec.ofNat 32 (128 * r.val))) S128x128.size (k1_off2_inb L r)).emb y) 1).val
    simp only [embOut]
    omega

/-! ## The four slots of the row scratch are apart -/

/-- Coordinate 0 of any element of slot `k` is `k`. -/
theorem slot_emb0 (k : Nat) (h : ∀ a, (![k, 0, 0] : Fin 3 → Nat) a + S1x128x128.size a ≤ S4x128x128.size a)
    (z : (Rect.unit (s := S4x128x128) ![k, 0, 0] S1x128x128.size h).shape.Idx) :
    (((Rect.unit (s := S4x128x128) ![k, 0, 0] S1x128x128.size h).emb z) 0).val = k := by
  rw [Rect.emb_apply]
  have hz : (z 0).val < 1 := (z 0).isLt
  simp
  omega

/-- Reading slot `k` is not changed by a write of another slot `k'`. -/
theorem slot_read_other (k k' : Nat) (hne : k ≠ k')
    (h : ∀ a, (![k, 0, 0] : Fin 3 → Nat) a + S1x128x128.size a ≤ S4x128x128.size a)
    (h' : ∀ a, (![k', 0, 0] : Fin 3 → Nat) a + S1x128x128.size a ≤ S4x128x128.size a)
    (hs : ∀ a, (Rect.unit (s := S4x128x128) ![k, 0, 0] S1x128x128.size h).stride a = 1)
    (hs' : ∀ a, (Rect.unit (s := S4x128x128) ![k', 0, 0] S1x128x128.size h').stride a = 1)
    (hq : (Rect.unit (s := S4x128x128) ![k, 0, 0] S1x128x128.size h).shape.Squeezes S128x128)
    (hq' : (Rect.unit (s := S4x128x128) ![k', 0, 0] S1x128x128.size h').shape.Squeezes S128x128)
    (f : rowScr.view.ty.Contents (Elt F)) (w : S128x128.Idx → Elt F .f32) (y : S128x128.Idx) :
    View.read (Elt F) ((rowScr.slice (Rect.unit (s := S4x128x128) ![k, 0, 0] S1x128x128.size h) hs).squeeze S128x128 hq).view
        (View.write (Elt F) ((rowScr.slice (Rect.unit (s := S4x128x128) ![k', 0, 0] S1x128x128.size h') hs').squeeze S128x128 hq').view f w Finset.univ) y
      = View.read (Elt F) ((rowScr.slice (Rect.unit (s := S4x128x128) ![k, 0, 0] S1x128x128.size h) hs).squeeze S128x128 hq).view f y := by
  rw [View.read_apply, View.read_apply, View.write_of_not_mem]
  rw [View.setOn_univ]
  show _ ∉ ((rowScr.view.slice (Rect.unit (s := S4x128x128) ![k', 0, 0] S1x128x128.size h')).reshape S128x128 hq'.numel_eq).set
  rw [View.set_reshape, View.set_slice]
  intro hm
  obtain ⟨i, hi, e⟩ := Finset.mem_map.mp hm
  have e0 : i = (Rect.unit (s := S4x128x128) ![k, 0, 0] S1x128x128.size h).emb ((Shape.reshapeEquiv hq.numel_eq) y) := e
  have hi0 := (Rect.mem_set_unit.mp hi) 0
  rw [e0, slot_emb0] at hi0
  have : (![k', 0, 0] : Fin 3 → Nat) 0 = k' := rfl
  have h1 : S1x128x128.size 0 = 1 := rfl
  omega

/-- Reading a view right after writing it whole gives the payload. -/
theorem read_write_self {κ : Kind} {sp : Space} {s : Shape} {e : EltTy} (v : View sig κ sp s e)
    (f : v.ty.Contents (Elt F)) (w : s.Idx → Elt F e) (y : s.Idx) :
    View.read (Elt F) v (View.write (Elt F) v f w Finset.univ) y = w y :=
  View.read_write_of_mem f w (Finset.mem_univ y)

/-- What the gather over words `[512 t + 128 r, 512 t + 128 r + 128)` of the index scratch brings, after the six
    copies: the rows of chunk `r` of the gathered output `t`. -/
theorem gatherN_value {ix : Fin 6 → IxC F} (hix : IxOK ix) (d : Dev nD) (L : grid1.Coords) (tab : TabC F) (g : Buf (Elt F) (ixScr.view.loc (thrL d L)))
    (P0 : S512.Idx → Elt F .i32) (hP0 : P0 = ReadAs.same.apply (View.read (Elt F) (ixSlice L ixW0).view (ix 0)))
    (P1 : S512.Idx → Elt F .i32) (hP1 : P1 = ReadAs.same.apply (View.read (Elt F) (ixSlice L ixW1).view (ix 1)))
    (P2 : S512.Idx → Elt F .i32) (hP2 : P2 = ReadAs.same.apply (View.read (Elt F) (ixSlice L ixW2).view (ix 2)))
    (P3 : S512.Idx → Elt F .i32) (hP3 : P3 = ReadAs.same.apply (View.read (Elt F) (ixSlice L ixW3).view (ix 3)))
    (P4 : S512.Idx → Elt F .i32) (hP4 : P4 = ReadAs.same.apply (View.read (Elt F) (ixSlice L ixW4).view (ix 4)))
    (P5 : S512.Idx → Elt F .i32) (hP5 : P5 = ReadAs.same.apply (View.read (Elt F) (ixSlice L ixW5).view (ix 5)))
    (off : Fin 1 → Nat) (h : ∀ a, off a + S128.size a ≤ S3072.size a)
    (hn : S128.numel = S128x128.size gathers_S100352x128_S128x128.axis')
    (hin' : ∀ x, (View.read (Elt F) (ixScr.slice (Rect.unit (s := S3072) off S128.size h) (fun _ => rfl)).view
        (ixScr.view.writes (Elt F) g ([⟨Rect.unit (s := S3072) ![2560] S512.size inb_S3072_S512_2560, P5⟩,
          ⟨Rect.unit (s := S3072) ![2048] S512.size inb_S3072_S512_2048, P4⟩,
          ⟨Rect.unit (s := S3072) ![1536] S512.size inb_S3072_S512_1536, P3⟩,
          ⟨Rect.unit (s := S3072) ![1024] S512.size inb_S3072_S512_1024, P2⟩,
          ⟨Rect.unit (s := S3072) ![512] S512.size inb_S3072_S512_512, P1⟩,
          ⟨Rect.unit (s := S3072) ![0] S512.size inb_S3072_S512_0, P0⟩] : List (View.Piece (Elt F) S3072 .i32))) x).toNat < S100352x128.size gathers_S100352x128_S128x128.axis)
    (t : Fin 6) (r : Fin 4) (hoff : off 0 = 512 * t.val + 128 * r.val) (y : S128x128.Idx) :
    SparseCore.gatherPayload gathers_S100352x128_S128x128
        (View.read (Elt F) (tabW.slice (Rect.unit (s := S100352x128) ![0, 0] S100352x128.size inb_S100352x128_S100352x128_0_0) (fun _ => rfl)).view tab)
        (SparseCore.rows (View.read (Elt F) (ixScr.slice (Rect.unit (s := S3072) off S128.size h) (fun _ => rfl)).view
          (ixScr.view.writes (Elt F) g ([⟨Rect.unit (s := S3072) ![2560] S512.size inb_S3072_S512_2560, P5⟩,
          ⟨Rect.unit (s := S3072) ![2048] S512.size inb_S3072_S512_2048, P4⟩,
          ⟨Rect.unit (s := S3072) ![1536] S512.size inb_S3072_S512_1536, P3⟩,
          ⟨Rect.unit (s := S3072) ![1024] S512.size inb_S3072_S512_1024, P2⟩,
          ⟨Rect.unit (s := S3072) ![512] S512.size inb_S3072_S512_512, P1⟩,
          ⟨Rect.unit (s := S3072) ![0] S512.size inb_S3072_S512_0, P0⟩] : List (View.Piece (Elt F) S3072 .i32)))) hn hin') y
      = gathered tab (ix t) ((Rect.unit (s := S16384x128) (k1_off2 L (BitVec.ofNat 32 (128 * r.val))) S128x128.size (k1_off2_inb L r)).emb y) :=
  gather_value hix L tab _ off h (fun x => ixScr_read_eq d L ix g P0 hP0 P1 hP1 P2 hP2 P3 hP3 P4 hP4 P5 hP5 off h x) hn hin' t r hoff y

end Cert.Kernel.Tile

end
-- ==== Proof.KTileBody.lean ====
/-
  One vector subcore's task of the gather kernel, run once at a symbolic grid point.

  The task copies its 512 entries of each of the six index vectors into its index scratch, then for the 24 chunks
  (index vector t, chunk r) gathers 128 table rows into a slot of its row scratch and copies the slot out to its rows
  of output t, three gathers ahead of the copy-outs. Each slot has its own semaphore with at most one gather
  outstanding, and a slot is gathered into again only after its copy-out has been waited for, so no transfer's source
  or destination is touched while it is pending. The index scratch is never written after the six copies.
  At the end every chunk of every output holds the gathered rows.
-/
import proofs.«203064_g33122787786777_cont_8to1_b_416_18_alg».proof.Proof.KTileBodyA
import Idealize.ShloMosaic.Lib.Tactic

noncomputable section

namespace Cert.Kernel.Tile

open Cert.Kernel Cert.Kernel.Gen Cert.Kernel.Alg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

set_option maxHeartbeats 4000000 in
/-- One vector subcore's task: from its entries of the index vectors, a read share of the table and its rows of the
    outputs, it ends with its rows of each output at the gathered table rows. -/
theorem tile_body (d : Dev nD) (L : grid1.Coords) (O : CellTallies nD τ sig (HIx 1)) (W : Waits sig (HIx 1)) (hO : ∀ g, O g none = 0)
    (q : PosShare TreeShare) (tab : TabC F) (ix : Fin 6 → IxC F) (o : Fin 6 → OutC F) (hix : IxOK ix) :
    iprop(levAts (K (F := F)).L (K (F := F)).lev ∗ emp ∗ tileGo d L q tab ix o
        ∗ scopedBufs (thrL d L) ∗ scopedSems0 (thrL d L) ∗ owes (thrL d L) O W)
      ⊢ wp frame (wpE (defs₀ (F := F)) 𝒱₀ (thrL d L) none) Set.univ
          (cc1__sc_gather_body L tabW (Memref.isWhole_whole _) ixW0 (Memref.isWhole_whole _) ixW1 (Memref.isWhole_whole _) ixW2 (Memref.isWhole_whole _) ixW3 (Memref.isWhole_whole _) ixW4 (Memref.isWhole_whole _) ixW5 (Memref.isWhole_whole _) outW0 (Memref.isWhole_whole _) outW1 (Memref.isWhole_whole _) outW2 (Memref.isWhole_whole _) outW3 (Memref.isWhole_whole _) outW4 (Memref.isWhole_whole _) outW5 (Memref.isWhole_whole _) ixScr (Memref.isWhole_whole _) rowScr (Memref.isWhole_whole _) cc1_scratch2 cc1_scratch3 cc1_scratch4 cc1_scratch5 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29)
          fun _ => iprop(tileTd d L q tab ix ∗ scopedBufs (thrL d L) ∗ scopedSems0 (thrL d L)
            ∗ ∃ W', ⌜∀ p ∈ W', p ∈ W ∨ p.2 = none⌝ ∗ owes (thrL d L) O W') := by
  rw [(K (F := F)).scopedBufs_V facts d ((L 0).castLE hcore1) ((L 1).castLE hsub1),
    SparseCore.Cfg.scopedSems0_V (Val := Elt F) d ((L 0).castLE hcore1) ((L 1).castLE hsub1), ownSems0_task, ownBufs_task]
  unfold tileGo tileTd
  iintro ⟨#Hlv, -, ⟨Htab, ⟨Hi0, Hi1, Hi2, Hi3, Hi4, Hi5⟩, ⟨Ho0_0, Ho0_1, Ho0_2, Ho0_3⟩, ⟨Ho1_0, Ho1_1, Ho1_2, Ho1_3⟩, ⟨Ho2_0, Ho2_1, Ho2_2, Ho2_3⟩, ⟨Ho3_0, Ho3_1, Ho3_2, Ho3_3⟩, ⟨Ho4_0, Ho4_1, Ho4_2, Ho4_3⟩, ⟨Ho5_0, Ho5_1, Ho5_2, Ho5_3⟩⟩,
    ⟨⟨%fs, Hs⟩, ⟨%fr, Hr⟩, Hbufs⟩, ⟨⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25, Hc26, Hc27, Hc28, Hc29, Hc30, Hc31, Hc32, Hc33, -⟩, Hsems⟩, HO⟩
  ihave Hmw := ((K (F := F)).mayWaits_none (thr := thrL d L) hO) $$ Hlv
  ihave Ht := (tab_toks (F := F) d L q tab).1 $$ Htab
  icases Ht with ⟨Htrest, Ht6, Ht7, Ht8, Ht9, Htlow⟩
  ihave Hs' := (Entails.of_eq (pts_ixScr (F := F) d L fs).symm) $$ Hs
  ihave Hr' := (Entails.of_eq (pts_rowScr (F := F) d L fr).symm) $$ Hr
  sl_unfold [cc1__sc_gather_body]
  -- the six index copies
  sl_exec
  -- every word a gather's offset list will hold names a row of the table
  have hin := fun (g : Buf (Elt F) (ixScr.view.loc (thrL d L))) => hin_of (F := F) hix d L g (tile_body.sl.dma0 L ix) rfl (tile_body.sl.dma0_1 L ix) rfl (tile_body.sl.dma0_2 L ix) rfl (tile_body.sl.dma0_3 L ix) rfl (tile_body.sl.dma0_4 L ix) rfl (tile_body.sl.dma0_5 L ix) rfl
  -- the gathers, their waits and the copy-outs
  sl_exec
  sl_step
  -- what each copy-out moved: its slot, read past the gathers already issued into the other slots, holds the rows
  -- the gather of its own chunk brought
  have hv0_0 : ∀ y, tile_body.sl.dma0_6 d L tab ix fr hin y = View.read (Elt F) (outSlice L outW0 0).view (gathered tab (ix 0)) y := fun y => by
    unfold tile_body.sl.dma0_6
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather0
    exact gatherN_value hix d L tab _ _ rfl _ rfl _ rfl _ rfl _ rfl _ rfl ![0] inb_S3072_S128_0 _ _ 0 0 (by decide) y
  have hv0_1 : ∀ y, tile_body.sl.dma0_7 d L tab ix fr hin y = View.read (Elt F) (outSlice L outW0 1).view (gathered tab (ix 0)) y := fun y => by
    unfold tile_body.sl.dma0_7
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather1
    exact gatherN_value hix d L tab _ _ rfl _ rfl _ rfl _ rfl _ rfl _ rfl ![128] inb_S3072_S128_128 _ _ 0 1 (by decide) y
  have hv0_2 : ∀ y, tile_body.sl.dma0_8 d L tab ix fr hin y = View.read (Elt F) (outSlice L outW0 2).view (gathered tab (ix 0)) y := fun y => by
    unfold tile_body.sl.dma0_8
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather2
    exact gatherN_value hix d L tab _ _ rfl _ rfl _ rfl _ rfl _ rfl _ rfl ![256] inb_S3072_S128_256 _ _ 0 2 (by decide) y
  have hv0_3 : ∀ y, tile_body.sl.dma0_9 d L tab ix fr hin y = View.read (Elt F) (outSlice L outW0 3).view (gathered tab (ix 0)) y := fun y => by
    unfold tile_body.sl.dma0_9
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather3
    exact gatherN_value hix d L tab _ _ rfl _ rfl _ rfl _ rfl _ rfl _ rfl ![384] inb_S3072_S128_384 _ _ 0 3 (by decide) y
  have hv1_0 : ∀ y, tile_body.sl.dma0_10 d L tab ix fr hin y = View.read (Elt F) (outSlice L outW1 0).view (gathered tab (ix 1)) y := fun y => by
    unfold tile_body.sl.dma0_10
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather5
    exact gatherN_value hix d L tab _ _ rfl _ rfl _ rfl _ rfl _ rfl _ rfl ![512] inb_S3072_S128_512 _ _ 1 0 (by decide) y
  have hv1_1 : ∀ y, tile_body.sl.dma0_11 d L tab ix fr hin y = View.read (Elt F) (outSlice L outW1 1).view (gathered tab (ix 1)) y := fun y => by
    unfold tile_body.sl.dma0_11
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather7
    exact gatherN_value hix d L tab _ _ rfl _ rfl _ rfl _ rfl _ rfl _ rfl ![640] inb_S3072_S128_640 _ _ 1 1 (by decide) y
  have hv1_2 : ∀ y, tile_body.sl.dma0_12 d L tab ix fr hin y = View.read (Elt F) (outSlice L outW1 2).view (gathered tab (ix 1)) y := fun y => by
    unfold tile_body.sl.dma0_12
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather9
    exact gatherN_value hix d L tab _ _ rfl _ rfl _ rfl _ rfl _ rfl _ rfl ![768] inb_S3072_S128_768 _ _ 1 2 (by decide) y
  have hv1_3 : ∀ y, tile_body.sl.dma0_13 d L tab ix fr hin y = View.read (Elt F) (outSlice L outW1 3).view (gathered tab (ix 1)) y := fun y => by
    unfold tile_body.sl.dma0_13
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather11
    exact gatherN_value hix d L tab _ _ rfl _ rfl _ rfl _ rfl _ rfl _ rfl ![896] inb_S3072_S128_896 _ _ 1 3 (by decide) y
  have hv2_0 : ∀ y, tile_body.sl.dma0_14 d L tab ix fr hin y = View.read (Elt F) (outSlice L outW2 0).view (gathered tab (ix 2)) y := fun y => by
    unfold tile_body.sl.dma0_14
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather13
    exact gatherN_value hix d L tab _ _ rfl _ rfl _ rfl _ rfl _ rfl _ rfl ![1024] inb_S3072_S128_1024 _ _ 2 0 (by decide) y
  have hv2_1 : ∀ y, tile_body.sl.dma0_15 d L tab ix fr hin y = View.read (Elt F) (outSlice L outW2 1).view (gathered tab (ix 2)) y := fun y => by
    unfold tile_body.sl.dma0_15
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather15
    exact gatherN_value hix d L tab _ _ rfl _ rfl _ rfl _ rfl _ rfl _ rfl ![1152] inb_S3072_S128_1152 _ _ 2 1 (by decide) y
  have hv2_2 : ∀ y, tile_body.sl.dma0_16 d L tab ix fr hin y = View.read (Elt F) (outSlice L outW2 2).view (gathered tab (ix 2)) y := fun y => by
    unfold tile_body.sl.dma0_16
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather17
    exact gatherN_value hix d L tab _ _ rfl _ rfl _ rfl _ rfl _ rfl _ rfl ![1280] inb_S3072_S128_1280 _ _ 2 2 (by decide) y
  have hv2_3 : ∀ y, tile_body.sl.dma0_17 d L tab ix fr hin y = View.read (Elt F) (outSlice L outW2 3).view (gathered tab (ix 2)) y := fun y => by
    unfold tile_body.sl.dma0_17
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather19
    exact gatherN_value hix d L tab _ _ rfl _ rfl _ rfl _ rfl _ rfl _ rfl ![1408] inb_S3072_S128_1408 _ _ 2 3 (by decide) y
  have hv3_0 : ∀ y, tile_body.sl.dma0_18 d L tab ix fr hin y = View.read (Elt F) (outSlice L outW3 0).view (gathered tab (ix 3)) y := fun y => by
    unfold tile_body.sl.dma0_18
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather21
    exact gatherN_value hix d L tab _ _ rfl _ rfl _ rfl _ rfl _ rfl _ rfl ![1536] inb_S3072_S128_1536 _ _ 3 0 (by decide) y
  have hv3_1 : ∀ y, tile_body.sl.dma0_19 d L tab ix fr hin y = View.read (Elt F) (outSlice L outW3 1).view (gathered tab (ix 3)) y := fun y => by
    unfold tile_body.sl.dma0_19
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather23
    exact gatherN_value hix d L tab _ _ rfl _ rfl _ rfl _ rfl _ rfl _ rfl ![1664] inb_S3072_S128_1664 _ _ 3 1 (by decide) y
  have hv3_2 : ∀ y, tile_body.sl.dma0_20 d L tab ix fr hin y = View.read (Elt F) (outSlice L outW3 2).view (gathered tab (ix 3)) y := fun y => by
    unfold tile_body.sl.dma0_20
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather25
    exact gatherN_value hix d L tab _ _ rfl _ rfl _ rfl _ rfl _ rfl _ rfl ![1792] inb_S3072_S128_1792 _ _ 3 2 (by decide) y
  have hv3_3 : ∀ y, tile_body.sl.dma0_21 d L tab ix fr hin y = View.read (Elt F) (outSlice L outW3 3).view (gathered tab (ix 3)) y := fun y => by
    unfold tile_body.sl.dma0_21
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather27
    exact gatherN_value hix d L tab _ _ rfl _ rfl _ rfl _ rfl _ rfl _ rfl ![1920] inb_S3072_S128_1920 _ _ 3 3 (by decide) y
  have hv4_0 : ∀ y, tile_body.sl.dma0_22 d L tab ix fr hin y = View.read (Elt F) (outSlice L outW4 0).view (gathered tab (ix 4)) y := fun y => by
    unfold tile_body.sl.dma0_22
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather29
    exact gatherN_value hix d L tab _ _ rfl _ rfl _ rfl _ rfl _ rfl _ rfl ![2048] inb_S3072_S128_2048 _ _ 4 0 (by decide) y
  have hv4_1 : ∀ y, tile_body.sl.dma0_23 d L tab ix fr hin y = View.read (Elt F) (outSlice L outW4 1).view (gathered tab (ix 4)) y := fun y => by
    unfold tile_body.sl.dma0_23
    refine (slot_read_other 1 0 (by decide) _ _ _ _ _ _ _ _ y).trans ?_
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather31
    exact gatherN_value hix d L tab _ _ rfl _ rfl _ rfl _ rfl _ rfl _ rfl ![2176] inb_S3072_S128_2176 _ _ 4 1 (by decide) y
  have hv4_2 : ∀ y, tile_body.sl.dma0_24 d L tab ix fr hin y = View.read (Elt F) (outSlice L outW4 2).view (gathered tab (ix 4)) y := fun y => by
    unfold tile_body.sl.dma0_24
    refine (slot_read_other 2 1 (by decide) _ _ _ _ _ _ _ _ y).trans ?_
    refine (slot_read_other 2 0 (by decide) _ _ _ _ _ _ _ _ y).trans ?_
    refine (slot_read_other 2 3 (by decide) _ _ _ _ _ _ _ _ y).trans ?_
    refine (read_write_self _ _ _ y).trans ?_
    unfold tile_body.sl.gather33
    exact gatherN_value hix d L tab _ _ rfl _ rfl _ rfl _ rfl _ rfl _ rfl ![2304] inb_S3072_S128_2304 _ _ 4 2 (by decide) y
  have hv4_3 : ∀ y, tile_body.sl.dma0_25 d L tab ix fr hin y = View.read (Elt F) (outSlice L outW4 3).view (gathered tab (ix 4)) y := fun y => by
    unfold tile_body.sl.dma0_25
    refine (slot_read_other 3 2 (by decide) _ _ _ _ _ _ _ _ y).trans ?_
    refine (slot_read_other 3 1 (by decide) _ _ _ _ _ _ _ _ y).trans ?_
    refine (slot_read_other 3 0 (by decide) _ _ _ _ _ _ _ _ y).trans ?_
    refine (read_write_self _ _ _ y).trans ?_
    unfold tile_body.sl.gather35
    exact gatherN_value hix d L tab _ _ rfl _ rfl _ rfl _ rfl _ rfl _ rfl ![2432] inb_S3072_S128_2432 _ _ 4 3 (by decide) y
  have hv5_0 : ∀ y, tile_body.sl.dma0_26 d L tab ix fr hin y = View.read (Elt F) (outSlice L outW5 0).view (gathered tab (ix 5)) y := fun y => by
    unfold tile_body.sl.dma0_26
    refine (slot_read_other 0 3 (by decide) _ _ _ _ _ _ _ _ y).trans ?_
    refine (slot_read_other 0 2 (by decide) _ _ _ _ _ _ _ _ y).trans ?_
    refine (slot_read_other 0 1 (by decide) _ _ _ _ _ _ _ _ y).trans ?_
    refine (read_write_self _ _ _ y).trans ?_
    unfold tile_body.sl.gather37
    exact gatherN_value hix d L tab _ _ rfl _ rfl _ rfl _ rfl _ rfl _ rfl ![2560] inb_S3072_S128_2560 _ _ 5 0 (by decide) y
  have hv5_1 : ∀ y, tile_body.sl.dma0_27 d L tab ix fr hin y = View.read (Elt F) (outSlice L outW5 1).view (gathered tab (ix 5)) y := fun y => by
    unfold tile_body.sl.dma0_27
    refine (slot_read_other 1 3 (by decide) _ _ _ _ _ _ _ _ y).trans ?_
    refine (slot_read_other 1 2 (by decide) _ _ _ _ _ _ _ _ y).trans ?_
    refine (read_write_self _ _ _ y).trans ?_
    unfold tile_body.sl.gather39
    exact gatherN_value hix d L tab _ _ rfl _ rfl _ rfl _ rfl _ rfl _ rfl ![2688] inb_S3072_S128_2688 _ _ 5 1 (by decide) y
  have hv5_2 : ∀ y, tile_body.sl.dma0_28 d L tab ix fr hin y = View.read (Elt F) (outSlice L outW5 2).view (gathered tab (ix 5)) y := fun y => by
    unfold tile_body.sl.dma0_28
    refine (slot_read_other 2 3 (by decide) _ _ _ _ _ _ _ _ y).trans ?_
    refine (read_write_self _ _ _ y).trans ?_
    unfold tile_body.sl.gather41
    exact gatherN_value hix d L tab _ _ rfl _ rfl _ rfl _ rfl _ rfl _ rfl ![2816] inb_S3072_S128_2816 _ _ 5 2 (by decide) y
  have hv5_3 : ∀ y, tile_body.sl.dma0_29 d L tab ix fr hin y = View.read (Elt F) (outSlice L outW5 3).view (gathered tab (ix 5)) y := fun y => by
    unfold tile_body.sl.dma0_29

    refine (read_write_self _ _ _ y).trans ?_
    unfold tile_body.sl.gather43
    exact gatherN_value hix d L tab _ _ rfl _ rfl _ rfl _ rfl _ rfl _ rfl ![2944] inb_S3072_S128_2944 _ _ 5 3 (by decide) y
  ihave Hq0_0 := (Entails.of_eq (pointsTo_congr (whole_piece_congr (outSlice L outW0 0).view (o 0) (gathered tab (ix 0))
      (tile_body.sl.dma0_6 d L tab ix fr hin) hv0_0))) $$ Ho0_0
  ihave Hq0_1 := (Entails.of_eq (pointsTo_congr (whole_piece_congr (outSlice L outW0 1).view (o 0) (gathered tab (ix 0))
      (tile_body.sl.dma0_7 d L tab ix fr hin) hv0_1))) $$ Ho0_1
  ihave Hq0_2 := (Entails.of_eq (pointsTo_congr (whole_piece_congr (outSlice L outW0 2).view (o 0) (gathered tab (ix 0))
      (tile_body.sl.dma0_8 d L tab ix fr hin) hv0_2))) $$ Ho0_2
  ihave Hq0_3 := (Entails.of_eq (pointsTo_congr (whole_piece_congr (outSlice L outW0 3).view (o 0) (gathered tab (ix 0))
      (tile_body.sl.dma0_9 d L tab ix fr hin) hv0_3))) $$ Ho0_3
  ihave Hq1_0 := (Entails.of_eq (pointsTo_congr (whole_piece_congr (outSlice L outW1 0).view (o 1) (gathered tab (ix 1))
      (tile_body.sl.dma0_10 d L tab ix fr hin) hv1_0))) $$ Ho1_0
  ihave Hq1_1 := (Entails.of_eq (pointsTo_congr (whole_piece_congr (outSlice L outW1 1).view (o 1) (gathered tab (ix 1))
      (tile_body.sl.dma0_11 d L tab ix fr hin) hv1_1))) $$ Ho1_1
  ihave Hq1_2 := (Entails.of_eq (pointsTo_congr (whole_piece_congr (outSlice L outW1 2).view (o 1) (gathered tab (ix 1))
      (tile_body.sl.dma0_12 d L tab ix fr hin) hv1_2))) $$ Ho1_2
  ihave Hq1_3 := (Entails.of_eq (pointsTo_congr (whole_piece_congr (outSlice L outW1 3).view (o 1) (gathered tab (ix 1))
      (tile_body.sl.dma0_13 d L tab ix fr hin) hv1_3))) $$ Ho1_3
  ihave Hq2_0 := (Entails.of_eq (pointsTo_congr (whole_piece_congr (outSlice L outW2 0).view (o 2) (gathered tab (ix 2))
      (tile_body.sl.dma0_14 d L tab ix fr hin) hv2_0))) $$ Ho2_0
  ihave Hq2_1 := (Entails.of_eq (pointsTo_congr (whole_piece_congr (outSlice L outW2 1).view (o 2) (gathered tab (ix 2))
      (tile_body.sl.dma0_15 d L tab ix fr hin) hv2_1))) $$ Ho2_1
  ihave Hq2_2 := (Entails.of_eq (pointsTo_congr (whole_piece_congr (outSlice L outW2 2).view (o 2) (gathered tab (ix 2))
      (tile_body.sl.dma0_16 d L tab ix fr hin) hv2_2))) $$ Ho2_2
  ihave Hq2_3 := (Entails.of_eq (pointsTo_congr (whole_piece_congr (outSlice L outW2 3).view (o 2) (gathered tab (ix 2))
      (tile_body.sl.dma0_17 d L tab ix fr hin) hv2_3))) $$ Ho2_3
  ihave Hq3_0 := (Entails.of_eq (pointsTo_congr (whole_piece_congr (outSlice L outW3 0).view (o 3) (gathered tab (ix 3))
      (tile_body.sl.dma0_18 d L tab ix fr hin) hv3_0))) $$ Ho3_0
  ihave Hq3_1 := (Entails.of_eq (pointsTo_congr (whole_piece_congr (outSlice L outW3 1).view (o 3) (gathered tab (ix 3))
      (tile_body.sl.dma0_19 d L tab ix fr hin) hv3_1))) $$ Ho3_1
  ihave Hq3_2 := (Entails.of_eq (pointsTo_congr (whole_piece_congr (outSlice L outW3 2).view (o 3) (gathered tab (ix 3))
      (tile_body.sl.dma0_20 d L tab ix fr hin) hv3_2))) $$ Ho3_2
  ihave Hq3_3 := (Entails.of_eq (pointsTo_congr (whole_piece_congr (outSlice L outW3 3).view (o 3) (gathered tab (ix 3))
      (tile_body.sl.dma0_21 d L tab ix fr hin) hv3_3))) $$ Ho3_3
  ihave Hq4_0 := (Entails.of_eq (pointsTo_congr (whole_piece_congr (outSlice L outW4 0).view (o 4) (gathered tab (ix 4))
      (tile_body.sl.dma0_22 d L tab ix fr hin) hv4_0))) $$ Ho4_0
  ihave Hq4_1 := (Entails.of_eq (pointsTo_congr (whole_piece_congr (outSlice L outW4 1).view (o 4) (gathered tab (ix 4))
      (tile_body.sl.dma0_23 d L tab ix fr hin) hv4_1))) $$ Ho4_1
  ihave Hq4_2 := (Entails.of_eq (pointsTo_congr (whole_piece_congr (outSlice L outW4 2).view (o 4) (gathered tab (ix 4))
      (tile_body.sl.dma0_24 d L tab ix fr hin) hv4_2))) $$ Ho4_2
  ihave Hq4_3 := (Entails.of_eq (pointsTo_congr (whole_piece_congr (outSlice L outW4 3).view (o 4) (gathered tab (ix 4))
      (tile_body.sl.dma0_25 d L tab ix fr hin) hv4_3))) $$ Ho4_3
  ihave Hq5_0 := (Entails.of_eq (pointsTo_congr (whole_piece_congr (outSlice L outW5 0).view (o 5) (gathered tab (ix 5))
      (tile_body.sl.dma0_26 d L tab ix fr hin) hv5_0))) $$ Ho5_0
  ihave Hq5_1 := (Entails.of_eq (pointsTo_congr (whole_piece_congr (outSlice L outW5 1).view (o 5) (gathered tab (ix 5))
      (tile_body.sl.dma0_27 d L tab ix fr hin) hv5_1))) $$ Ho5_1
  ihave Hq5_2 := (Entails.of_eq (pointsTo_congr (whole_piece_congr (outSlice L outW5 2).view (o 5) (gathered tab (ix 5))
      (tile_body.sl.dma0_28 d L tab ix fr hin) hv5_2))) $$ Ho5_2
  ihave Hq5_3 := (Entails.of_eq (pointsTo_congr (whole_piece_congr (outSlice L outW5 3).view (o 5) (gathered tab (ix 5))
      (tile_body.sl.dma0_29 d L tab ix fr hin) hv5_3))) $$ Ho5_3
  -- the table's share whole again, the index entries, the outputs at the gathered rows
  isplitl [Htrest Ht6 Ht7 Ht8 Ht9 Htlow Hi0 Hi1 Hi2 Hi3 Hi4 Hi5 Hq0_0 Hq0_1 Hq0_2 Hq0_3 Hq1_0 Hq1_1 Hq1_2 Hq1_3 Hq2_0 Hq2_1 Hq2_2 Hq2_3 Hq3_0 Hq3_1 Hq3_2 Hq3_3 Hq4_0 Hq4_1 Hq4_2 Hq4_3 Hq5_0 Hq5_1 Hq5_2 Hq5_3]
  · isplitl [Htrest Ht6 Ht7 Ht8 Ht9 Htlow]
    · iapply (tab_toks (F := F) d L q tab).2
      isplitl [Htrest]; · iexact Htrest
      isplitl [Ht6]; · iexact Ht6
      isplitl [Ht7]; · iexact Ht7
      isplitl [Ht8]; · iexact Ht8
      isplitl [Ht9]; · iexact Ht9
      iexact Htlow
    isplitl [Hi0 Hi1 Hi2 Hi3 Hi4 Hi5]
    · isplitl [Hi0]; · iexact Hi0
      isplitl [Hi1]; · iexact Hi1
      isplitl [Hi2]; · iexact Hi2
      isplitl [Hi3]; · iexact Hi3
      isplitl [Hi4]; · iexact Hi4
      iexact Hi5
    isplitl [Hq0_0 Hq0_1 Hq0_2 Hq0_3]
    · isplitl [Hq0_0]; · iexact Hq0_0
      isplitl [Hq0_1]; · iexact Hq0_1
      isplitl [Hq0_2]; · iexact Hq0_2
      iexact Hq0_3
    isplitl [Hq1_0 Hq1_1 Hq1_2 Hq1_3]
    · isplitl [Hq1_0]; · iexact Hq1_0
      isplitl [Hq1_1]; · iexact Hq1_1
      isplitl [Hq1_2]; · iexact Hq1_2
      iexact Hq1_3
    isplitl [Hq2_0 Hq2_1 Hq2_2 Hq2_3]
    · isplitl [Hq2_0]; · iexact Hq2_0
      isplitl [Hq2_1]; · iexact Hq2_1
      isplitl [Hq2_2]; · iexact Hq2_2
      iexact Hq2_3
    isplitl [Hq3_0 Hq3_1 Hq3_2 Hq3_3]
    · isplitl [Hq3_0]; · iexact Hq3_0
      isplitl [Hq3_1]; · iexact Hq3_1
      isplitl [Hq3_2]; · iexact Hq3_2
      iexact Hq3_3
    isplitl [Hq4_0 Hq4_1 Hq4_2 Hq4_3]
    · isplitl [Hq4_0]; · iexact Hq4_0
      isplitl [Hq4_1]; · iexact Hq4_1
      isplitl [Hq4_2]; · iexact Hq4_2
      iexact Hq4_3
    isplitl [Hq5_0]; · iexact Hq5_0
    isplitl [Hq5_1]; · iexact Hq5_1
    isplitl [Hq5_2]; · iexact Hq5_2
    iexact Hq5_3
  -- the scratch buffers and the semaphores, each back at zero
  isplitl [Hs' Hr' Hbufs]
  · isplitl [Hs']; · iexists _; iexact Hs'
    isplitl [Hr']; · iexists _; iexact Hr'
    iexact Hbufs
  isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33 Hsems]
  · isplitl [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25 Hc26 Hc27 Hc28 Hc29 Hc30 Hc31 Hc32 Hc33]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hc17]; · iexact Hc17
      isplitl [Hc18]; · iexact Hc18
      isplitl [Hc19]; · iexact Hc19
      isplitl [Hc20]; · iexact Hc20
      isplitl [Hc21]; · iexact Hc21
      isplitl [Hc22]; · iexact Hc22
      isplitl [Hc23]; · iexact Hc23
      isplitl [Hc24]; · iexact Hc24
      isplitl [Hc25]; · iexact Hc25
      isplitl [Hc26]; · iexact Hc26
      isplitl [Hc27]; · iexact Hc27
      isplitl [Hc28]; · iexact Hc28
      isplitl [Hc29]; · iexact Hc29
      isplitl [Hc30]; · iexact Hc30
      isplitl [Hc31]; · iexact Hc31
      isplitl [Hc32]; · iexact Hc32
      isplitl [Hc33]; · iexact Hc33
      iempintro
    iexact Hsems
  -- every wait of the task was at the index the launch does not use
  iexists _; isplitr
  rotate_left
  · iexact HO
  · ipureintro
    repeat (refine waits_ins ?_ rfl)
    exact fun p hp => .inl hp

end Cert.Kernel.Tile

end
-- ==== Proof.KTileObl.lean ====
/-
  The launch theorem's obligation for the tasks of the gather kernel: whatever table contents the packing region
  left, a task run from its operands ends with its results — the body obligation at that table.
-/
import proofs.«203064_g33122787786777_cont_8to1_b_416_18_alg».proof.Proof.KPay
import proofs.«203064_g33122787786777_cont_8to1_b_416_18_alg».proof.Proof.KTileBody

noncomputable section

namespace Cert.Kernel.Tile

open Cert.Kernel Cert.Kernel.Gen Cert.Kernel.Alg
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

theorem defs₀_vector (c : Fin τ.nSC) (s : Fin τ.nSub) :
    defs₀ (F := F) (.scVector c s) 1 ()
      = SparseCore.onTile hcore1 hsub1 (fun c s => cc1__sc_gather_body (Deal.coordsOf c s) tabW (Memref.isWhole_whole _) ixW0 (Memref.isWhole_whole _) ixW1 (Memref.isWhole_whole _) ixW2 (Memref.isWhole_whole _) ixW3 (Memref.isWhole_whole _) ixW4 (Memref.isWhole_whole _) ixW5 (Memref.isWhole_whole _) outW0 (Memref.isWhole_whole _) outW1 (Memref.isWhole_whole _) outW2 (Memref.isWhole_whole _) outW3 (Memref.isWhole_whole _) outW4 (Memref.isWhole_whole _) outW5 (Memref.isWhole_whole _) ixScr (Memref.isWhole_whole _) rowScr (Memref.isWhole_whole _) cc1_scratch2 cc1_scratch3 cc1_scratch4 cc1_scratch5 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29) ⟨⟩ c s := rfl

omit [FloatOps F] in
/-- The task's post as the launch theorem spells it: the results at some table, and the recorded waits at an index the
    call allows. -/
theorem obl_post {thr : Thread nD τ} {A : TabC F → sProp 𝕄} {B C : sProp 𝕄} {O : CellTallies nD τ sig (HIx 1)} {W : Waits sig (HIx 1)} {q : Fin 1}
    (tab : TabC F) :
    iprop(A tab ∗ B ∗ C ∗ ∃ W', ⌜∀ p ∈ W', p ∈ W ∨ p.2 = none⌝ ∗ owes thr O W')
      ⊢ iprop((∃ tab, A tab) ∗ B ∗ C ∗ ∃ W', ⌜∀ p ∈ W', p ∈ W ∨ p.2 = none ∨ p.2 = some q⌝ ∗ owes thr O W') := by
  iintro ⟨HA, HB, HC, %W', %hW', HO⟩
  isplitl [HA]; · iexists tab; iexact HA
  isplitl [HB]; · iexact HB
  isplitl [HC]; · iexact HC
  iexists W'; isplitr
  · ipureintro; exact fun p hp => (hW' p hp).imp_right Or.inl
  · iexact HO

/-- The tasks' obligation at the one SparseCore call. -/
theorem tileObl (m : (ℓ : Loc nD τ sig) → Buf (Elt F) ℓ) (hix : ∀ d, IxOK (Vals.ixOf m d)) :
    (K (F := F)).TileObl (D (F := F)) 𝒱 (PayM.P m) v₀ 0 := by
  intro d c i O W hO _ _
  simp only [show (PayM.P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  show iprop(_ ∗ emp ∗ PayM.goAt m d (Fin.cast nCore_zero c) (Fin.cast nSub_zero i) ∗ _)
    ⊢ wp _ _ _ _ (fun _ => iprop(PayM.tdAt m d (Fin.cast nCore_zero c) (Fin.cast nSub_zero i) ∗ _))
  unfold PayM.goAt PayM.tdAt
  iintro ⟨#Hlv, Hx, ⟨%tab, Hgo⟩, Hsb, Hss, HO⟩
  iapply ((tile_body d (Deal.coordsOf (Fin.cast nCore_zero c) (Fin.cast nSub_zero i)) O W hO
      (Deal.tok (Fin.cast nCore_zero c) (Fin.cast nSub_zero i)) tab (Vals.ixOf m d) (Vals.outOf m d) (hix d)).trans
    (wp_mono frame _ _ fun _ => obl_post (A := fun tab => tileTd d (Deal.coordsOf (Fin.cast nCore_zero c) (Fin.cast nSub_zero i))
      (Deal.tok (Fin.cast nCore_zero c) (Fin.cast nSub_zero i)) tab (Vals.ixOf m d)) tab)) $$ [Hx Hgo Hsb Hss HO]
  isplitr; · iexact Hlv
  isplitl [Hx]; · iexact Hx
  isplitl [Hgo]; · iexact Hgo
  isplitl [Hsb]; · iexact Hsb
  isplitl [Hss]; · iexact Hss
  iexact HO

end Cert.Kernel.Tile

end
-- ==== Proof.KRegion0Val.lean ====
/-
  The packing region's result, in the form the program's value proof reads it: whatever the packed array may hold
  after the region, row `r` is the first table's row `r` in columns 0‥63 and, below row 100000, the second table's
  row `r` in columns 64‥127 (both tables as the region finds them, transposed).
-/
import proofs.«203064_g33122787786777_cont_8to1_b_416_18_alg».proof.Proof.KRegion0

noncomputable section

namespace Cert.Kernel.Region0

open Cert.Kernel Cert.Kernel.Gen Cert.Kernel.Alg
open Idealize.ShloMosaic Idealize.ShloMosaic.TcCoe
open Idealize.ShloMosaic.SparseCore.Cfg (HIx)
open Idealize.SL.Sem
open Idealize.ShloMosaic.Pipeline (RDat)
open Idealize.ShloMosaic.ValueIdx (ix2)

variable {F : FTy → Type} [FloatOps F]
variable (V : (c : Dev nD) → (b : Ref sig .tc) → Buf (Elt F) ((c : Thread nD τ).loc b))
variable (O : Dev nD → CellTallies nD τ sig (HIx 1))
variable (B : Dev nD → Set (SemLoc sig × HIx 1))

theorem tabOK0 (c : Dev nD) (G) (h : (rdat0 V O B c).ArrAt 2 cfg0.N G) : ∀ (r : Fin 100352) (j : Fin 128),
    (∀ hj : j.val < 64, G (ix2 r j) = V c main_v12 (ix2 ⟨j.val, hj⟩ ⟨r.val, by have := r.isLt; omega⟩)) ∧
    (∀ (hj : 64 ≤ j.val) (hr : r.val < 100000), G (ix2 r j) = V c main_v13 (ix2 ⟨j.val - 64, by have := j.isLt; omega⟩ ⟨r.val, hr⟩)) :=
  fun r j => value0 V O B c G h r j

end Cert.Kernel.Region0

end
-- ==== Proof.KRegion2Val.lean ====
/-
  The dense region's result, in the form the program's value proof reads it: the 1 × 1 result array after the
  region is the ordered fold over the four grid points — the first point's contribution added to zero, the two
  middle points' added in turn, the last point's added and the sum scaled —, each point's contribution a function
  of its nine input blocks; and each input block read at an index is its array read at the block's place: rows
  4096·t ‥ 4096·t + 4095 of a gathered row array, or the whole of a weight block or of the bias row.
-/
import proofs.«203064_g33122787786777_cont_8to1_b_416_18_alg».proof.Proof.KRegion2
set_option maxRecDepth 16384

noncomputable section

namespace Cert.Kernel.Region2

open Cert.Kernel Cert.Kernel.Gen Cert.Kernel.Alg Cert.Kernel.Region0
open Idealize.ShloMosaic Idealize.ShloMosaic.TcCoe
open Idealize.ShloMosaic.SparseCore.Cfg (HIx)
open Idealize.SL.Sem
open Idealize.ShloMosaic.Pipeline (Dat)
open Idealize.ShloMosaic.ValueIdx (ix2)

variable {F : FTy → Type} [FloatOps F]
variable (V : (c : Dev nD) → (b : Ref sig .tc) → Buf (Elt F) ((c : Thread nD τ).loc b))
variable (O : Dev nD → CellTallies nD τ sig (HIx 1))
variable (B : Dev nD → Set (SemLoc sig × HIx 1))

/-- The result array after the region: the fold over the four points. -/
theorem lossOK2 (c : Dev nD) :
    (dat2 V O B c).arrAt 9 cfg2.N = accC (iblk2 V c 0 t2_3) (iblk2 V c 1 t2_3) (iblk2 V c 2 t2_3) (iblk2 V c 3 t2_3) (iblk2 V c 4 t2_3) (iblk2 V c 5 t2_3) (iblk2 V c 6 t2_3) (iblk2 V c 7 t2_3) (iblk2 V c 8 t2_3)
      (accB (iblk2 V c 0 t2_2) (iblk2 V c 1 t2_2) (iblk2 V c 2 t2_2) (iblk2 V c 3 t2_2) (iblk2 V c 4 t2_2) (iblk2 V c 5 t2_2) (iblk2 V c 6 t2_2) (iblk2 V c 7 t2_2) (iblk2 V c 8 t2_2)
        (accB (iblk2 V c 0 t2_1) (iblk2 V c 1 t2_1) (iblk2 V c 2 t2_1) (iblk2 V c 3 t2_1) (iblk2 V c 4 t2_1) (iblk2 V c 5 t2_1) (iblk2 V c 6 t2_1) (iblk2 V c 7 t2_1) (iblk2 V c 8 t2_1)
          (accA (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0) (iblk2 V c 8 t2_0)))) :=
  (value2 V O B c).trans (result2_eq V c)

/-- The same at the array's one index. -/
theorem lossOK2_apply (c : Dev nD) (i : S1x1.Idx) :
    (dat2 V O B c).arrAt 9 cfg2.N i = accC (iblk2 V c 0 t2_3) (iblk2 V c 1 t2_3) (iblk2 V c 2 t2_3) (iblk2 V c 3 t2_3) (iblk2 V c 4 t2_3) (iblk2 V c 5 t2_3) (iblk2 V c 6 t2_3) (iblk2 V c 7 t2_3) (iblk2 V c 8 t2_3)
      (accB (iblk2 V c 0 t2_2) (iblk2 V c 1 t2_2) (iblk2 V c 2 t2_2) (iblk2 V c 3 t2_2) (iblk2 V c 4 t2_2) (iblk2 V c 5 t2_2) (iblk2 V c 6 t2_2) (iblk2 V c 7 t2_2) (iblk2 V c 8 t2_2)
        (accB (iblk2 V c 0 t2_1) (iblk2 V c 1 t2_1) (iblk2 V c 2 t2_1) (iblk2 V c 3 t2_1) (iblk2 V c 4 t2_1) (iblk2 V c 5 t2_1) (iblk2 V c 6 t2_1) (iblk2 V c 7 t2_1) (iblk2 V c 8 t2_1)
          (accA (iblk2 V c 0 t2_0) (iblk2 V c 1 t2_0) (iblk2 V c 2 t2_0) (iblk2 V c 3 t2_0) (iblk2 V c 4 t2_0) (iblk2 V c 5 t2_0) (iblk2 V c 6 t2_0) (iblk2 V c 7 t2_0) (iblk2 V c 8 t2_0)))) i :=
  congrFun (lossOK2 V O B c) i

section Blocks

/-- Row-block window 0's index map, decided over the grid: rows 4096·t ‥, all columns. -/
theorem idx2_0 : ∀ t : Fin cfg2.N, win2_0.index t 0 = t.val ∧ win2_0.index t 1 = 0 :=
  (by decide +kernel : ∀ t : Fin grid2.N, win2_0.index t 0 = t.val ∧ win2_0.index t 1 = 0)
/-- Its block at point `t`, at an index: the array's row 4096·t + p. -/
theorem iblk2_0_apply (c : Dev nD) (t : Fin cfg2.N) (p : Fin 4096) (q : Fin 128) :
    iblk2 V c 0 t (ix2 p q) = V c main_v15_0 (ix2 ⟨4096 * t.val + p.val, by have := lt_of_lt_of_eq t.isLt N2_eq; have := p.isLt; omega⟩ q) := by
  unfold iblk2
  show V c main_v15_0 (((cfg2.win 0).blk t).view.emb _) = _
  refine congrArg (V c main_v15_0) (funext fun a => Fin.ext ?_)
  match a with
  | ⟨0, _⟩ => show win2_0.index t 0 * 4096 + 1 * p.val = 4096 * t.val + p.val; rw [(idx2_0 t).1]; omega
  | ⟨1, _⟩ => show win2_0.index t 1 * 128 + 1 * q.val = q.val; rw [(idx2_0 t).2]; omega

/-- Row-block window 1's index map, decided over the grid: rows 4096·t ‥, all columns. -/
theorem idx2_1 : ∀ t : Fin cfg2.N, win2_1.index t 0 = t.val ∧ win2_1.index t 1 = 0 :=
  (by decide +kernel : ∀ t : Fin grid2.N, win2_1.index t 0 = t.val ∧ win2_1.index t 1 = 0)
/-- Its block at point `t`, at an index: the array's row 4096·t + p. -/
theorem iblk2_1_apply (c : Dev nD) (t : Fin cfg2.N) (p : Fin 4096) (q : Fin 128) :
    iblk2 V c 1 t (ix2 p q) = V c main_v15_1 (ix2 ⟨4096 * t.val + p.val, by have := lt_of_lt_of_eq t.isLt N2_eq; have := p.isLt; omega⟩ q) := by
  unfold iblk2
  show V c main_v15_1 (((cfg2.win 1).blk t).view.emb _) = _
  refine congrArg (V c main_v15_1) (funext fun a => Fin.ext ?_)
  match a with
  | ⟨0, _⟩ => show win2_1.index t 0 * 4096 + 1 * p.val = 4096 * t.val + p.val; rw [(idx2_1 t).1]; omega
  | ⟨1, _⟩ => show win2_1.index t 1 * 128 + 1 * q.val = q.val; rw [(idx2_1 t).2]; omega

/-- Row-block window 2's index map, decided over the grid: rows 4096·t ‥, all columns. -/
theorem idx2_2 : ∀ t : Fin cfg2.N, win2_2.index t 0 = t.val ∧ win2_2.index t 1 = 0 :=
  (by decide +kernel : ∀ t : Fin grid2.N, win2_2.index t 0 = t.val ∧ win2_2.index t 1 = 0)
/-- Its block at point `t`, at an index: the array's row 4096·t + p. -/
theorem iblk2_2_apply (c : Dev nD) (t : Fin cfg2.N) (p : Fin 4096) (q : Fin 128) :
    iblk2 V c 2 t (ix2 p q) = V c main_v15_2 (ix2 ⟨4096 * t.val + p.val, by have := lt_of_lt_of_eq t.isLt N2_eq; have := p.isLt; omega⟩ q) := by
  unfold iblk2
  show V c main_v15_2 (((cfg2.win 2).blk t).view.emb _) = _
  refine congrArg (V c main_v15_2) (funext fun a => Fin.ext ?_)
  match a with
  | ⟨0, _⟩ => show win2_2.index t 0 * 4096 + 1 * p.val = 4096 * t.val + p.val; rw [(idx2_2 t).1]; omega
  | ⟨1, _⟩ => show win2_2.index t 1 * 128 + 1 * q.val = q.val; rw [(idx2_2 t).2]; omega

/-- Row-block window 3's index map, decided over the grid: rows 4096·t ‥, all columns. -/
theorem idx2_3 : ∀ t : Fin cfg2.N, win2_3.index t 0 = t.val ∧ win2_3.index t 1 = 0 :=
  (by decide +kernel : ∀ t : Fin grid2.N, win2_3.index t 0 = t.val ∧ win2_3.index t 1 = 0)
/-- Its block at point `t`, at an index: the array's row 4096·t + p. -/
theorem iblk2_3_apply (c : Dev nD) (t : Fin cfg2.N) (p : Fin 4096) (q : Fin 128) :
    iblk2 V c 3 t (ix2 p q) = V c main_v15_3 (ix2 ⟨4096 * t.val + p.val, by have := lt_of_lt_of_eq t.isLt N2_eq; have := p.isLt; omega⟩ q) := by
  unfold iblk2
  show V c main_v15_3 (((cfg2.win 3).blk t).view.emb _) = _
  refine congrArg (V c main_v15_3) (funext fun a => Fin.ext ?_)
  match a with
  | ⟨0, _⟩ => show win2_3.index t 0 * 4096 + 1 * p.val = 4096 * t.val + p.val; rw [(idx2_3 t).1]; omega
  | ⟨1, _⟩ => show win2_3.index t 1 * 128 + 1 * q.val = q.val; rw [(idx2_3 t).2]; omega

/-- Row-block window 4's index map, decided over the grid: rows 4096·t ‥, all columns. -/
theorem idx2_4 : ∀ t : Fin cfg2.N, win2_4.index t 0 = t.val ∧ win2_4.index t 1 = 0 :=
  (by decide +kernel : ∀ t : Fin grid2.N, win2_4.index t 0 = t.val ∧ win2_4.index t 1 = 0)
/-- Its block at point `t`, at an index: the array's row 4096·t + p. -/
theorem iblk2_4_apply (c : Dev nD) (t : Fin cfg2.N) (p : Fin 4096) (q : Fin 128) :
    iblk2 V c 4 t (ix2 p q) = V c main_v15_4 (ix2 ⟨4096 * t.val + p.val, by have := lt_of_lt_of_eq t.isLt N2_eq; have := p.isLt; omega⟩ q) := by
  unfold iblk2
  show V c main_v15_4 (((cfg2.win 4).blk t).view.emb _) = _
  refine congrArg (V c main_v15_4) (funext fun a => Fin.ext ?_)
  match a with
  | ⟨0, _⟩ => show win2_4.index t 0 * 4096 + 1 * p.val = 4096 * t.val + p.val; rw [(idx2_4 t).1]; omega
  | ⟨1, _⟩ => show win2_4.index t 1 * 128 + 1 * q.val = q.val; rw [(idx2_4 t).2]; omega

/-- Row-block window 5's index map, decided over the grid: rows 4096·t ‥, all columns. -/
theorem idx2_5 : ∀ t : Fin cfg2.N, win2_5.index t 0 = t.val ∧ win2_5.index t 1 = 0 :=
  (by decide +kernel : ∀ t : Fin grid2.N, win2_5.index t 0 = t.val ∧ win2_5.index t 1 = 0)
/-- Its block at point `t`, at an index: the array's row 4096·t + p. -/
theorem iblk2_5_apply (c : Dev nD) (t : Fin cfg2.N) (p : Fin 4096) (q : Fin 128) :
    iblk2 V c 5 t (ix2 p q) = V c main_v15_5 (ix2 ⟨4096 * t.val + p.val, by have := lt_of_lt_of_eq t.isLt N2_eq; have := p.isLt; omega⟩ q) := by
  unfold iblk2
  show V c main_v15_5 (((cfg2.win 5).blk t).view.emb _) = _
  refine congrArg (V c main_v15_5) (funext fun a => Fin.ext ?_)
  match a with
  | ⟨0, _⟩ => show win2_5.index t 0 * 4096 + 1 * p.val = 4096 * t.val + p.val; rw [(idx2_5 t).1]; omega
  | ⟨1, _⟩ => show win2_5.index t 1 * 128 + 1 * q.val = q.val; rw [(idx2_5 t).2]; omega

/-- Window 6's block is its whole array at every point. -/
theorem iblk2_6_eq (c : Dev nD) (t : Fin cfg2.N) : iblk2 V c 6 t = V c main_v17 := by
  have hz' : (fun a => win2_6.index t a * main_v17.ty.shape.size a) = fun _ => 0 := funext fun a => by
    have h := (by decide +kernel : ∀ t : Fin grid2.N, ∀ a, win2_6.index t a = 0) t a
    rw [h]; exact Nat.zero_mul _
  exact Memref.read_access_unit_zero (Elt F) main_v17 hz' (fun a => by rw [congrFun hz' a]; simp) (V c main_v17)

/-- Window 7's block is its whole array at every point. -/
theorem iblk2_7_eq (c : Dev nD) (t : Fin cfg2.N) : iblk2 V c 7 t = V c main_v19 := by
  have hz' : (fun a => win2_7.index t a * main_v19.ty.shape.size a) = fun _ => 0 := funext fun a => by
    have h := (by decide +kernel : ∀ t : Fin grid2.N, ∀ a, win2_7.index t a = 0) t a
    rw [h]; exact Nat.zero_mul _
  exact Memref.read_access_unit_zero (Elt F) main_v19 hz' (fun a => by rw [congrFun hz' a]; simp) (V c main_v19)

/-- Window 8's block is its whole array at every point. -/
theorem iblk2_8_eq (c : Dev nD) (t : Fin cfg2.N) : iblk2 V c 8 t = V c main_v24 := by
  have hz' : (fun a => win2_8.index t a * main_v24.ty.shape.size a) = fun _ => 0 := funext fun a => by
    have h := (by decide +kernel : ∀ t : Fin grid2.N, ∀ a, win2_8.index t a = 0) t a
    rw [h]; exact Nat.zero_mul _
  exact Memref.read_access_unit_zero (Elt F) main_v24 hz' (fun a => by rw [congrFun hz' a]; simp) (V c main_v24)

end Blocks

end Cert.Kernel.Region2

end
-- ==== Proof.KEnds.lean ====
/-
  The launch's book-keeping, read off the valuations at the boundaries of @main.  The packed table the first region
  leaves agrees, on every row an index can name, with the table the two embedding tables determine: the region
  writes the transposed tables' columns side by side, and a transposed table at (j, r) is the table at (r, j).  No
  host operation and no region writes an argument's buffer, so at the end each argument holds what the launch memory
  gave it.  The result buffer holds the dense region's 1 × 1 result, recast as a scalar.
-/
import proofs.«203064_g33122787786777_cont_8to1_b_416_18_alg».proof.Proof.KSegs
import proofs.«203064_g33122787786777_cont_8to1_b_416_18_alg».proof.Proof.KRegion0Val
import proofs.«203064_g33122787786777_cont_8to1_b_416_18_alg».proof.Proof.KRegion2Val
import Idealize.ShloMosaic.Lib.ValueLayout

set_option maxRecDepth 16384

noncomputable section

namespace Cert.Kernel.Ends

open Cert.Kernel Cert.Kernel.Gen Cert.Kernel.Alg Cert.Kernel.Host Cert.Kernel.Vals
open Cert.Kernel.TcState Cert.Kernel.Tile
open Idealize.ShloMosaic Idealize.ShloMosaic.TcCoe
open Idealize.ShloMosaic.SparseCore.Cfg (HIx)
open Idealize.SL.Sem
open Idealize.ShloMosaic.ValueIdx (ix0 ix2 eq_ix2)

variable {F : FTy → Type} [FloatOps F]
variable (m : (ℓ : Loc nD τ sig) → Buf (Elt F) ℓ)

/-! ## The packed table -/

/-- The first table transposed, read at (j, r), is the table at (r, j). -/
theorem v12_apply (d : Dev nD) (j : Fin 64) (r : Fin 1000000) :
    (V1 m d main_v12 : S64x1000000.Idx → Elt F .f32) (ix2 j r) = (V1 m d main_arg2 : S1000000x64.Idx → Elt F .f32) (ix2 r j) := by
  have e : (V1 m d main_v12 : S64x1000000.Idx → Elt F .f32)
      = transpose S64x1000000 [1, 0] (V1 m d main_arg2 : S1000000x64.Idx → Elt F .f32) transposes_S1000000x64_S64x1000000_1_0 := by
    dsimp only [V1, W1, W0, hostOps0]; after_results
  rw [e]
  exact ValueIdx.transpose_ix2_apply _ _ j r

/-- The second table transposed, read at (j, r), is the table at (r, j). -/
theorem v13_apply (d : Dev nD) (j : Fin 64) (r : Fin 100000) :
    (V1 m d main_v13 : S64x100000.Idx → Elt F .f32) (ix2 j r) = (V1 m d main_arg3 : S100000x64.Idx → Elt F .f32) (ix2 r j) := by
  have e : (V1 m d main_v13 : S64x100000.Idx → Elt F .f32)
      = transpose S64x100000 [1, 0] (V1 m d main_arg3 : S100000x64.Idx → Elt F .f32) transposes_S100000x64_S64x100000_1_0 := by
    dsimp only [V1, W1, W0, hostOps0]; after_results
  rw [e]
  exact ValueIdx.transpose_ix2_apply _ _ j r

/-- Whatever the packing region leaves in the packed array agrees with the packed table on every row below 100000. -/
theorem tabOK_of_arrAt (d : Dev nD) (G)
    (h : (Region0.rdat0 (V1 m) (On (F := F) 0) (Bn (F := F) 0) d).ArrAt 2 cfg0.N G) : TabOK m d G := by
  intro y hy
  obtain ⟨r, j, rfl⟩ : ∃ (r : Fin 100352) (j : Fin 128), y = ix2 r j := ⟨y 0, y 1, eq_ix2 y⟩
  have hr : r.val < 100000 := hy
  have key := Region0.tabOK0 (V1 m) (On (F := F) 0) (Bn (F := F) 0) d G h r j
  unfold tabOf
  by_cases hj : j.val < 64
  · rw [dif_pos (show ((ix2 r j : S100352x128.Idx) 1).val < 64 from hj), key.1 hj]
    exact v12_apply m d ⟨j.val, hj⟩ ⟨r.val, _⟩
  · have hj' : 64 ≤ j.val := Nat.le_of_not_lt hj
    rw [dif_neg (show ¬ ((ix2 r j : S100352x128.Idx) 1).val < 64 from hj), key.2 hj' hr, v13_apply]
    refine congrArg (V1 m d main_arg3 : S100000x64.Idx → Elt F .f32) (funext fun a => Fin.ext ?_)
    match a with
    | ⟨0, _⟩ => exact (Nat.mod_eq_of_lt hr).symm
    | ⟨1, _⟩ => rfl

/-! ## The arguments end as launched -/

/-- The six gathered arrays are the only buffers the SparseCore call rewrites. -/
theorem W3_of_ne (c : Dev nD) (b : Ref sig .tc) (h0 : b ≠ main_v15_0) (h1 : b ≠ main_v15_1) (h2 : b ≠ main_v15_2)
    (h3 : b ≠ main_v15_3) (h4 : b ≠ main_v15_4) (h5 : b ≠ main_v15_5) :
    W3 m c (Proc.devRef .tc b) = W1 m c (Proc.devRef .tc b) := by
  unfold W3
  rw [Function.update_of_ne (StableHlo.devRef_ne_of_ne h5), Function.update_of_ne (StableHlo.devRef_ne_of_ne h4),
    Function.update_of_ne (StableHlo.devRef_ne_of_ne h3), Function.update_of_ne (StableHlo.devRef_ne_of_ne h2),
    Function.update_of_ne (StableHlo.devRef_ne_of_ne h1), Function.update_of_ne (StableHlo.devRef_ne_of_ne h0)]

/-- A buffer that no host operation writes, that is none of the dense region's arrays and none of the gathered
    arrays, holds at the end what the launch memory gave it. -/
theorem W6_of_not_written (d : Dev nD) (b : Ref sig .tc)
    (hh2 : ∀ op ∈ (hostOps2 : List (HloOp τ sig (Elt F))), Proc.devRef .tc b ∉ op.writes)
    (hr2 : ∀ w, Pipeline.arrRef spec2 w ≠ b)
    (hh1 : ∀ op ∈ (hostOps1 : List (HloOp τ sig (Elt F))), Proc.devRef .tc b ∉ op.writes)
    (h0 : b ≠ main_v15_0) (h1 : b ≠ main_v15_1) (h2 : b ≠ main_v15_2) (h3 : b ≠ main_v15_3) (h4 : b ≠ main_v15_4) (h5 : b ≠ main_v15_5)
    (hh0 : ∀ op ∈ (hostOps0 : List (HloOp τ sig (Elt F))), Proc.devRef .tc b ∉ op.writes) :
    Segs.W6 m d (Proc.devRef .tc b) = m ((d : Thread nD τ).loc b) :=
  calc Segs.W6 m d (Proc.devRef .tc b)
    _ = Segs.W5 m d (Proc.devRef .tc b) := StableHlo.after_of_forall_not_mem (b := Proc.devRef .tc b) _ _ hh2
    _ = W4 m d (Proc.devRef .tc b) := Segs.W5_of_ne m d b hr2
    _ = W3 m d (Proc.devRef .tc b) := StableHlo.after_of_forall_not_mem (b := Proc.devRef .tc b) _ _ hh1
    _ = W1 m d (Proc.devRef .tc b) := W3_of_ne m d b h0 h1 h2 h3 h4 h5
    _ = W0 m d (Proc.devRef .tc b) := StableHlo.after_of_forall_not_mem (b := Proc.devRef .tc b) _ _ hh0
    _ = m ((d : Thread nD τ).loc b) := rfl

/-- No operation of a host stretch writes the given buffer: decided reference by reference. -/
local macro "not_written" : tactic => `(tactic| (
  refine List.forall_iff_forall_mem.mp ?_
  simp only [hostOps0, hostOps1, hostOps2, List.Forall, StableHlo.unary_writes, StableHlo.binary_writes,
    StableHlo.reshape_writes, Finset.mem_singleton]
  repeat' apply And.intro
  all_goals exact StableHlo.devRef_ne_of_ne (by decide)))

theorem W6_main_arg0 (d : Dev nD) : Segs.W6 m d (Proc.devRef .tc main_arg0) = m ((d : Thread nD τ).loc main_arg0) :=
  W6_of_not_written m d main_arg0 (by not_written) (by decide) (by not_written)
    (by decide) (by decide) (by decide) (by decide) (by decide) (by decide) (by not_written)

theorem W6_main_arg1 (d : Dev nD) : Segs.W6 m d (Proc.devRef .tc main_arg1) = m ((d : Thread nD τ).loc main_arg1) :=
  W6_of_not_written m d main_arg1 (by not_written) (by decide) (by not_written)
    (by decide) (by decide) (by decide) (by decide) (by decide) (by decide) (by not_written)

theorem W6_main_arg2 (d : Dev nD) : Segs.W6 m d (Proc.devRef .tc main_arg2) = m ((d : Thread nD τ).loc main_arg2) :=
  W6_of_not_written m d main_arg2 (by not_written) (by decide) (by not_written)
    (by decide) (by decide) (by decide) (by decide) (by decide) (by decide) (by not_written)

theorem W6_main_arg3 (d : Dev nD) : Segs.W6 m d (Proc.devRef .tc main_arg3) = m ((d : Thread nD τ).loc main_arg3) :=
  W6_of_not_written m d main_arg3 (by not_written) (by decide) (by not_written)
    (by decide) (by decide) (by decide) (by decide) (by decide) (by decide) (by not_written)

theorem W6_main_arg4 (d : Dev nD) : Segs.W6 m d (Proc.devRef .tc main_arg4) = m ((d : Thread nD τ).loc main_arg4) :=
  W6_of_not_written m d main_arg4 (by not_written) (by decide) (by not_written)
    (by decide) (by decide) (by decide) (by decide) (by decide) (by decide) (by not_written)

theorem W6_main_arg5 (d : Dev nD) : Segs.W6 m d (Proc.devRef .tc main_arg5) = m ((d : Thread nD τ).loc main_arg5) :=
  W6_of_not_written m d main_arg5 (by not_written) (by decide) (by not_written)
    (by decide) (by decide) (by decide) (by decide) (by decide) (by decide) (by not_written)

theorem W6_main_arg6 (d : Dev nD) : Segs.W6 m d (Proc.devRef .tc main_arg6) = m ((d : Thread nD τ).loc main_arg6) :=
  W6_of_not_written m d main_arg6 (by not_written) (by decide) (by not_written)
    (by decide) (by decide) (by decide) (by decide) (by decide) (by decide) (by not_written)

/-! ## The result -/

/-- The dense region's result array at the end. -/
theorem W5_result (d : Dev nD) : Segs.W5 m d (Proc.devRef .tc main_v25) = Region2.result2 (V4 m) d :=
  (Segs.W5_arr m d 9).trans (Region2.value2 (V4 m) (On (F := F) 1) (Bn (F := F) 1) d)

/-- The result buffer holds the dense region's 1 × 1 result recast as a scalar. -/
theorem W6_result (d : Dev nD) :
    (Segs.W6 m d (Proc.devRef .tc main_v26) : S_.Idx → Elt F .f32)
      = shapeCast S_ (Region2.result2 (V4 m) d : S1x1.Idx → Elt F .f32) shapeCasts_S1x1_S_ := by
  show StableHlo.after hostOps2 (Segs.W5 m d) (Proc.devRef .tc main_v26) = _
  after_results
  rw [W5_result]
  rfl

/-- Read at the scalar's one index it is the 1 × 1 result's one entry. -/
theorem W6_result_apply (d : Dev nD) :
    (Segs.W6 m d (Proc.devRef .tc main_v26) : S_.Idx → Elt F .f32) ix0
      = (Region2.result2 (V4 m) d : S1x1.Idx → Elt F .f32) (ix2 0 0) := by
  rw [W6_result]
  exact shapeCast_apply _ _ _ _ rfl

end Cert.Kernel.Ends

end
-- ==== Proof.KRun.lean ====
/-
  The program's run: the SparseCore launch theorem applied to the tile obligation, the split of a SparseCore's operands
  among its tiles, the launch element, and @main on the TensorCore — the first host stretch and the packing region,
  the SparseCore call, the second host stretch, the dense region and the closing reshape. Every weakly fair execution
  of the device's threads terminates, and every final memory holds, at every unscoped buffer but the packed table,
  the contents the fold through @main names.
-/
import proofs.«203064_g33122787786777_cont_8to1_b_416_18_alg».proof.Proof.KMain
import proofs.«203064_g33122787786777_cont_8to1_b_416_18_alg».proof.Proof.KCall
import proofs.«203064_g33122787786777_cont_8to1_b_416_18_alg».proof.Proof.KTileObl
import proofs.«203064_g33122787786777_cont_8to1_b_416_18_alg».proof.Proof.KEnds
set_option maxRecDepth 16384

noncomputable section

namespace Cert.Kernel.Run

open Cert.Kernel Cert.Kernel.Gen Cert.Kernel.Alg Cert.Kernel.Host Cert.Kernel.Vals
open Cert.Kernel.TcState Cert.Kernel.Ghost Cert.Kernel.Segs Cert.Kernel.PayM Cert.Kernel.Tile
open Cert.Kernel.Main Cert.Kernel.Call
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

variable (m : (ℓ : Loc nD τ sig) → Buf (Elt F) ℓ) (ρ : Dev nD → PrngReg)

/-- The two pipelines' ghost state, one by one. -/
theorem ghost_split (d : Dev nD) :
    (G (F := F) d : sProp 𝕄) = iprop(Pipeline.ghostOn (pcfgs (F := F)) adm EP {0} d ∗ Pipeline.ghostOn (pcfgs (F := F)) adm EP {1} d) := by
  unfold G Pipeline.ghostOn Pipeline.PerCore.ghostOn
  rw [show (Finset.univ : Finset (Fin 2)) = insert 0 {1} from by decide, SparseCore.bigSep_insert' (by decide), bigSep_singleton, bigSep_singleton]

/-- The launch contents of the TensorCore's unscoped buffers, as a valuation. -/
theorem unscoped_held (d : Dev nD) :
    (unscopedBufs d (fun b => m ((SparseCore.T d).loc b)) : sProp 𝕄) = StableHlo.held (d : Thread nD τ) (Pipeline.ucRefs τ sig) (W0 m d) :=
  Pipeline.unscopedBufs_held d (W0 m d)

/-- The packing region's exit state, written out. -/
theorem reg0_post (d : Dev nD) :
    ((reg0 m).post d : sProp 𝕄)
      = iprop((∃ W, ⌜P2 m d W⌝ ∗ StableHlo.held (d : Thread nD τ) (Pipeline.ucRefs τ sig) W) ∗ RR (F := F) 0 d) := rfl

/-- What @main leaves the claim: every unscoped buffer but the table at the last boundary's contents. -/
abbrev FIN (d : Dev nD) : sProp 𝕄 := StableHlo.held (d : Thread nD τ) U' (W6 m d)

set_option maxHeartbeats 1000000 in
/-- @main on device d's TensorCore. -/
theorem hmain (hix : ∀ d, IxLt m d) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  rw [main_split]
  unfold SparseCore.Cfg.tcRes
  iintro ⟨#Hctx, Hst, ⟨Hbd, Hub, -, Hpr⟩, Hg⟩
  ihave #Hlev := (SparseCore.Cfg.ctx_levAts (K := K (F := F)) κ) $$ Hctx
  ihave Hst' := (Entails.of_eq (tcSt_eq (F := F) d 0)) $$ Hst
  icases Hst' with ⟨HO, Hrest⟩
  ihave Hg' := (Entails.of_eq (ghost_split (F := F) d)) $$ Hg
  icases Hg' with ⟨Hg0, Hg1⟩
  ihave Hh := (Entails.of_eq (unscoped_held m d)) $$ Hub
  rw [wp_bind]
  iapply (wp_wand_r frame _ Set.univ)
  isplitl [Hbd Hh HO Hpr Hg0]
  · iapply (partA m d)
    isplitl [Hbd]; · iexact Hbd
    isplitl [Hh HO Hpr]
    · isplitl [Hh]; · iexact Hh
      isplitl [Hpr]; · iexists _; iexact Hpr
      iexact HO
    isplitr; · iexact Hlev
    iexact Hg0
  iintro %_ ⟨Hbd, Hpost⟩
  ihave Hpost := (Entails.of_eq (reg0_post m d)) $$ Hpost
  rw [wp_bind]
  iapply (partSC m κ d (hix d) (Ends.tabOK_of_arrAt m d) _) $$ [Hrest Hpost Hbd Hg1]
  isplitr; · iexact Hctx
  isplitl [Hrest]; · iexact Hrest
  isplitl [Hpost]; · iexact Hpost
  iintro ⟨Hrest, Hh, HRT⟩
  iapply (wp_wand_r frame _ Set.univ)
  isplitl [Hbd Hh HRT Hg1]
  · iapply (partB m d)
    isplitl [Hbd]; · iexact Hbd
    isplitl [Hh HRT]
    · isplitl [Hh]; · iexact Hh
      iexact HRT
    isplitr; · iexact Hlev
    iexact Hg1
  iintro %_ ⟨-, Hh, ⟨-, -, HO⟩⟩
  isplitl [HO Hrest]
  · iapply (Entails.of_eq (tcSt_eq (F := F) d 1).symm)
    isplitl [HO]; · iexact HO
    iexact Hrest
  iexact Hh

/-- What the final memory says on device d. -/
def fq (d : Dev nD) (s' : Phys nD τ sig (Elt F)) : Prop := ∀ b ∈ U', s'.mem.mem (d, b) = W6 m d b

theorem hfin (d : Dev nD) (s' : Phys nD τ sig (Elt F)) : iprop(FIN m d ∗ SI s') ⊢ (⌜fq m d s'⌝ : sProp 𝕄) := by
  unfold FIN StableHlo.held
  exact (pointsTo_read_all U' (fun b => (((d : Thread nD τ)).1, b)) (W6 m d) s').trans sep_elim_left

/-- The run's post: on every device, every unscoped buffer but the table at the fold's contents. -/
def QC : PUnit × MemSt nD τ sig (Elt F) → Prop := fun r => ∀ d : Dev nD, ∀ b ∈ U', r.2.mem (d, b) = W6 m d b

/-- The run. -/
theorem run_main (hix : ∀ d, IxLt m d) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m fun d t j => lt_trans (hix d t j) (by decide))
    (fun q _ => match q with | 0 => vecSplit m)
    m ρ main (G (F := F)) (FIN m) (u₀ (F := F)) (sep_elim_left.trans (hu₀ (P m).x fun _ _ => rfl)) (hmain m ρ hix) (fq m) (hfin m) (QC m) (fun _ h => h)

end Cert.Kernel.Run

end
-- ==== Proof.PreIx.lean ====
/-
  From the precondition to the fact the gathers need: every entry of the six index vectors is below 100000.

  The precondition is the conjunction of seven "all entries" tests; two of them say, of the positive and of the negative
  triplet array, that every entry e satisfies 0 ≤ e and e ≤ 99999 as a SIGNED 32-bit number. A word in that signed range
  has its sign bit clear, so its unsigned value is the same number: below 100000.

  The six index vectors the first host stretch builds are the three columns of each triplet array: column k sliced out
  as a [16384, 1] array and flattened, so entry j of the vector is entry (j, k) of the array. The range of the arrays'
  entries is therefore the range of the vectors' entries.
-/
import proofs.«203064_g33122787786777_cont_8to1_b_416_18_alg».proof.Proof.Vals
import proofs.«203064_g33122787786777_cont_8to1_b_416_18_alg».proof.Pre_input_domain
import proofs.«203064_g33122787786777_cont_8to1_b_416_18_alg».proof.Defs
import Idealize.ShloMosaic.Lib.ReduceAll
import Idealize.ShloMosaic.Lib.Pipeline.Value

noncomputable section

namespace Cert.KernelIdeal.PreIx

open Cert.KernelIdeal Cert.KernelIdeal.Gen Cert.KernelIdeal.Alg Cert.KernelIdeal.Host Cert.KernelIdeal.Tile Cert.KernelIdeal.Vals
open Idealize.ShloMosaic Idealize.ShloMosaic.TcCoe Idealize.SL.Sem

variable {F : FTy → Type} [FloatOps F]

/-! ## The precondition's integer ranges -/

/-- A 32-bit word between 0 and 99999 as a signed number is below 100000 as an unsigned one. -/
theorem toNat_lt_of_signed (w : BitVec 32) (h0 : (0#32 : BitVec 32).toInt ≤ w.toInt) (h1 : w.toInt ≤ (99999#32 : BitVec 32).toInt) :
    w.toNat < 100000 := by
  have e0 : (0#32 : BitVec 32).toInt = 0 := by decide
  have e1 : (99999#32 : BitVec 32).toInt = 99999 := by decide
  rw [e0] at h0
  rw [e1] at h1
  have hw := w.isLt
  rw [BitVec.toInt_eq_toNat_cond] at h0 h1
  split at h0 <;> omega

instance : Subsingleton Cert.Pre_input_domain.S_.Idx := ⟨fun a b => funext fun d => d.elim0⟩

/-- One triplet array's conjunct of the precondition: if every entry passes both signed comparisons, against the
    all-0 and the all-99999 arrays, and the conjunction over all entries is 1, then every entry is below 100000. -/
theorem lt_of_all [Cert.Pre_input_domain.Facts] (a : IVec Cert.Pre_input_domain.S16384x3 32)
    (e : Host.reduce IntOp.andi
        (andi (cmpi .sge a (broadcastInDim Cert.Pre_input_domain.S16384x3 ![] Cert.Pre_input_domain.Facts.bcast_S_S16384x3 (constantI Cert.Pre_input_domain.S_ 32 0#32)))
              (cmpi .sle a (broadcastInDim Cert.Pre_input_domain.S16384x3 ![] Cert.Pre_input_domain.Facts.bcast_S_S16384x3 (constantI Cert.Pre_input_domain.S_ 32 99999#32))))
        (constantI Cert.Pre_input_domain.S_ 1 1#1) Cert.Pre_input_domain.Facts.reducesTo_S16384x3_S_d0_1 Cert.Pre_input_domain.Facts.h_S_ ValueIdx.ix0 = 1#1)
    (i : Cert.Pre_input_domain.S16384x3.Idx) : (a i).toNat < 100000 := by
  have hi := Host.reduce_andi_all _ _ _ _ _ e i
  obtain ⟨hge, hle⟩ := IntOp.andi_eq_one.1 hi
  exact toNat_lt_of_signed (a i) (IntOp.cmpi_sge.1 hge) (IntOp.cmpi_sle.1 hle)

/-- The precondition read back: every entry of both triplet arrays is below 100000. -/
theorem ranges_of_fn [Cert.Pre_input_domain.Facts] (a0 a1 : IVec Cert.Pre_input_domain.S16384x3 32)
    (a2 : FVec F Cert.Pre_input_domain.S1000000x64 .f32) (a3 : FVec F Cert.Pre_input_domain.S100000x64 .f32)
    (a4 : FVec F Cert.Pre_input_domain.S64 .f32) (a5 : FVec F Cert.Pre_input_domain.S64x192 .f32) (a6 : FVec F Cert.Pre_input_domain.S64 .f32)
    (h : Cert.Pre_input_domain.fn (F := F) a0 a1 a2 a3 a4 a5 a6 = fun _ => 1#1) :
    (∀ i, (a0 i).toNat < 100000) ∧ ∀ i, (a1 i).toNat < 100000 := by
  have e := congrFun h ValueIdx.ix0
  unfold Cert.Pre_input_domain.fn Cert.Pre_input_domain.fn_part1 Cert.Pre_input_domain.fn_part2 at e
  dsimp only at e
  obtain ⟨e30, e36⟩ := IntOp.andi_eq_one.1 e
  obtain ⟨-, e29⟩ := IntOp.andi_eq_one.1 e30
  exact ⟨lt_of_all a0 e29, lt_of_all a1 e36⟩

variable (m : (ℓ : Loc nD τ sig) → Buf (Elt F) ℓ)

/-! ## A column of a triplet array, cut out and flattened, read at an index -/

/-- Entry (r, k) of a [16384, 3] array. -/
abbrev at3 (r : Fin 16384) (k : Fin 3) : S16384x3.Idx := ValueIdx.ix2 (n0 := 16384) (n1 := 3) r k

/-- Column k of a [16384, 3] array, sliced out as a [16384, 1] array and flattened to a vector, holds at row r the
    array's entry (r, k): flattening keeps the row-major position r * 1 + 0 = r, and the slice shifts the column by k. -/
theorem column_apply {α : Type} (x : S16384x3.Idx → α) (off : Fin S16384x3.rank → Nat) (k : Fin 3) (h0 : off 0 = 0) (h1 : off 1 = k.val)
    (h : S16384x3.Slices off S16384x1) (hc : S16384x1.ShapeCasts S16384) (j : S16384.Idx) :
    shapeCast S16384 (extractStridedSlice S16384x1 off x h) hc j = x (at3 (j 0) k) := by
  refine (shapeCast_apply _ hc j (ValueIdx.ix2 (n0 := 16384) (n1 := 1) (j 0) 0) ?_).trans ?_
  · rw [Shape.rowMajor_val_two, Shape.rowMajor_val_one]
    show (j 0).val * 1 + 0 = (j 0).val
    omega
  · refine extractStridedSlice_apply off x h _ _ fun a => ?_
    match a with
    | ⟨0, _⟩ => show (j 0).val = off 0 + (j 0).val; omega
    | ⟨1, _⟩ => show k.val = off 1 + 0; omega

/-! ## The six index vectors are the triplet arrays' columns -/

/-- Index vector 0 (the heads of the positive triplets) is column 0 of the positive triplet array. -/
theorem ixOf_zero (c : Dev nD) (j : S16384.Idx) :
    ixOf m c 0 j = (m ((c.tc : Thread nD τ).loc main_arg0) : S16384x3.Idx → BitVec 32) (at3 (j 0) 0) := by
  have e : (V1 m c main_v1 : S16384.Idx → BitVec 32)
      = shapeCast S16384 (extractStridedSlice S16384x1 ![0, 0] (m ((c.tc : Thread nD τ).loc main_arg0) : S16384x3.Idx → BitVec 32)
          slices_S16384x3_S16384x1_0_0) shapeCasts_S16384x1_S16384 := by
    dsimp only [V1, W1, W0, hostOps0]; after_results; rfl
  show (V1 m c main_v1 : S16384.Idx → BitVec 32) j = _
  rw [e]
  exact column_apply _ _ 0 rfl rfl _ _ j

/-- Index vector 1 (the relations of the positive triplets) is column 1 of the positive triplet array. -/
theorem ixOf_one (c : Dev nD) (j : S16384.Idx) :
    ixOf m c 1 j = (m ((c.tc : Thread nD τ).loc main_arg0) : S16384x3.Idx → BitVec 32) (at3 (j 0) 1) := by
  have e : (V1 m c main_v3 : S16384.Idx → BitVec 32)
      = shapeCast S16384 (extractStridedSlice S16384x1 ![0, 1] (m ((c.tc : Thread nD τ).loc main_arg0) : S16384x3.Idx → BitVec 32)
          slices_S16384x3_S16384x1_0_1) shapeCasts_S16384x1_S16384 := by
    dsimp only [V1, W1, W0, hostOps0]; after_results; rfl
  show (V1 m c main_v3 : S16384.Idx → BitVec 32) j = _
  rw [e]
  exact column_apply _ _ 1 rfl rfl _ _ j

/-- Index vector 2 (the tails of the positive triplets) is column 2 of the positive triplet array. -/
theorem ixOf_two (c : Dev nD) (j : S16384.Idx) :
    ixOf m c 2 j = (m ((c.tc : Thread nD τ).loc main_arg0) : S16384x3.Idx → BitVec 32) (at3 (j 0) 2) := by
  have e : (V1 m c main_v5 : S16384.Idx → BitVec 32)
      = shapeCast S16384 (extractStridedSlice S16384x1 ![0, 2] (m ((c.tc : Thread nD τ).loc main_arg0) : S16384x3.Idx → BitVec 32)
          slices_S16384x3_S16384x1_0_2) shapeCasts_S16384x1_S16384 := by
    dsimp only [V1, W1, W0, hostOps0]; after_results; rfl
  show (V1 m c main_v5 : S16384.Idx → BitVec 32) j = _
  rw [e]
  exact column_apply _ _ 2 rfl rfl _ _ j

/-- Index vector 3 (the heads of the negative triplets) is column 0 of the negative triplet array. -/
theorem ixOf_three (c : Dev nD) (j : S16384.Idx) :
    ixOf m c 3 j = (m ((c.tc : Thread nD τ).loc main_arg1) : S16384x3.Idx → BitVec 32) (at3 (j 0) 0) := by
  have e : (V1 m c main_v7 : S16384.Idx → BitVec 32)
      = shapeCast S16384 (extractStridedSlice S16384x1 ![0, 0] (m ((c.tc : Thread nD τ).loc main_arg1) : S16384x3.Idx → BitVec 32)
          slices_S16384x3_S16384x1_0_0) shapeCasts_S16384x1_S16384 := by
    dsimp only [V1, W1, W0, hostOps0]; after_results; rfl
  show (V1 m c main_v7 : S16384.Idx → BitVec 32) j = _
  rw [e]
  exact column_apply _ _ 0 rfl rfl _ _ j

/-- Index vector 4 (the relations of the negative triplets) is column 1 of the negative triplet array. -/
theorem ixOf_four (c : Dev nD) (j : S16384.Idx) :
    ixOf m c 4 j = (m ((c.tc : Thread nD τ).loc main_arg1) : S16384x3.Idx → BitVec 32) (at3 (j 0) 1) := by
  have e : (V1 m c main_v9 : S16384.Idx → BitVec 32)
      = shapeCast S16384 (extractStridedSlice S16384x1 ![0, 1] (m ((c.tc : Thread nD τ).loc main_arg1) : S16384x3.Idx → BitVec 32)
          slices_S16384x3_S16384x1_0_1) shapeCasts_S16384x1_S16384 := by
    dsimp only [V1, W1, W0, hostOps0]; after_results; rfl
  show (V1 m c main_v9 : S16384.Idx → BitVec 32) j = _
  rw [e]
  exact column_apply _ _ 1 rfl rfl _ _ j

/-- Index vector 5 (the tails of the negative triplets) is column 2 of the negative triplet array. -/
theorem ixOf_five (c : Dev nD) (j : S16384.Idx) :
    ixOf m c 5 j = (m ((c.tc : Thread nD τ).loc main_arg1) : S16384x3.Idx → BitVec 32) (at3 (j 0) 2) := by
  have e : (V1 m c main_v11 : S16384.Idx → BitVec 32)
      = shapeCast S16384 (extractStridedSlice S16384x1 ![0, 2] (m ((c.tc : Thread nD τ).loc main_arg1) : S16384x3.Idx → BitVec 32)
          slices_S16384x3_S16384x1_0_2) shapeCasts_S16384x1_S16384 := by
    dsimp only [V1, W1, W0, hostOps0]; after_results; rfl
  show (V1 m c main_v11 : S16384.Idx → BitVec 32) j = _
  rw [e]
  exact column_apply _ _ 2 rfl rfl _ _ j

/-- The triplet array index vector t is cut from: the positive triplets for t < 3, the negative ones from 3 on. -/
def tripOf (c : Dev nD) (t : Fin 6) : S16384x3.Idx → BitVec 32 :=
  if t.val < 3 then m ((c.tc : Thread nD τ).loc main_arg0) else m ((c.tc : Thread nD τ).loc main_arg1)

/-- The column of its triplet array that index vector t is: head, relation, tail in turn. -/
def colOf (t : Fin 6) : Fin 3 := ⟨t.val % 3, Nat.mod_lt _ (by decide)⟩

/-- Every index vector read at j is its triplet array's entry (j, column). -/
theorem ixOf_eq (c : Dev nD) (t : Fin 6) (j : S16384.Idx) : ixOf m c t j = tripOf m c t (at3 (j 0) (colOf t)) := by
  match t with
  | 0 => exact ixOf_zero m c j
  | 1 => exact ixOf_one m c j
  | 2 => exact ixOf_two m c j
  | 3 => exact ixOf_three m c j
  | 4 => exact ixOf_four m c j
  | 5 => exact ixOf_five m c j

/-! ## The gathers' fact -/

/-- Under the precondition on device c's arguments, every entry of the six index vectors is below 100000. -/
theorem ixLt_of_pre [Cert.Pre_input_domain.Facts] (c : Dev nD)
    (h : Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    Vals.IxLt m c := by
  obtain ⟨h0, h1⟩ := ranges_of_fn _ _ _ _ _ _ _ h
  intro t j
  rw [ixOf_eq]
  unfold tripOf
  split
  · exact h0 _
  · exact h1 _

/-- The claim's precondition gives the gathers' fact on every device. -/
theorem ixLt_of_Pre [Cert.Pre_input_domain.Facts] (m : (ℓ : Loc nD τ sig) → Buf (Elt Ideal) ℓ) (h : Cert.Pre_KernelIdeal m) (c : Dev nD) :
    Vals.IxLt m c :=
  ixLt_of_pre m c (h c)

end Cert.KernelIdeal.PreIx

end
-- ==== Proof.KPreIx.lean ====
/-
  From the precondition to the fact the gathers need: every entry of the six index vectors is below 100000.

  The precondition is the conjunction of seven "all entries" tests; two of them say, of the positive and of the negative
  triplet array, that every entry e satisfies 0 ≤ e and e ≤ 99999 as a SIGNED 32-bit number. A word in that signed range
  has its sign bit clear, so its unsigned value is the same number: below 100000.

  The six index vectors the first host stretch builds are the three columns of each triplet array: column k sliced out
  as a [16384, 1] array and flattened, so entry j of the vector is entry (j, k) of the array. The range of the arrays'
  entries is therefore the range of the vectors' entries.
-/
import proofs.«203064_g33122787786777_cont_8to1_b_416_18_alg».proof.Proof.KVals
import proofs.«203064_g33122787786777_cont_8to1_b_416_18_alg».proof.Pre_input_domain
import proofs.«203064_g33122787786777_cont_8to1_b_416_18_alg».proof.Defs
import Idealize.ShloMosaic.Lib.ReduceAll
import Idealize.ShloMosaic.Lib.Pipeline.Value

noncomputable section

namespace Cert.Kernel.PreIx

open Cert.Kernel Cert.Kernel.Gen Cert.Kernel.Alg Cert.Kernel.Host Cert.Kernel.Tile Cert.Kernel.Vals
open Idealize.ShloMosaic Idealize.ShloMosaic.TcCoe Idealize.SL.Sem

variable {F : FTy → Type} [FloatOps F]

/-! ## The precondition's integer ranges -/

/-- A 32-bit word between 0 and 99999 as a signed number is below 100000 as an unsigned one. -/
theorem toNat_lt_of_signed (w : BitVec 32) (h0 : (0#32 : BitVec 32).toInt ≤ w.toInt) (h1 : w.toInt ≤ (99999#32 : BitVec 32).toInt) :
    w.toNat < 100000 := by
  have e0 : (0#32 : BitVec 32).toInt = 0 := by decide
  have e1 : (99999#32 : BitVec 32).toInt = 99999 := by decide
  rw [e0] at h0
  rw [e1] at h1
  have hw := w.isLt
  rw [BitVec.toInt_eq_toNat_cond] at h0 h1
  split at h0 <;> omega

instance : Subsingleton Cert.Pre_input_domain.S_.Idx := ⟨fun a b => funext fun d => d.elim0⟩

/-- One triplet array's conjunct of the precondition: if every entry passes both signed comparisons, against the
    all-0 and the all-99999 arrays, and the conjunction over all entries is 1, then every entry is below 100000. -/
theorem lt_of_all [Cert.Pre_input_domain.Facts] (a : IVec Cert.Pre_input_domain.S16384x3 32)
    (e : Host.reduce IntOp.andi
        (andi (cmpi .sge a (broadcastInDim Cert.Pre_input_domain.S16384x3 ![] Cert.Pre_input_domain.Facts.bcast_S_S16384x3 (constantI Cert.Pre_input_domain.S_ 32 0#32)))
              (cmpi .sle a (broadcastInDim Cert.Pre_input_domain.S16384x3 ![] Cert.Pre_input_domain.Facts.bcast_S_S16384x3 (constantI Cert.Pre_input_domain.S_ 32 99999#32))))
        (constantI Cert.Pre_input_domain.S_ 1 1#1) Cert.Pre_input_domain.Facts.reducesTo_S16384x3_S_d0_1 Cert.Pre_input_domain.Facts.h_S_ ValueIdx.ix0 = 1#1)
    (i : Cert.Pre_input_domain.S16384x3.Idx) : (a i).toNat < 100000 := by
  have hi := Host.reduce_andi_all _ _ _ _ _ e i
  obtain ⟨hge, hle⟩ := IntOp.andi_eq_one.1 hi
  exact toNat_lt_of_signed (a i) (IntOp.cmpi_sge.1 hge) (IntOp.cmpi_sle.1 hle)

/-- The precondition read back: every entry of both triplet arrays is below 100000. -/
theorem ranges_of_fn [Cert.Pre_input_domain.Facts] (a0 a1 : IVec Cert.Pre_input_domain.S16384x3 32)
    (a2 : FVec F Cert.Pre_input_domain.S1000000x64 .f32) (a3 : FVec F Cert.Pre_input_domain.S100000x64 .f32)
    (a4 : FVec F Cert.Pre_input_domain.S64 .f32) (a5 : FVec F Cert.Pre_input_domain.S64x192 .f32) (a6 : FVec F Cert.Pre_input_domain.S64 .f32)
    (h : Cert.Pre_input_domain.fn (F := F) a0 a1 a2 a3 a4 a5 a6 = fun _ => 1#1) :
    (∀ i, (a0 i).toNat < 100000) ∧ ∀ i, (a1 i).toNat < 100000 := by
  have e := congrFun h ValueIdx.ix0
  unfold Cert.Pre_input_domain.fn Cert.Pre_input_domain.fn_part1 Cert.Pre_input_domain.fn_part2 at e
  dsimp only at e
  obtain ⟨e30, e36⟩ := IntOp.andi_eq_one.1 e
  obtain ⟨-, e29⟩ := IntOp.andi_eq_one.1 e30
  exact ⟨lt_of_all a0 e29, lt_of_all a1 e36⟩

variable (m : (ℓ : Loc nD τ sig) → Buf (Elt F) ℓ)

/-! ## A column of a triplet array, cut out and flattened, read at an index -/

/-- Entry (r, k) of a [16384, 3] array. -/
abbrev at3 (r : Fin 16384) (k : Fin 3) : S16384x3.Idx := ValueIdx.ix2 (n0 := 16384) (n1 := 3) r k

/-- Column k of a [16384, 3] array, sliced out as a [16384, 1] array and flattened to a vector, holds at row r the
    array's entry (r, k): flattening keeps the row-major position r * 1 + 0 = r, and the slice shifts the column by k. -/
theorem column_apply {α : Type} (x : S16384x3.Idx → α) (off : Fin S16384x3.rank → Nat) (k : Fin 3) (h0 : off 0 = 0) (h1 : off 1 = k.val)
    (h : S16384x3.Slices off S16384x1) (hc : S16384x1.ShapeCasts S16384) (j : S16384.Idx) :
    shapeCast S16384 (extractStridedSlice S16384x1 off x h) hc j = x (at3 (j 0) k) := by
  refine (shapeCast_apply _ hc j (ValueIdx.ix2 (n0 := 16384) (n1 := 1) (j 0) 0) ?_).trans ?_
  · rw [Shape.rowMajor_val_two, Shape.rowMajor_val_one]
    show (j 0).val * 1 + 0 = (j 0).val
    omega
  · refine extractStridedSlice_apply off x h _ _ fun a => ?_
    match a with
    | ⟨0, _⟩ => show (j 0).val = off 0 + (j 0).val; omega
    | ⟨1, _⟩ => show k.val = off 1 + 0; omega

/-! ## The six index vectors are the triplet arrays' columns -/

/-- Index vector 0 (the heads of the positive triplets) is column 0 of the positive triplet array. -/
theorem ixOf_zero (c : Dev nD) (j : S16384.Idx) :
    ixOf m c 0 j = (m ((c.tc : Thread nD τ).loc main_arg0) : S16384x3.Idx → BitVec 32) (at3 (j 0) 0) := by
  have e : (V1 m c main_v1 : S16384.Idx → BitVec 32)
      = shapeCast S16384 (extractStridedSlice S16384x1 ![0, 0] (m ((c.tc : Thread nD τ).loc main_arg0) : S16384x3.Idx → BitVec 32)
          slices_S16384x3_S16384x1_0_0) shapeCasts_S16384x1_S16384 := by
    dsimp only [V1, W1, W0, hostOps0]; after_results; rfl
  show (V1 m c main_v1 : S16384.Idx → BitVec 32) j = _
  rw [e]
  exact column_apply _ _ 0 rfl rfl _ _ j

/-- Index vector 1 (the relations of the positive triplets) is column 1 of the positive triplet array. -/
theorem ixOf_one (c : Dev nD) (j : S16384.Idx) :
    ixOf m c 1 j = (m ((c.tc : Thread nD τ).loc main_arg0) : S16384x3.Idx → BitVec 32) (at3 (j 0) 1) := by
  have e : (V1 m c main_v3 : S16384.Idx → BitVec 32)
      = shapeCast S16384 (extractStridedSlice S16384x1 ![0, 1] (m ((c.tc : Thread nD τ).loc main_arg0) : S16384x3.Idx → BitVec 32)
          slices_S16384x3_S16384x1_0_1) shapeCasts_S16384x1_S16384 := by
    dsimp only [V1, W1, W0, hostOps0]; after_results; rfl
  show (V1 m c main_v3 : S16384.Idx → BitVec 32) j = _
  rw [e]
  exact column_apply _ _ 1 rfl rfl _ _ j

/-- Index vector 2 (the tails of the positive triplets) is column 2 of the positive triplet array. -/
theorem ixOf_two (c : Dev nD) (j : S16384.Idx) :
    ixOf m c 2 j = (m ((c.tc : Thread nD τ).loc main_arg0) : S16384x3.Idx → BitVec 32) (at3 (j 0) 2) := by
  have e : (V1 m c main_v5 : S16384.Idx → BitVec 32)
      = shapeCast S16384 (extractStridedSlice S16384x1 ![0, 2] (m ((c.tc : Thread nD τ).loc main_arg0) : S16384x3.Idx → BitVec 32)
          slices_S16384x3_S16384x1_0_2) shapeCasts_S16384x1_S16384 := by
    dsimp only [V1, W1, W0, hostOps0]; after_results; rfl
  show (V1 m c main_v5 : S16384.Idx → BitVec 32) j = _
  rw [e]
  exact column_apply _ _ 2 rfl rfl _ _ j

/-- Index vector 3 (the heads of the negative triplets) is column 0 of the negative triplet array. -/
theorem ixOf_three (c : Dev nD) (j : S16384.Idx) :
    ixOf m c 3 j = (m ((c.tc : Thread nD τ).loc main_arg1) : S16384x3.Idx → BitVec 32) (at3 (j 0) 0) := by
  have e : (V1 m c main_v7 : S16384.Idx → BitVec 32)
      = shapeCast S16384 (extractStridedSlice S16384x1 ![0, 0] (m ((c.tc : Thread nD τ).loc main_arg1) : S16384x3.Idx → BitVec 32)
          slices_S16384x3_S16384x1_0_0) shapeCasts_S16384x1_S16384 := by
    dsimp only [V1, W1, W0, hostOps0]; after_results; rfl
  show (V1 m c main_v7 : S16384.Idx → BitVec 32) j = _
  rw [e]
  exact column_apply _ _ 0 rfl rfl _ _ j

/-- Index vector 4 (the relations of the negative triplets) is column 1 of the negative triplet array. -/
theorem ixOf_four (c : Dev nD) (j : S16384.Idx) :
    ixOf m c 4 j = (m ((c.tc : Thread nD τ).loc main_arg1) : S16384x3.Idx → BitVec 32) (at3 (j 0) 1) := by
  have e : (V1 m c main_v9 : S16384.Idx → BitVec 32)
      = shapeCast S16384 (extractStridedSlice S16384x1 ![0, 1] (m ((c.tc : Thread nD τ).loc main_arg1) : S16384x3.Idx → BitVec 32)
          slices_S16384x3_S16384x1_0_1) shapeCasts_S16384x1_S16384 := by
    dsimp only [V1, W1, W0, hostOps0]; after_results; rfl
  show (V1 m c main_v9 : S16384.Idx → BitVec 32) j = _
  rw [e]
  exact column_apply _ _ 1 rfl rfl _ _ j

/-- Index vector 5 (the tails of the negative triplets) is column 2 of the negative triplet array. -/
theorem ixOf_five (c : Dev nD) (j : S16384.Idx) :
    ixOf m c 5 j = (m ((c.tc : Thread nD τ).loc main_arg1) : S16384x3.Idx → BitVec 32) (at3 (j 0) 2) := by
  have e : (V1 m c main_v11 : S16384.Idx → BitVec 32)
      = shapeCast S16384 (extractStridedSlice S16384x1 ![0, 2] (m ((c.tc : Thread nD τ).loc main_arg1) : S16384x3.Idx → BitVec 32)
          slices_S16384x3_S16384x1_0_2) shapeCasts_S16384x1_S16384 := by
    dsimp only [V1, W1, W0, hostOps0]; after_results; rfl
  show (V1 m c main_v11 : S16384.Idx → BitVec 32) j = _
  rw [e]
  exact column_apply _ _ 2 rfl rfl _ _ j

/-- The triplet array index vector t is cut from: the positive triplets for t < 3, the negative ones from 3 on. -/
def tripOf (c : Dev nD) (t : Fin 6) : S16384x3.Idx → BitVec 32 :=
  if t.val < 3 then m ((c.tc : Thread nD τ).loc main_arg0) else m ((c.tc : Thread nD τ).loc main_arg1)

/-- The column of its triplet array that index vector t is: head, relation, tail in turn. -/
def colOf (t : Fin 6) : Fin 3 := ⟨t.val % 3, Nat.mod_lt _ (by decide)⟩

/-- Every index vector read at j is its triplet array's entry (j, column). -/
theorem ixOf_eq (c : Dev nD) (t : Fin 6) (j : S16384.Idx) : ixOf m c t j = tripOf m c t (at3 (j 0) (colOf t)) := by
  match t with
  | 0 => exact ixOf_zero m c j
  | 1 => exact ixOf_one m c j
  | 2 => exact ixOf_two m c j
  | 3 => exact ixOf_three m c j
  | 4 => exact ixOf_four m c j
  | 5 => exact ixOf_five m c j

/-! ## The gathers' fact -/

/-- Under the precondition on device c's arguments, every entry of the six index vectors is below 100000. -/
theorem ixLt_of_pre [Cert.Pre_input_domain.Facts] (c : Dev nD)
    (h : Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    Vals.IxLt m c := by
  obtain ⟨h0, h1⟩ := ranges_of_fn _ _ _ _ _ _ _ h
  intro t j
  rw [ixOf_eq]
  unfold tripOf
  split
  · exact h0 _
  · exact h1 _

/-- The claim's precondition gives the gathers' fact on every device. -/
theorem ixLt_of_Pre [Cert.Pre_input_domain.Facts] (m : (ℓ : Loc nD τ sig) → Buf (Elt Bits) ℓ) (h : Cert.Pre_Kernel m) (c : Dev nD) :
    Vals.IxLt m c :=
  ixLt_of_pre m c (h c)

end Cert.Kernel.PreIx

end
-- ==== Proof.RefRun.lean ====
/- The reference program's run. Its @main is a straight line of 219 array operations once its calls are unfolded:
   for the positive and then the negative triplets, three columns of the triplet array, three table lookups, the
   attention over (head, relation, hyperplane), the weighted translation distance and its norm; then the margin loss.
   Stated here: the line itself, that @main is that line, and hence that every weakly fair execution terminates with
   every buffer at the line's fold over the launch contents and the seven argument arrays as they were. -/
import proofs.«203064_g33122787786777_cont_8to1_b_416_18_alg».proof.ReferenceIdeal
import proofs.«203064_g33122787786777_cont_8to1_b_416_18_alg».proof.Proof.Gen.ReferenceIdeal
import proofs.«203064_g33122787786777_cont_8to1_b_416_18_alg».proof.Proof.Gen.Pre_input_domain
import proofs.«203064_g33122787786777_cont_8to1_b_416_18_alg».proof.Defs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window of @main (its statements up to the second exponential), every call unfolded at its site over
    that call's buffer record: per triplet set three column slices with their reshapes, three row lookups of 23
    operations each (the wrapped index, the in-range mask, the gather, the select against the fill value), the
    attention logits, the softmax's numerator, and for the positive set the weighted distance and its norm. -/
abbrev ops0 : List (HloOp τ sig (Elt F)) :=
  [ StableHlo.unary main_arg0 main_v0 ((extractStridedSlice S16384x1 ![0, 0] · slices_S16384x3_S16384x1_0_0) : (⟨S16384x3, .i32⟩ : BufTy).Contents (Elt F) → (⟨S16384x1, .i32⟩ : BufTy).Contents (Elt F)),
    StableHlo.reshape main_v0 main_v1 rfl shapeCasts_S16384x1_S16384,
    StableHlo.unary main_arg0 main_v2 ((extractStridedSlice S16384x1 ![0, 1] · slices_S16384x3_S16384x1_0_1) : (⟨S16384x3, .i32⟩ : BufTy).Contents (Elt F) → (⟨S16384x1, .i32⟩ : BufTy).Contents (Elt F)),
    StableHlo.reshape main_v2 main_v3 rfl shapeCasts_S16384x1_S16384,
    StableHlo.unary main_arg0 main_v4 ((extractStridedSlice S16384x1 ![0, 2] · slices_S16384x3_S16384x1_0_2) : (⟨S16384x3, .i32⟩ : BufTy).Contents (Elt F) → (⟨S16384x1, .i32⟩ : BufTy).Contents (Elt F)),
    StableHlo.reshape main_v4 main_v5 rfl shapeCasts_S16384x1_S16384,
    StableHlo.TRef.nullary main_call0.c (constantI S_ 32 0#32),
    StableHlo.TRef.unary main_call0.c main_call0.v0 (broadcastInDim S16384 ![] bcast_S_S16384),
    StableHlo.TRef.binary (.of main_v1 : StableHlo.TRef sig ⟨S16384, .i32⟩) main_call0.v0 main_call0.v1 (cmpi .slt),
    StableHlo.TRef.nullary main_call0.c_0 (constantI S_ 32 1000000#32),
    StableHlo.TRef.unary main_call0.c_0 main_call0.v2 (broadcastInDim S16384 ![] bcast_S_S16384),
    StableHlo.TRef.binary (.of main_v1 : StableHlo.TRef sig ⟨S16384, .i32⟩) main_call0.v2 main_call0.v3 addi,
    StableHlo.TRef.ternary main_call0.v1 main_call0.v3 (.of main_v1 : StableHlo.TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 999999#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg2 : StableHlo.TRef sig ⟨S1000000x64, .f32⟩) main_call0.v5 main_call0.v13 (fun x i => Host.gather gather_S1000000x64_S16384x1_S16384x64_1_0_n_n_0_1_164 x i),
    StableHlo.TRef.unary main_call0.v12 main_call0.v14 (broadcastInDim S16384x64 ![0] bcast_S16384_S16384x64_0),
    StableHlo.TRef.nullary main_call0.cst (constant S_ .f32 0x7FC00000#32),
    StableHlo.TRef.unary main_call0.cst main_call0.v15 (broadcastInDim S16384x64 ![] bcast_S_S16384x64),
    StableHlo.TRef.ternary main_call0.v14 main_call0.v13 main_call0.v15 main_call0.v16 select,
    StableHlo.TRef.nullary main_call1.c (constantI S_ 32 0#32),
    StableHlo.TRef.unary main_call1.c main_call1.v0 (broadcastInDim S16384 ![] bcast_S_S16384),
    StableHlo.TRef.binary (.of main_v3 : StableHlo.TRef sig ⟨S16384, .i32⟩) main_call1.v0 main_call1.v1 (cmpi .slt),
    StableHlo.TRef.nullary main_call1.c_0 (constantI S_ 32 100000#32),
    StableHlo.TRef.unary main_call1.c_0 main_call1.v2 (broadcastInDim S16384 ![] bcast_S_S16384),
    StableHlo.TRef.binary (.of main_v3 : StableHlo.TRef sig ⟨S16384, .i32⟩) main_call1.v2 main_call1.v3 addi,
    StableHlo.TRef.ternary main_call1.v1 main_call1.v3 (.of main_v3 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 99999#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg3 : StableHlo.TRef sig ⟨S100000x64, .f32⟩) main_call1.v5 main_call1.v13 (fun x i => Host.gather gather_S100000x64_S16384x1_S16384x64_1_0_n_n_0_1_164 x i),
    StableHlo.TRef.unary main_call1.v12 main_call1.v14 (broadcastInDim S16384x64 ![0] bcast_S16384_S16384x64_0),
    StableHlo.TRef.nullary main_call1.cst (constant S_ .f32 0x7FC00000#32),
    StableHlo.TRef.unary main_call1.cst main_call1.v15 (broadcastInDim S16384x64 ![] bcast_S_S16384x64),
    StableHlo.TRef.ternary main_call1.v14 main_call1.v13 main_call1.v15 main_call1.v16 select,
    StableHlo.TRef.nullary main_call2.c (constantI S_ 32 0#32),
    StableHlo.TRef.unary main_call2.c main_call2.v0 (broadcastInDim S16384 ![] bcast_S_S16384),
    StableHlo.TRef.binary (.of main_v5 : StableHlo.TRef sig ⟨S16384, .i32⟩) main_call2.v0 main_call2.v1 (cmpi .slt),
    StableHlo.TRef.nullary main_call2.c_0 (constantI S_ 32 1000000#32),
    StableHlo.TRef.unary main_call2.c_0 main_call2.v2 (broadcastInDim S16384 ![] bcast_S_S16384),
    StableHlo.TRef.binary (.of main_v5 : StableHlo.TRef sig ⟨S16384, .i32⟩) main_call2.v2 main_call2.v3 addi,
    StableHlo.TRef.ternary main_call2.v1 main_call2.v3 (.of main_v5 : StableHlo.TRef sig ⟨S16384, .i32⟩) main_call2.call0.v0 select,
    StableHlo.TRef.unary main_call2.call0.v0 main_call2.v5 (broadcastInDim S16384x1 ![0] bcast_S16384_S16384x1_0),
    StableHlo.TRef.nullary main_call2.c_1 (constantI S1 32 999999#32),
    StableHlo.TRef.nullary main_call2.c_2 (constantI S_ 32 0#32),
    StableHlo.TRef.unary main_call2.c_2 main_call2.v6 (broadcastInDim S16384x1 ![] bcast_S_S16384x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S16384x1 ![0, 1] bcast_S1x1_S16384x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x1_S16384_d1 h_S_),
    StableHlo.TRef.binary (.of main_arg2 : StableHlo.TRef sig ⟨S1000000x64, .f32⟩) main_call2.v5 main_call2.v13 (fun x i => Host.gather gather_S1000000x64_S16384x1_S16384x64_1_0_n_n_0_1_164 x i),
    StableHlo.TRef.unary main_call2.v12 main_call2.v14 (broadcastInDim S16384x64 ![0] bcast_S16384_S16384x64_0),
    StableHlo.TRef.nullary main_call2.cst (constant S_ .f32 0x7FC00000#32),
    StableHlo.TRef.unary main_call2.cst main_call2.v15 (broadcastInDim S16384x64 ![] bcast_S_S16384x64),
    StableHlo.TRef.ternary main_call2.v14 main_call2.v13 main_call2.v15 main_call2.v16 select,
    StableHlo.unary main_arg4 main_v9 (broadcastInDim S16384x64 ![1] bcast_S64_S16384x64_1 : (⟨S64, .f32⟩ : BufTy).Contents (Elt F) → (⟨S16384x64, .f32⟩ : BufTy).Contents (Elt F)),
    StableHlo.nary ![main_v6, main_v7, main_v9] main_v10 (fun u => concatenate S16384x192 1 [⟨S16384x64, u 0⟩, ⟨S16384x64, u 1⟩, ⟨S16384x64, u 2⟩] concatenates_S16384x64_S16384x64_S16384x64_S16384x192_d1),
    StableHlo.unary main_arg5 main_v11 ((transpose S192x64 [1, 0] · transposes_S64x192_S192x64_1_0) : (⟨S64x192, .f32⟩ : BufTy).Contents (Elt F) → (⟨S192x64, .f32⟩ : BufTy).Contents (Elt F)),
    StableHlo.binary main_v10 main_v11 main_v12 ((fun l r => Host.dotGeneral dot_S16384x192_S192x64_S16384x64_1_0_0_1_n_n none l r) : (⟨S16384x192, .f32⟩ : BufTy).Contents (Elt F) → (⟨S192x64, .f32⟩ : BufTy).Contents (Elt F) → (⟨S16384x64, .f32⟩ : BufTy).Contents (Elt F)),
    StableHlo.unary main_arg6 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S16384x64 ![0, 1] bcast_S1x64_S16384x64_0_1 : (⟨S1x64, .f32⟩ : BufTy).Contents (Elt F) → (⟨S16384x64, .f32⟩ : BufTy).Contents (Elt F)),
    StableHlo.binary main_v12 main_v14 main_v15 (addf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0xFF800000#32),
    StableHlo.binary main_v15 main_cst main_v16 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.nullary main_cst_0 (constant S_ .f32 0xFF800000#32),
    StableHlo.unary main_cst_0 main_v17 (broadcastInDim S16384 ![] bcast_S_S16384 : (⟨S_, .f32⟩ : BufTy).Contents (Elt F) → (⟨S16384, .f32⟩ : BufTy).Contents (Elt F)),
    StableHlo.binary main_v17 main_v16 main_v18 (maximumf : (⟨S16384, .f32⟩ : BufTy).Contents (Elt F) → (⟨S16384, .f32⟩ : BufTy).Contents (Elt F) → (⟨S16384, .f32⟩ : BufTy).Contents (Elt F)),
    StableHlo.unary main_v18 main_v19 (broadcastInDim S16384x1 ![0] bcast_S16384_S16384x1_0 : (⟨S16384, .f32⟩ : BufTy).Contents (Elt F) → (⟨S16384x1, .f32⟩ : BufTy).Contents (Elt F)),
    StableHlo.unary main_v19 main_v20 (broadcastInDim S16384x64 ![0, 1] bcast_S16384x1_S16384x64_0_1 : (⟨S16384x1, .f32⟩ : BufTy).Contents (Elt F) → (⟨S16384x64, .f32⟩ : BufTy).Contents (Elt F)),
    StableHlo.binary main_v15 main_v20 main_v21 (subf : (⟨S16384x64, .f32⟩ : BufTy).Contents (Elt F) → (⟨S16384x64, .f32⟩ : BufTy).Contents (Elt F) → (⟨S16384x64, .f32⟩ : BufTy).Contents (Elt F)),
    StableHlo.unary main_v21 main_v22 (Host.exp : (⟨S16384x64, .f32⟩ : BufTy).Contents (Elt F) → (⟨S16384x64, .f32⟩ : BufTy).Contents (Elt F)),
    StableHlo.nullary main_cst_1 (constant S_ .f32 0x00000000#32),
    StableHlo.binary main_v22 main_cst_1 main_v23 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v23 main_v24 (broadcastInDim S16384x1 ![0] bcast_S16384_S16384x1_0 : (⟨S16384, .f32⟩ : BufTy).Contents (Elt F) → (⟨S16384x1, .f32⟩ : BufTy).Contents (Elt F)),
    StableHlo.unary main_v24 main_v25 (broadcastInDim S16384x64 ![0, 1] bcast_S16384x1_S16384x64_0_1 : (⟨S16384x1, .f32⟩ : BufTy).Contents (Elt F) → (⟨S16384x64, .f32⟩ : BufTy).Contents (Elt F)),
    StableHlo.binary main_v22 main_v25 main_v26 (Host.divf : (⟨S16384x64, .f32⟩ : BufTy).Contents (Elt F) → (⟨S16384x64, .f32⟩ : BufTy).Contents (Elt F) → (⟨S16384x64, .f32⟩ : BufTy).Contents (Elt F)),
    StableHlo.binary main_v6 main_v26 main_v27 (mulf : (⟨S16384x64, .f32⟩ : BufTy).Contents (Elt F) → (⟨S16384x64, .f32⟩ : BufTy).Contents (Elt F) → (⟨S16384x64, .f32⟩ : BufTy).Contents (Elt F)),
    StableHlo.binary main_v27 main_v7 main_v28 (addf : (⟨S16384x64, .f32⟩ : BufTy).Contents (Elt F) → (⟨S16384x64, .f32⟩ : BufTy).Contents (Elt F) → (⟨S16384x64, .f32⟩ : BufTy).Contents (Elt F)),
    StableHlo.binary main_v28 main_v8 main_v29 (subf : (⟨S16384x64, .f32⟩ : BufTy).Contents (Elt F) → (⟨S16384x64, .f32⟩ : BufTy).Contents (Elt F) → (⟨S16384x64, .f32⟩ : BufTy).Contents (Elt F)),
    StableHlo.TRef.binary (.of main_v29 : StableHlo.TRef sig ⟨S16384x64, .f32⟩) (.of main_v29 : StableHlo.TRef sig ⟨S16384x64, .f32⟩) main_call3.v0 mulf,
    StableHlo.TRef.nullary main_call3.cst (constant S_ .f32 0x00000000#32),
    StableHlo.TRef.binary main_call3.v0 main_call3.cst main_call3.v1 (fun x v => Host.reduceAdd x v reducesTo_S16384x64_S16384_d1 h_S_),
    StableHlo.TRef.unary main_call3.v1 main_call3.v2 Host.sqrt,
    StableHlo.unary main_v30 main_v31 (Host.negf : (⟨S16384, .f32⟩ : BufTy).Contents (Elt F) → (⟨S16384, .f32⟩ : BufTy).Contents (Elt F)),
    StableHlo.unary main_arg1 main_v32 ((extractStridedSlice S16384x1 ![0, 0] · slices_S16384x3_S16384x1_0_0) : (⟨S16384x3, .i32⟩ : BufTy).Contents (Elt F) → (⟨S16384x1, .i32⟩ : BufTy).Contents (Elt F)),
    StableHlo.reshape main_v32 main_v33 rfl shapeCasts_S16384x1_S16384,
    StableHlo.unary main_arg1 main_v34 ((extractStridedSlice S16384x1 ![0, 1] · slices_S16384x3_S16384x1_0_1) : (⟨S16384x3, .i32⟩ : BufTy).Contents (Elt F) → (⟨S16384x1, .i32⟩ : BufTy).Contents (Elt F)),
    StableHlo.reshape main_v34 main_v35 rfl shapeCasts_S16384x1_S16384,
    StableHlo.unary main_arg1 main_v36 ((extractStridedSlice S16384x1 ![0, 2] · slices_S16384x3_S16384x1_0_2) : (⟨S16384x3, .i32⟩ : BufTy).Contents (Elt F) → (⟨S16384x1, .i32⟩ : BufTy).Contents (Elt F)),
    StableHlo.reshape main_v36 main_v37 rfl shapeCasts_S16384x1_S16384,
    StableHlo.TRef.nullary main_call4.c (constantI S_ 32 0#32),
    StableHlo.TRef.unary main_call4.c main_call4.v0 (broadcastInDim S16384 ![] bcast_S_S16384),
    StableHlo.TRef.binary (.of main_v33 : StableHlo.TRef sig ⟨S16384, .i32⟩) main_call4.v0 main_call4.v1 (cmpi .slt),
    StableHlo.TRef.nullary main_call4.c_0 (constantI S_ 32 1000000#32),
    StableHlo.TRef.unary main_call4.c_0 main_call4.v2 (broadcastInDim S16384 ![] bcast_S_S16384),
    StableHlo.TRef.binary (.of main_v33 : StableHlo.TRef sig ⟨S16384, .i32⟩) main_call4.v2 main_call4.v3 addi,
    StableHlo.TRef.ternary main_call4.v1 main_call4.v3 (.of main_v33 : StableHlo.TRef sig ⟨S16384, .i32⟩) main_call4.call0.v0 select,
    StableHlo.TRef.unary main_call4.call0.v0 main_call4.v5 (broadcastInDim S16384x1 ![0] bcast_S16384_S16384x1_0),
    StableHlo.TRef.nullary main_call4.c_1 (constantI S1 32 999999#32),
    StableHlo.TRef.nullary main_call4.c_2 (constantI S_ 32 0#32),
    StableHlo.TRef.unary main_call4.c_2 main_call4.v6 (broadcastInDim S16384x1 ![] bcast_S_S16384x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S16384x1 ![0, 1] bcast_S1x1_S16384x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S16384x1_S16384_d1 h_S_),
    StableHlo.TRef.binary (.of main_arg2 : StableHlo.TRef sig ⟨S1000000x64, .f32⟩) main_call4.v5 main_call4.v13 (fun x i => Host.gather gather_S1000000x64_S16384x1_S16384x64_1_0_n_n_0_1_164 x i),
    StableHlo.TRef.unary main_call4.v12 main_call4.v14 (broadcastInDim S16384x64 ![0] bcast_S16384_S16384x64_0),
    StableHlo.TRef.nullary main_call4.cst (constant S_ .f32 0x7FC00000#32),
    StableHlo.TRef.unary main_call4.cst main_call4.v15 (broadcastInDim S16384x64 ![] bcast_S_S16384x64),
    StableHlo.TRef.ternary main_call4.v14 main_call4.v13 main_call4.v15 main_call4.v16 select,
    StableHlo.TRef.nullary main_call5.c (constantI S_ 32 0#32),
    StableHlo.TRef.unary main_call5.c main_call5.v0 (broadcastInDim S16384 ![] bcast_S_S16384),
    StableHlo.TRef.binary (.of main_v35 : StableHlo.TRef sig ⟨S16384, .i32⟩) main_call5.v0 main_call5.v1 (cmpi .slt),
    StableHlo.TRef.nullary main_call5.c_0 (constantI S_ 32 100000#32),
    StableHlo.TRef.unary main_call5.c_0 main_call5.v2 (broadcastInDim S16384 ![] bcast_S_S16384),
    StableHlo.TRef.binary (.of main_v35 : StableHlo.TRef sig ⟨S16384, .i32⟩) main_call5.v2 main_call5.v3 addi,
    StableHlo.TRef.ternary main_call5.v1 main_call5.v3 (.of main_v35 : StableHlo.TRef sig ⟨S16384, .i32⟩) main_call5.call0.v0 select,
    StableHlo.TRef.unary main_call5.call0.v0 main_call5.v5 (broadcastInDim S16384x1 ![0] bcast_S16384_S16384x1_0),
    StableHlo.TRef.nullary main_call5.c_1 (constantI S1 32 99999#32),
    StableHlo.TRef.nullary main_call5.c_2 (constantI S_ 32 0#32),
    StableHlo.TRef.unary main_call5.c_2 main_call5.v6 (broadcastInDim S16384x1 ![] bcast_S_S16384x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S16384x1 ![0, 1] bcast_S1x1_S16384x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S16384x1_S16384_d1 h_S_),
    StableHlo.TRef.binary (.of main_arg3 : StableHlo.TRef sig ⟨S100000x64, .f32⟩) main_call5.v5 main_call5.v13 (fun x i => Host.gather gather_S100000x64_S16384x1_S16384x64_1_0_n_n_0_1_164 x i),
    StableHlo.TRef.unary main_call5.v12 main_call5.v14 (broadcastInDim S16384x64 ![0] bcast_S16384_S16384x64_0),
    StableHlo.TRef.nullary main_call5.cst (constant S_ .f32 0x7FC00000#32),
    StableHlo.TRef.unary main_call5.cst main_call5.v15 (broadcastInDim S16384x64 ![] bcast_S_S16384x64),
    StableHlo.TRef.ternary main_call5.v14 main_call5.v13 main_call5.v15 main_call5.v16 select,
    StableHlo.TRef.nullary main_call6.c (constantI S_ 32 0#32),
    StableHlo.TRef.unary main_call6.c main_call6.v0 (broadcastInDim S16384 ![] bcast_S_S16384),
    StableHlo.TRef.binary (.of main_v37 : StableHlo.TRef sig ⟨S16384, .i32⟩) main_call6.v0 main_call6.v1 (cmpi .slt),
    StableHlo.TRef.nullary main_call6.c_0 (constantI S_ 32 1000000#32),
    StableHlo.TRef.unary main_call6.c_0 main_call6.v2 (broadcastInDim S16384 ![] bcast_S_S16384),
    StableHlo.TRef.binary (.of main_v37 : StableHlo.TRef sig ⟨S16384, .i32⟩) main_call6.v2 main_call6.v3 addi,
    StableHlo.TRef.ternary main_call6.v1 main_call6.v3 (.of main_v37 : StableHlo.TRef sig ⟨S16384, .i32⟩) main_call6.call0.v0 select,
    StableHlo.TRef.unary main_call6.call0.v0 main_call6.v5 (broadcastInDim S16384x1 ![0] bcast_S16384_S16384x1_0),
    StableHlo.TRef.nullary main_call6.c_1 (constantI S1 32 999999#32),
    StableHlo.TRef.nullary main_call6.c_2 (constantI S_ 32 0#32),
    StableHlo.TRef.unary main_call6.c_2 main_call6.v6 (broadcastInDim S16384x1 ![] bcast_S_S16384x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S16384x1 ![0, 1] bcast_S1x1_S16384x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S16384x1_S16384_d1 h_S_),
    StableHlo.TRef.binary (.of main_arg2 : StableHlo.TRef sig ⟨S1000000x64, .f32⟩) main_call6.v5 main_call6.v13 (fun x i => Host.gather gather_S1000000x64_S16384x1_S16384x64_1_0_n_n_0_1_164 x i),
    StableHlo.TRef.unary main_call6.v12 main_call6.v14 (broadcastInDim S16384x64 ![0] bcast_S16384_S16384x64_0),
    StableHlo.TRef.nullary main_call6.cst (constant S_ .f32 0x7FC00000#32),
    StableHlo.TRef.unary main_call6.cst main_call6.v15 (broadcastInDim S16384x64 ![] bcast_S_S16384x64),
    StableHlo.TRef.ternary main_call6.v14 main_call6.v13 main_call6.v15 main_call6.v16 select,
    StableHlo.unary main_arg4 main_v41 (broadcastInDim S16384x64 ![1] bcast_S64_S16384x64_1 : (⟨S64, .f32⟩ : BufTy).Contents (Elt F) → (⟨S16384x64, .f32⟩ : BufTy).Contents (Elt F)),
    StableHlo.nary ![main_v38, main_v39, main_v41] main_v42 (fun u => concatenate S16384x192 1 [⟨S16384x64, u 0⟩, ⟨S16384x64, u 1⟩, ⟨S16384x64, u 2⟩] concatenates_S16384x64_S16384x64_S16384x64_S16384x192_d1),
    StableHlo.unary main_arg5 main_v43 ((transpose S192x64 [1, 0] · transposes_S64x192_S192x64_1_0) : (⟨S64x192, .f32⟩ : BufTy).Contents (Elt F) → (⟨S192x64, .f32⟩ : BufTy).Contents (Elt F)),
    StableHlo.binary main_v42 main_v43 main_v44 ((fun l r => Host.dotGeneral dot_S16384x192_S192x64_S16384x64_1_0_0_1_n_n none l r) : (⟨S16384x192, .f32⟩ : BufTy).Contents (Elt F) → (⟨S192x64, .f32⟩ : BufTy).Contents (Elt F) → (⟨S16384x64, .f32⟩ : BufTy).Contents (Elt F)),
    StableHlo.unary main_arg6 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S16384x64 ![0, 1] bcast_S1x64_S16384x64_0_1 : (⟨S1x64, .f32⟩ : BufTy).Contents (Elt F) → (⟨S16384x64, .f32⟩ : BufTy).Contents (Elt F)),
    StableHlo.binary main_v44 main_v46 main_v47 (addf : (⟨S16384x64, .f32⟩ : BufTy).Contents (Elt F) → (⟨S16384x64, .f32⟩ : BufTy).Contents (Elt F) → (⟨S16384x64, .f32⟩ : BufTy).Contents (Elt F)),
    StableHlo.nullary main_cst_2 (constant S_ .f32 0xFF800000#32),
    StableHlo.binary main_v47 main_cst_2 main_v48 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.nullary main_cst_3 (constant S_ .f32 0xFF800000#32),
    StableHlo.unary main_cst_3 main_v49 (broadcastInDim S16384 ![] bcast_S_S16384 : (⟨S_, .f32⟩ : BufTy).Contents (Elt F) → (⟨S16384, .f32⟩ : BufTy).Contents (Elt F)),
    StableHlo.binary main_v49 main_v48 main_v50 (maximumf : (⟨S16384, .f32⟩ : BufTy).Contents (Elt F) → (⟨S16384, .f32⟩ : BufTy).Contents (Elt F) → (⟨S16384, .f32⟩ : BufTy).Contents (Elt F)),
    StableHlo.unary main_v50 main_v51 (broadcastInDim S16384x1 ![0] bcast_S16384_S16384x1_0 : (⟨S16384, .f32⟩ : BufTy).Contents (Elt F) → (⟨S16384x1, .f32⟩ : BufTy).Contents (Elt F)),
    StableHlo.unary main_v51 main_v52 (broadcastInDim S16384x64 ![0, 1] bcast_S16384x1_S16384x64_0_1 : (⟨S16384x1, .f32⟩ : BufTy).Contents (Elt F) → (⟨S16384x64, .f32⟩ : BufTy).Contents (Elt F)),
    StableHlo.binary main_v47 main_v52 main_v53 (subf : (⟨S16384x64, .f32⟩ : BufTy).Contents (Elt F) → (⟨S16384x64, .f32⟩ : BufTy).Contents (Elt F) → (⟨S16384x64, .f32⟩ : BufTy).Contents (Elt F)),
    StableHlo.unary main_v53 main_v54 (Host.exp : (⟨S16384x64, .f32⟩ : BufTy).Contents (Elt F) → (⟨S16384x64, .f32⟩ : BufTy).Contents (Elt F)) ]

/-- The second window: the negative set's softmax denominator, weighted distance and norm, then the margin,
    the clamp at zero, the sum over the 16384 triplets and the division by their number. -/
abbrev ops1 : List (HloOp τ sig (Elt F)) :=
  [ StableHlo.nullary main_cst_4 (constant S_ .f32 0x00000000#32),
    StableHlo.binary main_v54 main_cst_4 main_v55 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v55 main_v56 (broadcastInDim S16384x1 ![0] bcast_S16384_S16384x1_0 : (⟨S16384, .f32⟩ : BufTy).Contents (Elt F) → (⟨S16384x1, .f32⟩ : BufTy).Contents (Elt F)),
    StableHlo.unary main_v56 main_v57 (broadcastInDim S16384x64 ![0, 1] bcast_S16384x1_S16384x64_0_1 : (⟨S16384x1, .f32⟩ : BufTy).Contents (Elt F) → (⟨S16384x64, .f32⟩ : BufTy).Contents (Elt F)),
    StableHlo.binary main_v54 main_v57 main_v58 (Host.divf : (⟨S16384x64, .f32⟩ : BufTy).Contents (Elt F) → (⟨S16384x64, .f32⟩ : BufTy).Contents (Elt F) → (⟨S16384x64, .f32⟩ : BufTy).Contents (Elt F)),
    StableHlo.binary main_v38 main_v58 main_v59 (mulf : (⟨S16384x64, .f32⟩ : BufTy).Contents (Elt F) → (⟨S16384x64, .f32⟩ : BufTy).Contents (Elt F) → (⟨S16384x64, .f32⟩ : BufTy).Contents (Elt F)),
    StableHlo.binary main_v59 main_v39 main_v60 (addf : (⟨S16384x64, .f32⟩ : BufTy).Contents (Elt F) → (⟨S16384x64, .f32⟩ : BufTy).Contents (Elt F) → (⟨S16384x64, .f32⟩ : BufTy).Contents (Elt F)),
    StableHlo.binary main_v60 main_v40 main_v61 (subf : (⟨S16384x64, .f32⟩ : BufTy).Contents (Elt F) → (⟨S16384x64, .f32⟩ : BufTy).Contents (Elt F) → (⟨S16384x64, .f32⟩ : BufTy).Contents (Elt F)),
    StableHlo.TRef.binary (.of main_v61 : StableHlo.TRef sig ⟨S16384x64, .f32⟩) (.of main_v61 : StableHlo.TRef sig ⟨S16384x64, .f32⟩) main_call7.v0 mulf,
    StableHlo.TRef.nullary main_call7.cst (constant S_ .f32 0x00000000#32),
    StableHlo.TRef.binary main_call7.v0 main_call7.cst main_call7.v1 (fun x v => Host.reduceAdd x v reducesTo_S16384x64_S16384_d1 h_S_),
    StableHlo.TRef.unary main_call7.v1 main_call7.v2 Host.sqrt,
    StableHlo.unary main_v62 main_v63 (Host.negf : (⟨S16384, .f32⟩ : BufTy).Contents (Elt F) → (⟨S16384, .f32⟩ : BufTy).Contents (Elt F)),
    StableHlo.binary main_v63 main_v31 main_v64 (subf : (⟨S16384, .f32⟩ : BufTy).Contents (Elt F) → (⟨S16384, .f32⟩ : BufTy).Contents (Elt F) → (⟨S16384, .f32⟩ : BufTy).Contents (Elt F)),
    StableHlo.nullary main_cst_5 (constant S_ .f32 0x3F800000#32),
    StableHlo.unary main_cst_5 main_v65 (broadcastInDim S16384 ![] bcast_S_S16384 : (⟨S_, .f32⟩ : BufTy).Contents (Elt F) → (⟨S16384, .f32⟩ : BufTy).Contents (Elt F)),
    StableHlo.binary main_v64 main_v65 main_v66 (addf : (⟨S16384, .f32⟩ : BufTy).Contents (Elt F) → (⟨S16384, .f32⟩ : BufTy).Contents (Elt F) → (⟨S16384, .f32⟩ : BufTy).Contents (Elt F)),
    StableHlo.nullary main_cst_6 (constant S_ .f32 0x00000000#32),
    StableHlo.unary main_cst_6 main_v67 (broadcastInDim S16384 ![] bcast_S_S16384 : (⟨S_, .f32⟩ : BufTy).Contents (Elt F) → (⟨S16384, .f32⟩ : BufTy).Contents (Elt F)),
    StableHlo.binary main_v67 main_v66 main_v68 (maximumf : (⟨S16384, .f32⟩ : BufTy).Contents (Elt F) → (⟨S16384, .f32⟩ : BufTy).Contents (Elt F) → (⟨S16384, .f32⟩ : BufTy).Contents (Elt F)),
    StableHlo.nullary main_cst_7 (constant S_ .f32 0x00000000#32),
    StableHlo.binary main_v68 main_cst_7 main_v69 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_8 (constant S_ .f32 0x46800000#32),
    StableHlo.binary main_v69 main_cst_8 main_v70 (Host.divf : (⟨S_, .f32⟩ : BufTy).Contents (Elt F) → (⟨S_, .f32⟩ : BufTy).Contents (Elt F) → (⟨S_, .f32⟩ : BufTy).Contents (Elt F)) ]

/-- @main's 219 operations, in order. -/
abbrev ops : List (HloOp τ sig (Elt F)) := ops0 ++ ops1

/-! ## The program is its operations in order -/

-- 195 binds re-associated: the rewrite under the chain recurses once per statement
set_option maxRecDepth 65536 in
/-- The first window is its straight line: the four functions' bodies unfolded at their calls and the records at their
    fields, then sequencing reassociated. -/
theorem main_part0_eq (c : Dev nD) : main_part0 (F := F) c = seq ops0 := by
  simp only [main_part0, fn_take.body, fn_take_0.body, fn_where.body, fn_norm.body, seq, bind_assoc, pure_bind]
  rfl

set_option maxRecDepth 65536 in
/-- The second window likewise. -/
theorem main_part1_eq (c : Dev nD) : main_part1 (F := F) c = seq ops1 := by
  simp only [main_part1, fn_norm.body, seq, bind_assoc, pure_bind]

/-- @main runs the two windows one after the other, which is the concatenated line. -/
theorem main_eq (c : Dev nD) : main (F := F) c = seq ops := by
  rw [show (ops : List (HloOp τ sig (Elt F))) = ops0 ++ ops1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., binary_bufs_sub .., nullary_bufs_sub .., binary_bufs_sub .., unary_bufs_sub .., unary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub ..⟩
theorem ops1_sub : (ops1 : List (HloOp τ sig (Elt F))).Forall fun op => op.bufs ⊆ tcRefs τ sig :=
  ⟨nullary_bufs_sub .., binary_bufs_sub .., unary_bufs_sub .., unary_bufs_sub .., binary_bufs_sub .., binary_bufs_sub .., binary_bufs_sub .., binary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub ..⟩
theorem ops_sub : (ops : List (HloOp τ sig (Elt F))).Forall fun op => op.bufs ⊆ tcRefs τ sig :=
  List.forall_iff_forall_mem.2 fun op h => (List.mem_append.1 h).elim
    (List.forall_iff_forall_mem.1 ops0_sub op) (List.forall_iff_forall_mem.1 ops1_sub op)

/-- Every operation determines its result (none allocates a buffer of contents not chosen). -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ :=
  fun op h => (List.mem_append.1 h).elim
    (List.forall_iff_forall_mem.1 ops0_fresh op) (List.forall_iff_forall_mem.1 ops1_fresh op)

/-- Two lines run one after the other leave what the second leaves from what the first left. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The arguments are never written -/

theorem arg0_eq (V : Valuation τ sig (Elt F)) :
    after ops V (main_arg0 : DevRef τ sig) = V (main_arg0 : DevRef τ sig) := by
  rw [after_app]; after_results_simp
theorem arg1_eq (V : Valuation τ sig (Elt F)) :
    after ops V (main_arg1 : DevRef τ sig) = V (main_arg1 : DevRef τ sig) := by
  rw [after_app]; after_results_simp
theorem arg2_eq (V : Valuation τ sig (Elt F)) :
    after ops V (main_arg2 : DevRef τ sig) = V (main_arg2 : DevRef τ sig) := by
  rw [after_app]; after_results_simp
theorem arg3_eq (V : Valuation τ sig (Elt F)) :
    after ops V (main_arg3 : DevRef τ sig) = V (main_arg3 : DevRef τ sig) := by
  rw [after_app]; after_results_simp
theorem arg4_eq (V : Valuation τ sig (Elt F)) :
    after ops V (main_arg4 : DevRef τ sig) = V (main_arg4 : DevRef τ sig) := by
  rw [after_app]; after_results_simp
theorem arg5_eq (V : Valuation τ sig (Elt F)) :
    after ops V (main_arg5 : DevRef τ sig) = V (main_arg5 : DevRef τ sig) := by
  rw [after_app]; after_results_simp
theorem arg6_eq (V : Valuation τ sig (Elt F)) :
    after ops V (main_arg6 : DevRef τ sig) = V (main_arg6 : DevRef τ sig) := by
  rw [after_app]; after_results_simp

/-! ## The run -/

/-- Every weakly fair execution ends with each buffer at the fold of the 219 operations over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The same with the result buffer at the fold and the seven arguments unchanged. -/
theorem run_fold (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = after ops (launchContents m c) (main_v70 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v70,
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_all m ρ)

/-- The reference terminates from every memory and leaves its arguments as they were. -/
theorem frame_ri : Cert.frame_ReferenceIdeal := fun m ρ _ =>
  (θ_run Cert.ReferenceIdeal.defs _ _).mono (fun _ h c => (h c).2) (run_fold (F := Ideal) m ρ)

end Cert.ReferenceIdeal.RefRun

end
-- ==== Proof.RefDefs.lean ====
/- The reference program's result as a function of its seven arrays: each definition is one stretch of the program's
   host operations composed, the literals, shape relations and dimension records the program's own. -/
import proofs.«203064_g33122787786777_cont_8to1_b_416_18_alg».proof.Proof.RefRun

-- the unfolding of a 23- or 29-operation stretch against its named function recurses once per nesting
set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a pure function of the seven arrays

Each definition below is one stretch of the program's operations composed: the literals, shape relations and dimension
records are the program's own, so that the run's fold at the result buffer is this term by unfolding. -/

/-- Column 0 (the head entity) of a triplet array, as a vector of 16384 indices. -/
def col0 (a : Vec F S16384x3 .i32) : Vec F S16384 .i32 :=
  shapeCast S16384 (extractStridedSlice S16384x1 ![0, 0] a slices_S16384x3_S16384x1_0_0) shapeCasts_S16384x1_S16384
/-- Column 1 (the relation). -/
def col1 (a : Vec F S16384x3 .i32) : Vec F S16384 .i32 :=
  shapeCast S16384 (extractStridedSlice S16384x1 ![0, 1] a slices_S16384x3_S16384x1_0_1) shapeCasts_S16384x1_S16384
/-- Column 2 (the tail entity). -/
def col2 (a : Vec F S16384x3 .i32) : Vec F S16384 .i32 :=
  shapeCast S16384 (extractStridedSlice S16384x1 ![0, 2] a slices_S16384x3_S16384x1_0_2) shapeCasts_S16384x1_S16384

/-- The row index a lookup in a table of `n` rows uses: a negative index has `n` added, any other is kept; as a column. -/
def wrapIdx (n : BitVec 32) (i : Vec F S16384 .i32) : Vec F S16384x1 .i32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 n))) i)

/-- Where a wrapped index names a row, `0 ≤ index ≤ last`, spread over the row's 64 entries. -/
def inRange (last : BitVec 32) (idx : Vec F S16384x1 .i32) : Vec F S16384x64 .i1 :=
  broadcastInDim S16384x64 ![0] bcast_S16384_S16384x64_0
    (Host.reduce IntOp.andi
      (andi (cmpi .sge idx (broadcastInDim S16384x1 ![] bcast_S_S16384x1 (constantI S_ 32 0#32)))
        (cmpi .sle idx (broadcastInDim S16384x1 ![0, 1] bcast_S1x1_S16384x1_0_1
          (broadcastInDim S1x1 ![1] bcast_S1_S1x1_1 (constantI S1 32 last)))))
      (constantI S_ 1 1#1) reducesTo_S16384x1_S16384_d1 h_S_)

/-- The fill value of a lookup whose index names no row. -/
def fillRows : Vec F S16384x64 .f32 :=
  broadcastInDim S16384x64 ![] bcast_S_S16384x64 (constant (F := F) S_ .f32 0x7FC00000#32)

/-- Rows of the entity table at 16384 indices: the gathered row where the wrapped index is in range, the fill value elsewhere. -/
def takeE (E : Vec F S1000000x64 .f32) (i : Vec F S16384 .i32) : Vec F S16384x64 .f32 :=
  select (inRange (F := F) 999999#32 (wrapIdx (F := F) 1000000#32 i))
    (Host.gather gather_S1000000x64_S16384x1_S16384x64_1_0_n_n_0_1_164 E (wrapIdx (F := F) 1000000#32 i)) fillRows

/-- Rows of the relation table at 16384 indices, likewise. -/
def takeR (R : Vec F S100000x64 .f32) (i : Vec F S16384 .i32) : Vec F S16384x64 .f32 :=
  select (inRange (F := F) 99999#32 (wrapIdx (F := F) 100000#32 i))
    (Host.gather gather_S100000x64_S16384x1_S16384x64_1_0_n_n_0_1_164 R (wrapIdx (F := F) 100000#32 i)) fillRows

/-- A value per triplet spread along that triplet's 64 entries. -/
def alongRow (v : Vec F S16384 .f32) : Vec F S16384x64 .f32 :=
  broadcastInDim S16384x64 ![0, 1] bcast_S16384x1_S16384x64_0_1 (broadcastInDim S16384x1 ![0] bcast_S16384_S16384x1_0 v)

/-- The attention logits: the concatenation (head row, relation row, hyperplane) times the transposed weights, plus the bias. -/
def logits (e ρ : Vec F S16384x64 .f32) (hp : Vec F S64 .f32) (W : Vec F S64x192 .f32) (b : Vec F S64 .f32) :
    Vec F S16384x64 .f32 :=
  addf
    (Host.dotGeneral dot_S16384x192_S192x64_S16384x64_1_0_0_1_n_n none
      (concatenate S16384x192 1
        [⟨S16384x64, e⟩, ⟨S16384x64, ρ⟩, ⟨S16384x64, broadcastInDim S16384x64 ![1] bcast_S64_S16384x64_1 hp⟩]
        concatenates_S16384x64_S16384x64_S16384x64_S16384x192_d1)
      (transpose S192x64 [1, 0] W transposes_S64x192_S192x64_1_0))
    (broadcastInDim S16384x64 ![0, 1] bcast_S1x64_S16384x64_0_1 (broadcastInDim S1x64 ![1] bcast_S64_S1x64_1 b))

/-- The softmax's numerator: the exponential of each logit less its row's maximum (the maximum taken from `-∞`). -/
def expShift (z : Vec F S16384x64 .f32) : Vec F S16384x64 .f32 :=
  Host.exp (subf z (alongRow
    (maximumf (broadcastInDim S16384 ![] bcast_S_S16384 (constant (F := F) S_ .f32 0xFF800000#32))
      (Host.reduce FloatOps.maximumf z (constant (F := F) S_ .f32 0xFF800000#32) reducesTo_S16384x64_S16384_d1 h_S_))))

/-- The softmax along a row: the numerator over its row sum. -/
def attn (z : Vec F S16384x64 .f32) : Vec F S16384x64 .f32 :=
  Host.divf (expShift z)
    (alongRow (Host.reduceAdd (expShift z) (constant (F := F) S_ .f32 0x00000000#32) reducesTo_S16384x64_S16384_d1 h_S_))

/-- Minus the Euclidean norm of each row. -/
def negNorm (d : Vec F S16384x64 .f32) : Vec F S16384 .f32 :=
  Host.negf (Host.sqrt (Host.reduceAdd (mulf d d) (constant (F := F) S_ .f32 0x00000000#32) reducesTo_S16384x64_S16384_d1 h_S_))

/-- The score of each triplet from its three rows: minus the norm of `head · attention + relation - tail`. -/
def dist (e ρ t : Vec F S16384x64 .f32) (hp : Vec F S64 .f32) (W : Vec F S64x192 .f32) (b : Vec F S64 .f32) :
    Vec F S16384 .f32 :=
  negNorm (subf (addf (mulf e (attn (logits e ρ hp W b))) ρ) t)

/-- The scores of a triplet array. -/
def scores (a : Vec F S16384x3 .i32) (E : Vec F S1000000x64 .f32) (R : Vec F S100000x64 .f32) (hp : Vec F S64 .f32)
    (W : Vec F S64x192 .f32) (b : Vec F S64 .f32) : Vec F S16384 .f32 :=
  dist (takeE E (col0 (F := F) a)) (takeR R (col1 (F := F) a)) (takeE E (col2 (F := F) a)) hp W b

/-- The margin loss of positive scores `p` and negative scores `n`: the mean over the triplets of `max(0, n - p + 1)`. -/
def loss (p n : Vec F S16384 .f32) : Vec F S_ .f32 :=
  Host.divf
    (Host.reduceAdd
      (maximumf (broadcastInDim S16384 ![] bcast_S_S16384 (constant (F := F) S_ .f32 0x00000000#32))
        (addf (subf n p) (broadcastInDim S16384 ![] bcast_S_S16384 (constant (F := F) S_ .f32 0x3F800000#32))))
      (constant (F := F) S_ .f32 0x00000000#32) reducesTo_S16384_S_d0 h_S_)
    (constant (F := F) S_ .f32 0x46800000#32)

/-- The program's result as one function of its seven arrays: positive triplets, negative triplets, entity table,
    relation table, hyperplane, attention weights, attention bias. -/
def refVal (a0 a1 : Vec F S16384x3 .i32) (E : Vec F S1000000x64 .f32) (R : Vec F S100000x64 .f32) (hp : Vec F S64 .f32)
    (W : Vec F S64x192 .f32) (b : Vec F S64 .f32) : Vec F S_ .f32 :=
  loss (scores a0 E R hp W b) (scores a1 E R hp W b)

end Cert.ReferenceIdeal.RefRun

end
-- ==== Proof.RefRunVal.lean ====
/- The reference program's result buffer holds `refVal` of its seven arrays. The 219 operations are read in eleven
   stretches — per triplet array its three columns, its three table lookups and its scores; then the margin loss — each
   stretch's output one of the named functions of the stretch's inputs, and the stretches composed. -/
import proofs.«203064_g33122787786777_cont_8to1_b_416_18_alg».proof.Proof.RefDefs

-- the unfolding of a 23- or 29-operation stretch against its named function recurses once per nesting
set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The eleven stretches of the line -/

/-- The positive triplets' three columns. -/
def opsA0 : List (HloOp τ sig (Elt F)) :=
  [ StableHlo.unary main_arg0 main_v0 ((extractStridedSlice S16384x1 ![0, 0] · slices_S16384x3_S16384x1_0_0) : (⟨S16384x3, .i32⟩ : BufTy).Contents (Elt F) → (⟨S16384x1, .i32⟩ : BufTy).Contents (Elt F)),
    StableHlo.reshape main_v0 main_v1 rfl shapeCasts_S16384x1_S16384,
    StableHlo.unary main_arg0 main_v2 ((extractStridedSlice S16384x1 ![0, 1] · slices_S16384x3_S16384x1_0_1) : (⟨S16384x3, .i32⟩ : BufTy).Contents (Elt F) → (⟨S16384x1, .i32⟩ : BufTy).Contents (Elt F)),
    StableHlo.reshape main_v2 main_v3 rfl shapeCasts_S16384x1_S16384,
    StableHlo.unary main_arg0 main_v4 ((extractStridedSlice S16384x1 ![0, 2] · slices_S16384x3_S16384x1_0_2) : (⟨S16384x3, .i32⟩ : BufTy).Contents (Elt F) → (⟨S16384x1, .i32⟩ : BufTy).Contents (Elt F)),
    StableHlo.reshape main_v4 main_v5 rfl shapeCasts_S16384x1_S16384 ]

/-- The head rows of the positive triplets. -/
def opsT0 : List (HloOp τ sig (Elt F)) :=
  [ StableHlo.TRef.nullary main_call0.c (constantI S_ 32 0#32),
    StableHlo.TRef.unary main_call0.c main_call0.v0 (broadcastInDim S16384 ![] bcast_S_S16384),
    StableHlo.TRef.binary (.of main_v1 : StableHlo.TRef sig ⟨S16384, .i32⟩) main_call0.v0 main_call0.v1 (cmpi .slt),
    StableHlo.TRef.nullary main_call0.c_0 (constantI S_ 32 1000000#32),
    StableHlo.TRef.unary main_call0.c_0 main_call0.v2 (broadcastInDim S16384 ![] bcast_S_S16384),
    StableHlo.TRef.binary (.of main_v1 : StableHlo.TRef sig ⟨S16384, .i32⟩) main_call0.v2 main_call0.v3 addi,
    StableHlo.TRef.ternary main_call0.v1 main_call0.v3 (.of main_v1 : StableHlo.TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 999999#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg2 : StableHlo.TRef sig ⟨S1000000x64, .f32⟩) main_call0.v5 main_call0.v13 (fun x i => Host.gather gather_S1000000x64_S16384x1_S16384x64_1_0_n_n_0_1_164 x i),
    StableHlo.TRef.unary main_call0.v12 main_call0.v14 (broadcastInDim S16384x64 ![0] bcast_S16384_S16384x64_0),
    StableHlo.TRef.nullary main_call0.cst (constant S_ .f32 0x7FC00000#32),
    StableHlo.TRef.unary main_call0.cst main_call0.v15 (broadcastInDim S16384x64 ![] bcast_S_S16384x64),
    StableHlo.TRef.ternary main_call0.v14 main_call0.v13 main_call0.v15 main_call0.v16 select ]

/-- Their relation rows. -/
def opsT1 : List (HloOp τ sig (Elt F)) :=
  [ StableHlo.TRef.nullary main_call1.c (constantI S_ 32 0#32),
    StableHlo.TRef.unary main_call1.c main_call1.v0 (broadcastInDim S16384 ![] bcast_S_S16384),
    StableHlo.TRef.binary (.of main_v3 : StableHlo.TRef sig ⟨S16384, .i32⟩) main_call1.v0 main_call1.v1 (cmpi .slt),
    StableHlo.TRef.nullary main_call1.c_0 (constantI S_ 32 100000#32),
    StableHlo.TRef.unary main_call1.c_0 main_call1.v2 (broadcastInDim S16384 ![] bcast_S_S16384),
    StableHlo.TRef.binary (.of main_v3 : StableHlo.TRef sig ⟨S16384, .i32⟩) main_call1.v2 main_call1.v3 addi,
    StableHlo.TRef.ternary main_call1.v1 main_call1.v3 (.of main_v3 : StableHlo.TRef sig ⟨S16384, .i32⟩) main_call1.call0.v0 select,
    StableHlo.TRef.unary main_call1.call0.v0 main_call1.v5 (broadcastInDim S16384x1 ![0] bcast_S16384_S16384x1_0),
    StableHlo.TRef.nullary main_call1.c_1 (constantI S1 32 99999#32),
    StableHlo.TRef.nullary main_call1.c_2 (constantI S_ 32 0#32),
    StableHlo.TRef.unary main_call1.c_2 main_call1.v6 (broadcastInDim S16384x1 ![] bcast_S_S16384x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S16384x1 ![0, 1] bcast_S1x1_S16384x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S16384x1_S16384_d1 h_S_),
    StableHlo.TRef.binary (.of main_arg3 : StableHlo.TRef sig ⟨S100000x64, .f32⟩) main_call1.v5 main_call1.v13 (fun x i => Host.gather gather_S100000x64_S16384x1_S16384x64_1_0_n_n_0_1_164 x i),
    StableHlo.TRef.unary main_call1.v12 main_call1.v14 (broadcastInDim S16384x64 ![0] bcast_S16384_S16384x64_0),
    StableHlo.TRef.nullary main_call1.cst (constant S_ .f32 0x7FC00000#32),
    StableHlo.TRef.unary main_call1.cst main_call1.v15 (broadcastInDim S16384x64 ![] bcast_S_S16384x64),
    StableHlo.TRef.ternary main_call1.v14 main_call1.v13 main_call1.v15 main_call1.v16 select ]

/-- Their tail rows. -/
def opsT2 : List (HloOp τ sig (Elt F)) :=
  [ StableHlo.TRef.nullary main_call2.c (constantI S_ 32 0#32),
    StableHlo.TRef.unary main_call2.c main_call2.v0 (broadcastInDim S16384 ![] bcast_S_S16384),
    StableHlo.TRef.binary (.of main_v5 : StableHlo.TRef sig ⟨S16384, .i32⟩) main_call2.v0 main_call2.v1 (cmpi .slt),
    StableHlo.TRef.nullary main_call2.c_0 (constantI S_ 32 1000000#32),
    StableHlo.TRef.unary main_call2.c_0 main_call2.v2 (broadcastInDim S16384 ![] bcast_S_S16384),
    StableHlo.TRef.binary (.of main_v5 : StableHlo.TRef sig ⟨S16384, .i32⟩) main_call2.v2 main_call2.v3 addi,
    StableHlo.TRef.ternary main_call2.v1 main_call2.v3 (.of main_v5 : StableHlo.TRef sig ⟨S16384, .i32⟩) main_call2.call0.v0 select,
    StableHlo.TRef.unary main_call2.call0.v0 main_call2.v5 (broadcastInDim S16384x1 ![0] bcast_S16384_S16384x1_0),
    StableHlo.TRef.nullary main_call2.c_1 (constantI S1 32 999999#32),
    StableHlo.TRef.nullary main_call2.c_2 (constantI S_ 32 0#32),
    StableHlo.TRef.unary main_call2.c_2 main_call2.v6 (broadcastInDim S16384x1 ![] bcast_S_S16384x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S16384x1 ![0, 1] bcast_S1x1_S16384x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S16384x1_S16384_d1 h_S_),
    StableHlo.TRef.binary (.of main_arg2 : StableHlo.TRef sig ⟨S1000000x64, .f32⟩) main_call2.v5 main_call2.v13 (fun x i => Host.gather gather_S1000000x64_S16384x1_S16384x64_1_0_n_n_0_1_164 x i),
    StableHlo.TRef.unary main_call2.v12 main_call2.v14 (broadcastInDim S16384x64 ![0] bcast_S16384_S16384x64_0),
    StableHlo.TRef.nullary main_call2.cst (constant S_ .f32 0x7FC00000#32),
    StableHlo.TRef.unary main_call2.cst main_call2.v15 (broadcastInDim S16384x64 ![] bcast_S_S16384x64),
    StableHlo.TRef.ternary main_call2.v14 main_call2.v13 main_call2.v15 main_call2.v16 select ]

/-- The positive triplets' scores from their rows: logits, softmax, weighted translation, norm, sign. -/
def opsS0 : List (HloOp τ sig (Elt F)) :=
  [ StableHlo.unary main_arg4 main_v9 (broadcastInDim S16384x64 ![1] bcast_S64_S16384x64_1 : (⟨S64, .f32⟩ : BufTy).Contents (Elt F) → (⟨S16384x64, .f32⟩ : BufTy).Contents (Elt F)),
    StableHlo.nary ![main_v6, main_v7, main_v9] main_v10 (fun u => concatenate S16384x192 1 [⟨S16384x64, u 0⟩, ⟨S16384x64, u 1⟩, ⟨S16384x64, u 2⟩] concatenates_S16384x64_S16384x64_S16384x64_S16384x192_d1),
    StableHlo.unary main_arg5 main_v11 ((transpose S192x64 [1, 0] · transposes_S64x192_S192x64_1_0) : (⟨S64x192, .f32⟩ : BufTy).Contents (Elt F) → (⟨S192x64, .f32⟩ : BufTy).Contents (Elt F)),
    StableHlo.binary main_v10 main_v11 main_v12 ((fun l r => Host.dotGeneral dot_S16384x192_S192x64_S16384x64_1_0_0_1_n_n none l r) : (⟨S16384x192, .f32⟩ : BufTy).Contents (Elt F) → (⟨S192x64, .f32⟩ : BufTy).Contents (Elt F) → (⟨S16384x64, .f32⟩ : BufTy).Contents (Elt F)),
    StableHlo.unary main_arg6 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S16384x64 ![0, 1] bcast_S1x64_S16384x64_0_1 : (⟨S1x64, .f32⟩ : BufTy).Contents (Elt F) → (⟨S16384x64, .f32⟩ : BufTy).Contents (Elt F)),
    StableHlo.binary main_v12 main_v14 main_v15 (addf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0xFF800000#32),
    StableHlo.binary main_v15 main_cst main_v16 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.nullary main_cst_0 (constant S_ .f32 0xFF800000#32),
    StableHlo.unary main_cst_0 main_v17 (broadcastInDim S16384 ![] bcast_S_S16384 : (⟨S_, .f32⟩ : BufTy).Contents (Elt F) → (⟨S16384, .f32⟩ : BufTy).Contents (Elt F)),
    StableHlo.binary main_v17 main_v16 main_v18 (maximumf : (⟨S16384, .f32⟩ : BufTy).Contents (Elt F) → (⟨S16384, .f32⟩ : BufTy).Contents (Elt F) → (⟨S16384, .f32⟩ : BufTy).Contents (Elt F)),
    StableHlo.unary main_v18 main_v19 (broadcastInDim S16384x1 ![0] bcast_S16384_S16384x1_0 : (⟨S16384, .f32⟩ : BufTy).Contents (Elt F) → (⟨S16384x1, .f32⟩ : BufTy).Contents (Elt F)),
    StableHlo.unary main_v19 main_v20 (broadcastInDim S16384x64 ![0, 1] bcast_S16384x1_S16384x64_0_1 : (⟨S16384x1, .f32⟩ : BufTy).Contents (Elt F) → (⟨S16384x64, .f32⟩ : BufTy).Contents (Elt F)),
    StableHlo.binary main_v15 main_v20 main_v21 (subf : (⟨S16384x64, .f32⟩ : BufTy).Contents (Elt F) → (⟨S16384x64, .f32⟩ : BufTy).Contents (Elt F) → (⟨S16384x64, .f32⟩ : BufTy).Contents (Elt F)),
    StableHlo.unary main_v21 main_v22 (Host.exp : (⟨S16384x64, .f32⟩ : BufTy).Contents (Elt F) → (⟨S16384x64, .f32⟩ : BufTy).Contents (Elt F)),
    StableHlo.nullary main_cst_1 (constant S_ .f32 0x00000000#32),
    StableHlo.binary main_v22 main_cst_1 main_v23 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v23 main_v24 (broadcastInDim S16384x1 ![0] bcast_S16384_S16384x1_0 : (⟨S16384, .f32⟩ : BufTy).Contents (Elt F) → (⟨S16384x1, .f32⟩ : BufTy).Contents (Elt F)),
    StableHlo.unary main_v24 main_v25 (broadcastInDim S16384x64 ![0, 1] bcast_S16384x1_S16384x64_0_1 : (⟨S16384x1, .f32⟩ : BufTy).Contents (Elt F) → (⟨S16384x64, .f32⟩ : BufTy).Contents (Elt F)),
    StableHlo.binary main_v22 main_v25 main_v26 (Host.divf : (⟨S16384x64, .f32⟩ : BufTy).Contents (Elt F) → (⟨S16384x64, .f32⟩ : BufTy).Contents (Elt F) → (⟨S16384x64, .f32⟩ : BufTy).Contents (Elt F)),
    StableHlo.binary main_v6 main_v26 main_v27 (mulf : (⟨S16384x64, .f32⟩ : BufTy).Contents (Elt F) → (⟨S16384x64, .f32⟩ : BufTy).Contents (Elt F) → (⟨S16384x64, .f32⟩ : BufTy).Contents (Elt F)),
    StableHlo.binary main_v27 main_v7 main_v28 (addf : (⟨S16384x64, .f32⟩ : BufTy).Contents (Elt F) → (⟨S16384x64, .f32⟩ : BufTy).Contents (Elt F) → (⟨S16384x64, .f32⟩ : BufTy).Contents (Elt F)),
    StableHlo.binary main_v28 main_v8 main_v29 (subf : (⟨S16384x64, .f32⟩ : BufTy).Contents (Elt F) → (⟨S16384x64, .f32⟩ : BufTy).Contents (Elt F) → (⟨S16384x64, .f32⟩ : BufTy).Contents (Elt F)),
    StableHlo.TRef.binary (.of main_v29 : StableHlo.TRef sig ⟨S16384x64, .f32⟩) (.of main_v29 : StableHlo.TRef sig ⟨S16384x64, .f32⟩) main_call3.v0 mulf,
    StableHlo.TRef.nullary main_call3.cst (constant S_ .f32 0x00000000#32),
    StableHlo.TRef.binary main_call3.v0 main_call3.cst main_call3.v1 (fun x v => Host.reduceAdd x v reducesTo_S16384x64_S16384_d1 h_S_),
    StableHlo.TRef.unary main_call3.v1 main_call3.v2 Host.sqrt,
    StableHlo.unary main_v30 main_v31 (Host.negf : (⟨S16384, .f32⟩ : BufTy).Contents (Elt F) → (⟨S16384, .f32⟩ : BufTy).Contents (Elt F)) ]

/-- The negative triplets' three columns. -/
def opsA1 : List (HloOp τ sig (Elt F)) :=
  [ StableHlo.unary main_arg1 main_v32 ((extractStridedSlice S16384x1 ![0, 0] · slices_S16384x3_S16384x1_0_0) : (⟨S16384x3, .i32⟩ : BufTy).Contents (Elt F) → (⟨S16384x1, .i32⟩ : BufTy).Contents (Elt F)),
    StableHlo.reshape main_v32 main_v33 rfl shapeCasts_S16384x1_S16384,
    StableHlo.unary main_arg1 main_v34 ((extractStridedSlice S16384x1 ![0, 1] · slices_S16384x3_S16384x1_0_1) : (⟨S16384x3, .i32⟩ : BufTy).Contents (Elt F) → (⟨S16384x1, .i32⟩ : BufTy).Contents (Elt F)),
    StableHlo.reshape main_v34 main_v35 rfl shapeCasts_S16384x1_S16384,
    StableHlo.unary main_arg1 main_v36 ((extractStridedSlice S16384x1 ![0, 2] · slices_S16384x3_S16384x1_0_2) : (⟨S16384x3, .i32⟩ : BufTy).Contents (Elt F) → (⟨S16384x1, .i32⟩ : BufTy).Contents (Elt F)),
    StableHlo.reshape main_v36 main_v37 rfl shapeCasts_S16384x1_S16384 ]

/-- The head rows of the negative triplets. -/
def opsT3 : List (HloOp τ sig (Elt F)) :=
  [ StableHlo.TRef.nullary main_call4.c (constantI S_ 32 0#32),
    StableHlo.TRef.unary main_call4.c main_call4.v0 (broadcastInDim S16384 ![] bcast_S_S16384),
    StableHlo.TRef.binary (.of main_v33 : StableHlo.TRef sig ⟨S16384, .i32⟩) main_call4.v0 main_call4.v1 (cmpi .slt),
    StableHlo.TRef.nullary main_call4.c_0 (constantI S_ 32 1000000#32),
    StableHlo.TRef.unary main_call4.c_0 main_call4.v2 (broadcastInDim S16384 ![] bcast_S_S16384),
    StableHlo.TRef.binary (.of main_v33 : StableHlo.TRef sig ⟨S16384, .i32⟩) main_call4.v2 main_call4.v3 addi,
    StableHlo.TRef.ternary main_call4.v1 main_call4.v3 (.of main_v33 : StableHlo.TRef sig ⟨S16384, .i32⟩) main_call4.call0.v0 select,
    StableHlo.TRef.unary main_call4.call0.v0 main_call4.v5 (broadcastInDim S16384x1 ![0] bcast_S16384_S16384x1_0),
    StableHlo.TRef.nullary main_call4.c_1 (constantI S1 32 999999#32),
    StableHlo.TRef.nullary main_call4.c_2 (constantI S_ 32 0#32),
    StableHlo.TRef.unary main_call4.c_2 main_call4.v6 (broadcastInDim S16384x1 ![] bcast_S_S16384x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S16384x1 ![0, 1] bcast_S1x1_S16384x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S16384x1_S16384_d1 h_S_),
    StableHlo.TRef.binary (.of main_arg2 : StableHlo.TRef sig ⟨S1000000x64, .f32⟩) main_call4.v5 main_call4.v13 (fun x i => Host.gather gather_S1000000x64_S16384x1_S16384x64_1_0_n_n_0_1_164 x i),
    StableHlo.TRef.unary main_call4.v12 main_call4.v14 (broadcastInDim S16384x64 ![0] bcast_S16384_S16384x64_0),
    StableHlo.TRef.nullary main_call4.cst (constant S_ .f32 0x7FC00000#32),
    StableHlo.TRef.unary main_call4.cst main_call4.v15 (broadcastInDim S16384x64 ![] bcast_S_S16384x64),
    StableHlo.TRef.ternary main_call4.v14 main_call4.v13 main_call4.v15 main_call4.v16 select ]

/-- Their relation rows. -/
def opsT4 : List (HloOp τ sig (Elt F)) :=
  [ StableHlo.TRef.nullary main_call5.c (constantI S_ 32 0#32),
    StableHlo.TRef.unary main_call5.c main_call5.v0 (broadcastInDim S16384 ![] bcast_S_S16384),
    StableHlo.TRef.binary (.of main_v35 : StableHlo.TRef sig ⟨S16384, .i32⟩) main_call5.v0 main_call5.v1 (cmpi .slt),
    StableHlo.TRef.nullary main_call5.c_0 (constantI S_ 32 100000#32),
    StableHlo.TRef.unary main_call5.c_0 main_call5.v2 (broadcastInDim S16384 ![] bcast_S_S16384),
    StableHlo.TRef.binary (.of main_v35 : StableHlo.TRef sig ⟨S16384, .i32⟩) main_call5.v2 main_call5.v3 addi,
    StableHlo.TRef.ternary main_call5.v1 main_call5.v3 (.of main_v35 : StableHlo.TRef sig ⟨S16384, .i32⟩) main_call5.call0.v0 select,
    StableHlo.TRef.unary main_call5.call0.v0 main_call5.v5 (broadcastInDim S16384x1 ![0] bcast_S16384_S16384x1_0),
    StableHlo.TRef.nullary main_call5.c_1 (constantI S1 32 99999#32),
    StableHlo.TRef.nullary main_call5.c_2 (constantI S_ 32 0#32),
    StableHlo.TRef.unary main_call5.c_2 main_call5.v6 (broadcastInDim S16384x1 ![] bcast_S_S16384x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S16384x1 ![0, 1] bcast_S1x1_S16384x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S16384x1_S16384_d1 h_S_),
    StableHlo.TRef.binary (.of main_arg3 : StableHlo.TRef sig ⟨S100000x64, .f32⟩) main_call5.v5 main_call5.v13 (fun x i => Host.gather gather_S100000x64_S16384x1_S16384x64_1_0_n_n_0_1_164 x i),
    StableHlo.TRef.unary main_call5.v12 main_call5.v14 (broadcastInDim S16384x64 ![0] bcast_S16384_S16384x64_0),
    StableHlo.TRef.nullary main_call5.cst (constant S_ .f32 0x7FC00000#32),
    StableHlo.TRef.unary main_call5.cst main_call5.v15 (broadcastInDim S16384x64 ![] bcast_S_S16384x64),
    StableHlo.TRef.ternary main_call5.v14 main_call5.v13 main_call5.v15 main_call5.v16 select ]

/-- Their tail rows. -/
def opsT5 : List (HloOp τ sig (Elt F)) :=
  [ StableHlo.TRef.nullary main_call6.c (constantI S_ 32 0#32),
    StableHlo.TRef.unary main_call6.c main_call6.v0 (broadcastInDim S16384 ![] bcast_S_S16384),
    StableHlo.TRef.binary (.of main_v37 : StableHlo.TRef sig ⟨S16384, .i32⟩) main_call6.v0 main_call6.v1 (cmpi .slt),
    StableHlo.TRef.nullary main_call6.c_0 (constantI S_ 32 1000000#32),
    StableHlo.TRef.unary main_call6.c_0 main_call6.v2 (broadcastInDim S16384 ![] bcast_S_S16384),
    StableHlo.TRef.binary (.of main_v37 : StableHlo.TRef sig ⟨S16384, .i32⟩) main_call6.v2 main_call6.v3 addi,
    StableHlo.TRef.ternary main_call6.v1 main_call6.v3 (.of main_v37 : StableHlo.TRef sig ⟨S16384, .i32⟩) main_call6.call0.v0 select,
    StableHlo.TRef.unary main_call6.call0.v0 main_call6.v5 (broadcastInDim S16384x1 ![0] bcast_S16384_S16384x1_0),
    StableHlo.TRef.nullary main_call6.c_1 (constantI S1 32 999999#32),
    StableHlo.TRef.nullary main_call6.c_2 (constantI S_ 32 0#32),
    StableHlo.TRef.unary main_call6.c_2 main_call6.v6 (broadcastInDim S16384x1 ![] bcast_S_S16384x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S16384x1 ![0, 1] bcast_S1x1_S16384x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S16384x1_S16384_d1 h_S_),
    StableHlo.TRef.binary (.of main_arg2 : StableHlo.TRef sig ⟨S1000000x64, .f32⟩) main_call6.v5 main_call6.v13 (fun x i => Host.gather gather_S1000000x64_S16384x1_S16384x64_1_0_n_n_0_1_164 x i),
    StableHlo.TRef.unary main_call6.v12 main_call6.v14 (broadcastInDim S16384x64 ![0] bcast_S16384_S16384x64_0),
    StableHlo.TRef.nullary main_call6.cst (constant S_ .f32 0x7FC00000#32),
    StableHlo.TRef.unary main_call6.cst main_call6.v15 (broadcastInDim S16384x64 ![] bcast_S_S16384x64),
    StableHlo.TRef.ternary main_call6.v14 main_call6.v13 main_call6.v15 main_call6.v16 select ]

/-- The negative triplets' scores from their rows. -/
def opsS1 : List (HloOp τ sig (Elt F)) :=
  [ StableHlo.unary main_arg4 main_v41 (broadcastInDim S16384x64 ![1] bcast_S64_S16384x64_1 : (⟨S64, .f32⟩ : BufTy).Contents (Elt F) → (⟨S16384x64, .f32⟩ : BufTy).Contents (Elt F)),
    StableHlo.nary ![main_v38, main_v39, main_v41] main_v42 (fun u => concatenate S16384x192 1 [⟨S16384x64, u 0⟩, ⟨S16384x64, u 1⟩, ⟨S16384x64, u 2⟩] concatenates_S16384x64_S16384x64_S16384x64_S16384x192_d1),
    StableHlo.unary main_arg5 main_v43 ((transpose S192x64 [1, 0] · transposes_S64x192_S192x64_1_0) : (⟨S64x192, .f32⟩ : BufTy).Contents (Elt F) → (⟨S192x64, .f32⟩ : BufTy).Contents (Elt F)),
    StableHlo.binary main_v42 main_v43 main_v44 ((fun l r => Host.dotGeneral dot_S16384x192_S192x64_S16384x64_1_0_0_1_n_n none l r) : (⟨S16384x192, .f32⟩ : BufTy).Contents (Elt F) → (⟨S192x64, .f32⟩ : BufTy).Contents (Elt F) → (⟨S16384x64, .f32⟩ : BufTy).Contents (Elt F)),
    StableHlo.unary main_arg6 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S16384x64 ![0, 1] bcast_S1x64_S16384x64_0_1 : (⟨S1x64, .f32⟩ : BufTy).Contents (Elt F) → (⟨S16384x64, .f32⟩ : BufTy).Contents (Elt F)),
    StableHlo.binary main_v44 main_v46 main_v47 (addf : (⟨S16384x64, .f32⟩ : BufTy).Contents (Elt F) → (⟨S16384x64, .f32⟩ : BufTy).Contents (Elt F) → (⟨S16384x64, .f32⟩ : BufTy).Contents (Elt F)),
    StableHlo.nullary main_cst_2 (constant S_ .f32 0xFF800000#32),
    StableHlo.binary main_v47 main_cst_2 main_v48 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.nullary main_cst_3 (constant S_ .f32 0xFF800000#32),
    StableHlo.unary main_cst_3 main_v49 (broadcastInDim S16384 ![] bcast_S_S16384 : (⟨S_, .f32⟩ : BufTy).Contents (Elt F) → (⟨S16384, .f32⟩ : BufTy).Contents (Elt F)),
    StableHlo.binary main_v49 main_v48 main_v50 (maximumf : (⟨S16384, .f32⟩ : BufTy).Contents (Elt F) → (⟨S16384, .f32⟩ : BufTy).Contents (Elt F) → (⟨S16384, .f32⟩ : BufTy).Contents (Elt F)),
    StableHlo.unary main_v50 main_v51 (broadcastInDim S16384x1 ![0] bcast_S16384_S16384x1_0 : (⟨S16384, .f32⟩ : BufTy).Contents (Elt F) → (⟨S16384x1, .f32⟩ : BufTy).Contents (Elt F)),
    StableHlo.unary main_v51 main_v52 (broadcastInDim S16384x64 ![0, 1] bcast_S16384x1_S16384x64_0_1 : (⟨S16384x1, .f32⟩ : BufTy).Contents (Elt F) → (⟨S16384x64, .f32⟩ : BufTy).Contents (Elt F)),
    StableHlo.binary main_v47 main_v52 main_v53 (subf : (⟨S16384x64, .f32⟩ : BufTy).Contents (Elt F) → (⟨S16384x64, .f32⟩ : BufTy).Contents (Elt F) → (⟨S16384x64, .f32⟩ : BufTy).Contents (Elt F)),
    StableHlo.unary main_v53 main_v54 (Host.exp : (⟨S16384x64, .f32⟩ : BufTy).Contents (Elt F) → (⟨S16384x64, .f32⟩ : BufTy).Contents (Elt F)),
    StableHlo.nullary main_cst_4 (constant S_ .f32 0x00000000#32),
    StableHlo.binary main_v54 main_cst_4 main_v55 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v55 main_v56 (broadcastInDim S16384x1 ![0] bcast_S16384_S16384x1_0 : (⟨S16384, .f32⟩ : BufTy).Contents (Elt F) → (⟨S16384x1, .f32⟩ : BufTy).Contents (Elt F)),
    StableHlo.unary main_v56 main_v57 (broadcastInDim S16384x64 ![0, 1] bcast_S16384x1_S16384x64_0_1 : (⟨S16384x1, .f32⟩ : BufTy).Contents (Elt F) → (⟨S16384x64, .f32⟩ : BufTy).Contents (Elt F)),
    StableHlo.binary main_v54 main_v57 main_v58 (Host.divf : (⟨S16384x64, .f32⟩ : BufTy).Contents (Elt F) → (⟨S16384x64, .f32⟩ : BufTy).Contents (Elt F) → (⟨S16384x64, .f32⟩ : BufTy).Contents (Elt F)),
    StableHlo.binary main_v38 main_v58 main_v59 (mulf : (⟨S16384x64, .f32⟩ : BufTy).Contents (Elt F) → (⟨S16384x64, .f32⟩ : BufTy).Contents (Elt F) → (⟨S16384x64, .f32⟩ : BufTy).Contents (Elt F)),
    StableHlo.binary main_v59 main_v39 main_v60 (addf : (⟨S16384x64, .f32⟩ : BufTy).Contents (Elt F) → (⟨S16384x64, .f32⟩ : BufTy).Contents (Elt F) → (⟨S16384x64, .f32⟩ : BufTy).Contents (Elt F)),
    StableHlo.binary main_v60 main_v40 main_v61 (subf : (⟨S16384x64, .f32⟩ : BufTy).Contents (Elt F) → (⟨S16384x64, .f32⟩ : BufTy).Contents (Elt F) → (⟨S16384x64, .f32⟩ : BufTy).Contents (Elt F)),
    StableHlo.TRef.binary (.of main_v61 : StableHlo.TRef sig ⟨S16384x64, .f32⟩) (.of main_v61 : StableHlo.TRef sig ⟨S16384x64, .f32⟩) main_call7.v0 mulf,
    StableHlo.TRef.nullary main_call7.cst (constant S_ .f32 0x00000000#32),
    StableHlo.TRef.binary main_call7.v0 main_call7.cst main_call7.v1 (fun x v => Host.reduceAdd x v reducesTo_S16384x64_S16384_d1 h_S_),
    StableHlo.TRef.unary main_call7.v1 main_call7.v2 Host.sqrt,
    StableHlo.unary main_v62 main_v63 (Host.negf : (⟨S16384, .f32⟩ : BufTy).Contents (Elt F) → (⟨S16384, .f32⟩ : BufTy).Contents (Elt F)) ]

/-- The margin loss of the two score vectors. -/
def opsFn : List (HloOp τ sig (Elt F)) :=
  [ StableHlo.binary main_v63 main_v31 main_v64 (subf : (⟨S16384, .f32⟩ : BufTy).Contents (Elt F) → (⟨S16384, .f32⟩ : BufTy).Contents (Elt F) → (⟨S16384, .f32⟩ : BufTy).Contents (Elt F)),
    StableHlo.nullary main_cst_5 (constant S_ .f32 0x3F800000#32),
    StableHlo.unary main_cst_5 main_v65 (broadcastInDim S16384 ![] bcast_S_S16384 : (⟨S_, .f32⟩ : BufTy).Contents (Elt F) → (⟨S16384, .f32⟩ : BufTy).Contents (Elt F)),
    StableHlo.binary main_v64 main_v65 main_v66 (addf : (⟨S16384, .f32⟩ : BufTy).Contents (Elt F) → (⟨S16384, .f32⟩ : BufTy).Contents (Elt F) → (⟨S16384, .f32⟩ : BufTy).Contents (Elt F)),
    StableHlo.nullary main_cst_6 (constant S_ .f32 0x00000000#32),
    StableHlo.unary main_cst_6 main_v67 (broadcastInDim S16384 ![] bcast_S_S16384 : (⟨S_, .f32⟩ : BufTy).Contents (Elt F) → (⟨S16384, .f32⟩ : BufTy).Contents (Elt F)),
    StableHlo.binary main_v67 main_v66 main_v68 (maximumf : (⟨S16384, .f32⟩ : BufTy).Contents (Elt F) → (⟨S16384, .f32⟩ : BufTy).Contents (Elt F) → (⟨S16384, .f32⟩ : BufTy).Contents (Elt F)),
    StableHlo.nullary main_cst_7 (constant S_ .f32 0x00000000#32),
    StableHlo.binary main_v68 main_cst_7 main_v69 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_8 (constant S_ .f32 0x46800000#32),
    StableHlo.binary main_v69 main_cst_8 main_v70 (Host.divf : (⟨S_, .f32⟩ : BufTy).Contents (Elt F) → (⟨S_, .f32⟩ : BufTy).Contents (Elt F) → (⟨S_, .f32⟩ : BufTy).Contents (Elt F)) ]

/-- The line is the stretches in order. -/
theorem ops_split : (ops : List (HloOp τ sig (Elt F))) = opsA0 ++ opsT0 ++ opsT1 ++ opsT2 ++ opsS0 ++ opsA1 ++ opsT3 ++ opsT4 ++ opsT5 ++ opsS1 ++ opsFn := rfl

/-- A three-operand operation's result with each operand's contents at its own reference (the concatenation of the head
    rows, the relation rows and the spread hyperplane), so that the fold goes on rewriting under it. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The fold at one buffer in one pass: each operation's result at its own buffer is its function's value, at any other
    buffer what was there. -/
macro "after_results_simp3" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## What each stretch computes -/

theorem A0_v1 (V : Valuation τ sig (Elt F)) :
    after opsA0 V (main_v1 : DevRef τ sig) = col0 (V (main_arg0 : DevRef τ sig)) := by
  unfold opsA0; after_results_simp3; rfl
theorem A0_v3 (V : Valuation τ sig (Elt F)) :
    after opsA0 V (main_v3 : DevRef τ sig) = col1 (V (main_arg0 : DevRef τ sig)) := by
  unfold opsA0; after_results_simp3; rfl
theorem A0_v5 (V : Valuation τ sig (Elt F)) :
    after opsA0 V (main_v5 : DevRef τ sig) = col2 (V (main_arg0 : DevRef τ sig)) := by
  unfold opsA0; after_results_simp3; rfl
theorem T0_v6 (V : Valuation τ sig (Elt F)) :
    after opsT0 V (main_v6 : DevRef τ sig) = takeE (V (main_arg2 : DevRef τ sig)) (V (main_v1 : DevRef τ sig)) := by
  unfold opsT0; after_results_simp3; rfl
theorem T1_v7 (V : Valuation τ sig (Elt F)) :
    after opsT1 V (main_v7 : DevRef τ sig) = takeR (V (main_arg3 : DevRef τ sig)) (V (main_v3 : DevRef τ sig)) := by
  unfold opsT1; after_results_simp3; rfl
theorem T2_v8 (V : Valuation τ sig (Elt F)) :
    after opsT2 V (main_v8 : DevRef τ sig) = takeE (V (main_arg2 : DevRef τ sig)) (V (main_v5 : DevRef τ sig)) := by
  unfold opsT2; after_results_simp3; rfl
theorem S0_v31 (V : Valuation τ sig (Elt F)) :
    after opsS0 V (main_v31 : DevRef τ sig) = dist (V (main_v6 : DevRef τ sig)) (V (main_v7 : DevRef τ sig)) (V (main_v8 : DevRef τ sig)) (V (main_arg4 : DevRef τ sig)) (V (main_arg5 : DevRef τ sig)) (V (main_arg6 : DevRef τ sig)) := by
  unfold opsS0; after_results_simp3; rfl
theorem A1_v33 (V : Valuation τ sig (Elt F)) :
    after opsA1 V (main_v33 : DevRef τ sig) = col0 (V (main_arg1 : DevRef τ sig)) := by
  unfold opsA1; after_results_simp3; rfl
theorem A1_v35 (V : Valuation τ sig (Elt F)) :
    after opsA1 V (main_v35 : DevRef τ sig) = col1 (V (main_arg1 : DevRef τ sig)) := by
  unfold opsA1; after_results_simp3; rfl
theorem A1_v37 (V : Valuation τ sig (Elt F)) :
    after opsA1 V (main_v37 : DevRef τ sig) = col2 (V (main_arg1 : DevRef τ sig)) := by
  unfold opsA1; after_results_simp3; rfl
theorem T3_v38 (V : Valuation τ sig (Elt F)) :
    after opsT3 V (main_v38 : DevRef τ sig) = takeE (V (main_arg2 : DevRef τ sig)) (V (main_v33 : DevRef τ sig)) := by
  unfold opsT3; after_results_simp3; rfl
theorem T4_v39 (V : Valuation τ sig (Elt F)) :
    after opsT4 V (main_v39 : DevRef τ sig) = takeR (V (main_arg3 : DevRef τ sig)) (V (main_v35 : DevRef τ sig)) := by
  unfold opsT4; after_results_simp3; rfl
theorem T5_v40 (V : Valuation τ sig (Elt F)) :
    after opsT5 V (main_v40 : DevRef τ sig) = takeE (V (main_arg2 : DevRef τ sig)) (V (main_v37 : DevRef τ sig)) := by
  unfold opsT5; after_results_simp3; rfl
theorem S1_v63 (V : Valuation τ sig (Elt F)) :
    after opsS1 V (main_v63 : DevRef τ sig) = dist (V (main_v38 : DevRef τ sig)) (V (main_v39 : DevRef τ sig)) (V (main_v40 : DevRef τ sig)) (V (main_arg4 : DevRef τ sig)) (V (main_arg5 : DevRef τ sig)) (V (main_arg6 : DevRef τ sig)) := by
  unfold opsS1; after_results_simp3; rfl
theorem Fn_v70 (V : Valuation τ sig (Elt F)) :
    after opsFn V (main_v70 : DevRef τ sig) = loss (V (main_v31 : DevRef τ sig)) (V (main_v63 : DevRef τ sig)) := by
  unfold opsFn; after_results_simp3; rfl

/-! ## What each stretch leaves alone, of the buffers a later stretch reads -/

theorem A0_keep_arg1 (V : Valuation τ sig (Elt F)) :
    after opsA0 V (main_arg1 : DevRef τ sig) = V (main_arg1 : DevRef τ sig) := by
  unfold opsA0; after_results_simp3
theorem A0_keep_arg2 (V : Valuation τ sig (Elt F)) :
    after opsA0 V (main_arg2 : DevRef τ sig) = V (main_arg2 : DevRef τ sig) := by
  unfold opsA0; after_results_simp3
theorem A0_keep_arg3 (V : Valuation τ sig (Elt F)) :
    after opsA0 V (main_arg3 : DevRef τ sig) = V (main_arg3 : DevRef τ sig) := by
  unfold opsA0; after_results_simp3
theorem A0_keep_arg4 (V : Valuation τ sig (Elt F)) :
    after opsA0 V (main_arg4 : DevRef τ sig) = V (main_arg4 : DevRef τ sig) := by
  unfold opsA0; after_results_simp3
theorem A0_keep_arg5 (V : Valuation τ sig (Elt F)) :
    after opsA0 V (main_arg5 : DevRef τ sig) = V (main_arg5 : DevRef τ sig) := by
  unfold opsA0; after_results_simp3
theorem A0_keep_arg6 (V : Valuation τ sig (Elt F)) :
    after opsA0 V (main_arg6 : DevRef τ sig) = V (main_arg6 : DevRef τ sig) := by
  unfold opsA0; after_results_simp3
theorem T0_keep_v3 (V : Valuation τ sig (Elt F)) :
    after opsT0 V (main_v3 : DevRef τ sig) = V (main_v3 : DevRef τ sig) := by
  unfold opsT0; after_results_simp3
theorem T0_keep_v5 (V : Valuation τ sig (Elt F)) :
    after opsT0 V (main_v5 : DevRef τ sig) = V (main_v5 : DevRef τ sig) := by
  unfold opsT0; after_results_simp3
theorem T0_keep_arg1 (V : Valuation τ sig (Elt F)) :
    after opsT0 V (main_arg1 : DevRef τ sig) = V (main_arg1 : DevRef τ sig) := by
  unfold opsT0; after_results_simp3
theorem T0_keep_arg2 (V : Valuation τ sig (Elt F)) :
    after opsT0 V (main_arg2 : DevRef τ sig) = V (main_arg2 : DevRef τ sig) := by
  unfold opsT0; after_results_simp3
theorem T0_keep_arg3 (V : Valuation τ sig (Elt F)) :
    after opsT0 V (main_arg3 : DevRef τ sig) = V (main_arg3 : DevRef τ sig) := by
  unfold opsT0; after_results_simp3
theorem T0_keep_arg4 (V : Valuation τ sig (Elt F)) :
    after opsT0 V (main_arg4 : DevRef τ sig) = V (main_arg4 : DevRef τ sig) := by
  unfold opsT0; after_results_simp3
theorem T0_keep_arg5 (V : Valuation τ sig (Elt F)) :
    after opsT0 V (main_arg5 : DevRef τ sig) = V (main_arg5 : DevRef τ sig) := by
  unfold opsT0; after_results_simp3
theorem T0_keep_arg6 (V : Valuation τ sig (Elt F)) :
    after opsT0 V (main_arg6 : DevRef τ sig) = V (main_arg6 : DevRef τ sig) := by
  unfold opsT0; after_results_simp3
theorem T1_keep_v5 (V : Valuation τ sig (Elt F)) :
    after opsT1 V (main_v5 : DevRef τ sig) = V (main_v5 : DevRef τ sig) := by
  unfold opsT1; after_results_simp3
theorem T1_keep_v6 (V : Valuation τ sig (Elt F)) :
    after opsT1 V (main_v6 : DevRef τ sig) = V (main_v6 : DevRef τ sig) := by
  unfold opsT1; after_results_simp3
theorem T1_keep_arg1 (V : Valuation τ sig (Elt F)) :
    after opsT1 V (main_arg1 : DevRef τ sig) = V (main_arg1 : DevRef τ sig) := by
  unfold opsT1; after_results_simp3
theorem T1_keep_arg2 (V : Valuation τ sig (Elt F)) :
    after opsT1 V (main_arg2 : DevRef τ sig) = V (main_arg2 : DevRef τ sig) := by
  unfold opsT1; after_results_simp3
theorem T1_keep_arg3 (V : Valuation τ sig (Elt F)) :
    after opsT1 V (main_arg3 : DevRef τ sig) = V (main_arg3 : DevRef τ sig) := by
  unfold opsT1; after_results_simp3
theorem T1_keep_arg4 (V : Valuation τ sig (Elt F)) :
    after opsT1 V (main_arg4 : DevRef τ sig) = V (main_arg4 : DevRef τ sig) := by
  unfold opsT1; after_results_simp3
theorem T1_keep_arg5 (V : Valuation τ sig (Elt F)) :
    after opsT1 V (main_arg5 : DevRef τ sig) = V (main_arg5 : DevRef τ sig) := by
  unfold opsT1; after_results_simp3
theorem T1_keep_arg6 (V : Valuation τ sig (Elt F)) :
    after opsT1 V (main_arg6 : DevRef τ sig) = V (main_arg6 : DevRef τ sig) := by
  unfold opsT1; after_results_simp3
theorem T2_keep_v6 (V : Valuation τ sig (Elt F)) :
    after opsT2 V (main_v6 : DevRef τ sig) = V (main_v6 : DevRef τ sig) := by
  unfold opsT2; after_results_simp3
theorem T2_keep_v7 (V : Valuation τ sig (Elt F)) :
    after opsT2 V (main_v7 : DevRef τ sig) = V (main_v7 : DevRef τ sig) := by
  unfold opsT2; after_results_simp3
theorem T2_keep_arg1 (V : Valuation τ sig (Elt F)) :
    after opsT2 V (main_arg1 : DevRef τ sig) = V (main_arg1 : DevRef τ sig) := by
  unfold opsT2; after_results_simp3
theorem T2_keep_arg2 (V : Valuation τ sig (Elt F)) :
    after opsT2 V (main_arg2 : DevRef τ sig) = V (main_arg2 : DevRef τ sig) := by
  unfold opsT2; after_results_simp3
theorem T2_keep_arg3 (V : Valuation τ sig (Elt F)) :
    after opsT2 V (main_arg3 : DevRef τ sig) = V (main_arg3 : DevRef τ sig) := by
  unfold opsT2; after_results_simp3
theorem T2_keep_arg4 (V : Valuation τ sig (Elt F)) :
    after opsT2 V (main_arg4 : DevRef τ sig) = V (main_arg4 : DevRef τ sig) := by
  unfold opsT2; after_results_simp3
theorem T2_keep_arg5 (V : Valuation τ sig (Elt F)) :
    after opsT2 V (main_arg5 : DevRef τ sig) = V (main_arg5 : DevRef τ sig) := by
  unfold opsT2; after_results_simp3
theorem T2_keep_arg6 (V : Valuation τ sig (Elt F)) :
    after opsT2 V (main_arg6 : DevRef τ sig) = V (main_arg6 : DevRef τ sig) := by
  unfold opsT2; after_results_simp3
theorem S0_keep_arg1 (V : Valuation τ sig (Elt F)) :
    after opsS0 V (main_arg1 : DevRef τ sig) = V (main_arg1 : DevRef τ sig) := by
  unfold opsS0; after_results_simp3
theorem S0_keep_arg2 (V : Valuation τ sig (Elt F)) :
    after opsS0 V (main_arg2 : DevRef τ sig) = V (main_arg2 : DevRef τ sig) := by
  unfold opsS0; after_results_simp3
theorem S0_keep_arg3 (V : Valuation τ sig (Elt F)) :
    after opsS0 V (main_arg3 : DevRef τ sig) = V (main_arg3 : DevRef τ sig) := by
  unfold opsS0; after_results_simp3
theorem S0_keep_arg4 (V : Valuation τ sig (Elt F)) :
    after opsS0 V (main_arg4 : DevRef τ sig) = V (main_arg4 : DevRef τ sig) := by
  unfold opsS0; after_results_simp3
theorem S0_keep_arg5 (V : Valuation τ sig (Elt F)) :
    after opsS0 V (main_arg5 : DevRef τ sig) = V (main_arg5 : DevRef τ sig) := by
  unfold opsS0; after_results_simp3
theorem S0_keep_arg6 (V : Valuation τ sig (Elt F)) :
    after opsS0 V (main_arg6 : DevRef τ sig) = V (main_arg6 : DevRef τ sig) := by
  unfold opsS0; after_results_simp3
theorem A1_keep_v31 (V : Valuation τ sig (Elt F)) :
    after opsA1 V (main_v31 : DevRef τ sig) = V (main_v31 : DevRef τ sig) := by
  unfold opsA1; after_results_simp3
theorem A1_keep_arg2 (V : Valuation τ sig (Elt F)) :
    after opsA1 V (main_arg2 : DevRef τ sig) = V (main_arg2 : DevRef τ sig) := by
  unfold opsA1; after_results_simp3
theorem A1_keep_arg3 (V : Valuation τ sig (Elt F)) :
    after opsA1 V (main_arg3 : DevRef τ sig) = V (main_arg3 : DevRef τ sig) := by
  unfold opsA1; after_results_simp3
theorem A1_keep_arg4 (V : Valuation τ sig (Elt F)) :
    after opsA1 V (main_arg4 : DevRef τ sig) = V (main_arg4 : DevRef τ sig) := by
  unfold opsA1; after_results_simp3
theorem A1_keep_arg5 (V : Valuation τ sig (Elt F)) :
    after opsA1 V (main_arg5 : DevRef τ sig) = V (main_arg5 : DevRef τ sig) := by
  unfold opsA1; after_results_simp3
theorem A1_keep_arg6 (V : Valuation τ sig (Elt F)) :
    after opsA1 V (main_arg6 : DevRef τ sig) = V (main_arg6 : DevRef τ sig) := by
  unfold opsA1; after_results_simp3
theorem T3_keep_v31 (V : Valuation τ sig (Elt F)) :
    after opsT3 V (main_v31 : DevRef τ sig) = V (main_v31 : DevRef τ sig) := by
  unfold opsT3; after_results_simp3
theorem T3_keep_v35 (V : Valuation τ sig (Elt F)) :
    after opsT3 V (main_v35 : DevRef τ sig) = V (main_v35 : DevRef τ sig) := by
  unfold opsT3; after_results_simp3
theorem T3_keep_v37 (V : Valuation τ sig (Elt F)) :
    after opsT3 V (main_v37 : DevRef τ sig) = V (main_v37 : DevRef τ sig) := by
  unfold opsT3; after_results_simp3
theorem T3_keep_arg2 (V : Valuation τ sig (Elt F)) :
    after opsT3 V (main_arg2 : DevRef τ sig) = V (main_arg2 : DevRef τ sig) := by
  unfold opsT3; after_results_simp3
theorem T3_keep_arg3 (V : Valuation τ sig (Elt F)) :
    after opsT3 V (main_arg3 : DevRef τ sig) = V (main_arg3 : DevRef τ sig) := by
  unfold opsT3; after_results_simp3
theorem T3_keep_arg4 (V : Valuation τ sig (Elt F)) :
    after opsT3 V (main_arg4 : DevRef τ sig) = V (main_arg4 : DevRef τ sig) := by
  unfold opsT3; after_results_simp3
theorem T3_keep_arg5 (V : Valuation τ sig (Elt F)) :
    after opsT3 V (main_arg5 : DevRef τ sig) = V (main_arg5 : DevRef τ sig) := by
  unfold opsT3; after_results_simp3
theorem T3_keep_arg6 (V : Valuation τ sig (Elt F)) :
    after opsT3 V (main_arg6 : DevRef τ sig) = V (main_arg6 : DevRef τ sig) := by
  unfold opsT3; after_results_simp3
theorem T4_keep_v31 (V : Valuation τ sig (Elt F)) :
    after opsT4 V (main_v31 : DevRef τ sig) = V (main_v31 : DevRef τ sig) := by
  unfold opsT4; after_results_simp3
theorem T4_keep_v37 (V : Valuation τ sig (Elt F)) :
    after opsT4 V (main_v37 : DevRef τ sig) = V (main_v37 : DevRef τ sig) := by
  unfold opsT4; after_results_simp3
theorem T4_keep_v38 (V : Valuation τ sig (Elt F)) :
    after opsT4 V (main_v38 : DevRef τ sig) = V (main_v38 : DevRef τ sig) := by
  unfold opsT4; after_results_simp3
theorem T4_keep_arg2 (V : Valuation τ sig (Elt F)) :
    after opsT4 V (main_arg2 : DevRef τ sig) = V (main_arg2 : DevRef τ sig) := by
  unfold opsT4; after_results_simp3
theorem T4_keep_arg4 (V : Valuation τ sig (Elt F)) :
    after opsT4 V (main_arg4 : DevRef τ sig) = V (main_arg4 : DevRef τ sig) := by
  unfold opsT4; after_results_simp3
theorem T4_keep_arg5 (V : Valuation τ sig (Elt F)) :
    after opsT4 V (main_arg5 : DevRef τ sig) = V (main_arg5 : DevRef τ sig) := by
  unfold opsT4; after_results_simp3
theorem T4_keep_arg6 (V : Valuation τ sig (Elt F)) :
    after opsT4 V (main_arg6 : DevRef τ sig) = V (main_arg6 : DevRef τ sig) := by
  unfold opsT4; after_results_simp3
theorem T5_keep_v31 (V : Valuation τ sig (Elt F)) :
    after opsT5 V (main_v31 : DevRef τ sig) = V (main_v31 : DevRef τ sig) := by
  unfold opsT5; after_results_simp3
theorem T5_keep_v38 (V : Valuation τ sig (Elt F)) :
    after opsT5 V (main_v38 : DevRef τ sig) = V (main_v38 : DevRef τ sig) := by
  unfold opsT5; after_results_simp3
theorem T5_keep_v39 (V : Valuation τ sig (Elt F)) :
    after opsT5 V (main_v39 : DevRef τ sig) = V (main_v39 : DevRef τ sig) := by
  unfold opsT5; after_results_simp3
theorem T5_keep_arg4 (V : Valuation τ sig (Elt F)) :
    after opsT5 V (main_arg4 : DevRef τ sig) = V (main_arg4 : DevRef τ sig) := by
  unfold opsT5; after_results_simp3
theorem T5_keep_arg5 (V : Valuation τ sig (Elt F)) :
    after opsT5 V (main_arg5 : DevRef τ sig) = V (main_arg5 : DevRef τ sig) := by
  unfold opsT5; after_results_simp3
theorem T5_keep_arg6 (V : Valuation τ sig (Elt F)) :
    after opsT5 V (main_arg6 : DevRef τ sig) = V (main_arg6 : DevRef τ sig) := by
  unfold opsT5; after_results_simp3
theorem S1_keep_v31 (V : Valuation τ sig (Elt F)) :
    after opsS1 V (main_v31 : DevRef τ sig) = V (main_v31 : DevRef τ sig) := by
  unfold opsS1; after_results_simp3

/-! ## The stretches composed -/

/-- After the whole line the result buffer holds `refVal` of the arguments' contents. -/
theorem val_eq (V : Valuation τ sig (Elt F)) :
    after ops V (main_v70 : DevRef τ sig) = refVal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  unfold refVal scores
  rw [ops_split]
  simp only [after_app]
  rw [Fn_v70, S1_keep_v31, S1_v63, T5_keep_v31, T5_keep_v38, T5_keep_v39, T5_v40, T5_keep_arg4, T5_keep_arg5,
    T5_keep_arg6, T4_keep_v31, T4_keep_v38, T4_v39, T4_keep_arg2, T4_keep_v37, T4_keep_arg4, T4_keep_arg5,
    T4_keep_arg6, T3_keep_v31, T3_v38, T3_keep_arg3, T3_keep_v35, T3_keep_arg2, T3_keep_v37, T3_keep_arg4,
    T3_keep_arg5, T3_keep_arg6, A1_keep_v31, A1_keep_arg2, A1_v33, A1_keep_arg3, A1_v35, A1_v37, A1_keep_arg4,
    A1_keep_arg5, A1_keep_arg6, S0_v31, S0_keep_arg2, S0_keep_arg1, S0_keep_arg3, S0_keep_arg4, S0_keep_arg5,
    S0_keep_arg6, T2_keep_v6, T2_keep_v7, T2_v8, T2_keep_arg4, T2_keep_arg5, T2_keep_arg6, T2_keep_arg2,
    T2_keep_arg1, T2_keep_arg3, T1_keep_v6, T1_v7, T1_keep_arg2, T1_keep_v5, T1_keep_arg4, T1_keep_arg5,
    T1_keep_arg6, T1_keep_arg1, T1_keep_arg3, T0_v6, T0_keep_arg3, T0_keep_v3, T0_keep_arg2, T0_keep_v5,
    T0_keep_arg4, T0_keep_arg5, T0_keep_arg6, T0_keep_arg1, A0_v1, A0_v3, A0_v5, A0_keep_arg2, A0_keep_arg3,
    A0_keep_arg4, A0_keep_arg5, A0_keep_arg6, A0_keep_arg1]

/-- Every weakly fair execution of the reference terminates with the result buffer at `refVal` of the seven argument
    arrays as launched, and those arrays unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v70) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (val_eq (launchContents m c)), (h c).2⟩) (run_fold m g)

end Cert.ReferenceIdeal.RefRun

end
-- ==== Proof.RefLoss.lean ====
/- The margin loss read as mathematics, at the ideal values: of two score vectors `p` (positive triplets) and `n`
   (negative triplets) it is the quotient by 16384 of the sum, from zero, over the 16384 triplets of
   `max 0 ((n i - p i) + 1)`. -/
import proofs.«203064_g33122787786777_cont_8to1_b_416_18_alg».proof.Proof.RefDefs
import Idealize.ShloMosaic.Lib.IdealHost

noncomputable section

namespace Cert.ReferenceIdeal.RefValue

open Cert.ReferenceIdeal Cert.ReferenceIdeal.Gen Cert.ReferenceIdeal.RefRun Idealize.ShloMosaic Idealize.ShloMosaic.ValueIdx
open scoped BigOperators

/-- A vector's index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The loss at its one index: the sum over the triplets of the clamped margins, from zero, over their number. -/
theorem loss_apply (p n : Vec Ideal S16384 .f32) :
    loss (F := Ideal) p n ix0
      = Ideal.div
          (Ideal.ofBits .f32 0x00000000#32
            + ∑ i : Fin 16384, max (Ideal.ofBits .f32 0x00000000#32)
                ((n (ix1 i) - p (ix1 i)) + Ideal.ofBits .f32 0x3F800000#32))
          (Ideal.ofBits .f32 0x46800000#32) := by
  unfold loss
  rw [hostDivf_apply, hostReduceAdd_apply, Ideal.hostReduceAdd_total reducesTo_S16384_S_d0 (fun b => b.elim0), sum_idx1]
  rfl

end Cert.ReferenceIdeal.RefValue

end
-- ==== Proof.RefRowDefs.lean ====
/- One triplet's score as the reference computes it, on the extended reals: from the head row `e`, the relation row `ρ`
   and the tail row `t` (64 entries each), the hyperplane `hp`, the 64 × 192 attention weights `W` and the bias `b`.
   The logits are one 192-wide sum over the concatenated row (head, relation, hyperplane) plus the bias; the
   attention weights the exponentials of the logits less their maximum (taken from `-∞`, and once more against `-∞`),
   over their sum from zero; the score minus the norm of `e · attention + ρ - t`, its sum of squares from zero. Every
   float literal stays the word the program spells. -/
import Idealize.ShloMosaic.PureOps.Ideal
import Idealize.ShloMosaic.PureOps.Ideal.Laws

noncomputable section

namespace Cert.ReferenceIdeal.RefRow

open Idealize.ShloMosaic
open scoped BigOperators

/-- The concatenated row at position `k` of 192: the head row, then the relation row, then the hyperplane. -/
def catRow (e ρ hp : Fin 64 → EReal) (k : Fin 192) : EReal :=
  if h : k.val < 64 then e ⟨k.val, h⟩
  else if h' : k.val < 128 then ρ ⟨k.val - 64, by omega⟩
  else hp ⟨k.val - 128, by have := k.isLt; omega⟩

/-- The logit `j`: the concatenated row against row `j` of the weights, plus the bias. -/
def refLogit (e ρ hp : Fin 64 → EReal) (W : Fin 64 → Fin 192 → EReal) (b : Fin 64 → EReal) (j : Fin 64) : EReal :=
  (∑ k : Fin 192, catRow e ρ hp k * W j k) + b j

/-- The exponential of a logit less the row's maximum. -/
def refShift (l : Fin 64 → EReal) (j : Fin 64) : EReal :=
  Ideal.exp (l j - max (Ideal.ofBits .f32 0xFF800000#32)
    ((Finset.univ : Finset (Fin 64)).fold max (Ideal.ofBits .f32 0xFF800000#32) l))

/-- The attention weight: that, over the row's sum of them from zero. -/
def refAttn (l : Fin 64 → EReal) (j : Fin 64) : EReal :=
  Ideal.div (refShift l j) (Ideal.ofBits .f32 0x00000000#32 + ∑ k : Fin 64, refShift l k)

/-- Entry `k` of the translation residue: the weighted head plus the relation less the tail. -/
def refDiff (e ρ t hp : Fin 64 → EReal) (W : Fin 64 → Fin 192 → EReal) (b : Fin 64 → EReal) (k : Fin 64) : EReal :=
  (e k * refAttn (refLogit e ρ hp W b) k + ρ k) - t k

/-- The triplet's score: minus the square root of the residue's sum of squares from zero. -/
def refScore (e ρ t hp : Fin 64 → EReal) (W : Fin 64 → Fin 192 → EReal) (b : Fin 64 → EReal) : EReal :=
  - Ideal.sqrt (Ideal.ofBits .f32 0x00000000#32 + ∑ k : Fin 64, refDiff e ρ t hp W b k * refDiff e ρ t hp W b k)

end Cert.ReferenceIdeal.RefRow

end
-- ==== Proof.LibLossAlg.lean ====
/-
  General identities on the extended reals and on finite sums used to join two spellings of a margin ranking loss
  over attention-weighted distances: a sum over a·b indices as a sums over b, the difference of two negations, and the
  quotient by a power of two against the product with its reciprocal, both given by their binary32 words.
-/
import Idealize.ShloMosaic.PureOps.Ideal
import Idealize.ShloMosaic.PureOps.Ideal.Laws
import Mathlib.Algebra.BigOperators.Fin
import Mathlib.Logic.Equiv.Fin.Basic

noncomputable section

namespace Cert.LibLossAlg

open Idealize.ShloMosaic

/-- A sum over `Fin (4 * n)` is the four sums over its consecutive blocks of n, added in block order. -/
theorem sum_four_blocks {M : Type*} [AddCommMonoid M] (n : ℕ) (f : Fin (4 * n) → M) :
    ∑ i, f i = ((∑ p : Fin n, f (finProdFinEquiv ((0 : Fin 4), p)) + ∑ p : Fin n, f (finProdFinEquiv ((1 : Fin 4), p)))
      + ∑ p : Fin n, f (finProdFinEquiv ((2 : Fin 4), p))) + ∑ p : Fin n, f (finProdFinEquiv ((3 : Fin 4), p)) := by
  rw [← finProdFinEquiv.sum_comp, Fintype.sum_prod_type, Fin.sum_univ_four]

/-- A sum over `Fin (3 * n)` is the three sums over its consecutive blocks of n. -/
theorem sum_three_blocks {M : Type*} [AddCommMonoid M] (n : ℕ) (f : Fin (3 * n) → M) :
    ∑ i, f i = (∑ p : Fin n, f (finProdFinEquiv ((0 : Fin 3), p)) + ∑ p : Fin n, f (finProdFinEquiv ((1 : Fin 3), p)))
      + ∑ p : Fin n, f (finProdFinEquiv ((2 : Fin 3), p)) := by
  rw [← finProdFinEquiv.sum_comp, Fintype.sum_prod_type, Fin.sum_univ_three]

/-- The index of block a, place p. -/
theorem finProdFinEquiv_val {a b : ℕ} (i : Fin a) (p : Fin b) : (finProdFinEquiv (i, p)).val = p.val + b * i.val := rfl

/-- On the extended reals, the difference of the negations is the difference the other way round. -/
theorem neg_sub_neg' (n p : EReal) : (-n) - (-p) = p - n := by
  rw [sub_eq_add_neg, neg_neg, add_comm, ← sub_eq_add_neg]

/-- The binary32 word 0x46800000 denotes 16384. -/
theorem ofBits_16384 : Ideal.ofBits .f32 0x46800000#32 = ((16384 : ℝ) : EReal) := by
  simp [Ideal.ofBits, Ideal.ieee, -EReal.coe_mul]; norm_num

/-- The binary32 word 0x38800000 denotes 1/16384. -/
theorem ofBits_inv_16384 : Ideal.ofBits .f32 0x38800000#32 = ((1 / 16384 : ℝ) : EReal) := by
  simp [Ideal.ofBits, Ideal.ieee, -EReal.coe_mul]; norm_num

/-- The quotient by 16384 is the product with 1/16384, on every extended real. -/
theorem div_16384 (x : EReal) :
    Ideal.div x (Ideal.ofBits .f32 0x46800000#32) = x * Ideal.ofBits .f32 0x38800000#32 := by
  rw [ofBits_16384, ofBits_inv_16384, Ideal.div_coe (by norm_num : (16384 : ℝ) ≠ 0)]

end Cert.LibLossAlg

end
-- ==== Proof.KernelValue.lean ====
/-
  The value of the dense region's result on the extended reals, row by row.

  The result is ((C₀ + C₁) + C₂ + C₃) · 2⁻¹⁴, C_t the contribution of grid point t: the sum over the 4096 rows of its
  blocks of max(0, pos − neg + 1), pos and neg the norms of the positive and of the negative triplet of the row. A
  triplet's norm, from its head row e, relation row ρ and tail row t (64 entries each), the two 64 × 64 weight blocks
  and the bias row: the logits l_j = (Σ_k e_k w1_kj + Σ_k ρ_k w2_kj) + cv_j; the attention weights a_j =
  exp(l_j − max l) / Σ_k exp(l_k − max l), the maximum taken from −∞; the residue d_j = (e_j a_j + ρ_j) − t_j; the norm
  sqrt(Σ_j d_j²). Each operation of the body's arithmetic is read at an index (a product with a weight block as a
  sum over the contracted coordinate, a row's maximum and sum as a fold and a sum over the row, a spread row or
  column as its one entry), the two norm computations are recognised as one block operation, and the four blocks
  of 4096 rows are joined into one sum over the 16384 rows. Every float literal stays the word the body spells.
-/
import proofs.«203064_g33122787786777_cont_8to1_b_416_18_alg».proof.Proof.Region2Val
import Idealize.ShloMosaic.PureOps.Ideal.Laws
import Idealize.ShloMosaic.Lib.Pipeline.Value
import Idealize.ShloMosaic.Lib.ValueIdx
import proofs.«203064_g33122787786777_cont_8to1_b_416_18_alg».proof.Proof.LibLossAlg

set_option maxRecDepth 16384

noncomputable section

namespace Cert.KernelIdeal.KernelValue

open Cert.KernelIdeal Cert.KernelIdeal.Gen Cert.KernelIdeal.Alg Cert.KernelIdeal.Region2
open Idealize.ShloMosaic Idealize.ShloMosaic.TcCoe
open Idealize.ShloMosaic.SparseCore.Cfg (HIx)
open Idealize.SL.Sem
open Idealize.ShloMosaic.ValueIdx

/-! ## The accumulation across the four points, at the extended reals -/

/-- The word the last point scales the sum by. -/
abbrev scaleW : EReal := Ideal.ofBits .f32 0x38800000#32

theorem pay1_at (v72 : FVec Ideal S1x1 .f32) (v76 : Vec Ideal S1x1 .f32) (i : S1x1.Idx) : k2_pay1 v72 v76 i = v76 i + v72 i := by
  unfold k2_pay1
  simp only [shapeCast_self]
  rfl

theorem pay2_at (v83 : Vec Ideal S1x1 .f32) (i : S1x1.Idx) : k2_pay2 v83 i = v83 i * scaleW := by
  unfold k2_pay2
  simp only [shapeCast_self]
  rfl

theorem pay7_at (i : S1x1.Idx) : (k2_pay7 (F := Ideal)) i = 0 := by
  unfold k2_pay7
  show (Ideal.ofBits .f32 0x00000000#32 : EReal) = 0
  exact Ideal.ofBits_zero_f32

section Acc
variable (x0 x1 x2 x3 x4 x5 : Vec Ideal S4096x128 .f32) (x6 x7 : Vec Ideal S64x64 .f32) (x8 : Vec Ideal S1x64 .f32)

theorem accA_at (i : S1x1.Idx) : accA x0 x1 x2 x3 x4 x5 x6 x7 x8 i = contrib2 x0 x1 x2 x3 x4 x5 x6 x7 x8 i := by
  unfold accA; rw [pay1_at, pay7_at, zero_add]
theorem accB_at (xo : Vec Ideal S1x1 .f32) (i : S1x1.Idx) :
    accB x0 x1 x2 x3 x4 x5 x6 x7 x8 xo i = xo i + contrib2 x0 x1 x2 x3 x4 x5 x6 x7 x8 i := by
  unfold accB; rw [pay1_at]
theorem accC_at (xo : Vec Ideal S1x1 .f32) (i : S1x1.Idx) :
    accC x0 x1 x2 x3 x4 x5 x6 x7 x8 xo i = (xo i + contrib2 x0 x1 x2 x3 x4 x5 x6 x7 x8 i) * scaleW := by
  unfold accC; rw [pay2_at, accB_at]
end Acc

section Fold
variable (V : (c : Dev nD) → (b : Ref sig .tc) → Buf (Elt Ideal) ((c : Thread nD τ).loc b))

/-- Point `t`'s contribution: the hinge sum over its 4096 rows. -/
def contribAt (c : Dev nD) (t : Fin cfg2.N) : EReal :=
  contrib2 (iblk2 V c 0 t) (iblk2 V c 1 t) (iblk2 V c 2 t) (iblk2 V c 3 t) (iblk2 V c 4 t) (iblk2 V c 5 t) (iblk2 V c 6 t) (iblk2 V c 7 t) (iblk2 V c 8 t) (ix2 0 0)

/-- The result is the four contributions added in point order, scaled. -/
theorem result2_fold (c : Dev nD) :
    result2 V c (ix2 0 0) = (((contribAt V c t2_0 + contribAt V c t2_1) + contribAt V c t2_2) + contribAt V c t2_3) * scaleW := by
  rw [result2_eq, accC_at, accB_at, accB_at, accA_at]
  rfl
end Fold

/-! ## The operations of a row block read at an index, at the extended reals -/

section Ops

/-- A row block times a 64 × 64 weight block, into zero: at (p, j) the sum over k of the row's entries by the
    block's column. -/
theorem matmul_at (a : FVec Ideal S4096x64 .f32) (w : FVec Ideal S64x64 .f32) (p : Fin 4096) (j : Fin 64) :
    matmul dot_S4096x64_S64x64_S4096x64_1_0_0_1_n_n none a w (constant S4096x64 .f32 0x00000000#32) (ix2 p j)
      = ∑ k : Fin 64, a (ix2 p k) * w (ix2 k j) := by
  show FloatOps.matmul _ none a w (constant S4096x64 .f32 0x00000000#32) (ix2 p j) = _
  rw [Ideal.matmul_constant_zero_apply,
    ← Equiv.sum_comp (contrEquiv1 dot_S4096x64_S64x64_S4096x64_1_0_0_1_n_n 64 rfl rfl).symm]
  refine Finset.sum_congr rfl fun c _ => ?_
  have c2 := contrEquiv1_symm_val dot_S4096x64_S64x64_S4096x64_1_0_0_1_n_n 64 rfl rfl c
  have l2 : dot_S4096x64_S64x64_S4096x64_1_0_0_1_n_n.lhsIdx (ix2 p j) ((contrEquiv1 _ 64 rfl rfl).symm c) = ix2 p c := by
    funext ax; apply Fin.ext
    match ax with
    | ⟨0, _⟩ => simp [DotDims.lhsIdx, dot_S4096x64_S64x64_S4096x64_1_0_0_1_n_n]; rfl
    | ⟨1, _⟩ => simp [DotDims.lhsIdx, dot_S4096x64_S64x64_S4096x64_1_0_0_1_n_n]; exact c2
  have r2 : dot_S4096x64_S64x64_S4096x64_1_0_0_1_n_n.rhsIdx (ix2 p j) ((contrEquiv1 _ 64 rfl rfl).symm c) = ix2 c j := by
    funext ax; apply Fin.ext
    match ax with
    | ⟨0, _⟩ => simp [DotDims.rhsIdx, dot_S4096x64_S64x64_S4096x64_1_0_0_1_n_n]; exact c2
    | ⟨1, _⟩ => simp [DotDims.rhsIdx, dot_S4096x64_S64x64_S4096x64_1_0_0_1_n_n]; rfl
  rw [l2, r2]

/-- The bias row spread over the rows: at (p, j) its entry j. -/
theorem spreadRow_at (c : FVec Ideal S1x64 .f32) (p : Fin 4096) (j : Fin 64) :
    broadcastTo S4096x64 c broadcasts_S1x64_S4096x64 (ix2 p j) = c (ix2 0 j) := by
  refine broadcastTo_apply c _ (ix2 p j) (ix2 0 j) fun a => ?_
  match a with
  | ⟨0, _⟩ => rfl
  | ⟨1, _⟩ => rfl

/-- A column spread over the columns: at (p, j) its entry p. -/
theorem spreadCol_at (c : FVec Ideal S4096x1 .f32) (p : Fin 4096) (j : Fin 64) :
    broadcastTo S4096x64 c broadcasts_S4096x1_S4096x64 (ix2 p j) = c (ix2 p 0) := by
  refine broadcastTo_apply c _ (ix2 p j) (ix2 p 0) fun a => ?_
  match a with
  | ⟨0, _⟩ => rfl
  | ⟨1, _⟩ => rfl

/-- A vector of 4096 entries as a column: at (p, 0) its entry p. -/
theorem asCol_at (v : FVec Ideal S4096 .f32) (p : Fin 4096) :
    shapeCast S4096x1 v shapeCasts_S4096_S4096x1 (ix2 p 0) = v (ix1 p) := by
  refine shapeCast_apply v _ (ix2 p 0) (ix1 p) ?_
  rw [Shape.rowMajor_val_one, Shape.rowMajor_val_two]
  show p.val = p.val * 1 + 0
  omega

/-- Each row's maximum, as a column: at (p, 0) the maximum over the row's 64 entries, from the word's value. -/
theorem rowMax_at (x : FVec Ideal S4096x64 .f32) (p : Fin 4096) :
    shapeCast S4096x1 (multiReduction .maximumf [1] S4096 x 0xFF800000#32 reduces_S4096x64_S4096 (.inl rfl) rfl) shapeCasts_S4096_S4096x1 (ix2 p 0)
      = (Finset.univ : Finset (Fin 64)).fold max (Ideal.ofBits .f32 0xFF800000#32) (fun k => x (ix2 p k)) := by
  rw [asCol_at]
  refine (Ideal.multiReduction_maximumf_single x 0xFF800000#32 reduces_S4096x64_S4096 (.inl rfl) rfl (ix1 p)).trans ?_
  refine congrArg (Finset.fold max _ · Finset.univ) (funext fun k => congrArg x (funext fun a => Fin.ext ?_))
  match a with
  | ⟨0, _⟩ => rfl
  | ⟨1, _⟩ => rfl

/-- Each row's sum, as a column: at (p, 0) the sum of the row's 64 entries. -/
theorem rowSum_at (x : FVec Ideal S4096x64 .f32) (p : Fin 4096) :
    shapeCast S4096x1 (multiReduction .add [1] S4096 x 0x00000000#32 reduces_S4096x64_S4096 (.inl rfl) rfl) shapeCasts_S4096_S4096x1 (ix2 p 0)
      = ∑ k : Fin 64, x (ix2 p k) := by
  rw [asCol_at]
  refine (Ideal.multiReduction_add_single x 0x00000000#32 reduces_S4096x64_S4096 (.inl rfl) rfl (ix1 p)).trans ?_
  refine Finset.sum_congr rfl fun k _ => congrArg x (funext fun a => Fin.ext ?_)
  match a with
  | ⟨0, _⟩ => rfl
  | ⟨1, _⟩ => rfl

/-- A column's sum, as a 1 × 1 array: the sum of its 4096 entries. -/
theorem colSum_at (x : FVec Ideal S4096x1 .f32) (i : S1x1.Idx) :
    shapeCast S1x1 (multiReduction .add [0] S1 x 0x00000000#32 reduces_S4096x1_S1 (.inl rfl) rfl) shapeCasts_S1_S1x1 i
      = ∑ p : Fin 4096, x (ix2 p 0) := by
  obtain ⟨a, b, rfl⟩ : ∃ (a b : Fin 1), i = ix2 a b := ⟨i 0, i 1, eq_ix2 i⟩
  have e : shapeCast S1x1 (multiReduction .add [0] S1 x 0x00000000#32 reduces_S4096x1_S1 (.inl rfl) rfl) shapeCasts_S1_S1x1 (ix2 a b)
      = (multiReduction .add [0] S1 x 0x00000000#32 reduces_S4096x1_S1 (.inl rfl) rfl) (ix1 0) := by
    refine shapeCast_apply _ _ (ix2 a b) (ix1 0) ?_
    rw [Shape.rowMajor_val_one, Shape.rowMajor_val_two]
    show 0 = a.val * 1 + b.val
    omega
  rw [e]
  refine (Ideal.multiReduction_add_single x 0x00000000#32 reduces_S4096x1_S1 (.inl rfl) rfl (ix1 0)).trans ?_
  refine Finset.sum_congr rfl fun k _ => congrArg x (funext fun c => Fin.ext ?_)
  match c with
  | ⟨0, _⟩ => rfl
  | ⟨1, _⟩ => rfl

end Ops

/-! ## One row's norm -/

section Row

theorem exp_at {s : Shape} (v : FVec Ideal s .f32) (i : s.Idx) : exp v i = Ideal.exp (v i) := rfl
theorem sqrt_at {s : Shape} (v : FVec Ideal s .f32) (i : s.Idx) : sqrt v i = Ideal.sqrt (v i) := rfl

/-- The attention logits of a row: its head and relation rows against the two weight blocks, plus the bias row. -/
def logit (w1 w2 : Fin 64 → Fin 64 → EReal) (cv : Fin 64 → EReal) (e ρ : Fin 64 → EReal) (j : Fin 64) : EReal :=
  (∑ k : Fin 64, e k * w1 k j + ∑ k : Fin 64, ρ k * w2 k j) + cv j
/-- A row's maximum, from the word of −∞. -/
def rowMaxOf (l : Fin 64 → EReal) : EReal := (Finset.univ : Finset (Fin 64)).fold max (Ideal.ofBits .f32 0xFF800000#32) l
/-- The exponential of a logit less the row's maximum; -/
def expo (l : Fin 64 → EReal) (j : Fin 64) : EReal := Ideal.exp (l j - rowMaxOf l)
/-- the attention weight: that, over the row's sum of them. -/
def attn (l : Fin 64 → EReal) (j : Fin 64) : EReal := Ideal.div (expo l j) (∑ k : Fin 64, expo l k)
/-- The translation residue's entry j: the weighted head plus the relation less the tail. -/
def dist (l : Fin 64 → EReal) (e ρ t : Fin 64 → EReal) (j : Fin 64) : EReal := (e j * attn l j + ρ j) - t j
/-- The row's norm: the square root of the sum of the residue's squares. -/
def rowNorm (w1 w2 : Fin 64 → Fin 64 → EReal) (cv : Fin 64 → EReal) (e ρ t : Fin 64 → EReal) : EReal :=
  Ideal.sqrt (∑ j : Fin 64, dist (logit w1 w2 cv e ρ) e ρ t j * dist (logit w1 w2 cv e ρ) e ρ t j)

/-! The same as operations on a block of 4096 rows, as the body's arithmetic spells them. -/

def logitsV (a b : FVec Ideal S4096x64 .f32) (w1 w2 : FVec Ideal S64x64 .f32) (cv : FVec Ideal S1x64 .f32) : FVec Ideal S4096x64 .f32 :=
  addf (addf (matmul dot_S4096x64_S64x64_S4096x64_1_0_0_1_n_n none a w1 (constant S4096x64 .f32 0x00000000#32))
      (matmul dot_S4096x64_S64x64_S4096x64_1_0_0_1_n_n none b w2 (constant S4096x64 .f32 0x00000000#32)))
    (broadcastTo S4096x64 cv broadcasts_S1x64_S4096x64)
def expV (l : FVec Ideal S4096x64 .f32) : FVec Ideal S4096x64 .f32 :=
  exp (subf l (broadcastTo S4096x64 (shapeCast S4096x1 (multiReduction .maximumf [1] S4096 l 0xFF800000#32 reduces_S4096x64_S4096 (.inl rfl) rfl)
    shapeCasts_S4096_S4096x1) broadcasts_S4096x1_S4096x64))
def softV (l : FVec Ideal S4096x64 .f32) : FVec Ideal S4096x64 .f32 :=
  divf (expV l) (broadcastTo S4096x64 (shapeCast S4096x1 (multiReduction .add [1] S4096 (expV l) 0x00000000#32 reduces_S4096x64_S4096 (.inl rfl) rfl)
    shapeCasts_S4096_S4096x1) broadcasts_S4096x1_S4096x64)
def resV (a b t l : FVec Ideal S4096x64 .f32) : FVec Ideal S4096x64 .f32 := subf (addf (mulf a (softV l)) b) t
def normV (a b t l : FVec Ideal S4096x64 .f32) : FVec Ideal S4096x1 .f32 :=
  sqrt (shapeCast S4096x1 (multiReduction .add [1] S4096 (mulf (resV a b t l) (resV a b t l)) 0x00000000#32 reduces_S4096x64_S4096 (.inl rfl) rfl)
    shapeCasts_S4096_S4096x1)

theorem logitsV_at (a b : FVec Ideal S4096x64 .f32) (w1 w2 : FVec Ideal S64x64 .f32) (cv : FVec Ideal S1x64 .f32) (p : Fin 4096) (j : Fin 64) :
    logitsV a b w1 w2 cv (ix2 p j)
      = logit (fun k j => w1 (ix2 k j)) (fun k j => w2 (ix2 k j)) (fun j => cv (ix2 0 j)) (fun k => a (ix2 p k)) (fun k => b (ix2 p k)) j := by
  unfold logitsV logit
  rw [addf_apply, addf_apply, matmul_at, matmul_at, spreadRow_at]

theorem expV_at (l : FVec Ideal S4096x64 .f32) (p : Fin 4096) (j : Fin 64) : expV l (ix2 p j) = expo (fun k => l (ix2 p k)) j := by
  unfold expV expo rowMaxOf
  rw [exp_at, subf_apply, spreadCol_at, rowMax_at]

theorem softV_at (l : FVec Ideal S4096x64 .f32) (p : Fin 4096) (j : Fin 64) : softV l (ix2 p j) = attn (fun k => l (ix2 p k)) j := by
  unfold softV attn
  rw [divf_apply, spreadCol_at, rowSum_at, expV_at]
  exact congrArg (Ideal.div _) (Finset.sum_congr rfl fun k _ => expV_at l p k)

theorem resV_at (a b t l : FVec Ideal S4096x64 .f32) (p : Fin 4096) (j : Fin 64) :
    resV a b t l (ix2 p j) = dist (fun k => l (ix2 p k)) (fun k => a (ix2 p k)) (fun k => b (ix2 p k)) (fun k => t (ix2 p k)) j := by
  unfold resV dist
  rw [subf_apply, addf_apply, mulf_apply, softV_at]

theorem normV_at (a b t : FVec Ideal S4096x64 .f32) (w1 w2 : FVec Ideal S64x64 .f32) (cv : FVec Ideal S1x64 .f32) (p : Fin 4096) :
    normV a b t (logitsV a b w1 w2 cv) (ix2 p 0)
      = rowNorm (fun k j => w1 (ix2 k j)) (fun k j => w2 (ix2 k j)) (fun j => cv (ix2 0 j))
          (fun k => a (ix2 p k)) (fun k => b (ix2 p k)) (fun k => t (ix2 p k)) := by
  unfold normV rowNorm
  rw [sqrt_at, rowSum_at]
  refine congrArg Ideal.sqrt (Finset.sum_congr rfl fun j _ => ?_)
  rw [mulf_apply, resV_at]
  have e : (fun k => logitsV a b w1 w2 cv (ix2 p k))
      = logit (fun k j => w1 (ix2 k j)) (fun k j => w2 (ix2 k j)) (fun j => cv (ix2 0 j)) (fun k => a (ix2 p k)) (fun k => b (ix2 p k)) :=
    funext fun k => logitsV_at a b w1 w2 cv p k
  rw [e]

/-- The first norm payload is that block operation. -/
theorem pay3_eq (v0 v2 v4 : Vec Ideal S4096x64 .f32) (v6 v9 : Vec Ideal S64x64 .f32) (v13 : Vec Ideal S1x64 .f32) :
    k2_pay3 v0 v2 v4 v6 v9 v13 = normV v0 v2 v4 (logitsV v0 v2 v6 v9 v13) := by
  unfold k2_pay3
  simp only [shapeCast_self]
  rfl

end Row

/-! ## A point's contribution -/

section Contrib

/-- The hinge of a positive and a negative row's norms. -/
def hinge (a b : EReal) : EReal := max (Ideal.ofBits .f32 0x00000000#32) ((a - b) + Ideal.ofBits .f32 0x3F800000#32)

def hingeSumV (n32 n65 : FVec Ideal S4096x1 .f32) : FVec Ideal S1x1 .f32 :=
  shapeCast S1x1 (multiReduction .add [0] S1
    (maximumf (broadcast S4096x1 (Scalar.ofBits .f32 0x00000000#32)) (addf (subf n32 n65) (broadcast S4096x1 (Scalar.ofBits .f32 0x3F800000#32))))
    0x00000000#32 reduces_S4096x1_S1 (.inl rfl) rfl) shapeCasts_S1_S1x1

theorem hingeSumV_at (n32 n65 : FVec Ideal S4096x1 .f32) (i : S1x1.Idx) :
    hingeSumV n32 n65 i = ∑ p : Fin 4096, hinge (n32 (ix2 p 0)) (n65 (ix2 p 0)) := by
  unfold hingeSumV
  rw [colSum_at]
  rfl

theorem pay6_eq (v32 : FVec Ideal S4096x1 .f32) (v34 v36 : FVec Ideal S4096x64 .f32) (v37 : Vec Ideal S4096x64 .f32)
    (v39 v42 : Vec Ideal S64x64 .f32) (v46 : Vec Ideal S1x64 .f32) :
    k2_pay6 v32 v34 v36 v37 v39 v42 v46 = hingeSumV v32 (normV v34 v36 v37 (logitsV v34 v36 v39 v42 v46)) := by
  unfold k2_pay6
  simp only [shapeCast_self]
  rfl

theorem pay4_eq (v : Vec Ideal S4096x64 .f32) : k2_pay4 v = v := by unfold k2_pay4; simp only [shapeCast_self]
theorem pay5_eq (v : Vec Ideal S4096x64 .f32) : k2_pay5 v = v := by unfold k2_pay5; simp only [shapeCast_self]

/-- Column k of the left half, column k of the right half, of a 128-column row. -/
def lcol (k : Fin 64) : Fin 128 := ⟨k.val, by have := k.isLt; omega⟩
def rcol (k : Fin 64) : Fin 128 := ⟨64 + k.val, by have := k.isLt; omega⟩

theorem ldL_at (x : Vec Ideal S4096x128 .f32) (p : Fin 4096) (k : Fin 64) : View.ld x rL (ix2 p k) = x (ix2 p (lcol k)) :=
  congrArg x (funext fun a => Fin.ext (by
    match a with
    | ⟨0, _⟩ => show 0 + 1 * p.val = p.val; omega
    | ⟨1, _⟩ => show 0 + 1 * k.val = k.val; omega))
theorem ldR_at (x : Vec Ideal S4096x128 .f32) (p : Fin 4096) (k : Fin 64) : View.ld x rR (ix2 p k) = x (ix2 p (rcol k)) :=
  congrArg x (funext fun a => Fin.ext (by
    match a with
    | ⟨0, _⟩ => show 0 + 1 * p.val = p.val; omega
    | ⟨1, _⟩ => show 64 + 1 * k.val = 64 + k.val; omega))

/-- A row's norm off a block, with the row's data and the weights named. -/
theorem normV_at' (a b t : FVec Ideal S4096x64 .f32) (w1 w2 : FVec Ideal S64x64 .f32) (cv : FVec Ideal S1x64 .f32) (p : Fin 4096)
    (W1 W2 : Fin 64 → Fin 64 → EReal) (CV ea eb et : Fin 64 → EReal)
    (h1 : ∀ k j, w1 (ix2 k j) = W1 k j) (h2 : ∀ k j, w2 (ix2 k j) = W2 k j) (h3 : ∀ j, cv (ix2 0 j) = CV j)
    (ha : ∀ k, a (ix2 p k) = ea k) (hb : ∀ k, b (ix2 p k) = eb k) (ht : ∀ k, t (ix2 p k) = et k) :
    normV a b t (logitsV a b w1 w2 cv) (ix2 p 0) = rowNorm W1 W2 CV ea eb et := by
  obtain rfl : (fun k j => w1 (ix2 k j)) = W1 := funext fun k => funext fun j => h1 k j
  obtain rfl : (fun k j => w2 (ix2 k j)) = W2 := funext fun k => funext fun j => h2 k j
  obtain rfl : (fun j => cv (ix2 0 j)) = CV := funext h3
  obtain rfl : (fun k => a (ix2 p k)) = ea := funext ha
  obtain rfl : (fun k => b (ix2 p k)) = eb := funext hb
  obtain rfl : (fun k => t (ix2 p k)) = et := funext ht
  exact normV_at a b t w1 w2 cv p

variable (x0 x1 x2 x3 x4 x5 : Vec Ideal S4096x128 .f32) (x6 x7 : Vec Ideal S64x64 .f32) (x8 : Vec Ideal S1x64 .f32)

/-- A point's contribution from the nine buffers: over the block's 4096 rows, the hinge of the positive row's norm
    (head, relation, tail rows: buffers 0, 1, 2) and the negative row's (buffers 3, 4, 5). -/
theorem contrib2_at (i : S1x1.Idx) :
    contrib2 x0 x1 x2 x3 x4 x5 x6 x7 x8 i
      = ∑ p : Fin 4096, hinge
          (rowNorm (fun k j => x6 (ix2 k j)) (fun k j => x7 (ix2 k j)) (fun j => x8 (ix2 0 j))
            (fun k => x0 (ix2 p (lcol k))) (fun k => x1 (ix2 p (rcol k))) (fun k => x2 (ix2 p (lcol k))))
          (rowNorm (fun k j => x6 (ix2 k j)) (fun k j => x7 (ix2 k j)) (fun j => x8 (ix2 0 j))
            (fun k => x3 (ix2 p (lcol k))) (fun k => x4 (ix2 p (rcol k))) (fun k => x5 (ix2 p (lcol k)))) := by
  unfold contrib2
  rw [pay6_eq, pay3_eq, pay4_eq, pay5_eq, hingeSumV_at]
  refine Finset.sum_congr rfl fun p _ => ?_
  have h6 : ∀ k j : Fin 64, View.ld x6 rW (ix2 k j) = x6 (ix2 k j) := fun k j => congrFun (View.ld_unit_zero (S := S64x64) hz2 _ x6) _
  have h7 : ∀ k j : Fin 64, View.ld x7 rW (ix2 k j) = x7 (ix2 k j) := fun k j => congrFun (View.ld_unit_zero (S := S64x64) hz2 _ x7) _
  have h8 : ∀ j : Fin 64, View.ld x8 rC (ix2 0 j) = x8 (ix2 0 j) := fun j => congrFun (View.ld_unit_zero (S := S1x64) hz2 _ x8) _
  refine congr (congrArg hinge ?_) ?_
  · exact normV_at' _ _ _ _ _ _ p _ _ _ _ _ _ h6 h7 h8 (fun k => ldL_at x0 p k) (fun k => ldR_at x1 p k) (fun k => ldL_at x2 p k)
  · exact normV_at' _ _ _ _ _ _ p _ _ _ _ _ _ h6 h7 h8 (fun k => ldL_at x3 p k) (fun k => ldR_at x4 p k) (fun k => ldL_at x5 p k)

end Contrib

section ContribNamed
variable (x0 x1 x2 x3 x4 x5 : Vec Ideal S4096x128 .f32) (x6 x7 : Vec Ideal S64x64 .f32) (x8 : Vec Ideal S1x64 .f32)

/-- The same with the weights and the rows' data named. -/
theorem contrib2_at' (i : S1x1.Idx) (W1 W2 : Fin 64 → Fin 64 → EReal) (CV : Fin 64 → EReal) (e0 e1 e2 e3 e4 e5 : Fin 4096 → Fin 64 → EReal)
    (h6 : ∀ k j, x6 (ix2 k j) = W1 k j) (h7 : ∀ k j, x7 (ix2 k j) = W2 k j) (h8 : ∀ j, x8 (ix2 0 j) = CV j)
    (h0 : ∀ p k, x0 (ix2 p (lcol k)) = e0 p k) (h1 : ∀ p k, x1 (ix2 p (rcol k)) = e1 p k) (h2 : ∀ p k, x2 (ix2 p (lcol k)) = e2 p k)
    (h3 : ∀ p k, x3 (ix2 p (lcol k)) = e3 p k) (h4 : ∀ p k, x4 (ix2 p (rcol k)) = e4 p k) (h5 : ∀ p k, x5 (ix2 p (lcol k)) = e5 p k) :
    contrib2 x0 x1 x2 x3 x4 x5 x6 x7 x8 i
      = ∑ p : Fin 4096, hinge (rowNorm W1 W2 CV (e0 p) (e1 p) (e2 p)) (rowNorm W1 W2 CV (e3 p) (e4 p) (e5 p)) := by
  obtain rfl : (fun k j => x6 (ix2 k j)) = W1 := funext fun k => funext fun j => h6 k j
  obtain rfl : (fun k j => x7 (ix2 k j)) = W2 := funext fun k => funext fun j => h7 k j
  obtain rfl : (fun j => x8 (ix2 0 j)) = CV := funext h8
  obtain rfl : (fun p k => x0 (ix2 p (lcol k))) = e0 := funext fun p => funext fun k => h0 p k
  obtain rfl : (fun p k => x1 (ix2 p (rcol k))) = e1 := funext fun p => funext fun k => h1 p k
  obtain rfl : (fun p k => x2 (ix2 p (lcol k))) = e2 := funext fun p => funext fun k => h2 p k
  obtain rfl : (fun p k => x3 (ix2 p (lcol k))) = e3 := funext fun p => funext fun k => h3 p k
  obtain rfl : (fun p k => x4 (ix2 p (rcol k))) = e4 := funext fun p => funext fun k => h4 p k
  obtain rfl : (fun p k => x5 (ix2 p (lcol k))) = e5 := funext fun p => funext fun k => h5 p k
  exact contrib2_at x0 x1 x2 x3 x4 x5 x6 x7 x8 i
end ContribNamed

/-! ## The result from the arrays the region finds -/

section Arrays
variable (V : (c : Dev nD) → (b : Ref sig .tc) → Buf (Elt Ideal) ((c : Thread nD τ).loc b))

/-- Row n of a gathered array: its left 64 columns, its right 64 columns. -/
def rowL (A : S16384x128.Idx → EReal) (n : Fin 16384) (k : Fin 64) : EReal := A (ix2 n (lcol k))
def rowR (A : S16384x128.Idx → EReal) (n : Fin 16384) (k : Fin 64) : EReal := A (ix2 n (rcol k))

/-- The two weight blocks (input index first) and the bias row, as the region finds them. -/
def W1 (c : Dev nD) (k j : Fin 64) : EReal := (V c main_v17 : S64x64.Idx → EReal) (ix2 k j)
def W2 (c : Dev nD) (k j : Fin 64) : EReal := (V c main_v19 : S64x64.Idx → EReal) (ix2 k j)
def CV (c : Dev nD) (j : Fin 64) : EReal := (V c main_v24 : S1x64.Idx → EReal) (ix2 0 j)

/-- Triplet row n's term of the loss: the hinge of the positive triplet's norm and the negative's. -/
def rowLoss (c : Dev nD) (n : Fin 16384) : EReal :=
  hinge (rowNorm (W1 V c) (W2 V c) (CV V c) (rowL (V c main_v15_0) n) (rowR (V c main_v15_1) n) (rowL (V c main_v15_2) n))
    (rowNorm (W1 V c) (W2 V c) (CV V c) (rowL (V c main_v15_3) n) (rowR (V c main_v15_4) n) (rowL (V c main_v15_5) n))

/-- Row p of point t's blocks is row 4096·t + p of the arrays. -/
def rowAt (t : Fin cfg2.N) (p : Fin 4096) : Fin 16384 :=
  ⟨4096 * t.val + p.val, by have := lt_of_lt_of_eq t.isLt N2_eq; have := p.isLt; omega⟩

theorem contribAt_eq (c : Dev nD) (t : Fin cfg2.N) : contribAt V c t = ∑ p : Fin 4096, rowLoss V c (rowAt t p) := by
  unfold contribAt
  exact contrib2_at' _ _ _ _ _ _ _ _ _ (ix2 0 0) (W1 V c) (W2 V c) (CV V c)
    (fun p => rowL (V c main_v15_0) (rowAt t p)) (fun p => rowR (V c main_v15_1) (rowAt t p)) (fun p => rowL (V c main_v15_2) (rowAt t p))
    (fun p => rowL (V c main_v15_3) (rowAt t p)) (fun p => rowR (V c main_v15_4) (rowAt t p)) (fun p => rowL (V c main_v15_5) (rowAt t p))
    (fun k j => congrFun (iblk2_6_eq V c t) (ix2 k j)) (fun k j => congrFun (iblk2_7_eq V c t) (ix2 k j)) (fun j => congrFun (iblk2_8_eq V c t) (ix2 0 j))
    (fun p k => iblk2_0_apply V c t p (lcol k)) (fun p k => iblk2_1_apply V c t p (rcol k)) (fun p k => iblk2_2_apply V c t p (lcol k))
    (fun p k => iblk2_3_apply V c t p (lcol k)) (fun p k => iblk2_4_apply V c t p (rcol k)) (fun p k => iblk2_5_apply V c t p (lcol k))

/-- THE KERNEL'S VALUE: the 1 × 1 result is the sum over the 16384 triplet rows of the row's hinge term, the four
    blocks of 4096 rows added in order, times the word of 2⁻¹⁴. -/
theorem result2_sum (c : Dev nD) :
    result2 V c (ix2 0 0) = (∑ n : Fin (4 * 4096), rowLoss V c n) * scaleW := by
  rw [result2_fold, contribAt_eq, contribAt_eq, contribAt_eq, contribAt_eq, Cert.LibLossAlg.sum_four_blocks 4096 (fun n => rowLoss V c n)]
  have e : ∀ (t : Fin cfg2.N) (i : Fin 4) (h : t.val = i.val) (p : Fin 4096), rowAt t p = finProdFinEquiv (i, p) := fun t i h p =>
    Fin.ext (by show 4096 * t.val + p.val = p.val + 4096 * i.val; omega)
  simp only [e t2_0 0 rfl, e t2_1 1 rfl, e t2_2 2 rfl, e t2_3 3 rfl]

end Arrays

end Cert.KernelIdeal.KernelValue
end
-- ==== Proof.KernelVals.lean ====
/-
  What the dense region finds in the buffers it reads, as functions of the launch memory: the six gathered arrays as
  the SparseCore call left them (the second host stretch writes none of them); the two weight blocks as the
  attention weights' columns 0‥63 and 64‥127, transposed; and, on the extended reals, the bias row as the bias plus
  the product of the hyperplane vector with the weights' columns 128‥191.
-/
import proofs.«203064_g33122787786777_cont_8to1_b_416_18_alg».proof.Proof.Vals
import Idealize.ShloMosaic.Lib.Pipeline.Value
import Idealize.ShloMosaic.Lib.ValueIdx
import Idealize.ShloMosaic.PureOps.Ideal.Laws

set_option maxRecDepth 16384

noncomputable section

namespace Cert.KernelIdeal.KernelVals

open Cert.KernelIdeal Cert.KernelIdeal.Gen Cert.KernelIdeal.Alg Cert.KernelIdeal.Host Cert.KernelIdeal.Tile Cert.KernelIdeal.Vals
open Idealize.ShloMosaic Idealize.ShloMosaic.TcCoe
open Idealize.SL.Sem
open Idealize.ShloMosaic.ValueIdx

variable {F : FTy → Type} [FloatOps F]
variable (m : (ℓ : Loc nD τ sig) → Buf (Elt F) ℓ)

/-- The second host stretch writes none of the six gathered arrays: the dense region finds them as the SparseCore
    call left them. -/
theorem V4_g0 (c : Dev nD) : V4 m c main_v15_0 = gOf m c 0 := by
  show StableHlo.after hostOps1 (W3 m c) (Proc.devRef .tc main_v15_0) = _
  after_results
  unfold W3
  simp only [Function.update_of_ne (show Proc.devRef (τ := τ) .tc main_v15_0 ≠ Proc.devRef .tc main_v15_1 by decide),
    Function.update_of_ne (show Proc.devRef (τ := τ) .tc main_v15_0 ≠ Proc.devRef .tc main_v15_2 by decide),
    Function.update_of_ne (show Proc.devRef (τ := τ) .tc main_v15_0 ≠ Proc.devRef .tc main_v15_3 by decide),
    Function.update_of_ne (show Proc.devRef (τ := τ) .tc main_v15_0 ≠ Proc.devRef .tc main_v15_4 by decide),
    Function.update_of_ne (show Proc.devRef (τ := τ) .tc main_v15_0 ≠ Proc.devRef .tc main_v15_5 by decide),
    Function.update_self]
theorem V4_g1 (c : Dev nD) : V4 m c main_v15_1 = gOf m c 1 := by
  show StableHlo.after hostOps1 (W3 m c) (Proc.devRef .tc main_v15_1) = _
  after_results
  unfold W3
  simp only [Function.update_of_ne (show Proc.devRef (τ := τ) .tc main_v15_1 ≠ Proc.devRef .tc main_v15_0 by decide),
    Function.update_of_ne (show Proc.devRef (τ := τ) .tc main_v15_1 ≠ Proc.devRef .tc main_v15_2 by decide),
    Function.update_of_ne (show Proc.devRef (τ := τ) .tc main_v15_1 ≠ Proc.devRef .tc main_v15_3 by decide),
    Function.update_of_ne (show Proc.devRef (τ := τ) .tc main_v15_1 ≠ Proc.devRef .tc main_v15_4 by decide),
    Function.update_of_ne (show Proc.devRef (τ := τ) .tc main_v15_1 ≠ Proc.devRef .tc main_v15_5 by decide),
    Function.update_self]
theorem V4_g2 (c : Dev nD) : V4 m c main_v15_2 = gOf m c 2 := by
  show StableHlo.after hostOps1 (W3 m c) (Proc.devRef .tc main_v15_2) = _
  after_results
  unfold W3
  simp only [Function.update_of_ne (show Proc.devRef (τ := τ) .tc main_v15_2 ≠ Proc.devRef .tc main_v15_0 by decide),
    Function.update_of_ne (show Proc.devRef (τ := τ) .tc main_v15_2 ≠ Proc.devRef .tc main_v15_1 by decide),
    Function.update_of_ne (show Proc.devRef (τ := τ) .tc main_v15_2 ≠ Proc.devRef .tc main_v15_3 by decide),
    Function.update_of_ne (show Proc.devRef (τ := τ) .tc main_v15_2 ≠ Proc.devRef .tc main_v15_4 by decide),
    Function.update_of_ne (show Proc.devRef (τ := τ) .tc main_v15_2 ≠ Proc.devRef .tc main_v15_5 by decide),
    Function.update_self]
theorem V4_g3 (c : Dev nD) : V4 m c main_v15_3 = gOf m c 3 := by
  show StableHlo.after hostOps1 (W3 m c) (Proc.devRef .tc main_v15_3) = _
  after_results
  unfold W3
  simp only [Function.update_of_ne (show Proc.devRef (τ := τ) .tc main_v15_3 ≠ Proc.devRef .tc main_v15_0 by decide),
    Function.update_of_ne (show Proc.devRef (τ := τ) .tc main_v15_3 ≠ Proc.devRef .tc main_v15_1 by decide),
    Function.update_of_ne (show Proc.devRef (τ := τ) .tc main_v15_3 ≠ Proc.devRef .tc main_v15_2 by decide),
    Function.update_of_ne (show Proc.devRef (τ := τ) .tc main_v15_3 ≠ Proc.devRef .tc main_v15_4 by decide),
    Function.update_of_ne (show Proc.devRef (τ := τ) .tc main_v15_3 ≠ Proc.devRef .tc main_v15_5 by decide),
    Function.update_self]
theorem V4_g4 (c : Dev nD) : V4 m c main_v15_4 = gOf m c 4 := by
  show StableHlo.after hostOps1 (W3 m c) (Proc.devRef .tc main_v15_4) = _
  after_results
  unfold W3
  simp only [Function.update_of_ne (show Proc.devRef (τ := τ) .tc main_v15_4 ≠ Proc.devRef .tc main_v15_0 by decide),
    Function.update_of_ne (show Proc.devRef (τ := τ) .tc main_v15_4 ≠ Proc.devRef .tc main_v15_1 by decide),
    Function.update_of_ne (show Proc.devRef (τ := τ) .tc main_v15_4 ≠ Proc.devRef .tc main_v15_2 by decide),
    Function.update_of_ne (show Proc.devRef (τ := τ) .tc main_v15_4 ≠ Proc.devRef .tc main_v15_3 by decide),
    Function.update_of_ne (show Proc.devRef (τ := τ) .tc main_v15_4 ≠ Proc.devRef .tc main_v15_5 by decide),
    Function.update_self]
theorem V4_g5 (c : Dev nD) : V4 m c main_v15_5 = gOf m c 5 := by
  show StableHlo.after hostOps1 (W3 m c) (Proc.devRef .tc main_v15_5) = _
  after_results
  unfold W3
  simp only [Function.update_of_ne (show Proc.devRef (τ := τ) .tc main_v15_5 ≠ Proc.devRef .tc main_v15_0 by decide),
    Function.update_of_ne (show Proc.devRef (τ := τ) .tc main_v15_5 ≠ Proc.devRef .tc main_v15_1 by decide),
    Function.update_of_ne (show Proc.devRef (τ := τ) .tc main_v15_5 ≠ Proc.devRef .tc main_v15_2 by decide),
    Function.update_of_ne (show Proc.devRef (τ := τ) .tc main_v15_5 ≠ Proc.devRef .tc main_v15_3 by decide),
    Function.update_of_ne (show Proc.devRef (τ := τ) .tc main_v15_5 ≠ Proc.devRef .tc main_v15_4 by decide),
    Function.update_self]

/-- An argument array no operation writes: after the SparseCore call it holds what it held at launch. -/
theorem W3_main_arg4 (c : Dev nD) : W3 m c (Proc.devRef .tc main_arg4) = m (c, Proc.devRef .tc main_arg4) := by
  unfold W3
  simp only [Function.update_of_ne (show Proc.devRef (τ := τ) .tc main_arg4 ≠ Proc.devRef .tc main_v15_0 by decide),
    Function.update_of_ne (show Proc.devRef (τ := τ) .tc main_arg4 ≠ Proc.devRef .tc main_v15_1 by decide),
    Function.update_of_ne (show Proc.devRef (τ := τ) .tc main_arg4 ≠ Proc.devRef .tc main_v15_2 by decide),
    Function.update_of_ne (show Proc.devRef (τ := τ) .tc main_arg4 ≠ Proc.devRef .tc main_v15_3 by decide),
    Function.update_of_ne (show Proc.devRef (τ := τ) .tc main_arg4 ≠ Proc.devRef .tc main_v15_4 by decide),
    Function.update_of_ne (show Proc.devRef (τ := τ) .tc main_arg4 ≠ Proc.devRef .tc main_v15_5 by decide)]
  show StableHlo.after hostOps0 (W0 m c) (Proc.devRef .tc main_arg4) = _
  after_results

/-- An argument array no operation writes: after the SparseCore call it holds what it held at launch. -/
theorem W3_main_arg5 (c : Dev nD) : W3 m c (Proc.devRef .tc main_arg5) = m (c, Proc.devRef .tc main_arg5) := by
  unfold W3
  simp only [Function.update_of_ne (show Proc.devRef (τ := τ) .tc main_arg5 ≠ Proc.devRef .tc main_v15_0 by decide),
    Function.update_of_ne (show Proc.devRef (τ := τ) .tc main_arg5 ≠ Proc.devRef .tc main_v15_1 by decide),
    Function.update_of_ne (show Proc.devRef (τ := τ) .tc main_arg5 ≠ Proc.devRef .tc main_v15_2 by decide),
    Function.update_of_ne (show Proc.devRef (τ := τ) .tc main_arg5 ≠ Proc.devRef .tc main_v15_3 by decide),
    Function.update_of_ne (show Proc.devRef (τ := τ) .tc main_arg5 ≠ Proc.devRef .tc main_v15_4 by decide),
    Function.update_of_ne (show Proc.devRef (τ := τ) .tc main_arg5 ≠ Proc.devRef .tc main_v15_5 by decide)]
  show StableHlo.after hostOps0 (W0 m c) (Proc.devRef .tc main_arg5) = _
  after_results

/-- An argument array no operation writes: after the SparseCore call it holds what it held at launch. -/
theorem W3_main_arg6 (c : Dev nD) : W3 m c (Proc.devRef .tc main_arg6) = m (c, Proc.devRef .tc main_arg6) := by
  unfold W3
  simp only [Function.update_of_ne (show Proc.devRef (τ := τ) .tc main_arg6 ≠ Proc.devRef .tc main_v15_0 by decide),
    Function.update_of_ne (show Proc.devRef (τ := τ) .tc main_arg6 ≠ Proc.devRef .tc main_v15_1 by decide),
    Function.update_of_ne (show Proc.devRef (τ := τ) .tc main_arg6 ≠ Proc.devRef .tc main_v15_2 by decide),
    Function.update_of_ne (show Proc.devRef (τ := τ) .tc main_arg6 ≠ Proc.devRef .tc main_v15_3 by decide),
    Function.update_of_ne (show Proc.devRef (τ := τ) .tc main_arg6 ≠ Proc.devRef .tc main_v15_4 by decide),
    Function.update_of_ne (show Proc.devRef (τ := τ) .tc main_arg6 ≠ Proc.devRef .tc main_v15_5 by decide)]
  show StableHlo.after hostOps0 (W0 m c) (Proc.devRef .tc main_arg6) = _
  after_results

/-- Column k of the attention weights (the array of 64 rows and 192 columns). -/
def wcol (o : Nat) (ho : o + 64 ≤ 192) (k : Fin 64) : Fin 192 := ⟨o + k.val, by have := k.isLt; omega⟩

/-- The first weight block the dense region finds: the weights' columns 0‥63, transposed. -/
theorem V4_w1_apply (c : Dev nD) (k j : Fin 64) :
    (V4 m c main_v17 : S64x64.Idx → Elt F .f32) (ix2 k j)
      = (m (c, Proc.devRef .tc main_arg5) : S64x192.Idx → Elt F .f32) (ix2 j (wcol 0 (by decide) k)) := by
  have e : (V4 m c main_v17 : S64x64.Idx → Elt F .f32)
      = transpose S64x64 [1, 0] (extractStridedSlice S64x64 ![0, 0] (m (c, Proc.devRef .tc main_arg5) : S64x192.Idx → Elt F .f32) slices_S64x192_S64x64_0_0) transposes_S64x64_S64x64_1_0 := by
    show StableHlo.after hostOps1 (W3 m c) (Proc.devRef .tc main_v17) = _
    after_results
    rw [W3_main_arg5]
  rw [e]
  refine (transpose_apply _ _ _ (ix2 k j) (ix2 j k) ?_).trans ?_
  · intro b; match b with | ⟨0, _⟩ => rfl | ⟨1, _⟩ => rfl
  · refine extractStridedSlice_apply _ _ _ (ix2 j k) (ix2 j (wcol 0 (by decide) k)) fun a => ?_
    match a with
    | ⟨0, _⟩ => show j.val = 0 + j.val; omega
    | ⟨1, _⟩ => show 0 + k.val = 0 + k.val; rfl

/-- The second: the weights' columns 64‥127, transposed. -/
theorem V4_w2_apply (c : Dev nD) (k j : Fin 64) :
    (V4 m c main_v19 : S64x64.Idx → Elt F .f32) (ix2 k j)
      = (m (c, Proc.devRef .tc main_arg5) : S64x192.Idx → Elt F .f32) (ix2 j (wcol 64 (by decide) k)) := by
  have e : (V4 m c main_v19 : S64x64.Idx → Elt F .f32)
      = transpose S64x64 [1, 0] (extractStridedSlice S64x64 ![0, 64] (m (c, Proc.devRef .tc main_arg5) : S64x192.Idx → Elt F .f32) slices_S64x192_S64x64_0_64) transposes_S64x64_S64x64_1_0 := by
    show StableHlo.after hostOps1 (W3 m c) (Proc.devRef .tc main_v19) = _
    after_results
    rw [W3_main_arg5]
  rw [e]
  refine (transpose_apply _ _ _ (ix2 k j) (ix2 j k) ?_).trans ?_
  · intro b; match b with | ⟨0, _⟩ => rfl | ⟨1, _⟩ => rfl
  · refine extractStridedSlice_apply _ _ _ (ix2 j k) (ix2 j (wcol 64 (by decide) k)) fun a => ?_
    match a with
    | ⟨0, _⟩ => show j.val = 0 + j.val; omega
    | ⟨1, _⟩ => show 64 + k.val = 64 + k.val; rfl

end Cert.KernelIdeal.KernelVals

namespace Cert.KernelIdeal.KernelVals

open Cert.KernelIdeal Cert.KernelIdeal.Gen Cert.KernelIdeal.Alg Cert.KernelIdeal.Host Cert.KernelIdeal.Tile Cert.KernelIdeal.Vals
open Idealize.ShloMosaic Idealize.ShloMosaic.TcCoe
open Idealize.SL.Sem
open Idealize.ShloMosaic.ValueIdx

section AtIdeal
variable (m : (ℓ : Loc nD τ sig) → Buf (Elt Ideal) ℓ)

/-- The launch contents of the hyperplane vector, the attention weights and the bias, as extended reals. -/
def hypA (c : Dev nD) : S64.Idx → EReal := m (c, Proc.devRef .tc main_arg4)
def wA (c : Dev nD) : S64x192.Idx → EReal := m (c, Proc.devRef .tc main_arg5)
def bA (c : Dev nD) : S64.Idx → EReal := m (c, Proc.devRef .tc main_arg6)

/-- The bias row the dense region finds, on the extended reals: entry j is the bias's entry j plus the product of
    the hyperplane vector with the weights' columns 128‥191 of row j. -/
theorem V4_cv_apply (c : Dev nD) (j : Fin 64) :
    (V4 m c main_v24 : S1x64.Idx → EReal) (ix2 0 j)
      = bA m c (ix1 j) + ∑ k : Fin 64, hypA m c (ix1 k) * wA m c (ix2 j (wcol 128 (by decide) k)) := by
  unfold bA hypA wA
  show StableHlo.after hostOps1 (W3 m c) (Proc.devRef .tc main_v24) (ix2 0 j) = _
  after_results
  rw [W3_main_arg4, W3_main_arg5, W3_main_arg6]
  refine (shapeCast_apply _ _ (ix2 0 j) (ix1 j) ?_).trans ?_
  · rw [Shape.rowMajor_val_one, Shape.rowMajor_val_two]; show j.val = 0 * 64 + j.val; omega
  rw [addf_apply]
  congr 1
  show FloatOps.dotGeneral dot_S64_S64x64_S64_0_0_n_1_n_n none _ _ _ (ix1 j) = _
  rw [Ideal.dotGeneral_apply, ← Equiv.sum_comp (contrEquiv1 dot_S64_S64x64_S64_0_0_n_1_n_n 64 rfl rfl).symm]
  refine Finset.sum_congr rfl fun k _ => ?_
  have c2 := contrEquiv1_symm_val dot_S64_S64x64_S64_0_0_n_1_n_n 64 rfl rfl k
  have l2 : dot_S64_S64x64_S64_0_0_n_1_n_n.lhsIdx (ix1 j) ((contrEquiv1 _ 64 rfl rfl).symm k) = ix1 k := by
    funext ax; apply Fin.ext
    match ax with
    | ⟨0, _⟩ => simp [DotDims.lhsIdx, dot_S64_S64x64_S64_0_0_n_1_n_n]; exact c2
  have r2 : dot_S64_S64x64_S64_0_0_n_1_n_n.rhsIdx (ix1 j) ((contrEquiv1 _ 64 rfl rfl).symm k) = ix2 k j := by
    funext ax; apply Fin.ext
    match ax with
    | ⟨0, _⟩ => simp [DotDims.rhsIdx, dot_S64_S64x64_S64_0_0_n_1_n_n]; exact c2
    | ⟨1, _⟩ => simp [DotDims.rhsIdx, dot_S64_S64x64_S64_0_0_n_1_n_n]; rfl
  rw [l2, r2]
  congr 1
  refine (transpose_apply _ _ _ (ix2 k j) (ix2 j k) ?_).trans ?_
  · intro b; match b with | ⟨0, _⟩ => rfl | ⟨1, _⟩ => rfl
  · refine extractStridedSlice_apply _ _ _ (ix2 j k) (ix2 j (wcol 128 (by decide) k)) fun a => ?_
    match a with
    | ⟨0, _⟩ => show j.val = 0 + j.val; omega
    | ⟨1, _⟩ => show 128 + k.val = 128 + k.val; rfl

end AtIdeal

end Cert.KernelIdeal.KernelVals
end
-- ==== Proof.KernelTotal.lean ====
/-
  The dense region's result from the launch memory. A gathered array's row n is the row of the packed table its
  index vector names at n: in its left half the entity table's row, in its right half the relation table's; the
  two weight blocks and the bias row are read off the attention weights, the hyperplane vector and the bias; so
  the 1 × 1 result is the sum over the 16384 triplet rows of the hinge of the positive and the negative triplet's
  norms, times the word of 2⁻¹⁴, every norm a function of the seven argument arrays.
-/
import proofs.«203064_g33122787786777_cont_8to1_b_416_18_alg».proof.Proof.KernelValue
import proofs.«203064_g33122787786777_cont_8to1_b_416_18_alg».proof.Proof.KernelVals

set_option maxRecDepth 16384

noncomputable section

namespace Cert.KernelIdeal.KernelTotal

open Cert.KernelIdeal Cert.KernelIdeal.Gen Cert.KernelIdeal.Alg Cert.KernelIdeal.Host Cert.KernelIdeal.Tile Cert.KernelIdeal.Vals
open Cert.KernelIdeal.Region2 Cert.KernelIdeal.KernelValue Cert.KernelIdeal.KernelVals
open Idealize.ShloMosaic Idealize.ShloMosaic.TcCoe
open Idealize.SL.Sem
open Idealize.ShloMosaic.ValueIdx

variable (m : (ℓ : Loc nD τ sig) → Buf (Elt Ideal) ℓ)

/-- The launch contents of the two embedding tables, as extended reals. -/
def entA (c : Dev nD) : S1000000x64.Idx → EReal := m (c, Proc.devRef .tc main_arg2)
def relA (c : Dev nD) : S100000x64.Idx → EReal := m (c, Proc.devRef .tc main_arg3)

theorem V1_arg2 (c : Dev nD) : (V1 m c main_arg2 : S1000000x64.Idx → EReal) = entA m c := by
  unfold entA
  show StableHlo.after hostOps0 (W0 m c) (Proc.devRef .tc main_arg2) = _
  after_results
theorem V1_arg3 (c : Dev nD) : (V1 m c main_arg3 : S100000x64.Idx → EReal) = relA m c := by
  unfold relA
  show StableHlo.after hostOps0 (W0 m c) (Proc.devRef .tc main_arg3) = _
  after_results

/-- The table row index vector t names at triplet n. -/
def rowIx (c : Dev nD) (t : Fin 6) (n : Fin 16384) : Fin 100352 := rowOf (ixOf m c t (ix1 n))
/-- That row of the entity table; that row (reduced into range) of the relation table. -/
def eRow (c : Dev nD) (t : Fin 6) (n : Fin 16384) (k : Fin 64) : EReal :=
  entA m c (ix2 ⟨(rowIx m c t n).val, lt_of_lt_of_le (rowIx m c t n).isLt (by decide)⟩ k)
def rRow (c : Dev nD) (t : Fin 6) (n : Fin 16384) (k : Fin 64) : EReal :=
  relA m c (ix2 ⟨(rowIx m c t n).val % 100000, Nat.mod_lt _ (by decide)⟩ k)

/-- A gathered array's row n: its left half is the entity table's row, its right half the relation table's. -/
theorem gL (c : Dev nD) (t : Fin 6) (n : Fin 16384) (k : Fin 64) : gOf m c t (ix2 n (lcol k)) = eRow m c t n k := by
  unfold gOf gathered
  show tabOf m c (ix2 (rowOf (ixOf m c t (ix1 n))) (lcol k)) = _
  unfold tabOf
  have h : ((ix2 (rowOf (ixOf m c t (ix1 n))) (lcol k) : S100352x128.Idx) 1).val < 64 := k.isLt
  rw [dif_pos h, V1_arg2]
  rfl
theorem gR (c : Dev nD) (t : Fin 6) (n : Fin 16384) (k : Fin 64) : gOf m c t (ix2 n (rcol k)) = rRow m c t n k := by
  unfold gOf gathered
  show tabOf m c (ix2 (rowOf (ixOf m c t (ix1 n))) (rcol k)) = _
  unfold tabOf
  have h : ¬((ix2 (rowOf (ixOf m c t (ix1 n))) (rcol k) : S100352x128.Idx) 1).val < 64 := by
    show ¬(64 + k.val < 64); omega
  rw [dif_neg h, V1_arg3]
  unfold rRow rowIx
  refine congrArg (relA m c) (congrArg (ix2 _) (Fin.ext ?_))
  show 64 + k.val - 64 = k.val
  omega

/-- The two weight blocks and the bias row from the launch arrays. -/
def wk1 (c : Dev nD) (k j : Fin 64) : EReal := wA m c (ix2 j (wcol 0 (by decide) k))
def wk2 (c : Dev nD) (k j : Fin 64) : EReal := wA m c (ix2 j (wcol 64 (by decide) k))
def cvk (c : Dev nD) (j : Fin 64) : EReal := bA m c (ix1 j) + ∑ k : Fin 64, hypA m c (ix1 k) * wA m c (ix2 j (wcol 128 (by decide) k))

theorem W1_eq (c : Dev nD) : KernelValue.W1 (V4 m) c = wk1 m c := funext fun k => funext fun j => by unfold KernelValue.W1 wk1 wA; exact V4_w1_apply m c k j
theorem W2_eq (c : Dev nD) : W2 (V4 m) c = wk2 m c := funext fun k => funext fun j => by unfold W2 wk2 wA; exact V4_w2_apply m c k j
theorem CV_eq (c : Dev nD) : CV (V4 m) c = cvk m c := funext fun j => by unfold CV cvk; exact V4_cv_apply m c j

/-- Triplet row n's term of the loss, from the launch arrays. -/
def rowLossM (c : Dev nD) (n : Fin 16384) : EReal :=
  hinge (rowNorm (wk1 m c) (wk2 m c) (cvk m c) (eRow m c 0 n) (rRow m c 1 n) (eRow m c 2 n))
    (rowNorm (wk1 m c) (wk2 m c) (cvk m c) (eRow m c 3 n) (rRow m c 4 n) (eRow m c 5 n))

theorem rowLoss_eq (c : Dev nD) (n : Fin 16384) : rowLoss (V4 m) c n = rowLossM m c n := by
  have e0 : rowL (V4 m c main_v15_0) n = eRow m c 0 n := funext fun k => by unfold rowL; rw [V4_g0]; exact gL m c 0 n k
  have e1 : rowR (V4 m c main_v15_1) n = rRow m c 1 n := funext fun k => by unfold rowR; rw [V4_g1]; exact gR m c 1 n k
  have e2 : rowL (V4 m c main_v15_2) n = eRow m c 2 n := funext fun k => by unfold rowL; rw [V4_g2]; exact gL m c 2 n k
  have e3 : rowL (V4 m c main_v15_3) n = eRow m c 3 n := funext fun k => by unfold rowL; rw [V4_g3]; exact gL m c 3 n k
  have e4 : rowR (V4 m c main_v15_4) n = rRow m c 4 n := funext fun k => by unfold rowR; rw [V4_g4]; exact gR m c 4 n k
  have e5 : rowL (V4 m c main_v15_5) n = eRow m c 5 n := funext fun k => by unfold rowL; rw [V4_g5]; exact gL m c 5 n k
  unfold rowLoss rowLossM
  rw [W1_eq, W2_eq, CV_eq, e0, e1, e2, e3, e4, e5]

/-- THE KERNEL'S VALUE from the launch memory: the 1 × 1 result the dense region leaves is the sum over the 16384
    triplet rows of the row's hinge term, times the word of 2⁻¹⁴. -/
theorem kernel_value (c : Dev nD) :
    result2 (V4 m) c (ix2 0 0) = (∑ n : Fin (4 * 4096), rowLossM m c n) * scaleW := by
  rw [result2_sum]
  exact congrArg (· * scaleW) (Finset.sum_congr rfl fun n _ => rowLoss_eq m c n)

end Cert.KernelIdeal.KernelTotal
end
-- ==== Proof.RowBridge.lean ====
/- The reference's score of a triplet and the kernel's norm of it are one number up to sign. The reference's 192-wide
   sum over the concatenated row (head, relation, hyperplane) splits at 64 and 128 into the kernel's two 64-wide sums
   and the hyperplane's part, which joins the bias by associativity and commutativity of addition on the extended
   reals; the reference's second maximum against `-∞` and its sums "from zero" change nothing; and the margin
   `(-n) - (-p) + 1` is `(p - n) + 1`. -/
import proofs.«203064_g33122787786777_cont_8to1_b_416_18_alg».proof.Proof.RefRowDefs
import proofs.«203064_g33122787786777_cont_8to1_b_416_18_alg».proof.Proof.KernelValue
import proofs.«203064_g33122787786777_cont_8to1_b_416_18_alg».proof.Proof.LibLossAlg

noncomputable section

namespace Cert.RowBridge

open Idealize.ShloMosaic Cert.ReferenceIdeal.RefRow Cert.KernelIdeal Cert.LibLossAlg
open scoped BigOperators

/-- The attention weights' columns 0 … 63, input index first. -/
def w1 (W : Fin 64 → Fin 192 → EReal) (k j : Fin 64) : EReal := W j ⟨k.val, by have := k.isLt; omega⟩
/-- Their columns 64 … 127. -/
def w2 (W : Fin 64 → Fin 192 → EReal) (k j : Fin 64) : EReal := W j ⟨64 + k.val, by have := k.isLt; omega⟩
/-- Their columns 128 … 191, which meet the hyperplane. -/
def w3 (W : Fin 64 → Fin 192 → EReal) (k j : Fin 64) : EReal := W j ⟨128 + k.val, by have := k.isLt; omega⟩
/-- The bias with the hyperplane's part of each logit folded in. -/
def cv (hp : Fin 64 → EReal) (W : Fin 64 → Fin 192 → EReal) (b : Fin 64 → EReal) (j : Fin 64) : EReal :=
  b j + ∑ k : Fin 64, hp k * w3 W k j

/-- The word of `-∞`. -/
theorem ofBits_neg_inf : Ideal.ofBits .f32 0xFF800000#32 = (⊥ : EReal) := by
  simp [Ideal.ofBits, Ideal.ieee]

section Logit
variable (e ρ hp : Fin 64 → EReal) (W : Fin 64 → Fin 192 → EReal) (b : Fin 64 → EReal) (j : Fin 64)

theorem term0 (p : Fin 64) :
    catRow e ρ hp (finProdFinEquiv ((0 : Fin 3), p)) * W j (finProdFinEquiv ((0 : Fin 3), p)) = e p * w1 W p j := by
  have h : (finProdFinEquiv ((0 : Fin 3), p) : Fin (3 * 64)).val = p.val := by show p.val + 64 * 0 = p.val; omega
  have hlt : (finProdFinEquiv ((0 : Fin 3), p) : Fin (3 * 64)).val < 64 := by rw [h]; exact p.isLt
  have hc : catRow e ρ hp (finProdFinEquiv ((0 : Fin 3), p)) = e p := by
    unfold catRow; rw [dif_pos hlt]; exact congrArg e (Fin.ext h)
  have hw : W j (finProdFinEquiv ((0 : Fin 3), p)) = w1 W p j := congrArg (W j) (Fin.ext h)
  rw [hc, hw]

theorem term1 (p : Fin 64) :
    catRow e ρ hp (finProdFinEquiv ((1 : Fin 3), p)) * W j (finProdFinEquiv ((1 : Fin 3), p)) = ρ p * w2 W p j := by
  have h : (finProdFinEquiv ((1 : Fin 3), p) : Fin (3 * 64)).val = 64 + p.val := by show p.val + 64 * 1 = 64 + p.val; omega
  have hn : ¬ (finProdFinEquiv ((1 : Fin 3), p) : Fin (3 * 64)).val < 64 := by rw [h]; omega
  have hlt : (finProdFinEquiv ((1 : Fin 3), p) : Fin (3 * 64)).val < 128 := by rw [h]; have := p.isLt; omega
  have hc : catRow e ρ hp (finProdFinEquiv ((1 : Fin 3), p)) = ρ p := by
    unfold catRow; rw [dif_neg hn, dif_pos hlt]; exact congrArg ρ (Fin.ext (by show p.val + 64 * 1 - 64 = p.val; omega))
  have hw : W j (finProdFinEquiv ((1 : Fin 3), p)) = w2 W p j := congrArg (W j) (Fin.ext h)
  rw [hc, hw]

theorem term2 (p : Fin 64) :
    catRow e ρ hp (finProdFinEquiv ((2 : Fin 3), p)) * W j (finProdFinEquiv ((2 : Fin 3), p)) = hp p * w3 W p j := by
  have h : (finProdFinEquiv ((2 : Fin 3), p) : Fin (3 * 64)).val = 128 + p.val := by show p.val + 64 * 2 = 128 + p.val; omega
  have hn : ¬ (finProdFinEquiv ((2 : Fin 3), p) : Fin (3 * 64)).val < 64 := by rw [h]; omega
  have hn' : ¬ (finProdFinEquiv ((2 : Fin 3), p) : Fin (3 * 64)).val < 128 := by rw [h]; omega
  have hc : catRow e ρ hp (finProdFinEquiv ((2 : Fin 3), p)) = hp p := by
    unfold catRow; rw [dif_neg hn, dif_neg hn']; exact congrArg hp (Fin.ext (by show p.val + 64 * 2 - 128 = p.val; omega))
  have hw : W j (finProdFinEquiv ((2 : Fin 3), p)) = w3 W p j := congrArg (W j) (Fin.ext h)
  rw [hc, hw]

/-- The reference's logit is the kernel's: the 192-wide sum in its three blocks, the third joined to the bias. -/
theorem refLogit_eq : refLogit e ρ hp W b j = KernelValue.logit (w1 W) (w2 W) (cv hp W b) e ρ j := by
  unfold refLogit KernelValue.logit cv
  have h3 : (∑ k : Fin 192, catRow e ρ hp k * W j k)
      = (∑ p : Fin 64, e p * w1 W p j + ∑ p : Fin 64, ρ p * w2 W p j) + ∑ p : Fin 64, hp p * w3 W p j := by
    refine (sum_three_blocks 64 (fun k : Fin (3 * 64) => catRow e ρ hp k * W j k)).trans ?_
    simp only [term0, term1, term2]
  rw [h3, add_assoc, add_comm (∑ p : Fin 64, hp p * w3 W p j) (b j)]

end Logit

section Row
variable (l : Fin 64 → EReal)

/-- The reference's second maximum against `-∞` changes nothing. -/
theorem refShift_eq (j : Fin 64) : refShift l j = KernelValue.expo l j := by
  unfold refShift KernelValue.expo KernelValue.rowMaxOf
  rw [ofBits_neg_inf, max_eq_right bot_le]

/-- Nor does summing from zero. -/
theorem refAttn_eq (j : Fin 64) : refAttn l j = KernelValue.attn l j := by
  unfold refAttn KernelValue.attn
  rw [Ideal.ofBits_zero_f32, zero_add, show refShift l = KernelValue.expo l from funext (refShift_eq l)]

end Row

section Score
variable (e ρ t hp : Fin 64 → EReal) (W : Fin 64 → Fin 192 → EReal) (b : Fin 64 → EReal)

theorem refDiff_eq (k : Fin 64) :
    refDiff e ρ t hp W b k = KernelValue.dist (KernelValue.logit (w1 W) (w2 W) (cv hp W b) e ρ) e ρ t k := by
  unfold refDiff KernelValue.dist
  rw [show refLogit e ρ hp W b = KernelValue.logit (w1 W) (w2 W) (cv hp W b) e ρ from funext (refLogit_eq e ρ hp W b),
    refAttn_eq]

/-- THE ROW BRIDGE: the reference's score of a triplet is minus the kernel's norm of it. -/
theorem refScore_eq : refScore e ρ t hp W b = - KernelValue.rowNorm (w1 W) (w2 W) (cv hp W b) e ρ t := by
  unfold refScore KernelValue.rowNorm
  rw [Ideal.ofBits_zero_f32, zero_add, show refDiff e ρ t hp W b = KernelValue.dist (KernelValue.logit (w1 W) (w2 W) (cv hp W b) e ρ) e ρ t
    from funext (refDiff_eq e ρ t hp W b)]

end Score

/-! ## The tail -/

/-- The reference's clamped margin of two scores `-np`, `-nn` is the kernel's hinge of the norms. -/
theorem hinge_eq (np nn : EReal) :
    max (Ideal.ofBits .f32 0x00000000#32) (((-nn) - (-np)) + Ideal.ofBits .f32 0x3F800000#32) = KernelValue.hinge np nn := by
  unfold KernelValue.hinge
  rw [neg_sub_neg']

/-- The reference's mean over the triplets, from scores that are minus the norms `P`, `N`: the kernel's sum of hinges
    times the word of 2⁻¹⁴. -/
theorem loss_rows (P N : Fin 16384 → EReal) :
    Ideal.div (Ideal.ofBits .f32 0x00000000#32
        + ∑ i : Fin 16384, max (Ideal.ofBits .f32 0x00000000#32) (((-N i) - (-P i)) + Ideal.ofBits .f32 0x3F800000#32))
      (Ideal.ofBits .f32 0x46800000#32)
      = (∑ i : Fin 16384, KernelValue.hinge (P i) (N i)) * Ideal.ofBits .f32 0x38800000#32 := by
  simp only [hinge_eq]
  rw [div_16384, Ideal.ofBits_zero_f32, zero_add]

end Cert.RowBridge

end
-- ==== Proof.RefDist.lean ====
/- The reference's attention, translation distance and norm read one triplet at a time, on the extended reals.

   Each of the reference's row operations is read at an index: a value per triplet spread along its row; a row's
   maximum as the fold of max over its 64 entries and a row's sum as the initial value plus the sum of its 64
   entries; the product with the transposed weights at (n, j) as the sum over the 192 entries of the concatenated
   row (head, relation, hyperplane) against row j of the weights; the hyperplane and the bias spread over the
   triplets. Composed, the logits, the softmax's numerator, the attention weights, minus the norm, and the score of
   triplet n are the row functions of its own three rows, the hyperplane, the weights and the bias, in the
   reference's own order of operations and with every float literal the word the program spells. -/
import proofs.«203064_g33122787786777_cont_8to1_b_416_18_alg».proof.Proof.RefDefs
import proofs.«203064_g33122787786777_cont_8to1_b_416_18_alg».proof.Proof.RefRowDefs
import Idealize.ShloMosaic.PureOps.Ideal.Laws
import Idealize.ShloMosaic.Lib.ValueIdx
import Idealize.ShloMosaic.Lib.Pipeline.Value

noncomputable section

open scoped BigOperators

namespace Cert.ReferenceIdeal.RefDist

open Cert.ReferenceIdeal Cert.ReferenceIdeal.Gen Cert.ReferenceIdeal.RefRun Cert.ReferenceIdeal.RefRow
open Idealize.ShloMosaic Idealize.ShloMosaic.ValueIdx

/-! ## The host's one-operand operations at an index (definitional at the extended reals) -/

section Pointwise
variable {s : Shape} {φ : FTy}
theorem hostExp_apply (x : FVec Ideal s φ) (i : s.Idx) : Host.exp x i = Ideal.exp (x i) := rfl
theorem hostDivf_apply (x y : FVec Ideal s φ) (i : s.Idx) : Host.divf x y i = Ideal.div (x i) (y i) := rfl
theorem hostNegf_apply (x : FVec Ideal s φ) (i : s.Idx) : Host.negf x i = -(x i) := rfl
theorem hostSqrt_apply (x : FVec Ideal s φ) (i : s.Idx) : Host.sqrt x i = Ideal.sqrt (x i) := rfl
end Pointwise

/-- A value per triplet spread along that triplet's row reads, at entry (n, j), the triplet's value. -/
theorem alongRow_apply (v : FVec Ideal S16384 .f32) (n : Fin 16384) (j : Fin 64) :
    alongRow (F := Ideal) v (ix2 n j) = v (ix1 n) := by
  unfold alongRow
  rw [broadcastInDim_apply ![0, 1] bcast_S16384x1_S16384x64_0_1 _ (ix2 n j) (ix2 n (0 : Fin 1)) (fun a => by
    match a with
    | ⟨0, _⟩ => rfl
    | ⟨1, _⟩ => rfl)]
  rw [broadcastInDim_apply ![0] bcast_S16384_S16384x1_0 v (ix2 n (0 : Fin 1)) (ix1 n) (fun a => by
    match a with
    | ⟨0, _⟩ => rfl)]

/-- The index a row reduction inserts: triplet n with entry k put back on the reduced axis. -/
theorem lift_row (h : S16384x64.Reduces [1] S16384) (n : Fin 16384) (k : Fin 64) :
    h.lift (ix1 n) k = ix2 n k := by
  funext a
  refine Fin.ext ?_
  match a with
  | ⟨0, _⟩ => rfl
  | ⟨1, _⟩ => rfl

/-- A row's maximum taken from an initial value: the fold of max over the row's 64 entries. -/
theorem rowMax_apply (z : FVec Ideal S16384x64 .f32) (w : BitVec 32) (n : Fin 16384) :
    Host.reduce FloatOps.maximumf z (constant (F := Ideal) S_ .f32 w) reducesTo_S16384x64_S16384_d1 h_S_ (ix1 n)
      = (Finset.univ : Finset (Fin 64)).fold max (Ideal.ofBits .f32 w) fun k => z (ix2 n k) := by
  have h : S16384x64.Reduces [1] S16384 := by decide
  rw [Host.reduce_eq_fold_single FloatOps.maximumf z _ reducesTo_S16384x64_S16384_d1 h h_S_ (ix1 n)]
  have e : (z ∘ h.lift (ix1 n)) = fun k : Fin 64 => z (ix2 n k) := funext fun k => congrArg z (lift_row h n k)
  rw [e]
  rfl

/-- A row's sum taken from an initial value: the initial value plus the sum of the row's 64 entries. -/
theorem rowSum_apply (x : FVec Ideal S16384x64 .f32) (w : BitVec 32) (n : Fin 16384) :
    Host.reduceAdd x (constant (F := Ideal) S_ .f32 w) reducesTo_S16384x64_S16384_d1 h_S_ (ix1 n)
      = Ideal.ofBits .f32 w + ∑ k : Fin 64, x (ix2 n k) := by
  have h : S16384x64.Reduces [1] S16384 := by decide
  show Ideal.hostReduceAdd reducesTo_S16384x64_S16384_d1 x (Ideal.ofBits .f32 w) (ix1 n) = _
  rw [Ideal.hostReduceAdd_single reducesTo_S16384x64_S16384_d1 h x _ (ix1 n)]
  exact congrArg (Ideal.ofBits .f32 w + ·) (Finset.sum_congr rfl fun k _ => congrArg x (lift_row h n k))

/-- A scalar constant spread over the 16384 triplets reads its value. -/
theorem splat16384_apply (w : BitVec 32) (n : Fin 16384) :
    broadcastInDim S16384 ![] bcast_S_S16384 (constant (F := Ideal) S_ .f32 w) (ix1 n) = Ideal.ofBits .f32 w := by
  rw [broadcastInDim_apply ![] bcast_S_S16384 _ (ix1 n) ix0 (fun a => a.elim0)]
  rfl

/-- The hyperplane spread over the triplets reads, at (n, q), its q-th entry. -/
theorem hpRows_apply (hp : FVec Ideal S64 .f32) (n : Fin 16384) (q : Fin 64) :
    broadcastInDim S16384x64 ![1] bcast_S64_S16384x64_1 hp (ix2 n q) = hp (ix1 q) := by
  rw [broadcastInDim_apply ![1] bcast_S64_S16384x64_1 hp (ix2 n q) (ix1 q) (fun a => by
    match a with
    | ⟨0, _⟩ => rfl)]

/-- The bias spread over the triplets (through a one-row array) reads, at (n, j), its j-th entry. -/
theorem biasRows_apply (b : FVec Ideal S64 .f32) (n : Fin 16384) (j : Fin 64) :
    broadcastInDim S16384x64 ![0, 1] bcast_S1x64_S16384x64_0_1 (broadcastInDim S1x64 ![1] bcast_S64_S1x64_1 b) (ix2 n j)
      = b (ix1 j) := by
  rw [broadcastInDim_apply ![0, 1] bcast_S1x64_S16384x64_0_1 _ (ix2 n j) (ix2 (0 : Fin 1) j) (fun a => by
    match a with
    | ⟨0, _⟩ => rfl
    | ⟨1, _⟩ => rfl)]
  rw [broadcastInDim_apply ![1] bcast_S64_S1x64_1 b (ix2 (0 : Fin 1) j) (ix1 j) (fun a => by
    match a with
    | ⟨0, _⟩ => rfl)]

/-- The transposed weights at (k, j) are the weights at (j, k). -/
theorem weightsT_apply (W : FVec Ideal S64x192 .f32) (k : Fin 192) (j : Fin 64) :
    transpose S192x64 [1, 0] W transposes_S64x192_S192x64_1_0 (ix2 k j) = W (ix2 j k) := by
  rw [transpose_apply [1, 0] W transposes_S64x192_S192x64_1_0 (ix2 k j) (ix2 j k) (fun b => by
    match b with
    | ⟨0, _⟩ => rfl
    | ⟨1, _⟩ => rfl)]

/-- The concatenation of the head rows, the relation rows and the spread hyperplane, read at (n, k): entry k of
    the 192-wide row (head, relation, hyperplane) of triplet n. -/
theorem cat_apply (e ρ : FVec Ideal S16384x64 .f32) (hp : FVec Ideal S64 .f32) (n : Fin 16384) (k : Fin 192) :
    concatenate S16384x192 1
        [⟨S16384x64, e⟩, ⟨S16384x64, ρ⟩, ⟨S16384x64, broadcastInDim S16384x64 ![1] bcast_S64_S16384x64_1 hp⟩]
        concatenates_S16384x64_S16384x64_S16384x64_S16384x192_d1 (ix2 n k)
      = catRow (fun q => e (ix2 n q)) (fun q => ρ (ix2 n q)) (fun q => hp (ix1 q)) k := by
  unfold catRow
  by_cases h : k.val < 64
  · rw [dif_pos h]
    exact concatenate_apply_piece (α := EReal) (t := S16384x192) (1 : Fin 2)
      [⟨S16384x64, e⟩, ⟨S16384x64, ρ⟩, ⟨S16384x64, broadcastInDim S16384x64 ![1] bcast_S64_S16384x64_1 hp⟩]
      concatenates_S16384x64_S16384x64_S16384x64_S16384x192_d1 (ix2 n k)
      0 (Nat.succ_pos _) S16384x64 e rfl rfl 0 rfl (ix2 n ⟨k.val, h⟩)
      (fun b hb => by
        match b with
        | ⟨0, _⟩ => rfl
        | ⟨1, _⟩ => exact absurd rfl hb)
      (by show 0 + k.val = k.val; omega)
  · rw [dif_neg h]
    by_cases h' : k.val < 128
    · rw [dif_pos h']
      exact concatenate_apply_piece (α := EReal) (t := S16384x192) (1 : Fin 2)
        [⟨S16384x64, e⟩, ⟨S16384x64, ρ⟩, ⟨S16384x64, broadcastInDim S16384x64 ![1] bcast_S64_S16384x64_1 hp⟩]
        concatenates_S16384x64_S16384x64_S16384x64_S16384x192_d1 (ix2 n k)
        1 (Nat.succ_lt_succ (Nat.succ_pos _)) S16384x64 ρ rfl rfl 64 rfl (ix2 n ⟨k.val - 64, by omega⟩)
        (fun b hb => by
          match b with
          | ⟨0, _⟩ => rfl
          | ⟨1, _⟩ => exact absurd rfl hb)
        (by show 64 + (k.val - 64) = k.val; omega)
    · rw [dif_neg h']
      have hk := k.isLt
      rw [concatenate_apply_piece (α := EReal) (t := S16384x192) (1 : Fin 2)
        [⟨S16384x64, e⟩, ⟨S16384x64, ρ⟩, ⟨S16384x64, broadcastInDim S16384x64 ![1] bcast_S64_S16384x64_1 hp⟩]
        concatenates_S16384x64_S16384x64_S16384x64_S16384x192_d1 (ix2 n k)
        2 (Nat.succ_lt_succ (Nat.succ_lt_succ (Nat.succ_pos _))) S16384x64
        (broadcastInDim S16384x64 ![1] bcast_S64_S16384x64_1 hp) rfl rfl 128 rfl
        (ix2 n ⟨k.val - 128, by omega⟩)
        (fun b hb => by
          match b with
          | ⟨0, _⟩ => rfl
          | ⟨1, _⟩ => exact absurd rfl hb)
        (by show 128 + (k.val - 128) = k.val; omega)]
      exact hpRows_apply hp n _

/-- The product of a [16384, 192] array with a [192, 64] array at (n, j): the sum over the 192 contracted entries. -/
theorem dot_apply (l : FVec Ideal S16384x192 .f32) (r : FVec Ideal S192x64 .f32) (n : Fin 16384) (j : Fin 64) :
    Host.dotGeneral dot_S16384x192_S192x64_S16384x64_1_0_0_1_n_n none l r (ix2 n j)
      = ∑ k : Fin 192, l (ix2 n k) * r (ix2 k j) := by
  show FloatOps.dotGeneral dot_S16384x192_S192x64_S16384x64_1_0_0_1_n_n none .single l r (ix2 n j) = _
  rw [Ideal.dotGeneral_apply]
  rw [← Equiv.sum_comp (contrEquiv1 dot_S16384x192_S192x64_S16384x64_1_0_0_1_n_n 192 rfl rfl).symm]
  refine Finset.sum_congr rfl fun k _ => ?_
  have hk := contrEquiv1_symm_val dot_S16384x192_S192x64_S16384x64_1_0_0_1_n_n 192 rfl rfl k
  have el : dot_S16384x192_S192x64_S16384x64_1_0_0_1_n_n.lhsIdx (ix2 n j)
      ((contrEquiv1 dot_S16384x192_S192x64_S16384x64_1_0_0_1_n_n 192 rfl rfl).symm k) = ix2 n k :=
    funext fun a => Fin.ext (by
      match a with
      | ⟨0, _⟩ => rfl
      | ⟨1, _⟩ => exact (dot_S16384x192_S192x64_S16384x64_1_0_0_1_n_n.lhsIdx_val_of_single rfl (ix2 n j) _).trans hk)
  have er : dot_S16384x192_S192x64_S16384x64_1_0_0_1_n_n.rhsIdx (ix2 n j)
      ((contrEquiv1 dot_S16384x192_S192x64_S16384x64_1_0_0_1_n_n 192 rfl rfl).symm k) = ix2 k j :=
    funext fun a => Fin.ext (by
      match a with
      | ⟨0, _⟩ => exact (dot_S16384x192_S192x64_S16384x64_1_0_0_1_n_n.rhsIdx_val_of_single rfl (ix2 n j) _).trans hk
      | ⟨1, _⟩ => rfl)
  rw [el, er]

/-! ## The five readings -/

/-- The attention logit of triplet n at entry j: the 192-wide row (head, relation, hyperplane) against row j of the
    weights, plus the bias. -/
theorem logits_apply (e ρ : FVec Ideal S16384x64 .f32) (hp : FVec Ideal S64 .f32) (W : FVec Ideal S64x192 .f32)
    (b : FVec Ideal S64 .f32) (n : Fin 16384) (j : Fin 64) :
    logits (F := Ideal) e ρ hp W b (ix2 n j)
      = refLogit (fun q => e (ix2 n q)) (fun q => ρ (ix2 n q)) (fun q => hp (ix1 q)) (fun j k => W (ix2 j k))
          (fun j => b (ix1 j)) j := by
  unfold logits refLogit
  rw [addf_apply, biasRows_apply, dot_apply]
  refine congrArg (· + b (ix1 j)) (Finset.sum_congr rfl fun k _ => ?_)
  rw [cat_apply, weightsT_apply]

/-- The softmax's numerator at (n, j): the exponential of the logit less the row's maximum, the maximum folded from
    `-∞` and taken once more against `-∞`. -/
theorem expShift_apply (z : FVec Ideal S16384x64 .f32) (n : Fin 16384) (j : Fin 64) :
    expShift (F := Ideal) z (ix2 n j) = refShift (fun k => z (ix2 n k)) j := by
  unfold expShift refShift
  rw [hostExp_apply, subf_apply, alongRow_apply, maximumf_apply, splat16384_apply, rowMax_apply]

/-- The attention weight at (n, j): the numerator over the row's sum of numerators from zero. -/
theorem attn_apply (z : FVec Ideal S16384x64 .f32) (n : Fin 16384) (j : Fin 64) :
    attn (F := Ideal) z (ix2 n j) = refAttn (fun k => z (ix2 n k)) j := by
  unfold attn refAttn
  rw [hostDivf_apply, alongRow_apply, rowSum_apply, expShift_apply]
  exact congrArg (fun s => Ideal.div _ (Ideal.ofBits .f32 0x00000000#32 + s))
    (Finset.sum_congr rfl fun k _ => expShift_apply z n k)

/-- Minus the norm of row n: minus the square root of the row's sum of squares from zero. -/
theorem negNorm_apply (d : FVec Ideal S16384x64 .f32) (n : Fin 16384) :
    negNorm (F := Ideal) d (ix1 n)
      = - Ideal.sqrt (Ideal.ofBits .f32 0x00000000#32 + ∑ k : Fin 64, d (ix2 n k) * d (ix2 n k)) := by
  unfold negNorm
  rw [hostNegf_apply, hostSqrt_apply, rowSum_apply]
  rfl

/-- The score of triplet n from its three rows. -/
theorem dist_apply (e ρ t : FVec Ideal S16384x64 .f32) (hp : FVec Ideal S64 .f32) (W : FVec Ideal S64x192 .f32)
    (b : FVec Ideal S64 .f32) (n : Fin 16384) :
    RefRun.dist (F := Ideal) e ρ t hp W b (ix1 n)
      = refScore (fun q => e (ix2 n q)) (fun q => ρ (ix2 n q)) (fun q => t (ix2 n q)) (fun q => hp (ix1 q))
          (fun j k => W (ix2 j k)) (fun j => b (ix1 j)) := by
  unfold RefRun.dist refScore
  rw [negNorm_apply]
  have hd : ∀ k : Fin 64,
      subf (addf (mulf e (attn (F := Ideal) (logits (F := Ideal) e ρ hp W b))) ρ) t (ix2 n k)
        = refDiff (fun q => e (ix2 n q)) (fun q => ρ (ix2 n q)) (fun q => t (ix2 n q)) (fun q => hp (ix1 q))
            (fun j k => W (ix2 j k)) (fun j => b (ix1 j)) k := by
    intro k
    unfold refDiff
    rw [subf_apply, addf_apply, mulf_apply, attn_apply]
    have hl : (fun k' : Fin 64 => logits (F := Ideal) e ρ hp W b (ix2 n k'))
        = refLogit (fun q => e (ix2 n q)) (fun q => ρ (ix2 n q)) (fun q => hp (ix1 q)) (fun j k => W (ix2 j k))
            (fun j => b (ix1 j)) := funext fun k' => logits_apply e ρ hp W b n k'
    rw [hl]
  exact congrArg (fun s => - Ideal.sqrt (Ideal.ofBits .f32 0x00000000#32 + s))
    (Finset.sum_congr rfl fun k _ => by rw [hd k])

end Cert.ReferenceIdeal.RefDist

end
-- ==== Proof.LibGatherRows.lean ====
/-
  A lemma file for `jnp.take(table, idx, axis=0)` references: the `stablehlo.gather` that `take` of a rank-2 table by an
  index column lowers to — offset axis 1, axis 0 collapsed, the start index naming axis 0, slices of one row — read at
  a result index `(p, c)` is the table at row `idx[p, 0]` (read signed, clamped into `[0, N − 1]`) and column `c`.
  Stated of any dimension numbers with those fields, so a printed `GatherDims` literal takes it with six `rfl`s.
-/
import Idealize.ShloMosaic.PureOps
import Idealize.ShloMosaic.Lib.ValueIdx

namespace Cert.LibGatherRows

open Idealize.ShloMosaic Idealize.ShloMosaic.ValueIdx

variable {α : Type}

/-- The row gather read at `(p, c)`: the table at the clamped start index's row, column `c`. -/
theorem gather_rows_apply {N C R w : Nat} (hN : 0 < N) (d : GatherDims ⟨2, ![N, C]⟩ ⟨2, ![R, 1]⟩ ⟨2, ![R, C]⟩)
    (hod : d.offsetDims = [1]) (hcs : d.collapsedSliceDims = [0]) (hob : d.operandBatchingDims = [])
    (hsim : d.startIndexMap = [0]) (hiv : d.indexVectorDim = 1) (hss : d.sliceSizes = ![1, C])
    (x : (⟨2, ![N, C]⟩ : Shape).Idx → α) (idx : IVec ⟨2, ![R, 1]⟩ w) (y : (⟨2, ![R, C]⟩ : Shape).Idx) :
    Host.gather d x idx y
      = x (ix2 ⟨min (idx (ix2 ⟨(y 0).val, idx2_lt0 y⟩ ⟨0, Nat.one_pos⟩)).toInt.toNat (N - 1), by omega⟩ ⟨(y 1).val, idx2_lt1 y⟩) := by
  obtain ⟨od, cs, ob, sb, sim, ivd, ss, wf⟩ := d
  simp only at hod hcs hob hsim hiv hss
  subst hod hcs hob hsim hiv hss
  unfold Host.gather
  congr 1
  funext a
  refine Fin.ext ?_
  match a with
  | ⟨0, _⟩ =>
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg₂ min (congrArg (fun z => (idx z).toInt.toNat) ?_) rfl
    funext b; refine Fin.ext ?_
    match b with
    | ⟨0, _⟩ => rfl
    | ⟨1, _⟩ => rfl
  | ⟨1, _⟩ =>
    show GatherDims.start _ y idx 1 + GatherDims.batchCoord _ y 1 + GatherDims.offCoord _ y 1 = _
    rw [GatherDims.batchCoord_eq_zero _ _ _ List.not_mem_nil]
    unfold GatherDims.start
    rw [dif_neg (by simp)]
    simp only [Nat.zero_add]
    unfold GatherDims.offCoord
    rw [dif_pos ((GatherDims.mem_sKept _ _).mpr ⟨show (1 : Fin 2) ∉ [(0 : Fin 2)] by decide, List.not_mem_nil⟩)]
    rfl

end Cert.LibGatherRows
-- ==== Proof.LibReduceAndAll.lean ====
/-
  A lemma file for references that mask by `jnp.all` / range checks: the converse of Lib/ReduceAll.lean's reading — a
  one-operand `stablehlo.reduce` of an `i1` array by `and`, from an initial value of 1 over an operand that is 1
  everywhere, is 1 at every result index. (What turns an in-range hypothesis into "the fill-mode mask of `jnp.take` is
  all ones".)
-/
import Idealize.ShloMosaic.PureOps
import Idealize.ShloMosaic.Lib.ReduceAll
import Idealize.ShloMosaic.Lib.Affine

namespace Cert.LibReduceAndAll

open Idealize.ShloMosaic

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_of_all f l _ ?_ fun n hn => hl n (List.mem_cons_of_mem _ hn)
    show IntOp.andi init (f a) = 1#1
    rw [h, hl a List.mem_cons_self]; decide

variable {s t u : Shape} {axes : List (Fin s.rank)}

/-- A reduce by `and` from 1 of an operand that is 1 everywhere is 1 everywhere. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact foldl_andi_of_all x _ _ hinit fun i _ => hx i

end Cert.LibReduceAndAll
-- ==== Proof.RefTake.lean ====
/-
  The reference's table lookups read at an index.

  A lookup in a table of N rows by an index vector first wraps a negative index (adds N), then tests the wrapped index
  against the range 0 ≤ · ≤ N − 1, gathers the row the (clamped) index names, and keeps that row where the test passed,
  a fill value elsewhere. For an index that is, as an unsigned word, below 100000 — so below 2^31, and its signed reading
  is the same number — nothing is wrapped, the test passes at every row (both tables have at least 100000 rows), the
  clamp changes nothing, and the lookup's entry (n, j) is the table's entry (index n, j).

  The index vectors are the three columns of a triplet array: column k cut out as a [16384, 1] array and flattened, whose
  entry n is the array's entry (n, k). So for a triplet array with every entry below 100000 the looked-up row n of the
  entity table by column 0 or 2, and of the relation table by column 1, is the table's row at that entry.
-/
import proofs.«203064_g33122787786777_cont_8to1_b_416_18_alg».proof.Proof.RefDefs
import proofs.«203064_g33122787786777_cont_8to1_b_416_18_alg».proof.Proof.LibGatherRows
import proofs.«203064_g33122787786777_cont_8to1_b_416_18_alg».proof.Proof.LibReduceAndAll
import Idealize.ShloMosaic.Lib.ValueIdx
import Idealize.ShloMosaic.Lib.Affine
import Idealize.ShloMosaic.Lib.Pipeline.Value

noncomputable section

namespace Cert.ReferenceIdeal.RefTake

open Cert.ReferenceIdeal Cert.ReferenceIdeal.Gen Cert.ReferenceIdeal.RefRun
open Idealize.ShloMosaic Idealize.ShloMosaic.ValueIdx

variable {F : FTy → Type} [FloatOps F]

/-! ## Signed readings of a small word -/

/-- A 32-bit word below 100000 as an unsigned number has its sign bit clear: its signed reading is the same number. -/
theorem toInt_of_lt (w : BitVec 32) (h : w.toNat < 100000) : w.toInt = (w.toNat : Int) := by
  rw [BitVec.toInt_eq_toNat_cond]
  split <;> omega

/-- Such a word is not negative. -/
theorem zero_le_toInt (w : BitVec 32) (h : w.toNat < 100000) : (0#32 : BitVec 32).toInt ≤ w.toInt := by
  have e0 : (0#32 : BitVec 32).toInt = 0 := by decide
  rw [e0, toInt_of_lt w h]
  omega

/-- Such a word is at most the last row of the entity table. -/
theorem toInt_le_lastE (w : BitVec 32) (h : w.toNat < 100000) : w.toInt ≤ (999999#32 : BitVec 32).toInt := by
  have e1 : (999999#32 : BitVec 32).toInt = 999999 := by decide
  rw [e1, toInt_of_lt w h]
  omega

/-- Such a word is at most the last row of the relation table. -/
theorem toInt_le_lastR (w : BitVec 32) (h : w.toNat < 100000) : w.toInt ≤ (99999#32 : BitVec 32).toInt := by
  have e1 : (99999#32 : BitVec 32).toInt = 99999 := by decide
  rw [e1, toInt_of_lt w h]
  omega

/-! ## A column of a triplet array -/

/-- Column k of a [16384, 3] array, sliced out as a [16384, 1] array and flattened to a vector, holds at row r the
    array's entry (r, k): flattening keeps the row-major position r * 1 + 0 = r, and the slice shifts the column by k. -/
theorem column_apply {α : Type} (x : S16384x3.Idx → α) (off : Fin S16384x3.rank → Nat) (k : Fin 3) (h0 : off 0 = 0) (h1 : off 1 = k.val)
    (h : S16384x3.Slices off S16384x1) (hc : S16384x1.ShapeCasts S16384) (j : S16384.Idx) :
    shapeCast S16384 (extractStridedSlice S16384x1 off x h) hc j = x (ix2 (n0 := 16384) (n1 := 3) (j 0) k) := by
  refine (shapeCast_apply _ hc j (ix2 (n0 := 16384) (n1 := 1) (j 0) 0) ?_).trans ?_
  · rw [Shape.rowMajor_val_two, Shape.rowMajor_val_one]
    show (j 0).val * 1 + 0 = (j 0).val
    omega
  · refine extractStridedSlice_apply off x h _ _ fun a => ?_
    match a with
    | ⟨0, _⟩ => show (j 0).val = off 0 + (j 0).val; omega
    | ⟨1, _⟩ => show k.val = off 1 + 0; omega

/-- Entry r of column 0 is the array's entry (r, 0). -/
theorem col0_apply (a : Vec F S16384x3 .i32) (r : S16384.Idx) : col0 (F := F) a r = a (ix2 (r 0) 0) :=
  column_apply (α := BitVec 32) a _ 0 rfl rfl _ _ r

/-- Entry r of column 1 is the array's entry (r, 1). -/
theorem col1_apply (a : Vec F S16384x3 .i32) (r : S16384.Idx) : col1 (F := F) a r = a (ix2 (r 0) 1) :=
  column_apply (α := BitVec 32) a _ 1 rfl rfl _ _ r

/-- Entry r of column 2 is the array's entry (r, 2). -/
theorem col2_apply (a : Vec F S16384x3 .i32) (r : S16384.Idx) : col2 (F := F) a r = a (ix2 (r 0) 2) :=
  column_apply (α := BitVec 32) a _ 2 rfl rfl _ _ r

/-! ## The wrapped index and the range test -/

/-- An index below 100000 is not negative, so wrapping keeps it; as a column, entry (r, 0) is the vector's entry r. -/
theorem wrapIdx_apply (N : BitVec 32) (v : Vec F S16384 .i32) (i : S16384x1.Idx) (h : (v (ix1 (n := 16384) (i 0))).toNat < 100000) :
    wrapIdx (F := F) N v i = v (ix1 (n := 16384) (i 0)) := by
  unfold wrapIdx
  refine (broadcastInDim_apply _ _ _ i (ix1 (n := 16384) (i 0)) fun a => ?_).trans ?_
  · match a with
    | ⟨0, _⟩ => rfl
  · refine (select_apply _ _ _ _).trans ?_
    have hc : cmpi .slt v (broadcastInDim S16384 ![] bcast_S_S16384 (constantI S_ 32 0#32)) (ix1 (n := 16384) (i 0)) = 0#1 := by
      refine eq_zero_of_ne_one fun h1 => ?_
      have h2 : (v (ix1 (n := 16384) (i 0))).toInt < (0#32 : BitVec 32).toInt := IntOp.cmpi_slt.1 h1
      have h3 := zero_le_toInt _ h
      omega
    rw [hc, select_zero]

/-- Where every wrapped index lies between 0 and the last row, the range test passes at every entry. -/
theorem inRange_eq_one (last : BitVec 32) (idx : Vec F S16384x1 .i32)
    (h : ∀ i, (0#32 : BitVec 32).toInt ≤ (idx i).toInt ∧ (idx i).toInt ≤ last.toInt) (y : S16384x64.Idx) :
    inRange (F := F) last idx y = 1#1 := by
  unfold inRange
  refine (broadcastInDim_apply _ _ _ y (ix1 (n := 16384) (y 0)) fun a => ?_).trans ?_
  · match a with
    | ⟨0, _⟩ => rfl
  · refine Cert.LibReduceAndAll.reduce_andi_of_all _ _ _ _ rfl (fun i => ?_) _
    show IntOp.andi (IntOp.cmpi .sge (idx i) 0#32) (IntOp.cmpi .sle (idx i) last) = 1#1
    exact IntOp.andi_eq_one.2 ⟨IntOp.cmpi_sge.2 (h i).1, IntOp.cmpi_sle.2 (h i).2⟩

/-! ## The lookups at an index -/

/-- Entry (n, j) of the entity-table lookup by an index vector with entries below 100000: the table's entry (index n, j). -/
theorem takeE_apply (E : Vec F S1000000x64 .f32) (v : Vec F S16384 .i32) (hv : ∀ r, (v r).toNat < 100000) (n : Fin 16384) (j : Fin 64) :
    takeE E v (ix2 n j) = E (ix2 ⟨(v (ix1 n)).toNat, by have := hv (ix1 n); omega⟩ j) := by
  have hw : ∀ i, wrapIdx (F := F) 1000000#32 v i = v (ix1 (n := 16384) (i 0)) := fun i => wrapIdx_apply _ v i (hv _)
  have hin : ∀ y, inRange (F := F) 999999#32 (wrapIdx (F := F) 1000000#32 v) y = 1#1 :=
    inRange_eq_one _ _ fun i => by rw [hw]; exact ⟨zero_le_toInt _ (hv _), toInt_le_lastE _ (hv _)⟩
  unfold takeE
  refine (select_apply _ _ _ _).trans ?_
  rw [hin, select_one]
  refine (Cert.LibGatherRows.gather_rows_apply (by decide) _ rfl rfl rfl rfl rfl rfl E _ (ix2 n j)).trans ?_
  refine congrArg E (congrArg (fun r => ix2 r j) (Fin.ext ?_))
  show min (wrapIdx (F := F) 1000000#32 v (ix2 n 0)).toInt.toNat (1000000 - 1) = (v (ix1 n)).toNat
  rw [hw, toInt_of_lt _ (hv _), Int.toNat_natCast]
  exact Nat.min_eq_left (Nat.le_sub_one_of_lt (Nat.lt_of_lt_of_le (hv _) (by decide)))

/-- Entry (n, j) of the relation-table lookup by an index vector with entries below 100000: the table's entry (index n, j). -/
theorem takeR_apply (R : Vec F S100000x64 .f32) (v : Vec F S16384 .i32) (hv : ∀ r, (v r).toNat < 100000) (n : Fin 16384) (j : Fin 64) :
    takeR R v (ix2 n j) = R (ix2 ⟨(v (ix1 n)).toNat, hv (ix1 n)⟩ j) := by
  have hw : ∀ i, wrapIdx (F := F) 100000#32 v i = v (ix1 (n := 16384) (i 0)) := fun i => wrapIdx_apply _ v i (hv _)
  have hin : ∀ y, inRange (F := F) 99999#32 (wrapIdx (F := F) 100000#32 v) y = 1#1 :=
    inRange_eq_one _ _ fun i => by rw [hw]; exact ⟨zero_le_toInt _ (hv _), toInt_le_lastR _ (hv _)⟩
  unfold takeR
  refine (select_apply _ _ _ _).trans ?_
  rw [hin, select_one]
  refine (Cert.LibGatherRows.gather_rows_apply (by decide) _ rfl rfl rfl rfl rfl rfl R _ (ix2 n j)).trans ?_
  refine congrArg R (congrArg (fun r => ix2 r j) (Fin.ext ?_))
  show min (wrapIdx (F := F) 100000#32 v (ix2 n 0)).toInt.toNat (100000 - 1) = (v (ix1 n)).toNat
  rw [hw, toInt_of_lt _ (hv _), Int.toNat_natCast]
  exact Nat.min_eq_left (Nat.le_sub_one_of_lt (hv _))

/-! ## The lookups by a triplet array's columns -/

/-- The head rows: entry (n, j) of the entity-table lookup by column 0 is the table's entry (a (n, 0), j). -/
theorem takeE_col0 (a : Vec F S16384x3 .i32) (ha : ∀ i, (a i).toNat < 100000) (E : Vec F S1000000x64 .f32) (n : Fin 16384) (j : Fin 64) :
    takeE E (col0 (F := F) a) (ix2 n j) = E (ix2 ⟨(a (ix2 n 0)).toNat, by have := ha (ix2 n 0); omega⟩ j) := by
  refine (takeE_apply E _ (fun r => by rw [col0_apply]; exact ha _) n j).trans ?_
  exact congrArg E (congrArg (fun r => ix2 r j) (Fin.ext (congrArg BitVec.toNat (col0_apply a (ix1 n)))))

/-- The tail rows: entry (n, j) of the entity-table lookup by column 2 is the table's entry (a (n, 2), j). -/
theorem takeE_col2 (a : Vec F S16384x3 .i32) (ha : ∀ i, (a i).toNat < 100000) (E : Vec F S1000000x64 .f32) (n : Fin 16384) (j : Fin 64) :
    takeE E (col2 (F := F) a) (ix2 n j) = E (ix2 ⟨(a (ix2 n 2)).toNat, by have := ha (ix2 n 2); omega⟩ j) := by
  refine (takeE_apply E _ (fun r => by rw [col2_apply]; exact ha _) n j).trans ?_
  exact congrArg E (congrArg (fun r => ix2 r j) (Fin.ext (congrArg BitVec.toNat (col2_apply a (ix1 n)))))

/-- The relation rows: entry (n, j) of the relation-table lookup by column 1 is the table's entry (a (n, 1), j). -/
theorem takeR_col1 (a : Vec F S16384x3 .i32) (ha : ∀ i, (a i).toNat < 100000) (R : Vec F S100000x64 .f32) (n : Fin 16384) (j : Fin 64) :
    takeR R (col1 (F := F) a) (ix2 n j) = R (ix2 ⟨(a (ix2 n 1)).toNat, ha (ix2 n 1)⟩ j) := by
  refine (takeR_apply R _ (fun r => by rw [col1_apply]; exact ha _) n j).trans ?_
  exact congrArg R (congrArg (fun r => ix2 r j) (Fin.ext (congrArg BitVec.toNat (col1_apply a (ix1 n)))))

end Cert.ReferenceIdeal.RefTake

end
-- ==== Proof.Bridge.lean ====
/-
  The two programs' results are equal on the extended reals.

  The reference's result is the quotient by 16384 of the sum, from zero, over the 16384 triplets of max(0, n − p + 1),
  p and n the scores of the positive and of the negative triplet, a score minus the triplet's norm; the kernel's is
  the sum over the same triplets of max(0, pos − neg + 1), pos and neg the norms, times 2⁻¹⁴. Triplet by triplet the
  two norms are one function of the seven argument arrays: the rows the triplet's three indices name in the two
  tables (every index is below 100000, so neither program's reduction of an index into range moves it), the
  attention weights' three blocks of 64 columns, the hyperplane vector and the bias. The difference of the two
  negated norms is the difference of the norms the other way round, and the quotient by 16384 is the product with
  2⁻¹⁴.
-/
import proofs.«203064_g33122787786777_cont_8to1_b_416_18_alg».proof.Proof.RefRunVal
import proofs.«203064_g33122787786777_cont_8to1_b_416_18_alg».proof.Proof.RefLoss
import proofs.«203064_g33122787786777_cont_8to1_b_416_18_alg».proof.Proof.RefRowDefs
import proofs.«203064_g33122787786777_cont_8to1_b_416_18_alg».proof.Proof.Ends
import proofs.«203064_g33122787786777_cont_8to1_b_416_18_alg».proof.Proof.PreIx
import proofs.«203064_g33122787786777_cont_8to1_b_416_18_alg».proof.Proof.KernelTotal
import proofs.«203064_g33122787786777_cont_8to1_b_416_18_alg».proof.Proof.LibLossAlg
import proofs.«203064_g33122787786777_cont_8to1_b_416_18_alg».proof.Proof.RowBridge
import proofs.«203064_g33122787786777_cont_8to1_b_416_18_alg».proof.Proof.RefDist
import proofs.«203064_g33122787786777_cont_8to1_b_416_18_alg».proof.Proof.RefTake

set_option maxRecDepth 16384

noncomputable section

namespace Cert.Bridge

open Idealize.ShloMosaic Idealize.ShloMosaic.TcCoe Idealize.SL.Sem
open Idealize.ShloMosaic.ValueIdx
open Cert.KernelIdeal.KernelValue (rowNorm hinge scaleW lcol rcol)
open Cert.ReferenceIdeal.RefRow (refScore)

/-- The index types of the arrays (the two programs spell the same shapes). -/
abbrev S16384x3i : Type := (⟨2, ![16384, 3]⟩ : Shape).Idx
abbrev S1000000x64i : Type := (⟨2, ![1000000, 64]⟩ : Shape).Idx
abbrev S100000x64i : Type := (⟨2, ![100000, 64]⟩ : Shape).Idx
abbrev S16384x64i : Type := (⟨2, ![16384, 64]⟩ : Shape).Idx
abbrev S64x192i : Type := (⟨2, ![64, 192]⟩ : Shape).Idx
abbrev S64i : Type := (⟨1, ![64]⟩ : Shape).Idx

/-- Columns k, 64 + k, 128 + k of a row of the attention weights. -/
def c0 (k : Fin 64) : Fin 192 := ⟨k.val, by have := k.isLt; omega⟩
def c1 (k : Fin 64) : Fin 192 := ⟨64 + k.val, by have := k.isLt; omega⟩
def c2 (k : Fin 64) : Fin 192 := ⟨128 + k.val, by have := k.isLt; omega⟩

/-- A triplet's norm from the seven arrays as functions: the triplet's three indices name the head and tail rows of
    the entity table and the relation row of the relation table. -/
def normOf (a : S16384x3i → BitVec 32) (E : S1000000x64i → EReal) (R : S100000x64i → EReal) (hp : Fin 64 → EReal)
    (W : Fin 64 → Fin 192 → EReal) (b : Fin 64 → EReal) (hlt : ∀ i, (a i).toNat < 100000) (n : Fin 16384) : EReal :=
  rowNorm (fun k j => W j (c0 k)) (fun k j => W j (c1 k)) (fun j => b j + ∑ k : Fin 64, hp k * W j (c2 k))
    (fun k => E (ix2 ⟨(a (ix2 n 0)).toNat, lt_trans (hlt _) (by decide)⟩ k))
    (fun k => R (ix2 ⟨(a (ix2 n 1)).toNat, hlt _⟩ k))
    (fun k => E (ix2 ⟨(a (ix2 n 2)).toNat, lt_trans (hlt _) (by decide)⟩ k))

section Pending

/-! The facts about the reference's operations this assembly rests on. -/

variable
  (hDist : ∀ (e ρ t : S16384x64i → EReal) (hp : S64i → EReal) (W : S64x192i → EReal) (b : S64i → EReal) (n : Fin 16384),
    Cert.ReferenceIdeal.RefRun.dist (F := Ideal) e ρ t hp W b (ix1 n)
      = refScore (fun k => e (ix2 n k)) (fun k => ρ (ix2 n k)) (fun k => t (ix2 n k)) (fun k => hp (ix1 k)) (fun j k => W (ix2 j k)) (fun j => b (ix1 j)))
  (hTakeE0 : ∀ (E : S1000000x64i → EReal) (a : S16384x3i → BitVec 32) (hlt : ∀ i, (a i).toNat < 100000) (n : Fin 16384) (j : Fin 64),
    Cert.ReferenceIdeal.RefRun.takeE (F := Ideal) E (Cert.ReferenceIdeal.RefRun.col0 (F := Ideal) a) (ix2 n j)
      = E (ix2 ⟨(a (ix2 n 0)).toNat, lt_trans (hlt _) (by decide)⟩ j))
  (hTakeE2 : ∀ (E : S1000000x64i → EReal) (a : S16384x3i → BitVec 32) (hlt : ∀ i, (a i).toNat < 100000) (n : Fin 16384) (j : Fin 64),
    Cert.ReferenceIdeal.RefRun.takeE (F := Ideal) E (Cert.ReferenceIdeal.RefRun.col2 (F := Ideal) a) (ix2 n j)
      = E (ix2 ⟨(a (ix2 n 2)).toNat, lt_trans (hlt _) (by decide)⟩ j))
  (hTakeR1 : ∀ (R : S100000x64i → EReal) (a : S16384x3i → BitVec 32) (hlt : ∀ i, (a i).toNat < 100000) (n : Fin 16384) (j : Fin 64),
    Cert.ReferenceIdeal.RefRun.takeR (F := Ideal) R (Cert.ReferenceIdeal.RefRun.col1 (F := Ideal) a) (ix2 n j)
      = R (ix2 ⟨(a (ix2 n 1)).toNat, hlt _⟩ j))
  (hRow : ∀ (e ρ t hp : Fin 64 → EReal) (W : Fin 64 → Fin 192 → EReal) (b : Fin 64 → EReal),
    refScore e ρ t hp W b
      = - rowNorm (fun k j => W j (c0 k)) (fun k j => W j (c1 k)) (fun j => b j + ∑ k : Fin 64, hp k * W j (c2 k)) e ρ t)

include hDist hTakeE0 hTakeE2 hTakeR1 hRow

/-- A triplet array's scores, triplet by triplet: minus the triplet's norm. -/
theorem scores_at (a : S16384x3i → BitVec 32) (E : S1000000x64i → EReal) (R : S100000x64i → EReal) (hp : S64i → EReal)
    (W : S64x192i → EReal) (b : S64i → EReal) (hlt : ∀ i, (a i).toNat < 100000) (n : Fin 16384) :
    Cert.ReferenceIdeal.RefRun.scores (F := Ideal) a E R hp W b (ix1 n)
      = - normOf a E R (fun k => hp (ix1 k)) (fun j k => W (ix2 j k)) (fun j => b (ix1 j)) hlt n := by
  unfold Cert.ReferenceIdeal.RefRun.scores
  rw [hDist, hRow]
  unfold normOf
  have e0 : (fun k => Cert.ReferenceIdeal.RefRun.takeE (F := Ideal) E (Cert.ReferenceIdeal.RefRun.col0 (F := Ideal) a) (ix2 n k))
      = fun k => E (ix2 ⟨(a (ix2 n 0)).toNat, lt_trans (hlt _) (by decide)⟩ k) := funext fun k => hTakeE0 E a hlt n k
  have e1 : (fun k => Cert.ReferenceIdeal.RefRun.takeR (F := Ideal) R (Cert.ReferenceIdeal.RefRun.col1 (F := Ideal) a) (ix2 n k))
      = fun k => R (ix2 ⟨(a (ix2 n 1)).toNat, hlt _⟩ k) := funext fun k => hTakeR1 R a hlt n k
  have e2 : (fun k => Cert.ReferenceIdeal.RefRun.takeE (F := Ideal) E (Cert.ReferenceIdeal.RefRun.col2 (F := Ideal) a) (ix2 n k))
      = fun k => E (ix2 ⟨(a (ix2 n 2)).toNat, lt_trans (hlt _) (by decide)⟩ k) := funext fun k => hTakeE2 E a hlt n k
  exact congrArg Neg.neg (congr (congr (congrArg (rowNorm _ _ _) e0) e1) e2)

/-- THE REFERENCE'S VALUE as mathematics: the sum over the 16384 triplets of the hinge of the positive and the negative
    triplet's norms, times the word of 2⁻¹⁴. -/
theorem refVal_at (a0 a1 : S16384x3i → BitVec 32) (E : S1000000x64i → EReal) (R : S100000x64i → EReal) (hp : S64i → EReal)
    (W : S64x192i → EReal) (b : S64i → EReal) (h0 : ∀ i, (a0 i).toNat < 100000) (h1 : ∀ i, (a1 i).toNat < 100000) :
    Cert.ReferenceIdeal.RefRun.refVal (F := Ideal) a0 a1 E R hp W b ix0
      = (∑ n : Fin 16384, hinge (normOf a0 E R (fun k => hp (ix1 k)) (fun j k => W (ix2 j k)) (fun j => b (ix1 j)) h0 n)
          (normOf a1 E R (fun k => hp (ix1 k)) (fun j k => W (ix2 j k)) (fun j => b (ix1 j)) h1 n)) * scaleW := by
  unfold Cert.ReferenceIdeal.RefRun.refVal
  rw [Cert.ReferenceIdeal.RefValue.loss_apply, Cert.LibLossAlg.div_16384, Ideal.ofBits_zero_f32, zero_add]
  refine congrArg (· * scaleW) (Finset.sum_congr rfl fun n _ => ?_)
  rw [scores_at hDist hTakeE0 hTakeE2 hTakeR1 hRow a0 E R hp W b h0 n, scores_at hDist hTakeE0 hTakeE2 hTakeR1 hRow a1 E R hp W b h1 n,
    Cert.LibLossAlg.neg_sub_neg']
  unfold hinge
  rw [Ideal.ofBits_zero_f32]

end Pending

/-! ## The kernel's side in the same terms -/

section KernelSide

open Cert.KernelIdeal Cert.KernelIdeal.Vals Cert.KernelIdeal.KernelTotal Cert.KernelIdeal.KernelVals Cert.KernelIdeal.Tile
open Cert.KernelIdeal.PreIx

variable (m : (ℓ : Loc Cert.KernelIdeal.nD Cert.KernelIdeal.τ Cert.KernelIdeal.sig) → Buf (Elt Ideal) ℓ) (c : Dev Cert.KernelIdeal.nD)

/-- The two triplet arrays at launch. -/
def trip0 : S16384x3i → BitVec 32 := m ((c.tc : Thread nD τ).loc main_arg0)
def trip1 : S16384x3i → BitVec 32 := m ((c.tc : Thread nD τ).loc main_arg1)

theorem colOf_val (t : Fin 6) : (colOf t).val = t.val % 3 := rfl

/-- Every entry of the positive triplets names a row below 100000, -/
theorem trip0_lt (hix : IxLt m c) (i : S16384x3i) : (trip0 m c i).toNat < 100000 := by
  obtain ⟨r, k, rfl⟩ : ∃ (r : Fin 16384) (k : Fin 3), i = ix2 r k := ⟨i 0, i 1, eq_ix2 i⟩
  have h := hix ⟨k.val, by have := k.isLt; omega⟩ (ix1 r)
  rw [ixOf_eq] at h
  unfold tripOf at h
  rw [if_pos (show (⟨k.val, _⟩ : Fin 6).val < 3 from k.isLt)] at h
  have e : at3 ((ix1 r : S16384.Idx) 0) (colOf ⟨k.val, by have := k.isLt; omega⟩) = ix2 r k :=
    congrArg (ix2 r) (Fin.ext (by show k.val % 3 = k.val; have := k.isLt; omega))
  rw [e] at h
  exact h
/-- and of the negative triplets. -/
theorem trip1_lt (hix : IxLt m c) (i : S16384x3i) : (trip1 m c i).toNat < 100000 := by
  obtain ⟨r, k, rfl⟩ : ∃ (r : Fin 16384) (k : Fin 3), i = ix2 r k := ⟨i 0, i 1, eq_ix2 i⟩
  have h := hix ⟨3 + k.val, by have := k.isLt; omega⟩ (ix1 r)
  rw [ixOf_eq] at h
  unfold tripOf at h
  rw [if_neg (show ¬(⟨3 + k.val, _⟩ : Fin 6).val < 3 by show ¬(3 + k.val < 3); omega)] at h
  have e : at3 ((ix1 r : S16384.Idx) 0) (colOf ⟨3 + k.val, by have := k.isLt; omega⟩) = ix2 r k :=
    congrArg (ix2 r) (Fin.ext (by show (3 + k.val) % 3 = k.val; have := k.isLt; omega))
  rw [e] at h
  exact h

/-- The table row an index vector names at a triplet is that triplet's entry of its triplet array. -/
theorem rowIx_val (hix : IxLt m c) (t : Fin 6) (n : Fin 16384) :
    (rowIx m c t n).val = (tripOf m c t (ix2 n (colOf t))).toNat := by
  unfold rowIx rowOf
  show (ixOf m c t (ix1 n)).toNat % 100352 = _
  have h := hix t (ix1 n)
  rw [Nat.mod_eq_of_lt (by omega), ixOf_eq]

/-- The launch arrays as functions on the index types. -/
def entF : S1000000x64i → EReal := entA m c
def relF : S100000x64i → EReal := relA m c
def hypF : S64i → EReal := hypA m c
def wF : S64x192i → EReal := wA m c
def bF : S64i → EReal := bA m c

theorem wcol0 (k : Fin 64) : wcol 0 (by decide) k = c0 k := Fin.ext (Nat.zero_add _)

/-- The kernel's term of triplet row n is the hinge of the two triplets' norms, in the reference's terms. -/
theorem rowLossM_eq (hix : IxLt m c) (n : Fin 16384) :
    rowLossM m c n
      = hinge (normOf (trip0 m c) (entF m c) (relF m c) (fun k => hypF m c (ix1 k)) (fun j k => wF m c (ix2 j k)) (fun j => bF m c (ix1 j)) (trip0_lt m c hix) n)
          (normOf (trip1 m c) (entF m c) (relF m c) (fun k => hypF m c (ix1 k)) (fun j k => wF m c (ix2 j k)) (fun j => bF m c (ix1 j)) (trip1_lt m c hix) n) := by
  have hw1 : wk1 m c = fun k j => wF m c (ix2 j (c0 k)) := funext fun k => funext fun j => by unfold wk1 wF; rw [wcol0]
  have hw2 : wk2 m c = fun k j => wF m c (ix2 j (c1 k)) := funext fun k => funext fun j => rfl
  have hcv : cvk m c = fun j => bF m c (ix1 j) + ∑ k : Fin 64, hypF m c (ix1 k) * wF m c (ix2 j (c2 k)) := funext fun j => rfl
  have hE : ∀ (t : Fin 6), eRow m c t n = fun k => entF m c (ix2 ⟨(tripOf m c t (ix2 n (colOf t))).toNat,
      by have := hix t (ix1 n); rw [ixOf_eq] at this; exact lt_trans this (by decide)⟩ k) := fun t => funext fun k => by
    unfold eRow entF
    exact congrArg (entA m c) (congrArg (fun r => ix2 r k) (Fin.ext (rowIx_val m c hix t n)))
  have hR : ∀ (t : Fin 6), rRow m c t n = fun k => relF m c (ix2 ⟨(tripOf m c t (ix2 n (colOf t))).toNat,
      by have := hix t (ix1 n); rw [ixOf_eq] at this; exact this⟩ k) := fun t => funext fun k => by
    unfold rRow relF
    refine congrArg (relA m c) (congrArg (fun r => ix2 r k) (Fin.ext ?_))
    show (rowIx m c t n).val % 100000 = _
    rw [rowIx_val m c hix t n]
    have := hix t (ix1 n); rw [ixOf_eq] at this
    exact Nat.mod_eq_of_lt this
  unfold rowLossM normOf
  rw [hw1, hw2, hcv, hE 0, hR 1, hE 2, hE 3, hR 4, hE 5]
  rfl

end KernelSide

/-! ## The two results are equal -/

section Final

open Cert.KernelIdeal Cert.KernelIdeal.Vals Cert.KernelIdeal.KernelTotal Cert.KernelIdeal.KernelVals

variable
  (hDist : ∀ (e ρ t : S16384x64i → EReal) (hp : S64i → EReal) (W : S64x192i → EReal) (b : S64i → EReal) (n : Fin 16384),
    Cert.ReferenceIdeal.RefRun.dist (F := Ideal) e ρ t hp W b (ix1 n)
      = refScore (fun k => e (ix2 n k)) (fun k => ρ (ix2 n k)) (fun k => t (ix2 n k)) (fun k => hp (ix1 k)) (fun j k => W (ix2 j k)) (fun j => b (ix1 j)))
  (hTakeE0 : ∀ (E : S1000000x64i → EReal) (a : S16384x3i → BitVec 32) (hlt : ∀ i, (a i).toNat < 100000) (n : Fin 16384) (j : Fin 64),
    Cert.ReferenceIdeal.RefRun.takeE (F := Ideal) E (Cert.ReferenceIdeal.RefRun.col0 (F := Ideal) a) (ix2 n j)
      = E (ix2 ⟨(a (ix2 n 0)).toNat, lt_trans (hlt _) (by decide)⟩ j))
  (hTakeE2 : ∀ (E : S1000000x64i → EReal) (a : S16384x3i → BitVec 32) (hlt : ∀ i, (a i).toNat < 100000) (n : Fin 16384) (j : Fin 64),
    Cert.ReferenceIdeal.RefRun.takeE (F := Ideal) E (Cert.ReferenceIdeal.RefRun.col2 (F := Ideal) a) (ix2 n j)
      = E (ix2 ⟨(a (ix2 n 2)).toNat, lt_trans (hlt _) (by decide)⟩ j))
  (hTakeR1 : ∀ (R : S100000x64i → EReal) (a : S16384x3i → BitVec 32) (hlt : ∀ i, (a i).toNat < 100000) (n : Fin 16384) (j : Fin 64),
    Cert.ReferenceIdeal.RefRun.takeR (F := Ideal) R (Cert.ReferenceIdeal.RefRun.col1 (F := Ideal) a) (ix2 n j)
      = R (ix2 ⟨(a (ix2 n 1)).toNat, hlt _⟩ j))

include hDist hTakeE0 hTakeE2 hTakeR1

theorem value_eq_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hix : Cert.KernelIdeal.Vals.IxLt m c) :
    StableHlo.after Cert.ReferenceIdeal.RefRun.ops (StableHlo.launchContents m' c) (Cert.ReferenceIdeal.main_v70 : DevRef Cert.ReferenceIdeal.τ Cert.ReferenceIdeal.sig)
      = Cert.KernelIdeal.Segs.W6 m c (Proc.devRef .tc Cert.KernelIdeal.main_v26) := by
  obtain ⟨h0, h1, h2, h3, h4, h5, h6⟩ := hagree
  rw [Cert.ReferenceIdeal.RefRun.val_eq]
  have e0 : StableHlo.launchContents m' c (Cert.ReferenceIdeal.main_arg0 : DevRef Cert.ReferenceIdeal.τ Cert.ReferenceIdeal.sig) = trip0 m c := h0
  have e1 : StableHlo.launchContents m' c (Cert.ReferenceIdeal.main_arg1 : DevRef Cert.ReferenceIdeal.τ Cert.ReferenceIdeal.sig) = trip1 m c := h1
  have e2 : StableHlo.launchContents m' c (Cert.ReferenceIdeal.main_arg2 : DevRef Cert.ReferenceIdeal.τ Cert.ReferenceIdeal.sig) = entF m c := h2
  have e3 : StableHlo.launchContents m' c (Cert.ReferenceIdeal.main_arg3 : DevRef Cert.ReferenceIdeal.τ Cert.ReferenceIdeal.sig) = relF m c := h3
  have e4 : StableHlo.launchContents m' c (Cert.ReferenceIdeal.main_arg4 : DevRef Cert.ReferenceIdeal.τ Cert.ReferenceIdeal.sig) = hypF m c := h4
  have e5 : StableHlo.launchContents m' c (Cert.ReferenceIdeal.main_arg5 : DevRef Cert.ReferenceIdeal.τ Cert.ReferenceIdeal.sig) = wF m c := h5
  have e6 : StableHlo.launchContents m' c (Cert.ReferenceIdeal.main_arg6 : DevRef Cert.ReferenceIdeal.τ Cert.ReferenceIdeal.sig) = bF m c := h6
  rw [e0, e1, e2, e3, e4, e5, e6]
  refine funext fun i => ?_
  obtain rfl : i = ix0 := eq_ix0 i
  refine (refVal_at hDist hTakeE0 hTakeE2 hTakeR1 (fun e ρ t hp W b => Cert.RowBridge.refScore_eq e ρ t hp W b)
    (trip0 m c) (trip1 m c) (entF m c) (relF m c) (hypF m c) (wF m c) (bF m c) (trip0_lt m c hix) (trip1_lt m c hix)).trans ?_
  refine Eq.trans ?_ ((Cert.KernelIdeal.Ends.W6_result_apply m c).trans (kernel_value m c)).symm
  exact congrArg (· * scaleW) (Finset.sum_congr rfl fun n _ => (rowLossM_eq m c hix n).symm)

end Final

/-- THE BRIDGE: from memories agreeing on the seven argument arrays, with every triplet index below 100000, the
    reference's result buffer and the kernel's hold the same extended real. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hix : Cert.KernelIdeal.Vals.IxLt m c) :
    StableHlo.after Cert.ReferenceIdeal.RefRun.ops (StableHlo.launchContents m' c) (Cert.ReferenceIdeal.main_v70 : DevRef Cert.ReferenceIdeal.τ Cert.ReferenceIdeal.sig)
      = Cert.KernelIdeal.Segs.W6 m c (Proc.devRef .tc Cert.KernelIdeal.main_v26) :=
  value_eq_of (fun e ρ t hp W b n => Cert.ReferenceIdeal.RefDist.dist_apply e ρ t hp W b n)
    (fun E a hlt n j => Cert.ReferenceIdeal.RefTake.takeE_col0 (F := Ideal) a hlt E n j)
    (fun E a hlt n j => Cert.ReferenceIdeal.RefTake.takeE_col2 (F := Ideal) a hlt E n j)
    (fun R a hlt n j => Cert.ReferenceIdeal.RefTake.takeR_col1 (F := Ideal) a hlt R n j)
    m m' c hagree hix

end Cert.Bridge
end
-- ==== Proof.lean ====
/-
  The five claims. The kernel program's frame, at both readings, is its run through the SparseCore launch theorem —
  every weakly fair execution of the TensorCore's @main, the two sequencers and the thirty-two tiles terminates,
  faulting nowhere — read at the argument arrays, which no host operation, no pipeline write-back and no tile's copy
  writes. The reference's frame is its host run. The idealization rewrote nothing. At the extended reals the kernel's
  scalar — the mean over the 16384 triplet pairs of the hinge of the two attention-weighted distances, accumulated in
  four blocks and scaled by 2⁻¹⁴ — is the reference's: the packed table's rows an index can name are the two embedding
  tables' rows, the 192-wide product splits into its three 64-wide parts, the softmax and the norm are the same
  operations, and the quotient by 16384 is the product with its reciprocal.
-/
import proofs.«203064_g33122787786777_cont_8to1_b_416_18_alg».proof.Defs
import proofs.«203064_g33122787786777_cont_8to1_b_416_18_alg».proof.Proof.Gen.Kernel
import proofs.«203064_g33122787786777_cont_8to1_b_416_18_alg».proof.Proof.Gen.KernelIdeal
import proofs.«203064_g33122787786777_cont_8to1_b_416_18_alg».proof.Proof.Gen.ReferenceIdeal
import proofs.«203064_g33122787786777_cont_8to1_b_416_18_alg».proof.Proof.Gen.Pre_input_domain
import proofs.«203064_g33122787786777_cont_8to1_b_416_18_alg».proof.Proof.Run
import proofs.«203064_g33122787786777_cont_8to1_b_416_18_alg».proof.Proof.KRun
import proofs.«203064_g33122787786777_cont_8to1_b_416_18_alg».proof.Proof.PreIx
import proofs.«203064_g33122787786777_cont_8to1_b_416_18_alg».proof.Proof.KPreIx
import proofs.«203064_g33122787786777_cont_8to1_b_416_18_alg».proof.Proof.RefRun
import proofs.«203064_g33122787786777_cont_8to1_b_416_18_alg».proof.Proof.Bridge

noncomputable section

namespace Cert.Proof

open Idealize.ShloMosaic Idealize.ShloMosaic.TcCoe Idealize.SL.Sem

/-- The arguments' buffers, and the result's, are among those the run's post names. -/
theorem kmem0 : (Proc.devRef .tc Cert.Kernel.main_arg0 : DevRef Cert.Kernel.τ Cert.Kernel.sig) ∈ Cert.Kernel.Segs.U' := by decide
theorem kmem1 : (Proc.devRef .tc Cert.Kernel.main_arg1 : DevRef Cert.Kernel.τ Cert.Kernel.sig) ∈ Cert.Kernel.Segs.U' := by decide
theorem kmem2 : (Proc.devRef .tc Cert.Kernel.main_arg2 : DevRef Cert.Kernel.τ Cert.Kernel.sig) ∈ Cert.Kernel.Segs.U' := by decide
theorem kmem3 : (Proc.devRef .tc Cert.Kernel.main_arg3 : DevRef Cert.Kernel.τ Cert.Kernel.sig) ∈ Cert.Kernel.Segs.U' := by decide
theorem kmem4 : (Proc.devRef .tc Cert.Kernel.main_arg4 : DevRef Cert.Kernel.τ Cert.Kernel.sig) ∈ Cert.Kernel.Segs.U' := by decide
theorem kmem5 : (Proc.devRef .tc Cert.Kernel.main_arg5 : DevRef Cert.Kernel.τ Cert.Kernel.sig) ∈ Cert.Kernel.Segs.U' := by decide
theorem kmem6 : (Proc.devRef .tc Cert.Kernel.main_arg6 : DevRef Cert.Kernel.τ Cert.Kernel.sig) ∈ Cert.Kernel.Segs.U' := by decide
theorem imem0 : (Proc.devRef .tc Cert.KernelIdeal.main_arg0 : DevRef Cert.KernelIdeal.τ Cert.KernelIdeal.sig) ∈ Cert.KernelIdeal.Segs.U' := by decide
theorem imem1 : (Proc.devRef .tc Cert.KernelIdeal.main_arg1 : DevRef Cert.KernelIdeal.τ Cert.KernelIdeal.sig) ∈ Cert.KernelIdeal.Segs.U' := by decide
theorem imem2 : (Proc.devRef .tc Cert.KernelIdeal.main_arg2 : DevRef Cert.KernelIdeal.τ Cert.KernelIdeal.sig) ∈ Cert.KernelIdeal.Segs.U' := by decide
theorem imem3 : (Proc.devRef .tc Cert.KernelIdeal.main_arg3 : DevRef Cert.KernelIdeal.τ Cert.KernelIdeal.sig) ∈ Cert.KernelIdeal.Segs.U' := by decide
theorem imem4 : (Proc.devRef .tc Cert.KernelIdeal.main_arg4 : DevRef Cert.KernelIdeal.τ Cert.KernelIdeal.sig) ∈ Cert.KernelIdeal.Segs.U' := by decide
theorem imem5 : (Proc.devRef .tc Cert.KernelIdeal.main_arg5 : DevRef Cert.KernelIdeal.τ Cert.KernelIdeal.sig) ∈ Cert.KernelIdeal.Segs.U' := by decide
theorem imem6 : (Proc.devRef .tc Cert.KernelIdeal.main_arg6 : DevRef Cert.KernelIdeal.τ Cert.KernelIdeal.sig) ∈ Cert.KernelIdeal.Segs.U' := by decide
theorem imemR : (Proc.devRef .tc Cert.KernelIdeal.main_v26 : DevRef Cert.KernelIdeal.τ Cert.KernelIdeal.sig) ∈ Cert.KernelIdeal.Segs.U' := by decide

/-- The word-level kernel runs and leaves its arguments unchanged. -/
theorem frame_k : Cert.frame_Kernel := fun m ρ hpre =>
  (θ_run Cert.Kernel.defs _ _).mono (fun _ h c =>
    ⟨(h c _ kmem0).trans (Cert.Kernel.Ends.W6_main_arg0 m c),
      (h c _ kmem1).trans (Cert.Kernel.Ends.W6_main_arg1 m c),
      (h c _ kmem2).trans (Cert.Kernel.Ends.W6_main_arg2 m c),
      (h c _ kmem3).trans (Cert.Kernel.Ends.W6_main_arg3 m c),
      (h c _ kmem4).trans (Cert.Kernel.Ends.W6_main_arg4 m c),
      (h c _ kmem5).trans (Cert.Kernel.Ends.W6_main_arg5 m c),
      (h c _ kmem6).trans (Cert.Kernel.Ends.W6_main_arg6 m c)⟩)
    (Cert.Kernel.Run.run_main (F := Bits) m ρ fun d => Cert.Kernel.PreIx.ixLt_of_Pre m hpre d)

/-- The idealized kernel runs and leaves its arguments unchanged. -/
theorem frame_ki : Cert.frame_KernelIdeal := fun m ρ hpre =>
  (θ_run Cert.KernelIdeal.defs _ _).mono (fun _ h c =>
    ⟨(h c _ imem0).trans (Cert.KernelIdeal.Ends.W6_main_arg0 m c),
      (h c _ imem1).trans (Cert.KernelIdeal.Ends.W6_main_arg1 m c),
      (h c _ imem2).trans (Cert.KernelIdeal.Ends.W6_main_arg2 m c),
      (h c _ imem3).trans (Cert.KernelIdeal.Ends.W6_main_arg3 m c),
      (h c _ imem4).trans (Cert.KernelIdeal.Ends.W6_main_arg4 m c),
      (h c _ imem5).trans (Cert.KernelIdeal.Ends.W6_main_arg5 m c),
      (h c _ imem6).trans (Cert.KernelIdeal.Ends.W6_main_arg6 m c)⟩)
    (Cert.KernelIdeal.Run.run_main (F := Ideal) m ρ fun d => Cert.KernelIdeal.PreIx.ixLt_of_Pre m hpre d)

/-- The two idealized programs, from memories that agree on the arguments, end with the same scalar. -/
theorem algebraic : Cert.algebraic_KernelIdeal_ReferenceIdeal := by
  intro m ρ m' ρ' hpre hagree
  have hix : ∀ d, Cert.KernelIdeal.Vals.IxLt m d := fun d => Cert.KernelIdeal.PreIx.ixLt_of_Pre m hpre d
  refine ⟨fun c => Cert.KernelIdeal.Segs.W6 m c (Proc.devRef .tc Cert.KernelIdeal.main_v26), ?_, ?_⟩
  · exact (θ_run Cert.KernelIdeal.defs _ _).mono (fun _ h c =>
      ⟨h c _ imemR,
      (h c _ imem0).trans (Cert.KernelIdeal.Ends.W6_main_arg0 m c),
      (h c _ imem1).trans (Cert.KernelIdeal.Ends.W6_main_arg1 m c),
      (h c _ imem2).trans (Cert.KernelIdeal.Ends.W6_main_arg2 m c),
      (h c _ imem3).trans (Cert.KernelIdeal.Ends.W6_main_arg3 m c),
      (h c _ imem4).trans (Cert.KernelIdeal.Ends.W6_main_arg4 m c),
      (h c _ imem5).trans (Cert.KernelIdeal.Ends.W6_main_arg5 m c),
      (h c _ imem6).trans (Cert.KernelIdeal.Ends.W6_main_arg6 m c)⟩)
      (Cert.KernelIdeal.Run.run_main (F := Ideal) m ρ hix)
  · exact (θ_run Cert.ReferenceIdeal.defs _ _).mono (fun _ h c => ⟨(h c).1.trans (Cert.Bridge.value_eq m m' c (hagree c) (hix c)), (h c).2⟩)
      (Cert.ReferenceIdeal.RefRun.run_fold (F := Ideal) m' ρ')

theorem claim : Cert.Claim :=
  ⟨Cert.Kernel.Gen.facts, Cert.KernelIdeal.Gen.facts, Cert.ReferenceIdeal.Gen.facts, Cert.Pre_input_domain.Gen.facts,
    frame_k, frame_ki, Cert.ReferenceIdeal.RefRun.frame_ri, trivial, algebraic⟩

end Cert.Proof

end
